-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.sign_bit.Statement Cert.KernelIdeal.S256x2048 .f32
  ∧ IdealRules.sign_bit.Statement Cert.KernelIdeal.S1024x1024 .f32
  ∧ IdealRules.sign_bit.Statement Cert.KernelIdeal.S256x4096 .f32
  ∧ IdealRules.sign_bit.Statement Cert.KernelIdeal.S1024x1024 .f32
  ∧ IdealRules.sign_bit.Statement Cert.KernelIdeal.S256x4096 .f32
  ∧ IdealRules.sign_bit.Statement Cert.KernelIdeal.S1024x1024 .f32
  ∧ IdealRules.sign_bit.Statement Cert.KernelIdeal.S256x4096 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096 : Shape := ⟨1, ![4096]⟩
abbrev S4096x4096 : Shape := ⟨2, ![4096, 4096]⟩
abbrev S1000x4096 : Shape := ⟨2, ![1000, 4096]⟩
abbrev S1000 : Shape := ⟨1, ![1000]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S1000x4096 : S_.BroadcastsInDim S1000x4096 (![] : Fin 0 → Fin S1000x4096.rank)
  reducesTo_S1000x4096_S_d0_1 : S1000x4096.ReducesTo [0, 1] S_
  bcast_S_S1000 : S_.BroadcastsInDim S1000 (![] : Fin 0 → Fin S1000.rank)
  reducesTo_S1000_S_d0 : S1000.ReducesTo [0] S_

variable [Facts]

def fn_part3 {F : FTy → Type} [FloatOps F] (main_arg11 : FVec F S1000 .f32) (main_arg12 : FVec F S1000 .f32) (main_v48 : IVec S_ 1) (main_v49 : FVec F S1000x4096 .f32) (main_v50 : FVec F S1000x4096 .f32) : IVec S_ 1 :=
  let main_v51 : IVec S1000x4096 1 := cmpf .olt main_v49 main_v50
  let main_c_19 : IVec S_ 1 := constantI S_ 1 1#1
  let main_v52 : IVec S_ 1 := (fun x v => Host.reduce IntOp.andi x v reducesTo_S1000x4096_S_d0_1 h_S_) main_v51 main_c_19
  let main_v53 : IVec S_ 1 := andi main_v48 main_v52
  let main_v54 : FVec F S1000 .f32 := Host.absf main_arg11
  let main_cst_20 : FVec F S_ .f32 := constant S_ .f32 0x7F800000#32
  let main_v55 : FVec F S1000 .f32 := broadcastInDim S1000 ![] bcast_S_S1000 main_cst_20
  let main_v56 : IVec S1000 1 := cmpf .olt main_v54 main_v55
  let main_c_21 : IVec S_ 1 := constantI S_ 1 1#1
  let main_v57 : IVec S_ 1 := (fun x v => Host.reduce IntOp.andi x v reducesTo_S1000_S_d0 h_S_) main_v56 main_c_21
  let main_v58 : IVec S_ 1 := andi main_v53 main_v57
  let main_v59 : FVec F S1000 .f32 := Host.absf main_arg12
  let main_cst_22 : FVec F S_ .f32 := constant S_ .f32 0x7F800000#32
  let main_v60 : FVec F S1000 .f32 := broadcastInDim S1000 ![] bcast_S_S1000 main_cst_22
  let main_v61 : IVec S1000 1 := cmpf .olt main_v59 main_v60
  let main_c_23 : IVec S_ 1 := constantI S_ 1 1#1
  let main_v62 : IVec S_ 1 := (fun x v => Host.reduce IntOp.andi x v reducesTo_S1000_S_d0 h_S_) main_v61 main_c_23
  let main_v63 : IVec S_ 1 := andi main_v58 main_v62
  main_v63

def fn_part2 {F : FTy → Type} [FloatOps F] (main_arg7 : FVec F S4096x4096 .f32) (main_arg8 : FVec F S4096 .f32) (main_arg9 : FVec F S4096 .f32) (main_arg10 : FVec F S1000x4096 .f32) (main_arg11 : FVec F S1000 .f32) (main_arg12 : FVec F S1000 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  let main_v49 : FVec F S1000x4096 .f32 := Host.absf main_arg10
  let main_cst_18 : FVec F S_ .f32 := constant S_ .f32 0x7F800000#32
  let main_v50 : FVec F S1000x4096 .f32 := broadcastInDim S1000x4096 ![] bcast_S_S1000x4096 main_cst_18
  fn_part3 (F := F) main_arg11 main_arg12 main_v48 main_v49 main_v50

def fn_part1 {F : FTy → Type} [FloatOps F] (main_arg4 : FVec F S4096x4096 .f32) (main_arg5 : FVec F S4096 .f32) (main_arg6 : FVec F S4096 .f32) (main_arg7 : FVec F S4096x4096 .f32) (main_arg8 : FVec F S4096 .f32) (main_arg9 : FVec F S4096 .f32) (main_arg10 : FVec F S1000x4096 .f32) (main_arg11 : FVec F S1000 .f32) (main_arg12 : FVec F S1000 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4096x2048 .f32) (main_arg1 : FVec F S4096x2048 .f32) (main_arg2 : FVec F S4096 .f32) (main_arg3 : FVec F S4096 .f32) (main_arg4 : FVec F S4096x4096 .f32) (main_arg5 : FVec F S4096 .f32) (main_arg6 : FVec F S4096 .f32) (main_arg7 : FVec F S4096x4096 .f32) (main_arg8 : FVec F S4096 .f32) (main_arg9 : FVec F S4096 .f32) (main_arg10 : FVec F S1000x4096 .f32) (main_arg11 : FVec F S1000 .f32) (main_arg12 : FVec F S1000 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_arg10 main_arg11 main_arg12 main_v13 main_v16
-- ==== Kernel.lean ====
abbrev S4096x2048 : Shape := ⟨2, ![4096, 2048]⟩
abbrev S4096 : Shape := ⟨1, ![4096]⟩
abbrev S4096x4096 : Shape := ⟨2, ![4096, 4096]⟩
abbrev S1000x4096 : Shape := ⟨2, ![1000, 4096]⟩
abbrev S1000 : Shape := ⟨1, ![1000]⟩
abbrev S256x2048 : Shape := ⟨2, ![256, 2048]⟩
abbrev S1x4096 : Shape := ⟨2, ![1, 4096]⟩
abbrev S1024x512 : Shape := ⟨2, ![1024, 512]⟩
abbrev S1024x1024 : Shape := ⟨2, ![1024, 1024]⟩
abbrev S1x1024 : Shape := ⟨2, ![1, 1024]⟩
abbrev S1024 : Shape := ⟨1, ![1024]⟩
abbrev S256x4096 : Shape := ⟨2, ![256, 4096]⟩
abbrev S_ : Shape := ⟨0, ![]⟩
abbrev S1024x4096 : Shape := ⟨2, ![1024, 4096]⟩
abbrev S4096x1024 : Shape := ⟨2, ![4096, 1024]⟩
abbrev S4096x1000 : Shape := ⟨2, ![4096, 1000]⟩

abbrev nBuf : Space → Nat
  | .hbm => 51
  | .vmem => 110
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S4096, .f32⟩
  | .hbm, ⟨6, _⟩ => ⟨S4096, .f32⟩
  | .hbm, ⟨7, _⟩ => ⟨S4096x4096, .f32⟩
  | .hbm, ⟨8, _⟩ => ⟨S4096, .f32⟩
  | .hbm, ⟨9, _⟩ => ⟨S4096, .f32⟩
  | .hbm, ⟨10, _⟩ => ⟨S1000x4096, .f32⟩
  | .hbm, ⟨11, _⟩ => ⟨S1000, .f32⟩
  | .hbm, ⟨12, _⟩ => ⟨S1000, .f32⟩
  | .hbm, ⟨13, _⟩ => ⟨S4096x2048, .bf16⟩
  | .hbm, ⟨14, _⟩ => ⟨S4096x4096, .f32⟩
  | .hbm, ⟨15, _⟩ => ⟨S1x4096, .f32⟩
  | .hbm, ⟨16, _⟩ => ⟨S1x4096, .f32⟩
  | .hbm, ⟨17, _⟩ => ⟨S1x4096, .f32⟩
  | .hbm, ⟨18, _⟩ => ⟨S1x4096, .f32⟩
  | .hbm, ⟨19, _⟩ => ⟨S4096x4096, .bf16⟩
  | .hbm, ⟨20, _⟩ => ⟨S4096x4096, .bf16⟩
  | .hbm, ⟨21, _⟩ => ⟨S4096x4096, .f32⟩
  | .hbm, ⟨22, _⟩ => ⟨S1x4096, .f32⟩
  | .hbm, ⟨23, _⟩ => ⟨S1x4096, .f32⟩
  | .hbm, ⟨24, _⟩ => ⟨S1x4096, .f32⟩
  | .hbm, ⟨25, _⟩ => ⟨S1x4096, .f32⟩
  | .hbm, ⟨26, _⟩ => ⟨S4096x4096, .bf16⟩
  | .hbm, ⟨27, _⟩ => ⟨S4096x4096, .bf16⟩
  | .hbm, ⟨28, _⟩ => ⟨S4096x4096, .f32⟩
  | .hbm, ⟨29, _⟩ => ⟨S1x4096, .f32⟩
  | .hbm, ⟨30, _⟩ => ⟨S1x4096, .f32⟩
  | .hbm, ⟨31, _⟩ => ⟨S1x4096, .f32⟩
  | .hbm, ⟨32, _⟩ => ⟨S1x4096, .f32⟩
  | .hbm, ⟨33, _⟩ => ⟨S4096x4096, .bf16⟩
  | .hbm, ⟨34, _⟩ => ⟨S_, .i32⟩
  | .hbm, ⟨35, _⟩ => ⟨S_, .f32⟩
  | .hbm, ⟨36, _⟩ => ⟨S1024x4096, .f32⟩
  | .hbm, ⟨37, _⟩ => ⟨S_, .i32⟩
  | .hbm, ⟨38, _⟩ => ⟨S_, .f32⟩
  | .hbm, ⟨39, _⟩ => ⟨S1024, .f32⟩
  | .hbm, ⟨40, _⟩ => ⟨S_, .i32⟩
  | .hbm, ⟨41, _⟩ => ⟨S_, .f32⟩
  | .hbm, ⟨42, _⟩ => ⟨S1024, .f32⟩
  | .hbm, ⟨43, _⟩ => ⟨S1024x4096, .bf16⟩
  | .hbm, ⟨44, _⟩ => ⟨S4096x1024, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S4096x1024, .f32⟩
  | .hbm, ⟨50, _⟩ => ⟨S4096x1000, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1x1024, .f32⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1024x1024, .bf16⟩
  | .local _ .vmem, ⟨28, _⟩ => ⟨S1024x1024, .bf16⟩
  | .local _ .vmem, ⟨29, _⟩ => ⟨S256x4096, .f32⟩
  | .local _ .vmem, ⟨30, _⟩ => ⟨S256x4096, .f32⟩
  | .local _ .vmem, ⟨31, _⟩ => ⟨S256x4096, .bf16⟩
  | .local _ .vmem, ⟨32, _⟩ => ⟨S256x4096, .bf16⟩
  | .local _ .vmem, ⟨33, _⟩ => ⟨S1024x512, .bf16⟩
  | .local _ .vmem, ⟨34, _⟩ => ⟨S1024x512, .bf16⟩
  | .local _ .vmem, ⟨35, _⟩ => ⟨S1024x512, .bf16⟩
  | .local _ .vmem, ⟨36, _⟩ => ⟨S1024x512, .bf16⟩
  | .local _ .vmem, ⟨37, _⟩ => ⟨S1024x1024, .f32⟩
  | .local _ .vmem, ⟨38, _⟩ => ⟨S1024x1024, .f32⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | .local _ .vmem, ⟨42, _⟩ => ⟨S1x1024, .f32⟩
  | .local _ .vmem, ⟨43, _⟩ => ⟨S1024x1024, .f32⟩
  | .local _ .vmem, ⟨44, _⟩ => ⟨S1x1024, .f32⟩
  | .local _ .vmem, ⟨45, _⟩ => ⟨S1x1024, .f32⟩
  | .local _ .vmem, ⟨46, _⟩ => ⟨S1024x1024, .f32⟩
  | .local _ .vmem, ⟨47, _⟩ => ⟨S1024x1024, .f32⟩
  | .local _ .vmem, ⟨48, _⟩ => ⟨S1x1024, .f32⟩
  | .local _ .vmem, ⟨49, _⟩ => ⟨S1x1024, .f32⟩
  | .local _ .vmem, ⟨50, _⟩ => ⟨S1x1024, .f32⟩
  | .local _ .vmem, ⟨51, _⟩ => ⟨S1x1024, .f32⟩
  | .local _ .vmem, ⟨52, _⟩ => ⟨S1x1024, .f32⟩
  | .local _ .vmem, ⟨53, _⟩ => ⟨S1x1024, .f32⟩
  | .local _ .vmem, ⟨54, _⟩ => ⟨S1x1024, .f32⟩
  | .local _ .vmem, ⟨55, _⟩ => ⟨S1x1024, .f32⟩
  | .local _ .vmem, ⟨56, _⟩ => ⟨S1024x1024, .bf16⟩
  | .local _ .vmem, ⟨57, _⟩ => ⟨S1024x1024, .bf16⟩
  | .local _ .vmem, ⟨58, _⟩ => ⟨S256x4096, .f32⟩
  | .local _ .vmem, ⟨59, _⟩ => ⟨S256x4096, .f32⟩
  | .local _ .vmem, ⟨60, _⟩ => ⟨S256x4096, .bf16⟩
  | .local _ .vmem, ⟨61, _⟩ => ⟨S256x4096, .bf16⟩
  | .local _ .vmem, ⟨62, _⟩ => ⟨S1024x512, .bf16⟩
  | .local _ .vmem, ⟨63, _⟩ => ⟨S1024x512, .bf16⟩
  | .local _ .vmem, ⟨64, _⟩ => ⟨S1024x512, .bf16⟩
  | .local _ .vmem, ⟨65, _⟩ => ⟨S1024x512, .bf16⟩
  | .local _ .vmem, ⟨66, _⟩ => ⟨S1024x1024, .f32⟩
  | .local _ .vmem, ⟨67, _⟩ => ⟨S1024x1024, .f32⟩
  | .local _ .vmem, ⟨68, _⟩ => ⟨S1x1024, .f32⟩
  | .local _ .vmem, ⟨69, _⟩ => ⟨S1x1024, .f32⟩
  | .local _ .vmem, ⟨70, _⟩ => ⟨S1x1024, .f32⟩
  | .local _ .vmem, ⟨71, _⟩ => ⟨S1x1024, .f32⟩
  | .local _ .vmem, ⟨72, _⟩ => ⟨S1024x1024, .f32⟩
  | .local _ .vmem, ⟨73, _⟩ => ⟨S1x1024, .f32⟩
  | .local _ .vmem, ⟨74, _⟩ => ⟨S1x1024, .f32⟩
  | .local _ .vmem, ⟨75, _⟩ => ⟨S1024x1024, .f32⟩
  | .local _ .vmem, ⟨76, _⟩ => ⟨S1024x1024, .f32⟩
  | .local _ .vmem, ⟨77, _⟩ => ⟨S1x1024, .f32⟩
  | .local _ .vmem, ⟨78, _⟩ => ⟨S1x1024, .f32⟩
  | .local _ .vmem, ⟨79, _⟩ => ⟨S1x1024, .f32⟩
  | .local _ .vmem, ⟨80, _⟩ => ⟨S1x1024, .f32⟩
  | .local _ .vmem, ⟨81, _⟩ => ⟨S1x1024, .f32⟩
  | .local _ .vmem, ⟨82, _⟩ => ⟨S1x1024, .f32⟩
  | .local _ .vmem, ⟨83, _⟩ => ⟨S1x1024, .f32⟩
  | .local _ .vmem, ⟨84, _⟩ => ⟨S1x1024, .f32⟩
  | .local _ .vmem, ⟨85, _⟩ => ⟨S1024x1024, .bf16⟩
  | .local _ .vmem, ⟨86, _⟩ => ⟨S1024x1024, .bf16⟩
  | .local _ .vmem, ⟨87, _⟩ => ⟨S256x4096, .f32⟩
  | .local _ .vmem, ⟨88, _⟩ => ⟨S256x4096, .f32⟩
  | .local _ .vmem, ⟨89, _⟩ => ⟨S256x4096, .bf16⟩
  | .local _ .vmem, ⟨90, _⟩ => ⟨S256x4096, .bf16⟩
  | .local _ .vmem, ⟨91, _⟩ => ⟨S1024x512, .bf16⟩
  | .local _ .vmem, ⟨92, _⟩ => ⟨S1024x512, .bf16⟩
  | .local _ .vmem, ⟨93, _⟩ => ⟨S1024x512, .bf16⟩
  | .local _ .vmem, ⟨94, _⟩ => ⟨S1024x512, .bf16⟩
  | .local _ .vmem, ⟨95, _⟩ => ⟨S1024x1024, .f32⟩
  | .local _ .vmem, ⟨96, _⟩ => ⟨S1024x1024, .f32⟩
  | .local _ .vmem, ⟨97, _⟩ => ⟨S1x1024, .f32⟩
  | .local _ .vmem, ⟨98, _⟩ => ⟨S1x1024, .f32⟩
  | .local _ .vmem, ⟨99, _⟩ => ⟨S1024x1024, .f32⟩
  | .local _ .vmem, ⟨100, _⟩ => ⟨S1x1024, .f32⟩
  | .local _ .vmem, ⟨101, _⟩ => ⟨S1x1024, .f32⟩
  | .local _ .vmem, ⟨102, _⟩ => ⟨S1024x1024, .f32⟩
  | .local _ .vmem, ⟨103, _⟩ => ⟨S1024x1024, .f32⟩
  | .local _ .vmem, ⟨104, _⟩ => ⟨S1x1024, .f32⟩
  | .local _ .vmem, ⟨105, _⟩ => ⟨S1x1024, .f32⟩
  | .local _ .vmem, ⟨106, _⟩ => ⟨S1x1024, .f32⟩
  | .local _ .vmem, ⟨107, _⟩ => ⟨S1x1024, .f32⟩
  | .local _ .vmem, ⟨108, _⟩ => ⟨S1024x1024, .f32⟩
  | .local _ .vmem, ⟨109, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | _, _ => false

abbrev semScoped : Fin 0 → Bool
  | ⟨_, h⟩ => absurd h (Nat.not_lt_zero _)

abbrev dmaSemScoped : Fin 98 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | _ => false

abbrev sig : RefSig :=
  ofTc nBuf bufTy 0 98 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1_0 : Ref sig .tc := ⟨.hbm, 14, rfl⟩
abbrev main_v1_1 : Ref sig .tc := ⟨.hbm, 15, rfl⟩
abbrev main_v1_2 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev main_v6_2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11_0 : Ref sig .tc := ⟨.hbm, 28, rfl⟩
abbrev main_v11_1 : Ref sig .tc := ⟨.hbm, 29, rfl⟩
abbrev main_v11_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c : Ref sig .tc := ⟨.hbm, 34, rfl⟩
abbrev main_call0_v0 : Ref sig .tc := ⟨.hbm, 35, rfl⟩
abbrev main_v15 : Ref sig .tc := ⟨.hbm, 36, rfl⟩
abbrev main_c_0 : Ref sig .tc := ⟨.hbm, 37, rfl⟩
abbrev main_call1_v0 : Ref sig .tc := ⟨.hbm, 38, rfl⟩
abbrev main_v16 : Ref sig .tc := ⟨.hbm, 39, rfl⟩
abbrev main_c_1 : Ref sig .tc := ⟨.hbm, 40, rfl⟩
abbrev main_call2_v0 : Ref sig .tc := ⟨.hbm, 41, rfl⟩
abbrev main_v17 : Ref sig .tc := ⟨.hbm, 42, rfl⟩
abbrev main_v18 : Ref sig .tc := ⟨.hbm, 43, rfl⟩
abbrev main_v19_0 : Ref sig .tc := ⟨.hbm, 44, rfl⟩
abbrev main_v19_1 : Ref sig .tc := ⟨.hbm, 45, rfl⟩
abbrev main_v19_2 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc2_stg5_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg2_1 : Ref sig .tc := ⟨.vmem, 38, rfl⟩
abbrev cc4_stg3_0 : Ref sig .tc := ⟨.vmem, 39, rfl⟩
abbrev cc4_stg3_1 : Ref sig .tc := ⟨.vmem, 40, rfl⟩
abbrev cc4_stg4_0 : Ref sig .tc := ⟨.vmem, 41, rfl⟩
abbrev cc4_stg4_1 : Ref sig .tc := ⟨.vmem, 42, rfl⟩
abbrev cc4_scratch0 : Ref sig .tc := ⟨.vmem, 43, rfl⟩
abbrev cc4_scratch1 : Ref sig .tc := ⟨.vmem, 44, rfl⟩
abbrev cc4_scratch2 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg2_1 : Ref sig .tc := ⟨.vmem, 51, rfl⟩
abbrev cc5_stg3_0 : Ref sig .tc := ⟨.vmem, 52, rfl⟩
abbrev cc5_stg3_1 : Ref sig .tc := ⟨.vmem, 53, rfl⟩
abbrev cc5_stg4_0 : Ref sig .tc := ⟨.vmem, 54, rfl⟩
abbrev cc5_stg4_1 : Ref sig .tc := ⟨.vmem, 55, rfl⟩
abbrev cc5_stg5_0 : Ref sig .tc := ⟨.vmem, 56, rfl⟩
abbrev cc5_stg5_1 : Ref sig .tc := ⟨.vmem, 57, rfl⟩
abbrev cc6_stg0_0 : Ref sig .tc := ⟨.vmem, 58, rfl⟩
abbrev cc6_stg0_1 : Ref sig .tc := ⟨.vmem, 59, rfl⟩
abbrev cc6_stg1_0 : Ref sig .tc := ⟨.vmem, 60, rfl⟩
abbrev cc6_stg1_1 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg1_1 : Ref sig .tc := ⟨.vmem, 65, rfl⟩
abbrev cc7_stg2_0 : Ref sig .tc := ⟨.vmem, 66, rfl⟩
abbrev cc7_stg2_1 : Ref sig .tc := ⟨.vmem, 67, rfl⟩
abbrev cc7_stg3_0 : Ref sig .tc := ⟨.vmem, 68, rfl⟩
abbrev cc7_stg3_1 : Ref sig .tc := ⟨.vmem, 69, rfl⟩
abbrev cc7_stg4_0 : Ref sig .tc := ⟨.vmem, 70, rfl⟩
abbrev cc7_stg4_1 : Ref sig .tc := ⟨.vmem, 71, rfl⟩
abbrev cc7_scratch0 : Ref sig .tc := ⟨.vmem, 72, rfl⟩
abbrev cc7_scratch1 : Ref sig .tc := ⟨.vmem, 73, rfl⟩
abbrev cc7_scratch2 : Ref sig .tc := ⟨.vmem, 74, rfl⟩
abbrev cc8_stg0_0 : Ref sig .tc := ⟨.vmem, 75, rfl⟩
abbrev cc8_stg0_1 : Ref sig .tc := ⟨.vmem, 76, rfl⟩
abbrev cc8_stg1_0 : Ref sig .tc := ⟨.vmem, 77, rfl⟩
abbrev cc8_stg1_1 : Ref sig .tc := ⟨.vmem, 78, rfl⟩
abbrev cc8_stg2_0 : Ref sig .tc := ⟨.vmem, 79, rfl⟩
abbrev cc8_stg2_1 : Ref sig .tc := ⟨.vmem, 80, rfl⟩
abbrev cc8_stg3_0 : Ref sig .tc := ⟨.vmem, 81, rfl⟩
abbrev cc8_stg3_1 : Ref sig .tc := ⟨.vmem, 82, rfl⟩
abbrev cc8_stg4_0 : Ref sig .tc := ⟨.vmem, 83, rfl⟩
abbrev cc8_stg4_1 : Ref sig .tc := ⟨.vmem, 84, rfl⟩
abbrev cc8_stg5_0 : Ref sig .tc := ⟨.vmem, 85, rfl⟩
abbrev cc8_stg5_1 : Ref sig .tc := ⟨.vmem, 86, rfl⟩
abbrev cc9_stg0_0 : Ref sig .tc := ⟨.vmem, 87, rfl⟩
abbrev cc9_stg0_1 : Ref sig .tc := ⟨.vmem, 88, rfl⟩
abbrev cc9_stg1_0 : Ref sig .tc := ⟨.vmem, 89, rfl⟩
abbrev cc9_stg1_1 : Ref sig .tc := ⟨.vmem, 90, rfl⟩
abbrev cc10_stg0_0 : Ref sig .tc := ⟨.vmem, 91, rfl⟩
abbrev cc10_stg0_1 : Ref sig .tc := ⟨.vmem, 92, rfl⟩
abbrev cc10_stg1_0 : Ref sig .tc := ⟨.vmem, 93, rfl⟩
abbrev cc10_stg1_1 : Ref sig .tc := ⟨.vmem, 94, rfl⟩
abbrev cc10_stg2_0 : Ref sig .tc := ⟨.vmem, 95, rfl⟩
abbrev cc10_stg2_1 : Ref sig .tc := ⟨.vmem, 96, rfl⟩
abbrev cc10_stg3_0 : Ref sig .tc := ⟨.vmem, 97, rfl⟩
abbrev cc10_stg4_0 : Ref sig .tc := ⟨.vmem, 98, rfl⟩
abbrev cc10_scratch0 : Ref sig .tc := ⟨.vmem, 99, rfl⟩
abbrev cc10_scratch1 : Ref sig .tc := ⟨.vmem, 100, rfl⟩
abbrev cc10_scratch2 : Ref sig .tc := ⟨.vmem, 101, rfl⟩
abbrev cc11_stg0_0 : Ref sig .tc := ⟨.vmem, 102, rfl⟩
abbrev cc11_stg0_1 : Ref sig .tc := ⟨.vmem, 103, rfl⟩
abbrev cc11_stg1_0 : Ref sig .tc := ⟨.vmem, 104, rfl⟩
abbrev cc11_stg2_0 : Ref sig .tc := ⟨.vmem, 105, rfl⟩
abbrev cc11_stg3_0 : Ref sig .tc := ⟨.vmem, 106, rfl⟩
abbrev cc11_stg4_0 : Ref sig .tc := ⟨.vmem, 107, rfl⟩
abbrev cc11_stg5_0 : Ref sig .tc := ⟨.vmem, 108, rfl⟩
abbrev cc11_stg5_1 : Ref sig .tc := ⟨.vmem, 109, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc4_sem3_0 : DmaSem sig := 36
abbrev cc4_sem3_1 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem2_1 : DmaSem sig := 45
abbrev cc5_sem3_0 : DmaSem sig := 46
abbrev cc5_sem3_1 : DmaSem sig := 47
abbrev cc5_sem4_0 : DmaSem sig := 48
abbrev cc5_sem4_1 : DmaSem sig := 49
abbrev cc5_sem5_0 : DmaSem sig := 50
abbrev cc5_sem5_1 : DmaSem sig := 51
abbrev cc6_sem0_0 : DmaSem sig := 52
abbrev cc6_sem0_1 : DmaSem sig := 53
abbrev cc6_sem1_0 : DmaSem sig := 54
abbrev cc6_sem1_1 : DmaSem sig := 55
abbrev cc7_sem0_0 : DmaSem sig := 56
abbrev cc7_sem0_1 : DmaSem sig := 57
abbrev cc7_sem1_0 : DmaSem sig := 58
abbrev cc7_sem1_1 : DmaSem sig := 59
abbrev cc7_sem2_0 : DmaSem sig := 60
abbrev cc7_sem2_1 : DmaSem sig := 61
abbrev cc7_sem3_0 : DmaSem sig := 62
abbrev cc7_sem3_1 : DmaSem sig := 63
abbrev cc7_sem4_0 : DmaSem sig := 64
abbrev cc7_sem4_1 : DmaSem sig := 65
abbrev cc8_sem0_0 : DmaSem sig := 66
abbrev cc8_sem0_1 : DmaSem sig := 67
abbrev cc8_sem1_0 : DmaSem sig := 68
abbrev cc8_sem1_1 : DmaSem sig := 69
abbrev cc8_sem2_0 : DmaSem sig := 70
abbrev cc8_sem2_1 : DmaSem sig := 71
abbrev cc8_sem3_0 : DmaSem sig := 72
abbrev cc8_sem3_1 : DmaSem sig := 73
abbrev cc8_sem4_0 : DmaSem sig := 74
abbrev cc8_sem4_1 : DmaSem sig := 75
abbrev cc8_sem5_0 : DmaSem sig := 76
abbrev cc8_sem5_1 : DmaSem sig := 77
abbrev cc9_sem0_0 : DmaSem sig := 78
abbrev cc9_sem0_1 : DmaSem sig := 79
abbrev cc9_sem1_0 : DmaSem sig := 80
abbrev cc9_sem1_1 : DmaSem sig := 81
abbrev cc10_sem0_0 : DmaSem sig := 82
abbrev cc10_sem0_1 : DmaSem sig := 83
abbrev cc10_sem1_0 : DmaSem sig := 84
abbrev cc10_sem1_1 : DmaSem sig := 85
abbrev cc10_sem2_0 : DmaSem sig := 86
abbrev cc10_sem2_1 : DmaSem sig := 87
abbrev cc10_sem3_0 : DmaSem sig := 88
abbrev cc10_sem4_0 : DmaSem sig := 89
abbrev cc11_sem0_0 : DmaSem sig := 90
abbrev cc11_sem0_1 : DmaSem sig := 91
abbrev cc11_sem1_0 : DmaSem sig := 92
abbrev cc11_sem2_0 : DmaSem sig := 93
abbrev cc11_sem3_0 : DmaSem sig := 94
abbrev cc11_sem4_0 : DmaSem sig := 95
abbrev cc11_sem5_0 : DmaSem sig := 96
abbrev cc11_sem5_1 : DmaSem sig := 97

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![4, 4, 4], ![false, false, false]⟩

def k1_cond3 (i : grid1.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32_10 : BitVec 32 := 0#32
  let v18 : BitVec 1 := Scalar.cmpi .ne v17 c0_i32_10
  v18

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S1024x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x4096 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨3, ![4, 4, 8], ![false, false, false]⟩

def k4_cond3 (i : grid4.Coords) : BitVec 1 :=
  let arg2 : BitVec 32 := BitVec.ofNat 32 (i 2).val
  let c7_i32 : BitVec 32 := 7#32
  let v16 : BitVec 1 := Scalar.cmpi .eq arg2 c7_i32
  let v17 : BitVec 32 := Scalar.extui v16
  let c0_i32_10 : BitVec 32 := 0#32
  let v18 : BitVec 1 := Scalar.cmpi .ne v17 c0_i32_10
  v18

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc4_transform_4 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage4_0 : Fin 2 → Memref sig .tc .vmem S1024x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true, true]

abbrev stage4_1 : Fin 2 → Memref sig .tc .vmem S1024x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev stage4_3 : Fin 2 → Memref sig .tc .vmem S1x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false, false]

abbrev stage4_4 : Fin 2 → Memref sig .tc .vmem S1x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false, false]

abbrev grid5 : Pipeline.Grid := ⟨2, ![4, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 2 → Memref sig .tc .vmem S1x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![false, true]

abbrev stage5_4 : Fin 2 → Memref sig .tc .vmem S1x1024 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![false, true]

abbrev stage5_5 : Fin 2 → Memref sig .tc .vmem S1024x1024 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]

abbrev grid6 : Pipeline.Grid := ⟨1, ![16], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x4096 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S256x4096 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev grid7 : Pipeline.Grid := ⟨3, ![4, 4, 8], ![false, false, false]⟩

def k7_cond3 (i : grid7.Coords) : BitVec 1 :=
  let arg2 : BitVec 32 := BitVec.ofNat 32 (i 2).val
  let c7_i32 : BitVec 32 := 7#32
  let v16 : BitVec 1 := Scalar.cmpi .eq arg2 c7_i32
  let v17 : BitVec 32 := Scalar.extui v16
  let c0_i32_10 : BitVec 32 := 0#32
  let v18 : BitVec 1 := Scalar.cmpi .ne v17 c0_i32_10
  v18

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc7_transform_3 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc7_transform_4 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage7_0 : Fin 2 → Memref sig .tc .vmem S1024x512 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true, true]

abbrev stage7_1 : Fin 2 → Memref sig .tc .vmem S1024x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false, true]

abbrev stage7_2 : Fin 2 → Memref sig .tc .vmem S1024x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev stage7_3 : Fin 2 → Memref sig .tc .vmem S1x1024 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false, false]

abbrev stage7_4 : Fin 2 → Memref sig .tc .vmem S1x1024 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, false, false]

abbrev grid8 : Pipeline.Grid := ⟨2, ![4, 4], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_4 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_5 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 2 → Memref sig .tc .vmem S1024x1024 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S1x1024 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S1x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![false, true]

abbrev stage8_3 : Fin 2 → Memref sig .tc .vmem S1x1024 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![false, true]

abbrev stage8_4 : Fin 2 → Memref sig .tc .vmem S1x1024 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![false, true]

abbrev stage8_5 : Fin 2 → Memref sig .tc .vmem S1024x1024 .bf16 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true, true]

abbrev grid9 : Pipeline.Grid := ⟨1, ![4], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S256x4096 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S256x4096 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev grid10 : Pipeline.Grid := ⟨3, ![1, 4, 8], ![false, false, false]⟩

def k10_cond3 (i : grid10.Coords) : BitVec 1 :=
  let arg2 : BitVec 32 := BitVec.ofNat 32 (i 2).val
  let c7_i32 : BitVec 32 := 7#32
  let v16 : BitVec 1 := Scalar.cmpi .eq arg2 c7_i32
  let v17 : BitVec 32 := Scalar.extui v16
  let c0_i32_10 : BitVec 32 := 0#32
  let v18 : BitVec 1 := Scalar.cmpi .ne v17 c0_i32_10
  v18

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc10_transform_3 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc10_transform_4 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage10_0 : Fin 2 → Memref sig .tc .vmem S1024x512 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![false, true, true]

abbrev stage10_1 : Fin 2 → Memref sig .tc .vmem S1024x512 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true, false, true]

abbrev stage10_2 : Fin 2 → Memref sig .tc .vmem S1024x1024 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]

abbrev stage10_3 : Fin 1 → Memref sig .tc .vmem S1x1024 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![true, false, false]

abbrev stage10_4 : Fin 1 → Memref sig .tc .vmem S1x1024 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![true, false, false]

abbrev grid11 : Pipeline.Grid := ⟨2, ![4, 1], ![false, false]⟩

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc11_transform_3 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc11_transform_4 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc11_transform_5 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage11_0 : Fin 2 → Memref sig .tc .vmem S1024x1024 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, true]

abbrev stage11_1 : Fin 1 → Memref sig .tc .vmem S1x1024 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false, true]

abbrev stage11_2 : Fin 1 → Memref sig .tc .vmem S1x1024 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false, true]

abbrev stage11_3 : Fin 1 → Memref sig .tc .vmem S1x1024 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false, true]

abbrev stage11_4 : Fin 1 → Memref sig .tc .vmem S1x1024 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false, true]

abbrev stage11_5 : Fin 2 → Memref sig .tc .vmem S1024x1024 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true, true]

class Facts₀ : Prop where
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  packedbf16_S256x2048_S256x2048_0_0 : (Rect.unit (s := S256x2048) ![0, 0] S256x2048.size inb_S256x2048_S256x2048_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S1024x1024_S1024 : S1024x1024.Reduces [0] S1024
  shapeCasts_S1024_S1x1024 : S1024.ShapeCasts S1x1024
  shapeCasts_S4096_S1x4096 : S4096.ShapeCasts S1x4096
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  inb_S256x4096_S256x4096_0_0 : ∀ a, (![0, 0] : Fin 2 → Nat) a + S256x4096.size a ≤ S256x4096.size a
  h_S256x4096 : 0 < S256x4096.numel
  packedbf16_S256x4096_S256x4096_0_0 : (Rect.unit (s := S256x4096) ![0, 0] S256x4096.size inb_S256x4096_S256x4096_0_0).PackedRows (EltTy.packing .bf16)
  pads_S1000x4096_S1024x4096_0240_000 : S1000x4096.Pads (![0, 0] : Fin 2 → Nat) ![24, 0] ![0, 0] S1024x4096
  h_S_ : 0 < S_.numel
  pads_S1000_S1024_0240 : S1000.Pads (![0] : Fin 1 → Nat) ![24] ![0] S1024
  shapeCasts_S256x4096_S256x4096 : S256x4096.ShapeCasts S256x4096
  slices_S4096x1024_S4096x1000_0_0 : S4096x1024.Slices ![0, 0] S4096x1000
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .bf16 = 32 ∨ (Rect.block (s := S4096x2048) S256x2048.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x2048.size a
  hwx1_0 : ∀ i : grid1.Coords, EltTy.bits .f32 = 32 ∨ (Rect.block (s := S4096x2048) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x2048.size a
  hwx1_1 : ∀ i : grid1.Coords, EltTy.bits .bf16 = 32 ∨ (Rect.block (s := S4096x2048) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x4096.size a
  hwx1_2 : ∀ i : grid1.Coords, EltTy.bits .f32 = 32 ∨ (Rect.block (s := S4096x4096) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x4096.size a
  hwx1_3 : ∀ i : grid1.Coords, EltTy.bits .f32 = 32 ∨ (Rect.block (s := S1x4096) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x4096.size a
  hwx1_4 : ∀ i : grid1.Coords, EltTy.bits .f32 = 32 ∨ (Rect.block (s := S1x4096) S1x1024.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x4096.size a
  hwx2_0 : ∀ i : grid2.Coords, EltTy.bits .f32 = 32 ∨ (Rect.block (s := S4096x4096) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024.size a ≤ S1x4096.size a
  hwx2_1 : ∀ i : grid2.Coords, EltTy.bits .f32 = 32 ∨ (Rect.block (s := S1x4096) S1x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x4096.size a
  hwx2_3 : ∀ i : grid2.Coords, EltTy.bits .f32 = 32 ∨ (Rect.block (s := S1x4096) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x4096.size a
  hwx2_4 : ∀ i : grid2.Coords, EltTy.bits .f32 = 32 ∨ (Rect.block (s := S1x4096) S1x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x1024.size a ≤ S4096x4096.size a
  hwx2_5 : ∀ i : grid2.Coords, EltTy.bits .bf16 = 32 ∨ (Rect.block (s := S4096x4096) S1024x1024.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x4096.size a ≤ S4096x4096.size a
  hwx3_0 : ∀ i : grid3.Coords, EltTy.bits .f32 = 32 ∨ (Rect.block (s := S4096x4096) S256x4096.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x4096.size a ≤ S4096x4096.size a
  hwx3_1 : ∀ i : grid3.Coords, EltTy.bits .bf16 = 32 ∨ (Rect.block (s := S4096x4096) S256x4096.size (cc3_transform_1 i) (hinb3_1 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x512.size a ≤ S4096x4096.size a
  hwx4_0 : ∀ i : grid4.Coords, EltTy.bits .bf16 = 32 ∨ (Rect.block (s := S4096x4096) S1024x512.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x512.size a ≤ S4096x4096.size a
  hwx4_1 : ∀ i : grid4.Coords, EltTy.bits .bf16 = 32 ∨ (Rect.block (s := S4096x4096) S1024x512.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1024.size a ≤ S4096x4096.size a
  hwx4_2 : ∀ i : grid4.Coords, EltTy.bits .f32 = 32 ∨ (Rect.block (s := S4096x4096) S1024x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x1024.size a ≤ S1x4096.size a
  hwx4_3 : ∀ i : grid4.Coords, EltTy.bits .f32 = 32 ∨ (Rect.block (s := S1x4096) S1x1024.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x1024.size a ≤ S1x4096.size a
  hwx4_4 : ∀ i : grid4.Coords, EltTy.bits .f32 = 32 ∨ (Rect.block (s := S1x4096) S1x1024.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x1024.size a ≤ S4096x4096.size a
  hwx5_0 : ∀ i : grid5.Coords, EltTy.bits .f32 = 32 ∨ (Rect.block (s := S4096x4096) S1024x1024.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x1024.size a ≤ S1x4096.size a
  hwx5_1 : ∀ i : grid5.Coords, EltTy.bits .f32 = 32 ∨ (Rect.block (s := S1x4096) S1x1024.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x1024.size a ≤ S1x4096.size a
  hwx5_2 : ∀ i : grid5.Coords, EltTy.bits .f32 = 32 ∨ (Rect.block (s := S1x4096) S1x1024.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1x1024.size a ≤ S1x4096.size a
  hwx5_3 : ∀ i : grid5.Coords, EltTy.bits .f32 = 32 ∨ (Rect.block (s := S1x4096) S1x1024.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1x1024.size a ≤ S1x4096.size a
  hwx5_4 : ∀ i : grid5.Coords, EltTy.bits .f32 = 32 ∨ (Rect.block (s := S1x4096) S1x1024.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1024x1024.size a ≤ S4096x4096.size a
  hwx5_5 : ∀ i : grid5.Coords, EltTy.bits .bf16 = 32 ∨ (Rect.block (s := S4096x4096) S1024x1024.size (cc5_transform_5 i) (hinb5_5 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S256x4096.size a ≤ S4096x4096.size a
  hwx6_0 : ∀ i : grid6.Coords, EltTy.bits .f32 = 32 ∨ (Rect.block (s := S4096x4096) S256x4096.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S256x4096.size a ≤ S4096x4096.size a
  hwx6_1 : ∀ i : grid6.Coords, EltTy.bits .bf16 = 32 ∨ (Rect.block (s := S4096x4096) S256x4096.size (cc6_transform_1 i) (hinb6_1 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x512.size a ≤ S4096x4096.size a
  hwx7_0 : ∀ i : grid7.Coords, EltTy.bits .bf16 = 32 ∨ (Rect.block (s := S4096x4096) S1024x512.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1024x512.size a ≤ S4096x4096.size a
  hwx7_1 : ∀ i : grid7.Coords, EltTy.bits .bf16 = 32 ∨ (Rect.block (s := S4096x4096) S1024x512.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1024x1024.size a ≤ S4096x4096.size a
  hwx7_2 : ∀ i : grid7.Coords, EltTy.bits .f32 = 32 ∨ (Rect.block (s := S4096x4096) S1024x1024.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1x1024.size a ≤ S1x4096.size a
  hwx7_3 : ∀ i : grid7.Coords, EltTy.bits .f32 = 32 ∨ (Rect.block (s := S1x4096) S1x1024.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S1x1024.size a ≤ S1x4096.size a
  hwx7_4 : ∀ i : grid7.Coords, EltTy.bits .f32 = 32 ∨ (Rect.block (s := S1x4096) S1x1024.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024x1024.size a ≤ S4096x4096.size a
  hwx8_0 : ∀ i : grid8.Coords, EltTy.bits .f32 = 32 ∨ (Rect.block (s := S4096x4096) S1024x1024.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1x1024.size a ≤ S1x4096.size a
  hwx8_1 : ∀ i : grid8.Coords, EltTy.bits .f32 = 32 ∨ (Rect.block (s := S1x4096) S1x1024.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1x1024.size a ≤ S1x4096.size a
  hwx8_2 : ∀ i : grid8.Coords, EltTy.bits .f32 = 32 ∨ (Rect.block (s := S1x4096) S1x1024.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S1x1024.size a ≤ S1x4096.size a
  hwx8_3 : ∀ i : grid8.Coords, EltTy.bits .f32 = 32 ∨ (Rect.block (s := S1x4096) S1x1024.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S1x1024.size a ≤ S1x4096.size a
  hwx8_4 : ∀ i : grid8.Coords, EltTy.bits .f32 = 32 ∨ (Rect.block (s := S1x4096) S1x1024.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S1024x1024.size a ≤ S4096x4096.size a
  hwx8_5 : ∀ i : grid8.Coords, EltTy.bits .bf16 = 32 ∨ (Rect.block (s := S4096x4096) S1024x1024.size (cc8_transform_5 i) (hinb8_5 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S256x4096.size a ≤ S1024x4096.size a
  hwx9_0 : ∀ i : grid9.Coords, EltTy.bits .f32 = 32 ∨ (Rect.block (s := S1024x4096) S256x4096.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S256x4096.size a ≤ S1024x4096.size a
  hwx9_1 : ∀ i : grid9.Coords, EltTy.bits .bf16 = 32 ∨ (Rect.block (s := S1024x4096) S256x4096.size (cc9_transform_1 i) (hinb9_1 i)).WholeWords (EltTy.packing .bf16)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1024x512.size a ≤ S4096x4096.size a
  hwx10_0 : ∀ i : grid10.Coords, EltTy.bits .bf16 = 32 ∨ (Rect.block (s := S4096x4096) S1024x512.size (cc10_transform_0 i) (hinb10_0 i)).WholeWords (EltTy.packing .bf16)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S1024x512.size a ≤ S1024x4096.size a
  hwx10_1 : ∀ i : grid10.Coords, EltTy.bits .bf16 = 32 ∨ (Rect.block (s := S1024x4096) S1024x512.size (cc10_transform_1 i) (hinb10_1 i)).WholeWords (EltTy.packing .bf16)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S1024x1024.size a ≤ S4096x1024.size a
  hwx10_2 : ∀ i : grid10.Coords, EltTy.bits .f32 = 32 ∨ (Rect.block (s := S4096x1024) S1024x1024.size (cc10_transform_2 i) (hinb10_2 i)).WholeWords (EltTy.packing .f32)
  hstage10_3 : ∀ j, (stage10_3 j).IsWhole
  nbuf10_3 : grid10.bufCount reads10_3 false = 1
  hreads10_3 : ∀ i i' : grid10.Coords, (∀ a, reads10_3 a = true → i a = i' a) → cc10_transform_3 i = cc10_transform_3 i'
  hinb10_3 : ∀ (i : grid10.Coords) a, (cc10_transform_3 i a + 1) * S1x1024.size a ≤ S1x1024.size a
  hwx10_3 : ∀ i : grid10.Coords, EltTy.bits .f32 = 32 ∨ (Rect.block (s := S1x1024) S1x1024.size (cc10_transform_3 i) (hinb10_3 i)).WholeWords (EltTy.packing .f32)
  hstage10_4 : ∀ j, (stage10_4 j).IsWhole
  nbuf10_4 : grid10.bufCount reads10_4 false = 1
  hreads10_4 : ∀ i i' : grid10.Coords, (∀ a, reads10_4 a = true → i a = i' a) → cc10_transform_4 i = cc10_transform_4 i'
  hinb10_4 : ∀ (i : grid10.Coords) a, (cc10_transform_4 i a + 1) * S1x1024.size a ≤ S1x1024.size a
  hwx10_4 : ∀ i : grid10.Coords, EltTy.bits .f32 = 32 ∨ (Rect.block (s := S1x1024) S1x1024.size (cc10_transform_4 i) (hinb10_4 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1024x1024.size a ≤ S4096x1024.size a
  hwx11_0 : ∀ i : grid11.Coords, EltTy.bits .f32 = 32 ∨ (Rect.block (s := S4096x1024) S1024x1024.size (cc11_transform_0 i) (hinb11_0 i)).WholeWords (EltTy.packing .f32)
  hstage11_1 : ∀ j, (stage11_1 j).IsWhole
  nbuf11_1 : grid11.bufCount reads11_1 false = 1
  hreads11_1 : ∀ i i' : grid11.Coords, (∀ a, reads11_1 a = true → i a = i' a) → cc11_transform_1 i = cc11_transform_1 i'
  hinb11_1 : ∀ (i : grid11.Coords) a, (cc11_transform_1 i a + 1) * S1x1024.size a ≤ S1x1024.size a
  hwx11_1 : ∀ i : grid11.Coords, EltTy.bits .f32 = 32 ∨ (Rect.block (s := S1x1024) S1x1024.size (cc11_transform_1 i) (hinb11_1 i)).WholeWords (EltTy.packing .f32)
  hstage11_2 : ∀ j, (stage11_2 j).IsWhole
  nbuf11_2 : grid11.bufCount reads11_2 false = 1
  hreads11_2 : ∀ i i' : grid11.Coords, (∀ a, reads11_2 a = true → i a = i' a) → cc11_transform_2 i = cc11_transform_2 i'
  hinb11_2 : ∀ (i : grid11.Coords) a, (cc11_transform_2 i a + 1) * S1x1024.size a ≤ S1x1024.size a
  hwx11_2 : ∀ i : grid11.Coords, EltTy.bits .f32 = 32 ∨ (Rect.block (s := S1x1024) S1x1024.size (cc11_transform_2 i) (hinb11_2 i)).WholeWords (EltTy.packing .f32)
  hstage11_3 : ∀ j, (stage11_3 j).IsWhole
  nbuf11_3 : grid11.bufCount reads11_3 false = 1
  hreads11_3 : ∀ i i' : grid11.Coords, (∀ a, reads11_3 a = true → i a = i' a) → cc11_transform_3 i = cc11_transform_3 i'
  hinb11_3 : ∀ (i : grid11.Coords) a, (cc11_transform_3 i a + 1) * S1x1024.size a ≤ S1x1024.size a
  hwx11_3 : ∀ i : grid11.Coords, EltTy.bits .f32 = 32 ∨ (Rect.block (s := S1x1024) S1x1024.size (cc11_transform_3 i) (hinb11_3 i)).WholeWords (EltTy.packing .f32)
  hstage11_4 : ∀ j, (stage11_4 j).IsWhole
  nbuf11_4 : grid11.bufCount reads11_4 false = 1
  hreads11_4 : ∀ i i' : grid11.Coords, (∀ a, reads11_4 a = true → i a = i' a) → cc11_transform_4 i = cc11_transform_4 i'
  hinb11_4 : ∀ (i : grid11.Coords) a, (cc11_transform_4 i a + 1) * S1x1024.size a ≤ S1x1024.size a
  hwx11_4 : ∀ i : grid11.Coords, EltTy.bits .f32 = 32 ∨ (Rect.block (s := S1x1024) S1x1024.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S1024x1024.size a ≤ S4096x1024.size a
  hwx11_5 : ∀ i : grid11.Coords, EltTy.bits .f32 = 32 ∨ (Rect.block (s := S4096x1024) S1024x1024.size (cc11_transform_5 i) (hinb11_5 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S1024x1024.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S1x1024.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_2) S1x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun i => !(k1_cond3 i == 1#1) | 3 => fun i => !(k1_cond3 i == 1#1) | 4 => fun i => !(k1_cond3 i == 1#1) | ⟨_ + 5, h⟩ => absurd h (Nat.not_lt.2 (Nat.le_add_left _ _))

abbrev win2_0 : Pipeline.Window sig grid2 :=
  Pipeline.Window.ofSpec (Memref.whole main_v1_0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_1) S1x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1_2) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v3) S1x1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v4) S1024x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_arg4) S256x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5) S256x4096.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v4) S1024x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v5) S1024x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v6_0) S1024x1024.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v6_1) S1x1024.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v6_2) S1x1024.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun i => !(k4_cond3 i == 1#1) | 3 => fun i => !(k4_cond3 i == 1#1) | 4 => fun i => !(k4_cond3 i == 1#1) | ⟨_ + 5, h⟩ => absurd h (Nat.not_lt.2 (Nat.le_add_left _ _))

abbrev win5_0 : Pipeline.Window sig grid5 :=
  Pipeline.Window.ofSpec (Memref.whole main_v6_0) S1024x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v6_1) S1x1024.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v6_2) S1x1024.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v7) S1x1024.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v8) S1x1024.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v9) S1024x1024.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_arg7) S256x4096.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v10) S256x4096.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

abbrev win7_0 : Pipeline.Window sig grid7 :=
  Pipeline.Window.ofSpec (Memref.whole main_v9) S1024x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v10) S1024x512.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v11_0) S1024x1024.size cc7_transform_2 reads7_2 true false 2 stage7_2 sem7_2
    hrank7 hreads7_2 hinb7_2 nbuf7_2 (Memref.isWhole_whole _) hwx7_2 hstage7_2

abbrev win7_3 : Pipeline.Window sig grid7 :=
  Pipeline.Window.ofSpec (Memref.whole main_v11_1) S1x1024.size cc7_transform_3 reads7_3 true false 2 stage7_3 sem7_3
    hrank7 hreads7_3 hinb7_3 nbuf7_3 (Memref.isWhole_whole _) hwx7_3 hstage7_3

abbrev win7_4 : Pipeline.Window sig grid7 :=
  Pipeline.Window.ofSpec (Memref.whole main_v11_2) S1x1024.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev idle7 : Fin 5 → grid7.Coords → Bool := fun | 0 => fun _ => false | 1 => fun _ => false | 2 => fun i => !(k7_cond3 i == 1#1) | 3 => fun i => !(k7_cond3 i == 1#1) | 4 => fun i => !(k7_cond3 i == 1#1) | ⟨_ + 5, h⟩ => absurd h (Nat.not_lt.2 (Nat.le_add_left _ _))

abbrev win8_0 : Pipeline.Window sig grid8 :=
  Pipeline.Window.ofSpec (Memref.whole main_v11_0) S1024x1024.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v11_1) S1x1024.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v11_2) S1x1024.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v12) S1x1024.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v13) S1x1024.size cc8_transform_4 reads8_4 false false 2 stage8_4 sem8_4
    hrank8 hreads8_4 hinb8_4 nbuf8_4 (Memref.isWhole_whole _) hwx8_4 hstage8_4

abbrev win8_5 : Pipeline.Window sig grid8 :=
  Pipeline.Window.ofSpec (Memref.whole main_v14) S1024x1024.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v15) S256x4096.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v18) S256x4096.size cc9_transform_1 reads9_1 true false 2 stage9_1 sem9_1
    hrank9 hreads9_1 hinb9_1 nbuf9_1 (Memref.isWhole_whole _) hwx9_1 hstage9_1

abbrev win9 : Fin 2 → Pipeline.Window sig grid9 := fun | 0 => win9_0 | 1 => win9_1 | ⟨_ + 2, h⟩ => absurd h (Nat.not_lt.2 (Nat.le_add_left _ _))
abbrev spec9 : Fin 2 → Pipeline.WinSpec sig grid9.rank := fun w => (win9 w).toWinSpec

abbrev win10_0 : Pipeline.Window sig grid10 :=
  Pipeline.Window.ofSpec (Memref.whole main_v14) S1024x512.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v18) S1024x512.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v19_0) S1024x1024.size cc10_transform_2 reads10_2 true false 2 stage10_2 sem10_2
    hrank10 hreads10_2 hinb10_2 nbuf10_2 (Memref.isWhole_whole _) hwx10_2 hstage10_2

abbrev win10_3 : Pipeline.Window sig grid10 :=
  Pipeline.Window.ofSpec (Memref.whole main_v19_1) S1x1024.size cc10_transform_3 reads10_3 true false 1 stage10_3 sem10_3
    hrank10 hreads10_3 hinb10_3 nbuf10_3 (Memref.isWhole_whole _) hwx10_3 hstage10_3

abbrev win10_4 : Pipeline.Window sig grid10 :=
  Pipeline.Window.ofSpec (Memref.whole main_v19_2) S1x1024.size cc10_transform_4 reads10_4 true false 1 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev idle10 : Fin 5 → grid10.Coords → Bool := fun | 0 => fun _ => false | 1 => fun _ => false | 2 => fun i => !(k10_cond3 i == 1#1) | 3 => fun i => !(k10_cond3 i == 1#1) | 4 => fun i => !(k10_cond3 i == 1#1) | ⟨_ + 5, h⟩ => absurd h (Nat.not_lt.2 (Nat.le_add_left _ _))

abbrev win11_0 : Pipeline.Window sig grid11 :=
  Pipeline.Window.ofSpec (Memref.whole main_v19_0) S1024x1024.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v19_1) S1x1024.size cc11_transform_1 reads11_1 false false 1 stage11_1 sem11_1
    hrank11 hreads11_1 hinb11_1 nbuf11_1 (Memref.isWhole_whole _) hwx11_1 hstage11_1

abbrev win11_2 : Pipeline.Window sig grid11 :=
  Pipeline.Window.ofSpec (Memref.whole main_v19_2) S1x1024.size cc11_transform_2 reads11_2 false false 1 stage11_2 sem11_2
    hrank11 hreads11_2 hinb11_2 nbuf11_2 (Memref.isWhole_whole _) hwx11_2 hstage11_2

abbrev win11_3 : Pipeline.Window sig grid11 :=
  Pipeline.Window.ofSpec (Memref.whole main_v20) S1x1024.size cc11_transform_3 reads11_3 false false 1 stage11_3 sem11_3
    hrank11 hreads11_3 hinb11_3 nbuf11_3 (Memref.isWhole_whole _) hwx11_3 hstage11_3

abbrev win11_4 : Pipeline.Window sig grid11 :=
  Pipeline.Window.ofSpec (Memref.whole main_v21) S1x1024.size cc11_transform_4 reads11_4 false false 1 stage11_4 sem11_4
    hrank11 hreads11_4 hinb11_4 nbuf11_4 (Memref.isWhole_whole _) hwx11_4 hstage11_4

abbrev win11_5 : Pipeline.Window sig grid11 :=
  Pipeline.Window.ofSpec (Memref.whole main_v22) S1024x1024.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

class Facts : Prop extends Facts₀ where

variable [Facts]
-- ==== ReferenceIdeal.lean ====
abbrev S4096x2048 : Shape := ⟨2, ![4096, 2048]⟩
abbrev S4096 : Shape := ⟨1, ![4096]⟩
abbrev S4096x4096 : Shape := ⟨2, ![4096, 4096]⟩
abbrev S1000x4096 : Shape := ⟨2, ![1000, 4096]⟩
abbrev S1000 : Shape := ⟨1, ![1000]⟩
abbrev S2048x4096 : Shape := ⟨2, ![2048, 4096]⟩
abbrev S_ : Shape := ⟨0, ![]⟩
abbrev S1x4096 : Shape := ⟨2, ![1, 4096]⟩
abbrev S4096x1000 : Shape := ⟨2, ![4096, 1000]⟩
abbrev S1x1000 : Shape := ⟨2, ![1, 1000]⟩

abbrev nBuf : Space → Nat
  | .hbm => 204
  | .vmem => 0
  | .smem => 0
  | _ => 0

abbrev hbmTy0_0 (i : Nat) : BufTy := match i % 128 with
  | 0 => ⟨S4096x2048, .f32⟩
  | 1 => ⟨S4096x2048, .f32⟩
  | 2 => ⟨S4096, .f32⟩
  | 3 => ⟨S4096, .f32⟩
  | 4 => ⟨S4096x4096, .f32⟩
  | 5 => ⟨S4096, .f32⟩
  | 6 => ⟨S4096, .f32⟩
  | 7 => ⟨S4096x4096, .f32⟩
  | 8 => ⟨S4096, .f32⟩
  | 9 => ⟨S4096, .f32⟩
  | 10 => ⟨S1000x4096, .f32⟩
  | 11 => ⟨S1000, .f32⟩
  | 12 => ⟨S1000, .f32⟩
  | 13 => ⟨S4096x2048, .f32⟩
  | 14 => ⟨S2048x4096, .f32⟩
  | 15 => ⟨S4096x4096, .f32⟩
  | 16 => ⟨S_, .f32⟩
  | 17 => ⟨S4096, .f32⟩
  | 18 => ⟨S_, .f32⟩
  | 19 => ⟨S4096, .f32⟩
  | 20 => ⟨S4096, .f32⟩
  | 21 => ⟨S_, .i32⟩
  | 22 => ⟨S_, .f32⟩
  | 23 => ⟨S4096, .f32⟩
  | 24 => ⟨S1x4096, .f32⟩
  | 25 => ⟨S_, .f32⟩
  | 26 => ⟨S1x4096, .f32⟩
  | 27 => ⟨S1x4096, .f32⟩
  | 28 => ⟨S4096x4096, .f32⟩
  | 29 => ⟨S4096x4096, .f32⟩
  | 30 => ⟨S4096x4096, .f32⟩
  | 31 => ⟨S_, .f32⟩
  | 32 => ⟨S_, .f32⟩
  | 33 => ⟨S_, .f32⟩
  | 34 => ⟨S_, .f32⟩
  | 35 => ⟨S4096, .f32⟩
  | 36 => ⟨S4096, .f32⟩
  | 37 => ⟨S4096, .f32⟩
  | 38 => ⟨S_, .f32⟩
  | 39 => ⟨S_, .i1⟩
  | 40 => ⟨S_, .f32⟩
  | 41 => ⟨S_, .f32⟩
  | 42 => ⟨S4096, .f32⟩
  | 43 => ⟨S4096, .f32⟩
  | 44 => ⟨S1x4096, .f32⟩
  | 45 => ⟨S4096x4096, .f32⟩
  | 46 => ⟨S4096x4096, .f32⟩
  | 47 => ⟨S1x4096, .f32⟩
  | 48 => ⟨S4096x4096, .f32⟩
  | 49 => ⟨S4096x4096, .f32⟩
  | 50 => ⟨S_, .f32⟩
  | 51 => ⟨S4096, .f32⟩
  | 52 => ⟨S4096, .f32⟩
  | 53 => ⟨S4096, .f32⟩
  | 54 => ⟨S1x4096, .f32⟩
  | 55 => ⟨S4096x4096, .f32⟩
  | 56 => ⟨S4096x4096, .f32⟩
  | 57 => ⟨S1x4096, .f32⟩
  | 58 => ⟨S4096x4096, .f32⟩
  | 59 => ⟨S4096x4096, .f32⟩
  | 60 => ⟨S4096x4096, .f32⟩
  | 61 => ⟨S4096x4096, .f32⟩
  | 62 => ⟨S4096x4096, .f32⟩
  | 63 => ⟨S4096x4096, .f32⟩
  | 64 => ⟨S_, .f32⟩
  | 65 => ⟨S4096, .f32⟩
  | 66 => ⟨S_, .f32⟩
  | 67 => ⟨S4096, .f32⟩
  | 68 => ⟨S4096, .f32⟩
  | 69 => ⟨S_, .i32⟩
  | 70 => ⟨S_, .f32⟩
  | 71 => ⟨S4096, .f32⟩
  | 72 => ⟨S1x4096, .f32⟩
  | 73 => ⟨S_, .f32⟩
  | 74 => ⟨S1x4096, .f32⟩
  | 75 => ⟨S1x4096, .f32⟩
  | 76 => ⟨S4096x4096, .f32⟩
  | 77 => ⟨S4096x4096, .f32⟩
  | 78 => ⟨S4096x4096, .f32⟩
  | 79 => ⟨S_, .f32⟩
  | 80 => ⟨S_, .f32⟩
  | 81 => ⟨S_, .f32⟩
  | 82 => ⟨S_, .f32⟩
  | 83 => ⟨S4096, .f32⟩
  | 84 => ⟨S4096, .f32⟩
  | 85 => ⟨S4096, .f32⟩
  | 86 => ⟨S_, .f32⟩
  | 87 => ⟨S_, .i1⟩
  | 88 => ⟨S_, .f32⟩
  | 89 => ⟨S_, .f32⟩
  | 90 => ⟨S4096, .f32⟩
  | 91 => ⟨S4096, .f32⟩
  | 92 => ⟨S1x4096, .f32⟩
  | 93 => ⟨S4096x4096, .f32⟩
  | 94 => ⟨S4096x4096, .f32⟩
  | 95 => ⟨S1x4096, .f32⟩
  | 96 => ⟨S4096x4096, .f32⟩
  | 97 => ⟨S4096x4096, .f32⟩
  | 98 => ⟨S_, .f32⟩
  | 99 => ⟨S4096, .f32⟩
  | 100 => ⟨S4096, .f32⟩
  | 101 => ⟨S4096, .f32⟩
  | 102 => ⟨S1x4096, .f32⟩
  | 103 => ⟨S4096x4096, .f32⟩
  | 104 => ⟨S4096x4096, .f32⟩
  | 105 => ⟨S1x4096, .f32⟩
  | 106 => ⟨S4096x4096, .f32⟩
  | 107 => ⟨S4096x4096, .f32⟩
  | 108 => ⟨S4096x4096, .f32⟩
  | 109 => ⟨S4096x4096, .f32⟩
  | 110 => ⟨S4096x4096, .f32⟩
  | 111 => ⟨S4096x4096, .f32⟩
  | 112 => ⟨S_, .f32⟩
  | 113 => ⟨S4096, .f32⟩
  | 114 => ⟨S_, .f32⟩
  | 115 => ⟨S4096, .f32⟩
  | 116 => ⟨S4096, .f32⟩
  | 117 => ⟨S_, .i32⟩
  | 118 => ⟨S_, .f32⟩
  | 119 => ⟨S4096, .f32⟩
  | 120 => ⟨S1x4096, .f32⟩
  | 121 => ⟨S_, .f32⟩
  | 122 => ⟨S1x4096, .f32⟩
  | 123 => ⟨S1x4096, .f32⟩
  | 124 => ⟨S4096x4096, .f32⟩
  | 125 => ⟨S4096x4096, .f32⟩
  | 126 => ⟨S4096x4096, .f32⟩
  | 127 => ⟨S_, .f32⟩
  | _ => ⟨S4096x2048, .f32⟩

abbrev hbmTy0_1 (i : Nat) : BufTy := match i % 128 with
  | 0 => ⟨S_, .f32⟩
  | 1 => ⟨S_, .f32⟩
  | 2 => ⟨S_, .f32⟩
  | 3 => ⟨S4096, .f32⟩
  | 4 => ⟨S4096, .f32⟩
  | 5 => ⟨S4096, .f32⟩
  | 6 => ⟨S_, .f32⟩
  | 7 => ⟨S_, .i1⟩
  | 8 => ⟨S_, .f32⟩
  | 9 => ⟨S_, .f32⟩
  | 10 => ⟨S4096, .f32⟩
  | 11 => ⟨S4096, .f32⟩
  | 12 => ⟨S1x4096, .f32⟩
  | 13 => ⟨S4096x4096, .f32⟩
  | 14 => ⟨S4096x4096, .f32⟩
  | 15 => ⟨S1x4096, .f32⟩
  | 16 => ⟨S4096x4096, .f32⟩
  | 17 => ⟨S4096x4096, .f32⟩
  | 18 => ⟨S_, .f32⟩
  | 19 => ⟨S4096, .f32⟩
  | 20 => ⟨S4096, .f32⟩
  | 21 => ⟨S4096, .f32⟩
  | 22 => ⟨S1x4096, .f32⟩
  | 23 => ⟨S4096x4096, .f32⟩
  | 24 => ⟨S4096x4096, .f32⟩
  | 25 => ⟨S1x4096, .f32⟩
  | 26 => ⟨S4096x4096, .f32⟩
  | 27 => ⟨S4096x4096, .f32⟩
  | 28 => ⟨S4096x4096, .f32⟩
  | 29 => ⟨S1000x4096, .f32⟩
  | 30 => ⟨S4096x1000, .f32⟩
  | 31 => ⟨S4096x1000, .f32⟩
  | 32 => ⟨S_, .f32⟩
  | 33 => ⟨S1000, .f32⟩
  | 34 => ⟨S_, .f32⟩
  | 35 => ⟨S1000, .f32⟩
  | 36 => ⟨S1000, .f32⟩
  | 37 => ⟨S_, .i32⟩
  | 38 => ⟨S_, .f32⟩
  | 39 => ⟨S1000, .f32⟩
  | 40 => ⟨S1x1000, .f32⟩
  | 41 => ⟨S_, .f32⟩
  | 42 => ⟨S1x1000, .f32⟩
  | 43 => ⟨S1x1000, .f32⟩
  | 44 => ⟨S4096x1000, .f32⟩
  | 45 => ⟨S4096x1000, .f32⟩
  | 46 => ⟨S4096x1000, .f32⟩
  | 47 => ⟨S_, .f32⟩
  | 48 => ⟨S_, .f32⟩
  | 49 => ⟨S_, .f32⟩
  | 50 => ⟨S_, .f32⟩
  | 51 => ⟨S1000, .f32⟩
  | 52 => ⟨S1000, .f32⟩
  | 53 => ⟨S1000, .f32⟩
  | 54 => ⟨S_, .f32⟩
  | 55 => ⟨S_, .i1⟩
  | 56 => ⟨S_, .f32⟩
  | 57 => ⟨S_, .f32⟩
  | 58 => ⟨S1000, .f32⟩
  | 59 => ⟨S1000, .f32⟩
  | 60 => ⟨S1x1000, .f32⟩
  | 61 => ⟨S4096x1000, .f32⟩
  | 62 => ⟨S4096x1000, .f32⟩
  | 63 => ⟨S1x1000, .f32⟩
  | 64 => ⟨S4096x1000, .f32⟩
  | 65 => ⟨S4096x1000, .f32⟩
  | 66 => ⟨S_, .f32⟩
  | 67 => ⟨S1000, .f32⟩
  | 68 => ⟨S1000, .f32⟩
  | 69 => ⟨S1000, .f32⟩
  | 70 => ⟨S1x1000, .f32⟩
  | 71 => ⟨S4096x1000, .f32⟩
  | 72 => ⟨S4096x1000, .f32⟩
  | 73 => ⟨S1x1000, .f32⟩
  | 74 => ⟨S4096x1000, .f32⟩
  | 75 => ⟨S4096x1000, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_1 : Ref sig .tc := ⟨.hbm, 32, rfl⟩
abbrev main_call0_v8 : Ref sig .tc := ⟨.hbm, 33, rfl⟩
abbrev main_call0_cst_2 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_cst_3 : Ref sig .tc := ⟨.hbm, 38, rfl⟩
abbrev main_call0_v12 : Ref sig .tc := ⟨.hbm, 39, rfl⟩
abbrev main_call0_cst_4 : Ref sig .tc := ⟨.hbm, 40, rfl⟩
abbrev main_call0_call0_v0 : Ref sig .tc := ⟨.hbm, 41, rfl⟩
abbrev main_call0_call0_v1 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_cst_1 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_cst_2 : Ref sig .tc := ⟨.hbm, 64, rfl⟩
abbrev main_v26 : Ref sig .tc := ⟨.hbm, 65, rfl⟩
abbrev main_cst_3 : Ref sig .tc := ⟨.hbm, 66, rfl⟩
abbrev main_v27 : Ref sig .tc := ⟨.hbm, 67, rfl⟩
abbrev main_v28 : Ref sig .tc := ⟨.hbm, 68, rfl⟩
abbrev main_c_4 : Ref sig .tc := ⟨.hbm, 69, rfl⟩
abbrev main_call1_cst : Ref sig .tc := ⟨.hbm, 70, rfl⟩
abbrev main_call1_v0 : Ref sig .tc := ⟨.hbm, 71, rfl⟩
abbrev main_call1_v1 : Ref sig .tc := ⟨.hbm, 72, rfl⟩
abbrev main_call1_cst_0 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_v6 : Ref sig .tc := ⟨.hbm, 78, rfl⟩
abbrev main_call1_v7 : Ref sig .tc := ⟨.hbm, 79, rfl⟩
abbrev main_call1_cst_1 : Ref sig .tc := ⟨.hbm, 80, rfl⟩
abbrev main_call1_v8 : Ref sig .tc := ⟨.hbm, 81, rfl⟩
abbrev main_call1_cst_2 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_cst_3 : Ref sig .tc := ⟨.hbm, 86, rfl⟩
abbrev main_call1_v12 : Ref sig .tc := ⟨.hbm, 87, rfl⟩
abbrev main_call1_cst_4 : Ref sig .tc := ⟨.hbm, 88, rfl⟩
abbrev main_call1_call0_v0 : Ref sig .tc := ⟨.hbm, 89, rfl⟩
abbrev main_call1_call0_v1 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_cst_5 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_cst_6 : Ref sig .tc := ⟨.hbm, 112, rfl⟩
abbrev main_v49 : Ref sig .tc := ⟨.hbm, 113, rfl⟩
abbrev main_cst_7 : Ref sig .tc := ⟨.hbm, 114, rfl⟩
abbrev main_v50 : Ref sig .tc := ⟨.hbm, 115, rfl⟩
abbrev main_v51 : Ref sig .tc := ⟨.hbm, 116, rfl⟩
abbrev main_c_8 : Ref sig .tc := ⟨.hbm, 117, rfl⟩
abbrev main_call2_cst : Ref sig .tc := ⟨.hbm, 118, rfl⟩
abbrev main_call2_v0 : Ref sig .tc := ⟨.hbm, 119, rfl⟩
abbrev main_call2_v1 : Ref sig .tc := ⟨.hbm, 120, rfl⟩
abbrev main_call2_cst_0 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_call2_v5 : Ref sig .tc := ⟨.hbm, 125, rfl⟩
abbrev main_call2_v6 : Ref sig .tc := ⟨.hbm, 126, rfl⟩
abbrev main_call2_v7 : Ref sig .tc := ⟨.hbm, 127, rfl⟩
abbrev main_call2_cst_1 : Ref sig .tc := ⟨.hbm, 128, rfl⟩
abbrev main_call2_v8 : Ref sig .tc := ⟨.hbm, 129, rfl⟩
abbrev main_call2_cst_2 : Ref sig .tc := ⟨.hbm, 130, rfl⟩
abbrev main_call2_v9 : Ref sig .tc := ⟨.hbm, 131, rfl⟩
abbrev main_call2_v10 : Ref sig .tc := ⟨.hbm, 132, rfl⟩
abbrev main_call2_v11 : Ref sig .tc := ⟨.hbm, 133, rfl⟩
abbrev main_call2_cst_3 : Ref sig .tc := ⟨.hbm, 134, rfl⟩
abbrev main_call2_v12 : Ref sig .tc := ⟨.hbm, 135, rfl⟩
abbrev main_call2_cst_4 : Ref sig .tc := ⟨.hbm, 136, rfl⟩
abbrev main_call2_call0_v0 : Ref sig .tc := ⟨.hbm, 137, rfl⟩
abbrev main_call2_call0_v1 : Ref sig .tc := ⟨.hbm, 138, rfl⟩
abbrev main_v52 : Ref sig .tc := ⟨.hbm, 139, rfl⟩
abbrev main_v53 : Ref sig .tc := ⟨.hbm, 140, rfl⟩
abbrev main_v54 : Ref sig .tc := ⟨.hbm, 141, rfl⟩
abbrev main_v55 : Ref sig .tc := ⟨.hbm, 142, rfl⟩
abbrev main_v56 : Ref sig .tc := ⟨.hbm, 143, rfl⟩
abbrev main_v57 : Ref sig .tc := ⟨.hbm, 144, rfl⟩
abbrev main_v58 : Ref sig .tc := ⟨.hbm, 145, rfl⟩
abbrev main_cst_9 : Ref sig .tc := ⟨.hbm, 146, rfl⟩
abbrev main_v59 : Ref sig .tc := ⟨.hbm, 147, rfl⟩
abbrev main_v60 : Ref sig .tc := ⟨.hbm, 148, rfl⟩
abbrev main_v61 : Ref sig .tc := ⟨.hbm, 149, rfl⟩
abbrev main_v62 : Ref sig .tc := ⟨.hbm, 150, rfl⟩
abbrev main_v63 : Ref sig .tc := ⟨.hbm, 151, rfl⟩
abbrev main_v64 : Ref sig .tc := ⟨.hbm, 152, rfl⟩
abbrev main_v65 : Ref sig .tc := ⟨.hbm, 153, rfl⟩
abbrev main_v66 : Ref sig .tc := ⟨.hbm, 154, rfl⟩
abbrev main_v67 : Ref sig .tc := ⟨.hbm, 155, rfl⟩
abbrev main_v68 : Ref sig .tc := ⟨.hbm, 156, rfl⟩
abbrev main_v69 : Ref sig .tc := ⟨.hbm, 157, rfl⟩
abbrev main_v70 : Ref sig .tc := ⟨.hbm, 158, rfl⟩
abbrev main_v71 : Ref sig .tc := ⟨.hbm, 159, rfl⟩
abbrev main_cst_10 : Ref sig .tc := ⟨.hbm, 160, rfl⟩
abbrev main_v72 : Ref sig .tc := ⟨.hbm, 161, rfl⟩
abbrev main_cst_11 : Ref sig .tc := ⟨.hbm, 162, rfl⟩
abbrev main_v73 : Ref sig .tc := ⟨.hbm, 163, rfl⟩
abbrev main_v74 : Ref sig .tc := ⟨.hbm, 164, rfl⟩
abbrev main_c_12 : Ref sig .tc := ⟨.hbm, 165, rfl⟩
abbrev main_call3_cst : Ref sig .tc := ⟨.hbm, 166, rfl⟩
abbrev main_call3_v0 : Ref sig .tc := ⟨.hbm, 167, rfl⟩
abbrev main_call3_v1 : Ref sig .tc := ⟨.hbm, 168, rfl⟩
abbrev main_call3_cst_0 : Ref sig .tc := ⟨.hbm, 169, rfl⟩
abbrev main_call3_v2 : Ref sig .tc := ⟨.hbm, 170, rfl⟩
abbrev main_call3_v3 : Ref sig .tc := ⟨.hbm, 171, rfl⟩
abbrev main_call3_v4 : Ref sig .tc := ⟨.hbm, 172, rfl⟩
abbrev main_call3_v5 : Ref sig .tc := ⟨.hbm, 173, rfl⟩
abbrev main_call3_v6 : Ref sig .tc := ⟨.hbm, 174, rfl⟩
abbrev main_call3_v7 : Ref sig .tc := ⟨.hbm, 175, rfl⟩
abbrev main_call3_cst_1 : Ref sig .tc := ⟨.hbm, 176, rfl⟩
abbrev main_call3_v8 : Ref sig .tc := ⟨.hbm, 177, rfl⟩
abbrev main_call3_cst_2 : Ref sig .tc := ⟨.hbm, 178, rfl⟩
abbrev main_call3_v9 : Ref sig .tc := ⟨.hbm, 179, rfl⟩
abbrev main_call3_v10 : Ref sig .tc := ⟨.hbm, 180, rfl⟩
abbrev main_call3_v11 : Ref sig .tc := ⟨.hbm, 181, rfl⟩
abbrev main_call3_cst_3 : Ref sig .tc := ⟨.hbm, 182, rfl⟩
abbrev main_call3_v12 : Ref sig .tc := ⟨.hbm, 183, rfl⟩
abbrev main_call3_cst_4 : Ref sig .tc := ⟨.hbm, 184, rfl⟩
abbrev main_call3_call0_v0 : Ref sig .tc := ⟨.hbm, 185, rfl⟩
abbrev main_call3_call0_v1 : Ref sig .tc := ⟨.hbm, 186, rfl⟩
abbrev main_v75 : Ref sig .tc := ⟨.hbm, 187, rfl⟩
abbrev main_v76 : Ref sig .tc := ⟨.hbm, 188, rfl⟩
abbrev main_v77 : Ref sig .tc := ⟨.hbm, 189, rfl⟩
abbrev main_v78 : Ref sig .tc := ⟨.hbm, 190, rfl⟩
abbrev main_v79 : Ref sig .tc := ⟨.hbm, 191, rfl⟩
abbrev main_v80 : Ref sig .tc := ⟨.hbm, 192, rfl⟩
abbrev main_v81 : Ref sig .tc := ⟨.hbm, 193, rfl⟩
abbrev main_cst_13 : Ref sig .tc := ⟨.hbm, 194, rfl⟩
abbrev main_v82 : Ref sig .tc := ⟨.hbm, 195, rfl⟩
abbrev main_v83 : Ref sig .tc := ⟨.hbm, 196, rfl⟩
abbrev main_v84 : Ref sig .tc := ⟨.hbm, 197, rfl⟩
abbrev main_v85 : Ref sig .tc := ⟨.hbm, 198, rfl⟩
abbrev main_v86 : Ref sig .tc := ⟨.hbm, 199, rfl⟩
abbrev main_v87 : Ref sig .tc := ⟨.hbm, 200, rfl⟩
abbrev main_v88 : Ref sig .tc := ⟨.hbm, 201, rfl⟩
abbrev main_v89 : Ref sig .tc := ⟨.hbm, 202, rfl⟩
abbrev main_v90 : Ref sig .tc := ⟨.hbm, 203, rfl⟩

abbrev nD : Nat := 1
abbrev τ : Topo := Topo.v7x

variable {F : FTy → Type} [FloatOps F]

class Facts₀ : Prop where
  transposes_S4096x2048_S2048x4096_1_0 : S4096x2048.Transposes [1, 0] S2048x4096
  reducesTo_S4096x4096_S4096_d0 : S4096x4096.ReducesTo [0] S4096
  h_S_ : 0 < S_.numel
  bcast_S_S4096 : S_.BroadcastsInDim S4096 (![] : Fin 0 → Fin S4096.rank)
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S1x4096_S4096x4096_0_1 : S1x4096.BroadcastsInDim S4096x4096 (![0, 1] : Fin 2 → Fin S4096x4096.rank)
  transposes_S4096x4096_S4096x4096_1_0 : S4096x4096.Transposes [1, 0] S4096x4096
  transposes_S1000x4096_S4096x1000_1_0 : S1000x4096.Transposes [1, 0] S4096x1000
  reducesTo_S4096x1000_S1000_d0 : S4096x1000.ReducesTo [0] S1000
  bcast_S_S1000 : S_.BroadcastsInDim S1000 (![] : Fin 0 → Fin S1000.rank)
  bcast_S1000_S1x1000_1 : S1000.BroadcastsInDim S1x1000 (![1] : Fin 1 → Fin S1x1000.rank)
  bcast_S_S1x1000 : S_.BroadcastsInDim S1x1000 (![] : Fin 0 → Fin S1x1000.rank)
  bcast_S1x1000_S4096x1000_0_1 : S1x1000.BroadcastsInDim S4096x1000 (![0, 1] : Fin 2 → Fin S4096x1000.rank)
  dot_S4096x2048_S2048x4096_S4096x4096_1_0_0_1_n_n_wf : DotDims.WF S4096x2048 S2048x4096 S4096x4096 [1] [0] [0] [1] [] []
  dot_S4096x4096_S4096x4096_S4096x4096_1_0_0_1_n_n_wf : DotDims.WF S4096x4096 S4096x4096 S4096x4096 [1] [0] [0] [1] [] []
  dot_S4096x4096_S4096x1000_S4096x1000_1_0_0_1_n_n_wf : DotDims.WF S4096x4096 S4096x1000 S4096x1000 [1] [0] [0] [1] [] []

variable [Facts₀]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x1000_S4096x1000_1_0_0_1_n_n : DotDims S4096x4096 S4096x1000 S4096x1000 where
  lhsContracting := [1]
  rhsContracting := [0]
  lhsNonContracting := [0]
  rhsNonContracting := [1]
  lhsBatch := []
  rhsBatch := []
  wf := dot_S4096x4096_S4096x1000_S4096x1000_1_0_0_1_n_n_wf

class Facts : Prop extends Facts₀ where

variable [Facts]
-- ==== Proof.RefRunOps.lean ====
import proofs.«157460_j63591285784858_2_alg».proof.Proof.Gen.ReferenceIdeal
import Idealize.ShloMosaic.Lib.StableHlo.Run
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! The reference program's @main as one straight line of host operations: each call of an outlined
    function is replaced by that function's operations, in order, over the buffers of the call's record
    (a nested call likewise, over the nested record). The line is cut into five consecutive lists, at the
    ends of the network's layers and at the end of @main's first window. -/

/-- Operations 1 … 48: the first layer, through its closing sign. -/
abbrev opsA : List (HloOp τ sig (Elt F)) :=
  [ unary main_arg1 main_v0 (Host.sign : (⟨S4096x2048, .f32⟩ : BufTy).Contents (Elt F) → (⟨S4096x2048, .f32⟩ : BufTy).Contents (Elt F)),
    unary main_v0 main_v1 ((transpose S2048x4096 [1, 0] · transposes_S4096x2048_S2048x4096_1_0) : (⟨S4096x2048, .f32⟩ : BufTy).Contents (Elt F) → (⟨S2048x4096, .f32⟩ : BufTy).Contents (Elt F)),
    binary main_arg0 main_v1 main_v2 ((fun l r => Host.dotGeneral dot_S4096x2048_S2048x4096_S4096x4096_1_0_0_1_n_n none l r) : (⟨S4096x2048, .f32⟩ : BufTy).Contents (Elt F) → (⟨S2048x4096, .f32⟩ : BufTy).Contents (Elt F) → (⟨S4096x4096, .f32⟩ : BufTy).Contents (Elt F)),
    nullary main_cst (constant S_ .f32 0x00000000#32),
    binary main_v2 main_cst main_v3 ((fun x v => Host.reduceAdd x v reducesTo_S4096x4096_S4096_d0 h_S_) : (⟨S4096x4096, .f32⟩ : BufTy).Contents (Elt F) → (⟨S_, .f32⟩ : BufTy).Contents (Elt F) → (⟨S4096, .f32⟩ : BufTy).Contents (Elt F)),
    nullary main_cst_0 (constant S_ .f32 0x45800000#32),
    unary main_cst_0 main_v4 (broadcastInDim S4096 ![] bcast_S_S4096 : (⟨S_, .f32⟩ : BufTy).Contents (Elt F) → (⟨S4096, .f32⟩ : BufTy).Contents (Elt F)),
    binary main_v3 main_v4 main_v5 (Host.divf : (⟨S4096, .f32⟩ : BufTy).Contents (Elt F) → (⟨S4096, .f32⟩ : BufTy).Contents (Elt F) → (⟨S4096, .f32⟩ : BufTy).Contents (Elt F)),
    nullary main_c (constantI S_ 32 0#32),
    TRef.nullary main_call0.cst (constant S_ .f32 0x00000000#32),
    TRef.binary (TRef.of (T := ⟨S4096x4096, .f32⟩) main_v2) main_call0.cst main_call0.v0 (fun x v => Host.reduceAdd x v reducesTo_S4096x4096_S4096_d0 h_S_),
    TRef.unary main_call0.v0 main_call0.v1 (broadcastInDim S1x4096 ![1] bcast_S4096_S1x4096_1),
    TRef.nullary main_call0.cst_0 (constant S_ .f32 0x45800000#32),
    TRef.unary main_call0.cst_0 main_call0.v2 (broadcastInDim S1x4096 ![] bcast_S_S1x4096),
    TRef.binary main_call0.v1 main_call0.v2 main_call0.v3 Host.divf,
    TRef.unary main_call0.v3 main_call0.v4 (broadcastInDim S4096x4096 ![0, 1] bcast_S1x4096_S4096x4096_0_1),
    TRef.binary (TRef.of (T := ⟨S4096x4096, .f32⟩) main_v2) main_call0.v4 main_call0.v5 subf,
    TRef.binary main_call0.v5 main_call0.v5 main_call0.v6 mulf,
    TRef.unary (TRef.of (T := ⟨S_, .i32⟩) main_c) main_call0.v7 (sitofp .f32),
    TRef.nullary main_call0.cst_1 (constant S_ .f32 0x45800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S4096x4096_S4096_d0 h_S_),
    TRef.unary main_call0.v8 main_call0.v10 (broadcastInDim S4096 ![] bcast_S_S4096),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S4096 ![] bcast_S_S4096),
    TRef.ternary main_call0.v12 main_call0.v11 main_call0.call0.v1 main_call0.call0.v2 (fun p a b => select (broadcastInDim S4096 ![] bcast_S_S4096 p) a b),
    unary main_v5 main_v7 (broadcastInDim S1x4096 ![1] bcast_S4096_S1x4096_1 : (⟨S4096, .f32⟩ : BufTy).Contents (Elt F) → (⟨S1x4096, .f32⟩ : BufTy).Contents (Elt F)),
    unary main_v7 main_v8 (broadcastInDim S4096x4096 ![0, 1] bcast_S1x4096_S4096x4096_0_1 : (⟨S1x4096, .f32⟩ : BufTy).Contents (Elt F) → (⟨S4096x4096, .f32⟩ : BufTy).Contents (Elt F)),
    binary main_v2 main_v8 main_v9 (subf : (⟨S4096x4096, .f32⟩ : BufTy).Contents (Elt F) → (⟨S4096x4096, .f32⟩ : BufTy).Contents (Elt F) → (⟨S4096x4096, .f32⟩ : BufTy).Contents (Elt F)),
    unary main_arg2 main_v10 (broadcastInDim S1x4096 ![1] bcast_S4096_S1x4096_1 : (⟨S4096, .f32⟩ : BufTy).Contents (Elt F) → (⟨S1x4096, .f32⟩ : BufTy).Contents (Elt F)),
    unary main_v10 main_v11 (broadcastInDim S4096x4096 ![0, 1] bcast_S1x4096_S4096x4096_0_1 : (⟨S1x4096, .f32⟩ : BufTy).Contents (Elt F) → (⟨S4096x4096, .f32⟩ : BufTy).Contents (Elt F)),
    binary main_v11 main_v9 main_v12 (mulf : (⟨S4096x4096, .f32⟩ : BufTy).Contents (Elt F) → (⟨S4096x4096, .f32⟩ : BufTy).Contents (Elt F) → (⟨S4096x4096, .f32⟩ : BufTy).Contents (Elt F)),
    nullary main_cst_1 (constant S_ .f32 0x3727C5AC#32),
    unary main_cst_1 main_v13 (broadcastInDim S4096 ![] bcast_S_S4096 : (⟨S_, .f32⟩ : BufTy).Contents (Elt F) → (⟨S4096, .f32⟩ : BufTy).Contents (Elt F)),
    binary main_v6 main_v13 main_v14 (addf : (⟨S4096, .f32⟩ : BufTy).Contents (Elt F) → (⟨S4096, .f32⟩ : BufTy).Contents (Elt F) → (⟨S4096, .f32⟩ : BufTy).Contents (Elt F)),
    unary main_v14 main_v15 (Host.rsqrt : (⟨S4096, .f32⟩ : BufTy).Contents (Elt F) → (⟨S4096, .f32⟩ : BufTy).Contents (Elt F)),
    unary main_v15 main_v16 (broadcastInDim S1x4096 ![1] bcast_S4096_S1x4096_1 : (⟨S4096, .f32⟩ : BufTy).Contents (Elt F) → (⟨S1x4096, .f32⟩ : BufTy).Contents (Elt F)),
    unary main_v16 main_v17 (broadcastInDim S4096x4096 ![0, 1] bcast_S1x4096_S4096x4096_0_1 : (⟨S1x4096, .f32⟩ : BufTy).Contents (Elt F) → (⟨S4096x4096, .f32⟩ : BufTy).Contents (Elt F)),
    binary main_v12 main_v17 main_v18 (mulf : (⟨S4096x4096, .f32⟩ : BufTy).Contents (Elt F) → (⟨S4096x4096, .f32⟩ : BufTy).Contents (Elt F) → (⟨S4096x4096, .f32⟩ : BufTy).Contents (Elt F)),
    unary main_arg3 main_v19 (broadcastInDim S1x4096 ![1] bcast_S4096_S1x4096_1 : (⟨S4096, .f32⟩ : BufTy).Contents (Elt F) → (⟨S1x4096, .f32⟩ : BufTy).Contents (Elt F)),
    unary main_v19 main_v20 (broadcastInDim S4096x4096 ![0, 1] bcast_S1x4096_S4096x4096_0_1 : (⟨S1x4096, .f32⟩ : BufTy).Contents (Elt F) → (⟨S4096x4096, .f32⟩ : BufTy).Contents (Elt F)),
    binary main_v18 main_v20 main_v21 (addf : (⟨S4096x4096, .f32⟩ : BufTy).Contents (Elt F) → (⟨S4096x4096, .f32⟩ : BufTy).Contents (Elt F) → (⟨S4096x4096, .f32⟩ : BufTy).Contents (Elt F)),
    unary main_v21 main_v22 (Host.sign : (⟨S4096x4096, .f32⟩ : BufTy).Contents (Elt F) → (⟨S4096x4096, .f32⟩ : BufTy).Contents (Elt F)) ]

/-- Operations 49 … 96: the second layer, through its closing sign. -/
abbrev opsB : List (HloOp τ sig (Elt F)) :=
  [ unary main_arg4 main_v23 (Host.sign : (⟨S4096x4096, .f32⟩ : BufTy).Contents (Elt F) → (⟨S4096x4096, .f32⟩ : BufTy).Contents (Elt F)),
    unary main_v23 main_v24 ((transpose S4096x4096 [1, 0] · transposes_S4096x4096_S4096x4096_1_0) : (⟨S4096x4096, .f32⟩ : BufTy).Contents (Elt F) → (⟨S4096x4096, .f32⟩ : BufTy).Contents (Elt F)),
    binary main_v22 main_v24 main_v25 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    nullary main_cst_2 (constant S_ .f32 0x00000000#32),
    binary main_v25 main_cst_2 main_v26 ((fun x v => Host.reduceAdd x v reducesTo_S4096x4096_S4096_d0 h_S_) : (⟨S4096x4096, .f32⟩ : BufTy).Contents (Elt F) → (⟨S_, .f32⟩ : BufTy).Contents (Elt F) → (⟨S4096, .f32⟩ : BufTy).Contents (Elt F)),
    nullary main_cst_3 (constant S_ .f32 0x45800000#32),
    unary main_cst_3 main_v27 (broadcastInDim S4096 ![] bcast_S_S4096 : (⟨S_, .f32⟩ : BufTy).Contents (Elt F) → (⟨S4096, .f32⟩ : BufTy).Contents (Elt F)),
    binary main_v26 main_v27 main_v28 (Host.divf : (⟨S4096, .f32⟩ : BufTy).Contents (Elt F) → (⟨S4096, .f32⟩ : BufTy).Contents (Elt F) → (⟨S4096, .f32⟩ : BufTy).Contents (Elt F)),
    nullary main_c_4 (constantI S_ 32 0#32),
    TRef.nullary main_call1.cst (constant S_ .f32 0x00000000#32),
    TRef.binary (TRef.of (T := ⟨S4096x4096, .f32⟩) main_v25) main_call1.cst main_call1.v0 (fun x v => Host.reduceAdd x v reducesTo_S4096x4096_S4096_d0 h_S_),
    TRef.unary main_call1.v0 main_call1.v1 (broadcastInDim S1x4096 ![1] bcast_S4096_S1x4096_1),
    TRef.nullary main_call1.cst_0 (constant S_ .f32 0x45800000#32),
    TRef.unary main_call1.cst_0 main_call1.v2 (broadcastInDim S1x4096 ![] bcast_S_S1x4096),
    TRef.binary main_call1.v1 main_call1.v2 main_call1.v3 Host.divf,
    TRef.unary main_call1.v3 main_call1.v4 (broadcastInDim S4096x4096 ![0, 1] bcast_S1x4096_S4096x4096_0_1),
    TRef.binary (TRef.of (T := ⟨S4096x4096, .f32⟩) main_v25) main_call1.v4 main_call1.v5 subf,
    TRef.binary main_call1.v5 main_call1.v5 main_call1.v6 mulf,
    TRef.unary (TRef.of (T := ⟨S_, .i32⟩) main_c_4) main_call1.v7 (sitofp .f32),
    TRef.nullary main_call1.cst_1 (constant S_ .f32 0x45800000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S4096x4096_S4096_d0 h_S_),
    TRef.unary main_call1.v8 main_call1.v10 (broadcastInDim S4096 ![] bcast_S_S4096),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S4096 ![] bcast_S_S4096),
    TRef.ternary main_call1.v12 main_call1.v11 main_call1.call0.v1 main_call1.call0.v2 (fun p a b => select (broadcastInDim S4096 ![] bcast_S_S4096 p) a b),
    unary main_v28 main_v30 (broadcastInDim S1x4096 ![1] bcast_S4096_S1x4096_1 : (⟨S4096, .f32⟩ : BufTy).Contents (Elt F) → (⟨S1x4096, .f32⟩ : BufTy).Contents (Elt F)),
    unary main_v30 main_v31 (broadcastInDim S4096x4096 ![0, 1] bcast_S1x4096_S4096x4096_0_1 : (⟨S1x4096, .f32⟩ : BufTy).Contents (Elt F) → (⟨S4096x4096, .f32⟩ : BufTy).Contents (Elt F)),
    binary main_v25 main_v31 main_v32 (subf : (⟨S4096x4096, .f32⟩ : BufTy).Contents (Elt F) → (⟨S4096x4096, .f32⟩ : BufTy).Contents (Elt F) → (⟨S4096x4096, .f32⟩ : BufTy).Contents (Elt F)),
    unary main_arg5 main_v33 (broadcastInDim S1x4096 ![1] bcast_S4096_S1x4096_1 : (⟨S4096, .f32⟩ : BufTy).Contents (Elt F) → (⟨S1x4096, .f32⟩ : BufTy).Contents (Elt F)),
    unary main_v33 main_v34 (broadcastInDim S4096x4096 ![0, 1] bcast_S1x4096_S4096x4096_0_1 : (⟨S1x4096, .f32⟩ : BufTy).Contents (Elt F) → (⟨S4096x4096, .f32⟩ : BufTy).Contents (Elt F)),
    binary main_v34 main_v32 main_v35 (mulf : (⟨S4096x4096, .f32⟩ : BufTy).Contents (Elt F) → (⟨S4096x4096, .f32⟩ : BufTy).Contents (Elt F) → (⟨S4096x4096, .f32⟩ : BufTy).Contents (Elt F)),
    nullary main_cst_5 (constant S_ .f32 0x3727C5AC#32),
    unary main_cst_5 main_v36 (broadcastInDim S4096 ![] bcast_S_S4096 : (⟨S_, .f32⟩ : BufTy).Contents (Elt F) → (⟨S4096, .f32⟩ : BufTy).Contents (Elt F)),
    binary main_v29 main_v36 main_v37 (addf : (⟨S4096, .f32⟩ : BufTy).Contents (Elt F) → (⟨S4096, .f32⟩ : BufTy).Contents (Elt F) → (⟨S4096, .f32⟩ : BufTy).Contents (Elt F)),
    unary main_v37 main_v38 (Host.rsqrt : (⟨S4096, .f32⟩ : BufTy).Contents (Elt F) → (⟨S4096, .f32⟩ : BufTy).Contents (Elt F)),
    unary main_v38 main_v39 (broadcastInDim S1x4096 ![1] bcast_S4096_S1x4096_1 : (⟨S4096, .f32⟩ : BufTy).Contents (Elt F) → (⟨S1x4096, .f32⟩ : BufTy).Contents (Elt F)),
    unary main_v39 main_v40 (broadcastInDim S4096x4096 ![0, 1] bcast_S1x4096_S4096x4096_0_1 : (⟨S1x4096, .f32⟩ : BufTy).Contents (Elt F) → (⟨S4096x4096, .f32⟩ : BufTy).Contents (Elt F)),
    binary main_v35 main_v40 main_v41 (mulf : (⟨S4096x4096, .f32⟩ : BufTy).Contents (Elt F) → (⟨S4096x4096, .f32⟩ : BufTy).Contents (Elt F) → (⟨S4096x4096, .f32⟩ : BufTy).Contents (Elt F)),
    unary main_arg6 main_v42 (broadcastInDim S1x4096 ![1] bcast_S4096_S1x4096_1 : (⟨S4096, .f32⟩ : BufTy).Contents (Elt F) → (⟨S1x4096, .f32⟩ : BufTy).Contents (Elt F)),
    unary main_v42 main_v43 (broadcastInDim S4096x4096 ![0, 1] bcast_S1x4096_S4096x4096_0_1 : (⟨S1x4096, .f32⟩ : BufTy).Contents (Elt F) → (⟨S4096x4096, .f32⟩ : BufTy).Contents (Elt F)),
    binary main_v41 main_v43 main_v44 (addf : (⟨S4096x4096, .f32⟩ : BufTy).Contents (Elt F) → (⟨S4096x4096, .f32⟩ : BufTy).Contents (Elt F) → (⟨S4096x4096, .f32⟩ : BufTy).Contents (Elt F)),
    unary main_v44 main_v45 (Host.sign : (⟨S4096x4096, .f32⟩ : BufTy).Contents (Elt F) → (⟨S4096x4096, .f32⟩ : BufTy).Contents (Elt F)) ]

/-- Operations 97 … 102: the third layer's first operations (to the end of @main's first window). -/
abbrev opsC : List (HloOp τ sig (Elt F)) :=
  [ unary main_arg7 main_v46 (Host.sign : (⟨S4096x4096, .f32⟩ : BufTy).Contents (Elt F) → (⟨S4096x4096, .f32⟩ : BufTy).Contents (Elt F)),
    unary main_v46 main_v47 ((transpose S4096x4096 [1, 0] · transposes_S4096x4096_S4096x4096_1_0) : (⟨S4096x4096, .f32⟩ : BufTy).Contents (Elt F) → (⟨S4096x4096, .f32⟩ : BufTy).Contents (Elt F)),
    binary main_v45 main_v47 main_v48 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    nullary main_cst_6 (constant S_ .f32 0x00000000#32),
    binary main_v48 main_cst_6 main_v49 ((fun x v => Host.reduceAdd x v reducesTo_S4096x4096_S4096_d0 h_S_) : (⟨S4096x4096, .f32⟩ : BufTy).Contents (Elt F) → (⟨S_, .f32⟩ : BufTy).Contents (Elt F) → (⟨S4096, .f32⟩ : BufTy).Contents (Elt F)),
    nullary main_cst_7 (constant S_ .f32 0x45800000#32) ]

/-- Operations 103 … 144: the rest of the third layer, through its closing sign. -/
abbrev opsD : List (HloOp τ sig (Elt F)) :=
  [ unary main_cst_7 main_v50 (broadcastInDim S4096 ![] bcast_S_S4096 : (⟨S_, .f32⟩ : BufTy).Contents (Elt F) → (⟨S4096, .f32⟩ : BufTy).Contents (Elt F)),
    binary main_v49 main_v50 main_v51 (Host.divf : (⟨S4096, .f32⟩ : BufTy).Contents (Elt F) → (⟨S4096, .f32⟩ : BufTy).Contents (Elt F) → (⟨S4096, .f32⟩ : BufTy).Contents (Elt F)),
    nullary main_c_8 (constantI S_ 32 0#32),
    TRef.nullary main_call2.cst (constant S_ .f32 0x00000000#32),
    TRef.binary (TRef.of (T := ⟨S4096x4096, .f32⟩) main_v48) main_call2.cst main_call2.v0 (fun x v => Host.reduceAdd x v reducesTo_S4096x4096_S4096_d0 h_S_),
    TRef.unary main_call2.v0 main_call2.v1 (broadcastInDim S1x4096 ![1] bcast_S4096_S1x4096_1),
    TRef.nullary main_call2.cst_0 (constant S_ .f32 0x45800000#32),
    TRef.unary main_call2.cst_0 main_call2.v2 (broadcastInDim S1x4096 ![] bcast_S_S1x4096),
    TRef.binary main_call2.v1 main_call2.v2 main_call2.v3 Host.divf,
    TRef.unary main_call2.v3 main_call2.v4 (broadcastInDim S4096x4096 ![0, 1] bcast_S1x4096_S4096x4096_0_1),
    TRef.binary (TRef.of (T := ⟨S4096x4096, .f32⟩) main_v48) main_call2.v4 main_call2.v5 subf,
    TRef.binary main_call2.v5 main_call2.v5 main_call2.v6 mulf,
    TRef.unary (TRef.of (T := ⟨S_, .i32⟩) main_c_8) main_call2.v7 (sitofp .f32),
    TRef.nullary main_call2.cst_1 (constant S_ .f32 0x45800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S4096x4096_S4096_d0 h_S_),
    TRef.unary main_call2.v8 main_call2.v10 (broadcastInDim S4096 ![] bcast_S_S4096),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S4096 ![] bcast_S_S4096),
    TRef.ternary main_call2.v12 main_call2.v11 main_call2.call0.v1 main_call2.call0.v2 (fun p a b => select (broadcastInDim S4096 ![] bcast_S_S4096 p) a b),
    unary main_v51 main_v53 (broadcastInDim S1x4096 ![1] bcast_S4096_S1x4096_1 : (⟨S4096, .f32⟩ : BufTy).Contents (Elt F) → (⟨S1x4096, .f32⟩ : BufTy).Contents (Elt F)),
    unary main_v53 main_v54 (broadcastInDim S4096x4096 ![0, 1] bcast_S1x4096_S4096x4096_0_1 : (⟨S1x4096, .f32⟩ : BufTy).Contents (Elt F) → (⟨S4096x4096, .f32⟩ : BufTy).Contents (Elt F)),
    binary main_v48 main_v54 main_v55 (subf : (⟨S4096x4096, .f32⟩ : BufTy).Contents (Elt F) → (⟨S4096x4096, .f32⟩ : BufTy).Contents (Elt F) → (⟨S4096x4096, .f32⟩ : BufTy).Contents (Elt F)),
    unary main_arg8 main_v56 (broadcastInDim S1x4096 ![1] bcast_S4096_S1x4096_1 : (⟨S4096, .f32⟩ : BufTy).Contents (Elt F) → (⟨S1x4096, .f32⟩ : BufTy).Contents (Elt F)),
    unary main_v56 main_v57 (broadcastInDim S4096x4096 ![0, 1] bcast_S1x4096_S4096x4096_0_1 : (⟨S1x4096, .f32⟩ : BufTy).Contents (Elt F) → (⟨S4096x4096, .f32⟩ : BufTy).Contents (Elt F)),
    binary main_v57 main_v55 main_v58 (mulf : (⟨S4096x4096, .f32⟩ : BufTy).Contents (Elt F) → (⟨S4096x4096, .f32⟩ : BufTy).Contents (Elt F) → (⟨S4096x4096, .f32⟩ : BufTy).Contents (Elt F)),
    nullary main_cst_9 (constant S_ .f32 0x3727C5AC#32),
    unary main_cst_9 main_v59 (broadcastInDim S4096 ![] bcast_S_S4096 : (⟨S_, .f32⟩ : BufTy).Contents (Elt F) → (⟨S4096, .f32⟩ : BufTy).Contents (Elt F)),
    binary main_v52 main_v59 main_v60 (addf : (⟨S4096, .f32⟩ : BufTy).Contents (Elt F) → (⟨S4096, .f32⟩ : BufTy).Contents (Elt F) → (⟨S4096, .f32⟩ : BufTy).Contents (Elt F)),
    unary main_v60 main_v61 (Host.rsqrt : (⟨S4096, .f32⟩ : BufTy).Contents (Elt F) → (⟨S4096, .f32⟩ : BufTy).Contents (Elt F)),
    unary main_v61 main_v62 (broadcastInDim S1x4096 ![1] bcast_S4096_S1x4096_1 : (⟨S4096, .f32⟩ : BufTy).Contents (Elt F) → (⟨S1x4096, .f32⟩ : BufTy).Contents (Elt F)),
    unary main_v62 main_v63 (broadcastInDim S4096x4096 ![0, 1] bcast_S1x4096_S4096x4096_0_1 : (⟨S1x4096, .f32⟩ : BufTy).Contents (Elt F) → (⟨S4096x4096, .f32⟩ : BufTy).Contents (Elt F)),
    binary main_v58 main_v63 main_v64 (mulf : (⟨S4096x4096, .f32⟩ : BufTy).Contents (Elt F) → (⟨S4096x4096, .f32⟩ : BufTy).Contents (Elt F) → (⟨S4096x4096, .f32⟩ : BufTy).Contents (Elt F)),
    unary main_arg9 main_v65 (broadcastInDim S1x4096 ![1] bcast_S4096_S1x4096_1 : (⟨S4096, .f32⟩ : BufTy).Contents (Elt F) → (⟨S1x4096, .f32⟩ : BufTy).Contents (Elt F)),
    unary main_v65 main_v66 (broadcastInDim S4096x4096 ![0, 1] bcast_S1x4096_S4096x4096_0_1 : (⟨S1x4096, .f32⟩ : BufTy).Contents (Elt F) → (⟨S4096x4096, .f32⟩ : BufTy).Contents (Elt F)),
    binary main_v64 main_v66 main_v67 (addf : (⟨S4096x4096, .f32⟩ : BufTy).Contents (Elt F) → (⟨S4096x4096, .f32⟩ : BufTy).Contents (Elt F) → (⟨S4096x4096, .f32⟩ : BufTy).Contents (Elt F)),
    unary main_v67 main_v68 (Host.sign : (⟨S4096x4096, .f32⟩ : BufTy).Contents (Elt F) → (⟨S4096x4096, .f32⟩ : BufTy).Contents (Elt F)) ]

/-- Operations 145 … 191: the last layer, through the result. -/
abbrev opsE : List (HloOp τ sig (Elt F)) :=
  [ unary main_arg10 main_v69 (Host.sign : (⟨S1000x4096, .f32⟩ : BufTy).Contents (Elt F) → (⟨S1000x4096, .f32⟩ : BufTy).Contents (Elt F)),
    unary main_v69 main_v70 ((transpose S4096x1000 [1, 0] · transposes_S1000x4096_S4096x1000_1_0) : (⟨S1000x4096, .f32⟩ : BufTy).Contents (Elt F) → (⟨S4096x1000, .f32⟩ : BufTy).Contents (Elt F)),
    binary main_v68 main_v70 main_v71 ((fun l r => Host.dotGeneral dot_S4096x4096_S4096x1000_S4096x1000_1_0_0_1_n_n none l r) : (⟨S4096x4096, .f32⟩ : BufTy).Contents (Elt F) → (⟨S4096x1000, .f32⟩ : BufTy).Contents (Elt F) → (⟨S4096x1000, .f32⟩ : BufTy).Contents (Elt F)),
    nullary main_cst_10 (constant S_ .f32 0x00000000#32),
    binary main_v71 main_cst_10 main_v72 ((fun x v => Host.reduceAdd x v reducesTo_S4096x1000_S1000_d0 h_S_) : (⟨S4096x1000, .f32⟩ : BufTy).Contents (Elt F) → (⟨S_, .f32⟩ : BufTy).Contents (Elt F) → (⟨S1000, .f32⟩ : BufTy).Contents (Elt F)),
    nullary main_cst_11 (constant S_ .f32 0x45800000#32),
    unary main_cst_11 main_v73 (broadcastInDim S1000 ![] bcast_S_S1000 : (⟨S_, .f32⟩ : BufTy).Contents (Elt F) → (⟨S1000, .f32⟩ : BufTy).Contents (Elt F)),
    binary main_v72 main_v73 main_v74 (Host.divf : (⟨S1000, .f32⟩ : BufTy).Contents (Elt F) → (⟨S1000, .f32⟩ : BufTy).Contents (Elt F) → (⟨S1000, .f32⟩ : BufTy).Contents (Elt F)),
    nullary main_c_12 (constantI S_ 32 0#32),
    TRef.nullary main_call3.cst (constant S_ .f32 0x00000000#32),
    TRef.binary (TRef.of (T := ⟨S4096x1000, .f32⟩) main_v71) main_call3.cst main_call3.v0 (fun x v => Host.reduceAdd x v reducesTo_S4096x1000_S1000_d0 h_S_),
    TRef.unary main_call3.v0 main_call3.v1 (broadcastInDim S1x1000 ![1] bcast_S1000_S1x1000_1),
    TRef.nullary main_call3.cst_0 (constant S_ .f32 0x45800000#32),
    TRef.unary main_call3.cst_0 main_call3.v2 (broadcastInDim S1x1000 ![] bcast_S_S1x1000),
    TRef.binary main_call3.v1 main_call3.v2 main_call3.v3 Host.divf,
    TRef.unary main_call3.v3 main_call3.v4 (broadcastInDim S4096x1000 ![0, 1] bcast_S1x1000_S4096x1000_0_1),
    TRef.binary (TRef.of (T := ⟨S4096x1000, .f32⟩) main_v71) main_call3.v4 main_call3.v5 subf,
    TRef.binary main_call3.v5 main_call3.v5 main_call3.v6 mulf,
    TRef.unary (TRef.of (T := ⟨S_, .i32⟩) main_c_12) main_call3.v7 (sitofp .f32),
    TRef.nullary main_call3.cst_1 (constant S_ .f32 0x45800000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S4096x1000_S1000_d0 h_S_),
    TRef.unary main_call3.v8 main_call3.v10 (broadcastInDim S1000 ![] bcast_S_S1000),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S1000 ![] bcast_S_S1000),
    TRef.ternary main_call3.v12 main_call3.v11 main_call3.call0.v1 main_call3.call0.v2 (fun p a b => select (broadcastInDim S1000 ![] bcast_S_S1000 p) a b),
    unary main_v74 main_v76 (broadcastInDim S1x1000 ![1] bcast_S1000_S1x1000_1 : (⟨S1000, .f32⟩ : BufTy).Contents (Elt F) → (⟨S1x1000, .f32⟩ : BufTy).Contents (Elt F)),
    unary main_v76 main_v77 (broadcastInDim S4096x1000 ![0, 1] bcast_S1x1000_S4096x1000_0_1 : (⟨S1x1000, .f32⟩ : BufTy).Contents (Elt F) → (⟨S4096x1000, .f32⟩ : BufTy).Contents (Elt F)),
    binary main_v71 main_v77 main_v78 (subf : (⟨S4096x1000, .f32⟩ : BufTy).Contents (Elt F) → (⟨S4096x1000, .f32⟩ : BufTy).Contents (Elt F) → (⟨S4096x1000, .f32⟩ : BufTy).Contents (Elt F)),
    unary main_arg11 main_v79 (broadcastInDim S1x1000 ![1] bcast_S1000_S1x1000_1 : (⟨S1000, .f32⟩ : BufTy).Contents (Elt F) → (⟨S1x1000, .f32⟩ : BufTy).Contents (Elt F)),
    unary main_v79 main_v80 (broadcastInDim S4096x1000 ![0, 1] bcast_S1x1000_S4096x1000_0_1 : (⟨S1x1000, .f32⟩ : BufTy).Contents (Elt F) → (⟨S4096x1000, .f32⟩ : BufTy).Contents (Elt F)),
    binary main_v80 main_v78 main_v81 (mulf : (⟨S4096x1000, .f32⟩ : BufTy).Contents (Elt F) → (⟨S4096x1000, .f32⟩ : BufTy).Contents (Elt F) → (⟨S4096x1000, .f32⟩ : BufTy).Contents (Elt F)),
    nullary main_cst_13 (constant S_ .f32 0x3727C5AC#32),
    unary main_cst_13 main_v82 (broadcastInDim S1000 ![] bcast_S_S1000 : (⟨S_, .f32⟩ : BufTy).Contents (Elt F) → (⟨S1000, .f32⟩ : BufTy).Contents (Elt F)),
    binary main_v75 main_v82 main_v83 (addf : (⟨S1000, .f32⟩ : BufTy).Contents (Elt F) → (⟨S1000, .f32⟩ : BufTy).Contents (Elt F) → (⟨S1000, .f32⟩ : BufTy).Contents (Elt F)),
    unary main_v83 main_v84 (Host.rsqrt : (⟨S1000, .f32⟩ : BufTy).Contents (Elt F) → (⟨S1000, .f32⟩ : BufTy).Contents (Elt F)),
    unary main_v84 main_v85 (broadcastInDim S1x1000 ![1] bcast_S1000_S1x1000_1 : (⟨S1000, .f32⟩ : BufTy).Contents (Elt F) → (⟨S1x1000, .f32⟩ : BufTy).Contents (Elt F)),
    unary main_v85 main_v86 (broadcastInDim S4096x1000 ![0, 1] bcast_S1x1000_S4096x1000_0_1 : (⟨S1x1000, .f32⟩ : BufTy).Contents (Elt F) → (⟨S4096x1000, .f32⟩ : BufTy).Contents (Elt F)),
    binary main_v81 main_v86 main_v87 (mulf : (⟨S4096x1000, .f32⟩ : BufTy).Contents (Elt F) → (⟨S4096x1000, .f32⟩ : BufTy).Contents (Elt F) → (⟨S4096x1000, .f32⟩ : BufTy).Contents (Elt F)),
    unary main_arg12 main_v88 (broadcastInDim S1x1000 ![1] bcast_S1000_S1x1000_1 : (⟨S1000, .f32⟩ : BufTy).Contents (Elt F) → (⟨S1x1000, .f32⟩ : BufTy).Contents (Elt F)),
    unary main_v88 main_v89 (broadcastInDim S4096x1000 ![0, 1] bcast_S1x1000_S4096x1000_0_1 : (⟨S1x1000, .f32⟩ : BufTy).Contents (Elt F) → (⟨S4096x1000, .f32⟩ : BufTy).Contents (Elt F)),
    binary main_v87 main_v89 main_v90 (addf : (⟨S4096x1000, .f32⟩ : BufTy).Contents (Elt F) → (⟨S4096x1000, .f32⟩ : BufTy).Contents (Elt F) → (⟨S4096x1000, .f32⟩ : BufTy).Contents (Elt F)) ]

/-- The operations of @main's first window. -/
abbrev ops0 : List (HloOp τ sig (Elt F)) := opsA ++ (opsB ++ opsC)

/-- The operations of @main's second window. -/
abbrev ops1 : List (HloOp τ sig (Elt F)) := opsD ++ opsE

/-- @main's operations in program order, each call's operations in the call's place. -/
abbrev ops : List (HloOp τ sig (Elt F)) := ops0 ++ ops1

/-! Each window is the straight line of its operations: unfolding a call substitutes the record's
    buffers, and sequencing re-associates by computation. -/

set_option maxRecDepth 8192 in
set_option maxHeartbeats 4000000 in
theorem main_part0_eq (c : Dev nD) : main_part0 (F := F) c = seq ops0 := rfl

set_option maxRecDepth 8192 in
set_option maxHeartbeats 4000000 in
theorem main_part1_eq (c : Dev nD) : main_part1 (F := F) c = seq ops1 := rfl

/-- @main is the straight line of all its operations: the two windows one after the other are the
    concatenation run as one. -/
theorem main_eq (c : Dev nD) : main (F := F) c = seq ops := by
  simp only [ops, seq_append, ← main_part0_eq c, ← main_part1_eq c]
  rfl

/-- The signature scopes no TensorCore buffer and no semaphore. -/
theorem scopedRefs_eq : (Finset.univ.filter fun b : Ref sig .tc => b.isScoped) = ∅ := by decide
theorem scopedSems_eq : (Finset.univ.filter fun sm : SemLoc sig => sm.isScoped .tc) = ∅ := by decide

/-! Every operation touches TensorCore references only. -/

set_option maxRecDepth 8192 in
theorem opsA_sub : (opsA : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub ..⟩

set_option maxRecDepth 8192 in
theorem opsB_sub : (opsB : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub ..⟩

set_option maxRecDepth 8192 in
theorem opsC_sub : (opsC : List (HloOp τ sig (Elt F))).Forall fun op => op.bufs ⊆ tcRefs τ sig :=
  ⟨unary_bufs_sub .., unary_bufs_sub .., binary_bufs_sub .., nullary_bufs_sub .., binary_bufs_sub .., nullary_bufs_sub ..⟩

set_option maxRecDepth 8192 in
theorem opsD_sub : (opsD : List (HloOp τ sig (Elt F))).Forall fun op => op.bufs ⊆ tcRefs τ sig :=
  ⟨unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub ..⟩

set_option maxRecDepth 8192 in
theorem opsE_sub : (opsE : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩

theorem ops_sub : (ops : List (HloOp τ sig (Elt F))).Forall fun op => op.bufs ⊆ tcRefs τ sig :=
  List.forall_append.mpr ⟨List.forall_append.mpr ⟨opsA_sub, List.forall_append.mpr ⟨opsB_sub, opsC_sub⟩⟩,
    List.forall_append.mpr ⟨opsD_sub, opsE_sub⟩⟩

/-! The buffers the operations write, as lists of references: every operation writes one buffer,
    its result; a reference outside a list keeps its contents through that list's operations. -/

/-- A singleton of a listed reference lies in the listed references. -/
theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The result buffers of operations 1 … 48, in order. -/
abbrev WA : List (Ref sig .tc) := [main_v0, main_v1, main_v2, main_cst, main_v3, main_cst_0, main_v4, main_v5, main_c, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref, main_v7, main_v8, main_v9, main_v10, main_v11, main_v12, main_cst_1, main_v13, main_v14, main_v15, main_v16, main_v17, main_v18, main_v19, main_v20, main_v21, main_v22]

set_option maxRecDepth 8192 in
theorem opsA_writes : (opsA : List (HloOp τ sig (Elt F))).Forall fun op =>
    op.writes ⊆ (WA.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩

/-- The result buffers of operations 49 … 96, in order. -/
abbrev WB : List (Ref sig .tc) := [main_v23, main_v24, main_v25, main_cst_2, main_v26, main_cst_3, main_v27, main_v28, main_c_4, main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.v11.ref, main_call1.cst_3.ref, main_call1.v12.ref, main_call1.cst_4.ref, main_call1.call0.v0.ref, main_call1.call0.v1.ref, main_call1.call0.v2.ref, main_v30, main_v31, main_v32, main_v33, main_v34, main_v35, main_cst_5, main_v36, main_v37, main_v38, main_v39, main_v40, main_v41, main_v42, main_v43, main_v44, main_v45]

set_option maxRecDepth 8192 in
theorem opsB_writes : (opsB : List (HloOp τ sig (Elt F))).Forall fun op =>
    op.writes ⊆ (WB.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩

/-- The result buffers of operations 97 … 102, in order. -/
abbrev WC : List (Ref sig .tc) := [main_v46, main_v47, main_v48, main_cst_6, main_v49, main_cst_7]

set_option maxRecDepth 8192 in
theorem opsC_writes : (opsC : List (HloOp τ sig (Elt F))).Forall fun op =>
    op.writes ⊆ (WC.map (Proc.devRef (τ := τ) .tc)).toFinset :=
  ⟨single_sub (by decide), single_sub (by decide), single_sub (by decide), single_sub (by decide), single_sub (by decide), single_sub (by decide)⟩

/-- The result buffers of operations 103 … 144, in order. -/
abbrev WD : List (Ref sig .tc) := [main_v50, main_v51, main_c_8, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref, main_v53, main_v54, main_v55, main_v56, main_v57, main_v58, main_cst_9, main_v59, main_v60, main_v61, main_v62, main_v63, main_v64, main_v65, main_v66, main_v67, main_v68]

set_option maxRecDepth 8192 in
theorem opsD_writes : (opsD : List (HloOp τ sig (Elt F))).Forall fun op =>
    op.writes ⊆ (WD.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩

/-- The result buffers of operations 145 … 191, in order. -/
abbrev WE : List (Ref sig .tc) := [main_v69, main_v70, main_v71, main_cst_10, main_v72, main_cst_11, main_v73, main_v74, main_c_12, main_call3.cst.ref, main_call3.v0.ref, main_call3.v1.ref, main_call3.cst_0.ref, main_call3.v2.ref, main_call3.v3.ref, main_call3.v4.ref, main_call3.v5.ref, main_call3.v6.ref, main_call3.v7.ref, main_call3.cst_1.ref, main_call3.v8.ref, main_call3.cst_2.ref, main_call3.v9.ref, main_call3.v10.ref, main_call3.v11.ref, main_call3.cst_3.ref, main_call3.v12.ref, main_call3.cst_4.ref, main_call3.call0.v0.ref, main_call3.call0.v1.ref, main_call3.call0.v2.ref, main_v76, main_v77, main_v78, main_v79, main_v80, main_v81, main_cst_13, main_v82, main_v83, main_v84, main_v85, main_v86, main_v87, main_v88, main_v89, main_v90]

set_option maxRecDepth 8192 in
theorem opsE_writes : (opsE : List (HloOp τ sig (Elt F))).Forall fun op =>
    op.writes ⊆ (WE.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩

/-- The whole line's fold is the five lists' folds, one after the other. -/
theorem after_ops (V : Valuation τ sig (Elt F)) :
    after ops V = after opsE (after opsD (after opsC (after opsB (after opsA V)))) := by
  simp only [ops, ops0, ops1, after_append]

/-- A reference that none of the five lists writes keeps its contents through all of @main's operations. -/
theorem after_keep (V : Valuation τ sig (Elt F)) (r : Ref sig .tc)
    (hA : r ∉ WA) (hB : r ∉ WB) (hC : r ∉ WC) (hD : r ∉ WD) (hE : r ∉ WE) :
    after ops V (Proc.devRef .tc r) = V (Proc.devRef .tc r) := by
  rw [after_ops, after_of_writes_sub opsE _ opsE_writes hE, after_of_writes_sub opsD _ opsD_writes hD,
    after_of_writes_sub opsC _ opsC_writes hC, after_of_writes_sub opsB _ opsB_writes hB,
    after_of_writes_sub opsA _ opsA_writes hA]

end Cert.ReferenceIdeal.HandRun

end
-- ==== Proof.RefRun.lean ====
import proofs.«157460_j63591285784858_2_alg».proof.Proof.RefRunOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- On every device, for any float values, from any memory with zero counters: every weakly fair execution of
    @main terminates, the result buffer holds the fold of @main's operations over the launch contents, and the
    thirteen argument buffers, which no operation writes, hold what they held. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v90) = StableHlo.after ops (fun b => m (c, b)) (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨h c main_v90,
      (h c main_arg0).trans (after_keep _ main_arg0 (by decide) (by decide) (by decide) (by decide) (by decide)),
      (h c main_arg1).trans (after_keep _ main_arg1 (by decide) (by decide) (by decide) (by decide) (by decide)),
      (h c main_arg2).trans (after_keep _ main_arg2 (by decide) (by decide) (by decide) (by decide) (by decide)),
      (h c main_arg3).trans (after_keep _ main_arg3 (by decide) (by decide) (by decide) (by decide) (by decide)),
      (h c main_arg4).trans (after_keep _ main_arg4 (by decide) (by decide) (by decide) (by decide) (by decide)),
      (h c main_arg5).trans (after_keep _ main_arg5 (by decide) (by decide) (by decide) (by decide) (by decide)),
      (h c main_arg6).trans (after_keep _ main_arg6 (by decide) (by decide) (by decide) (by decide) (by decide)),
      (h c main_arg7).trans (after_keep _ main_arg7 (by decide) (by decide) (by decide) (by decide) (by decide)),
      (h c main_arg8).trans (after_keep _ main_arg8 (by decide) (by decide) (by decide) (by decide) (by decide)),
      (h c main_arg9).trans (after_keep _ main_arg9 (by decide) (by decide) (by decide) (by decide) (by decide)),
      (h c main_arg10).trans (after_keep _ main_arg10 (by decide) (by decide) (by decide) (by decide) (by decide)),
      (h c main_arg11).trans (after_keep _ main_arg11 (by decide) (by decide) (by decide) (by decide) (by decide)),
      (h c main_arg12).trans (after_keep _ main_arg12 (by decide) (by decide) (by decide) (by decide) (by decide))⟩)
    (run_seq scopedRefs_eq scopedSems_eq defs main (fun _ => ops) main_eq (fun _ => ops_sub) m ρ)

end Cert.ReferenceIdeal.HandRun

end
-- ==== Proof.Preserves.lean ====
/-
  The idealized kernel is the kernel's sanctioned idealization: the ideal pass rewrote seven sites, all by one rule —
  "1.0 carrying the sign bit of v" became "-1 where v < 0, else 1" — at three vector shapes. Each site's statement is
  the rule's own, at that shape and f32: at the ideal values the printed comparison-and-select is the function
  `if x < 0 then -1 else 1`; at the bit level the original window is the pattern of ±1.0 chosen by the sign bit.
-/
import proofs.«157460_j63591285784858_2_alg».proof.Defs
import Idealize.ShloMosaic.PureOps.IdealRules

noncomputable section

namespace Cert.Proof

open Idealize.ShloMosaic

theorem preserves : Cert.preserves_Kernel_KernelIdeal :=
  ⟨IdealRules.sign_bit.statement Cert.KernelIdeal.S256x2048 .f32,
    IdealRules.sign_bit.statement Cert.KernelIdeal.S1024x1024 .f32,
    IdealRules.sign_bit.statement Cert.KernelIdeal.S256x4096 .f32,
    IdealRules.sign_bit.statement Cert.KernelIdeal.S1024x1024 .f32,
    IdealRules.sign_bit.statement Cert.KernelIdeal.S256x4096 .f32,
    IdealRules.sign_bit.statement Cert.KernelIdeal.S1024x1024 .f32,
    IdealRules.sign_bit.statement Cert.KernelIdeal.S256x4096 .f32⟩

end Cert.Proof

end
-- ==== Proof.ClaimOf.lean ====
/-
  The certificate's claim from its parts: the witnesses of the four programs' stated side conditions, the three
  frames, the sanctioned-idealization conjunct and the equality of the two idealized programs' results. The frames of
  the kernel and of its idealization and the last conjunct are taken as hypotheses; the reference's frame is its run
  with the result forgotten; the idealization conjunct is the rule's statement at each rewritten site.
-/
import proofs.«157460_j63591285784858_2_alg».proof.Defs
import proofs.«157460_j63591285784858_2_alg».proof.Proof.Gen.Kernel
import proofs.«157460_j63591285784858_2_alg».proof.Proof.Gen.KernelIdeal
import proofs.«157460_j63591285784858_2_alg».proof.Proof.Gen.ReferenceIdeal
import proofs.«157460_j63591285784858_2_alg».proof.Proof.Gen.Pre_finite_inputs
import proofs.«157460_j63591285784858_2_alg».proof.Proof.RefRun
import proofs.«157460_j63591285784858_2_alg».proof.Proof.Preserves

noncomputable section

namespace Cert.Proof

open Idealize.ShloMosaic Idealize.ShloMosaic.TcCoe Idealize.SL.Sem

/-- The reference terminates without a fault and leaves its thirteen arguments as they were, from any memory. -/
theorem frame_ReferenceIdeal :
    Cert.frame_ReferenceIdeal (hReferenceIdeal := Cert.ReferenceIdeal.Gen.facts) (hPre_finite_inputs := Cert.Pre_finite_inputs.Gen.facts) :=
  fun m g _ =>
    (θ_run (Cert.ReferenceIdeal.defs (F := Ideal)) (onTc (τ := Cert.ReferenceIdeal.τ) (Cert.ReferenceIdeal.main (F := Ideal))) ⟨m, fun _ => 0, g⟩).mono
      (fun _ h c => (h c).2) (Cert.ReferenceIdeal.HandRun.run (F := Ideal) m g)

theorem claim_of
    (hfK : Cert.frame_Kernel (hKernel := Cert.Kernel.Gen.facts) (hPre_finite_inputs := Cert.Pre_finite_inputs.Gen.facts))
    (hfKI : Cert.frame_KernelIdeal (hKernelIdeal := Cert.KernelIdeal.Gen.facts) (hPre_finite_inputs := Cert.Pre_finite_inputs.Gen.facts))
    (halg : Cert.algebraic_KernelIdeal_ReferenceIdeal (hKernelIdeal := Cert.KernelIdeal.Gen.facts)
      (hReferenceIdeal := Cert.ReferenceIdeal.Gen.facts) (hPre_finite_inputs := Cert.Pre_finite_inputs.Gen.facts)) :
    Cert.Claim :=
  ⟨Cert.Kernel.Gen.facts, Cert.KernelIdeal.Gen.facts, Cert.ReferenceIdeal.Gen.facts, Cert.Pre_finite_inputs.Gen.facts,
    hfK, hfKI, frame_ReferenceIdeal, preserves, halg⟩

end Cert.Proof

end
-- ==== Proof.RefLayers.lean ====
import proofs.«157460_j63591285784858_2_alg».proof.Proof.Gen.ReferenceIdeal
import Idealize.ShloMosaic.PureOps.Ideal

noncomputable section

namespace Cert.ReferenceIdeal.HandRun

open Cert.ReferenceIdeal Cert.ReferenceIdeal.Gen Idealize.ShloMosaic

/-! The reference network, layer by layer, as pure functions of arrays of extended reals: a layer multiplies
    its input by the transposed signs of its weights, normalizes the columns of the product, and (except
    the last) takes signs. Every function is the composition of the program's own operations, with the
    program's dimension records and constant words. -/

/-- The divisor of the variance: 4096 less the correction, which is the integer zero made a float. -/
def count : FVec Ideal S_ .f32 :=
  subf (constant (F := Ideal) S_ .f32 0x45800000#32) (sitofp (F := Ideal) .f32 (constantI S_ 32 0#32))

/-- A length-4096 vector laid along the rows of a 4096 × 4096 array: first as one row, then the row repeated. -/
def rows4096 (v : FVec Ideal S4096 .f32) : FVec Ideal S4096x4096 .f32 :=
  broadcastInDim S4096x4096 ![0, 1] bcast_S1x4096_S4096x4096_0_1 (broadcastInDim S1x4096 ![1] bcast_S4096_S1x4096_1 v)

/-- The column means of a 4096 × 4096 array: each column's sum, from zero, divided by 4096. -/
def mean4096 (h : FVec Ideal S4096x4096 .f32) : FVec Ideal S4096 .f32 :=
  Host.divf (F := Ideal) (Host.reduceAdd (F := Ideal) h (constant (F := Ideal) S_ .f32 0x00000000#32) reducesTo_S4096x4096_S4096_d0 h_S_)
    (broadcastInDim S4096 ![] bcast_S_S4096 (constant (F := Ideal) S_ .f32 0x45800000#32))

/-- The array less its column means, the means taken as one row (sum from zero divided by 4096) and repeated. -/
def centered4096 (h : FVec Ideal S4096x4096 .f32) : FVec Ideal S4096x4096 .f32 :=
  subf h (broadcastInDim S4096x4096 ![0, 1] bcast_S1x4096_S4096x4096_0_1
    (Host.divf (F := Ideal) (broadcastInDim S1x4096 ![1] bcast_S4096_S1x4096_1 (Host.reduceAdd (F := Ideal) h (constant (F := Ideal) S_ .f32 0x00000000#32) reducesTo_S4096x4096_S4096_d0 h_S_))
      (broadcastInDim S1x4096 ![] bcast_S_S1x4096 (constant (F := Ideal) S_ .f32 0x45800000#32))))

/-- The column variances of a 4096 × 4096 array: where the divisor is positive, each column's sum of squared
    deviations from its mean divided by the divisor; elsewhere the quiet NaN. -/
def var4096 (h : FVec Ideal S4096x4096 .f32) : FVec Ideal S4096 .f32 :=
  select (broadcastInDim S4096 ![] bcast_S_S4096 (cmpf .ogt count (constant (F := Ideal) S_ .f32 0x00000000#32)))
    (Host.divf (F := Ideal) (Host.reduceAdd (F := Ideal) (mulf (centered4096 h) (centered4096 h)) (constant (F := Ideal) S_ .f32 0x00000000#32) reducesTo_S4096x4096_S4096_d0 h_S_)
      (broadcastInDim S4096 ![] bcast_S_S4096 count))
    (broadcastInDim S4096 ![] bcast_S_S4096 (constant (F := Ideal) S_ .f32 0x7FC00000#32))

/-- Column normalization with scale `g` and shift `b`: `g · (h − mean) · rsqrt (var + ε) + b`, the
    products taken in that order, ε the float nearest 1e-5. -/
def norm4096 (h : FVec Ideal S4096x4096 .f32) (g b : FVec Ideal S4096 .f32) : FVec Ideal S4096x4096 .f32 :=
  addf (mulf (mulf (rows4096 g) (subf h (rows4096 (mean4096 h))))
      (rows4096 (Host.rsqrt (addf (var4096 h) (broadcastInDim S4096 ![] bcast_S_S4096 (constant (F := Ideal) S_ .f32 0x3727C5AC#32))))))
    (rows4096 b)

/-- A length-1000 vector laid along the rows of a 4096 × 1000 array: first as one row, then the row repeated. -/
def rows1000 (v : FVec Ideal S1000 .f32) : FVec Ideal S4096x1000 .f32 :=
  broadcastInDim S4096x1000 ![0, 1] bcast_S1x1000_S4096x1000_0_1 (broadcastInDim S1x1000 ![1] bcast_S1000_S1x1000_1 v)

/-- The column means of a 4096 × 1000 array: each column's sum, from zero, divided by 4096. -/
def mean1000 (h : FVec Ideal S4096x1000 .f32) : FVec Ideal S1000 .f32 :=
  Host.divf (F := Ideal) (Host.reduceAdd (F := Ideal) h (constant (F := Ideal) S_ .f32 0x00000000#32) reducesTo_S4096x1000_S1000_d0 h_S_)
    (broadcastInDim S1000 ![] bcast_S_S1000 (constant (F := Ideal) S_ .f32 0x45800000#32))

/-- The array less its column means, the means taken as one row (sum from zero divided by 4096) and repeated. -/
def centered1000 (h : FVec Ideal S4096x1000 .f32) : FVec Ideal S4096x1000 .f32 :=
  subf h (broadcastInDim S4096x1000 ![0, 1] bcast_S1x1000_S4096x1000_0_1
    (Host.divf (F := Ideal) (broadcastInDim S1x1000 ![1] bcast_S1000_S1x1000_1 (Host.reduceAdd (F := Ideal) h (constant (F := Ideal) S_ .f32 0x00000000#32) reducesTo_S4096x1000_S1000_d0 h_S_))
      (broadcastInDim S1x1000 ![] bcast_S_S1x1000 (constant (F := Ideal) S_ .f32 0x45800000#32))))

/-- The column variances of a 4096 × 1000 array: where the divisor is positive, each column's sum of squared
    deviations from its mean divided by the divisor; elsewhere the quiet NaN. -/
def var1000 (h : FVec Ideal S4096x1000 .f32) : FVec Ideal S1000 .f32 :=
  select (broadcastInDim S1000 ![] bcast_S_S1000 (cmpf .ogt count (constant (F := Ideal) S_ .f32 0x00000000#32)))
    (Host.divf (F := Ideal) (Host.reduceAdd (F := Ideal) (mulf (centered1000 h) (centered1000 h)) (constant (F := Ideal) S_ .f32 0x00000000#32) reducesTo_S4096x1000_S1000_d0 h_S_)
      (broadcastInDim S1000 ![] bcast_S_S1000 count))
    (broadcastInDim S1000 ![] bcast_S_S1000 (constant (F := Ideal) S_ .f32 0x7FC00000#32))

/-- Column normalization with scale `g` and shift `b`: `g · (h − mean) · rsqrt (var + ε) + b`, the
    products taken in that order, ε the float nearest 1e-5. -/
def norm1000 (h : FVec Ideal S4096x1000 .f32) (g b : FVec Ideal S1000 .f32) : FVec Ideal S4096x1000 .f32 :=
  addf (mulf (mulf (rows1000 g) (subf h (rows1000 (mean1000 h))))
      (rows1000 (Host.rsqrt (addf (var1000 h) (broadcastInDim S1000 ![] bcast_S_S1000 (constant (F := Ideal) S_ .f32 0x3727C5AC#32))))))
    (rows1000 b)

/-- The first layer: 4096 × 2048 input, 4096 × 2048 weights. -/
def layer0 (x : FVec Ideal S4096x2048 .f32) (W : FVec Ideal S4096x2048 .f32) (g b : FVec Ideal S4096 .f32) :
    FVec Ideal S4096x4096 .f32 :=
  Host.sign (norm4096 (Host.dotGeneral (F := Ideal) dot_S4096x2048_S2048x4096_S4096x4096_1_0_0_1_n_n none x
    (transpose S2048x4096 [1, 0] (Host.sign W) transposes_S4096x2048_S2048x4096_1_0)) g b)

/-- A middle layer: 4096 × 4096 input, 4096 × 4096 weights. -/
def layerMid (x : FVec Ideal S4096x4096 .f32) (W : FVec Ideal S4096x4096 .f32) (g b : FVec Ideal S4096 .f32) :
    FVec Ideal S4096x4096 .f32 :=
  Host.sign (norm4096 (Host.dotGeneral (F := Ideal) dot_S4096x4096_S4096x4096_S4096x4096_1_0_0_1_n_n none x
    (transpose S4096x4096 [1, 0] (Host.sign W) transposes_S4096x4096_S4096x4096_1_0)) g b)

/-- The second layer. -/
abbrev layer1 := layerMid
/-- The third layer. -/
abbrev layer2 := layerMid

/-- The last layer: 4096 × 4096 input, 1000 × 4096 weights, no closing sign. -/
def layer3 (x : FVec Ideal S4096x4096 .f32) (W : FVec Ideal S1000x4096 .f32) (g b : FVec Ideal S1000 .f32) :
    FVec Ideal S4096x1000 .f32 :=
  norm1000 (Host.dotGeneral (F := Ideal) dot_S4096x4096_S4096x1000_S4096x1000_1_0_0_1_n_n none x
    (transpose S4096x1000 [1, 0] (Host.sign W) transposes_S1000x4096_S4096x1000_1_0)) g b

end Cert.ReferenceIdeal.HandRun

end
-- ==== Proof.RefRead.lean ====
import proofs.«157460_j63591285784858_2_alg».proof.Proof.RefRunOps
import proofs.«157460_j63591285784858_2_alg».proof.Proof.RefLayers

noncomputable section

namespace Cert.ReferenceIdeal.HandRun

open Cert.ReferenceIdeal Cert.ReferenceIdeal.Gen Idealize.ShloMosaic Idealize.ShloMosaic.TcCoe Idealize.SL.Sem Idealize.ShloMosaic.StableHlo

/-! The reference's result as a pure term of its thirteen argument arrays: each layer's operations compute that
    layer's function of the previous layer's result and of three arguments, and no layer's operations write an
    argument or an earlier layer's result. -/

/-! A reference outside a list of operations' result buffers keeps its contents through the list. -/

theorem keepA {F : FTy → Type} [FloatOps F] (V : Valuation τ sig (Elt F)) (r : Ref sig .tc) (h : r ∉ WA) :
    after opsA V (Proc.devRef .tc r) = V (Proc.devRef .tc r) :=
  after_of_writes_sub opsA V opsA_writes h

theorem keepB {F : FTy → Type} [FloatOps F] (V : Valuation τ sig (Elt F)) (r : Ref sig .tc) (h : r ∉ WB) :
    after opsB V (Proc.devRef .tc r) = V (Proc.devRef .tc r) :=
  after_of_writes_sub opsB V opsB_writes h

theorem keepC {F : FTy → Type} [FloatOps F] (V : Valuation τ sig (Elt F)) (r : Ref sig .tc) (h : r ∉ WC) :
    after opsC V (Proc.devRef .tc r) = V (Proc.devRef .tc r) :=
  after_of_writes_sub opsC V opsC_writes h

theorem keepD {F : FTy → Type} [FloatOps F] (V : Valuation τ sig (Elt F)) (r : Ref sig .tc) (h : r ∉ WD) :
    after opsD V (Proc.devRef .tc r) = V (Proc.devRef .tc r) :=
  after_of_writes_sub opsD V opsD_writes h

theorem keepE {F : FTy → Type} [FloatOps F] (V : Valuation τ sig (Elt F)) (r : Ref sig .tc) (h : r ∉ WE) :
    after opsE V (Proc.devRef .tc r) = V (Proc.devRef .tc r) :=
  after_of_writes_sub opsE V opsE_writes h

/-! Each layer's operations, from any contents, leave the layer's function at the layer's last buffer: the fold
    is unrolled, each operation's result read at its own buffer and skipped at every other, and what remains is
    the layer's definition unfolded. -/

set_option maxRecDepth 8192 in
set_option maxHeartbeats 4000000 in
theorem readA (V : Valuation τ sig (Elt Ideal)) :
    after opsA V (Proc.devRef .tc main_v22)
      = layer0 (V (Proc.devRef .tc main_arg0)) (V (Proc.devRef .tc main_arg1)) (V (Proc.devRef .tc main_arg2)) (V (Proc.devRef .tc main_arg3)) := by
  simp only [opsA]
  after_results_simp
  rfl

set_option maxRecDepth 8192 in
set_option maxHeartbeats 4000000 in
theorem readB (V : Valuation τ sig (Elt Ideal)) :
    after opsB V (Proc.devRef .tc main_v45)
      = layer1 (V (Proc.devRef .tc main_v22)) (V (Proc.devRef .tc main_arg4)) (V (Proc.devRef .tc main_arg5)) (V (Proc.devRef .tc main_arg6)) := by
  simp only [opsB]
  after_results_simp
  rfl

set_option maxRecDepth 8192 in
set_option maxHeartbeats 4000000 in
theorem readCD (V : Valuation τ sig (Elt Ideal)) :
    after opsD (after opsC V) (Proc.devRef .tc main_v68)
      = layer2 (V (Proc.devRef .tc main_v45)) (V (Proc.devRef .tc main_arg7)) (V (Proc.devRef .tc main_arg8)) (V (Proc.devRef .tc main_arg9)) := by
  simp only [opsC, opsD]
  after_results_simp
  rfl

set_option maxRecDepth 8192 in
set_option maxHeartbeats 4000000 in
theorem readE (V : Valuation τ sig (Elt Ideal)) :
    after opsE V (Proc.devRef .tc main_v90)
      = layer3 (V (Proc.devRef .tc main_v68)) (V (Proc.devRef .tc main_arg10)) (V (Proc.devRef .tc main_arg11)) (V (Proc.devRef .tc main_arg12)) := by
  simp only [opsE]
  after_results_simp
  rfl

/-- The result buffer after all of @main's operations, from any contents `V`: the four layers composed, each
    reading its three parameter arrays from `V` itself. -/
theorem after_main_v90 (V : Valuation τ sig (Elt Ideal)) :
    after ops V (Proc.devRef .tc main_v90)
      = layer3 (layer2 (layer1 (layer0 (V (Proc.devRef .tc main_arg0)) (V (Proc.devRef .tc main_arg1)) (V (Proc.devRef .tc main_arg2)) (V (Proc.devRef .tc main_arg3)))
            (V (Proc.devRef .tc main_arg4)) (V (Proc.devRef .tc main_arg5)) (V (Proc.devRef .tc main_arg6)))
          (V (Proc.devRef .tc main_arg7)) (V (Proc.devRef .tc main_arg8)) (V (Proc.devRef .tc main_arg9)))
        (V (Proc.devRef .tc main_arg10)) (V (Proc.devRef .tc main_arg11)) (V (Proc.devRef .tc main_arg12)) := by
  rw [after_ops, readE, readCD, readB, readA,
    keepD _ main_arg10 (by decide), keepC _ main_arg10 (by decide), keepB _ main_arg10 (by decide), keepA _ main_arg10 (by decide),
    keepD _ main_arg11 (by decide), keepC _ main_arg11 (by decide), keepB _ main_arg11 (by decide), keepA _ main_arg11 (by decide),
    keepD _ main_arg12 (by decide), keepC _ main_arg12 (by decide), keepB _ main_arg12 (by decide), keepA _ main_arg12 (by decide),
    keepB _ main_arg7 (by decide), keepA _ main_arg7 (by decide),
    keepB _ main_arg8 (by decide), keepA _ main_arg8 (by decide),
    keepB _ main_arg9 (by decide), keepA _ main_arg9 (by decide),
    keepA _ main_arg4 (by decide), keepA _ main_arg5 (by decide), keepA _ main_arg6 (by decide)]

end Cert.ReferenceIdeal.HandRun

end
-- ==== Proof.RefValue.lean ====
import proofs.«157460_j63591285784858_2_alg».proof.Proof.RefRun
import proofs.«157460_j63591285784858_2_alg».proof.Proof.RefRead

noncomputable section

namespace Cert.ReferenceIdeal.HandRun

open Cert.ReferenceIdeal Cert.ReferenceIdeal.Gen Idealize.ShloMosaic Idealize.ShloMosaic.TcCoe Idealize.SL.Sem Idealize.ShloMosaic.StableHlo

/-- The reference's value, per device, as the four layers of the launch contents of its thirteen arguments. -/
def value (m : (ℓ : Loc nD τ sig) → Buf (Elt Ideal) ℓ) (c : Dev nD) : FVec Ideal S4096x1000 .f32 :=
  layer3 (layer2 (layer1 (layer0 (m ((c.tc : Thread nD τ).loc main_arg0)) (m ((c.tc : Thread nD τ).loc main_arg1)) (m ((c.tc : Thread nD τ).loc main_arg2)) (m ((c.tc : Thread nD τ).loc main_arg3)))
        (m ((c.tc : Thread nD τ).loc main_arg4)) (m ((c.tc : Thread nD τ).loc main_arg5)) (m ((c.tc : Thread nD τ).loc main_arg6)))
      (m ((c.tc : Thread nD τ).loc main_arg7)) (m ((c.tc : Thread nD τ).loc main_arg8)) (m ((c.tc : Thread nD τ).loc main_arg9)))
    (m ((c.tc : Thread nD τ).loc main_arg10)) (m ((c.tc : Thread nD τ).loc main_arg11)) (m ((c.tc : Thread nD τ).loc main_arg12))

/-- At the ideal instance, from any memory with zero counters: every weakly fair execution of @main terminates
    with the result buffer at the four layers composed over the launch contents of the arguments, and the
    arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v90) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c).1.trans (after_main_v90 _), (h c).2⟩) (run m ρ)

end Cert.ReferenceIdeal.HandRun

end
-- ==== Proof.PreFinite.lean ====
import proofs.«157460_j63591285784858_2_alg».proof.Defs
import proofs.«157460_j63591285784858_2_alg».proof.Proof.Gen.Pre_finite_inputs
import Idealize.ShloMosaic.Lib.ReduceAll
import Idealize.ShloMosaic.Lib.ValueIdx

noncomputable section

namespace Cert.PreFinite

open Idealize.ShloMosaic Idealize.ShloMosaic.TcCoe Idealize.SL.Sem

/-! The precondition tests every argument array entrywise, `|x| < +∞`, and conjoins all the answers into one
    bit. Read backwards: that bit is one, so every conjunct is one, so every entrywise answer is one, so every
    entry is neither infinity: it is a real number. -/

/-- A shape of rank zero has one index. -/
instance : Subsingleton (⟨0, ![]⟩ : Shape).Idx := ⟨fun _ _ => funext fun d => d.elim0⟩

/-- The word `0x7F800000` denotes `+∞`: sign clear, exponent all ones, fraction zero. -/
theorem ofBits_inf : Ideal.ofBits .f32 0x7F800000#32 = (⊤ : EReal) := by
  simp [Ideal.ofBits, Ideal.ieee]

/-- A boolean as a one-bit word is one exactly when it is true. -/
theorem ofBool_one (b : Bool) : BitVec.ofBool b = 1#1 ↔ b = true := by cases b <;> decide

/-- An extended real whose absolute value `max x (-x)` is below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- An all-reduction by `and` of the entrywise test `|x| < c`, `c` the splat of the word `0x7F800000`, that
    comes out one: every entry of `x` is a real number. For any shapes, axes and broadcast dimensions. -/
theorem real_of_all {s t u z : Shape} {axes : List (Fin s.rank)} [Subsingleton t.Idx]
    (x : FVec Ideal s .f32) (dims : Fin z.rank → Fin s.rank) (hb : z.BroadcastsInDim s dims)
    (init : u.Idx → BitVec 1) (h : s.ReducesTo axes t) (hu : 0 < u.numel) (j : t.Idx)
    (e : Host.reduce IntOp.andi
        (cmpf .olt (Host.absf x) (broadcastInDim s dims hb (constant (F := Ideal) z .f32 0x7F800000#32))) init h hu j = 1#1)
    (i : s.Idx) : ∃ r : ℝ, x i = (r : EReal) := by
  have hi := Host.reduce_andi_all _ init h hu j e i
  have h2 : Ideal.cmp .olt (max (x i) (-(x i))) (Ideal.ofBits .f32 0x7F800000#32) = 1#1 := hi
  rw [ofBits_inf] at h2
  refine real_of_abs_lt_top _ ?_
  simpa [Ideal.cmp, ofBool_one] using h2

/-- Under the precondition, on every device, every entry of each of the thirteen argument arrays is a real number. -/
theorem finite_inputs (m : (ℓ : Loc Cert.KernelIdeal.nD Cert.KernelIdeal.τ Cert.KernelIdeal.sig) → Buf (Elt Ideal) ℓ)
    [hPre : Cert.Pre_finite_inputs.Facts] (h : Cert.Pre_KernelIdeal m) (c : Dev Cert.KernelIdeal.nD) :
    (∀ i : Cert.KernelIdeal.S4096x2048.Idx, ∃ r : ℝ, m ((c.tc : Thread Cert.KernelIdeal.nD Cert.KernelIdeal.τ).loc Cert.KernelIdeal.main_arg0) i = (r : EReal))
    ∧ (∀ i : Cert.KernelIdeal.S4096x2048.Idx, ∃ r : ℝ, m ((c.tc : Thread Cert.KernelIdeal.nD Cert.KernelIdeal.τ).loc Cert.KernelIdeal.main_arg1) i = (r : EReal))
    ∧ (∀ i : Cert.KernelIdeal.S4096.Idx, ∃ r : ℝ, m ((c.tc : Thread Cert.KernelIdeal.nD Cert.KernelIdeal.τ).loc Cert.KernelIdeal.main_arg2) i = (r : EReal))
    ∧ (∀ i : Cert.KernelIdeal.S4096.Idx, ∃ r : ℝ, m ((c.tc : Thread Cert.KernelIdeal.nD Cert.KernelIdeal.τ).loc Cert.KernelIdeal.main_arg3) i = (r : EReal))
    ∧ (∀ i : Cert.KernelIdeal.S4096x4096.Idx, ∃ r : ℝ, m ((c.tc : Thread Cert.KernelIdeal.nD Cert.KernelIdeal.τ).loc Cert.KernelIdeal.main_arg4) i = (r : EReal))
    ∧ (∀ i : Cert.KernelIdeal.S4096.Idx, ∃ r : ℝ, m ((c.tc : Thread Cert.KernelIdeal.nD Cert.KernelIdeal.τ).loc Cert.KernelIdeal.main_arg5) i = (r : EReal))
    ∧ (∀ i : Cert.KernelIdeal.S4096.Idx, ∃ r : ℝ, m ((c.tc : Thread Cert.KernelIdeal.nD Cert.KernelIdeal.τ).loc Cert.KernelIdeal.main_arg6) i = (r : EReal))
    ∧ (∀ i : Cert.KernelIdeal.S4096x4096.Idx, ∃ r : ℝ, m ((c.tc : Thread Cert.KernelIdeal.nD Cert.KernelIdeal.τ).loc Cert.KernelIdeal.main_arg7) i = (r : EReal))
    ∧ (∀ i : Cert.KernelIdeal.S4096.Idx, ∃ r : ℝ, m ((c.tc : Thread Cert.KernelIdeal.nD Cert.KernelIdeal.τ).loc Cert.KernelIdeal.main_arg8) i = (r : EReal))
    ∧ (∀ i : Cert.KernelIdeal.S4096.Idx, ∃ r : ℝ, m ((c.tc : Thread Cert.KernelIdeal.nD Cert.KernelIdeal.τ).loc Cert.KernelIdeal.main_arg9) i = (r : EReal))
    ∧ (∀ i : Cert.KernelIdeal.S1000x4096.Idx, ∃ r : ℝ, m ((c.tc : Thread Cert.KernelIdeal.nD Cert.KernelIdeal.τ).loc Cert.KernelIdeal.main_arg10) i = (r : EReal))
    ∧ (∀ i : Cert.KernelIdeal.S1000.Idx, ∃ r : ℝ, m ((c.tc : Thread Cert.KernelIdeal.nD Cert.KernelIdeal.τ).loc Cert.KernelIdeal.main_arg11) i = (r : EReal))
    ∧ (∀ i : Cert.KernelIdeal.S1000.Idx, ∃ r : ℝ, m ((c.tc : Thread Cert.KernelIdeal.nD Cert.KernelIdeal.τ).loc Cert.KernelIdeal.main_arg12) i = (r : EReal)) := by
  have e := congrFun (h c) ValueIdx.ix0
  dsimp only [Cert.Pre_finite_inputs.fn, Cert.Pre_finite_inputs.fn_part1, Cert.Pre_finite_inputs.fn_part2,
    Cert.Pre_finite_inputs.fn_part3] at e
  simp only [andi, IntOp.andi_eq_one] at e
  obtain ⟨⟨⟨⟨⟨⟨⟨⟨⟨⟨⟨⟨e0, e1⟩, e2⟩, e3⟩, e4⟩, e5⟩, e6⟩, e7⟩, e8⟩, e9⟩, e10⟩, e11⟩, e12⟩ := e
  exact ⟨real_of_all _ _ _ _ _ _ _ e0,
    real_of_all _ _ _ _ _ _ _ e1,
    real_of_all _ _ _ _ _ _ _ e2,
    real_of_all _ _ _ _ _ _ _ e3,
    real_of_all _ _ _ _ _ _ _ e4,
    real_of_all _ _ _ _ _ _ _ e5,
    real_of_all _ _ _ _ _ _ _ e6,
    real_of_all _ _ _ _ _ _ _ e7,
    real_of_all _ _ _ _ _ _ _ e8,
    real_of_all _ _ _ _ _ _ _ e9,
    real_of_all _ _ _ _ _ _ _ e10,
    real_of_all _ _ _ _ _ _ _ e11,
    real_of_all _ _ _ _ _ _ _ e12⟩

end Cert.PreFinite

end
-- ==== Proof.KI.Region0.lean ====
import proofs.«157460_j63591285784858_2_alg».proof.Proof.Gen.KernelIdeal.Launch
import proofs.«157460_j63591285784858_2_alg».proof.Proof.Gen.KernelIdeal.Skeleton
import proofs.«157460_j63591285784858_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: the elementwise sign kernel, one input window and one output window

The body reads its whole input block, reads the output buffer once (the value is not used) and overwrites
the output buffer whole with the payload of the input block.  Hence after the body the input window's buffer
still holds its block and the output window's buffer holds the payload of that block. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    the region-entry array and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body accesses: the whole block. -/
abbrev r0_0 : Rect S256x2048 := Rect.unit (s := S256x2048) ![0, 0] S256x2048.size inb_S256x2048_S256x2048_0_0

/-- The output window's buffer after the body: the single whole-block store of the payload of the input block. -/
def out0_1 (x0 : Vec F S256x2048 .f32) : Vec F S256x2048 .bf16 :=
  View.canon [⟨r0_0, k0_pay1 (View.ld x0 r0_0)⟩]

/-- The store's rectangle is the whole buffer, so it covers every index. -/
theorem cover0_1 (p0 : Vec F S256x2048 .bf16) (y : S256x2048.Idx) :
    ∃ pc ∈ ([⟨r0_0, p0⟩] : List (View.Piece (Elt F) S256x2048 .bf16)), y ∈ pc.1.set :=
  View.cover_of_tiled [⟨r0_0, p0⟩] S256x2048.size (by rfl) y

set_option maxHeartbeats 1000000 in
/-- The body on whole staging memrefs, the input's at contents `x0` and the output's at anything, runs to the
    continuation with the input's unchanged and the output's at `out0_1 x0`. -/
theorem sound_kernel0 (c : Dev nD) (E : Set ℕ) (i : grid0.Coords) (arg1 : Memref sig .tc .vmem S256x2048 .f32) (harg1 : arg1.IsWhole) (arg2 : Memref sig .tc .vmem S256x2048 .bf16) (harg2 : arg2.IsWhole)
    (x0 : Vec F S256x2048 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__sign_bf16_kernel i arg1 harg1 arg2 harg2) K := by
  simp only [cc0__sign_bf16_kernel_eq_skeleton]; unfold cc0__sign_bf16_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of pipeline 0 on core `c`: the arrays as the region finds them; after the body at point `t`
    the input's buffer at its block and the output's at `out0_1` of that block; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the body's triple applies; the invariant and
    the core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KI.Region2.lean ====
import proofs.«157460_j63591285784858_2_alg».proof.Proof.Gen.KernelIdeal.Launch
import proofs.«157460_j63591285784858_2_alg».proof.Proof.Gen.KernelIdeal.Skeleton
import proofs.«157460_j63591285784858_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2: the normalize-and-sign kernel, five input windows and one output window

The body reads its five input blocks whole (the 1024×1024 tile and four 1×1024 rows), reads the output buffer
once (the value is not used) and overwrites the output buffer whole with the payload of the five blocks.  Hence
after the body every input window's buffer still holds its block and the output window's buffer holds the
payload of those blocks.  The payload takes the rows in the order the body loads them: windows 0, 2, 3, 1, 4. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is
    the region-entry array and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, for any proof data whose array is
    the region-entry array and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, for any proof data whose array is
    the region-entry array and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, for any proof data whose array is
    the region-entry array and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, for any proof data whose array is
    the region-entry array and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The two rectangles the body accesses: the whole tile and the whole row. -/
abbrev r2_0 : Rect S1024x1024 := Rect.unit (s := S1024x1024) ![0, 0] S1024x1024.size inb_S1024x1024_S1024x1024_0_0
abbrev r2_1 : Rect S1x1024 := Rect.unit (s := S1x1024) ![0, 0] S1x1024.size inb_S1x1024_S1x1024_0_0

/-- The output window's buffer after the body: the single whole-tile store of the payload of the input blocks. -/
def out2_5 (x0 : Vec F S1024x1024 .f32) (x1 : Vec F S1x1024 .f32) (x2 : Vec F S1x1024 .f32) (x3 : Vec F S1x1024 .f32) (x4 : Vec F S1x1024 .f32) : Vec F S1024x1024 .bf16 :=
  View.canon [⟨r2_0, k2_pay1 (View.ld x0 r2_0) (View.ld x2 r2_1) (View.ld x3 r2_1) (View.ld x1 r2_1) (View.ld x4 r2_1)⟩]

/-- The store's rectangle is the whole buffer, so it covers every index. -/
theorem cover2_5 (p0 : Vec F S1024x1024 .bf16) (y : S1024x1024.Idx) :
    ∃ pc ∈ ([⟨r2_0, p0⟩] : List (View.Piece (Elt F) S1024x1024 .bf16)), y ∈ pc.1.set :=
  View.cover_of_tiled [⟨r2_0, p0⟩] S1024x1024.size (by rfl) y

set_option maxHeartbeats 1000000 in
/-- The body on whole staging memrefs, the inputs' at contents `x0 … x4` and the output's at anything, runs to the
    continuation with the inputs' unchanged and the output's at `out2_5 x0 x1 x2 x3 x4`. -/
theorem sound_kernel2 (c : Dev nD) (E : Set ℕ) (i : grid2.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole)
    (x0 : Vec F S1024x1024 .f32) (x1 : Vec F S1x1024 .f32) (x2 : Vec F S1x1024 .f32) (x3 : Vec F S1x1024 .f32) (x4 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out2_5 x0 x1 x2 x3 x4)) -∗ K ⟨⟩))
      ⊢ wp frame (wpE (defs₀ (F := F)) Variants.none c none) E (cc2__norm_act_kernel i arg2 harg2 arg3 harg3 arg4 harg4 arg5 harg5 arg6 harg6 arg7 harg7) K := by
  simp only [cc2__norm_act_kernel_eq_skeleton]; unfold cc2__norm_act_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of pipeline 2 on core `c`: the arrays as the region finds them; after the body at point `t`
    each input's buffer at its block and the output's at `out2_5` of the input blocks; the scoped rest and the
    generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and
    the core's owed count pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.Hand

end
-- ==== Proof.KI.Region3.lean ====
import proofs.«157460_j63591285784858_2_alg».proof.Proof.Gen.KernelIdeal.Launch
import proofs.«157460_j63591285784858_2_alg».proof.Proof.Gen.KernelIdeal.Skeleton
import proofs.«157460_j63591285784858_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3: the elementwise sign kernel, one input window and one output window

The body reads its whole input block, reads the output buffer once (the value is not used) and overwrites
the output buffer whole with the payload of the input block.  Hence after the body the input window's buffer
still holds its block and the output window's buffer holds the payload of that block. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window's current staging buffer holds its block at every point, for any proof data whose array is
    the region-entry array and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The one rectangle the body accesses: the whole block. -/
abbrev r3_0 : Rect S256x4096 := Rect.unit (s := S256x4096) ![0, 0] S256x4096.size inb_S256x4096_S256x4096_0_0

/-- The output window's buffer after the body: the single whole-block store of the payload of the input block. -/
def out3_1 (x0 : Vec F S256x4096 .f32) : Vec F S256x4096 .bf16 :=
  View.canon [⟨r3_0, k3_pay1 (View.ld x0 r3_0)⟩]

/-- The store's rectangle is the whole buffer, so it covers every index. -/
theorem cover3_1 (p0 : Vec F S256x4096 .bf16) (y : S256x4096.Idx) :
    ∃ pc ∈ ([⟨r3_0, p0⟩] : List (View.Piece (Elt F) S256x4096 .bf16)), y ∈ pc.1.set :=
  View.cover_of_tiled [⟨r3_0, p0⟩] S256x4096.size (by rfl) y

set_option maxHeartbeats 1000000 in
/-- The body on whole staging memrefs, the input's at contents `x0` and the output's at anything, runs to the
    continuation with the input's unchanged and the output's at `out3_1 x0`. -/
theorem sound_kernel3 (c : Dev nD) (E : Set ℕ) (i : grid3.Coords) (arg1 : Memref sig .tc .vmem S256x4096 .f32) (harg1 : arg1.IsWhole) (arg2 : Memref sig .tc .vmem S256x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out3_1 x0)) -∗ K ⟨⟩))
      ⊢ wp frame (wpE (defs₀ (F := F)) Variants.none c none) E (cc3__sign_bf16_kernel i arg1 harg1 arg2 harg2) K := by
  simp only [cc3__sign_bf16_kernel_eq_skeleton]; unfold cc3__sign_bf16_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-- The proof data of pipeline 3 on core `c`: the arrays as the region finds them; after the body at point `t`
    the input's buffer at its block and the output's at `out3_1` of that block; the scoped rest and the
    generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]

theorem before3_0 (c : Dev nD) (t : Fin cfg3.N) (d) : (dat3 V c).before 0 t d = iblk3 V c 0 t :=
  before3_0_of V (dat3 V c) (A_eq3 V c 0) (after3_0 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

/-- The body at any point: the input's memref holds its block, so the body's triple applies; the invariant and
    the core's owed count pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ (grid3.coords t) _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation3 (c : Dev nD) : BodyObligation (dat3 (F := F) V c) (defs₀ (F := F)) Variants.none () Set.univ := fun t => by
  rw [bigSep_W3, bigSep_W3]
  exact sound_body3 V c t

end Regions

end Cert.KernelIdeal.Hand

end
-- ==== Proof.KI.Region5.lean ====
import proofs.«157460_j63591285784858_2_alg».proof.Proof.Gen.KernelIdeal.Launch
import proofs.«157460_j63591285784858_2_alg».proof.Proof.Gen.KernelIdeal.Skeleton
import proofs.«157460_j63591285784858_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 5: the normalize-and-sign kernel, five input windows and one output window

The body reads its five input blocks whole (the 1024×1024 tile and four 1×1024 rows), reads the output buffer
once (the value is not used) and overwrites the output buffer whole with the payload of the five blocks.  Hence
after the body every input window's buffer still holds its block and the output window's buffer holds the
payload of those blocks.  The payload takes the rows in the order the body loads them: windows 0, 2, 3, 1, 4. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, for any proof data whose array is
    the region-entry array and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, for any proof data whose array is
    the region-entry array and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, for any proof data whose array is
    the region-entry array and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, for any proof data whose array is
    the region-entry array and whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block at every point, for any proof data whose array is
    the region-entry array and whose body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The two rectangles the body accesses: the whole tile and the whole row. -/
abbrev r5_0 : Rect S1024x1024 := Rect.unit (s := S1024x1024) ![0, 0] S1024x1024.size inb_S1024x1024_S1024x1024_0_0
abbrev r5_1 : Rect S1x1024 := Rect.unit (s := S1x1024) ![0, 0] S1x1024.size inb_S1x1024_S1x1024_0_0

/-- The output window's buffer after the body: the single whole-tile store of the payload of the input blocks. -/
def out5_5 (x0 : Vec F S1024x1024 .f32) (x1 : Vec F S1x1024 .f32) (x2 : Vec F S1x1024 .f32) (x3 : Vec F S1x1024 .f32) (x4 : Vec F S1x1024 .f32) : Vec F S1024x1024 .bf16 :=
  View.canon [⟨r5_0, k5_pay1 (View.ld x0 r5_0) (View.ld x2 r5_1) (View.ld x3 r5_1) (View.ld x1 r5_1) (View.ld x4 r5_1)⟩]

/-- The store's rectangle is the whole buffer, so it covers every index. -/
theorem cover5_5 (p0 : Vec F S1024x1024 .bf16) (y : S1024x1024.Idx) :
    ∃ pc ∈ ([⟨r5_0, p0⟩] : List (View.Piece (Elt F) S1024x1024 .bf16)), y ∈ pc.1.set :=
  View.cover_of_tiled [⟨r5_0, p0⟩] S1024x1024.size (by rfl) y

set_option maxHeartbeats 1000000 in
/-- The body on whole staging memrefs, the inputs' at contents `x0 … x4` and the output's at anything, runs to the
    continuation with the inputs' unchanged and the output's at `out5_5 x0 x1 x2 x3 x4`. -/
theorem sound_kernel5 (c : Dev nD) (E : Set ℕ) (i : grid5.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole)
    (x0 : Vec F S1024x1024 .f32) (x1 : Vec F S1x1024 .f32) (x2 : Vec F S1x1024 .f32) (x3 : Vec F S1x1024 .f32) (x4 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out5_5 x0 x1 x2 x3 x4)) -∗ K ⟨⟩))
      ⊢ wp frame (wpE (defs₀ (F := F)) Variants.none c none) E (cc5__norm_act_kernel i arg2 harg2 arg3 harg3 arg4 harg4 arg5 harg5 arg6 harg6 arg7 harg7) K := by
  simp only [cc5__norm_act_kernel_eq_skeleton]; unfold cc5__norm_act_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data of pipeline 5 on core `c`: the arrays as the region finds them; after the body at point `t`
    each input's buffer at its block and the output's at `out5_5` of the input blocks; the scoped rest and the
    generator register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so the body's triple applies; the invariant and
    the core's owed count pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation5 (c : Dev nD) : BodyObligation (dat5 (F := F) V c) (defs₀ (F := F)) Variants.none () Set.univ := fun t => by
  rw [bigSep_W5, bigSep_W5]
  exact sound_body5 V c t

end Regions

end Cert.KernelIdeal.Hand

end
-- ==== Proof.KI.Region6.lean ====
import proofs.«157460_j63591285784858_2_alg».proof.Proof.Gen.KernelIdeal.Launch
import proofs.«157460_j63591285784858_2_alg».proof.Proof.Gen.KernelIdeal.Skeleton
import proofs.«157460_j63591285784858_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 6: the elementwise sign kernel, one input window and one output window

The body reads its whole input block, reads the output buffer once (the value is not used) and overwrites
the output buffer whole with the payload of the input block.  Hence after the body the input window's buffer
still holds its block and the output window's buffer holds the payload of that block. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The input window's current staging buffer holds its block at every point, for any proof data whose array is
    the region-entry array and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The one rectangle the body accesses: the whole block. -/
abbrev r6_0 : Rect S256x4096 := Rect.unit (s := S256x4096) ![0, 0] S256x4096.size inb_S256x4096_S256x4096_0_0

/-- The output window's buffer after the body: the single whole-block store of the payload of the input block. -/
def out6_1 (x0 : Vec F S256x4096 .f32) : Vec F S256x4096 .bf16 :=
  View.canon [⟨r6_0, k6_pay1 (View.ld x0 r6_0)⟩]

/-- The store's rectangle is the whole buffer, so it covers every index. -/
theorem cover6_1 (p0 : Vec F S256x4096 .bf16) (y : S256x4096.Idx) :
    ∃ pc ∈ ([⟨r6_0, p0⟩] : List (View.Piece (Elt F) S256x4096 .bf16)), y ∈ pc.1.set :=
  View.cover_of_tiled [⟨r6_0, p0⟩] S256x4096.size (by rfl) y

set_option maxHeartbeats 1000000 in
/-- The body on whole staging memrefs, the input's at contents `x0` and the output's at anything, runs to the
    continuation with the input's unchanged and the output's at `out6_1 x0`. -/
theorem sound_kernel6 (c : Dev nD) (E : Set ℕ) (i : grid6.Coords) (arg1 : Memref sig .tc .vmem S256x4096 .f32) (harg1 : arg1.IsWhole) (arg2 : Memref sig .tc .vmem S256x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out6_1 x0)) -∗ K ⟨⟩))
      ⊢ wp frame (wpE (defs₀ (F := F)) Variants.none c none) E (cc6__sign_bf16_kernel i arg1 harg1 arg2 harg2) K := by
  simp only [cc6__sign_bf16_kernel_eq_skeleton]; unfold cc6__sign_bf16_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover6_1 _)

/-- The proof data of pipeline 6 on core `c`: the arrays as the region finds them; after the body at point `t`
    the input's buffer at its block and the output's at `out6_1` of that block; the scoped rest and the
    generator register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => out6_1 (iblk6 V c 0 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = out6_1 (iblk6 V c 0 t) := by dsimp only [dat6]

theorem before6_0 (c : Dev nD) (t : Fin cfg6.N) (d) : (dat6 V c).before 0 t d = iblk6 V c 0 t :=
  before6_0_of V (dat6 V c) (A_eq6 V c 0) (after6_0 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t))

/-- The body at any point: the input's memref holds its block, so the body's triple applies; the invariant and
    the core's owed count pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0]
  rw [show (dat6 V c).Φ t.succ = (dat6 V c).Φ t.castSucc from rfl,
    show (dat6 V c).owesAt () t.succ = (dat6 V c).owesAt () t.castSucc from rfl,
    after6_0, after6_1]
  iintro ⟨HΦ, Ho, ⟨%d0, H0⟩, ⟨%d1, H1⟩⟩
  iapply (sound_kernel6 c Set.univ (grid6.coords t) _ _ _ _ (iblk6 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation6 (c : Dev nD) : BodyObligation (dat6 (F := F) V c) (defs₀ (F := F)) Variants.none () Set.univ := fun t => by
  rw [bigSep_W6, bigSep_W6]
  exact sound_body6 V c t

end Regions

end Cert.KernelIdeal.Hand

end
-- ==== Proof.KI.Region8.lean ====
import proofs.«157460_j63591285784858_2_alg».proof.Proof.Gen.KernelIdeal.Launch
import proofs.«157460_j63591285784858_2_alg».proof.Proof.Gen.KernelIdeal.Skeleton
import proofs.«157460_j63591285784858_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 8: the normalize-and-sign kernel, five input windows and one output window

The body reads its five input blocks whole (the 1024×1024 tile and four 1×1024 rows), reads the output buffer
once (the value is not used) and overwrites the output buffer whole with the payload of the five blocks.  Hence
after the body every input window's buffer still holds its block and the output window's buffer holds the
payload of those blocks.  The payload takes the rows in the order the body loads them: windows 0, 2, 3, 1, 4. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, for any proof data whose array is
    the region-entry array and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- Input window 1's current staging buffer holds its block at every point, for any proof data whose array is
    the region-entry array and whose body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- Input window 2's current staging buffer holds its block at every point, for any proof data whose array is
    the region-entry array and whose body leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
/-- Input window 3's current staging buffer holds its block at every point, for any proof data whose array is
    the region-entry array and whose body leaves the block in place. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
/-- Input window 4's current staging buffer holds its block at every point, for any proof data whose array is
    the region-entry array and whose body leaves the block in place. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- The two rectangles the body accesses: the whole tile and the whole row. -/
abbrev r8_0 : Rect S1024x1024 := Rect.unit (s := S1024x1024) ![0, 0] S1024x1024.size inb_S1024x1024_S1024x1024_0_0
abbrev r8_1 : Rect S1x1024 := Rect.unit (s := S1x1024) ![0, 0] S1x1024.size inb_S1x1024_S1x1024_0_0

/-- The output window's buffer after the body: the single whole-tile store of the payload of the input blocks. -/
def out8_5 (x0 : Vec F S1024x1024 .f32) (x1 : Vec F S1x1024 .f32) (x2 : Vec F S1x1024 .f32) (x3 : Vec F S1x1024 .f32) (x4 : Vec F S1x1024 .f32) : Vec F S1024x1024 .bf16 :=
  View.canon [⟨r8_0, k8_pay1 (View.ld x0 r8_0) (View.ld x2 r8_1) (View.ld x3 r8_1) (View.ld x1 r8_1) (View.ld x4 r8_1)⟩]

/-- The store's rectangle is the whole buffer, so it covers every index. -/
theorem cover8_5 (p0 : Vec F S1024x1024 .bf16) (y : S1024x1024.Idx) :
    ∃ pc ∈ ([⟨r8_0, p0⟩] : List (View.Piece (Elt F) S1024x1024 .bf16)), y ∈ pc.1.set :=
  View.cover_of_tiled [⟨r8_0, p0⟩] S1024x1024.size (by rfl) y

set_option maxHeartbeats 1000000 in
/-- The body on whole staging memrefs, the inputs' at contents `x0 … x4` and the output's at anything, runs to the
    continuation with the inputs' unchanged and the output's at `out8_5 x0 x1 x2 x3 x4`. -/
theorem sound_kernel8 (c : Dev nD) (E : Set ℕ) (i : grid8.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole)
    (x0 : Vec F S1024x1024 .f32) (x1 : Vec F S1x1024 .f32) (x2 : Vec F S1x1024 .f32) (x3 : Vec F S1x1024 .f32) (x4 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out8_5 x0 x1 x2 x3 x4)) -∗ K ⟨⟩))
      ⊢ wp frame (wpE (defs₀ (F := F)) Variants.none c none) E (cc8__norm_act_kernel i arg2 harg2 arg3 harg3 arg4 harg4 arg5 harg5 arg6 harg6 arg7 harg7) K := by
  simp only [cc8__norm_act_kernel_eq_skeleton]; unfold cc8__norm_act_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-- The proof data of pipeline 8 on core `c`: the arrays as the region finds them; after the body at point `t`
    each input's buffer at its block and the output's at `out8_5` of the input blocks; the scoped rest and the
    generator register untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' memrefs hold their blocks, so the body's triple applies; the invariant and
    the core's owed count pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ (grid8.coords t) _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation8 (c : Dev nD) : BodyObligation (dat8 (F := F) V c) (defs₀ (F := F)) Variants.none () Set.univ := fun t => by
  rw [bigSep_W8, bigSep_W8]
  exact sound_body8 V c t

end Regions

end Cert.KernelIdeal.Hand

end
-- ==== Proof.KI.Region9.lean ====
import proofs.«157460_j63591285784858_2_alg».proof.Proof.Gen.KernelIdeal.Launch
import proofs.«157460_j63591285784858_2_alg».proof.Proof.Gen.KernelIdeal.Skeleton
import proofs.«157460_j63591285784858_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 9: the elementwise sign kernel, one input window and one output window

The body reads its whole input block, reads the output buffer once (the value is not used) and overwrites
the output buffer whole with the payload of the input block.  Hence after the body the input window's buffer
still holds its block and the output window's buffer holds the payload of that block. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The input window's current staging buffer holds its block at every point, for any proof data whose array is
    the region-entry array and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- The one rectangle the body accesses: the whole block. -/
abbrev r9_0 : Rect S256x4096 := Rect.unit (s := S256x4096) ![0, 0] S256x4096.size inb_S256x4096_S256x4096_0_0

/-- The output window's buffer after the body: the single whole-block store of the payload of the input block. -/
def out9_1 (x0 : Vec F S256x4096 .f32) : Vec F S256x4096 .bf16 :=
  View.canon [⟨r9_0, k9_pay1 (View.ld x0 r9_0)⟩]

/-- The store's rectangle is the whole buffer, so it covers every index. -/
theorem cover9_1 (p0 : Vec F S256x4096 .bf16) (y : S256x4096.Idx) :
    ∃ pc ∈ ([⟨r9_0, p0⟩] : List (View.Piece (Elt F) S256x4096 .bf16)), y ∈ pc.1.set :=
  View.cover_of_tiled [⟨r9_0, p0⟩] S256x4096.size (by rfl) y

set_option maxHeartbeats 1000000 in
/-- The body on whole staging memrefs, the input's at contents `x0` and the output's at anything, runs to the
    continuation with the input's unchanged and the output's at `out9_1 x0`. -/
theorem sound_kernel9 (c : Dev nD) (E : Set ℕ) (i : grid9.Coords) (arg1 : Memref sig .tc .vmem S256x4096 .f32) (harg1 : arg1.IsWhole) (arg2 : Memref sig .tc .vmem S256x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out9_1 x0)) -∗ K ⟨⟩))
      ⊢ wp frame (wpE (defs₀ (F := F)) Variants.none c none) E (cc9__sign_bf16_kernel i arg1 harg1 arg2 harg2) K := by
  simp only [cc9__sign_bf16_kernel_eq_skeleton]; unfold cc9__sign_bf16_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover9_1 _)

/-- The proof data of pipeline 9 on core `c`: the arrays as the region finds them; after the body at point `t`
    the input's buffer at its block and the output's at `out9_1` of that block; the scoped rest and the
    generator register untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => out9_1 (iblk9 V c 0 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = out9_1 (iblk9 V c 0 t) := by dsimp only [dat9]

theorem before9_0 (c : Dev nD) (t : Fin cfg9.N) (d) : (dat9 V c).before 0 t d = iblk9 V c 0 t :=
  before9_0_of V (dat9 V c) (A_eq9 V c 0) (after9_0 V c) t d

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t))

/-- The body at any point: the input's memref holds its block, so the body's triple applies; the invariant and
    the core's owed count pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0]
  rw [show (dat9 V c).Φ t.succ = (dat9 V c).Φ t.castSucc from rfl,
    show (dat9 V c).owesAt () t.succ = (dat9 V c).owesAt () t.castSucc from rfl,
    after9_0, after9_1]
  iintro ⟨HΦ, Ho, ⟨%d0, H0⟩, ⟨%d1, H1⟩⟩
  iapply (sound_kernel9 c Set.univ (grid9.coords t) _ _ _ _ (iblk9 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation9 (c : Dev nD) : BodyObligation (dat9 (F := F) V c) (defs₀ (F := F)) Variants.none () Set.univ := fun t => by
  rw [bigSep_W9, bigSep_W9]
  exact sound_body9 V c t

end Regions

end Cert.KernelIdeal.Hand

end
-- ==== Proof.KI.Region11.lean ====
import proofs.«157460_j63591285784858_2_alg».proof.Proof.Gen.KernelIdeal.Launch
import proofs.«157460_j63591285784858_2_alg».proof.Proof.Gen.KernelIdeal.Skeleton
import proofs.«157460_j63591285784858_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 11: the normalize kernel (f32 output, no sign step), five input windows and one output window

The body reads its five input blocks whole (the 1024×1024 tile and four 1×1024 rows), reads the output buffer
once (the value is not used) and overwrites the output buffer whole with the payload of the five blocks.  Hence
after the body every input window's buffer still holds its block and the output window's buffer holds the
payload of those blocks.  The payload takes the rows in the order the body loads them: windows 0, 2, 3, 1, 4. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, for any proof data whose array is
    the region-entry array and whose body leaves the block in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- Input window 1's current staging buffer holds its block at every point, for any proof data whose array is
    the region-entry array and whose body leaves the block in place. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- Input window 2's current staging buffer holds its block at every point, for any proof data whose array is
    the region-entry array and whose body leaves the block in place. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
/-- Input window 3's current staging buffer holds its block at every point, for any proof data whose array is
    the region-entry array and whose body leaves the block in place. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
/-- Input window 4's current staging buffer holds its block at every point, for any proof data whose array is
    the region-entry array and whose body leaves the block in place. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-- The two rectangles the body accesses: the whole tile and the whole row. -/
abbrev r11_0 : Rect S1024x1024 := Rect.unit (s := S1024x1024) ![0, 0] S1024x1024.size inb_S1024x1024_S1024x1024_0_0
abbrev r11_1 : Rect S1x1024 := Rect.unit (s := S1x1024) ![0, 0] S1x1024.size inb_S1x1024_S1x1024_0_0

/-- The output window's buffer after the body: the single whole-tile store of the payload of the input blocks. -/
def out11_5 (x0 : Vec F S1024x1024 .f32) (x1 : Vec F S1x1024 .f32) (x2 : Vec F S1x1024 .f32) (x3 : Vec F S1x1024 .f32) (x4 : Vec F S1x1024 .f32) : Vec F S1024x1024 .f32 :=
  View.canon [⟨r11_0, k11_pay1 (View.ld x0 r11_0) (View.ld x2 r11_1) (View.ld x3 r11_1) (View.ld x1 r11_1) (View.ld x4 r11_1)⟩]

/-- The store's rectangle is the whole buffer, so it covers every index. -/
theorem cover11_5 (p0 : Vec F S1024x1024 .f32) (y : S1024x1024.Idx) :
    ∃ pc ∈ ([⟨r11_0, p0⟩] : List (View.Piece (Elt F) S1024x1024 .f32)), y ∈ pc.1.set :=
  View.cover_of_tiled [⟨r11_0, p0⟩] S1024x1024.size (by rfl) y

set_option maxHeartbeats 1000000 in
/-- The body on whole staging memrefs, the inputs' at contents `x0 … x4` and the output's at anything, runs to the
    continuation with the inputs' unchanged and the output's at `out11_5 x0 x1 x2 x3 x4`. -/
theorem sound_kernel11 (c : Dev nD) (E : Set ℕ) (i : grid11.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole)
    (x0 : Vec F S1024x1024 .f32) (x1 : Vec F S1x1024 .f32) (x2 : Vec F S1x1024 .f32) (x3 : Vec F S1x1024 .f32) (x4 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out11_5 x0 x1 x2 x3 x4)) -∗ K ⟨⟩))
      ⊢ wp frame (wpE (defs₀ (F := F)) Variants.none c none) E (cc11__norm_act_kernel i arg2 harg2 arg3 harg3 arg4 harg4 arg5 harg5 arg6 harg6 arg7 harg7) K := by
  simp only [cc11__norm_act_kernel_eq_skeleton]; unfold cc11__norm_act_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover11_5 _)

/-- The proof data of pipeline 11 on core `c`: the arrays as the region finds them; after the body at point `t`
    each input's buffer at its block and the output's at `out11_5` of the input blocks; the scoped rest and the
    generator register untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = out11_5 (iblk11 V c 0 t) (iblk11 V c 1 t) (iblk11 V c 2 t) (iblk11 V c 3 t) (iblk11 V c 4 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d

/-- What the body is called with at point `t`, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

/-- The body at any point: the inputs' memrefs hold their blocks, so the body's triple applies; the invariant and
    the core's owed count pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ (grid11.coords t) _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation11 (c : Dev nD) : BodyObligation (dat11 (F := F) V c) (defs₀ (F := F)) Variants.none () Set.univ := fun t => by
  rw [bigSep_W11, bigSep_W11]
  exact sound_body11 V c t

end Regions

end Cert.KernelIdeal.Hand

end
-- ==== Proof.KI.R1Dat.lean ====
/-
  The proof data of matrix-product region 1, in closed form over the body's payloads. After the body at grid point n
  (n = 16 j + 4 i + k) the kernel's three scratch buffers hold a state (accumulator, running column sums, running
  column sums of squares): the accumulator is the block product added to the accumulator of the step before, or to
  zero at k = 0; the two rows are what the tile before left, or zero at i = 0, and at the last step k = 3 they receive
  the accumulator's column sums and column sums of squares. The product's output block after a last step is the
  accumulator, the mean's and the variance's are the scaled running sum and the clamped scaled difference. The region's
  invariant before point n > 0 is the three scratch buffers at the state after point n - 1.
-/
import proofs.«157460_j63591285784858_2_alg».proof.Proof.Gen.KernelIdeal.Launch
import proofs.«157460_j63591285784858_2_alg».proof.Proof.Gen.KernelIdeal.Skeleton
import proofs.«157460_j63591285784858_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The scratch memrefs and the invariant with them split out -/

abbrev scM1_0 : Memref sig .tc .vmem S1024x1024 .f32 := Memref.whole cc1_scratch0
abbrev scM1_1 : Memref sig .tc .vmem S1x1024 .f32 := Memref.whole cc1_scratch1
abbrev scM1_2 : Memref sig .tc .vmem S1x1024 .f32 := Memref.whole cc1_scratch2

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d))
          ∗ Pipeline.scopedRestBut (Ix := Unit) (Name := ℕ) (U := UR sig nD τ) (Lvl := ℕ) (Val := Elt F) spec1 c [cc1_scratch0, cc1_scratch1, cc1_scratch2]) ∗ (∃ r, prngReg c r)) := by
  unfold Pipeline.ΦA; rw [scopedRest1_split]; simp only [scM1_0, scM1_1, scM1_2, owns_whole]; try rfl

/-! ## The carried state -/

/-- Accumulator, running column sums, running column sums of squares. -/
structure St1 (F : FTy → Type) [FloatOps F] where
  acc : Vec F S1024x1024 .f32
  sum : Vec F S1x1024 .f32
  sq : Vec F S1x1024 .f32

/-- One grid point: from the two input blocks and the state the point before left. -/
def step1 (n : ℕ) (x0 : Vec F S1024x512 .f32) (x1 : Vec F S1024x512 .bf16) (s : St1 F) : St1 F :=
  let acc : Vec F S1024x1024 .f32 := k1_pay2 x0 (if n % 4 = 0 then k1_pay1 else s.acc) x1
  let sum0 : Vec F S1x1024 .f32 := if n / 4 % 4 = 0 then k1_pay3 else s.sum
  let sq0 : Vec F S1x1024 .f32 := if n / 4 % 4 = 0 then k1_pay4 else s.sq
  if n % 4 = 3 then ⟨acc, k1_pay5 acc sum0, k1_pay6 acc sq0⟩ else ⟨acc, sum0, sq0⟩

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The state after point `n`. -/
def st1 (c : Dev nD) : (n : ℕ) → n < cfg1.N → St1 F
  | 0, hn => step1 0 (iblk1 V c 0 ⟨0, hn⟩) (iblk1 V c 1 ⟨0, hn⟩) ⟨k1_pay1, k1_pay3, k1_pay4⟩
  | n + 1, hn => step1 (n + 1) (iblk1 V c 0 ⟨n + 1, hn⟩) (iblk1 V c 1 ⟨n + 1, hn⟩) (st1 c n (Nat.lt_of_succ_lt hn))

theorem st1_succ (c : Dev nD) (n : ℕ) (hn : n + 1 < cfg1.N) :
    st1 V c (n + 1) hn = step1 (n + 1) (iblk1 V c 0 ⟨n + 1, hn⟩) (iblk1 V c 1 ⟨n + 1, hn⟩) (st1 V c n (Nat.lt_of_succ_lt hn)) := rfl

/-- The invariant before point `n`: at first the launch's; afterwards the three scratch buffers at the state after
    point `n - 1`, the other scoped buffers unopened, the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare (st1 V c n hn).acc ∗ owns (c : Thread nD τ) scM1_1 fullShare (st1 V c n hn).sum ∗ owns (c : Thread nD τ) scM1_2 fullShare (st1 V c n hn).sq)
      ∗ Pipeline.scopedRestBut (Ix := Unit) (Name := ℕ) (U := UR sig nD τ) (Lvl := ℕ) (Val := Elt F) spec1 c [cc1_scratch0, cc1_scratch1, cc1_scratch2]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1_0 fullShare (st1 V c n hn).acc ∗ owns (c : Thread nD τ) scM1_1 fullShare (st1 V c n hn).sum ∗ owns (c : Thread nD τ) scM1_2 fullShare (st1 V c n hn).sq)
      ∗ Pipeline.scopedRestBut (Ix := Unit) (Name := ℕ) (U := UR sig nD τ) (Lvl := ℕ) (Val := Elt F) spec1 c [cc1_scratch0, cc1_scratch1, cc1_scratch2]) ∗ (∃ r, prngReg c r)) := rfl
theorem PhiS1_pos (c : Dev nD) (n : ℕ) (h : n ≤ cfg1.N) (hz : n ≠ 0) :
    PhiS1 V c n h = iprop(iprop(iprop(owns (c : Thread nD τ) scM1_0 fullShare (st1 V c (n - 1) (by omega)).acc ∗ owns (c : Thread nD τ) scM1_1 fullShare (st1 V c (n - 1) (by omega)).sum ∗ owns (c : Thread nD τ) scM1_2 fullShare (st1 V c (n - 1) (by omega)).sq)
      ∗ Pipeline.scopedRestBut (Ix := Unit) (Name := ℕ) (U := UR sig nD τ) (Lvl := ℕ) (Val := Elt F) spec1 c [cc1_scratch0, cc1_scratch1, cc1_scratch2]) ∗ (∃ r, prngReg c r)) := by
  cases n with
  | zero => exact absurd rfl hz
  | succ n => rfl

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (st1 V c t.val t.isLt).acc
    | ⟨3, _⟩ => k1_pay7 (st1 V c t.val t.isLt).sum
    | ⟨4, _⟩ => k1_pay8 (st1 V c t.val t.isLt).sum (st1 V c t.val t.isLt).sq
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (st1 V c t.val t.isLt).acc := by dsimp only [dat1]
theorem after1_3 (c : Dev nD) (t : Fin cfg1.N) : (dat1 V c).after 3 t = k1_pay7 (st1 V c t.val t.isLt).sum := by dsimp only [dat1]
theorem after1_4 (c : Dev nD) (t : Fin cfg1.N) : (dat1 V c).after 4 t = k1_pay8 (st1 V c t.val t.isLt).sum (st1 V c t.val t.isLt).sq := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem PhiS1_castSucc (c : Dev nD) (t : Fin cfg1.N) :
    (dat1 V c).Φ t.castSucc = PhiS1 V c t.val (Nat.le_of_lt t.isLt) := by
  dsimp only [dat1]; simp only [Fin.coe_castSucc]

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the scratch contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1, HS2⟩, Hr⟩, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

theorem hout1 (c : Dev nD) : (dat1 V c).Φ (Fin.last cfg1.N) ⊢ Pipeline.ΦA spec1 c :=
  Phi_out1 V c _ (by rw [Fin.val_last]; have : cfg1.N = 64 := N_1; omega)

end

end Cert.KernelIdeal.Hand

end
-- ==== Proof.KI.R4Dat.lean ====
/-
  The proof data of matrix-product region 4, in closed form over the body's payloads. After the body at grid point n
  (n = 32 j + 8 i + k) the kernel's three scratch buffers hold a state (accumulator, running column sums, running
  column sums of squares): the accumulator is the block product added to the accumulator of the step before, or to
  zero at k = 0; the two rows are what the tile before left, or zero at i = 0, and at the last step k = 7 they receive
  the accumulator's column sums and column sums of squares. The product's output block after a last step is the
  accumulator, the mean's and the variance's are the scaled running sum and the clamped scaled difference. The region's
  invariant before point n > 0 is the three scratch buffers at the state after point n - 1.
-/
import proofs.«157460_j63591285784858_2_alg».proof.Proof.Gen.KernelIdeal.Launch
import proofs.«157460_j63591285784858_2_alg».proof.Proof.Gen.KernelIdeal.Skeleton
import proofs.«157460_j63591285784858_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The scratch memrefs and the invariant with them split out -/

abbrev scM4_0 : Memref sig .tc .vmem S1024x1024 .f32 := Memref.whole cc4_scratch0
abbrev scM4_1 : Memref sig .tc .vmem S1x1024 .f32 := Memref.whole cc4_scratch1
abbrev scM4_2 : Memref sig .tc .vmem S1x1024 .f32 := Memref.whole cc4_scratch2

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d) ∗ (∃ d, owns (c : Thread nD τ) scM4_2 fullShare d))
          ∗ Pipeline.scopedRestBut (Ix := Unit) (Name := ℕ) (U := UR sig nD τ) (Lvl := ℕ) (Val := Elt F) spec4 c [cc4_scratch0, cc4_scratch1, cc4_scratch2]) ∗ (∃ r, prngReg c r)) := by
  unfold Pipeline.ΦA; rw [scopedRest4_split]; simp only [scM4_0, scM4_1, scM4_2, owns_whole]; try rfl

/-! ## The carried state -/

/-- Accumulator, running column sums, running column sums of squares. -/
structure St4 (F : FTy → Type) [FloatOps F] where
  acc : Vec F S1024x1024 .f32
  sum : Vec F S1x1024 .f32
  sq : Vec F S1x1024 .f32

/-- One grid point: from the two input blocks and the state the point before left. -/
def step4 (n : ℕ) (x0 : Vec F S1024x512 .bf16) (x1 : Vec F S1024x512 .bf16) (s : St4 F) : St4 F :=
  let acc : Vec F S1024x1024 .f32 := k4_pay2 x0 (if n % 8 = 0 then k4_pay1 else s.acc) x1
  let sum0 : Vec F S1x1024 .f32 := if n / 8 % 4 = 0 then k4_pay3 else s.sum
  let sq0 : Vec F S1x1024 .f32 := if n / 8 % 4 = 0 then k4_pay4 else s.sq
  if n % 8 = 7 then ⟨acc, k4_pay5 acc sum0, k4_pay6 acc sq0⟩ else ⟨acc, sum0, sq0⟩

section
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The state after point `n`. -/
def st4 (c : Dev nD) : (n : ℕ) → n < cfg4.N → St4 F
  | 0, hn => step4 0 (iblk4 V c 0 ⟨0, hn⟩) (iblk4 V c 1 ⟨0, hn⟩) ⟨k4_pay1, k4_pay3, k4_pay4⟩
  | n + 1, hn => step4 (n + 1) (iblk4 V c 0 ⟨n + 1, hn⟩) (iblk4 V c 1 ⟨n + 1, hn⟩) (st4 c n (Nat.lt_of_succ_lt hn))

theorem st4_succ (c : Dev nD) (n : ℕ) (hn : n + 1 < cfg4.N) :
    st4 V c (n + 1) hn = step4 (n + 1) (iblk4 V c 0 ⟨n + 1, hn⟩) (iblk4 V c 1 ⟨n + 1, hn⟩) (st4 V c n (Nat.lt_of_succ_lt hn)) := rfl

/-- The invariant before point `n`: at first the launch's; afterwards the three scratch buffers at the state after
    point `n - 1`, the other scoped buffers unopened, the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare (st4 V c n hn).acc ∗ owns (c : Thread nD τ) scM4_1 fullShare (st4 V c n hn).sum ∗ owns (c : Thread nD τ) scM4_2 fullShare (st4 V c n hn).sq)
      ∗ Pipeline.scopedRestBut (Ix := Unit) (Name := ℕ) (U := UR sig nD τ) (Lvl := ℕ) (Val := Elt F) spec4 c [cc4_scratch0, cc4_scratch1, cc4_scratch2]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(iprop(owns (c : Thread nD τ) scM4_0 fullShare (st4 V c n hn).acc ∗ owns (c : Thread nD τ) scM4_1 fullShare (st4 V c n hn).sum ∗ owns (c : Thread nD τ) scM4_2 fullShare (st4 V c n hn).sq)
      ∗ Pipeline.scopedRestBut (Ix := Unit) (Name := ℕ) (U := UR sig nD τ) (Lvl := ℕ) (Val := Elt F) spec4 c [cc4_scratch0, cc4_scratch1, cc4_scratch2]) ∗ (∃ r, prngReg c r)) := rfl
theorem PhiS4_pos (c : Dev nD) (n : ℕ) (h : n ≤ cfg4.N) (hz : n ≠ 0) :
    PhiS4 V c n h = iprop(iprop(iprop(owns (c : Thread nD τ) scM4_0 fullShare (st4 V c (n - 1) (by omega)).acc ∗ owns (c : Thread nD τ) scM4_1 fullShare (st4 V c (n - 1) (by omega)).sum ∗ owns (c : Thread nD τ) scM4_2 fullShare (st4 V c (n - 1) (by omega)).sq)
      ∗ Pipeline.scopedRestBut (Ix := Unit) (Name := ℕ) (U := UR sig nD τ) (Lvl := ℕ) (Val := Elt F) spec4 c [cc4_scratch0, cc4_scratch1, cc4_scratch2]) ∗ (∃ r, prngReg c r)) := by
  cases n with
  | zero => exact absurd rfl hz
  | succ n => rfl

/-- The proof data of pipeline 4 on core `c`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (st4 V c t.val t.isLt).acc
    | ⟨3, _⟩ => k4_pay7 (st4 V c t.val t.isLt).sum
    | ⟨4, _⟩ => k4_pay8 (st4 V c t.val t.isLt).sum (st4 V c t.val t.isLt).sq
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (st4 V c t.val t.isLt).acc := by dsimp only [dat4]
theorem after4_3 (c : Dev nD) (t : Fin cfg4.N) : (dat4 V c).after 3 t = k4_pay7 (st4 V c t.val t.isLt).sum := by dsimp only [dat4]
theorem after4_4 (c : Dev nD) (t : Fin cfg4.N) : (dat4 V c).after 4 t = k4_pay8 (st4 V c t.val t.isLt).sum (st4 V c t.val t.isLt).sq := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

theorem PhiS4_castSucc (c : Dev nD) (t : Fin cfg4.N) :
    (dat4 V c).Φ t.castSucc = PhiS4 V c t.val (Nat.le_of_lt t.isLt) := by
  dsimp only [dat4]; simp only [Fin.coe_castSucc]

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the launch's back: the scratch contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1, HS2⟩, Hr⟩, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

theorem hout4 (c : Dev nD) : (dat4 V c).Φ (Fin.last cfg4.N) ⊢ Pipeline.ΦA spec4 c :=
  Phi_out4 V c _ (by rw [Fin.val_last]; have : cfg4.N = 128 := N_4; omega)

end

end Cert.KernelIdeal.Hand

end
-- ==== Proof.KI.R7Dat.lean ====
/-
  The proof data of matrix-product region 7, in closed form over the body's payloads. After the body at grid point n
  (n = 32 j + 8 i + k) the kernel's three scratch buffers hold a state (accumulator, running column sums, running
  column sums of squares): the accumulator is the block product added to the accumulator of the step before, or to
  zero at k = 0; the two rows are what the tile before left, or zero at i = 0, and at the last step k = 7 they receive
  the accumulator's column sums and column sums of squares. The product's output block after a last step is the
  accumulator, the mean's and the variance's are the scaled running sum and the clamped scaled difference. The region's
  invariant before point n > 0 is the three scratch buffers at the state after point n - 1.
-/
import proofs.«157460_j63591285784858_2_alg».proof.Proof.Gen.KernelIdeal.Launch
import proofs.«157460_j63591285784858_2_alg».proof.Proof.Gen.KernelIdeal.Skeleton
import proofs.«157460_j63591285784858_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The scratch memrefs and the invariant with them split out -/

abbrev scM7_0 : Memref sig .tc .vmem S1024x1024 .f32 := Memref.whole cc7_scratch0
abbrev scM7_1 : Memref sig .tc .vmem S1x1024 .f32 := Memref.whole cc7_scratch1
abbrev scM7_2 : Memref sig .tc .vmem S1x1024 .f32 := Memref.whole cc7_scratch2

theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d) ∗ (∃ d, owns (c : Thread nD τ) scM7_2 fullShare d))
          ∗ Pipeline.scopedRestBut (Ix := Unit) (Name := ℕ) (U := UR sig nD τ) (Lvl := ℕ) (Val := Elt F) spec7 c [cc7_scratch0, cc7_scratch1, cc7_scratch2]) ∗ (∃ r, prngReg c r)) := by
  unfold Pipeline.ΦA; rw [scopedRest7_split]; simp only [scM7_0, scM7_1, scM7_2, owns_whole]; try rfl

/-! ## The carried state -/

/-- Accumulator, running column sums, running column sums of squares. -/
structure St7 (F : FTy → Type) [FloatOps F] where
  acc : Vec F S1024x1024 .f32
  sum : Vec F S1x1024 .f32
  sq : Vec F S1x1024 .f32

/-- One grid point: from the two input blocks and the state the point before left. -/
def step7 (n : ℕ) (x0 : Vec F S1024x512 .bf16) (x1 : Vec F S1024x512 .bf16) (s : St7 F) : St7 F :=
  let acc : Vec F S1024x1024 .f32 := k7_pay2 x0 (if n % 8 = 0 then k7_pay1 else s.acc) x1
  let sum0 : Vec F S1x1024 .f32 := if n / 8 % 4 = 0 then k7_pay3 else s.sum
  let sq0 : Vec F S1x1024 .f32 := if n / 8 % 4 = 0 then k7_pay4 else s.sq
  if n % 8 = 7 then ⟨acc, k7_pay5 acc sum0, k7_pay6 acc sq0⟩ else ⟨acc, sum0, sq0⟩

section
variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- The state after point `n`. -/
def st7 (c : Dev nD) : (n : ℕ) → n < cfg7.N → St7 F
  | 0, hn => step7 0 (iblk7 V c 0 ⟨0, hn⟩) (iblk7 V c 1 ⟨0, hn⟩) ⟨k7_pay1, k7_pay3, k7_pay4⟩
  | n + 1, hn => step7 (n + 1) (iblk7 V c 0 ⟨n + 1, hn⟩) (iblk7 V c 1 ⟨n + 1, hn⟩) (st7 c n (Nat.lt_of_succ_lt hn))

theorem st7_succ (c : Dev nD) (n : ℕ) (hn : n + 1 < cfg7.N) :
    st7 V c (n + 1) hn = step7 (n + 1) (iblk7 V c 0 ⟨n + 1, hn⟩) (iblk7 V c 1 ⟨n + 1, hn⟩) (st7 V c n (Nat.lt_of_succ_lt hn)) := rfl

/-- The invariant before point `n`: at first the launch's; afterwards the three scratch buffers at the state after
    point `n - 1`, the other scoped buffers unopened, the generator register at some state. -/
def PhiS7 (c : Dev nD) : (n : ℕ) → n ≤ cfg7.N → sProp 𝕄
  | 0, _ => Pipeline.ΦA spec7 c
  | n + 1, hn => iprop(iprop(iprop(owns (c : Thread nD τ) scM7_0 fullShare (st7 V c n hn).acc ∗ owns (c : Thread nD τ) scM7_1 fullShare (st7 V c n hn).sum ∗ owns (c : Thread nD τ) scM7_2 fullShare (st7 V c n hn).sq)
      ∗ Pipeline.scopedRestBut (Ix := Unit) (Name := ℕ) (U := UR sig nD τ) (Lvl := ℕ) (Val := Elt F) spec7 c [cc7_scratch0, cc7_scratch1, cc7_scratch2]) ∗ (∃ r, prngReg c r))

theorem PhiS7_zero (c : Dev nD) (n : ℕ) (h : n ≤ cfg7.N) (hz : n = 0) : PhiS7 V c n h = Pipeline.ΦA spec7 c := by
  subst hz; rfl
theorem PhiS7_succ (c : Dev nD) (n : ℕ) (hn : n < cfg7.N) :
    PhiS7 V c (n + 1) hn = iprop(iprop(iprop(owns (c : Thread nD τ) scM7_0 fullShare (st7 V c n hn).acc ∗ owns (c : Thread nD τ) scM7_1 fullShare (st7 V c n hn).sum ∗ owns (c : Thread nD τ) scM7_2 fullShare (st7 V c n hn).sq)
      ∗ Pipeline.scopedRestBut (Ix := Unit) (Name := ℕ) (U := UR sig nD τ) (Lvl := ℕ) (Val := Elt F) spec7 c [cc7_scratch0, cc7_scratch1, cc7_scratch2]) ∗ (∃ r, prngReg c r)) := rfl
theorem PhiS7_pos (c : Dev nD) (n : ℕ) (h : n ≤ cfg7.N) (hz : n ≠ 0) :
    PhiS7 V c n h = iprop(iprop(iprop(owns (c : Thread nD τ) scM7_0 fullShare (st7 V c (n - 1) (by omega)).acc ∗ owns (c : Thread nD τ) scM7_1 fullShare (st7 V c (n - 1) (by omega)).sum ∗ owns (c : Thread nD τ) scM7_2 fullShare (st7 V c (n - 1) (by omega)).sq)
      ∗ Pipeline.scopedRestBut (Ix := Unit) (Name := ℕ) (U := UR sig nD τ) (Lvl := ℕ) (Val := Elt F) spec7 c [cc7_scratch0, cc7_scratch1, cc7_scratch2]) ∗ (∃ r, prngReg c r)) := by
  cases n with
  | zero => exact absurd rfl hz
  | succ n => rfl

/-- The proof data of pipeline 7 on core `c`. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => (st7 V c t.val t.isLt).acc
    | ⟨3, _⟩ => k7_pay7 (st7 V c t.val t.isLt).sum
    | ⟨4, _⟩ => k7_pay8 (st7 V c t.val t.isLt).sum (st7 V c t.val t.isLt).sq
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = (st7 V c t.val t.isLt).acc := by dsimp only [dat7]
theorem after7_3 (c : Dev nD) (t : Fin cfg7.N) : (dat7 V c).after 3 t = k7_pay7 (st7 V c t.val t.isLt).sum := by dsimp only [dat7]
theorem after7_4 (c : Dev nD) (t : Fin cfg7.N) : (dat7 V c).after 4 t = k7_pay8 (st7 V c t.val t.isLt).sum (st7 V c t.val t.isLt).sq := by dsimp only [dat7]
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

theorem PhiS7_castSucc (c : Dev nD) (t : Fin cfg7.N) :
    (dat7 V c).Φ t.castSucc = PhiS7 V c t.val (Nat.le_of_lt t.isLt) := by
  dsimp only [dat7]; simp only [Fin.coe_castSucc]

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives the launch's back: the scratch contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨⟨HS0, HS1, HS2⟩, Hr⟩, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

theorem hout7 (c : Dev nD) : (dat7 V c).Φ (Fin.last cfg7.N) ⊢ Pipeline.ΦA spec7 c :=
  Phi_out7 V c _ (by rw [Fin.val_last]; have : cfg7.N = 128 := N_7; omega)

end

end Cert.KernelIdeal.Hand

end
-- ==== Proof.KI.R10Dat.lean ====
/-
  The proof data of matrix-product region 10, in closed form over the body's payloads. After the body at grid point n
  (n = 32 j + 8 i + k) the kernel's three scratch buffers hold a state (accumulator, running column sums, running
  column sums of squares): the accumulator is the block product added to the accumulator of the step before, or to
  zero at k = 0; the two rows are what the tile before left, or zero at i = 0, and at the last step k = 7 they receive
  the accumulator's column sums and column sums of squares. The product's output block after a last step is the
  accumulator, the mean's and the variance's are the scaled running sum and the clamped scaled difference. The region's
  invariant before point n > 0 is the three scratch buffers at the state after point n - 1.
-/
import proofs.«157460_j63591285784858_2_alg».proof.Proof.Gen.KernelIdeal.Launch
import proofs.«157460_j63591285784858_2_alg».proof.Proof.Gen.KernelIdeal.Skeleton
import proofs.«157460_j63591285784858_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The scratch memrefs and the invariant with them split out -/

abbrev scM10_0 : Memref sig .tc .vmem S1024x1024 .f32 := Memref.whole cc10_scratch0
abbrev scM10_1 : Memref sig .tc .vmem S1x1024 .f32 := Memref.whole cc10_scratch1
abbrev scM10_2 : Memref sig .tc .vmem S1x1024 .f32 := Memref.whole cc10_scratch2

theorem PhiA10_eq (c : Dev nD) :
    (Pipeline.ΦA spec10 c : sProp 𝕄)
      = iprop(iprop(iprop((∃ d, owns (c : Thread nD τ) scM10_0 fullShare d) ∗ (∃ d, owns (c : Thread nD τ) scM10_1 fullShare d) ∗ (∃ d, owns (c : Thread nD τ) scM10_2 fullShare d))
          ∗ Pipeline.scopedRestBut (Ix := Unit) (Name := ℕ) (U := UR sig nD τ) (Lvl := ℕ) (Val := Elt F) spec10 c [cc10_scratch0, cc10_scratch1, cc10_scratch2]) ∗ (∃ r, prngReg c r)) := by
  unfold Pipeline.ΦA; rw [scopedRest10_split]; simp only [scM10_0, scM10_1, scM10_2, owns_whole]; try rfl

/-! ## The carried state -/

/-- Accumulator, running column sums, running column sums of squares. -/
structure St10 (F : FTy → Type) [FloatOps F] where
  acc : Vec F S1024x1024 .f32
  sum : Vec F S1x1024 .f32
  sq : Vec F S1x1024 .f32

/-- One grid point: from the two input blocks and the state the point before left. -/
def step10 (n : ℕ) (x0 : Vec F S1024x512 .bf16) (x1 : Vec F S1024x512 .bf16) (s : St10 F) : St10 F :=
  let acc : Vec F S1024x1024 .f32 := k10_pay2 x0 (if n % 8 = 0 then k10_pay1 else s.acc) x1
  let sum0 : Vec F S1x1024 .f32 := if n / 8 % 4 = 0 then k10_pay3 else s.sum
  let sq0 : Vec F S1x1024 .f32 := if n / 8 % 4 = 0 then k10_pay4 else s.sq
  if n % 8 = 7 then ⟨acc, k10_pay5 acc sum0, k10_pay6 acc sq0⟩ else ⟨acc, sum0, sq0⟩

section
variable (V : (c : Dev nD) → (b : Ref sig .tc) → Buf (Elt F) ((c : Thread nD τ).loc b))

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- The state after point `n`. -/
def st10 (c : Dev nD) : (n : ℕ) → n < cfg10.N → St10 F
  | 0, hn => step10 0 (iblk10 V c 0 ⟨0, hn⟩) (iblk10 V c 1 ⟨0, hn⟩) ⟨k10_pay1, k10_pay3, k10_pay4⟩
  | n + 1, hn => step10 (n + 1) (iblk10 V c 0 ⟨n + 1, hn⟩) (iblk10 V c 1 ⟨n + 1, hn⟩) (st10 c n (Nat.lt_of_succ_lt hn))

theorem st10_succ (c : Dev nD) (n : ℕ) (hn : n + 1 < cfg10.N) :
    st10 V c (n + 1) hn = step10 (n + 1) (iblk10 V c 0 ⟨n + 1, hn⟩) (iblk10 V c 1 ⟨n + 1, hn⟩) (st10 V c n (Nat.lt_of_succ_lt hn)) := rfl

/-- The invariant before point `n`: at first the launch's; afterwards the three scratch buffers at the state after
    point `n - 1`, the other scoped buffers unopened, the generator register at some state. -/
def PhiS10 (c : Dev nD) : (n : ℕ) → n ≤ cfg10.N → sProp 𝕄
  | 0, _ => Pipeline.ΦA spec10 c
  | n + 1, hn => iprop(iprop(iprop(owns (c : Thread nD τ) scM10_0 fullShare (st10 V c n hn).acc ∗ owns (c : Thread nD τ) scM10_1 fullShare (st10 V c n hn).sum ∗ owns (c : Thread nD τ) scM10_2 fullShare (st10 V c n hn).sq)
      ∗ Pipeline.scopedRestBut (Ix := Unit) (Name := ℕ) (U := UR sig nD τ) (Lvl := ℕ) (Val := Elt F) spec10 c [cc10_scratch0, cc10_scratch1, cc10_scratch2]) ∗ (∃ r, prngReg c r))

theorem PhiS10_zero (c : Dev nD) (n : ℕ) (h : n ≤ cfg10.N) (hz : n = 0) : PhiS10 V c n h = Pipeline.ΦA spec10 c := by
  subst hz; rfl
theorem PhiS10_succ (c : Dev nD) (n : ℕ) (hn : n < cfg10.N) :
    PhiS10 V c (n + 1) hn = iprop(iprop(iprop(owns (c : Thread nD τ) scM10_0 fullShare (st10 V c n hn).acc ∗ owns (c : Thread nD τ) scM10_1 fullShare (st10 V c n hn).sum ∗ owns (c : Thread nD τ) scM10_2 fullShare (st10 V c n hn).sq)
      ∗ Pipeline.scopedRestBut (Ix := Unit) (Name := ℕ) (U := UR sig nD τ) (Lvl := ℕ) (Val := Elt F) spec10 c [cc10_scratch0, cc10_scratch1, cc10_scratch2]) ∗ (∃ r, prngReg c r)) := rfl
theorem PhiS10_pos (c : Dev nD) (n : ℕ) (h : n ≤ cfg10.N) (hz : n ≠ 0) :
    PhiS10 V c n h = iprop(iprop(iprop(owns (c : Thread nD τ) scM10_0 fullShare (st10 V c (n - 1) (by omega)).acc ∗ owns (c : Thread nD τ) scM10_1 fullShare (st10 V c (n - 1) (by omega)).sum ∗ owns (c : Thread nD τ) scM10_2 fullShare (st10 V c (n - 1) (by omega)).sq)
      ∗ Pipeline.scopedRestBut (Ix := Unit) (Name := ℕ) (U := UR sig nD τ) (Lvl := ℕ) (Val := Elt F) spec10 c [cc10_scratch0, cc10_scratch1, cc10_scratch2]) ∗ (∃ r, prngReg c r)) := by
  cases n with
  | zero => exact absurd rfl hz
  | succ n => rfl

/-- The proof data of pipeline 10 on core `c`. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => (st10 V c t.val t.isLt).acc
    | ⟨3, _⟩ => k10_pay7 (st10 V c t.val t.isLt).sum
    | ⟨4, _⟩ => k10_pay8 (st10 V c t.val t.isLt).sum (st10 V c t.val t.isLt).sq
  Φ t := PhiS10 V c t.val (Nat.le_of_lt_succ t.isLt)
  q _ := fullShare
  owed _ := 0

theorem A_eq10 (c : Dev nD) (w : Fin cfg10.W) : (dat10 V c).A w = V c (Pipeline.arrRef spec10 w) := by
  dsimp only [dat10]
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = (st10 V c t.val t.isLt).acc := by dsimp only [dat10]
theorem after10_3 (c : Dev nD) (t : Fin cfg10.N) : (dat10 V c).after 3 t = k10_pay7 (st10 V c t.val t.isLt).sum := by dsimp only [dat10]
theorem after10_4 (c : Dev nD) (t : Fin cfg10.N) : (dat10 V c).after 4 t = k10_pay8 (st10 V c t.val t.isLt).sum (st10 V c t.val t.isLt).sq := by dsimp only [dat10]
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

theorem PhiS10_castSucc (c : Dev nD) (t : Fin cfg10.N) :
    (dat10 V c).Φ t.castSucc = PhiS10 V c t.val (Nat.le_of_lt t.isLt) := by
  dsimp only [dat10]; simp only [Fin.coe_castSucc]

/-- What the launch hands the region is the invariant before the first point. -/
theorem hin10 (c : Dev nD) : Pipeline.ΦA spec10 c ⊢ (dat10 V c).Φ 0 := by
  rw [show (dat10 V c).Φ 0 = PhiS10 V c 0 (Nat.zero_le _) from rfl, PhiS10_zero V c 0 _ rfl]
  try exact Idealize.SL.BI.Entails.refl _

/-- After any point but the first the invariant gives the launch's back: the scratch contents are forgotten. -/
theorem Phi_out10 (c : Dev nD) (t : Fin (cfg10.N + 1)) (ht : t.val ≠ 0) : (dat10 V c).Φ t ⊢ Pipeline.ΦA spec10 c := by
  rw [show (dat10 V c).Φ t = PhiS10 V c t.val (Nat.le_of_lt_succ t.isLt) from rfl, PhiS10_pos V c _ _ ht, PhiA10_eq]
  iintro ⟨⟨⟨HS0, HS1, HS2⟩, Hr⟩, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

theorem hout10 (c : Dev nD) : (dat10 V c).Φ (Fin.last cfg10.N) ⊢ Pipeline.ΦA spec10 c :=
  Phi_out10 V c _ (by rw [Fin.val_last]; have : cfg10.N = 32 := N_10; omega)

end

end Cert.KernelIdeal.Hand

end
-- ==== Proof.KI.MainFold.lean ====
import proofs.«157460_j63591285784858_2_alg».proof.Proof.Gen.KernelIdeal.Regions
import proofs.«157460_j63591285784858_2_alg».proof.Proof.KI.Region0
import proofs.«157460_j63591285784858_2_alg».proof.Proof.KI.Region2
import proofs.«157460_j63591285784858_2_alg».proof.Proof.KI.Region3
import proofs.«157460_j63591285784858_2_alg».proof.Proof.KI.Region5
import proofs.«157460_j63591285784858_2_alg».proof.Proof.KI.Region6
import proofs.«157460_j63591285784858_2_alg».proof.Proof.KI.Region8
import proofs.«157460_j63591285784858_2_alg».proof.Proof.KI.Region9
import proofs.«157460_j63591285784858_2_alg».proof.Proof.KI.Region11
import proofs.«157460_j63591285784858_2_alg».proof.Proof.KI.R1Dat
import proofs.«157460_j63591285784858_2_alg».proof.Proof.KI.R4Dat
import proofs.«157460_j63591285784858_2_alg».proof.Proof.KI.R7Dat
import proofs.«157460_j63591285784858_2_alg».proof.Proof.KI.R10Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The buffer contents at each boundary of the program's 23 items

The program is twelve kernel regions among eleven stretches of host operations. Core `c`'s buffer contents are
followed through the items as a fold from the launch memory: a host stretch rewrites the buffers its operations
write; a region leaves each of its windows' arrays at what the write-backs of all grid points leave (an input
window's array as entered) and every other buffer as entered. No item writes an argument array, so the fold at an
argument walks back to the launch memory. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The fold -/

/-- Core `c`'s buffers at launch (region 0 is entered from them). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- After item 0, region 0: its arrays at what the pipeline leaves (an input's as entered, an output's with every
    point's write-back folded in), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves, and every other buffer what it held at entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- Region 0's output window 1 leaves its array `main_v0` at the fold of its write-backs. -/
theorem W1_main_v0 (c : Dev nD) : W1 m ρ c (Proc.devRef .tc main_v0) = (dat0 (V0 m ρ) c).arrAt 1 cfg0.N :=
  W1_arr m ρ c 1

/-- After item 1, region 1: its arrays at what the pipeline leaves (an input's as entered, an output's with every
    point's write-back folded in), every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references (region 1's exit contents). -/
abbrev V2 : (c : Dev nD) → (b : Ref sig .tc) → Buf (Elt F) ((c : Thread nD τ).loc b) := fun c b => W2 m ρ c b
/-- At region 1's exit each of its arrays holds what the pipeline leaves, and every other buffer what it held at entry. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)
/-- Region 1's output window 2 leaves its array `main_v1_0` at the fold of its write-backs. -/
theorem W2_main_v1_0 (c : Dev nD) : W2 m ρ c (Proc.devRef .tc main_v1_0) = (dat1 (V1 m ρ) c).arrAt 2 cfg1.N :=
  W2_arr m ρ c 2
/-- Region 1's output window 3 leaves its array `main_v1_1` at the fold of its write-backs. -/
theorem W2_main_v1_1 (c : Dev nD) : W2 m ρ c (Proc.devRef .tc main_v1_1) = (dat1 (V1 m ρ) c).arrAt 3 cfg1.N :=
  W2_arr m ρ c 3
/-- Region 1's output window 4 leaves its array `main_v1_2` at the fold of its write-backs. -/
theorem W2_main_v1_2 (c : Dev nD) : W2 m ρ c (Proc.devRef .tc main_v1_2) = (dat1 (V1 m ρ) c).arrAt 4 cfg1.N :=
  W2_arr m ρ c 4

/-- After item 2, the host stretch `hostOps2`. -/
abbrev W3 : Dev nD → Valuation τ sig (Elt F) := fun c => StableHlo.after hostOps2 (W2 m ρ c)
/-- The same read at the TensorCore's references. -/
abbrev V3 : (c : Dev nD) → (b : Ref sig .tc) → Buf (Elt F) ((c : Thread nD τ).loc b) := fun c b => W3 m ρ c b
/-- A buffer the stretch does not write is as before it. -/
theorem W3_keep (c : Dev nD) (r : Ref sig .tc) (h : r ∉ hostOps2_W) :
    W3 m ρ c (Proc.devRef .tc r) = W2 m ρ c (Proc.devRef .tc r) :=
  StableHlo.after_of_writes_sub hostOps2 _ hostOps2_writes h

/-- After item 3, region 2: its arrays at what the pipeline leaves (an input's as entered, an output's with every
    point's write-back folded in), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves, and every other buffer what it held at entry. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)
/-- Region 2's output window 5 leaves its array `main_v4` at the fold of its write-backs. -/
theorem W4_main_v4 (c : Dev nD) : W4 m ρ c (Proc.devRef .tc main_v4) = (dat2 (V3 m ρ) c).arrAt 5 cfg2.N :=
  W4_arr m ρ c 5

/-- After item 4, region 3: its arrays at what the pipeline leaves (an input's as entered, an output's with every
    point's write-back folded in), every other buffer as entered. -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- The same read at the TensorCore's references (region 3's exit contents). -/
abbrev V5 : (c : Dev nD) → (b : Ref sig .tc) → Buf (Elt F) ((c : Thread nD τ).loc b) := fun c b => W5 m ρ c b
/-- At region 3's exit each of its arrays holds what the pipeline leaves, and every other buffer what it held at entry. -/
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)
/-- Region 3's output window 1 leaves its array `main_v5` at the fold of its write-backs. -/
theorem W5_main_v5 (c : Dev nD) : W5 m ρ c (Proc.devRef .tc main_v5) = (dat3 (V4 m ρ) c).arrAt 1 cfg3.N :=
  W5_arr m ρ c 1

/-- After item 5, region 4: its arrays at what the pipeline leaves (an input's as entered, an output's with every
    point's write-back folded in), every other buffer as entered. -/
def W6 (c : Dev nD) : Valuation τ sig (Elt F) :=
  Pipeline.withArrays spec4 c (W5 m ρ c) fun w => (dat4 (V5 m ρ) c).arrAt w cfg4.N
theorem W6_arr (c : Dev nD) (w : Fin cfg4.W) :
    W6 m ρ c (Proc.devRef .tc (Pipeline.arrRef spec4 w)) = (dat4 (V5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
/-- The same read at the TensorCore's references (region 4's exit contents). -/
abbrev V6 : (c : Dev nD) → (b : Ref sig .tc) → Buf (Elt F) ((c : Thread nD τ).loc b) := fun c b => W6 m ρ c b
/-- At region 4's exit each of its arrays holds what the pipeline leaves, and every other buffer what it held at entry. -/
theorem hF4 (c : Dev nD) (w : Fin cfg4.W) : (dat4 (V5 m ρ) c).arrAt w cfg4.N = V6 m ρ c (Pipeline.arrRef spec4 w) :=
  (W6_arr m ρ c w).symm
theorem hrest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)
/-- Region 4's output window 2 leaves its array `main_v6_0` at the fold of its write-backs. -/
theorem W6_main_v6_0 (c : Dev nD) : W6 m ρ c (Proc.devRef .tc main_v6_0) = (dat4 (V5 m ρ) c).arrAt 2 cfg4.N :=
  W6_arr m ρ c 2
/-- Region 4's output window 3 leaves its array `main_v6_1` at the fold of its write-backs. -/
theorem W6_main_v6_1 (c : Dev nD) : W6 m ρ c (Proc.devRef .tc main_v6_1) = (dat4 (V5 m ρ) c).arrAt 3 cfg4.N :=
  W6_arr m ρ c 3
/-- Region 4's output window 4 leaves its array `main_v6_2` at the fold of its write-backs. -/
theorem W6_main_v6_2 (c : Dev nD) : W6 m ρ c (Proc.devRef .tc main_v6_2) = (dat4 (V5 m ρ) c).arrAt 4 cfg4.N :=
  W6_arr m ρ c 4

/-- After item 6, the host stretch `hostOps5`. -/
abbrev W7 : Dev nD → Valuation τ sig (Elt F) := fun c => StableHlo.after hostOps5 (W6 m ρ c)
/-- The same read at the TensorCore's references. -/
abbrev V7 : (c : Dev nD) → (b : Ref sig .tc) → Buf (Elt F) ((c : Thread nD τ).loc b) := fun c b => W7 m ρ c b
/-- A buffer the stretch does not write is as before it. -/
theorem W7_keep (c : Dev nD) (r : Ref sig .tc) (h : r ∉ hostOps5_W) :
    W7 m ρ c (Proc.devRef .tc r) = W6 m ρ c (Proc.devRef .tc r) :=
  StableHlo.after_of_writes_sub hostOps5 _ hostOps5_writes h

/-- After item 7, region 5: its arrays at what the pipeline leaves (an input's as entered, an output's with every
    point's write-back folded in), every other buffer as entered. -/
def W8 (c : Dev nD) : Valuation τ sig (Elt F) :=
  Pipeline.withArrays spec5 c (W7 m ρ c) fun w => (dat5 (V7 m ρ) c).arrAt w cfg5.N
theorem W8_arr (c : Dev nD) (w : Fin cfg5.W) :
    W8 m ρ c (Proc.devRef .tc (Pipeline.arrRef spec5 w)) = (dat5 (V7 m ρ) c).arrAt w cfg5.N := by
  unfold W8; exact Pipeline.withArrays_arr spec5 launch5.win.arr_inj c _ _ w
theorem W8_of_ne (c : Dev nD) (b : Ref sig .tc) (hb : ∀ w, Pipeline.arrRef spec5 w ≠ b) :
    W8 m ρ c (Proc.devRef .tc b) = W7 m ρ c (Proc.devRef .tc b) := by
  unfold W8; exact Pipeline.withArrays_of_ne spec5 c _ _ b hb
/-- The same read at the TensorCore's references (region 5's exit contents). -/
abbrev V8 : (c : Dev nD) → (b : Ref sig .tc) → Buf (Elt F) ((c : Thread nD τ).loc b) := fun c b => W8 m ρ c b
/-- At region 5's exit each of its arrays holds what the pipeline leaves, and every other buffer what it held at entry. -/
theorem hF5 (c : Dev nD) (w : Fin cfg5.W) : (dat5 (V7 m ρ) c).arrAt w cfg5.N = V8 m ρ c (Pipeline.arrRef spec5 w) :=
  (W8_arr m ρ c w).symm
theorem hrest5 (c : Dev nD) : ∀ b, b ∉ Finset.univ.image (Pipeline.arrRef spec5) → V8 m ρ c b = V7 m ρ c b :=
  fun b hb => W8_of_ne m ρ c b fun w e => hb (Finset.mem_image.mpr ⟨w, Finset.mem_univ _, e⟩)
/-- Region 5's output window 5 leaves its array `main_v9` at the fold of its write-backs. -/
theorem W8_main_v9 (c : Dev nD) : W8 m ρ c (Proc.devRef .tc main_v9) = (dat5 (V7 m ρ) c).arrAt 5 cfg5.N :=
  W8_arr m ρ c 5

/-- After item 8, region 6: its arrays at what the pipeline leaves (an input's as entered, an output's with every
    point's write-back folded in), every other buffer as entered. -/
def W9 (c : Dev nD) : Valuation τ sig (Elt F) :=
  Pipeline.withArrays spec6 c (W8 m ρ c) fun w => (dat6 (V8 m ρ) c).arrAt w cfg6.N
theorem W9_arr (c : Dev nD) (w : Fin cfg6.W) :
    W9 m ρ c (Proc.devRef .tc (Pipeline.arrRef spec6 w)) = (dat6 (V8 m ρ) c).arrAt w cfg6.N := by
  unfold W9; exact Pipeline.withArrays_arr spec6 launch6.win.arr_inj c _ _ w
theorem W9_of_ne (c : Dev nD) (b : Ref sig .tc) (hb : ∀ w, Pipeline.arrRef spec6 w ≠ b) :
    W9 m ρ c (Proc.devRef .tc b) = W8 m ρ c (Proc.devRef .tc b) := by
  unfold W9; exact Pipeline.withArrays_of_ne spec6 c _ _ b hb
/-- The same read at the TensorCore's references (region 6's exit contents). -/
abbrev V9 : (c : Dev nD) → (b : Ref sig .tc) → Buf (Elt F) ((c : Thread nD τ).loc b) := fun c b => W9 m ρ c b
/-- At region 6's exit each of its arrays holds what the pipeline leaves, and every other buffer what it held at entry. -/
theorem hF6 (c : Dev nD) (w : Fin cfg6.W) : (dat6 (V8 m ρ) c).arrAt w cfg6.N = V9 m ρ c (Pipeline.arrRef spec6 w) :=
  (W9_arr m ρ c w).symm
theorem hrest6 (c : Dev nD) : ∀ b, b ∉ Finset.univ.image (Pipeline.arrRef spec6) → V9 m ρ c b = V8 m ρ c b :=
  fun b hb => W9_of_ne m ρ c b fun w e => hb (Finset.mem_image.mpr ⟨w, Finset.mem_univ _, e⟩)
/-- Region 6's output window 1 leaves its array `main_v10` at the fold of its write-backs. -/
theorem W9_main_v10 (c : Dev nD) : W9 m ρ c (Proc.devRef .tc main_v10) = (dat6 (V8 m ρ) c).arrAt 1 cfg6.N :=
  W9_arr m ρ c 1

/-- After item 9, region 7: its arrays at what the pipeline leaves (an input's as entered, an output's with every
    point's write-back folded in), every other buffer as entered. -/
def W10 (c : Dev nD) : Valuation τ sig (Elt F) :=
  Pipeline.withArrays spec7 c (W9 m ρ c) fun w => (dat7 (V9 m ρ) c).arrAt w cfg7.N
theorem W10_arr (c : Dev nD) (w : Fin cfg7.W) :
    W10 m ρ c (Proc.devRef .tc (Pipeline.arrRef spec7 w)) = (dat7 (V9 m ρ) c).arrAt w cfg7.N := by
  unfold W10; exact Pipeline.withArrays_arr spec7 launch7.win.arr_inj c _ _ w
theorem W10_of_ne (c : Dev nD) (b : Ref sig .tc) (hb : ∀ w, Pipeline.arrRef spec7 w ≠ b) :
    W10 m ρ c (Proc.devRef .tc b) = W9 m ρ c (Proc.devRef .tc b) := by
  unfold W10; exact Pipeline.withArrays_of_ne spec7 c _ _ b hb
/-- The same read at the TensorCore's references (region 7's exit contents). -/
abbrev V10 : (c : Dev nD) → (b : Ref sig .tc) → Buf (Elt F) ((c : Thread nD τ).loc b) := fun c b => W10 m ρ c b
/-- At region 7's exit each of its arrays holds what the pipeline leaves, and every other buffer what it held at entry. -/
theorem hF7 (c : Dev nD) (w : Fin cfg7.W) : (dat7 (V9 m ρ) c).arrAt w cfg7.N = V10 m ρ c (Pipeline.arrRef spec7 w) :=
  (W10_arr m ρ c w).symm
theorem hrest7 (c : Dev nD) : ∀ b, b ∉ Finset.univ.image (Pipeline.arrRef spec7) → V10 m ρ c b = V9 m ρ c b :=
  fun b hb => W10_of_ne m ρ c b fun w e => hb (Finset.mem_image.mpr ⟨w, Finset.mem_univ _, e⟩)
/-- Region 7's output window 2 leaves its array `main_v11_0` at the fold of its write-backs. -/
theorem W10_main_v11_0 (c : Dev nD) : W10 m ρ c (Proc.devRef .tc main_v11_0) = (dat7 (V9 m ρ) c).arrAt 2 cfg7.N :=
  W10_arr m ρ c 2
/-- Region 7's output window 3 leaves its array `main_v11_1` at the fold of its write-backs. -/
theorem W10_main_v11_1 (c : Dev nD) : W10 m ρ c (Proc.devRef .tc main_v11_1) = (dat7 (V9 m ρ) c).arrAt 3 cfg7.N :=
  W10_arr m ρ c 3
/-- Region 7's output window 4 leaves its array `main_v11_2` at the fold of its write-backs. -/
theorem W10_main_v11_2 (c : Dev nD) : W10 m ρ c (Proc.devRef .tc main_v11_2) = (dat7 (V9 m ρ) c).arrAt 4 cfg7.N :=
  W10_arr m ρ c 4

/-- After item 10, the host stretch `hostOps8`. -/
abbrev W11 : Dev nD → Valuation τ sig (Elt F) := fun c => StableHlo.after hostOps8 (W10 m ρ c)
/-- The same read at the TensorCore's references. -/
abbrev V11 : (c : Dev nD) → (b : Ref sig .tc) → Buf (Elt F) ((c : Thread nD τ).loc b) := fun c b => W11 m ρ c b
/-- A buffer the stretch does not write is as before it. -/
theorem W11_keep (c : Dev nD) (r : Ref sig .tc) (h : r ∉ hostOps8_W) :
    W11 m ρ c (Proc.devRef .tc r) = W10 m ρ c (Proc.devRef .tc r) :=
  StableHlo.after_of_writes_sub hostOps8 _ hostOps8_writes h

/-- After item 11, region 8: its arrays at what the pipeline leaves (an input's as entered, an output's with every
    point's write-back folded in), every other buffer as entered. -/
def W12 (c : Dev nD) : Valuation τ sig (Elt F) :=
  Pipeline.withArrays spec8 c (W11 m ρ c) fun w => (dat8 (V11 m ρ) c).arrAt w cfg8.N
theorem W12_arr (c : Dev nD) (w : Fin cfg8.W) :
    W12 m ρ c (Proc.devRef .tc (Pipeline.arrRef spec8 w)) = (dat8 (V11 m ρ) c).arrAt w cfg8.N := by
  unfold W12; exact Pipeline.withArrays_arr spec8 launch8.win.arr_inj c _ _ w
theorem W12_of_ne (c : Dev nD) (b : Ref sig .tc) (hb : ∀ w, Pipeline.arrRef spec8 w ≠ b) :
    W12 m ρ c (Proc.devRef .tc b) = W11 m ρ c (Proc.devRef .tc b) := by
  unfold W12; exact Pipeline.withArrays_of_ne spec8 c _ _ b hb
/-- The same read at the TensorCore's references (region 8's exit contents). -/
abbrev V12 : (c : Dev nD) → (b : Ref sig .tc) → Buf (Elt F) ((c : Thread nD τ).loc b) := fun c b => W12 m ρ c b
/-- At region 8's exit each of its arrays holds what the pipeline leaves, and every other buffer what it held at entry. -/
theorem hF8 (c : Dev nD) (w : Fin cfg8.W) : (dat8 (V11 m ρ) c).arrAt w cfg8.N = V12 m ρ c (Pipeline.arrRef spec8 w) :=
  (W12_arr m ρ c w).symm
theorem hrest8 (c : Dev nD) : ∀ b, b ∉ Finset.univ.image (Pipeline.arrRef spec8) → V12 m ρ c b = V11 m ρ c b :=
  fun b hb => W12_of_ne m ρ c b fun w e => hb (Finset.mem_image.mpr ⟨w, Finset.mem_univ _, e⟩)
/-- Region 8's output window 5 leaves its array `main_v14` at the fold of its write-backs. -/
theorem W12_main_v14 (c : Dev nD) : W12 m ρ c (Proc.devRef .tc main_v14) = (dat8 (V11 m ρ) c).arrAt 5 cfg8.N :=
  W12_arr m ρ c 5

/-- After item 12, the host stretch `hostOps9`. -/
abbrev W13 : Dev nD → Valuation τ sig (Elt F) := fun c => StableHlo.after hostOps9 (W12 m ρ c)
/-- The same read at the TensorCore's references. -/
abbrev V13 : (c : Dev nD) → (b : Ref sig .tc) → Buf (Elt F) ((c : Thread nD τ).loc b) := fun c b => W13 m ρ c b
/-- A buffer the stretch does not write is as before it. -/
theorem W13_keep (c : Dev nD) (r : Ref sig .tc) (h : r ∉ hostOps9_W) :
    W13 m ρ c (Proc.devRef .tc r) = W12 m ρ c (Proc.devRef .tc r) :=
  StableHlo.after_of_writes_sub hostOps9 _ hostOps9_writes h

/-- After item 13, the host stretch `hostOps9_1`. -/
abbrev W14 : Dev nD → Valuation τ sig (Elt F) := fun c => StableHlo.after hostOps9_1 (W13 m ρ c)
/-- The same read at the TensorCore's references. -/
abbrev V14 : (c : Dev nD) → (b : Ref sig .tc) → Buf (Elt F) ((c : Thread nD τ).loc b) := fun c b => W14 m ρ c b
/-- A buffer the stretch does not write is as before it. -/
theorem W14_keep (c : Dev nD) (r : Ref sig .tc) (h : r ∉ hostOps9_1_W) :
    W14 m ρ c (Proc.devRef .tc r) = W13 m ρ c (Proc.devRef .tc r) :=
  StableHlo.after_of_writes_sub hostOps9_1 _ hostOps9_1_writes h

/-- After item 14, the host stretch `hostOps9_2`. -/
abbrev W15 : Dev nD → Valuation τ sig (Elt F) := fun c => StableHlo.after hostOps9_2 (W14 m ρ c)
/-- The same read at the TensorCore's references. -/
abbrev V15 : (c : Dev nD) → (b : Ref sig .tc) → Buf (Elt F) ((c : Thread nD τ).loc b) := fun c b => W15 m ρ c b
/-- A buffer the stretch does not write is as before it. -/
theorem W15_keep (c : Dev nD) (r : Ref sig .tc) (h : r ∉ hostOps9_2_W) :
    W15 m ρ c (Proc.devRef .tc r) = W14 m ρ c (Proc.devRef .tc r) :=
  StableHlo.after_of_writes_sub hostOps9_2 _ hostOps9_2_writes h

/-- After item 15, the host stretch `hostOps9_3`. -/
abbrev W16 : Dev nD → Valuation τ sig (Elt F) := fun c => StableHlo.after hostOps9_3 (W15 m ρ c)
/-- The same read at the TensorCore's references. -/
abbrev V16 : (c : Dev nD) → (b : Ref sig .tc) → Buf (Elt F) ((c : Thread nD τ).loc b) := fun c b => W16 m ρ c b
/-- A buffer the stretch does not write is as before it. -/
theorem W16_keep (c : Dev nD) (r : Ref sig .tc) (h : r ∉ hostOps9_3_W) :
    W16 m ρ c (Proc.devRef .tc r) = W15 m ρ c (Proc.devRef .tc r) :=
  StableHlo.after_of_writes_sub hostOps9_3 _ hostOps9_3_writes h

/-- After item 16, the host stretch `hostOps9_4`. -/
abbrev W17 : Dev nD → Valuation τ sig (Elt F) := fun c => StableHlo.after hostOps9_4 (W16 m ρ c)
/-- The same read at the TensorCore's references. -/
abbrev V17 : (c : Dev nD) → (b : Ref sig .tc) → Buf (Elt F) ((c : Thread nD τ).loc b) := fun c b => W17 m ρ c b
/-- A buffer the stretch does not write is as before it. -/
theorem W17_keep (c : Dev nD) (r : Ref sig .tc) (h : r ∉ hostOps9_4_W) :
    W17 m ρ c (Proc.devRef .tc r) = W16 m ρ c (Proc.devRef .tc r) :=
  StableHlo.after_of_writes_sub hostOps9_4 _ hostOps9_4_writes h

/-- After item 17, the host stretch `hostOps9_5`. -/
abbrev W18 : Dev nD → Valuation τ sig (Elt F) := fun c => StableHlo.after hostOps9_5 (W17 m ρ c)
/-- The same read at the TensorCore's references. -/
abbrev V18 : (c : Dev nD) → (b : Ref sig .tc) → Buf (Elt F) ((c : Thread nD τ).loc b) := fun c b => W18 m ρ c b
/-- A buffer the stretch does not write is as before it. -/
theorem W18_keep (c : Dev nD) (r : Ref sig .tc) (h : r ∉ hostOps9_5_W) :
    W18 m ρ c (Proc.devRef .tc r) = W17 m ρ c (Proc.devRef .tc r) :=
  StableHlo.after_of_writes_sub hostOps9_5 _ hostOps9_5_writes h

/-- After item 18, region 9: its arrays at what the pipeline leaves (an input's as entered, an output's with every
    point's write-back folded in), every other buffer as entered. -/
def W19 (c : Dev nD) : Valuation τ sig (Elt F) :=
  Pipeline.withArrays spec9 c (W18 m ρ c) fun w => (dat9 (V18 m ρ) c).arrAt w cfg9.N
theorem W19_arr (c : Dev nD) (w : Fin cfg9.W) :
    W19 m ρ c (Proc.devRef .tc (Pipeline.arrRef spec9 w)) = (dat9 (V18 m ρ) c).arrAt w cfg9.N := by
  unfold W19; exact Pipeline.withArrays_arr spec9 launch9.win.arr_inj c _ _ w
theorem W19_of_ne (c : Dev nD) (b : Ref sig .tc) (hb : ∀ w, Pipeline.arrRef spec9 w ≠ b) :
    W19 m ρ c (Proc.devRef .tc b) = W18 m ρ c (Proc.devRef .tc b) := by
  unfold W19; exact Pipeline.withArrays_of_ne spec9 c _ _ b hb
/-- The same read at the TensorCore's references (region 9's exit contents). -/
abbrev V19 : (c : Dev nD) → (b : Ref sig .tc) → Buf (Elt F) ((c : Thread nD τ).loc b) := fun c b => W19 m ρ c b
/-- At region 9's exit each of its arrays holds what the pipeline leaves, and every other buffer what it held at entry. -/
theorem hF9 (c : Dev nD) (w : Fin cfg9.W) : (dat9 (V18 m ρ) c).arrAt w cfg9.N = V19 m ρ c (Pipeline.arrRef spec9 w) :=
  (W19_arr m ρ c w).symm
theorem hrest9 (c : Dev nD) : ∀ b, b ∉ Finset.univ.image (Pipeline.arrRef spec9) → V19 m ρ c b = V18 m ρ c b :=
  fun b hb => W19_of_ne m ρ c b fun w e => hb (Finset.mem_image.mpr ⟨w, Finset.mem_univ _, e⟩)
/-- Region 9's output window 1 leaves its array `main_v18` at the fold of its write-backs. -/
theorem W19_main_v18 (c : Dev nD) : W19 m ρ c (Proc.devRef .tc main_v18) = (dat9 (V18 m ρ) c).arrAt 1 cfg9.N :=
  W19_arr m ρ c 1

/-- After item 19, region 10: its arrays at what the pipeline leaves (an input's as entered, an output's with every
    point's write-back folded in), every other buffer as entered. -/
def W20 (c : Dev nD) : Valuation τ sig (Elt F) :=
  Pipeline.withArrays spec10 c (W19 m ρ c) fun w => (dat10 (V19 m ρ) c).arrAt w cfg10.N
theorem W20_arr (c : Dev nD) (w : Fin cfg10.W) :
    W20 m ρ c (Proc.devRef .tc (Pipeline.arrRef spec10 w)) = (dat10 (V19 m ρ) c).arrAt w cfg10.N := by
  unfold W20; exact Pipeline.withArrays_arr spec10 launch10.win.arr_inj c _ _ w
theorem W20_of_ne (c : Dev nD) (b : Ref sig .tc) (hb : ∀ w, Pipeline.arrRef spec10 w ≠ b) :
    W20 m ρ c (Proc.devRef .tc b) = W19 m ρ c (Proc.devRef .tc b) := by
  unfold W20; exact Pipeline.withArrays_of_ne spec10 c _ _ b hb
/-- The same read at the TensorCore's references (region 10's exit contents). -/
abbrev V20 : (c : Dev nD) → (b : Ref sig .tc) → Buf (Elt F) ((c : Thread nD τ).loc b) := fun c b => W20 m ρ c b
/-- At region 10's exit each of its arrays holds what the pipeline leaves, and every other buffer what it held at entry. -/
theorem hF10 (c : Dev nD) (w : Fin cfg10.W) : (dat10 (V19 m ρ) c).arrAt w cfg10.N = V20 m ρ c (Pipeline.arrRef spec10 w) :=
  (W20_arr m ρ c w).symm
theorem hrest10 (c : Dev nD) : ∀ b, b ∉ Finset.univ.image (Pipeline.arrRef spec10) → V20 m ρ c b = V19 m ρ c b :=
  fun b hb => W20_of_ne m ρ c b fun w e => hb (Finset.mem_image.mpr ⟨w, Finset.mem_univ _, e⟩)
/-- Region 10's output window 2 leaves its array `main_v19_0` at the fold of its write-backs. -/
theorem W20_main_v19_0 (c : Dev nD) : W20 m ρ c (Proc.devRef .tc main_v19_0) = (dat10 (V19 m ρ) c).arrAt 2 cfg10.N :=
  W20_arr m ρ c 2
/-- Region 10's output window 3 leaves its array `main_v19_1` at the fold of its write-backs. -/
theorem W20_main_v19_1 (c : Dev nD) : W20 m ρ c (Proc.devRef .tc main_v19_1) = (dat10 (V19 m ρ) c).arrAt 3 cfg10.N :=
  W20_arr m ρ c 3
/-- Region 10's output window 4 leaves its array `main_v19_2` at the fold of its write-backs. -/
theorem W20_main_v19_2 (c : Dev nD) : W20 m ρ c (Proc.devRef .tc main_v19_2) = (dat10 (V19 m ρ) c).arrAt 4 cfg10.N :=
  W20_arr m ρ c 4

/-- After item 20, the host stretch `hostOps11`. -/
abbrev W21 : Dev nD → Valuation τ sig (Elt F) := fun c => StableHlo.after hostOps11 (W20 m ρ c)
/-- The same read at the TensorCore's references. -/
abbrev V21 : (c : Dev nD) → (b : Ref sig .tc) → Buf (Elt F) ((c : Thread nD τ).loc b) := fun c b => W21 m ρ c b
/-- A buffer the stretch does not write is as before it. -/
theorem W21_keep (c : Dev nD) (r : Ref sig .tc) (h : r ∉ hostOps11_W) :
    W21 m ρ c (Proc.devRef .tc r) = W20 m ρ c (Proc.devRef .tc r) :=
  StableHlo.after_of_writes_sub hostOps11 _ hostOps11_writes h

/-- After item 21, region 11: its arrays at what the pipeline leaves (an input's as entered, an output's with every
    point's write-back folded in), every other buffer as entered. -/
def W22 (c : Dev nD) : Valuation τ sig (Elt F) :=
  Pipeline.withArrays spec11 c (W21 m ρ c) fun w => (dat11 (V21 m ρ) c).arrAt w cfg11.N
theorem W22_arr (c : Dev nD) (w : Fin cfg11.W) :
    W22 m ρ c (Proc.devRef .tc (Pipeline.arrRef spec11 w)) = (dat11 (V21 m ρ) c).arrAt w cfg11.N := by
  unfold W22; exact Pipeline.withArrays_arr spec11 launch11.win.arr_inj c _ _ w
theorem W22_of_ne (c : Dev nD) (b : Ref sig .tc) (hb : ∀ w, Pipeline.arrRef spec11 w ≠ b) :
    W22 m ρ c (Proc.devRef .tc b) = W21 m ρ c (Proc.devRef .tc b) := by
  unfold W22; exact Pipeline.withArrays_of_ne spec11 c _ _ b hb
/-- The same read at the TensorCore's references (region 11's exit contents). -/
abbrev V22 : (c : Dev nD) → (b : Ref sig .tc) → Buf (Elt F) ((c : Thread nD τ).loc b) := fun c b => W22 m ρ c b
/-- At region 11's exit each of its arrays holds what the pipeline leaves, and every other buffer what it held at entry. -/
theorem hF11 (c : Dev nD) (w : Fin cfg11.W) : (dat11 (V21 m ρ) c).arrAt w cfg11.N = V22 m ρ c (Pipeline.arrRef spec11 w) :=
  (W22_arr m ρ c w).symm
theorem hrest11 (c : Dev nD) : ∀ b, b ∉ Finset.univ.image (Pipeline.arrRef spec11) → V22 m ρ c b = V21 m ρ c b :=
  fun b hb => W22_of_ne m ρ c b fun w e => hb (Finset.mem_image.mpr ⟨w, Finset.mem_univ _, e⟩)
/-- Region 11's output window 5 leaves its array `main_v22` at the fold of its write-backs. -/
theorem W22_main_v22 (c : Dev nD) : W22 m ρ c (Proc.devRef .tc main_v22) = (dat11 (V21 m ρ) c).arrAt 5 cfg11.N :=
  W22_arr m ρ c 5

/-- After item 22, the host stretch `hostOps12`. -/
abbrev W23 : Dev nD → Valuation τ sig (Elt F) := fun c => StableHlo.after hostOps12 (W22 m ρ c)
/-- The same read at the TensorCore's references. -/
abbrev V23 : (c : Dev nD) → (b : Ref sig .tc) → Buf (Elt F) ((c : Thread nD τ).loc b) := fun c b => W23 m ρ c b
/-- A buffer the stretch does not write is as before it. -/
theorem W23_keep (c : Dev nD) (r : Ref sig .tc) (h : r ∉ hostOps12_W) :
    W23 m ρ c (Proc.devRef .tc r) = W22 m ρ c (Proc.devRef .tc r) :=
  StableHlo.after_of_writes_sub hostOps12 _ hostOps12_writes h

/-! ## The arguments end as launched

No host operation writes an argument and no region has one as an output window's array (a region reads it through an
input window, whose array it leaves as entered, or does not touch it), so the fold at an argument's buffer walks
back to the launch memory. -/

theorem W23_main_arg0 (c : Dev nD) : W23 m ρ c (Proc.devRef .tc main_arg0) = m ((c : Thread nD τ).loc main_arg0) :=
  calc W23 m ρ c (Proc.devRef .tc main_arg0)
    _ = W22 m ρ c (Proc.devRef .tc main_arg0) := W23_keep m ρ c main_arg0 (by decide)
    _ = W21 m ρ c (Proc.devRef .tc main_arg0) := W22_of_ne m ρ c main_arg0 (by decide)
    _ = W20 m ρ c (Proc.devRef .tc main_arg0) := W21_keep m ρ c main_arg0 (by decide)
    _ = W19 m ρ c (Proc.devRef .tc main_arg0) := W20_of_ne m ρ c main_arg0 (by decide)
    _ = W18 m ρ c (Proc.devRef .tc main_arg0) := W19_of_ne m ρ c main_arg0 (by decide)
    _ = W17 m ρ c (Proc.devRef .tc main_arg0) := W18_keep m ρ c main_arg0 (by decide)
    _ = W16 m ρ c (Proc.devRef .tc main_arg0) := W17_keep m ρ c main_arg0 (by decide)
    _ = W15 m ρ c (Proc.devRef .tc main_arg0) := W16_keep m ρ c main_arg0 (by decide)
    _ = W14 m ρ c (Proc.devRef .tc main_arg0) := W15_keep m ρ c main_arg0 (by decide)
    _ = W13 m ρ c (Proc.devRef .tc main_arg0) := W14_keep m ρ c main_arg0 (by decide)
    _ = W12 m ρ c (Proc.devRef .tc main_arg0) := W13_keep m ρ c main_arg0 (by decide)
    _ = W11 m ρ c (Proc.devRef .tc main_arg0) := W12_of_ne m ρ c main_arg0 (by decide)
    _ = W10 m ρ c (Proc.devRef .tc main_arg0) := W11_keep m ρ c main_arg0 (by decide)
    _ = W9 m ρ c (Proc.devRef .tc main_arg0) := W10_of_ne m ρ c main_arg0 (by decide)
    _ = W8 m ρ c (Proc.devRef .tc main_arg0) := W9_of_ne m ρ c main_arg0 (by decide)
    _ = W7 m ρ c (Proc.devRef .tc main_arg0) := W8_of_ne m ρ c main_arg0 (by decide)
    _ = W6 m ρ c (Proc.devRef .tc main_arg0) := W7_keep m ρ c main_arg0 (by decide)
    _ = W5 m ρ c (Proc.devRef .tc main_arg0) := W6_of_ne m ρ c main_arg0 (by decide)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_keep m ρ c main_arg0 (by decide)
    _ = W1 m ρ c (Proc.devRef .tc main_arg0) := (W2_arr m ρ c 0).trans (((dat1 (V1 m ρ) c).arrAt_in 0 rfl _).trans (A_eq1 (V1 m ρ) c 0))
    _ = W0 m ρ c (Proc.devRef .tc main_arg0) := W1_of_ne m ρ c main_arg0 (by decide)
    _ = m ((c : Thread nD τ).loc main_arg0) := rfl

theorem W23_main_arg1 (c : Dev nD) : W23 m ρ c (Proc.devRef .tc main_arg1) = m ((c : Thread nD τ).loc main_arg1) :=
  calc W23 m ρ c (Proc.devRef .tc main_arg1)
    _ = W22 m ρ c (Proc.devRef .tc main_arg1) := W23_keep m ρ c main_arg1 (by decide)
    _ = W21 m ρ c (Proc.devRef .tc main_arg1) := W22_of_ne m ρ c main_arg1 (by decide)
    _ = W20 m ρ c (Proc.devRef .tc main_arg1) := W21_keep m ρ c main_arg1 (by decide)
    _ = W19 m ρ c (Proc.devRef .tc main_arg1) := W20_of_ne m ρ c main_arg1 (by decide)
    _ = W18 m ρ c (Proc.devRef .tc main_arg1) := W19_of_ne m ρ c main_arg1 (by decide)
    _ = W17 m ρ c (Proc.devRef .tc main_arg1) := W18_keep m ρ c main_arg1 (by decide)
    _ = W16 m ρ c (Proc.devRef .tc main_arg1) := W17_keep m ρ c main_arg1 (by decide)
    _ = W15 m ρ c (Proc.devRef .tc main_arg1) := W16_keep m ρ c main_arg1 (by decide)
    _ = W14 m ρ c (Proc.devRef .tc main_arg1) := W15_keep m ρ c main_arg1 (by decide)
    _ = W13 m ρ c (Proc.devRef .tc main_arg1) := W14_keep m ρ c main_arg1 (by decide)
    _ = W12 m ρ c (Proc.devRef .tc main_arg1) := W13_keep m ρ c main_arg1 (by decide)
    _ = W11 m ρ c (Proc.devRef .tc main_arg1) := W12_of_ne m ρ c main_arg1 (by decide)
    _ = W10 m ρ c (Proc.devRef .tc main_arg1) := W11_keep m ρ c main_arg1 (by decide)
    _ = W9 m ρ c (Proc.devRef .tc main_arg1) := W10_of_ne m ρ c main_arg1 (by decide)
    _ = W8 m ρ c (Proc.devRef .tc main_arg1) := W9_of_ne m ρ c main_arg1 (by decide)
    _ = W7 m ρ c (Proc.devRef .tc main_arg1) := W8_of_ne m ρ c main_arg1 (by decide)
    _ = W6 m ρ c (Proc.devRef .tc main_arg1) := W7_keep m ρ c main_arg1 (by decide)
    _ = W5 m ρ c (Proc.devRef .tc main_arg1) := W6_of_ne m ρ c main_arg1 (by decide)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := W3_keep m ρ c main_arg1 (by decide)
    _ = W1 m ρ c (Proc.devRef .tc main_arg1) := W2_of_ne m ρ c main_arg1 (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

theorem W23_main_arg2 (c : Dev nD) : W23 m ρ c (Proc.devRef .tc main_arg2) = m ((c : Thread nD τ).loc main_arg2) :=
  calc W23 m ρ c (Proc.devRef .tc main_arg2)
    _ = W22 m ρ c (Proc.devRef .tc main_arg2) := W23_keep m ρ c main_arg2 (by decide)
    _ = W21 m ρ c (Proc.devRef .tc main_arg2) := W22_of_ne m ρ c main_arg2 (by decide)
    _ = W20 m ρ c (Proc.devRef .tc main_arg2) := W21_keep m ρ c main_arg2 (by decide)
    _ = W19 m ρ c (Proc.devRef .tc main_arg2) := W20_of_ne m ρ c main_arg2 (by decide)
    _ = W18 m ρ c (Proc.devRef .tc main_arg2) := W19_of_ne m ρ c main_arg2 (by decide)
    _ = W17 m ρ c (Proc.devRef .tc main_arg2) := W18_keep m ρ c main_arg2 (by decide)
    _ = W16 m ρ c (Proc.devRef .tc main_arg2) := W17_keep m ρ c main_arg2 (by decide)
    _ = W15 m ρ c (Proc.devRef .tc main_arg2) := W16_keep m ρ c main_arg2 (by decide)
    _ = W14 m ρ c (Proc.devRef .tc main_arg2) := W15_keep m ρ c main_arg2 (by decide)
    _ = W13 m ρ c (Proc.devRef .tc main_arg2) := W14_keep m ρ c main_arg2 (by decide)
    _ = W12 m ρ c (Proc.devRef .tc main_arg2) := W13_keep m ρ c main_arg2 (by decide)
    _ = W11 m ρ c (Proc.devRef .tc main_arg2) := W12_of_ne m ρ c main_arg2 (by decide)
    _ = W10 m ρ c (Proc.devRef .tc main_arg2) := W11_keep m ρ c main_arg2 (by decide)
    _ = W9 m ρ c (Proc.devRef .tc main_arg2) := W10_of_ne m ρ c main_arg2 (by decide)
    _ = W8 m ρ c (Proc.devRef .tc main_arg2) := W9_of_ne m ρ c main_arg2 (by decide)
    _ = W7 m ρ c (Proc.devRef .tc main_arg2) := W8_of_ne m ρ c main_arg2 (by decide)
    _ = W6 m ρ c (Proc.devRef .tc main_arg2) := W7_keep m ρ c main_arg2 (by decide)
    _ = W5 m ρ c (Proc.devRef .tc main_arg2) := W6_of_ne m ρ c main_arg2 (by decide)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := W3_keep m ρ c main_arg2 (by decide)
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

theorem W23_main_arg3 (c : Dev nD) : W23 m ρ c (Proc.devRef .tc main_arg3) = m ((c : Thread nD τ).loc main_arg3) :=
  calc W23 m ρ c (Proc.devRef .tc main_arg3)
    _ = W22 m ρ c (Proc.devRef .tc main_arg3) := W23_keep m ρ c main_arg3 (by decide)
    _ = W21 m ρ c (Proc.devRef .tc main_arg3) := W22_of_ne m ρ c main_arg3 (by decide)
    _ = W20 m ρ c (Proc.devRef .tc main_arg3) := W21_keep m ρ c main_arg3 (by decide)
    _ = W19 m ρ c (Proc.devRef .tc main_arg3) := W20_of_ne m ρ c main_arg3 (by decide)
    _ = W18 m ρ c (Proc.devRef .tc main_arg3) := W19_of_ne m ρ c main_arg3 (by decide)
    _ = W17 m ρ c (Proc.devRef .tc main_arg3) := W18_keep m ρ c main_arg3 (by decide)
    _ = W16 m ρ c (Proc.devRef .tc main_arg3) := W17_keep m ρ c main_arg3 (by decide)
    _ = W15 m ρ c (Proc.devRef .tc main_arg3) := W16_keep m ρ c main_arg3 (by decide)
    _ = W14 m ρ c (Proc.devRef .tc main_arg3) := W15_keep m ρ c main_arg3 (by decide)
    _ = W13 m ρ c (Proc.devRef .tc main_arg3) := W14_keep m ρ c main_arg3 (by decide)
    _ = W12 m ρ c (Proc.devRef .tc main_arg3) := W13_keep m ρ c main_arg3 (by decide)
    _ = W11 m ρ c (Proc.devRef .tc main_arg3) := W12_of_ne m ρ c main_arg3 (by decide)
    _ = W10 m ρ c (Proc.devRef .tc main_arg3) := W11_keep m ρ c main_arg3 (by decide)
    _ = W9 m ρ c (Proc.devRef .tc main_arg3) := W10_of_ne m ρ c main_arg3 (by decide)
    _ = W8 m ρ c (Proc.devRef .tc main_arg3) := W9_of_ne m ρ c main_arg3 (by decide)
    _ = W7 m ρ c (Proc.devRef .tc main_arg3) := W8_of_ne m ρ c main_arg3 (by decide)
    _ = W6 m ρ c (Proc.devRef .tc main_arg3) := W7_keep m ρ c main_arg3 (by decide)
    _ = W5 m ρ c (Proc.devRef .tc main_arg3) := W6_of_ne m ρ c main_arg3 (by decide)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := W3_keep m ρ c main_arg3 (by decide)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

theorem W23_main_arg4 (c : Dev nD) : W23 m ρ c (Proc.devRef .tc main_arg4) = m ((c : Thread nD τ).loc main_arg4) :=
  calc W23 m ρ c (Proc.devRef .tc main_arg4)
    _ = W22 m ρ c (Proc.devRef .tc main_arg4) := W23_keep m ρ c main_arg4 (by decide)
    _ = W21 m ρ c (Proc.devRef .tc main_arg4) := W22_of_ne m ρ c main_arg4 (by decide)
    _ = W20 m ρ c (Proc.devRef .tc main_arg4) := W21_keep m ρ c main_arg4 (by decide)
    _ = W19 m ρ c (Proc.devRef .tc main_arg4) := W20_of_ne m ρ c main_arg4 (by decide)
    _ = W18 m ρ c (Proc.devRef .tc main_arg4) := W19_of_ne m ρ c main_arg4 (by decide)
    _ = W17 m ρ c (Proc.devRef .tc main_arg4) := W18_keep m ρ c main_arg4 (by decide)
    _ = W16 m ρ c (Proc.devRef .tc main_arg4) := W17_keep m ρ c main_arg4 (by decide)
    _ = W15 m ρ c (Proc.devRef .tc main_arg4) := W16_keep m ρ c main_arg4 (by decide)
    _ = W14 m ρ c (Proc.devRef .tc main_arg4) := W15_keep m ρ c main_arg4 (by decide)
    _ = W13 m ρ c (Proc.devRef .tc main_arg4) := W14_keep m ρ c main_arg4 (by decide)
    _ = W12 m ρ c (Proc.devRef .tc main_arg4) := W13_keep m ρ c main_arg4 (by decide)
    _ = W11 m ρ c (Proc.devRef .tc main_arg4) := W12_of_ne m ρ c main_arg4 (by decide)
    _ = W10 m ρ c (Proc.devRef .tc main_arg4) := W11_keep m ρ c main_arg4 (by decide)
    _ = W9 m ρ c (Proc.devRef .tc main_arg4) := W10_of_ne m ρ c main_arg4 (by decide)
    _ = W8 m ρ c (Proc.devRef .tc main_arg4) := W9_of_ne m ρ c main_arg4 (by decide)
    _ = W7 m ρ c (Proc.devRef .tc main_arg4) := W8_of_ne m ρ c main_arg4 (by decide)
    _ = W6 m ρ c (Proc.devRef .tc main_arg4) := W7_keep m ρ c main_arg4 (by decide)
    _ = W5 m ρ c (Proc.devRef .tc main_arg4) := W6_of_ne m ρ c main_arg4 (by decide)
    _ = W4 m ρ c (Proc.devRef .tc main_arg4) := (W5_arr m ρ c 0).trans (((dat3 (V4 m ρ) c).arrAt_in 0 rfl _).trans (A_eq3 (V4 m ρ) c 0))
    _ = W3 m ρ c (Proc.devRef .tc main_arg4) := W4_of_ne m ρ c main_arg4 (by decide)
    _ = W2 m ρ c (Proc.devRef .tc main_arg4) := W3_keep m ρ c main_arg4 (by decide)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl

theorem W23_main_arg5 (c : Dev nD) : W23 m ρ c (Proc.devRef .tc main_arg5) = m ((c : Thread nD τ).loc main_arg5) :=
  calc W23 m ρ c (Proc.devRef .tc main_arg5)
    _ = W22 m ρ c (Proc.devRef .tc main_arg5) := W23_keep m ρ c main_arg5 (by decide)
    _ = W21 m ρ c (Proc.devRef .tc main_arg5) := W22_of_ne m ρ c main_arg5 (by decide)
    _ = W20 m ρ c (Proc.devRef .tc main_arg5) := W21_keep m ρ c main_arg5 (by decide)
    _ = W19 m ρ c (Proc.devRef .tc main_arg5) := W20_of_ne m ρ c main_arg5 (by decide)
    _ = W18 m ρ c (Proc.devRef .tc main_arg5) := W19_of_ne m ρ c main_arg5 (by decide)
    _ = W17 m ρ c (Proc.devRef .tc main_arg5) := W18_keep m ρ c main_arg5 (by decide)
    _ = W16 m ρ c (Proc.devRef .tc main_arg5) := W17_keep m ρ c main_arg5 (by decide)
    _ = W15 m ρ c (Proc.devRef .tc main_arg5) := W16_keep m ρ c main_arg5 (by decide)
    _ = W14 m ρ c (Proc.devRef .tc main_arg5) := W15_keep m ρ c main_arg5 (by decide)
    _ = W13 m ρ c (Proc.devRef .tc main_arg5) := W14_keep m ρ c main_arg5 (by decide)
    _ = W12 m ρ c (Proc.devRef .tc main_arg5) := W13_keep m ρ c main_arg5 (by decide)
    _ = W11 m ρ c (Proc.devRef .tc main_arg5) := W12_of_ne m ρ c main_arg5 (by decide)
    _ = W10 m ρ c (Proc.devRef .tc main_arg5) := W11_keep m ρ c main_arg5 (by decide)
    _ = W9 m ρ c (Proc.devRef .tc main_arg5) := W10_of_ne m ρ c main_arg5 (by decide)
    _ = W8 m ρ c (Proc.devRef .tc main_arg5) := W9_of_ne m ρ c main_arg5 (by decide)
    _ = W7 m ρ c (Proc.devRef .tc main_arg5) := W8_of_ne m ρ c main_arg5 (by decide)
    _ = W6 m ρ c (Proc.devRef .tc main_arg5) := W7_keep m ρ c main_arg5 (by decide)
    _ = W5 m ρ c (Proc.devRef .tc main_arg5) := W6_of_ne m ρ c main_arg5 (by decide)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := W3_keep m ρ c main_arg5 (by decide)
    _ = W1 m ρ c (Proc.devRef .tc main_arg5) := W2_of_ne m ρ c main_arg5 (by decide)
    _ = W0 m ρ c (Proc.devRef .tc main_arg5) := W1_of_ne m ρ c main_arg5 (by decide)
    _ = m ((c : Thread nD τ).loc main_arg5) := rfl

theorem W23_main_arg6 (c : Dev nD) : W23 m ρ c (Proc.devRef .tc main_arg6) = m ((c : Thread nD τ).loc main_arg6) :=
  calc W23 m ρ c (Proc.devRef .tc main_arg6)
    _ = W22 m ρ c (Proc.devRef .tc main_arg6) := W23_keep m ρ c main_arg6 (by decide)
    _ = W21 m ρ c (Proc.devRef .tc main_arg6) := W22_of_ne m ρ c main_arg6 (by decide)
    _ = W20 m ρ c (Proc.devRef .tc main_arg6) := W21_keep m ρ c main_arg6 (by decide)
    _ = W19 m ρ c (Proc.devRef .tc main_arg6) := W20_of_ne m ρ c main_arg6 (by decide)
    _ = W18 m ρ c (Proc.devRef .tc main_arg6) := W19_of_ne m ρ c main_arg6 (by decide)
    _ = W17 m ρ c (Proc.devRef .tc main_arg6) := W18_keep m ρ c main_arg6 (by decide)
    _ = W16 m ρ c (Proc.devRef .tc main_arg6) := W17_keep m ρ c main_arg6 (by decide)
    _ = W15 m ρ c (Proc.devRef .tc main_arg6) := W16_keep m ρ c main_arg6 (by decide)
    _ = W14 m ρ c (Proc.devRef .tc main_arg6) := W15_keep m ρ c main_arg6 (by decide)
    _ = W13 m ρ c (Proc.devRef .tc main_arg6) := W14_keep m ρ c main_arg6 (by decide)
    _ = W12 m ρ c (Proc.devRef .tc main_arg6) := W13_keep m ρ c main_arg6 (by decide)
    _ = W11 m ρ c (Proc.devRef .tc main_arg6) := W12_of_ne m ρ c main_arg6 (by decide)
    _ = W10 m ρ c (Proc.devRef .tc main_arg6) := W11_keep m ρ c main_arg6 (by decide)
    _ = W9 m ρ c (Proc.devRef .tc main_arg6) := W10_of_ne m ρ c main_arg6 (by decide)
    _ = W8 m ρ c (Proc.devRef .tc main_arg6) := W9_of_ne m ρ c main_arg6 (by decide)
    _ = W7 m ρ c (Proc.devRef .tc main_arg6) := W8_of_ne m ρ c main_arg6 (by decide)
    _ = W6 m ρ c (Proc.devRef .tc main_arg6) := W7_keep m ρ c main_arg6 (by decide)
    _ = W5 m ρ c (Proc.devRef .tc main_arg6) := W6_of_ne m ρ c main_arg6 (by decide)
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := W3_keep m ρ c main_arg6 (by decide)
    _ = W1 m ρ c (Proc.devRef .tc main_arg6) := W2_of_ne m ρ c main_arg6 (by decide)
    _ = W0 m ρ c (Proc.devRef .tc main_arg6) := W1_of_ne m ρ c main_arg6 (by decide)
    _ = m ((c : Thread nD τ).loc main_arg6) := rfl

theorem W23_main_arg7 (c : Dev nD) : W23 m ρ c (Proc.devRef .tc main_arg7) = m ((c : Thread nD τ).loc main_arg7) :=
  calc W23 m ρ c (Proc.devRef .tc main_arg7)
    _ = W22 m ρ c (Proc.devRef .tc main_arg7) := W23_keep m ρ c main_arg7 (by decide)
    _ = W21 m ρ c (Proc.devRef .tc main_arg7) := W22_of_ne m ρ c main_arg7 (by decide)
    _ = W20 m ρ c (Proc.devRef .tc main_arg7) := W21_keep m ρ c main_arg7 (by decide)
    _ = W19 m ρ c (Proc.devRef .tc main_arg7) := W20_of_ne m ρ c main_arg7 (by decide)
    _ = W18 m ρ c (Proc.devRef .tc main_arg7) := W19_of_ne m ρ c main_arg7 (by decide)
    _ = W17 m ρ c (Proc.devRef .tc main_arg7) := W18_keep m ρ c main_arg7 (by decide)
    _ = W16 m ρ c (Proc.devRef .tc main_arg7) := W17_keep m ρ c main_arg7 (by decide)
    _ = W15 m ρ c (Proc.devRef .tc main_arg7) := W16_keep m ρ c main_arg7 (by decide)
    _ = W14 m ρ c (Proc.devRef .tc main_arg7) := W15_keep m ρ c main_arg7 (by decide)
    _ = W13 m ρ c (Proc.devRef .tc main_arg7) := W14_keep m ρ c main_arg7 (by decide)
    _ = W12 m ρ c (Proc.devRef .tc main_arg7) := W13_keep m ρ c main_arg7 (by decide)
    _ = W11 m ρ c (Proc.devRef .tc main_arg7) := W12_of_ne m ρ c main_arg7 (by decide)
    _ = W10 m ρ c (Proc.devRef .tc main_arg7) := W11_keep m ρ c main_arg7 (by decide)
    _ = W9 m ρ c (Proc.devRef .tc main_arg7) := W10_of_ne m ρ c main_arg7 (by decide)
    _ = W8 m ρ c (Proc.devRef .tc main_arg7) := (W9_arr m ρ c 0).trans (((dat6 (V8 m ρ) c).arrAt_in 0 rfl _).trans (A_eq6 (V8 m ρ) c 0))
    _ = W7 m ρ c (Proc.devRef .tc main_arg7) := W8_of_ne m ρ c main_arg7 (by decide)
    _ = W6 m ρ c (Proc.devRef .tc main_arg7) := W7_keep m ρ c main_arg7 (by decide)
    _ = W5 m ρ c (Proc.devRef .tc main_arg7) := W6_of_ne m ρ c main_arg7 (by decide)
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := W3_keep m ρ c main_arg7 (by decide)
    _ = W1 m ρ c (Proc.devRef .tc main_arg7) := W2_of_ne m ρ c main_arg7 (by decide)
    _ = W0 m ρ c (Proc.devRef .tc main_arg7) := W1_of_ne m ρ c main_arg7 (by decide)
    _ = m ((c : Thread nD τ).loc main_arg7) := rfl

theorem W23_main_arg8 (c : Dev nD) : W23 m ρ c (Proc.devRef .tc main_arg8) = m ((c : Thread nD τ).loc main_arg8) :=
  calc W23 m ρ c (Proc.devRef .tc main_arg8)
    _ = W22 m ρ c (Proc.devRef .tc main_arg8) := W23_keep m ρ c main_arg8 (by decide)
    _ = W21 m ρ c (Proc.devRef .tc main_arg8) := W22_of_ne m ρ c main_arg8 (by decide)
    _ = W20 m ρ c (Proc.devRef .tc main_arg8) := W21_keep m ρ c main_arg8 (by decide)
    _ = W19 m ρ c (Proc.devRef .tc main_arg8) := W20_of_ne m ρ c main_arg8 (by decide)
    _ = W18 m ρ c (Proc.devRef .tc main_arg8) := W19_of_ne m ρ c main_arg8 (by decide)
    _ = W17 m ρ c (Proc.devRef .tc main_arg8) := W18_keep m ρ c main_arg8 (by decide)
    _ = W16 m ρ c (Proc.devRef .tc main_arg8) := W17_keep m ρ c main_arg8 (by decide)
    _ = W15 m ρ c (Proc.devRef .tc main_arg8) := W16_keep m ρ c main_arg8 (by decide)
    _ = W14 m ρ c (Proc.devRef .tc main_arg8) := W15_keep m ρ c main_arg8 (by decide)
    _ = W13 m ρ c (Proc.devRef .tc main_arg8) := W14_keep m ρ c main_arg8 (by decide)
    _ = W12 m ρ c (Proc.devRef .tc main_arg8) := W13_keep m ρ c main_arg8 (by decide)
    _ = W11 m ρ c (Proc.devRef .tc main_arg8) := W12_of_ne m ρ c main_arg8 (by decide)
    _ = W10 m ρ c (Proc.devRef .tc main_arg8) := W11_keep m ρ c main_arg8 (by decide)
    _ = W9 m ρ c (Proc.devRef .tc main_arg8) := W10_of_ne m ρ c main_arg8 (by decide)
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := W7_keep m ρ c main_arg8 (by decide)
    _ = W5 m ρ c (Proc.devRef .tc main_arg8) := W6_of_ne m ρ c main_arg8 (by decide)
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := W3_keep m ρ c main_arg8 (by decide)
    _ = W1 m ρ c (Proc.devRef .tc main_arg8) := W2_of_ne m ρ c main_arg8 (by decide)
    _ = W0 m ρ c (Proc.devRef .tc main_arg8) := W1_of_ne m ρ c main_arg8 (by decide)
    _ = m ((c : Thread nD τ).loc main_arg8) := rfl

theorem W23_main_arg9 (c : Dev nD) : W23 m ρ c (Proc.devRef .tc main_arg9) = m ((c : Thread nD τ).loc main_arg9) :=
  calc W23 m ρ c (Proc.devRef .tc main_arg9)
    _ = W22 m ρ c (Proc.devRef .tc main_arg9) := W23_keep m ρ c main_arg9 (by decide)
    _ = W21 m ρ c (Proc.devRef .tc main_arg9) := W22_of_ne m ρ c main_arg9 (by decide)
    _ = W20 m ρ c (Proc.devRef .tc main_arg9) := W21_keep m ρ c main_arg9 (by decide)
    _ = W19 m ρ c (Proc.devRef .tc main_arg9) := W20_of_ne m ρ c main_arg9 (by decide)
    _ = W18 m ρ c (Proc.devRef .tc main_arg9) := W19_of_ne m ρ c main_arg9 (by decide)
    _ = W17 m ρ c (Proc.devRef .tc main_arg9) := W18_keep m ρ c main_arg9 (by decide)
    _ = W16 m ρ c (Proc.devRef .tc main_arg9) := W17_keep m ρ c main_arg9 (by decide)
    _ = W15 m ρ c (Proc.devRef .tc main_arg9) := W16_keep m ρ c main_arg9 (by decide)
    _ = W14 m ρ c (Proc.devRef .tc main_arg9) := W15_keep m ρ c main_arg9 (by decide)
    _ = W13 m ρ c (Proc.devRef .tc main_arg9) := W14_keep m ρ c main_arg9 (by decide)
    _ = W12 m ρ c (Proc.devRef .tc main_arg9) := W13_keep m ρ c main_arg9 (by decide)
    _ = W11 m ρ c (Proc.devRef .tc main_arg9) := W12_of_ne m ρ c main_arg9 (by decide)
    _ = W10 m ρ c (Proc.devRef .tc main_arg9) := W11_keep m ρ c main_arg9 (by decide)
    _ = W9 m ρ c (Proc.devRef .tc main_arg9) := W10_of_ne m ρ c main_arg9 (by decide)
    _ = W8 m ρ c (Proc.devRef .tc main_arg9) := W9_of_ne m ρ c main_arg9 (by decide)
    _ = W7 m ρ c (Proc.devRef .tc main_arg9) := W8_of_ne m ρ c main_arg9 (by decide)
    _ = W6 m ρ c (Proc.devRef .tc main_arg9) := W7_keep m ρ c main_arg9 (by decide)
    _ = W5 m ρ c (Proc.devRef .tc main_arg9) := W6_of_ne m ρ c main_arg9 (by decide)
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := W3_keep m ρ c main_arg9 (by decide)
    _ = W1 m ρ c (Proc.devRef .tc main_arg9) := W2_of_ne m ρ c main_arg9 (by decide)
    _ = W0 m ρ c (Proc.devRef .tc main_arg9) := W1_of_ne m ρ c main_arg9 (by decide)
    _ = m ((c : Thread nD τ).loc main_arg9) := rfl

theorem W23_main_arg10 (c : Dev nD) : W23 m ρ c (Proc.devRef .tc main_arg10) = m ((c : Thread nD τ).loc main_arg10) :=
  calc W23 m ρ c (Proc.devRef .tc main_arg10)
    _ = W22 m ρ c (Proc.devRef .tc main_arg10) := W23_keep m ρ c main_arg10 (by decide)
    _ = W21 m ρ c (Proc.devRef .tc main_arg10) := W22_of_ne m ρ c main_arg10 (by decide)
    _ = W20 m ρ c (Proc.devRef .tc main_arg10) := W21_keep m ρ c main_arg10 (by decide)
    _ = W19 m ρ c (Proc.devRef .tc main_arg10) := W20_of_ne m ρ c main_arg10 (by decide)
    _ = W18 m ρ c (Proc.devRef .tc main_arg10) := W19_of_ne m ρ c main_arg10 (by decide)
    _ = W17 m ρ c (Proc.devRef .tc main_arg10) := W18_keep m ρ c main_arg10 (by decide)
    _ = W16 m ρ c (Proc.devRef .tc main_arg10) := W17_keep m ρ c main_arg10 (by decide)
    _ = W15 m ρ c (Proc.devRef .tc main_arg10) := W16_keep m ρ c main_arg10 (by decide)
    _ = W14 m ρ c (Proc.devRef .tc main_arg10) := W15_keep m ρ c main_arg10 (by decide)
    _ = W13 m ρ c (Proc.devRef .tc main_arg10) := W14_keep m ρ c main_arg10 (by decide)
    _ = W12 m ρ c (Proc.devRef .tc main_arg10) := W13_keep m ρ c main_arg10 (by decide)
    _ = W11 m ρ c (Proc.devRef .tc main_arg10) := W12_of_ne m ρ c main_arg10 (by decide)
    _ = W10 m ρ c (Proc.devRef .tc main_arg10) := W11_keep m ρ c main_arg10 (by decide)
    _ = W9 m ρ c (Proc.devRef .tc main_arg10) := W10_of_ne m ρ c main_arg10 (by decide)
    _ = W8 m ρ c (Proc.devRef .tc main_arg10) := W9_of_ne m ρ c main_arg10 (by decide)
    _ = W7 m ρ c (Proc.devRef .tc main_arg10) := W8_of_ne m ρ c main_arg10 (by decide)
    _ = W6 m ρ c (Proc.devRef .tc main_arg10) := W7_keep m ρ c main_arg10 (by decide)
    _ = W5 m ρ c (Proc.devRef .tc main_arg10) := W6_of_ne m ρ c main_arg10 (by decide)
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := W3_keep m ρ c main_arg10 (by decide)
    _ = W1 m ρ c (Proc.devRef .tc main_arg10) := W2_of_ne m ρ c main_arg10 (by decide)
    _ = W0 m ρ c (Proc.devRef .tc main_arg10) := W1_of_ne m ρ c main_arg10 (by decide)
    _ = m ((c : Thread nD τ).loc main_arg10) := rfl

theorem W23_main_arg11 (c : Dev nD) : W23 m ρ c (Proc.devRef .tc main_arg11) = m ((c : Thread nD τ).loc main_arg11) :=
  calc W23 m ρ c (Proc.devRef .tc main_arg11)
    _ = W22 m ρ c (Proc.devRef .tc main_arg11) := W23_keep m ρ c main_arg11 (by decide)
    _ = W21 m ρ c (Proc.devRef .tc main_arg11) := W22_of_ne m ρ c main_arg11 (by decide)
    _ = W20 m ρ c (Proc.devRef .tc main_arg11) := W21_keep m ρ c main_arg11 (by decide)
    _ = W19 m ρ c (Proc.devRef .tc main_arg11) := W20_of_ne m ρ c main_arg11 (by decide)
    _ = W18 m ρ c (Proc.devRef .tc main_arg11) := W19_of_ne m ρ c main_arg11 (by decide)
    _ = W17 m ρ c (Proc.devRef .tc main_arg11) := W18_keep m ρ c main_arg11 (by decide)
    _ = W16 m ρ c (Proc.devRef .tc main_arg11) := W17_keep m ρ c main_arg11 (by decide)
    _ = W15 m ρ c (Proc.devRef .tc main_arg11) := W16_keep m ρ c main_arg11 (by decide)
    _ = W14 m ρ c (Proc.devRef .tc main_arg11) := W15_keep m ρ c main_arg11 (by decide)
    _ = W13 m ρ c (Proc.devRef .tc main_arg11) := W14_keep m ρ c main_arg11 (by decide)
    _ = W12 m ρ c (Proc.devRef .tc main_arg11) := W13_keep m ρ c main_arg11 (by decide)
    _ = W11 m ρ c (Proc.devRef .tc main_arg11) := W12_of_ne m ρ c main_arg11 (by decide)
    _ = W10 m ρ c (Proc.devRef .tc main_arg11) := W11_keep m ρ c main_arg11 (by decide)
    _ = W9 m ρ c (Proc.devRef .tc main_arg11) := W10_of_ne m ρ c main_arg11 (by decide)
    _ = W8 m ρ c (Proc.devRef .tc main_arg11) := W9_of_ne m ρ c main_arg11 (by decide)
    _ = W7 m ρ c (Proc.devRef .tc main_arg11) := W8_of_ne m ρ c main_arg11 (by decide)
    _ = W6 m ρ c (Proc.devRef .tc main_arg11) := W7_keep m ρ c main_arg11 (by decide)
    _ = W5 m ρ c (Proc.devRef .tc main_arg11) := W6_of_ne m ρ c main_arg11 (by decide)
    _ = W4 m ρ c (Proc.devRef .tc main_arg11) := W5_of_ne m ρ c main_arg11 (by decide)
    _ = W3 m ρ c (Proc.devRef .tc main_arg11) := W4_of_ne m ρ c main_arg11 (by decide)
    _ = W2 m ρ c (Proc.devRef .tc main_arg11) := W3_keep m ρ c main_arg11 (by decide)
    _ = W1 m ρ c (Proc.devRef .tc main_arg11) := W2_of_ne m ρ c main_arg11 (by decide)
    _ = W0 m ρ c (Proc.devRef .tc main_arg11) := W1_of_ne m ρ c main_arg11 (by decide)
    _ = m ((c : Thread nD τ).loc main_arg11) := rfl

theorem W23_main_arg12 (c : Dev nD) : W23 m ρ c (Proc.devRef .tc main_arg12) = m ((c : Thread nD τ).loc main_arg12) :=
  calc W23 m ρ c (Proc.devRef .tc main_arg12)
    _ = W22 m ρ c (Proc.devRef .tc main_arg12) := W23_keep m ρ c main_arg12 (by decide)
    _ = W21 m ρ c (Proc.devRef .tc main_arg12) := W22_of_ne m ρ c main_arg12 (by decide)
    _ = W20 m ρ c (Proc.devRef .tc main_arg12) := W21_keep m ρ c main_arg12 (by decide)
    _ = W19 m ρ c (Proc.devRef .tc main_arg12) := W20_of_ne m ρ c main_arg12 (by decide)
    _ = W18 m ρ c (Proc.devRef .tc main_arg12) := W19_of_ne m ρ c main_arg12 (by decide)
    _ = W17 m ρ c (Proc.devRef .tc main_arg12) := W18_keep m ρ c main_arg12 (by decide)
    _ = W16 m ρ c (Proc.devRef .tc main_arg12) := W17_keep m ρ c main_arg12 (by decide)
    _ = W15 m ρ c (Proc.devRef .tc main_arg12) := W16_keep m ρ c main_arg12 (by decide)
    _ = W14 m ρ c (Proc.devRef .tc main_arg12) := W15_keep m ρ c main_arg12 (by decide)
    _ = W13 m ρ c (Proc.devRef .tc main_arg12) := W14_keep m ρ c main_arg12 (by decide)
    _ = W12 m ρ c (Proc.devRef .tc main_arg12) := W13_keep m ρ c main_arg12 (by decide)
    _ = W11 m ρ c (Proc.devRef .tc main_arg12) := W12_of_ne m ρ c main_arg12 (by decide)
    _ = W10 m ρ c (Proc.devRef .tc main_arg12) := W11_keep m ρ c main_arg12 (by decide)
    _ = W9 m ρ c (Proc.devRef .tc main_arg12) := W10_of_ne m ρ c main_arg12 (by decide)
    _ = W8 m ρ c (Proc.devRef .tc main_arg12) := W9_of_ne m ρ c main_arg12 (by decide)
    _ = W7 m ρ c (Proc.devRef .tc main_arg12) := W8_of_ne m ρ c main_arg12 (by decide)
    _ = W6 m ρ c (Proc.devRef .tc main_arg12) := W7_keep m ρ c main_arg12 (by decide)
    _ = W5 m ρ c (Proc.devRef .tc main_arg12) := W6_of_ne m ρ c main_arg12 (by decide)
    _ = W4 m ρ c (Proc.devRef .tc main_arg12) := W5_of_ne m ρ c main_arg12 (by decide)
    _ = W3 m ρ c (Proc.devRef .tc main_arg12) := W4_of_ne m ρ c main_arg12 (by decide)
    _ = W2 m ρ c (Proc.devRef .tc main_arg12) := W3_keep m ρ c main_arg12 (by decide)
    _ = W1 m ρ c (Proc.devRef .tc main_arg12) := W2_of_ne m ρ c main_arg12 (by decide)
    _ = W0 m ρ c (Proc.devRef .tc main_arg12) := W1_of_ne m ρ c main_arg12 (by decide)
    _ = m ((c : Thread nD τ).loc main_arg12) := rfl

end Cert.KernelIdeal.Hand

end
-- ==== Proof.KI.MainData.lean ====
import proofs.«157460_j63591285784858_2_alg».proof.Proof.KI.MainFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The proof data of the twelve pipelines and the thread state between items

Every pipeline's proof data is taken at the buffer contents its region is entered with. Between two items a core
holds every unscoped buffer whole at that boundary's contents, its generator register at some state, and owes
nothing. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents. -/
def pdats : (p : Fin 12) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V3 m ρ) c
  | ⟨3, _⟩ => fun c => dat3 (V4 m ρ) c
  | ⟨4, _⟩ => fun c => dat4 (V5 m ρ) c
  | ⟨5, _⟩ => fun c => dat5 (V7 m ρ) c
  | ⟨6, _⟩ => fun c => dat6 (V8 m ρ) c
  | ⟨7, _⟩ => fun c => dat7 (V9 m ρ) c
  | ⟨8, _⟩ => fun c => dat8 (V11 m ρ) c
  | ⟨9, _⟩ => fun c => dat9 (V18 m ρ) c
  | ⟨10, _⟩ => fun c => dat10 (V19 m ρ) c
  | ⟨11, _⟩ => fun c => dat11 (V21 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it runs to those
    references at the contents after its operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W23 m ρ c) ∗ ∃ r, prngReg c r)
/-- What the last host stretch leaves is the last thread state beside the core owing nothing. -/
theorem last_state (c : Dev nD) :
    (iprop(StableHlo.held (c : Thread nD τ) (Pipeline.ucRefs τ sig) (W23 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

end Cert.KernelIdeal.Hand

end
-- ==== Proof.Algebraic.lean ====
/-
  The last conjunct, assembled: at the ideal float values the kernel's program and the reference, run from memories
  that agree on the thirteen arguments, both terminate, leave the arguments as they were, and end with the same result
  array. The kernel's side reads its result and its arguments off the contents the program's last boundary holds; the
  reference's side is its run with the result at the four layers of the arguments. The two meet in one whole-array
  function `kval` of the thirteen arguments: the kernel's result is `kval` of its arguments (`hval`), and for finite
  inputs, scales and shifts the reference's four layers are `kval` too (`hnet`, the law that joins the two sides;
  finiteness comes from the precondition). The kernel's run (`hrun`), `hval` and `hnet` are taken as hypotheses here.
-/
import proofs.«157460_j63591285784858_2_alg».proof.Defs
import proofs.«157460_j63591285784858_2_alg».proof.Proof.Gen.KernelIdeal
import proofs.«157460_j63591285784858_2_alg».proof.Proof.Gen.ReferenceIdeal
import proofs.«157460_j63591285784858_2_alg».proof.Proof.Gen.Pre_finite_inputs
import proofs.«157460_j63591285784858_2_alg».proof.Proof.RefValue
import proofs.«157460_j63591285784858_2_alg».proof.Proof.PreFinite
import proofs.«157460_j63591285784858_2_alg».proof.Proof.KI.MainData

set_option maxRecDepth 16384

noncomputable section

namespace Cert.Proof

open Idealize.ShloMosaic Idealize.ShloMosaic.TcCoe Idealize.SL.Sem

/-- A whole-array function of the thirteen arguments: the input, then per layer the weights, the scale and the shift. -/
abbrev KVal : Type :=
  FVec Ideal Cert.KernelIdeal.S4096x2048 .f32 → FVec Ideal Cert.KernelIdeal.S4096x2048 .f32 → FVec Ideal Cert.KernelIdeal.S4096 .f32 → FVec Ideal Cert.KernelIdeal.S4096 .f32 → FVec Ideal Cert.KernelIdeal.S4096x4096 .f32 → FVec Ideal Cert.KernelIdeal.S4096 .f32 → FVec Ideal Cert.KernelIdeal.S4096 .f32 → FVec Ideal Cert.KernelIdeal.S4096x4096 .f32 → FVec Ideal Cert.KernelIdeal.S4096 .f32 → FVec Ideal Cert.KernelIdeal.S4096 .f32 → FVec Ideal Cert.KernelIdeal.S1000x4096 .f32 → FVec Ideal Cert.KernelIdeal.S1000 .f32 → FVec Ideal Cert.KernelIdeal.S1000 .f32 → FVec Ideal Cert.KernelIdeal.S4096x1000 .f32

theorem algebraic_of (kval : KVal)
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD, ∀ b ∈ Pipeline.ucRefs Cert.KernelIdeal.τ Cert.KernelIdeal.sig,
          r.2.mem (((c : Thread Cert.KernelIdeal.nD Cert.KernelIdeal.τ)).1, b) = Cert.KernelIdeal.Hand.W23 m ρ c b))
    (hval : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      Cert.KernelIdeal.Hand.W23 m ρ c (Proc.devRef .tc Cert.KernelIdeal.main_v23)
        = kval (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6))
            (m ((c.tc : Thread Cert.KernelIdeal.nD Cert.KernelIdeal.τ).loc Cert.KernelIdeal.main_arg7))
            (m ((c.tc : Thread Cert.KernelIdeal.nD Cert.KernelIdeal.τ).loc Cert.KernelIdeal.main_arg8))
            (m ((c.tc : Thread Cert.KernelIdeal.nD Cert.KernelIdeal.τ).loc Cert.KernelIdeal.main_arg9))
            (m ((c.tc : Thread Cert.KernelIdeal.nD Cert.KernelIdeal.τ).loc Cert.KernelIdeal.main_arg10))
            (m ((c.tc : Thread Cert.KernelIdeal.nD Cert.KernelIdeal.τ).loc Cert.KernelIdeal.main_arg11))
            (m ((c.tc : Thread Cert.KernelIdeal.nD Cert.KernelIdeal.τ).loc Cert.KernelIdeal.main_arg12)))
    (hnet : ∀ (x : FVec Ideal Cert.ReferenceIdeal.S4096x2048 .f32)
        (W0 : FVec Ideal Cert.ReferenceIdeal.S4096x2048 .f32)
        (g0 : FVec Ideal Cert.ReferenceIdeal.S4096 .f32)
        (b0 : FVec Ideal Cert.ReferenceIdeal.S4096 .f32)
        (W1 : FVec Ideal Cert.ReferenceIdeal.S4096x4096 .f32)
        (g1 : FVec Ideal Cert.ReferenceIdeal.S4096 .f32)
        (b1 : FVec Ideal Cert.ReferenceIdeal.S4096 .f32)
        (W2 : FVec Ideal Cert.ReferenceIdeal.S4096x4096 .f32)
        (g2 : FVec Ideal Cert.ReferenceIdeal.S4096 .f32)
        (b2 : FVec Ideal Cert.ReferenceIdeal.S4096 .f32)
        (W3 : FVec Ideal Cert.ReferenceIdeal.S1000x4096 .f32)
        (g3 : FVec Ideal Cert.ReferenceIdeal.S1000 .f32)
        (b3 : FVec Ideal Cert.ReferenceIdeal.S1000 .f32),
      (∀ i, ∃ r : ℝ, x i = (r : EReal)) →
      (∀ i, ∃ r : ℝ, g0 i = (r : EReal)) →
      (∀ i, ∃ r : ℝ, b0 i = (r : EReal)) →
      (∀ i, ∃ r : ℝ, g1 i = (r : EReal)) →
      (∀ i, ∃ r : ℝ, b1 i = (r : EReal)) →
      (∀ i, ∃ r : ℝ, g2 i = (r : EReal)) →
      (∀ i, ∃ r : ℝ, b2 i = (r : EReal)) →
      (∀ i, ∃ r : ℝ, g3 i = (r : EReal)) →
      (∀ i, ∃ r : ℝ, b3 i = (r : EReal)) →
      Cert.ReferenceIdeal.HandRun.layer3 (Cert.ReferenceIdeal.HandRun.layer2 (Cert.ReferenceIdeal.HandRun.layer1 (Cert.ReferenceIdeal.HandRun.layer0 x W0 g0 b0) W1 g1 b1) W2 g2 b2) W3 g3 b3
        = kval x W0 g0 b0 W1 g1 b1 W2 g2 b2 W3 g3 b3) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m g m' g' hpre hagree
  refine ⟨fun c => kval (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run (Cert.KernelIdeal.defs (F := Ideal)) (onTc (τ := Cert.KernelIdeal.τ) (Cert.KernelIdeal.main (F := Ideal))) ⟨m, fun _ => 0, g⟩).mono
      (Q := fun r => ∀ c : Dev Cert.KernelIdeal.nD, ∀ b ∈ Pipeline.ucRefs Cert.KernelIdeal.τ Cert.KernelIdeal.sig,
        r.2.mem (((c : Thread Cert.KernelIdeal.nD Cert.KernelIdeal.τ)).1, b) = Cert.KernelIdeal.Hand.W23 m g c b)
      (fun r h c => ⟨(h c _ (Cert.KernelIdeal.Hand.mem_uc Cert.KernelIdeal.main_v23 (by decide))).trans (hval m g c),
        (h c _ (Cert.KernelIdeal.Hand.mem_uc Cert.KernelIdeal.main_arg0 (by decide))).trans (Cert.KernelIdeal.Hand.W23_main_arg0 m g c),
        (h c _ (Cert.KernelIdeal.Hand.mem_uc Cert.KernelIdeal.main_arg1 (by decide))).trans (Cert.KernelIdeal.Hand.W23_main_arg1 m g c),
        (h c _ (Cert.KernelIdeal.Hand.mem_uc Cert.KernelIdeal.main_arg2 (by decide))).trans (Cert.KernelIdeal.Hand.W23_main_arg2 m g c),
        (h c _ (Cert.KernelIdeal.Hand.mem_uc Cert.KernelIdeal.main_arg3 (by decide))).trans (Cert.KernelIdeal.Hand.W23_main_arg3 m g c),
        (h c _ (Cert.KernelIdeal.Hand.mem_uc Cert.KernelIdeal.main_arg4 (by decide))).trans (Cert.KernelIdeal.Hand.W23_main_arg4 m g c),
        (h c _ (Cert.KernelIdeal.Hand.mem_uc Cert.KernelIdeal.main_arg5 (by decide))).trans (Cert.KernelIdeal.Hand.W23_main_arg5 m g c),
        (h c _ (Cert.KernelIdeal.Hand.mem_uc Cert.KernelIdeal.main_arg6 (by decide))).trans (Cert.KernelIdeal.Hand.W23_main_arg6 m g c),
        (h c _ (Cert.KernelIdeal.Hand.mem_uc Cert.KernelIdeal.main_arg7 (by decide))).trans (Cert.KernelIdeal.Hand.W23_main_arg7 m g c),
        (h c _ (Cert.KernelIdeal.Hand.mem_uc Cert.KernelIdeal.main_arg8 (by decide))).trans (Cert.KernelIdeal.Hand.W23_main_arg8 m g c),
        (h c _ (Cert.KernelIdeal.Hand.mem_uc Cert.KernelIdeal.main_arg9 (by decide))).trans (Cert.KernelIdeal.Hand.W23_main_arg9 m g c),
        (h c _ (Cert.KernelIdeal.Hand.mem_uc Cert.KernelIdeal.main_arg10 (by decide))).trans (Cert.KernelIdeal.Hand.W23_main_arg10 m g c),
        (h c _ (Cert.KernelIdeal.Hand.mem_uc Cert.KernelIdeal.main_arg11 (by decide))).trans (Cert.KernelIdeal.Hand.W23_main_arg11 m g c),
        (h c _ (Cert.KernelIdeal.Hand.mem_uc Cert.KernelIdeal.main_arg12 (by decide))).trans (Cert.KernelIdeal.Hand.W23_main_arg12 m g c)⟩)
      (hrun m g)
  · refine (θ_run (Cert.ReferenceIdeal.defs (F := Ideal)) (onTc (τ := Cert.ReferenceIdeal.τ) (Cert.ReferenceIdeal.main (F := Ideal))) ⟨m', fun _ => 0, g'⟩).mono
      (fun r h c => ⟨(h c).1.trans ?_, (h c).2⟩) (Cert.ReferenceIdeal.HandRun.run_value m' g')
    obtain ⟨a0, a1, a2, a3, a4, a5, a6, a7, a8, a9, a10, a11, a12⟩ := hagree c
    obtain ⟨f0, f1, f2, f3, f4, f5, f6, f7, f8, f9, f10, f11, f12⟩ := Cert.PreFinite.finite_inputs m hpre c
    unfold Cert.ReferenceIdeal.HandRun.value
    rw [a0, a1, a2, a3, a4, a5, a6, a7, a8, a9, a10, a11, a12]
    exact hnet _ _ _ _ _ _ _ _ _ _ _ _ _ f0 f2 f3 f5 f6 f8 f9 f11 f12

end Cert.Proof

end
-- ==== Proof.KI.R1Spec.lean ====
/-
  Whole-array functions of a matrix product followed by per-column batch statistics, and the bookkeeping that lets
  a tiled computation be compared with them.

  For `X : [A, K]` and `W : [A', K]` (both row-major, the contraction over the second axis of each):
    • `prod X W` at `(a, b)` is `∑ p, X (a, p) * W (b, p)` — the product of `X` with the transpose of `W`;
    • `colMean N H` at `(0, b)` is the sum of column `b` of `H` times the reciprocal of `N`;
    • `colVar N H` at `(0, b)` is `max (mean of squares − squared mean) 0` of that column.
  A tiled kernel reaches the same sums block by block. To state its partial sums without carrying bounds proofs,
  `rd X a b` reads an array at natural-number coordinates (zero outside the array) and `dotN` is the contraction over
  an initial segment of the reduction axis; `sum_range_blocks` cuts a sum over `m * B` consecutive naturals into `m`
  blocks of `B`. All generic in the extents.
-/
import Idealize.ShloMosaic.PureOps.Ideal
import Idealize.ShloMosaic.PureOps.Ideal.Laws
import Idealize.ShloMosaic.Lib.ValueIdx

noncomputable section

namespace Cert.MatStats

open Idealize.ShloMosaic Idealize.ShloMosaic.ValueIdx
open scoped BigOperators

/-! ## An array read at natural-number coordinates -/

/-- `X` at row `a`, column `b`; zero outside the array. -/
def rd {A B : ℕ} (X : (⟨2, ![A, B]⟩ : Shape).Idx → EReal) (a b : ℕ) : EReal :=
  if h : a < A ∧ b < B then X (ix2 ⟨a, h.1⟩ ⟨b, h.2⟩) else 0

theorem rd_of_lt {A B : ℕ} (X : (⟨2, ![A, B]⟩ : Shape).Idx → EReal) {a b : ℕ} (ha : a < A) (hb : b < B) :
    rd X a b = X (ix2 ⟨a, ha⟩ ⟨b, hb⟩) := dif_pos ⟨ha, hb⟩

theorem rd_fin {A B : ℕ} (X : (⟨2, ![A, B]⟩ : Shape).Idx → EReal) (a : Fin A) (b : Fin B) :
    rd X a.val b.val = X (ix2 a b) := rd_of_lt X a.isLt b.isLt

/-- The contraction of row `a` of `X` with row `b` of `W` over the first `K` columns. -/
def dotN {A A' B : ℕ} (X : (⟨2, ![A, B]⟩ : Shape).Idx → EReal) (W : (⟨2, ![A', B]⟩ : Shape).Idx → EReal) (K a b : ℕ) : EReal :=
  ∑ p ∈ Finset.range K, rd X a p * rd W b p

/-! ## Sums over consecutive blocks -/

/-- A sum over `m * B` consecutive naturals is the sum over `m` blocks of `B`. -/
theorem sum_range_blocks {M : Type*} [AddCommMonoid M] (f : ℕ → M) (m B : ℕ) :
    ∑ p ∈ Finset.range (m * B), f p = ∑ k ∈ Finset.range m, ∑ p ∈ Finset.range B, f (B * k + p) := by
  induction m with
  | zero => simp
  | succ m ih =>
    rw [Nat.succ_mul, Finset.sum_range_add, ih, Finset.sum_range_succ, Nat.mul_comm B m]

/-- A sum over `Fin n` of a function of the value is the sum over `range n`. -/
theorem sum_fin_eq_range {M : Type*} [AddCommMonoid M] (f : ℕ → M) (n : ℕ) :
    ∑ i : Fin n, f i.val = ∑ i ∈ Finset.range n, f i := (Finset.sum_range f).symm

/-! ## The whole-array functions -/

/-- The product of `X` with the transpose of `W`. -/
def prod {A A' K : ℕ} (X : (⟨2, ![A, K]⟩ : Shape).Idx → EReal) (W : (⟨2, ![A', K]⟩ : Shape).Idx → EReal) :
    (⟨2, ![A, A']⟩ : Shape).Idx → EReal :=
  fun j => ∑ p : Fin K, X (ix2 (j 0) p) * W (ix2 (j 1) p)

theorem prod_apply {A A' K : ℕ} (X : (⟨2, ![A, K]⟩ : Shape).Idx → EReal) (W : (⟨2, ![A', K]⟩ : Shape).Idx → EReal)
    (a : Fin A) (b : Fin A') : prod X W (ix2 a b) = ∑ p : Fin K, X (ix2 a p) * W (ix2 b p) := rfl

/-- … is the contraction over all `K` columns, read at natural-number coordinates. -/
theorem prod_eq_dotN {A A' K : ℕ} (X : (⟨2, ![A, K]⟩ : Shape).Idx → EReal) (W : (⟨2, ![A', K]⟩ : Shape).Idx → EReal)
    (a : Fin A) (b : Fin A') : prod X W (ix2 a b) = dotN X W K a.val b.val := by
  rw [prod_apply, dotN, ← sum_fin_eq_range (fun p => rd X a.val p * rd W b.val p)]
  exact Finset.sum_congr rfl fun p _ => by rw [rd_fin, rd_fin]

theorem rd_prod {A A' K : ℕ} (X : (⟨2, ![A, K]⟩ : Shape).Idx → EReal) (W : (⟨2, ![A', K]⟩ : Shape).Idx → EReal)
    {a b : ℕ} (ha : a < A) (hb : b < A') : rd (prod X W) a b = dotN X W K a b := by
  rw [rd_of_lt _ ha hb]; exact prod_eq_dotN X W ⟨a, ha⟩ ⟨b, hb⟩

/-- The column sums of `H` times the reciprocal of `N`. -/
def colMean {A B : ℕ} (N : ℝ) (H : (⟨2, ![A, B]⟩ : Shape).Idx → EReal) : (⟨2, ![1, B]⟩ : Shape).Idx → EReal :=
  fun j => (∑ a : Fin A, H (ix2 a (j 1))) * ((1 / N : ℝ) : EReal)

theorem colMean_apply {A B : ℕ} (N : ℝ) (H : (⟨2, ![A, B]⟩ : Shape).Idx → EReal) (z : Fin 1) (b : Fin B) :
    colMean N H (ix2 z b) = (∑ a : Fin A, H (ix2 a b)) * ((1 / N : ℝ) : EReal) := rfl

/-- The clamped difference "mean of squares − squared mean" of each column. -/
def colVar {A B : ℕ} (N : ℝ) (H : (⟨2, ![A, B]⟩ : Shape).Idx → EReal) : (⟨2, ![1, B]⟩ : Shape).Idx → EReal :=
  fun j => max ((∑ a : Fin A, H (ix2 a (j 1)) * H (ix2 a (j 1))) * ((1 / N : ℝ) : EReal) - colMean N H j * colMean N H j) 0

theorem colVar_apply {A B : ℕ} (N : ℝ) (H : (⟨2, ![A, B]⟩ : Shape).Idx → EReal) (z : Fin 1) (b : Fin B) :
    colVar N H (ix2 z b)
      = max ((∑ a : Fin A, H (ix2 a b) * H (ix2 a b)) * ((1 / N : ℝ) : EReal)
          - (∑ a : Fin A, H (ix2 a b)) * ((1 / N : ℝ) : EReal) * ((∑ a : Fin A, H (ix2 a b)) * ((1 / N : ℝ) : EReal))) 0 := rfl

/-- A column sum of `H`, as a sum of natural-number reads over `m` row blocks of `R` rows (`m * R` the row count). -/
theorem colsum_blocks {A B : ℕ} (H : (⟨2, ![A, B]⟩ : Shape).Idx → EReal) (m R : ℕ) (hA : m * R = A) (b : Fin B) :
    ∑ a : Fin A, H (ix2 a b) = ∑ i ∈ Finset.range m, ∑ r ∈ Finset.range R, rd H (R * i + r) b.val := by
  subst hA
  rw [← sum_range_blocks (fun a => rd H a b.val), ← sum_fin_eq_range (fun a => rd H a b.val)]
  exact Finset.sum_congr rfl fun a _ => (rd_fin H a b).symm

/-- The same for the squares. -/
theorem colsumsq_blocks {A B : ℕ} (H : (⟨2, ![A, B]⟩ : Shape).Idx → EReal) (m R : ℕ) (hA : m * R = A) (b : Fin B) :
    ∑ a : Fin A, H (ix2 a b) * H (ix2 a b)
      = ∑ i ∈ Finset.range m, ∑ r ∈ Finset.range R, rd H (R * i + r) b.val * rd H (R * i + r) b.val := by
  subst hA
  rw [← sum_range_blocks (fun a => rd H a b.val * rd H a b.val), ← sum_fin_eq_range (fun a => rd H a b.val * rd H a b.val)]
  exact Finset.sum_congr rfl fun a _ => by rw [rd_fin]

end Cert.MatStats

end
-- ==== Proof.LibBatchVar.lean ====
/-
  Batch statistics of a finite family of finite extended reals, the way a batch-normalisation kernel
  and its textbook reference each spell them, and the proof that the two spellings agree.

  Over an arbitrary finite index type `ι` (the rows of a batch), a family `h : ι → EReal` of FINITE values
  and a positive real `N` equal to the number of rows:
    • the kernel's mean, "sum times the reciprocal of N", is the reference's "sum divided by N";
    • the kernel's variance, "max (mean of squares − squared mean) 0", is the reference's "mean of the
      squared deviations" — the identity E[h²] − μ² = E[(h − μ)²] ≥ 0 over the reals, carried to the
      extended reals through the coercion;
    • mean and variance are finite, the variance is nonnegative, and the reciprocal square root of
      "variance plus a positive real" is a positive finite number.
  Also: closure of finiteness under the arithmetic operations, finite sums, `max`, the sign, and division by
  a nonzero real; the coercion of a finite sum of reals; and the real numbers a few f32 words denote.
  Nothing here mentions a shape or an extent.
-/
import Idealize.ShloMosaic.PureOps.Ideal
import Idealize.ShloMosaic.PureOps.Ideal.Laws

noncomputable section

namespace Cert.LibBatchVar

open Idealize.ShloMosaic
open scoped BigOperators

/-! ## Finite extended reals and their closure -/

/-- An extended real is FINITE when it is the coercion of a real number. -/
abbrev IsFinite (x : EReal) : Prop := ∃ r : ℝ, x = (r : EReal)

theorem finite_coe (r : ℝ) : IsFinite (r : EReal) := ⟨r, rfl⟩
theorem finite_zero : IsFinite (0 : EReal) := ⟨0, rfl⟩
theorem finite_one : IsFinite (1 : EReal) := ⟨1, rfl⟩

theorem finite_add {x y : EReal} (hx : IsFinite x) (hy : IsFinite y) : IsFinite (x + y) := by
  obtain ⟨a, rfl⟩ := hx; obtain ⟨b, rfl⟩ := hy; exact ⟨a + b, (EReal.coe_add a b).symm⟩

theorem finite_neg {x : EReal} (hx : IsFinite x) : IsFinite (-x) := by
  obtain ⟨a, rfl⟩ := hx; exact ⟨-a, (EReal.coe_neg a).symm⟩

theorem finite_sub {x y : EReal} (hx : IsFinite x) (hy : IsFinite y) : IsFinite (x - y) := by
  obtain ⟨a, rfl⟩ := hx; obtain ⟨b, rfl⟩ := hy; exact ⟨a - b, (EReal.coe_sub a b).symm⟩

theorem finite_mul {x y : EReal} (hx : IsFinite x) (hy : IsFinite y) : IsFinite (x * y) := by
  obtain ⟨a, rfl⟩ := hx; obtain ⟨b, rfl⟩ := hy; exact ⟨a * b, (EReal.coe_mul a b).symm⟩

/-- The coercion is monotone, so it commutes with `max`. -/
theorem coe_max (a b : ℝ) : ((max a b : ℝ) : EReal) = max (a : EReal) (b : EReal) :=
  EReal.coe_strictMono.monotone.map_max

theorem finite_max {x y : EReal} (hx : IsFinite x) (hy : IsFinite y) : IsFinite (max x y) := by
  obtain ⟨a, rfl⟩ := hx; obtain ⟨b, rfl⟩ := hy; exact ⟨max a b, (coe_max a b).symm⟩

/-- The sign of any extended real, the infinities included, is one of the finite values -1, 0, 1. -/
theorem finite_sign (x : EReal) : IsFinite (Ideal.sign x) := by
  induction x using EReal.rec with
  | bot => exact ⟨-1, by rw [Ideal.sign_bot]; simp⟩
  | top => exact ⟨1, by rw [Ideal.sign_top]; simp⟩
  | coe r => exact ⟨_, rfl⟩

/-- Division by a nonzero real keeps a finite value finite. -/
theorem finite_div_coe {x : EReal} (hx : IsFinite x) {y : ℝ} (hy : y ≠ 0) : IsFinite (Ideal.div x (y : EReal)) := by
  rw [Ideal.div_coe hy]; exact finite_mul hx (finite_coe _)

/-- The coercion of a finite sum of reals is the sum of the coercions. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of finite values is finite. -/
theorem finite_sum {ι : Type*} (s : Finset ι) (h : ι → EReal) (hf : ∀ i ∈ s, IsFinite (h i)) :
    IsFinite (∑ i ∈ s, h i) := by
  classical
  induction s using Finset.induction_on with
  | empty => exact ⟨0, by simp⟩
  | insert a s ha ih =>
    rw [Finset.sum_insert ha]
    exact finite_add (hf a (Finset.mem_insert_self a s)) (ih fun i hi => hf i (Finset.mem_insert_of_mem hi))

theorem finite_univ_sum {ι : Type*} [Fintype ι] (h : ι → EReal) (hf : ∀ i, IsFinite (h i)) : IsFinite (∑ i, h i) :=
  finite_sum _ h fun i _ => hf i

/-- A contraction (a sum of products) of two finite families is finite. -/
theorem finite_sum_mul {κ : Type*} [Fintype κ] (a b : κ → EReal) (ha : ∀ k, IsFinite (a k)) (hb : ∀ k, IsFinite (b k)) :
    IsFinite (∑ k, a k * b k) :=
  finite_univ_sum _ fun k => finite_mul (ha k) (hb k)

/-- A family of finite values is the coercion of a family of reals. -/
theorem exists_real_family {ι : Type*} (h : ι → EReal) (hf : ∀ i, IsFinite (h i)) :
    ∃ g : ι → ℝ, h = fun i => (g i : EReal) := by
  choose g hg using hf
  exact ⟨g, funext hg⟩

/-! ## The identity over the reals -/

section Real

variable {ι : Type*} [Fintype ι]

/-- E[g²] − μ² = E[(g − μ)²], with μ the mean, every mean spelt "sum times 1/N", and `N` the number of terms. -/
theorem real_var_identity (g : ι → ℝ) {N : ℝ} (hN : (Fintype.card ι : ℝ) = N) (hpos : 0 < N) :
    (∑ i, g i * g i) * (1 / N) - (∑ i, g i) * (1 / N) * ((∑ i, g i) * (1 / N))
      = (∑ i, (g i - (∑ j, g j) * (1 / N)) * (g i - (∑ j, g j) * (1 / N))) * (1 / N) := by
  have hNne : N ≠ 0 := hpos.ne'
  generalize hm : (∑ j, g j) * (1 / N) = m
  have hS : ∑ i, g i = N * m := by rw [← hm]; field_simp
  have hexp : ∑ i, (g i - m) * (g i - m) = ∑ i, g i * g i - 2 * m * ∑ i, g i + N * (m * m) := by
    have h1 : ∀ i, (g i - m) * (g i - m) = g i * g i - 2 * m * g i + m * m := fun i => by ring
    simp only [h1]
    rw [Finset.sum_add_distrib, Finset.sum_sub_distrib, ← Finset.mul_sum, Finset.sum_const, Finset.card_univ,
      nsmul_eq_mul, hN]
  rw [hexp, hS]
  field_simp
  ring

/-- A mean of squared deviations (from any centre) is nonnegative. -/
theorem real_var_nonneg (g : ι → ℝ) (m : ℝ) {N : ℝ} (hpos : 0 < N) :
    0 ≤ (∑ i, (g i - m) * (g i - m)) * (1 / N) :=
  mul_nonneg (Finset.sum_nonneg fun i _ => mul_self_nonneg _) (by positivity)

end Real

/-! ## The statistics on the extended reals -/

section Stats

variable {ι : Type*} [Fintype ι]

/-- The kernel's mean (the sum times the reciprocal) is the reference's (the sum divided by `N`), at every family. -/
theorem mean_eq (h : ι → EReal) {N : ℝ} (hpos : 0 < N) :
    (∑ i, h i) * ((1 / N : ℝ) : EReal) = Ideal.div (∑ i, h i) (N : EReal) :=
  (Ideal.div_coe hpos.ne' _).symm

/-- Everything at once, with real witnesses: for a finite family over `N` rows there are a real `m` and a real
    `w ≥ 0` such that both spellings of the mean are `m` and both spellings of the variance are `w`. -/
theorem batch_stats (h : ι → EReal) (hfin : ∀ i, ∃ r : ℝ, h i = (r : EReal)) {N : ℝ}
    (hN : (Fintype.card ι : ℝ) = N) (hpos : 0 < N) :
    ∃ m w : ℝ, 0 ≤ w
      ∧ (∑ i, h i) * ((1 / N : ℝ) : EReal) = (m : EReal)
      ∧ Ideal.div (∑ i, h i) (N : EReal) = (m : EReal)
      ∧ max ((∑ i, h i * h i) * ((1 / N : ℝ) : EReal)
            - (∑ i, h i) * ((1 / N : ℝ) : EReal) * ((∑ i, h i) * ((1 / N : ℝ) : EReal))) 0 = (w : EReal)
      ∧ Ideal.div (∑ i, (h i - Ideal.div (∑ j, h j) (N : EReal)) * (h i - Ideal.div (∑ j, h j) (N : EReal))) (N : EReal)
          = (w : EReal) := by
  obtain ⟨g, rfl⟩ := exists_real_family h hfin
  have hNne : N ≠ 0 := hpos.ne'
  refine ⟨(∑ i, g i) * (1 / N), (∑ i, (g i - (∑ j, g j) * (1 / N)) * (g i - (∑ j, g j) * (1 / N))) * (1 / N),
    real_var_nonneg g _ hpos, ?_, ?_, ?_, ?_⟩
  · rw [← coe_sum, ← EReal.coe_mul]
  · rw [Ideal.div_coe hNne, ← coe_sum, ← EReal.coe_mul]
  · simp only [← EReal.coe_mul, ← coe_sum, ← EReal.coe_sub]
    rw [real_var_identity g hN hpos]
    exact max_eq_left (EReal.coe_nonneg.mpr (real_var_nonneg g _ hpos))
  · simp only [Ideal.div_coe hNne, ← EReal.coe_mul, ← coe_sum, ← EReal.coe_sub]

/-- The two spellings of the variance agree on a finite family. -/
theorem var_eq (h : ι → EReal) (hfin : ∀ i, ∃ r : ℝ, h i = (r : EReal)) {N : ℝ}
    (hN : (Fintype.card ι : ℝ) = N) (hpos : 0 < N) :
    max ((∑ i, h i * h i) * ((1 / N : ℝ) : EReal)
          - (∑ i, h i) * ((1 / N : ℝ) : EReal) * ((∑ i, h i) * ((1 / N : ℝ) : EReal))) 0
      = Ideal.div (∑ i, (h i - Ideal.div (∑ j, h j) (N : EReal)) * (h i - Ideal.div (∑ j, h j) (N : EReal))) (N : EReal) := by
  obtain ⟨m, w, _, _, _, hk, hr⟩ := batch_stats h hfin hN hpos
  rw [hk, hr]

/-- The same with the sums and the kernel's mean NAMED, for a goal in which they are not spelt out: whatever
    `S`, `Q`, `μ` are, if they are the sum, the sum of squares and the kernel's mean, then … -/
theorem var_eq_of_eq (h : ι → EReal) (hfin : ∀ i, ∃ r : ℝ, h i = (r : EReal)) {N : ℝ}
    (hN : (Fintype.card ι : ℝ) = N) (hpos : 0 < N) {S Q μ μ' : EReal} (hS : S = ∑ i, h i) (hQ : Q = ∑ i, h i * h i)
    (hμ : μ = S * ((1 / N : ℝ) : EReal)) (hμ' : μ' = Ideal.div S (N : EReal)) :
    max (Q * ((1 / N : ℝ) : EReal) - μ * μ) 0 = Ideal.div (∑ i, (h i - μ') * (h i - μ')) (N : EReal) := by
  subst hμ hμ' hS hQ
  exact var_eq h hfin hN hpos

/-- The mean of a finite family is finite (either spelling: `mean_eq`). -/
theorem mean_finite (h : ι → EReal) (hfin : ∀ i, ∃ r : ℝ, h i = (r : EReal)) {N : ℝ} (hpos : 0 < N) :
    ∃ r : ℝ, Ideal.div (∑ i, h i) (N : EReal) = (r : EReal) :=
  finite_div_coe (finite_univ_sum h hfin) hpos.ne'

/-- The variance of a finite family is a nonnegative real. -/
theorem var_finite_nonneg (h : ι → EReal) (hfin : ∀ i, ∃ r : ℝ, h i = (r : EReal)) {N : ℝ}
    (hN : (Fintype.card ι : ℝ) = N) (hpos : 0 < N) :
    ∃ w : ℝ, 0 ≤ w ∧
      Ideal.div (∑ i, (h i - Ideal.div (∑ j, h j) (N : EReal)) * (h i - Ideal.div (∑ j, h j) (N : EReal))) (N : EReal)
        = (w : EReal) := by
  obtain ⟨m, w, hw, _, _, _, hr⟩ := batch_stats h hfin hN hpos
  exact ⟨w, hw, hr⟩

theorem var_finite (h : ι → EReal) (hfin : ∀ i, ∃ r : ℝ, h i = (r : EReal)) {N : ℝ}
    (hN : (Fintype.card ι : ℝ) = N) (hpos : 0 < N) :
    ∃ w : ℝ,
      Ideal.div (∑ i, (h i - Ideal.div (∑ j, h j) (N : EReal)) * (h i - Ideal.div (∑ j, h j) (N : EReal))) (N : EReal)
        = (w : EReal) := by
  obtain ⟨w, _, hr⟩ := var_finite_nonneg h hfin hN hpos
  exact ⟨w, hr⟩

theorem var_nonneg (h : ι → EReal) (hfin : ∀ i, ∃ r : ℝ, h i = (r : EReal)) {N : ℝ}
    (hN : (Fintype.card ι : ℝ) = N) (hpos : 0 < N) :
    0 ≤ Ideal.div (∑ i, (h i - Ideal.div (∑ j, h j) (N : EReal)) * (h i - Ideal.div (∑ j, h j) (N : EReal))) (N : EReal) := by
  obtain ⟨w, hw, hr⟩ := var_finite_nonneg h hfin hN hpos
  rw [hr]; exact EReal.coe_nonneg.mpr hw

/-! ## The reciprocal square root -/

/-- At a positive real the reciprocal square root is the real one. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- … and positive. -/
theorem inv_sqrt_pos {r : ℝ} (hr : 0 < r) : 0 < (Real.sqrt r)⁻¹ := inv_pos.mpr (Real.sqrt_pos.mpr hr)

/-- A nonnegative real plus a positive one: the reciprocal square root is a positive real. -/
theorem rsqrt_add_pos {w e : ℝ} (hw : 0 ≤ w) (he : 0 < e) :
    ∃ r : ℝ, 0 < r ∧ Ideal.rsqrt ((w : EReal) + (e : EReal)) = (r : EReal) := by
  have hpos : 0 < w + e := by linarith
  exact ⟨_, inv_sqrt_pos hpos, by rw [← EReal.coe_add]; exact rsqrt_coe_pos hpos⟩

/-- The reciprocal square root of "variance plus a positive real" is a positive finite number. -/
theorem rsqrt_var_finite (h : ι → EReal) (hfin : ∀ i, ∃ r : ℝ, h i = (r : EReal)) {N : ℝ}
    (hN : (Fintype.card ι : ℝ) = N) (hpos : 0 < N) {eps : ℝ} (heps : 0 < eps) :
    ∃ r : ℝ, 0 < r ∧
      Ideal.rsqrt (Ideal.div (∑ i, (h i - Ideal.div (∑ j, h j) (N : EReal)) * (h i - Ideal.div (∑ j, h j) (N : EReal)))
          (N : EReal) + (eps : EReal)) = (r : EReal) := by
  obtain ⟨w, hw, hr⟩ := var_finite_nonneg h hfin hN hpos
  rw [hr]; exact rsqrt_add_pos hw heps

end Stats

/-! ## The real numbers some f32 words denote -/

/-- `0x39800000` is 2⁻¹², the reciprocal of 4096. -/
theorem ofBits_inv_4096 : Ideal.ofBits .f32 0x39800000#32 = ((1 / 4096 : ℝ) : EReal) := by
  simp [Ideal.ofBits, Ideal.ieee, -EReal.coe_mul]; norm_num

/-- `0x45800000` is 2¹² = 4096. -/
theorem ofBits_4096 : Ideal.ofBits .f32 0x45800000#32 = ((4096 : ℝ) : EReal) := by
  simp [Ideal.ofBits, Ideal.ieee, -EReal.coe_mul]; norm_num

/-- `0x3727C5AC` (the f32 nearest 10⁻⁵) is the dyadic 10995116 · 2⁻⁴⁰. -/
theorem ofBits_eps_val : Ideal.ofBits .f32 0x3727C5AC#32 = ((10995116 / 2 ^ 40 : ℝ) : EReal) := by
  simp [Ideal.ofBits, Ideal.ieee, -EReal.coe_mul]; norm_num

/-- … a positive real. -/
theorem ofBits_eps : ∃ e : ℝ, 0 < e ∧ Ideal.ofBits .f32 0x3727C5AC#32 = (e : EReal) :=
  ⟨10995116 / 2 ^ 40, by positivity, ofBits_eps_val⟩

/-- `0x00000000` is zero (the library's lemma, restated beside the others). -/
theorem ofBits_zero : Ideal.ofBits .f32 0x00000000#32 = 0 := Ideal.ofBits_zero_f32

end Cert.LibBatchVar

end
-- ==== Proof.LibSignSelect.lean ====
/-
  The sign function of a binarized network, spelt with comparisons, read at one element of a
  vector of extended reals.

  A kernel computes `sign v` as "where |v| > 0 take (-1 where v < 0, else 1), else v itself";
  a reference applies the host's `sign` pointwise. At the ideal float values (extended reals,
  every operation exact) both are `Ideal.sign` of the element, at EVERY extended real: the
  infinities go to -1 and 1, zero stays zero. The statements are generic in the shape `S`.
  Also: `Ideal.sign` is always one of the three finite values -1, 0, 1.
-/
import Idealize.ShloMosaic.PureOps.Ideal
import Idealize.ShloMosaic.PureOps.Ideal.Laws
import Idealize.ShloMosaic.Lib.ValueIdx

namespace Cert.LibSignSelect

open Idealize.ShloMosaic

/-- The sign spelt with two comparisons and two selects, over a whole vector and read at the index `i`,
    is `Ideal.sign` of the element there. The three words are the f32 patterns of 0, -1 and 1. -/
theorem signSelect_apply {S : Shape} (v : FVec Ideal S .f32) (i : S.Idx) :
    (select (cmpf .ogt (absf v) (broadcast S (Scalar.ofBits (F := Ideal) .f32 0x00000000#32)))
        (select (cmpf .olt v (constant (F := Ideal) S .f32 0x00000000#32)) (constant (F := Ideal) S .f32 0xBF800000#32)
          (constant (F := Ideal) S .f32 0x3F800000#32)) v) i
      = Ideal.sign (v i) :=
  Ideal.jnp_sign_eq_sign_f32 (v i)

/-- The same followed by a change of format (the identity at the ideal values). -/
theorem signSelect_truncf_apply {S : Shape} (v : FVec Ideal S .f32) (i : S.Idx) (h : FTy.bf16.bits < FTy.f32.bits) :
    (truncf .bf16 (select (cmpf .ogt (absf v) (broadcast S (Scalar.ofBits (F := Ideal) .f32 0x00000000#32)))
        (select (cmpf .olt v (constant (F := Ideal) S .f32 0x00000000#32)) (constant (F := Ideal) S .f32 0xBF800000#32)
          (constant (F := Ideal) S .f32 0x3F800000#32)) v) h) i
      = Ideal.sign (v i) :=
  Ideal.jnp_sign_eq_sign_f32 (v i)

/-- The host's pointwise `sign`, read at an index. -/
theorem hostSign_apply {S : Shape} {φ : FTy} (v : FVec Ideal S φ) (i : S.Idx) :
    (Host.sign (F := Ideal) v) i = Ideal.sign (v i) := rfl

/-- The three values of the sign. -/
theorem sign_cases (x : EReal) : Ideal.sign x = -1 ∨ Ideal.sign x = 0 ∨ Ideal.sign x = 1 := by
  rcases lt_trichotomy x 0 with h | h | h
  · exact Or.inl (Ideal.sign_of_neg h)
  · exact Or.inr (Or.inl (h ▸ Ideal.sign_zero))
  · exact Or.inr (Or.inr (Ideal.sign_of_pos h))

/-- The sign is a finite number at every extended real, the infinities included. -/
theorem sign_finite (x : EReal) : ∃ r : ℝ, Ideal.sign x = (r : EReal) := by
  rcases sign_cases x with h | h | h
  · exact ⟨-1, by rw [h]; simp⟩
  · exact ⟨0, by rw [h]; simp⟩
  · exact ⟨1, by rw [h]; simp⟩

/-- … and it lies in `[-1, 1]`: the real witness can be taken with `r * r ≤ 1`. -/
theorem sign_finite_sq_le (x : EReal) : ∃ r : ℝ, Ideal.sign x = (r : EReal) ∧ r * r ≤ 1 := by
  rcases sign_cases x with h | h | h
  · exact ⟨-1, by rw [h]; simp, by norm_num⟩
  · exact ⟨0, by rw [h]; simp, by norm_num⟩
  · exact ⟨1, by rw [h]; simp, by norm_num⟩

/-- The sign of a sign is itself. -/
theorem sign_sign (x : EReal) : Ideal.sign (Ideal.sign x) = Ideal.sign x := by
  rcases lt_trichotomy x 0 with h | h | h
  · rw [Ideal.sign_of_neg h]; exact Ideal.sign_of_neg (by simp)
  · rw [h, Ideal.sign_zero, Ideal.sign_zero]
  · rw [Ideal.sign_of_pos h]; exact Ideal.sign_of_pos (by simp)

end Cert.LibSignSelect
-- ==== Proof.LayerBridge.lean ====
/-
  One layer of a binarized network, read two ways at the exact values (a float an extended real, every operation
  exact), and the proof that the two readings are the same array.

  A layer takes an input `x : [4096, K]`, weights `W : [A, K]`, a scale `g : [A]` and a shift `b : [A]`. Its product
  is `P (r, c) = ∑ k, x (r, k) * sign (W (c, k))`; each column `c` of `P` is then normalized over its 4096 rows,
  `y (r, c) = g c * (P (r, c) − μ c) * rsqrt (v c + ε) + b c`, and every layer but the last ends in a sign.
    • One reading spells the product as a general matrix product with the transpose of the signs, the mean `μ c` as
      the column sum divided by 4096, the variance `v c` as the sum of squared deviations from the mean divided by a
      count (4096 less zero, under a guard "the count is positive" that holds), and repeats each length-`A` vector
      down the rows by two broadcasts.
    • The other spells the mean as the column sum times 1/4096 and the variance as the clamped difference
      "mean of squares − squared mean", over one-row arrays.
  The two means agree at every array; the two variances agree when the column's entries are finite (the identity
  E[h²] − μ² = E[(h − μ)²] ≥ 0), which holds because a finite sum of products of finite numbers with signs is finite.
  The sign layers return -1, 0 or 1, so each layer's output is again finite and the four layers chain.

  The read-at-an-index lemmas and the normalization are generic in the extents `K`, `A` (the row count is 4096
  throughout, the number the statistics divide by); the network's three layer shapes are instances.
-/
import proofs.«157460_j63591285784858_2_alg».proof.Proof.RefLayers
import proofs.«157460_j63591285784858_2_alg».proof.Proof.KI.R1Spec
import proofs.«157460_j63591285784858_2_alg».proof.Proof.LibBatchVar
import proofs.«157460_j63591285784858_2_alg».proof.Proof.LibSignSelect
import Idealize.ShloMosaic.Lib.IdealHost
import Idealize.ShloMosaic.Lib.Pipeline.Value

noncomputable section

namespace Cert.LayerBridge

open Idealize.ShloMosaic Idealize.ShloMosaic.ValueIdx Cert.MatStats Cert.LibBatchVar
open scoped BigOperators

/-! ## Layout operations of the reference read at an index -/

/-- A coordinate below the extent is the coordinate a broadcast reads on that axis: zero when the extent is one. -/
theorem coord_bcast {C : ℕ} (n : ℕ) (hn : n < C) : n = if C = 1 then 0 else n := by
  split <;> omega

/-- A vector made one row: the row's entry `c` is the vector's. -/
theorem vecRow_apply {α : Type} {C : ℕ}
    (h1 : (⟨1, ![C]⟩ : Shape).BroadcastsInDim ⟨2, ![1, C]⟩ ![1])
    (v : (⟨1, ![C]⟩ : Shape).Idx → α) (z : Fin 1) (c : Fin C) :
    broadcastInDim (⟨2, ![1, C]⟩ : Shape) ![1] h1 v (ix2 z c) = v (ix1 c) :=
  broadcastInDim_apply ![1] h1 v (ix2 z c) (ix1 c) (fun a => by
    match a with
    | ⟨0, _⟩ => exact coord_bcast c.val c.isLt)

/-- One row repeated down an array: the entry at row `r`, column `c` is the row's entry `c`. -/
theorem rowRep_apply {α : Type} {R C : ℕ}
    (h2 : (⟨2, ![1, C]⟩ : Shape).BroadcastsInDim ⟨2, ![R, C]⟩ ![0, 1])
    (v : (⟨2, ![1, C]⟩ : Shape).Idx → α) (r : Fin R) (c : Fin C) :
    broadcastInDim (⟨2, ![R, C]⟩ : Shape) ![0, 1] h2 v (ix2 r c) = v (ix2 (0 : Fin 1) c) :=
  broadcastInDim_apply ![0, 1] h2 v (ix2 r c) (ix2 (0 : Fin 1) c) (fun a => by
    match a with
    | ⟨0, _⟩ => rfl
    | ⟨1, _⟩ => exact coord_bcast c.val c.isLt)

/-- A vector laid along the rows of an array (made one row, the row repeated): the entry at row `r`, column `c`
    is the vector's entry `c`. -/
theorem rows_apply {α : Type} {R C : ℕ}
    (h1 : (⟨1, ![C]⟩ : Shape).BroadcastsInDim ⟨2, ![1, C]⟩ ![1])
    (h2 : (⟨2, ![1, C]⟩ : Shape).BroadcastsInDim ⟨2, ![R, C]⟩ ![0, 1])
    (v : (⟨1, ![C]⟩ : Shape).Idx → α) (r : Fin R) (c : Fin C) :
    broadcastInDim (⟨2, ![R, C]⟩ : Shape) ![0, 1] h2 (broadcastInDim (⟨2, ![1, C]⟩ : Shape) ![1] h1 v) (ix2 r c)
      = v (ix1 c) := by
  rw [rowRep_apply, vecRow_apply]

/-- The transpose of a matrix read at row `k`, column `c` is the matrix at row `c`, column `k`. -/
theorem transpose_apply2 {α : Type} {A K : ℕ}
    (h : (⟨2, ![A, K]⟩ : Shape).Transposes [1, 0] ⟨2, ![K, A]⟩)
    (W : (⟨2, ![A, K]⟩ : Shape).Idx → α) (k : Fin K) (c : Fin A) :
    transpose (⟨2, ![K, A]⟩ : Shape) [1, 0] W h (ix2 k c) = W (ix2 c k) :=
  transpose_apply [1, 0] W h (ix2 k c) (ix2 c k) (fun b => by
    match b with
    | ⟨0, _⟩ => rfl
    | ⟨1, _⟩ => rfl)

/-- A column sum on the host: the initial word's value plus the sum of the column's entries. -/
theorem colsum_apply {R C : ℕ} (hT : (⟨2, ![R, C]⟩ : Shape).ReducesTo [0] ⟨1, ![C]⟩)
    (hR : (⟨2, ![R, C]⟩ : Shape).Reduces [0] ⟨1, ![C]⟩) (hu : 0 < (⟨0, ![]⟩ : Shape).numel)
    (h : FVec Ideal ⟨2, ![R, C]⟩ .f32) (z : BitVec FTy.f32.bits) (c : Fin C) :
    Host.reduceAdd (F := Ideal) h (constant (F := Ideal) ⟨0, ![]⟩ .f32 z) hT hu (ix1 c)
      = Ideal.ofBits .f32 z + ∑ a : Fin R, h (ix2 a c) := by
  rw [hostReduceAdd_apply, Ideal.hostReduceAdd_single hT hR]
  refine congrArg₂ (· + ·) rfl (Finset.sum_congr rfl fun k _ => congrArg h (funext fun a => Fin.ext (by
    match a with
    | ⟨0, _⟩ => rfl
    | ⟨1, _⟩ => rfl)))

/-! ## The host's matrix product read at an index -/

/-- On an operand's only free axis, with no batch axes, the left operand's index reads the result's first coordinate. -/
theorem lhsIdx_free {sl sr so : Shape} (D : DotDims sl sr so) (a : Fin sl.rank) (hb : D.lhsBatch = [])
    (hn : D.lhsNonContracting = [a]) (p : Fin so.rank) (hp : p.val = 0) (j : so.Idx) (k : D.contr.Idx) :
    (D.lhsIdx j k a).val = (j p).val := by
  unfold DotDims.lhsIdx
  rw [dif_neg (by rw [hb]; exact List.not_mem_nil), dif_pos (by rw [hn]; exact List.mem_singleton.mpr rfl)]
  simp only [Fin.val_cast]
  have key : ∀ (p q : Fin so.rank), p.val = q.val → (j p).val = (j q).val := fun p q h => by rw [Fin.ext h]
  exact key _ _ (by simp [hb, hn, hp])

/-- On the right operand's only free axis, with no batch axes and one free axis on the left, the right operand's index
    reads the result's second coordinate. -/
theorem rhsIdx_free {sl sr so : Shape} (D : DotDims sl sr so) (a : Fin sr.rank) (hlb : D.lhsBatch = [])
    (hrb : D.rhsBatch = []) (hln : D.lhsNonContracting.length = 1)
    (hn : D.rhsNonContracting = [a]) (p : Fin so.rank) (hp : p.val = 1) (j : so.Idx) (k : D.contr.Idx) :
    (D.rhsIdx j k a).val = (j p).val := by
  unfold DotDims.rhsIdx
  rw [dif_neg (by rw [hrb]; exact List.not_mem_nil), dif_pos (by rw [hn]; exact List.mem_singleton.mpr rfl)]
  simp only [Fin.val_cast]
  have key : ∀ (p q : Fin so.rank), p.val = q.val → (j p).val = (j q).val := fun p q h => by rw [Fin.ext h]
  exact key _ _ (by simp [hlb, hln, hn, hp])

/-- The first entry of a one-entry list. -/
theorem getElem_zero_of_eq_singleton {β : Type} (l : List β) (a : β) (h : l = [a]) (hp : 0 < l.length) : l[0]'hp = a := by
  subst h; rfl

/-- The host's product of `x : [M, K]` with `y : [K, N]`, the columns of `x` contracted against the rows of `y`, at
    row `r`, column `c`: the sum over `k` of `x (r, k) * y (k, c)`. -/
theorem dot_apply {M K N : ℕ} (D : DotDims ⟨2, ![M, K]⟩ ⟨2, ![K, N]⟩ ⟨2, ![M, N]⟩)
    (hlc : D.lhsContracting = [1]) (hrc : D.rhsContracting = [0])
    (hln : D.lhsNonContracting = [0]) (hrn : D.rhsNonContracting = [1])
    (hlb : D.lhsBatch = []) (hrb : D.rhsBatch = []) (prec : Option ContractPrecision)
    (x : FVec Ideal ⟨2, ![M, K]⟩ .f32) (y : FVec Ideal ⟨2, ![K, N]⟩ .f32) (r : Fin M) (c : Fin N) :
    Host.dotGeneral (F := Ideal) D prec x y (ix2 r c) = ∑ k : Fin K, x (ix2 r k) * y (ix2 k c) := by
  have hrank : D.contr.rank = 1 := by rw [D.rank_contr, hlc]; rfl
  have hsize : D.contr.size ⟨0, by omega⟩ = K :=
    (D.size_contr 0 (by rw [hlc]; exact Nat.one_pos)).trans (by
      rw [getElem_zero_of_eq_singleton _ _ hlc]; rfl)
  show FloatOps.dotGeneral D prec .single x y (ix2 r c) = _
  rw [Ideal.dotGeneral_apply, ← Equiv.sum_comp (contrEquiv1 D K hrank hsize).symm]
  refine Finset.sum_congr rfl fun k _ => ?_
  have hk := contrEquiv1_symm_val D K hrank hsize k
  have el : D.lhsIdx (ix2 r c) ((contrEquiv1 D K hrank hsize).symm k) = ix2 r k := funext fun a => Fin.ext (by
    match a with
    | ⟨0, _⟩ => exact lhsIdx_free D 0 hlb hln 0 rfl _ _
    | ⟨1, _⟩ => exact (D.lhsIdx_val_of_single hlc _ _).trans hk)
  have er : D.rhsIdx (ix2 r c) ((contrEquiv1 D K hrank hsize).symm k) = ix2 k c := funext fun a => Fin.ext (by
    match a with
    | ⟨0, _⟩ => exact (D.rhsIdx_val_of_single hrc _ _).trans hk
    | ⟨1, _⟩ => exact rhsIdx_free D 1 hlb hrb (by rw [hln]; rfl) hrn 1 rfl _ _)
  rw [el, er]

/-! ## The reference's column normalization, generic in the extents -/

section RefNorm

open Cert.ReferenceIdeal.HandRun (count)

/-- The shape facts the reference's normalization of an `R × C` array cites. -/
structure NormFacts (R C : ℕ) : Prop where
  red : (⟨2, ![R, C]⟩ : Shape).ReducesTo [0] ⟨1, ![C]⟩
  pos : 0 < (⟨0, ![]⟩ : Shape).numel
  sv : (⟨0, ![]⟩ : Shape).BroadcastsInDim ⟨1, ![C]⟩ ![]
  sr : (⟨0, ![]⟩ : Shape).BroadcastsInDim ⟨2, ![1, C]⟩ ![]
  vr : (⟨1, ![C]⟩ : Shape).BroadcastsInDim ⟨2, ![1, C]⟩ ![1]
  ra : (⟨2, ![1, C]⟩ : Shape).BroadcastsInDim ⟨2, ![R, C]⟩ ![0, 1]

variable {R C : ℕ} (F : NormFacts R C)

/-- A length-`C` vector laid along the rows of an `R × C` array. -/
def gRows (v : FVec Ideal ⟨1, ![C]⟩ .f32) : FVec Ideal ⟨2, ![R, C]⟩ .f32 :=
  broadcastInDim ⟨2, ![R, C]⟩ ![0, 1] F.ra (broadcastInDim ⟨2, ![1, C]⟩ ![1] F.vr v)

/-- The column means: each column's sum, from zero, divided by 4096. -/
def gMean (h : FVec Ideal ⟨2, ![R, C]⟩ .f32) : FVec Ideal ⟨1, ![C]⟩ .f32 :=
  Host.divf (F := Ideal) (Host.reduceAdd (F := Ideal) h (constant (F := Ideal) ⟨0, ![]⟩ .f32 0x00000000#32) F.red F.pos)
    (broadcastInDim ⟨1, ![C]⟩ ![] F.sv (constant (F := Ideal) ⟨0, ![]⟩ .f32 0x45800000#32))

/-- The array less its column means, the means taken as one row and repeated. -/
def gCentered (h : FVec Ideal ⟨2, ![R, C]⟩ .f32) : FVec Ideal ⟨2, ![R, C]⟩ .f32 :=
  subf h (broadcastInDim ⟨2, ![R, C]⟩ ![0, 1] F.ra
    (Host.divf (F := Ideal) (broadcastInDim ⟨2, ![1, C]⟩ ![1] F.vr (Host.reduceAdd (F := Ideal) h (constant (F := Ideal) ⟨0, ![]⟩ .f32 0x00000000#32) F.red F.pos))
      (broadcastInDim ⟨2, ![1, C]⟩ ![] F.sr (constant (F := Ideal) ⟨0, ![]⟩ .f32 0x45800000#32))))

/-- The column variances: where the divisor is positive, each column's sum of squared deviations divided by it. -/
def gVar (h : FVec Ideal ⟨2, ![R, C]⟩ .f32) : FVec Ideal ⟨1, ![C]⟩ .f32 :=
  select (broadcastInDim ⟨1, ![C]⟩ ![] F.sv (cmpf .ogt count (constant (F := Ideal) ⟨0, ![]⟩ .f32 0x00000000#32)))
    (Host.divf (F := Ideal) (Host.reduceAdd (F := Ideal) (mulf (gCentered F h) (gCentered F h)) (constant (F := Ideal) ⟨0, ![]⟩ .f32 0x00000000#32) F.red F.pos)
      (broadcastInDim ⟨1, ![C]⟩ ![] F.sv count))
    (broadcastInDim ⟨1, ![C]⟩ ![] F.sv (constant (F := Ideal) ⟨0, ![]⟩ .f32 0x7FC00000#32))

/-- Column normalization with scale `g` and shift `b`. -/
def gNorm (h : FVec Ideal ⟨2, ![R, C]⟩ .f32) (g b : FVec Ideal ⟨1, ![C]⟩ .f32) : FVec Ideal ⟨2, ![R, C]⟩ .f32 :=
  addf (mulf (mulf (gRows F g) (subf h (gRows F (gMean F h))))
      (gRows F (Host.rsqrt (addf (gVar F h) (broadcastInDim ⟨1, ![C]⟩ ![] F.sv (constant (F := Ideal) ⟨0, ![]⟩ .f32 0x3727C5AC#32))))))
    (gRows F b)

/-- The kept-axes form of the reduction fact. -/
theorem NormFacts.red' {R C : ℕ} (F : NormFacts R C) : (⟨2, ![R, C]⟩ : Shape).Reduces [0] ⟨1, ![C]⟩ :=
  ⟨F.red.1, Nat.one_pos, F.red.2⟩

/-- The divisor of the variance is 4096. -/
theorem count_apply (j : (⟨0, ![]⟩ : Shape).Idx) : count j = ((4096 : ℝ) : EReal) := by
  show Ideal.ofBits .f32 0x45800000#32 - (((0x00000000#32 : BitVec 32).toInt : ℝ) : EReal) = _
  have h0 : (0x00000000#32 : BitVec 32).toInt = 0 := by decide
  rw [ofBits_4096, h0, Int.cast_zero, EReal.coe_zero, sub_zero]

/-- 4096 is greater than zero. -/
theorem cmp_4096_pos : FloatOps.cmpf (F := Ideal) (φ := .f32) .ogt ((4096 : ℝ) : EReal) (Ideal.ofBits .f32 0x00000000#32) = 1#1 := by
  rw [ofBits_zero]
  show BitVec.ofBool (decide ((0 : EReal) < ((4096 : ℝ) : EReal))) = 1#1
  rw [decide_eq_true (EReal.coe_pos.mpr (by norm_num))]
  rfl

theorem gRows_apply (v : FVec Ideal ⟨1, ![C]⟩ .f32) (r : Fin R) (c : Fin C) : gRows F v (ix2 r c) = v (ix1 c) :=
  rows_apply F.vr F.ra v r c

/-- A column's mean: its sum divided by 4096. -/
theorem gMean_apply (h : FVec Ideal ⟨2, ![R, C]⟩ .f32) (c : Fin C) :
    gMean F h (ix1 c) = Ideal.div (∑ a : Fin R, h (ix2 a c)) ((4096 : ℝ) : EReal) := by
  unfold gMean
  rw [hostDivf_apply, colsum_apply F.red F.red' F.pos, broadcastInDim_scalar_apply, constant_apply, ofBits_zero, zero_add,
    ofBits_4096]

/-- An entry less its column's mean. -/
theorem gCentered_apply (h : FVec Ideal ⟨2, ![R, C]⟩ .f32) (r : Fin R) (c : Fin C) :
    gCentered F h (ix2 r c) = h (ix2 r c) - Ideal.div (∑ a : Fin R, h (ix2 a c)) ((4096 : ℝ) : EReal) := by
  unfold gCentered
  rw [subf_apply, rowRep_apply, hostDivf_apply, vecRow_apply, colsum_apply F.red F.red' F.pos, broadcastInDim_scalar_apply,
    constant_apply, ofBits_zero, zero_add, ofBits_4096]

/-- A column's variance: the sum of its squared deviations from its mean, divided by 4096. -/
theorem gVar_apply (h : FVec Ideal ⟨2, ![R, C]⟩ .f32) (c : Fin C) :
    gVar F h (ix1 c)
      = Ideal.div (∑ a : Fin R, (h (ix2 a c) - Ideal.div (∑ a' : Fin R, h (ix2 a' c)) ((4096 : ℝ) : EReal))
            * (h (ix2 a c) - Ideal.div (∑ a' : Fin R, h (ix2 a' c)) ((4096 : ℝ) : EReal))) ((4096 : ℝ) : EReal) := by
  unfold gVar
  rw [select_apply, broadcastInDim_scalar_apply, cmpf_apply, count_apply, constant_apply, cmp_4096_pos, select_one,
    hostDivf_apply, colsum_apply F.red F.red' F.pos, broadcastInDim_scalar_apply, count_apply, ofBits_zero, zero_add]
  refine congrArg (fun s => Ideal.div s _) (Finset.sum_congr rfl fun a _ => ?_)
  rw [mulf_apply, gCentered_apply]

/-- The normalized array at row `r`, column `c`. -/
theorem gNorm_apply (h : FVec Ideal ⟨2, ![R, C]⟩ .f32) (g b : FVec Ideal ⟨1, ![C]⟩ .f32) (r : Fin R) (c : Fin C) :
    gNorm F h g b (ix2 r c)
      = g (ix1 c) * (h (ix2 r c) - Ideal.div (∑ a : Fin R, h (ix2 a c)) ((4096 : ℝ) : EReal))
          * Ideal.rsqrt (Ideal.div (∑ a : Fin R, (h (ix2 a c) - Ideal.div (∑ a' : Fin R, h (ix2 a' c)) ((4096 : ℝ) : EReal))
                * (h (ix2 a c) - Ideal.div (∑ a' : Fin R, h (ix2 a' c)) ((4096 : ℝ) : EReal))) ((4096 : ℝ) : EReal)
              + Ideal.ofBits .f32 0x3727C5AC#32)
        + b (ix1 c) := by
  unfold gNorm
  rw [addf_apply, mulf_apply, mulf_apply, subf_apply, gRows_apply, gRows_apply, gRows_apply, gRows_apply, gMean_apply]
  show _ * _ * Ideal.rsqrt (addf (gVar F h) _ (ix1 c)) + _ = _
  rw [addf_apply, gVar_apply, broadcastInDim_scalar_apply, constant_apply]

end RefNorm

/-! ## The kernel's spelling of a layer -/

/-- The signs of an array's entries. -/
def signArr {S : Shape} (W : S.Idx → EReal) : S.Idx → EReal := fun i => Ideal.sign (W i)

theorem signArr_apply {S : Shape} (W : S.Idx → EReal) (i : S.Idx) : signArr W i = Ideal.sign (W i) := rfl

/-- A vector as a one-row array. -/
def asRow {C : ℕ} (v : (⟨1, ![C]⟩ : Shape).Idx → EReal) : (⟨2, ![1, C]⟩ : Shape).Idx → EReal :=
  fun j => v (ix1 (j 1))

theorem asRow_apply {C : ℕ} (v : (⟨1, ![C]⟩ : Shape).Idx → EReal) (z : Fin 1) (c : Fin C) :
    asRow v (ix2 z c) = v (ix1 c) := rfl

/-- The kernel's normalization of the columns of a `4096 × C` array `P`, with the scale and the shift given as one-row
    arrays `G`, `B`: `G · (P − mean) · rsqrt (var + ε) + B`, the mean the column sum times 1/4096, the variance the
    clamped difference "mean of squares − squared mean", ε the float nearest 1e-5. -/
def kNorm {C : ℕ} (P : (⟨2, ![4096, C]⟩ : Shape).Idx → EReal) (G B : (⟨2, ![1, C]⟩ : Shape).Idx → EReal) :
    (⟨2, ![4096, C]⟩ : Shape).Idx → EReal :=
  fun i => G (ix2 (0 : Fin 1) (i 1)) * (P i - colMean 4096 P (ix2 (0 : Fin 1) (i 1)))
      * Ideal.rsqrt (colVar 4096 P (ix2 (0 : Fin 1) (i 1)) + Ideal.ofBits .f32 0x3727C5AC#32)
    + B (ix2 (0 : Fin 1) (i 1))

theorem kNorm_apply {C : ℕ} (P : (⟨2, ![4096, C]⟩ : Shape).Idx → EReal) (G B : (⟨2, ![1, C]⟩ : Shape).Idx → EReal)
    (r : Fin 4096) (c : Fin C) :
    kNorm P G B (ix2 r c)
      = G (ix2 (0 : Fin 1) c) * (P (ix2 r c) - colMean 4096 P (ix2 (0 : Fin 1) c))
          * Ideal.rsqrt (colVar 4096 P (ix2 (0 : Fin 1) c) + Ideal.ofBits .f32 0x3727C5AC#32)
        + B (ix2 (0 : Fin 1) c) := rfl

/-- A layer before its closing sign, as the kernel computes it: the input times the transposed signs of the weights,
    then the kernel's column normalization. -/
def kLayerPre {K A : ℕ} (x : (⟨2, ![4096, K]⟩ : Shape).Idx → EReal) (W : (⟨2, ![A, K]⟩ : Shape).Idx → EReal)
    (g b : (⟨1, ![A]⟩ : Shape).Idx → EReal) : (⟨2, ![4096, A]⟩ : Shape).Idx → EReal :=
  kNorm (prod x (signArr W)) (asRow g) (asRow b)

/-- A layer with its closing sign. -/
def kLayerSign {K A : ℕ} (x : (⟨2, ![4096, K]⟩ : Shape).Idx → EReal) (W : (⟨2, ![A, K]⟩ : Shape).Idx → EReal)
    (g b : (⟨1, ![A]⟩ : Shape).Idx → EReal) : (⟨2, ![4096, A]⟩ : Shape).Idx → EReal :=
  fun i => Ideal.sign (kLayerPre x W g b i)

/-! ## The two spellings agree -/

theorem card_4096 : (Fintype.card (Fin 4096) : ℝ) = 4096 := by rw [Fintype.card_fin]; norm_num

theorem pos_4096 : (0 : ℝ) < 4096 := by norm_num

/-- The reference's normalization of an array of finite entries is the kernel's. -/
theorem gNorm_eq_kNorm {C : ℕ} (F : NormFacts 4096 C) (P : (⟨2, ![4096, C]⟩ : Shape).Idx → EReal)
    (hP : ∀ i, ∃ r : ℝ, P i = (r : EReal)) (g b : (⟨1, ![C]⟩ : Shape).Idx → EReal) :
    gNorm F P g b = kNorm P (asRow g) (asRow b) := by
  funext i
  obtain ⟨r, c, rfl⟩ : ∃ (r : Fin 4096) (c : Fin C), i = ix2 r c := ⟨i 0, i 1, eq_ix2 i⟩
  rw [gNorm_apply, kNorm_apply, asRow_apply, asRow_apply, colVar_apply, colMean_apply,
    var_eq (fun a : Fin 4096 => P (ix2 a c)) (fun a => hP _) card_4096 pos_4096,
    mean_eq (fun a : Fin 4096 => P (ix2 a c)) pos_4096]

/-- The product of an array of finite entries with transposed signs has finite entries. -/
theorem prod_sign_finite {M K A : ℕ} (x : (⟨2, ![M, K]⟩ : Shape).Idx → EReal) (W : (⟨2, ![A, K]⟩ : Shape).Idx → EReal)
    (hx : ∀ i, ∃ r : ℝ, x i = (r : EReal)) : ∀ i, ∃ r : ℝ, prod x (signArr W) i = (r : EReal) :=
  fun i => finite_sum_mul (fun p : Fin K => x (ix2 (i 0) p)) (fun p : Fin K => signArr W (ix2 (i 1) p))
    (fun _ => hx _) (fun _ => finite_sign _)

/-- The host's product of `x` with the transpose of the host's signs of `W` is the product with the transposed signs. -/
theorem dot_signT_eq {M K A : ℕ} (D : DotDims ⟨2, ![M, K]⟩ ⟨2, ![K, A]⟩ ⟨2, ![M, A]⟩)
    (hlc : D.lhsContracting = [1]) (hrc : D.rhsContracting = [0])
    (hln : D.lhsNonContracting = [0]) (hrn : D.rhsNonContracting = [1])
    (hlb : D.lhsBatch = []) (hrb : D.rhsBatch = [])
    (htr : (⟨2, ![A, K]⟩ : Shape).Transposes [1, 0] ⟨2, ![K, A]⟩)
    (x : FVec Ideal ⟨2, ![M, K]⟩ .f32) (W : FVec Ideal ⟨2, ![A, K]⟩ .f32) :
    Host.dotGeneral (F := Ideal) D none x (transpose ⟨2, ![K, A]⟩ [1, 0] (Host.sign (F := Ideal) W) htr)
      = prod x (signArr W) := by
  funext i
  obtain ⟨r, c, rfl⟩ : ∃ (r : Fin M) (c : Fin A), i = ix2 r c := ⟨i 0, i 1, eq_ix2 i⟩
  rw [dot_apply D hlc hrc hln hrn hlb hrb, prod_apply]
  refine Finset.sum_congr rfl fun k _ => ?_
  rw [transpose_apply2, Cert.LibSignSelect.hostSign_apply, signArr_apply]

/-- The kernel's normalization of an array of finite entries, with finite scale and shift, has finite entries. -/
theorem kNorm_finite {C : ℕ} (P : (⟨2, ![4096, C]⟩ : Shape).Idx → EReal) (hP : ∀ i, ∃ r : ℝ, P i = (r : EReal))
    (g b : (⟨1, ![C]⟩ : Shape).Idx → EReal) (hg : ∀ i, ∃ r : ℝ, g i = (r : EReal))
    (hb : ∀ i, ∃ r : ℝ, b i = (r : EReal)) : ∀ i, ∃ r : ℝ, kNorm P (asRow g) (asRow b) i = (r : EReal) := by
  intro i
  obtain ⟨r, c, rfl⟩ : ∃ (r : Fin 4096) (c : Fin C), i = ix2 r c := ⟨i 0, i 1, eq_ix2 i⟩
  obtain ⟨e, he, hee⟩ := ofBits_eps
  obtain ⟨q, _, hq⟩ := rsqrt_var_finite (fun a : Fin 4096 => P (ix2 a c)) (fun a => hP _) card_4096 pos_4096 he
  rw [kNorm_apply, asRow_apply, asRow_apply, colVar_apply,
    var_eq (fun a : Fin 4096 => P (ix2 a c)) (fun a => hP _) card_4096 pos_4096, hee, hq, colMean_apply]
  exact finite_add (finite_mul (finite_mul (hg _) (finite_sub (hP _)
    (finite_mul (finite_univ_sum _ fun a => hP _) (finite_coe _)))) (finite_coe q)) (hb _)

/-! ## The network's four layers -/

section Network

open Cert.ReferenceIdeal Cert.ReferenceIdeal.Gen Cert.ReferenceIdeal.HandRun

/-- The shape facts of the first three layers' normalization. -/
theorem facts4096 : NormFacts 4096 4096 :=
  ⟨reducesTo_S4096x4096_S4096_d0, h_S_, bcast_S_S4096, bcast_S_S1x4096, bcast_S4096_S1x4096_1, bcast_S1x4096_S4096x4096_0_1⟩

/-- The shape facts of the last layer's normalization. -/
theorem facts1000 : NormFacts 4096 1000 :=
  ⟨reducesTo_S4096x1000_S1000_d0, h_S_, bcast_S_S1000, bcast_S_S1x1000, bcast_S1000_S1x1000_1, bcast_S1x1000_S4096x1000_0_1⟩

/-- The reference's normalizations are the generic one at their extents. -/
theorem norm4096_eq : norm4096 = gNorm facts4096 := rfl

theorem norm1000_eq : norm1000 = gNorm facts1000 := rfl

/-- The first layer as the kernel computes it: 4096 × 2048 input, 4096 × 2048 weights. -/
def kLayer0 (x : S4096x2048.Idx → EReal) (W : S4096x2048.Idx → EReal) (g b : S4096.Idx → EReal) :
    S4096x4096.Idx → EReal :=
  kLayerSign x W g b

/-- A middle layer as the kernel computes it: 4096 × 4096 input, 4096 × 4096 weights. -/
def kLayerMid (x W : S4096x4096.Idx → EReal) (g b : S4096.Idx → EReal) : S4096x4096.Idx → EReal :=
  kLayerSign x W g b

/-- The last layer as the kernel computes it: 4096 × 4096 input, 1000 × 4096 weights, no closing sign. -/
def kLayer3 (x : S4096x4096.Idx → EReal) (W : S1000x4096.Idx → EReal) (g b : S1000.Idx → EReal) :
    S4096x1000.Idx → EReal :=
  kLayerPre x W g b

/-- The first layer: the reference's value is the kernel's, on a finite input. -/
theorem layer0_eq (x : S4096x2048.Idx → EReal) (W : S4096x2048.Idx → EReal) (g b : S4096.Idx → EReal)
    (hx : ∀ i, ∃ r : ℝ, x i = (r : EReal)) (hg : ∀ i, ∃ r : ℝ, g i = (r : EReal))
    (hb : ∀ i, ∃ r : ℝ, b i = (r : EReal)) :
    layer0 x W g b = kLayer0 x W g b := by
  unfold layer0 kLayer0 kLayerSign kLayerPre
  rw [dot_signT_eq dot_S4096x2048_S2048x4096_S4096x4096_1_0_0_1_n_n rfl rfl rfl rfl rfl rfl, norm4096_eq,
    gNorm_eq_kNorm facts4096 _ (prod_sign_finite x W hx)]
  rfl

/-- A middle layer: the reference's value is the kernel's, on a finite input. -/
theorem layerMid_eq (x W : S4096x4096.Idx → EReal) (g b : S4096.Idx → EReal)
    (hx : ∀ i, ∃ r : ℝ, x i = (r : EReal)) (hg : ∀ i, ∃ r : ℝ, g i = (r : EReal))
    (hb : ∀ i, ∃ r : ℝ, b i = (r : EReal)) :
    layerMid x W g b = kLayerMid x W g b := by
  unfold layerMid kLayerMid kLayerSign kLayerPre
  rw [dot_signT_eq dot_S4096x4096_S4096x4096_S4096x4096_1_0_0_1_n_n rfl rfl rfl rfl rfl rfl, norm4096_eq,
    gNorm_eq_kNorm facts4096 _ (prod_sign_finite x W hx)]
  rfl

/-- The last layer: the reference's value is the kernel's, on a finite input. -/
theorem layer3_eq (x : S4096x4096.Idx → EReal) (W : S1000x4096.Idx → EReal) (g b : S1000.Idx → EReal)
    (hx : ∀ i, ∃ r : ℝ, x i = (r : EReal)) (hg : ∀ i, ∃ r : ℝ, g i = (r : EReal))
    (hb : ∀ i, ∃ r : ℝ, b i = (r : EReal)) :
    layer3 x W g b = kLayer3 x W g b := by
  unfold layer3 kLayer3 kLayerPre
  rw [dot_signT_eq dot_S4096x4096_S4096x1000_S4096x1000_1_0_0_1_n_n rfl rfl rfl rfl rfl rfl, norm1000_eq,
    gNorm_eq_kNorm facts1000 _ (prod_sign_finite x W hx)]

/-- A layer that ends in a sign has finite entries (-1, 0 or 1), whatever its input. -/
theorem kLayer0_finite (x : S4096x2048.Idx → EReal) (W : S4096x2048.Idx → EReal) (g b : S4096.Idx → EReal) :
    ∀ i, ∃ r : ℝ, kLayer0 x W g b i = (r : EReal) :=
  fun _ => Cert.LibSignSelect.sign_finite _

theorem kLayerMid_finite (x W : S4096x4096.Idx → EReal) (g b : S4096.Idx → EReal) :
    ∀ i, ∃ r : ℝ, kLayerMid x W g b i = (r : EReal) :=
  fun _ => Cert.LibSignSelect.sign_finite _

/-- The last layer has finite entries on a finite input with finite scale and shift. -/
theorem kLayer3_finite (x : S4096x4096.Idx → EReal) (W : S1000x4096.Idx → EReal) (g b : S1000.Idx → EReal)
    (hx : ∀ i, ∃ r : ℝ, x i = (r : EReal)) (hg : ∀ i, ∃ r : ℝ, g i = (r : EReal))
    (hb : ∀ i, ∃ r : ℝ, b i = (r : EReal)) :
    ∀ i, ∃ r : ℝ, kLayer3 x W g b i = (r : EReal) :=
  kNorm_finite _ (prod_sign_finite x W hx) g b hg hb

/-- The whole network: the reference's four layers composed are the kernel's four layers composed, on a finite input
    with finite scales and shifts. -/
theorem net_eq (x : S4096x2048.Idx → EReal) (W0 : S4096x2048.Idx → EReal) (g0 b0 : S4096.Idx → EReal)
    (W1 : S4096x4096.Idx → EReal) (g1 b1 : S4096.Idx → EReal)
    (W2 : S4096x4096.Idx → EReal) (g2 b2 : S4096.Idx → EReal)
    (W3 : S1000x4096.Idx → EReal) (g3 b3 : S1000.Idx → EReal)
    (hx : ∀ i, ∃ r : ℝ, x i = (r : EReal))
    (hg0 : ∀ i, ∃ r : ℝ, g0 i = (r : EReal)) (hb0 : ∀ i, ∃ r : ℝ, b0 i = (r : EReal))
    (hg1 : ∀ i, ∃ r : ℝ, g1 i = (r : EReal)) (hb1 : ∀ i, ∃ r : ℝ, b1 i = (r : EReal))
    (hg2 : ∀ i, ∃ r : ℝ, g2 i = (r : EReal)) (hb2 : ∀ i, ∃ r : ℝ, b2 i = (r : EReal))
    (hg3 : ∀ i, ∃ r : ℝ, g3 i = (r : EReal)) (hb3 : ∀ i, ∃ r : ℝ, b3 i = (r : EReal)) :
    layer3 (layer2 (layer1 (layer0 x W0 g0 b0) W1 g1 b1) W2 g2 b2) W3 g3 b3
      = kLayer3 (kLayerMid (kLayerMid (kLayer0 x W0 g0 b0) W1 g1 b1) W2 g2 b2) W3 g3 b3 := by
  show layer3 (layerMid (layerMid (layer0 x W0 g0 b0) W1 g1 b1) W2 g2 b2) W3 g3 b3 = _
  rw [layer0_eq x W0 g0 b0 hx hg0 hb0,
    layerMid_eq _ W1 g1 b1 (kLayer0_finite x W0 g0 b0) hg1 hb1,
    layerMid_eq _ W2 g2 b2 (kLayerMid_finite _ W1 g1 b1) hg2 hb2,
    layer3_eq _ W3 g3 b3 (kLayerMid_finite _ W2 g2 b2) hg3 hb3]

end Network

end Cert.LayerBridge

end
-- ==== Proof.KI.MainRegs.lean ====
import proofs.«157460_j63591285784858_2_alg».proof.Proof.KI.MainData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The twelve regions as segments

Each region as a segment of the program over the thread state: its windows' arrays are split out of the unscoped
buffers at entry and put back at the exit contents; the pipeline's invariant takes the generator register in and
gives it back. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (hb1 : ∀ (V : (c : Dev nD) → (b : Ref sig .tc) → Buf (Elt F) ((c : Thread nD τ).loc b)) (c : Dev nD), BodyObligation (dat1 (F := F) V c) (defs₀ (F := F)) Variants.none () Set.univ)
  (hb4 : ∀ (V : (c : Dev nD) → (b : Ref sig .tc) → Buf (Elt F) ((c : Thread nD τ).loc b)) (c : Dev nD), BodyObligation (dat4 (F := F) V c) (defs₀ (F := F)) Variants.none () Set.univ)
  (hb7 : ∀ (V : (c : Dev nD) → (b : Ref sig .tc) → Buf (Elt F) ((c : Thread nD τ).loc b)) (c : Dev nD), BodyObligation (dat7 (F := F) V c) (defs₀ (F := F)) Variants.none () Set.univ)
  (hb10 : ∀ (V : (c : Dev nD) → (b : Ref sig .tc) → Buf (Elt F) ((c : Thread nD τ).loc b)) (c : Dev nD), BodyObligation (dat10 (F := F) V c) (defs₀ (F := F)) Variants.none () Set.univ)
variable (m : (ℓ : Loc nD τ sig) → Buf (Elt F) ℓ) (ρ : Dev nD → PrngReg)

-- unifying a library lemma stated over the pinned configuration of pipeline 0 with the printed one takes unfolding
-- plain definitions in a metavariable's type
set_option backward.isDefEq.respectTransparency.types false in
/-- Region 0 over the thread state: entered from every unscoped buffer at `W0`, left at `W1`. Its arrays are split
    out of the unscoped buffers and put back at the exit contents; the generator register goes into the invariant
    and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration of pipeline 1 with the printed one takes unfolding
-- plain definitions in a metavariable's type
set_option backward.isDefEq.respectTransparency.types false in
/-- Region 1 over the thread state: entered from every unscoped buffer at `W1`, left at `W2`. Its arrays are split
    out of the unscoped buffers and put back at the exit contents; the generator register goes into the invariant
    and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V1 m ρ) c).Φ 0 from rfl]
    refine BIBase.Entails.trans ?_ (hin1 (V1 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V1 m ρ) c).Φ (Fin.last cfg1.N) from rfl]
    refine BIBase.Entails.trans (hout1 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration of pipeline 2 with the printed one takes unfolding
-- plain definitions in a metavariable's type
set_option backward.isDefEq.respectTransparency.types false in
/-- Region 2 over the thread state: entered from every unscoped buffer at `W3`, left at `W4`. Its arrays are split
    out of the unscoped buffers and put back at the exit contents; the generator register goes into the invariant
    and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration of pipeline 3 with the printed one takes unfolding
-- plain definitions in a metavariable's type
set_option backward.isDefEq.respectTransparency.types false in
/-- Region 3 over the thread state: entered from every unscoped buffer at `W4`, left at `W5`. Its arrays are split
    out of the unscoped buffers and put back at the exit contents; the generator register goes into the invariant
    and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration of pipeline 4 with the printed one takes unfolding
-- plain definitions in a metavariable's type
set_option backward.isDefEq.respectTransparency.types false in
/-- Region 4 over the thread state: entered from every unscoped buffer at `W5`, left at `W6`. Its arrays are split
    out of the unscoped buffers and put back at the exit contents; the generator register goes into the invariant
    and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (hb4 (V5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (V5 m ρ) c).Φ 0 from rfl]
    refine BIBase.Entails.trans ?_ (hin4 (V5 m ρ) c)
    unfold Pipeline.ΦA
    iintro ⟨Hp, -, Hr⟩
    isplitl [Hr]; · iexact Hr
    iexact Hp
  hout c := by
    rw [Pipeline.ownSems0_none, show (pdats m ρ 4 c).Φ (Fin.last _) = (dat4 (V5 m ρ) c).Φ (Fin.last cfg4.N) from rfl]
    refine BIBase.Entails.trans (hout4 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V5 m ρ c) (V6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration of pipeline 5 with the printed one takes unfolding
-- plain definitions in a metavariable's type
set_option backward.isDefEq.respectTransparency.types false in
/-- Region 5 over the thread state: entered from every unscoped buffer at `W7`, left at `W8`. Its arrays are split
    out of the unscoped buffers and put back at the exit contents; the generator register goes into the invariant
    and comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V7 m ρ) c).loose
  hwaits := Pipeline.hwaits_of_owed_zero _ _ _ _ L lv 5 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec5 c (V7 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V7 m ρ c) (V8 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration of pipeline 6 with the printed one takes unfolding
-- plain definitions in a metavariable's type
set_option backward.isDefEq.respectTransparency.types false in
/-- Region 6 over the thread state: entered from every unscoped buffer at `W8`, left at `W9`. Its arrays are split
    out of the unscoped buffers and put back at the exit contents; the generator register goes into the invariant
    and comes back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V8 m ρ) c).loose
  hwaits := Pipeline.hwaits_of_owed_zero _ _ _ _ L lv 6 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec6 c (V8 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V8 m ρ c) (V9 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration of pipeline 7 with the printed one takes unfolding
-- plain definitions in a metavariable's type
set_option backward.isDefEq.respectTransparency.types false in
/-- Region 7 over the thread state: entered from every unscoped buffer at `W9`, left at `W10`. Its arrays are split
    out of the unscoped buffers and put back at the exit contents; the generator register goes into the invariant
    and comes back; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (hb7 (V9 m ρ) c).loose
  hwaits := Pipeline.hwaits_of_owed_zero _ _ _ _ L lv 7 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec7 c (V9 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = (dat7 (V9 m ρ) c).Φ 0 from rfl]
    refine BIBase.Entails.trans ?_ (hin7 (V9 m ρ) c)
    unfold Pipeline.ΦA
    iintro ⟨Hp, -, Hr⟩
    isplitl [Hr]; · iexact Hr
    iexact Hp
  hout c := by
    rw [Pipeline.ownSems0_none, show (pdats m ρ 7 c).Φ (Fin.last _) = (dat7 (V9 m ρ) c).Φ (Fin.last cfg7.N) from rfl]
    refine BIBase.Entails.trans (hout7 (V9 m ρ) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V9 m ρ c) (V10 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration of pipeline 8 with the printed one takes unfolding
-- plain definitions in a metavariable's type
set_option backward.isDefEq.respectTransparency.types false in
/-- Region 8 over the thread state: entered from every unscoped buffer at `W11`, left at `W12`. Its arrays are split
    out of the unscoped buffers and put back at the exit contents; the generator register goes into the invariant
    and comes back; nothing is owed; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V11 m ρ) c).loose
  hwaits := Pipeline.hwaits_of_owed_zero _ _ _ _ L lv 8 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec8 c (V11 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V11 m ρ c) (V12 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration of pipeline 9 with the printed one takes unfolding
-- plain definitions in a metavariable's type
set_option backward.isDefEq.respectTransparency.types false in
/-- Region 9 over the thread state: entered from every unscoped buffer at `W18`, left at `W19`. Its arrays are split
    out of the unscoped buffers and put back at the exit contents; the generator register goes into the invariant
    and comes back; nothing is owed; the kernel has no semaphore of its own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V18 m ρ) c).loose
  hwaits := Pipeline.hwaits_of_owed_zero _ _ _ _ L lv 9 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := UR sig nD τ) (Lvl := ℕ) spec9 c (V18 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V18 m ρ c) (V19 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration of pipeline 10 with the printed one takes unfolding
-- plain definitions in a metavariable's type
set_option backward.isDefEq.respectTransparency.types false in
/-- Region 10 over the thread state: entered from every unscoped buffer at `W19`, left at `W20`. Its arrays are split
    out of the unscoped buffers and put back at the exit contents; the generator register goes into the invariant
    and comes back; nothing is owed; the kernel has no semaphore of its own. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (hb10 (V19 m ρ) c).loose
  hwaits := Pipeline.hwaits_of_owed_zero _ _ _ _ L lv 10 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec10 c (V19 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = (dat10 (V19 m ρ) c).Φ 0 from rfl]
    refine BIBase.Entails.trans ?_ (hin10 (V19 m ρ) c)
    unfold Pipeline.ΦA
    iintro ⟨Hp, -, Hr⟩
    isplitl [Hr]; · iexact Hr
    iexact Hp
  hout c := by
    rw [Pipeline.ownSems0_none, show (pdats m ρ 10 c).Φ (Fin.last _) = (dat10 (V19 m ρ) c).Φ (Fin.last cfg10.N) from rfl]
    refine BIBase.Entails.trans (hout10 (V19 m ρ) c) ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V19 m ρ c) (V20 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration of pipeline 11 with the printed one takes unfolding
-- plain definitions in a metavariable's type
set_option backward.isDefEq.respectTransparency.types false in
/-- Region 11 over the thread state: entered from every unscoped buffer at `W21`, left at `W22`. Its arrays are split
    out of the unscoped buffers and put back at the exit contents; the generator register goes into the invariant
    and comes back; nothing is owed; the kernel has no semaphore of its own. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V21 m ρ) c).loose
  hwaits := Pipeline.hwaits_of_owed_zero _ _ _ _ L lv 11 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec11 c (V21 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V21 m ρ c) (V22 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.MainResult.lean ====
import proofs.«157460_j63591285784858_2_alg».proof.Proof.KI.MainFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The result array after the run

The last stretch is one operation, the slice of region 11's output array to its first 1000 columns; region 11's
output array is left at the fold of its write-backs. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result array at the last boundary is the slice of what the boundary before holds in region 11's output array. -/
theorem W23_main_v23 (c : Dev nD) :
    W23 m ρ c (Proc.devRef .tc main_v23)
      = extractStridedSlice S4096x1000 ![0, 0] (W22 m ρ c (Proc.devRef .tc main_v22)) slices_S4096x1024_S4096x1000_0_0 := by
  show StableHlo.after hostOps12 (W22 m ρ c) (Proc.devRef .tc main_v23) = _
  simp only [hostOps12, StableHlo.after_cons, StableHlo.after_nil]
  exact StableHlo.unary_result _ _ _ _ _ _

/-- The result array at the last boundary is the slice of what region 11 leaves in its output array. -/
theorem result_eq (c : Dev nD) :
    W23 m ρ c (Proc.devRef .tc main_v23)
      = extractStridedSlice S4096x1000 ![0, 0] ((dat11 (V21 m ρ) c).arrAt 5 cfg11.N) slices_S4096x1024_S4096x1000_0_0 :=
  (W23_main_v23 m ρ c).trans (congrArg (extractStridedSlice S4096x1000 ![0, 0] · slices_S4096x1024_S4096x1000_0_0) (W22_main_v22 m ρ c))

end Cert.KernelIdeal.Hand

end
-- ==== Proof.KI.MainRun.lean ====
import proofs.«157460_j63591285784858_2_alg».proof.Proof.KI.MainRegs
import proofs.«157460_j63591285784858_2_alg».proof.Proof.KI.MainResult
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of the whole program

The program is the run of its 23 segments; the launch theorem for a program of several regions gives, for every
weakly fair execution, termination without a fault in a state whose unscoped buffers are at the last boundary's
contents. The body obligations of the four matrix-product regions are hypotheses here. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (hb1 : ∀ (V : (c : Dev nD) → (b : Ref sig .tc) → Buf (Elt F) ((c : Thread nD τ).loc b)) (c : Dev nD), BodyObligation (dat1 (F := F) V c) (defs₀ (F := F)) Variants.none () Set.univ)
  (hb4 : ∀ (V : (c : Dev nD) → (b : Ref sig .tc) → Buf (Elt F) ((c : Thread nD τ).loc b)) (c : Dev nD), BodyObligation (dat4 (F := F) V c) (defs₀ (F := F)) Variants.none () Set.univ)
  (hb7 : ∀ (V : (c : Dev nD) → (b : Ref sig .tc) → Buf (Elt F) ((c : Thread nD τ).loc b)) (c : Dev nD), BodyObligation (dat7 (F := F) V c) (defs₀ (F := F)) Variants.none () Set.univ)
  (hb10 : ∀ (V : (c : Dev nD) → (b : Ref sig .tc) → Buf (Elt F) ((c : Thread nD τ).loc b)) (c : Dev nD), BodyObligation (dat10 (F := F) V c) (defs₀ (F := F)) Variants.none () Set.univ)
variable (m : (ℓ : Loc nD τ sig) → Buf (Elt F) ℓ) (ρ : Dev nD → PrngReg)

/-- The program's 23 segments in order: a region per kernel launch, a host segment per stretch from its boundary's
    contents. -/
abbrev segs : List (Pipeline.Seg (pcfgs (F := F)) adm (pdats m ρ) () defs₀ 𝒱₀ L lv) :=
  [ .region (reg0 m ρ),
    .region (reg1 hb1 m ρ),
    .host (hseg hostOps2 hostOps2_sub hostOps2_fresh (W2 m ρ)),
    .region (reg2 m ρ),
    .region (reg3 m ρ),
    .region (reg4 hb4 m ρ),
    .host (hseg hostOps5 hostOps5_sub hostOps5_fresh (W6 m ρ)),
    .region (reg5 m ρ),
    .region (reg6 m ρ),
    .region (reg7 hb7 m ρ),
    .host (hseg hostOps8 hostOps8_sub hostOps8_fresh (W10 m ρ)),
    .region (reg8 m ρ),
    .host (hseg hostOps9 hostOps9_sub hostOps9_fresh (W12 m ρ)),
    .host (hseg hostOps9_1 hostOps9_1_sub hostOps9_1_fresh (W13 m ρ)),
    .host (hseg hostOps9_2 hostOps9_2_sub hostOps9_2_fresh (W14 m ρ)),
    .host (hseg hostOps9_3 hostOps9_3_sub hostOps9_3_fresh (W15 m ρ)),
    .host (hseg hostOps9_4 hostOps9_4_sub hostOps9_4_fresh (W16 m ρ)),
    .host (hseg hostOps9_5 hostOps9_5_sub hostOps9_5_fresh (W17 m ρ)),
    .region (reg9 m ρ),
    .region (reg10 hb10 m ρ),
    .host (hseg hostOps11 hostOps11_sub hostOps11_fresh (W20 m ρ)),
    .region (reg11 m ρ),
    .host (hseg hostOps12 hostOps12_sub hostOps12_fresh (W22 m ρ)) ]
/-- The program is the run of the segments: the chain of its items, then the segments' run against that chain by the
    kernel's definitional check. -/
theorem main_run (c : Dev nD) : main (F := F) c = Pipeline.Seg.run (segs hb1 hb4 hb7 hb10 m ρ) := (main_chain c).trans (by chain_rfl)

include hb1 hb4 hb7 hb10

-- the launch theorem's implicit arguments are found by unifying its conclusion with this one, which takes unfolding
-- plain definitions in a metavariable's type
set_option backward.isDefEq.respectTransparency.types false in
/-- From any memory with zero counters, every weakly fair execution of the program on the TensorCores terminates,
    nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W23 m ρ c b) :=
  Pipeline.θ_run_regions_kit (pcfgs (F := F)) adm (pdats m ρ) () cellOf_inj emb₁ defs₀ 𝒱₀ L lv m ρ main (segs hb1 hb4 hb7 hb10 m ρ)
    (fun c Q => by rw [main_run hb1 hb4 hb7 hb10 m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun _ h => h)

/-- The frame claim: every weakly fair execution terminates, nothing faulting, and every argument array ends as
    launched — each read off the last boundary's contents, which the fold walks back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs (onTc (τ := τ) (main (F := F))) ⟨m, fun _ => 0, ρ⟩).mono
    (Q := fun r => ∀ c : Dev nD, ∀ b ∈ Pipeline.ucRefs τ sig, r.2.mem (((c : Thread nD τ)).1, b) = W23 m ρ c b)
    (fun r h c => ⟨(h c _ (mem_uc main_arg0 (by decide))).trans (W23_main_arg0 m ρ c),
      (h c _ (mem_uc main_arg1 (by decide))).trans (W23_main_arg1 m ρ c),
      (h c _ (mem_uc main_arg2 (by decide))).trans (W23_main_arg2 m ρ c),
      (h c _ (mem_uc main_arg3 (by decide))).trans (W23_main_arg3 m ρ c),
      (h c _ (mem_uc main_arg4 (by decide))).trans (W23_main_arg4 m ρ c),
      (h c _ (mem_uc main_arg5 (by decide))).trans (W23_main_arg5 m ρ c),
      (h c _ (mem_uc main_arg6 (by decide))).trans (W23_main_arg6 m ρ c),
      (h c _ (mem_uc main_arg7 (by decide))).trans (W23_main_arg7 m ρ c),
      (h c _ (mem_uc main_arg8 (by decide))).trans (W23_main_arg8 m ρ c),
      (h c _ (mem_uc main_arg9 (by decide))).trans (W23_main_arg9 m ρ c),
      (h c _ (mem_uc main_arg10 (by decide))).trans (W23_main_arg10 m ρ c),
      (h c _ (mem_uc main_arg11 (by decide))).trans (W23_main_arg11 m ρ c),
      (h c _ (mem_uc main_arg12 (by decide))).trans (W23_main_arg12 m ρ c)⟩)
    (run_all hb1 hb4 hb7 hb10 m ρ)

/-- What the frame's run says of the result array: in every final state it holds the last boundary's contents. -/
theorem run_result : θ_run defs (onTc (τ := τ) (main (F := F))) ⟨m, fun _ => 0, ρ⟩ (fun r => ∀ c : Dev nD,
      r.2.mem ((c.tc : Thread nD τ).loc main_v23) = W23 m ρ c (Proc.devRef .tc main_v23)) :=
  (θ_run defs (onTc (τ := τ) (main (F := F))) ⟨m, fun _ => 0, ρ⟩).mono
    (Q := fun r => ∀ c : Dev nD, ∀ b ∈ Pipeline.ucRefs τ sig, r.2.mem (((c : Thread nD τ)).1, b) = W23 m ρ c b)
    (fun r h c => h c _ (mem_uc main_v23 (by decide)))
    (run_all hb1 hb4 hb7 hb10 m ρ)

end Cert.KernelIdeal.Hand

end
-- ==== Proof.K.Region0.lean ====
import proofs.«157460_j63591285784858_2_alg».proof.Proof.Gen.Kernel.Launch
import proofs.«157460_j63591285784858_2_alg».proof.Proof.Gen.Kernel.Skeleton
import proofs.«157460_j63591285784858_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: the elementwise sign kernel, one input window and one output window

The body reads its whole input block, reads the output buffer once (the value is not used) and overwrites
the output buffer whole with the payload of the input block.  Hence after the body the input window's buffer
still holds its block and the output window's buffer holds the payload of that block. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    the region-entry array and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body accesses: the whole block. -/
abbrev r0_0 : Rect S256x2048 := Rect.unit (s := S256x2048) ![0, 0] S256x2048.size inb_S256x2048_S256x2048_0_0

/-- The output window's buffer after the body: the single whole-block store of the payload of the input block. -/
def out0_1 (x0 : Vec F S256x2048 .f32) : Vec F S256x2048 .bf16 :=
  View.canon [⟨r0_0, k0_pay1 (View.ld x0 r0_0)⟩]

/-- The store's rectangle is the whole buffer, so it covers every index. -/
theorem cover0_1 (p0 : Vec F S256x2048 .bf16) (y : S256x2048.Idx) :
    ∃ pc ∈ ([⟨r0_0, p0⟩] : List (View.Piece (Elt F) S256x2048 .bf16)), y ∈ pc.1.set :=
  View.cover_of_tiled [⟨r0_0, p0⟩] S256x2048.size (by rfl) y

set_option maxHeartbeats 1000000 in
/-- The body on whole staging memrefs, the input's at contents `x0` and the output's at anything, runs to the
    continuation with the input's unchanged and the output's at `out0_1 x0`. -/
theorem sound_kernel0 (c : Dev nD) (E : Set ℕ) (i : grid0.Coords) (arg1 : Memref sig .tc .vmem S256x2048 .f32) (harg1 : arg1.IsWhole) (arg2 : Memref sig .tc .vmem S256x2048 .bf16) (harg2 : arg2.IsWhole)
    (x0 : Vec F S256x2048 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__sign_bf16_kernel i arg1 harg1 arg2 harg2) K := by
  simp only [cc0__sign_bf16_kernel_eq_skeleton]; unfold cc0__sign_bf16_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of pipeline 0 on core `c`: the arrays as the region finds them; after the body at point `t`
    the input's buffer at its block and the output's at `out0_1` of that block; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the body's triple applies; the invariant and
    the core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.K.Region2.lean ====
import proofs.«157460_j63591285784858_2_alg».proof.Proof.Gen.Kernel.Launch
import proofs.«157460_j63591285784858_2_alg».proof.Proof.Gen.Kernel.Skeleton
import proofs.«157460_j63591285784858_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2: the normalize-and-sign kernel, five input windows and one output window

The body reads its five input blocks whole (the 1024×1024 tile and four 1×1024 rows), reads the output buffer
once (the value is not used) and overwrites the output buffer whole with the payload of the five blocks.  Hence
after the body every input window's buffer still holds its block and the output window's buffer holds the
payload of those blocks.  The payload takes the rows in the order the body loads them: windows 0, 2, 3, 1, 4. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is
    the region-entry array and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, for any proof data whose array is
    the region-entry array and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, for any proof data whose array is
    the region-entry array and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, for any proof data whose array is
    the region-entry array and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, for any proof data whose array is
    the region-entry array and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The two rectangles the body accesses: the whole tile and the whole row. -/
abbrev r2_0 : Rect S1024x1024 := Rect.unit (s := S1024x1024) ![0, 0] S1024x1024.size inb_S1024x1024_S1024x1024_0_0
abbrev r2_1 : Rect S1x1024 := Rect.unit (s := S1x1024) ![0, 0] S1x1024.size inb_S1x1024_S1x1024_0_0

/-- The output window's buffer after the body: the single whole-tile store of the payload of the input blocks. -/
def out2_5 (x0 : Vec F S1024x1024 .f32) (x1 : Vec F S1x1024 .f32) (x2 : Vec F S1x1024 .f32) (x3 : Vec F S1x1024 .f32) (x4 : Vec F S1x1024 .f32) : Vec F S1024x1024 .bf16 :=
  View.canon [⟨r2_0, k2_pay1 (View.ld x0 r2_0) (View.ld x2 r2_1) (View.ld x3 r2_1) (View.ld x1 r2_1) (View.ld x4 r2_1)⟩]

/-- The store's rectangle is the whole buffer, so it covers every index. -/
theorem cover2_5 (p0 : Vec F S1024x1024 .bf16) (y : S1024x1024.Idx) :
    ∃ pc ∈ ([⟨r2_0, p0⟩] : List (View.Piece (Elt F) S1024x1024 .bf16)), y ∈ pc.1.set :=
  View.cover_of_tiled [⟨r2_0, p0⟩] S1024x1024.size (by rfl) y

set_option maxHeartbeats 1000000 in
/-- The body on whole staging memrefs, the inputs' at contents `x0 … x4` and the output's at anything, runs to the
    continuation with the inputs' unchanged and the output's at `out2_5 x0 x1 x2 x3 x4`. -/
theorem sound_kernel2 (c : Dev nD) (E : Set ℕ) (i : grid2.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole)
    (x0 : Vec F S1024x1024 .f32) (x1 : Vec F S1x1024 .f32) (x2 : Vec F S1x1024 .f32) (x3 : Vec F S1x1024 .f32) (x4 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out2_5 x0 x1 x2 x3 x4)) -∗ K ⟨⟩))
      ⊢ wp frame (wpE (defs₀ (F := F)) Variants.none c none) E (cc2__norm_act_kernel i arg2 harg2 arg3 harg3 arg4 harg4 arg5 harg5 arg6 harg6 arg7 harg7) K := by
  simp only [cc2__norm_act_kernel_eq_skeleton]; unfold cc2__norm_act_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of pipeline 2 on core `c`: the arrays as the region finds them; after the body at point `t`
    each input's buffer at its block and the output's at `out2_5` of the input blocks; the scoped rest and the
    generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and
    the core's owed count pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.Kernel.Hand

end
-- ==== Proof.K.Region3.lean ====
import proofs.«157460_j63591285784858_2_alg».proof.Proof.Gen.Kernel.Launch
import proofs.«157460_j63591285784858_2_alg».proof.Proof.Gen.Kernel.Skeleton
import proofs.«157460_j63591285784858_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3: the elementwise sign kernel, one input window and one output window

The body reads its whole input block, reads the output buffer once (the value is not used) and overwrites
the output buffer whole with the payload of the input block.  Hence after the body the input window's buffer
still holds its block and the output window's buffer holds the payload of that block. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window's current staging buffer holds its block at every point, for any proof data whose array is
    the region-entry array and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The one rectangle the body accesses: the whole block. -/
abbrev r3_0 : Rect S256x4096 := Rect.unit (s := S256x4096) ![0, 0] S256x4096.size inb_S256x4096_S256x4096_0_0

/-- The output window's buffer after the body: the single whole-block store of the payload of the input block. -/
def out3_1 (x0 : Vec F S256x4096 .f32) : Vec F S256x4096 .bf16 :=
  View.canon [⟨r3_0, k3_pay1 (View.ld x0 r3_0)⟩]

/-- The store's rectangle is the whole buffer, so it covers every index. -/
theorem cover3_1 (p0 : Vec F S256x4096 .bf16) (y : S256x4096.Idx) :
    ∃ pc ∈ ([⟨r3_0, p0⟩] : List (View.Piece (Elt F) S256x4096 .bf16)), y ∈ pc.1.set :=
  View.cover_of_tiled [⟨r3_0, p0⟩] S256x4096.size (by rfl) y

set_option maxHeartbeats 1000000 in
/-- The body on whole staging memrefs, the input's at contents `x0` and the output's at anything, runs to the
    continuation with the input's unchanged and the output's at `out3_1 x0`. -/
theorem sound_kernel3 (c : Dev nD) (E : Set ℕ) (i : grid3.Coords) (arg1 : Memref sig .tc .vmem S256x4096 .f32) (harg1 : arg1.IsWhole) (arg2 : Memref sig .tc .vmem S256x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out3_1 x0)) -∗ K ⟨⟩))
      ⊢ wp frame (wpE (defs₀ (F := F)) Variants.none c none) E (cc3__sign_bf16_kernel i arg1 harg1 arg2 harg2) K := by
  simp only [cc3__sign_bf16_kernel_eq_skeleton]; unfold cc3__sign_bf16_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-- The proof data of pipeline 3 on core `c`: the arrays as the region finds them; after the body at point `t`
    the input's buffer at its block and the output's at `out3_1` of that block; the scoped rest and the
    generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]

theorem before3_0 (c : Dev nD) (t : Fin cfg3.N) (d) : (dat3 V c).before 0 t d = iblk3 V c 0 t :=
  before3_0_of V (dat3 V c) (A_eq3 V c 0) (after3_0 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

/-- The body at any point: the input's memref holds its block, so the body's triple applies; the invariant and
    the core's owed count pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ (grid3.coords t) _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation3 (c : Dev nD) : BodyObligation (dat3 (F := F) V c) (defs₀ (F := F)) Variants.none () Set.univ := fun t => by
  rw [bigSep_W3, bigSep_W3]
  exact sound_body3 V c t

end Regions

end Cert.Kernel.Hand

end
-- ==== Proof.K.Region5.lean ====
import proofs.«157460_j63591285784858_2_alg».proof.Proof.Gen.Kernel.Launch
import proofs.«157460_j63591285784858_2_alg».proof.Proof.Gen.Kernel.Skeleton
import proofs.«157460_j63591285784858_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 5: the normalize-and-sign kernel, five input windows and one output window

The body reads its five input blocks whole (the 1024×1024 tile and four 1×1024 rows), reads the output buffer
once (the value is not used) and overwrites the output buffer whole with the payload of the five blocks.  Hence
after the body every input window's buffer still holds its block and the output window's buffer holds the
payload of those blocks.  The payload takes the rows in the order the body loads them: windows 0, 2, 3, 1, 4. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, for any proof data whose array is
    the region-entry array and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, for any proof data whose array is
    the region-entry array and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, for any proof data whose array is
    the region-entry array and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, for any proof data whose array is
    the region-entry array and whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block at every point, for any proof data whose array is
    the region-entry array and whose body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The two rectangles the body accesses: the whole tile and the whole row. -/
abbrev r5_0 : Rect S1024x1024 := Rect.unit (s := S1024x1024) ![0, 0] S1024x1024.size inb_S1024x1024_S1024x1024_0_0
abbrev r5_1 : Rect S1x1024 := Rect.unit (s := S1x1024) ![0, 0] S1x1024.size inb_S1x1024_S1x1024_0_0

/-- The output window's buffer after the body: the single whole-tile store of the payload of the input blocks. -/
def out5_5 (x0 : Vec F S1024x1024 .f32) (x1 : Vec F S1x1024 .f32) (x2 : Vec F S1x1024 .f32) (x3 : Vec F S1x1024 .f32) (x4 : Vec F S1x1024 .f32) : Vec F S1024x1024 .bf16 :=
  View.canon [⟨r5_0, k5_pay1 (View.ld x0 r5_0) (View.ld x2 r5_1) (View.ld x3 r5_1) (View.ld x1 r5_1) (View.ld x4 r5_1)⟩]

/-- The store's rectangle is the whole buffer, so it covers every index. -/
theorem cover5_5 (p0 : Vec F S1024x1024 .bf16) (y : S1024x1024.Idx) :
    ∃ pc ∈ ([⟨r5_0, p0⟩] : List (View.Piece (Elt F) S1024x1024 .bf16)), y ∈ pc.1.set :=
  View.cover_of_tiled [⟨r5_0, p0⟩] S1024x1024.size (by rfl) y

set_option maxHeartbeats 1000000 in
/-- The body on whole staging memrefs, the inputs' at contents `x0 … x4` and the output's at anything, runs to the
    continuation with the inputs' unchanged and the output's at `out5_5 x0 x1 x2 x3 x4`. -/
theorem sound_kernel5 (c : Dev nD) (E : Set ℕ) (i : grid5.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole)
    (x0 : Vec F S1024x1024 .f32) (x1 : Vec F S1x1024 .f32) (x2 : Vec F S1x1024 .f32) (x3 : Vec F S1x1024 .f32) (x4 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out5_5 x0 x1 x2 x3 x4)) -∗ K ⟨⟩))
      ⊢ wp frame (wpE (defs₀ (F := F)) Variants.none c none) E (cc5__norm_act_kernel i arg2 harg2 arg3 harg3 arg4 harg4 arg5 harg5 arg6 harg6 arg7 harg7) K := by
  simp only [cc5__norm_act_kernel_eq_skeleton]; unfold cc5__norm_act_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data of pipeline 5 on core `c`: the arrays as the region finds them; after the body at point `t`
    each input's buffer at its block and the output's at `out5_5` of the input blocks; the scoped rest and the
    generator register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so the body's triple applies; the invariant and
    the core's owed count pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation5 (c : Dev nD) : BodyObligation (dat5 (F := F) V c) (defs₀ (F := F)) Variants.none () Set.univ := fun t => by
  rw [bigSep_W5, bigSep_W5]
  exact sound_body5 V c t

end Regions

end Cert.Kernel.Hand

end
-- ==== Proof.K.Region6.lean ====
import proofs.«157460_j63591285784858_2_alg».proof.Proof.Gen.Kernel.Launch
import proofs.«157460_j63591285784858_2_alg».proof.Proof.Gen.Kernel.Skeleton
import proofs.«157460_j63591285784858_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 6: the elementwise sign kernel, one input window and one output window

The body reads its whole input block, reads the output buffer once (the value is not used) and overwrites
the output buffer whole with the payload of the input block.  Hence after the body the input window's buffer
still holds its block and the output window's buffer holds the payload of that block. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The input window's current staging buffer holds its block at every point, for any proof data whose array is
    the region-entry array and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The one rectangle the body accesses: the whole block. -/
abbrev r6_0 : Rect S256x4096 := Rect.unit (s := S256x4096) ![0, 0] S256x4096.size inb_S256x4096_S256x4096_0_0

/-- The output window's buffer after the body: the single whole-block store of the payload of the input block. -/
def out6_1 (x0 : Vec F S256x4096 .f32) : Vec F S256x4096 .bf16 :=
  View.canon [⟨r6_0, k6_pay1 (View.ld x0 r6_0)⟩]

/-- The store's rectangle is the whole buffer, so it covers every index. -/
theorem cover6_1 (p0 : Vec F S256x4096 .bf16) (y : S256x4096.Idx) :
    ∃ pc ∈ ([⟨r6_0, p0⟩] : List (View.Piece (Elt F) S256x4096 .bf16)), y ∈ pc.1.set :=
  View.cover_of_tiled [⟨r6_0, p0⟩] S256x4096.size (by rfl) y

set_option maxHeartbeats 1000000 in
/-- The body on whole staging memrefs, the input's at contents `x0` and the output's at anything, runs to the
    continuation with the input's unchanged and the output's at `out6_1 x0`. -/
theorem sound_kernel6 (c : Dev nD) (E : Set ℕ) (i : grid6.Coords) (arg1 : Memref sig .tc .vmem S256x4096 .f32) (harg1 : arg1.IsWhole) (arg2 : Memref sig .tc .vmem S256x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out6_1 x0)) -∗ K ⟨⟩))
      ⊢ wp frame (wpE (defs₀ (F := F)) Variants.none c none) E (cc6__sign_bf16_kernel i arg1 harg1 arg2 harg2) K := by
  simp only [cc6__sign_bf16_kernel_eq_skeleton]; unfold cc6__sign_bf16_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover6_1 _)

/-- The proof data of pipeline 6 on core `c`: the arrays as the region finds them; after the body at point `t`
    the input's buffer at its block and the output's at `out6_1` of that block; the scoped rest and the
    generator register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => out6_1 (iblk6 V c 0 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = out6_1 (iblk6 V c 0 t) := by dsimp only [dat6]

theorem before6_0 (c : Dev nD) (t : Fin cfg6.N) (d) : (dat6 V c).before 0 t d = iblk6 V c 0 t :=
  before6_0_of V (dat6 V c) (A_eq6 V c 0) (after6_0 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t))

/-- The body at any point: the input's memref holds its block, so the body's triple applies; the invariant and
    the core's owed count pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0]
  rw [show (dat6 V c).Φ t.succ = (dat6 V c).Φ t.castSucc from rfl,
    show (dat6 V c).owesAt () t.succ = (dat6 V c).owesAt () t.castSucc from rfl,
    after6_0, after6_1]
  iintro ⟨HΦ, Ho, ⟨%d0, H0⟩, ⟨%d1, H1⟩⟩
  iapply (sound_kernel6 c Set.univ (grid6.coords t) _ _ _ _ (iblk6 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation6 (c : Dev nD) : BodyObligation (dat6 (F := F) V c) (defs₀ (F := F)) Variants.none () Set.univ := fun t => by
  rw [bigSep_W6, bigSep_W6]
  exact sound_body6 V c t

end Regions

end Cert.Kernel.Hand

end
-- ==== Proof.K.Region8.lean ====
import proofs.«157460_j63591285784858_2_alg».proof.Proof.Gen.Kernel.Launch
import proofs.«157460_j63591285784858_2_alg».proof.Proof.Gen.Kernel.Skeleton
import proofs.«157460_j63591285784858_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 8: the normalize-and-sign kernel, five input windows and one output window

The body reads its five input blocks whole (the 1024×1024 tile and four 1×1024 rows), reads the output buffer
once (the value is not used) and overwrites the output buffer whole with the payload of the five blocks.  Hence
after the body every input window's buffer still holds its block and the output window's buffer holds the
payload of those blocks.  The payload takes the rows in the order the body loads them: windows 0, 2, 3, 1, 4. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, for any proof data whose array is
    the region-entry array and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- Input window 1's current staging buffer holds its block at every point, for any proof data whose array is
    the region-entry array and whose body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- Input window 2's current staging buffer holds its block at every point, for any proof data whose array is
    the region-entry array and whose body leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
/-- Input window 3's current staging buffer holds its block at every point, for any proof data whose array is
    the region-entry array and whose body leaves the block in place. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
/-- Input window 4's current staging buffer holds its block at every point, for any proof data whose array is
    the region-entry array and whose body leaves the block in place. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- The two rectangles the body accesses: the whole tile and the whole row. -/
abbrev r8_0 : Rect S1024x1024 := Rect.unit (s := S1024x1024) ![0, 0] S1024x1024.size inb_S1024x1024_S1024x1024_0_0
abbrev r8_1 : Rect S1x1024 := Rect.unit (s := S1x1024) ![0, 0] S1x1024.size inb_S1x1024_S1x1024_0_0

/-- The output window's buffer after the body: the single whole-tile store of the payload of the input blocks. -/
def out8_5 (x0 : Vec F S1024x1024 .f32) (x1 : Vec F S1x1024 .f32) (x2 : Vec F S1x1024 .f32) (x3 : Vec F S1x1024 .f32) (x4 : Vec F S1x1024 .f32) : Vec F S1024x1024 .bf16 :=
  View.canon [⟨r8_0, k8_pay1 (View.ld x0 r8_0) (View.ld x2 r8_1) (View.ld x3 r8_1) (View.ld x1 r8_1) (View.ld x4 r8_1)⟩]

/-- The store's rectangle is the whole buffer, so it covers every index. -/
theorem cover8_5 (p0 : Vec F S1024x1024 .bf16) (y : S1024x1024.Idx) :
    ∃ pc ∈ ([⟨r8_0, p0⟩] : List (View.Piece (Elt F) S1024x1024 .bf16)), y ∈ pc.1.set :=
  View.cover_of_tiled [⟨r8_0, p0⟩] S1024x1024.size (by rfl) y

set_option maxHeartbeats 1000000 in
/-- The body on whole staging memrefs, the inputs' at contents `x0 … x4` and the output's at anything, runs to the
    continuation with the inputs' unchanged and the output's at `out8_5 x0 x1 x2 x3 x4`. -/
theorem sound_kernel8 (c : Dev nD) (E : Set ℕ) (i : grid8.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole)
    (x0 : Vec F S1024x1024 .f32) (x1 : Vec F S1x1024 .f32) (x2 : Vec F S1x1024 .f32) (x3 : Vec F S1x1024 .f32) (x4 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out8_5 x0 x1 x2 x3 x4)) -∗ K ⟨⟩))
      ⊢ wp frame (wpE (defs₀ (F := F)) Variants.none c none) E (cc8__norm_act_kernel i arg2 harg2 arg3 harg3 arg4 harg4 arg5 harg5 arg6 harg6 arg7 harg7) K := by
  simp only [cc8__norm_act_kernel_eq_skeleton]; unfold cc8__norm_act_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-- The proof data of pipeline 8 on core `c`: the arrays as the region finds them; after the body at point `t`
    each input's buffer at its block and the output's at `out8_5` of the input blocks; the scoped rest and the
    generator register untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' memrefs hold their blocks, so the body's triple applies; the invariant and
    the core's owed count pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ (grid8.coords t) _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation8 (c : Dev nD) : BodyObligation (dat8 (F := F) V c) (defs₀ (F := F)) Variants.none () Set.univ := fun t => by
  rw [bigSep_W8, bigSep_W8]
  exact sound_body8 V c t

end Regions

end Cert.Kernel.Hand

end
-- ==== Proof.K.Region9.lean ====
import proofs.«157460_j63591285784858_2_alg».proof.Proof.Gen.Kernel.Launch
import proofs.«157460_j63591285784858_2_alg».proof.Proof.Gen.Kernel.Skeleton
import proofs.«157460_j63591285784858_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 9: the elementwise sign kernel, one input window and one output window

The body reads its whole input block, reads the output buffer once (the value is not used) and overwrites
the output buffer whole with the payload of the input block.  Hence after the body the input window's buffer
still holds its block and the output window's buffer holds the payload of that block. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The input window's current staging buffer holds its block at every point, for any proof data whose array is
    the region-entry array and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- The one rectangle the body accesses: the whole block. -/
abbrev r9_0 : Rect S256x4096 := Rect.unit (s := S256x4096) ![0, 0] S256x4096.size inb_S256x4096_S256x4096_0_0

/-- The output window's buffer after the body: the single whole-block store of the payload of the input block. -/
def out9_1 (x0 : Vec F S256x4096 .f32) : Vec F S256x4096 .bf16 :=
  View.canon [⟨r9_0, k9_pay1 (View.ld x0 r9_0)⟩]

/-- The store's rectangle is the whole buffer, so it covers every index. -/
theorem cover9_1 (p0 : Vec F S256x4096 .bf16) (y : S256x4096.Idx) :
    ∃ pc ∈ ([⟨r9_0, p0⟩] : List (View.Piece (Elt F) S256x4096 .bf16)), y ∈ pc.1.set :=
  View.cover_of_tiled [⟨r9_0, p0⟩] S256x4096.size (by rfl) y

set_option maxHeartbeats 1000000 in
/-- The body on whole staging memrefs, the input's at contents `x0` and the output's at anything, runs to the
    continuation with the input's unchanged and the output's at `out9_1 x0`. -/
theorem sound_kernel9 (c : Dev nD) (E : Set ℕ) (i : grid9.Coords) (arg1 : Memref sig .tc .vmem S256x4096 .f32) (harg1 : arg1.IsWhole) (arg2 : Memref sig .tc .vmem S256x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out9_1 x0)) -∗ K ⟨⟩))
      ⊢ wp frame (wpE (defs₀ (F := F)) Variants.none c none) E (cc9__sign_bf16_kernel i arg1 harg1 arg2 harg2) K := by
  simp only [cc9__sign_bf16_kernel_eq_skeleton]; unfold cc9__sign_bf16_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover9_1 _)

/-- The proof data of pipeline 9 on core `c`: the arrays as the region finds them; after the body at point `t`
    the input's buffer at its block and the output's at `out9_1` of that block; the scoped rest and the
    generator register untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => out9_1 (iblk9 V c 0 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = out9_1 (iblk9 V c 0 t) := by dsimp only [dat9]

theorem before9_0 (c : Dev nD) (t : Fin cfg9.N) (d) : (dat9 V c).before 0 t d = iblk9 V c 0 t :=
  before9_0_of V (dat9 V c) (A_eq9 V c 0) (after9_0 V c) t d

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t))

/-- The body at any point: the input's memref holds its block, so the body's triple applies; the invariant and
    the core's owed count pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0]
  rw [show (dat9 V c).Φ t.succ = (dat9 V c).Φ t.castSucc from rfl,
    show (dat9 V c).owesAt () t.succ = (dat9 V c).owesAt () t.castSucc from rfl,
    after9_0, after9_1]
  iintro ⟨HΦ, Ho, ⟨%d0, H0⟩, ⟨%d1, H1⟩⟩
  iapply (sound_kernel9 c Set.univ (grid9.coords t) _ _ _ _ (iblk9 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation9 (c : Dev nD) : BodyObligation (dat9 (F := F) V c) (defs₀ (F := F)) Variants.none () Set.univ := fun t => by
  rw [bigSep_W9, bigSep_W9]
  exact sound_body9 V c t

end Regions

end Cert.Kernel.Hand

end
-- ==== Proof.K.Region11.lean ====
import proofs.«157460_j63591285784858_2_alg».proof.Proof.Gen.Kernel.Launch
import proofs.«157460_j63591285784858_2_alg».proof.Proof.Gen.Kernel.Skeleton
import proofs.«157460_j63591285784858_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 11: the normalize kernel (f32 output, no sign step), five input windows and one output window

The body reads its five input blocks whole (the 1024×1024 tile and four 1×1024 rows), reads the output buffer
once (the value is not used) and overwrites the output buffer whole with the payload of the five blocks.  Hence
after the body every input window's buffer still holds its block and the output window's buffer holds the
payload of those blocks.  The payload takes the rows in the order the body loads them: windows 0, 2, 3, 1, 4. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, for any proof data whose array is
    the region-entry array and whose body leaves the block in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- Input window 1's current staging buffer holds its block at every point, for any proof data whose array is
    the region-entry array and whose body leaves the block in place. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- Input window 2's current staging buffer holds its block at every point, for any proof data whose array is
    the region-entry array and whose body leaves the block in place. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
/-- Input window 3's current staging buffer holds its block at every point, for any proof data whose array is
    the region-entry array and whose body leaves the block in place. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
/-- Input window 4's current staging buffer holds its block at every point, for any proof data whose array is
    the region-entry array and whose body leaves the block in place. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-- The two rectangles the body accesses: the whole tile and the whole row. -/
abbrev r11_0 : Rect S1024x1024 := Rect.unit (s := S1024x1024) ![0, 0] S1024x1024.size inb_S1024x1024_S1024x1024_0_0
abbrev r11_1 : Rect S1x1024 := Rect.unit (s := S1x1024) ![0, 0] S1x1024.size inb_S1x1024_S1x1024_0_0

/-- The output window's buffer after the body: the single whole-tile store of the payload of the input blocks. -/
def out11_5 (x0 : Vec F S1024x1024 .f32) (x1 : Vec F S1x1024 .f32) (x2 : Vec F S1x1024 .f32) (x3 : Vec F S1x1024 .f32) (x4 : Vec F S1x1024 .f32) : Vec F S1024x1024 .f32 :=
  View.canon [⟨r11_0, k11_pay1 (View.ld x0 r11_0) (View.ld x2 r11_1) (View.ld x3 r11_1) (View.ld x1 r11_1) (View.ld x4 r11_1)⟩]

/-- The store's rectangle is the whole buffer, so it covers every index. -/
theorem cover11_5 (p0 : Vec F S1024x1024 .f32) (y : S1024x1024.Idx) :
    ∃ pc ∈ ([⟨r11_0, p0⟩] : List (View.Piece (Elt F) S1024x1024 .f32)), y ∈ pc.1.set :=
  View.cover_of_tiled [⟨r11_0, p0⟩] S1024x1024.size (by rfl) y

set_option maxHeartbeats 1000000 in
/-- The body on whole staging memrefs, the inputs' at contents `x0 … x4` and the output's at anything, runs to the
    continuation with the inputs' unchanged and the output's at `out11_5 x0 x1 x2 x3 x4`. -/
theorem sound_kernel11 (c : Dev nD) (E : Set ℕ) (i : grid11.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole)
    (x0 : Vec F S1024x1024 .f32) (x1 : Vec F S1x1024 .f32) (x2 : Vec F S1x1024 .f32) (x3 : Vec F S1x1024 .f32) (x4 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out11_5 x0 x1 x2 x3 x4)) -∗ K ⟨⟩))
      ⊢ wp frame (wpE (defs₀ (F := F)) Variants.none c none) E (cc11__norm_act_kernel i arg2 harg2 arg3 harg3 arg4 harg4 arg5 harg5 arg6 harg6 arg7 harg7) K := by
  simp only [cc11__norm_act_kernel_eq_skeleton]; unfold cc11__norm_act_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover11_5 _)

/-- The proof data of pipeline 11 on core `c`: the arrays as the region finds them; after the body at point `t`
    each input's buffer at its block and the output's at `out11_5` of the input blocks; the scoped rest and the
    generator register untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = out11_5 (iblk11 V c 0 t) (iblk11 V c 1 t) (iblk11 V c 2 t) (iblk11 V c 3 t) (iblk11 V c 4 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d

/-- What the body is called with at point `t`, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

/-- The body at any point: the inputs' memrefs hold their blocks, so the body's triple applies; the invariant and
    the core's owed count pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ (grid11.coords t) _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation11 (c : Dev nD) : BodyObligation (dat11 (F := F) V c) (defs₀ (F := F)) Variants.none () Set.univ := fun t => by
  rw [bigSep_W11, bigSep_W11]
  exact sound_body11 V c t

end Regions

end Cert.Kernel.Hand

end
-- ==== Proof.K.R1Dat.lean ====
/-
  The proof data of matrix-product region 1, in closed form over the body's payloads. After the body at grid point n
  (n = 16 j + 4 i + k) the kernel's three scratch buffers hold a state (accumulator, running column sums, running
  column sums of squares): the accumulator is the block product added to the accumulator of the step before, or to
  zero at k = 0; the two rows are what the tile before left, or zero at i = 0, and at the last step k = 3 they receive
  the accumulator's column sums and column sums of squares. The product's output block after a last step is the
  accumulator, the mean's and the variance's are the scaled running sum and the clamped scaled difference. The region's
  invariant before point n > 0 is the three scratch buffers at the state after point n - 1.
-/
import proofs.«157460_j63591285784858_2_alg».proof.Proof.Gen.Kernel.Launch
import proofs.«157460_j63591285784858_2_alg».proof.Proof.Gen.Kernel.Skeleton
import proofs.«157460_j63591285784858_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## The scratch memrefs and the invariant with them split out -/

abbrev scM1_0 : Memref sig .tc .vmem S1024x1024 .f32 := Memref.whole cc1_scratch0
abbrev scM1_1 : Memref sig .tc .vmem S1x1024 .f32 := Memref.whole cc1_scratch1
abbrev scM1_2 : Memref sig .tc .vmem S1x1024 .f32 := Memref.whole cc1_scratch2

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d))
          ∗ Pipeline.scopedRestBut (Ix := Unit) (Name := ℕ) (U := UR sig nD τ) (Lvl := ℕ) (Val := Elt F) spec1 c [cc1_scratch0, cc1_scratch1, cc1_scratch2]) ∗ (∃ r, prngReg c r)) := by
  unfold Pipeline.ΦA; rw [scopedRest1_split]; simp only [scM1_0, scM1_1, scM1_2, owns_whole]; try rfl

/-! ## The carried state -/

/-- Accumulator, running column sums, running column sums of squares. -/
structure St1 (F : FTy → Type) [BitOps F] where
  acc : Vec F S1024x1024 .f32
  sum : Vec F S1x1024 .f32
  sq : Vec F S1x1024 .f32

/-- One grid point: from the two input blocks and the state the point before left. -/
def step1 (n : ℕ) (x0 : Vec F S1024x512 .f32) (x1 : Vec F S1024x512 .bf16) (s : St1 F) : St1 F :=
  let acc : Vec F S1024x1024 .f32 := k1_pay2 x0 (if n % 4 = 0 then k1_pay1 else s.acc) x1
  let sum0 : Vec F S1x1024 .f32 := if n / 4 % 4 = 0 then k1_pay3 else s.sum
  let sq0 : Vec F S1x1024 .f32 := if n / 4 % 4 = 0 then k1_pay4 else s.sq
  if n % 4 = 3 then ⟨acc, k1_pay5 acc sum0, k1_pay6 acc sq0⟩ else ⟨acc, sum0, sq0⟩

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The state after point `n`. -/
def st1 (c : Dev nD) : (n : ℕ) → n < cfg1.N → St1 F
  | 0, hn => step1 0 (iblk1 V c 0 ⟨0, hn⟩) (iblk1 V c 1 ⟨0, hn⟩) ⟨k1_pay1, k1_pay3, k1_pay4⟩
  | n + 1, hn => step1 (n + 1) (iblk1 V c 0 ⟨n + 1, hn⟩) (iblk1 V c 1 ⟨n + 1, hn⟩) (st1 c n (Nat.lt_of_succ_lt hn))

theorem st1_succ (c : Dev nD) (n : ℕ) (hn : n + 1 < cfg1.N) :
    st1 V c (n + 1) hn = step1 (n + 1) (iblk1 V c 0 ⟨n + 1, hn⟩) (iblk1 V c 1 ⟨n + 1, hn⟩) (st1 V c n (Nat.lt_of_succ_lt hn)) := rfl

/-- The invariant before point `n`: at first the launch's; afterwards the three scratch buffers at the state after
    point `n - 1`, the other scoped buffers unopened, the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare (st1 V c n hn).acc ∗ owns (c : Thread nD τ) scM1_1 fullShare (st1 V c n hn).sum ∗ owns (c : Thread nD τ) scM1_2 fullShare (st1 V c n hn).sq)
      ∗ Pipeline.scopedRestBut (Ix := Unit) (Name := ℕ) (U := UR sig nD τ) (Lvl := ℕ) (Val := Elt F) spec1 c [cc1_scratch0, cc1_scratch1, cc1_scratch2]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1_0 fullShare (st1 V c n hn).acc ∗ owns (c : Thread nD τ) scM1_1 fullShare (st1 V c n hn).sum ∗ owns (c : Thread nD τ) scM1_2 fullShare (st1 V c n hn).sq)
      ∗ Pipeline.scopedRestBut (Ix := Unit) (Name := ℕ) (U := UR sig nD τ) (Lvl := ℕ) (Val := Elt F) spec1 c [cc1_scratch0, cc1_scratch1, cc1_scratch2]) ∗ (∃ r, prngReg c r)) := rfl
theorem PhiS1_pos (c : Dev nD) (n : ℕ) (h : n ≤ cfg1.N) (hz : n ≠ 0) :
    PhiS1 V c n h = iprop(iprop(iprop(owns (c : Thread nD τ) scM1_0 fullShare (st1 V c (n - 1) (by omega)).acc ∗ owns (c : Thread nD τ) scM1_1 fullShare (st1 V c (n - 1) (by omega)).sum ∗ owns (c : Thread nD τ) scM1_2 fullShare (st1 V c (n - 1) (by omega)).sq)
      ∗ Pipeline.scopedRestBut (Ix := Unit) (Name := ℕ) (U := UR sig nD τ) (Lvl := ℕ) (Val := Elt F) spec1 c [cc1_scratch0, cc1_scratch1, cc1_scratch2]) ∗ (∃ r, prngReg c r)) := by
  cases n with
  | zero => exact absurd rfl hz
  | succ n => rfl

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (st1 V c t.val t.isLt).acc
    | ⟨3, _⟩ => k1_pay7 (st1 V c t.val t.isLt).sum
    | ⟨4, _⟩ => k1_pay8 (st1 V c t.val t.isLt).sum (st1 V c t.val t.isLt).sq
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (st1 V c t.val t.isLt).acc := by dsimp only [dat1]
theorem after1_3 (c : Dev nD) (t : Fin cfg1.N) : (dat1 V c).after 3 t = k1_pay7 (st1 V c t.val t.isLt).sum := by dsimp only [dat1]
theorem after1_4 (c : Dev nD) (t : Fin cfg1.N) : (dat1 V c).after 4 t = k1_pay8 (st1 V c t.val t.isLt).sum (st1 V c t.val t.isLt).sq := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem PhiS1_castSucc (c : Dev nD) (t : Fin cfg1.N) :
    (dat1 V c).Φ t.castSucc = PhiS1 V c t.val (Nat.le_of_lt t.isLt) := by
  dsimp only [dat1]; simp only [Fin.coe_castSucc]

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the scratch contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1, HS2⟩, Hr⟩, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

theorem hout1 (c : Dev nD) : (dat1 V c).Φ (Fin.last cfg1.N) ⊢ Pipeline.ΦA spec1 c :=
  Phi_out1 V c _ (by rw [Fin.val_last]; have : cfg1.N = 64 := N_1; omega)

end

end Cert.Kernel.Hand

end
-- ==== Proof.K.R4Dat.lean ====
/-
  The proof data of matrix-product region 4, in closed form over the body's payloads. After the body at grid point n
  (n = 32 j + 8 i + k) the kernel's three scratch buffers hold a state (accumulator, running column sums, running
  column sums of squares): the accumulator is the block product added to the accumulator of the step before, or to
  zero at k = 0; the two rows are what the tile before left, or zero at i = 0, and at the last step k = 7 they receive
  the accumulator's column sums and column sums of squares. The product's output block after a last step is the
  accumulator, the mean's and the variance's are the scaled running sum and the clamped scaled difference. The region's
  invariant before point n > 0 is the three scratch buffers at the state after point n - 1.
-/
import proofs.«157460_j63591285784858_2_alg».proof.Proof.Gen.Kernel.Launch
import proofs.«157460_j63591285784858_2_alg».proof.Proof.Gen.Kernel.Skeleton
import proofs.«157460_j63591285784858_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## The scratch memrefs and the invariant with them split out -/

abbrev scM4_0 : Memref sig .tc .vmem S1024x1024 .f32 := Memref.whole cc4_scratch0
abbrev scM4_1 : Memref sig .tc .vmem S1x1024 .f32 := Memref.whole cc4_scratch1
abbrev scM4_2 : Memref sig .tc .vmem S1x1024 .f32 := Memref.whole cc4_scratch2

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d) ∗ (∃ d, owns (c : Thread nD τ) scM4_2 fullShare d))
          ∗ Pipeline.scopedRestBut (Ix := Unit) (Name := ℕ) (U := UR sig nD τ) (Lvl := ℕ) (Val := Elt F) spec4 c [cc4_scratch0, cc4_scratch1, cc4_scratch2]) ∗ (∃ r, prngReg c r)) := by
  unfold Pipeline.ΦA; rw [scopedRest4_split]; simp only [scM4_0, scM4_1, scM4_2, owns_whole]; try rfl

/-! ## The carried state -/

/-- Accumulator, running column sums, running column sums of squares. -/
structure St4 (F : FTy → Type) [BitOps F] where
  acc : Vec F S1024x1024 .f32
  sum : Vec F S1x1024 .f32
  sq : Vec F S1x1024 .f32

/-- One grid point: from the two input blocks and the state the point before left. -/
def step4 (n : ℕ) (x0 : Vec F S1024x512 .bf16) (x1 : Vec F S1024x512 .bf16) (s : St4 F) : St4 F :=
  let acc : Vec F S1024x1024 .f32 := k4_pay2 x0 (if n % 8 = 0 then k4_pay1 else s.acc) x1
  let sum0 : Vec F S1x1024 .f32 := if n / 8 % 4 = 0 then k4_pay3 else s.sum
  let sq0 : Vec F S1x1024 .f32 := if n / 8 % 4 = 0 then k4_pay4 else s.sq
  if n % 8 = 7 then ⟨acc, k4_pay5 acc sum0, k4_pay6 acc sq0⟩ else ⟨acc, sum0, sq0⟩

section
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The state after point `n`. -/
def st4 (c : Dev nD) : (n : ℕ) → n < cfg4.N → St4 F
  | 0, hn => step4 0 (iblk4 V c 0 ⟨0, hn⟩) (iblk4 V c 1 ⟨0, hn⟩) ⟨k4_pay1, k4_pay3, k4_pay4⟩
  | n + 1, hn => step4 (n + 1) (iblk4 V c 0 ⟨n + 1, hn⟩) (iblk4 V c 1 ⟨n + 1, hn⟩) (st4 c n (Nat.lt_of_succ_lt hn))

theorem st4_succ (c : Dev nD) (n : ℕ) (hn : n + 1 < cfg4.N) :
    st4 V c (n + 1) hn = step4 (n + 1) (iblk4 V c 0 ⟨n + 1, hn⟩) (iblk4 V c 1 ⟨n + 1, hn⟩) (st4 V c n (Nat.lt_of_succ_lt hn)) := rfl

/-- The invariant before point `n`: at first the launch's; afterwards the three scratch buffers at the state after
    point `n - 1`, the other scoped buffers unopened, the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare (st4 V c n hn).acc ∗ owns (c : Thread nD τ) scM4_1 fullShare (st4 V c n hn).sum ∗ owns (c : Thread nD τ) scM4_2 fullShare (st4 V c n hn).sq)
      ∗ Pipeline.scopedRestBut (Ix := Unit) (Name := ℕ) (U := UR sig nD τ) (Lvl := ℕ) (Val := Elt F) spec4 c [cc4_scratch0, cc4_scratch1, cc4_scratch2]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(iprop(owns (c : Thread nD τ) scM4_0 fullShare (st4 V c n hn).acc ∗ owns (c : Thread nD τ) scM4_1 fullShare (st4 V c n hn).sum ∗ owns (c : Thread nD τ) scM4_2 fullShare (st4 V c n hn).sq)
      ∗ Pipeline.scopedRestBut (Ix := Unit) (Name := ℕ) (U := UR sig nD τ) (Lvl := ℕ) (Val := Elt F) spec4 c [cc4_scratch0, cc4_scratch1, cc4_scratch2]) ∗ (∃ r, prngReg c r)) := rfl
theorem PhiS4_pos (c : Dev nD) (n : ℕ) (h : n ≤ cfg4.N) (hz : n ≠ 0) :
    PhiS4 V c n h = iprop(iprop(iprop(owns (c : Thread nD τ) scM4_0 fullShare (st4 V c (n - 1) (by omega)).acc ∗ owns (c : Thread nD τ) scM4_1 fullShare (st4 V c (n - 1) (by omega)).sum ∗ owns (c : Thread nD τ) scM4_2 fullShare (st4 V c (n - 1) (by omega)).sq)
      ∗ Pipeline.scopedRestBut (Ix := Unit) (Name := ℕ) (U := UR sig nD τ) (Lvl := ℕ) (Val := Elt F) spec4 c [cc4_scratch0, cc4_scratch1, cc4_scratch2]) ∗ (∃ r, prngReg c r)) := by
  cases n with
  | zero => exact absurd rfl hz
  | succ n => rfl

/-- The proof data of pipeline 4 on core `c`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (st4 V c t.val t.isLt).acc
    | ⟨3, _⟩ => k4_pay7 (st4 V c t.val t.isLt).sum
    | ⟨4, _⟩ => k4_pay8 (st4 V c t.val t.isLt).sum (st4 V c t.val t.isLt).sq
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (st4 V c t.val t.isLt).acc := by dsimp only [dat4]
theorem after4_3 (c : Dev nD) (t : Fin cfg4.N) : (dat4 V c).after 3 t = k4_pay7 (st4 V c t.val t.isLt).sum := by dsimp only [dat4]
theorem after4_4 (c : Dev nD) (t : Fin cfg4.N) : (dat4 V c).after 4 t = k4_pay8 (st4 V c t.val t.isLt).sum (st4 V c t.val t.isLt).sq := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

theorem PhiS4_castSucc (c : Dev nD) (t : Fin cfg4.N) :
    (dat4 V c).Φ t.castSucc = PhiS4 V c t.val (Nat.le_of_lt t.isLt) := by
  dsimp only [dat4]; simp only [Fin.coe_castSucc]

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the launch's back: the scratch contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1, HS2⟩, Hr⟩, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

theorem hout4 (c : Dev nD) : (dat4 V c).Φ (Fin.last cfg4.N) ⊢ Pipeline.ΦA spec4 c :=
  Phi_out4 V c _ (by rw [Fin.val_last]; have : cfg4.N = 128 := N_4; omega)

end

end Cert.Kernel.Hand

end
-- ==== Proof.K.R7Dat.lean ====
/-
  The proof data of matrix-product region 7, in closed form over the body's payloads. After the body at grid point n
  (n = 32 j + 8 i + k) the kernel's three scratch buffers hold a state (accumulator, running column sums, running
  column sums of squares): the accumulator is the block product added to the accumulator of the step before, or to
  zero at k = 0; the two rows are what the tile before left, or zero at i = 0, and at the last step k = 7 they receive
  the accumulator's column sums and column sums of squares. The product's output block after a last step is the
  accumulator, the mean's and the variance's are the scaled running sum and the clamped scaled difference. The region's
  invariant before point n > 0 is the three scratch buffers at the state after point n - 1.
-/
import proofs.«157460_j63591285784858_2_alg».proof.Proof.Gen.Kernel.Launch
import proofs.«157460_j63591285784858_2_alg».proof.Proof.Gen.Kernel.Skeleton
import proofs.«157460_j63591285784858_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## The scratch memrefs and the invariant with them split out -/

abbrev scM7_0 : Memref sig .tc .vmem S1024x1024 .f32 := Memref.whole cc7_scratch0
abbrev scM7_1 : Memref sig .tc .vmem S1x1024 .f32 := Memref.whole cc7_scratch1
abbrev scM7_2 : Memref sig .tc .vmem S1x1024 .f32 := Memref.whole cc7_scratch2

theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d) ∗ (∃ d, owns (c : Thread nD τ) scM7_2 fullShare d))
          ∗ Pipeline.scopedRestBut (Ix := Unit) (Name := ℕ) (U := UR sig nD τ) (Lvl := ℕ) (Val := Elt F) spec7 c [cc7_scratch0, cc7_scratch1, cc7_scratch2]) ∗ (∃ r, prngReg c r)) := by
  unfold Pipeline.ΦA; rw [scopedRest7_split]; simp only [scM7_0, scM7_1, scM7_2, owns_whole]; try rfl

/-! ## The carried state -/

/-- Accumulator, running column sums, running column sums of squares. -/
structure St7 (F : FTy → Type) [BitOps F] where
  acc : Vec F S1024x1024 .f32
  sum : Vec F S1x1024 .f32
  sq : Vec F S1x1024 .f32

/-- One grid point: from the two input blocks and the state the point before left. -/
def step7 (n : ℕ) (x0 : Vec F S1024x512 .bf16) (x1 : Vec F S1024x512 .bf16) (s : St7 F) : St7 F :=
  let acc : Vec F S1024x1024 .f32 := k7_pay2 x0 (if n % 8 = 0 then k7_pay1 else s.acc) x1
  let sum0 : Vec F S1x1024 .f32 := if n / 8 % 4 = 0 then k7_pay3 else s.sum
  let sq0 : Vec F S1x1024 .f32 := if n / 8 % 4 = 0 then k7_pay4 else s.sq
  if n % 8 = 7 then ⟨acc, k7_pay5 acc sum0, k7_pay6 acc sq0⟩ else ⟨acc, sum0, sq0⟩

section
variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- The state after point `n`. -/
def st7 (c : Dev nD) : (n : ℕ) → n < cfg7.N → St7 F
  | 0, hn => step7 0 (iblk7 V c 0 ⟨0, hn⟩) (iblk7 V c 1 ⟨0, hn⟩) ⟨k7_pay1, k7_pay3, k7_pay4⟩
  | n + 1, hn => step7 (n + 1) (iblk7 V c 0 ⟨n + 1, hn⟩) (iblk7 V c 1 ⟨n + 1, hn⟩) (st7 c n (Nat.lt_of_succ_lt hn))

theorem st7_succ (c : Dev nD) (n : ℕ) (hn : n + 1 < cfg7.N) :
    st7 V c (n + 1) hn = step7 (n + 1) (iblk7 V c 0 ⟨n + 1, hn⟩) (iblk7 V c 1 ⟨n + 1, hn⟩) (st7 V c n (Nat.lt_of_succ_lt hn)) := rfl

/-- The invariant before point `n`: at first the launch's; afterwards the three scratch buffers at the state after
    point `n - 1`, the other scoped buffers unopened, the generator register at some state. -/
def PhiS7 (c : Dev nD) : (n : ℕ) → n ≤ cfg7.N → sProp 𝕄
  | 0, _ => Pipeline.ΦA spec7 c
  | n + 1, hn => iprop(iprop(iprop(owns (c : Thread nD τ) scM7_0 fullShare (st7 V c n hn).acc ∗ owns (c : Thread nD τ) scM7_1 fullShare (st7 V c n hn).sum ∗ owns (c : Thread nD τ) scM7_2 fullShare (st7 V c n hn).sq)
      ∗ Pipeline.scopedRestBut (Ix := Unit) (Name := ℕ) (U := UR sig nD τ) (Lvl := ℕ) (Val := Elt F) spec7 c [cc7_scratch0, cc7_scratch1, cc7_scratch2]) ∗ (∃ r, prngReg c r))

theorem PhiS7_zero (c : Dev nD) (n : ℕ) (h : n ≤ cfg7.N) (hz : n = 0) : PhiS7 V c n h = Pipeline.ΦA spec7 c := by
  subst hz; rfl
theorem PhiS7_succ (c : Dev nD) (n : ℕ) (hn : n < cfg7.N) :
    PhiS7 V c (n + 1) hn = iprop(iprop(iprop(owns (c : Thread nD τ) scM7_0 fullShare (st7 V c n hn).acc ∗ owns (c : Thread nD τ) scM7_1 fullShare (st7 V c n hn).sum ∗ owns (c : Thread nD τ) scM7_2 fullShare (st7 V c n hn).sq)
      ∗ Pipeline.scopedRestBut (Ix := Unit) (Name := ℕ) (U := UR sig nD τ) (Lvl := ℕ) (Val := Elt F) spec7 c [cc7_scratch0, cc7_scratch1, cc7_scratch2]) ∗ (∃ r, prngReg c r)) := rfl
theorem PhiS7_pos (c : Dev nD) (n : ℕ) (h : n ≤ cfg7.N) (hz : n ≠ 0) :
    PhiS7 V c n h = iprop(iprop(iprop(owns (c : Thread nD τ) scM7_0 fullShare (st7 V c (n - 1) (by omega)).acc ∗ owns (c : Thread nD τ) scM7_1 fullShare (st7 V c (n - 1) (by omega)).sum ∗ owns (c : Thread nD τ) scM7_2 fullShare (st7 V c (n - 1) (by omega)).sq)
      ∗ Pipeline.scopedRestBut (Ix := Unit) (Name := ℕ) (U := UR sig nD τ) (Lvl := ℕ) (Val := Elt F) spec7 c [cc7_scratch0, cc7_scratch1, cc7_scratch2]) ∗ (∃ r, prngReg c r)) := by
  cases n with
  | zero => exact absurd rfl hz
  | succ n => rfl

/-- The proof data of pipeline 7 on core `c`. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => (st7 V c t.val t.isLt).acc
    | ⟨3, _⟩ => k7_pay7 (st7 V c t.val t.isLt).sum
    | ⟨4, _⟩ => k7_pay8 (st7 V c t.val t.isLt).sum (st7 V c t.val t.isLt).sq
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = (st7 V c t.val t.isLt).acc := by dsimp only [dat7]
theorem after7_3 (c : Dev nD) (t : Fin cfg7.N) : (dat7 V c).after 3 t = k7_pay7 (st7 V c t.val t.isLt).sum := by dsimp only [dat7]
theorem after7_4 (c : Dev nD) (t : Fin cfg7.N) : (dat7 V c).after 4 t = k7_pay8 (st7 V c t.val t.isLt).sum (st7 V c t.val t.isLt).sq := by dsimp only [dat7]
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

theorem PhiS7_castSucc (c : Dev nD) (t : Fin cfg7.N) :
    (dat7 V c).Φ t.castSucc = PhiS7 V c t.val (Nat.le_of_lt t.isLt) := by
  dsimp only [dat7]; simp only [Fin.coe_castSucc]

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives the launch's back: the scratch contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨⟨HS0, HS1, HS2⟩, Hr⟩, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

theorem hout7 (c : Dev nD) : (dat7 V c).Φ (Fin.last cfg7.N) ⊢ Pipeline.ΦA spec7 c :=
  Phi_out7 V c _ (by rw [Fin.val_last]; have : cfg7.N = 128 := N_7; omega)

end

end Cert.Kernel.Hand

end
-- ==== Proof.K.R10Dat.lean ====
/-
  The proof data of matrix-product region 10, in closed form over the body's payloads. After the body at grid point n
  (n = 32 j + 8 i + k) the kernel's three scratch buffers hold a state (accumulator, running column sums, running
  column sums of squares): the accumulator is the block product added to the accumulator of the step before, or to
  zero at k = 0; the two rows are what the tile before left, or zero at i = 0, and at the last step k = 7 they receive
  the accumulator's column sums and column sums of squares. The product's output block after a last step is the
  accumulator, the mean's and the variance's are the scaled running sum and the clamped scaled difference. The region's
  invariant before point n > 0 is the three scratch buffers at the state after point n - 1.
-/
import proofs.«157460_j63591285784858_2_alg».proof.Proof.Gen.Kernel.Launch
import proofs.«157460_j63591285784858_2_alg».proof.Proof.Gen.Kernel.Skeleton
import proofs.«157460_j63591285784858_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## The scratch memrefs and the invariant with them split out -/

abbrev scM10_0 : Memref sig .tc .vmem S1024x1024 .f32 := Memref.whole cc10_scratch0
abbrev scM10_1 : Memref sig .tc .vmem S1x1024 .f32 := Memref.whole cc10_scratch1
abbrev scM10_2 : Memref sig .tc .vmem S1x1024 .f32 := Memref.whole cc10_scratch2

theorem PhiA10_eq (c : Dev nD) :
    (Pipeline.ΦA spec10 c : sProp 𝕄)
      = iprop(iprop(iprop((∃ d, owns (c : Thread nD τ) scM10_0 fullShare d) ∗ (∃ d, owns (c : Thread nD τ) scM10_1 fullShare d) ∗ (∃ d, owns (c : Thread nD τ) scM10_2 fullShare d))
          ∗ Pipeline.scopedRestBut (Ix := Unit) (Name := ℕ) (U := UR sig nD τ) (Lvl := ℕ) (Val := Elt F) spec10 c [cc10_scratch0, cc10_scratch1, cc10_scratch2]) ∗ (∃ r, prngReg c r)) := by
  unfold Pipeline.ΦA; rw [scopedRest10_split]; simp only [scM10_0, scM10_1, scM10_2, owns_whole]; try rfl

/-! ## The carried state -/

/-- Accumulator, running column sums, running column sums of squares. -/
structure St10 (F : FTy → Type) [BitOps F] where
  acc : Vec F S1024x1024 .f32
  sum : Vec F S1x1024 .f32
  sq : Vec F S1x1024 .f32

/-- One grid point: from the two input blocks and the state the point before left. -/
def step10 (n : ℕ) (x0 : Vec F S1024x512 .bf16) (x1 : Vec F S1024x512 .bf16) (s : St10 F) : St10 F :=
  let acc : Vec F S1024x1024 .f32 := k10_pay2 x0 (if n % 8 = 0 then k10_pay1 else s.acc) x1
  let sum0 : Vec F S1x1024 .f32 := if n / 8 % 4 = 0 then k10_pay3 else s.sum
  let sq0 : Vec F S1x1024 .f32 := if n / 8 % 4 = 0 then k10_pay4 else s.sq
  if n % 8 = 7 then ⟨acc, k10_pay5 acc sum0, k10_pay6 acc sq0⟩ else ⟨acc, sum0, sq0⟩

section
variable (V : (c : Dev nD) → (b : Ref sig .tc) → Buf (Elt F) ((c : Thread nD τ).loc b))

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- The state after point `n`. -/
def st10 (c : Dev nD) : (n : ℕ) → n < cfg10.N → St10 F
  | 0, hn => step10 0 (iblk10 V c 0 ⟨0, hn⟩) (iblk10 V c 1 ⟨0, hn⟩) ⟨k10_pay1, k10_pay3, k10_pay4⟩
  | n + 1, hn => step10 (n + 1) (iblk10 V c 0 ⟨n + 1, hn⟩) (iblk10 V c 1 ⟨n + 1, hn⟩) (st10 c n (Nat.lt_of_succ_lt hn))

theorem st10_succ (c : Dev nD) (n : ℕ) (hn : n + 1 < cfg10.N) :
    st10 V c (n + 1) hn = step10 (n + 1) (iblk10 V c 0 ⟨n + 1, hn⟩) (iblk10 V c 1 ⟨n + 1, hn⟩) (st10 V c n (Nat.lt_of_succ_lt hn)) := rfl

/-- The invariant before point `n`: at first the launch's; afterwards the three scratch buffers at the state after
    point `n - 1`, the other scoped buffers unopened, the generator register at some state. -/
def PhiS10 (c : Dev nD) : (n : ℕ) → n ≤ cfg10.N → sProp 𝕄
  | 0, _ => Pipeline.ΦA spec10 c
  | n + 1, hn => iprop(iprop(iprop(owns (c : Thread nD τ) scM10_0 fullShare (st10 V c n hn).acc ∗ owns (c : Thread nD τ) scM10_1 fullShare (st10 V c n hn).sum ∗ owns (c : Thread nD τ) scM10_2 fullShare (st10 V c n hn).sq)
      ∗ Pipeline.scopedRestBut (Ix := Unit) (Name := ℕ) (U := UR sig nD τ) (Lvl := ℕ) (Val := Elt F) spec10 c [cc10_scratch0, cc10_scratch1, cc10_scratch2]) ∗ (∃ r, prngReg c r))

theorem PhiS10_zero (c : Dev nD) (n : ℕ) (h : n ≤ cfg10.N) (hz : n = 0) : PhiS10 V c n h = Pipeline.ΦA spec10 c := by
  subst hz; rfl
theorem PhiS10_succ (c : Dev nD) (n : ℕ) (hn : n < cfg10.N) :
    PhiS10 V c (n + 1) hn = iprop(iprop(iprop(owns (c : Thread nD τ) scM10_0 fullShare (st10 V c n hn).acc ∗ owns (c : Thread nD τ) scM10_1 fullShare (st10 V c n hn).sum ∗ owns (c : Thread nD τ) scM10_2 fullShare (st10 V c n hn).sq)
      ∗ Pipeline.scopedRestBut (Ix := Unit) (Name := ℕ) (U := UR sig nD τ) (Lvl := ℕ) (Val := Elt F) spec10 c [cc10_scratch0, cc10_scratch1, cc10_scratch2]) ∗ (∃ r, prngReg c r)) := rfl
theorem PhiS10_pos (c : Dev nD) (n : ℕ) (h : n ≤ cfg10.N) (hz : n ≠ 0) :
    PhiS10 V c n h = iprop(iprop(iprop(owns (c : Thread nD τ) scM10_0 fullShare (st10 V c (n - 1) (by omega)).acc ∗ owns (c : Thread nD τ) scM10_1 fullShare (st10 V c (n - 1) (by omega)).sum ∗ owns (c : Thread nD τ) scM10_2 fullShare (st10 V c (n - 1) (by omega)).sq)
      ∗ Pipeline.scopedRestBut (Ix := Unit) (Name := ℕ) (U := UR sig nD τ) (Lvl := ℕ) (Val := Elt F) spec10 c [cc10_scratch0, cc10_scratch1, cc10_scratch2]) ∗ (∃ r, prngReg c r)) := by
  cases n with
  | zero => exact absurd rfl hz
  | succ n => rfl

/-- The proof data of pipeline 10 on core `c`. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => (st10 V c t.val t.isLt).acc
    | ⟨3, _⟩ => k10_pay7 (st10 V c t.val t.isLt).sum
    | ⟨4, _⟩ => k10_pay8 (st10 V c t.val t.isLt).sum (st10 V c t.val t.isLt).sq
  Φ t := PhiS10 V c t.val (Nat.le_of_lt_succ t.isLt)
  q _ := fullShare
  owed _ := 0

theorem A_eq10 (c : Dev nD) (w : Fin cfg10.W) : (dat10 V c).A w = V c (Pipeline.arrRef spec10 w) := by
  dsimp only [dat10]
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = (st10 V c t.val t.isLt).acc := by dsimp only [dat10]
theorem after10_3 (c : Dev nD) (t : Fin cfg10.N) : (dat10 V c).after 3 t = k10_pay7 (st10 V c t.val t.isLt).sum := by dsimp only [dat10]
theorem after10_4 (c : Dev nD) (t : Fin cfg10.N) : (dat10 V c).after 4 t = k10_pay8 (st10 V c t.val t.isLt).sum (st10 V c t.val t.isLt).sq := by dsimp only [dat10]
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

theorem PhiS10_castSucc (c : Dev nD) (t : Fin cfg10.N) :
    (dat10 V c).Φ t.castSucc = PhiS10 V c t.val (Nat.le_of_lt t.isLt) := by
  dsimp only [dat10]; simp only [Fin.coe_castSucc]

/-- What the launch hands the region is the invariant before the first point. -/
theorem hin10 (c : Dev nD) : Pipeline.ΦA spec10 c ⊢ (dat10 V c).Φ 0 := by
  rw [show (dat10 V c).Φ 0 = PhiS10 V c 0 (Nat.zero_le _) from rfl, PhiS10_zero V c 0 _ rfl]
  try exact Idealize.SL.BI.Entails.refl _

/-- After any point but the first the invariant gives the launch's back: the scratch contents are forgotten. -/
theorem Phi_out10 (c : Dev nD) (t : Fin (cfg10.N + 1)) (ht : t.val ≠ 0) : (dat10 V c).Φ t ⊢ Pipeline.ΦA spec10 c := by
  rw [show (dat10 V c).Φ t = PhiS10 V c t.val (Nat.le_of_lt_succ t.isLt) from rfl, PhiS10_pos V c _ _ ht, PhiA10_eq]
  iintro ⟨⟨⟨HS0, HS1, HS2⟩, Hr⟩, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

theorem hout10 (c : Dev nD) : (dat10 V c).Φ (Fin.last cfg10.N) ⊢ Pipeline.ΦA spec10 c :=
  Phi_out10 V c _ (by rw [Fin.val_last]; have : cfg10.N = 32 := N_10; omega)

end

end Cert.Kernel.Hand

end
-- ==== Proof.K.MainFold.lean ====
import proofs.«157460_j63591285784858_2_alg».proof.Proof.Gen.Kernel.Regions
import proofs.«157460_j63591285784858_2_alg».proof.Proof.K.Region0
import proofs.«157460_j63591285784858_2_alg».proof.Proof.K.Region2
import proofs.«157460_j63591285784858_2_alg».proof.Proof.K.Region3
import proofs.«157460_j63591285784858_2_alg».proof.Proof.K.Region5
import proofs.«157460_j63591285784858_2_alg».proof.Proof.K.Region6
import proofs.«157460_j63591285784858_2_alg».proof.Proof.K.Region8
import proofs.«157460_j63591285784858_2_alg».proof.Proof.K.Region9
import proofs.«157460_j63591285784858_2_alg».proof.Proof.K.Region11
import proofs.«157460_j63591285784858_2_alg».proof.Proof.K.R1Dat
import proofs.«157460_j63591285784858_2_alg».proof.Proof.K.R4Dat
import proofs.«157460_j63591285784858_2_alg».proof.Proof.K.R7Dat
import proofs.«157460_j63591285784858_2_alg».proof.Proof.K.R10Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The buffer contents at each boundary of the program's 23 items

The program is twelve kernel regions among eleven stretches of host operations. Core `c`'s buffer contents are
followed through the items as a fold from the launch memory: a host stretch rewrites the buffers its operations
write; a region leaves each of its windows' arrays at what the write-backs of all grid points leave (an input
window's array as entered) and every other buffer as entered. No item writes an argument array, so the fold at an
argument walks back to the launch memory. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)

/-! ## The fold -/

/-- Core `c`'s buffers at launch (region 0 is entered from them). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- After item 0, region 0: its arrays at what the pipeline leaves (an input's as entered, an output's with every
    point's write-back folded in), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves, and every other buffer what it held at entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- Region 0's output window 1 leaves its array `main_v0` at the fold of its write-backs. -/
theorem W1_main_v0 (c : Dev nD) : W1 m ρ c (Proc.devRef .tc main_v0) = (dat0 (V0 m ρ) c).arrAt 1 cfg0.N :=
  W1_arr m ρ c 1

/-- After item 1, region 1: its arrays at what the pipeline leaves (an input's as entered, an output's with every
    point's write-back folded in), every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references (region 1's exit contents). -/
abbrev V2 : (c : Dev nD) → (b : Ref sig .tc) → Buf (Elt F) ((c : Thread nD τ).loc b) := fun c b => W2 m ρ c b
/-- At region 1's exit each of its arrays holds what the pipeline leaves, and every other buffer what it held at entry. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)
/-- Region 1's output window 2 leaves its array `main_v1_0` at the fold of its write-backs. -/
theorem W2_main_v1_0 (c : Dev nD) : W2 m ρ c (Proc.devRef .tc main_v1_0) = (dat1 (V1 m ρ) c).arrAt 2 cfg1.N :=
  W2_arr m ρ c 2
/-- Region 1's output window 3 leaves its array `main_v1_1` at the fold of its write-backs. -/
theorem W2_main_v1_1 (c : Dev nD) : W2 m ρ c (Proc.devRef .tc main_v1_1) = (dat1 (V1 m ρ) c).arrAt 3 cfg1.N :=
  W2_arr m ρ c 3
/-- Region 1's output window 4 leaves its array `main_v1_2` at the fold of its write-backs. -/
theorem W2_main_v1_2 (c : Dev nD) : W2 m ρ c (Proc.devRef .tc main_v1_2) = (dat1 (V1 m ρ) c).arrAt 4 cfg1.N :=
  W2_arr m ρ c 4

/-- After item 2, the host stretch `hostOps2`. -/
abbrev W3 : Dev nD → Valuation τ sig (Elt F) := fun c => StableHlo.after hostOps2 (W2 m ρ c)
/-- The same read at the TensorCore's references. -/
abbrev V3 : (c : Dev nD) → (b : Ref sig .tc) → Buf (Elt F) ((c : Thread nD τ).loc b) := fun c b => W3 m ρ c b
/-- A buffer the stretch does not write is as before it. -/
theorem W3_keep (c : Dev nD) (r : Ref sig .tc) (h : r ∉ hostOps2_W) :
    W3 m ρ c (Proc.devRef .tc r) = W2 m ρ c (Proc.devRef .tc r) :=
  StableHlo.after_of_writes_sub hostOps2 _ hostOps2_writes h

/-- After item 3, region 2: its arrays at what the pipeline leaves (an input's as entered, an output's with every
    point's write-back folded in), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves, and every other buffer what it held at entry. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)
/-- Region 2's output window 5 leaves its array `main_v4` at the fold of its write-backs. -/
theorem W4_main_v4 (c : Dev nD) : W4 m ρ c (Proc.devRef .tc main_v4) = (dat2 (V3 m ρ) c).arrAt 5 cfg2.N :=
  W4_arr m ρ c 5

/-- After item 4, region 3: its arrays at what the pipeline leaves (an input's as entered, an output's with every
    point's write-back folded in), every other buffer as entered. -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- The same read at the TensorCore's references (region 3's exit contents). -/
abbrev V5 : (c : Dev nD) → (b : Ref sig .tc) → Buf (Elt F) ((c : Thread nD τ).loc b) := fun c b => W5 m ρ c b
/-- At region 3's exit each of its arrays holds what the pipeline leaves, and every other buffer what it held at entry. -/
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)
/-- Region 3's output window 1 leaves its array `main_v5` at the fold of its write-backs. -/
theorem W5_main_v5 (c : Dev nD) : W5 m ρ c (Proc.devRef .tc main_v5) = (dat3 (V4 m ρ) c).arrAt 1 cfg3.N :=
  W5_arr m ρ c 1

/-- After item 5, region 4: its arrays at what the pipeline leaves (an input's as entered, an output's with every
    point's write-back folded in), every other buffer as entered. -/
def W6 (c : Dev nD) : Valuation τ sig (Elt F) :=
  Pipeline.withArrays spec4 c (W5 m ρ c) fun w => (dat4 (V5 m ρ) c).arrAt w cfg4.N
theorem W6_arr (c : Dev nD) (w : Fin cfg4.W) :
    W6 m ρ c (Proc.devRef .tc (Pipeline.arrRef spec4 w)) = (dat4 (V5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
/-- The same read at the TensorCore's references (region 4's exit contents). -/
abbrev V6 : (c : Dev nD) → (b : Ref sig .tc) → Buf (Elt F) ((c : Thread nD τ).loc b) := fun c b => W6 m ρ c b
/-- At region 4's exit each of its arrays holds what the pipeline leaves, and every other buffer what it held at entry. -/
theorem hF4 (c : Dev nD) (w : Fin cfg4.W) : (dat4 (V5 m ρ) c).arrAt w cfg4.N = V6 m ρ c (Pipeline.arrRef spec4 w) :=
  (W6_arr m ρ c w).symm
theorem hrest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)
/-- Region 4's output window 2 leaves its array `main_v6_0` at the fold of its write-backs. -/
theorem W6_main_v6_0 (c : Dev nD) : W6 m ρ c (Proc.devRef .tc main_v6_0) = (dat4 (V5 m ρ) c).arrAt 2 cfg4.N :=
  W6_arr m ρ c 2
/-- Region 4's output window 3 leaves its array `main_v6_1` at the fold of its write-backs. -/
theorem W6_main_v6_1 (c : Dev nD) : W6 m ρ c (Proc.devRef .tc main_v6_1) = (dat4 (V5 m ρ) c).arrAt 3 cfg4.N :=
  W6_arr m ρ c 3
/-- Region 4's output window 4 leaves its array `main_v6_2` at the fold of its write-backs. -/
theorem W6_main_v6_2 (c : Dev nD) : W6 m ρ c (Proc.devRef .tc main_v6_2) = (dat4 (V5 m ρ) c).arrAt 4 cfg4.N :=
  W6_arr m ρ c 4

/-- After item 6, the host stretch `hostOps5`. -/
abbrev W7 : Dev nD → Valuation τ sig (Elt F) := fun c => StableHlo.after hostOps5 (W6 m ρ c)
/-- The same read at the TensorCore's references. -/
abbrev V7 : (c : Dev nD) → (b : Ref sig .tc) → Buf (Elt F) ((c : Thread nD τ).loc b) := fun c b => W7 m ρ c b
/-- A buffer the stretch does not write is as before it. -/
theorem W7_keep (c : Dev nD) (r : Ref sig .tc) (h : r ∉ hostOps5_W) :
    W7 m ρ c (Proc.devRef .tc r) = W6 m ρ c (Proc.devRef .tc r) :=
  StableHlo.after_of_writes_sub hostOps5 _ hostOps5_writes h

/-- After item 7, region 5: its arrays at what the pipeline leaves (an input's as entered, an output's with every
    point's write-back folded in), every other buffer as entered. -/
def W8 (c : Dev nD) : Valuation τ sig (Elt F) :=
  Pipeline.withArrays spec5 c (W7 m ρ c) fun w => (dat5 (V7 m ρ) c).arrAt w cfg5.N
theorem W8_arr (c : Dev nD) (w : Fin cfg5.W) :
    W8 m ρ c (Proc.devRef .tc (Pipeline.arrRef spec5 w)) = (dat5 (V7 m ρ) c).arrAt w cfg5.N := by
  unfold W8; exact Pipeline.withArrays_arr spec5 launch5.win.arr_inj c _ _ w
theorem W8_of_ne (c : Dev nD) (b : Ref sig .tc) (hb : ∀ w, Pipeline.arrRef spec5 w ≠ b) :
    W8 m ρ c (Proc.devRef .tc b) = W7 m ρ c (Proc.devRef .tc b) := by
  unfold W8; exact Pipeline.withArrays_of_ne spec5 c _ _ b hb
/-- The same read at the TensorCore's references (region 5's exit contents). -/
abbrev V8 : (c : Dev nD) → (b : Ref sig .tc) → Buf (Elt F) ((c : Thread nD τ).loc b) := fun c b => W8 m ρ c b
/-- At region 5's exit each of its arrays holds what the pipeline leaves, and every other buffer what it held at entry. -/
theorem hF5 (c : Dev nD) (w : Fin cfg5.W) : (dat5 (V7 m ρ) c).arrAt w cfg5.N = V8 m ρ c (Pipeline.arrRef spec5 w) :=
  (W8_arr m ρ c w).symm
theorem hrest5 (c : Dev nD) : ∀ b, b ∉ Finset.univ.image (Pipeline.arrRef spec5) → V8 m ρ c b = V7 m ρ c b :=
  fun b hb => W8_of_ne m ρ c b fun w e => hb (Finset.mem_image.mpr ⟨w, Finset.mem_univ _, e⟩)
/-- Region 5's output window 5 leaves its array `main_v9` at the fold of its write-backs. -/
theorem W8_main_v9 (c : Dev nD) : W8 m ρ c (Proc.devRef .tc main_v9) = (dat5 (V7 m ρ) c).arrAt 5 cfg5.N :=
  W8_arr m ρ c 5

/-- After item 8, region 6: its arrays at what the pipeline leaves (an input's as entered, an output's with every
    point's write-back folded in), every other buffer as entered. -/
def W9 (c : Dev nD) : Valuation τ sig (Elt F) :=
  Pipeline.withArrays spec6 c (W8 m ρ c) fun w => (dat6 (V8 m ρ) c).arrAt w cfg6.N
theorem W9_arr (c : Dev nD) (w : Fin cfg6.W) :
    W9 m ρ c (Proc.devRef .tc (Pipeline.arrRef spec6 w)) = (dat6 (V8 m ρ) c).arrAt w cfg6.N := by
  unfold W9; exact Pipeline.withArrays_arr spec6 launch6.win.arr_inj c _ _ w
theorem W9_of_ne (c : Dev nD) (b : Ref sig .tc) (hb : ∀ w, Pipeline.arrRef spec6 w ≠ b) :
    W9 m ρ c (Proc.devRef .tc b) = W8 m ρ c (Proc.devRef .tc b) := by
  unfold W9; exact Pipeline.withArrays_of_ne spec6 c _ _ b hb
/-- The same read at the TensorCore's references (region 6's exit contents). -/
abbrev V9 : (c : Dev nD) → (b : Ref sig .tc) → Buf (Elt F) ((c : Thread nD τ).loc b) := fun c b => W9 m ρ c b
/-- At region 6's exit each of its arrays holds what the pipeline leaves, and every other buffer what it held at entry. -/
theorem hF6 (c : Dev nD) (w : Fin cfg6.W) : (dat6 (V8 m ρ) c).arrAt w cfg6.N = V9 m ρ c (Pipeline.arrRef spec6 w) :=
  (W9_arr m ρ c w).symm
theorem hrest6 (c : Dev nD) : ∀ b, b ∉ Finset.univ.image (Pipeline.arrRef spec6) → V9 m ρ c b = V8 m ρ c b :=
  fun b hb => W9_of_ne m ρ c b fun w e => hb (Finset.mem_image.mpr ⟨w, Finset.mem_univ _, e⟩)
/-- Region 6's output window 1 leaves its array `main_v10` at the fold of its write-backs. -/
theorem W9_main_v10 (c : Dev nD) : W9 m ρ c (Proc.devRef .tc main_v10) = (dat6 (V8 m ρ) c).arrAt 1 cfg6.N :=
  W9_arr m ρ c 1

/-- After item 9, region 7: its arrays at what the pipeline leaves (an input's as entered, an output's with every
    point's write-back folded in), every other buffer as entered. -/
def W10 (c : Dev nD) : Valuation τ sig (Elt F) :=
  Pipeline.withArrays spec7 c (W9 m ρ c) fun w => (dat7 (V9 m ρ) c).arrAt w cfg7.N
theorem W10_arr (c : Dev nD) (w : Fin cfg7.W) :
    W10 m ρ c (Proc.devRef .tc (Pipeline.arrRef spec7 w)) = (dat7 (V9 m ρ) c).arrAt w cfg7.N := by
  unfold W10; exact Pipeline.withArrays_arr spec7 launch7.win.arr_inj c _ _ w
theorem W10_of_ne (c : Dev nD) (b : Ref sig .tc) (hb : ∀ w, Pipeline.arrRef spec7 w ≠ b) :
    W10 m ρ c (Proc.devRef .tc b) = W9 m ρ c (Proc.devRef .tc b) := by
  unfold W10; exact Pipeline.withArrays_of_ne spec7 c _ _ b hb
/-- The same read at the TensorCore's references (region 7's exit contents). -/
abbrev V10 : (c : Dev nD) → (b : Ref sig .tc) → Buf (Elt F) ((c : Thread nD τ).loc b) := fun c b => W10 m ρ c b
/-- At region 7's exit each of its arrays holds what the pipeline leaves, and every other buffer what it held at entry. -/
theorem hF7 (c : Dev nD) (w : Fin cfg7.W) : (dat7 (V9 m ρ) c).arrAt w cfg7.N = V10 m ρ c (Pipeline.arrRef spec7 w) :=
  (W10_arr m ρ c w).symm
theorem hrest7 (c : Dev nD) : ∀ b, b ∉ Finset.univ.image (Pipeline.arrRef spec7) → V10 m ρ c b = V9 m ρ c b :=
  fun b hb => W10_of_ne m ρ c b fun w e => hb (Finset.mem_image.mpr ⟨w, Finset.mem_univ _, e⟩)
/-- Region 7's output window 2 leaves its array `main_v11_0` at the fold of its write-backs. -/
theorem W10_main_v11_0 (c : Dev nD) : W10 m ρ c (Proc.devRef .tc main_v11_0) = (dat7 (V9 m ρ) c).arrAt 2 cfg7.N :=
  W10_arr m ρ c 2
/-- Region 7's output window 3 leaves its array `main_v11_1` at the fold of its write-backs. -/
theorem W10_main_v11_1 (c : Dev nD) : W10 m ρ c (Proc.devRef .tc main_v11_1) = (dat7 (V9 m ρ) c).arrAt 3 cfg7.N :=
  W10_arr m ρ c 3
/-- Region 7's output window 4 leaves its array `main_v11_2` at the fold of its write-backs. -/
theorem W10_main_v11_2 (c : Dev nD) : W10 m ρ c (Proc.devRef .tc main_v11_2) = (dat7 (V9 m ρ) c).arrAt 4 cfg7.N :=
  W10_arr m ρ c 4

/-- After item 10, the host stretch `hostOps8`. -/
abbrev W11 : Dev nD → Valuation τ sig (Elt F) := fun c => StableHlo.after hostOps8 (W10 m ρ c)
/-- The same read at the TensorCore's references. -/
abbrev V11 : (c : Dev nD) → (b : Ref sig .tc) → Buf (Elt F) ((c : Thread nD τ).loc b) := fun c b => W11 m ρ c b
/-- A buffer the stretch does not write is as before it. -/
theorem W11_keep (c : Dev nD) (r : Ref sig .tc) (h : r ∉ hostOps8_W) :
    W11 m ρ c (Proc.devRef .tc r) = W10 m ρ c (Proc.devRef .tc r) :=
  StableHlo.after_of_writes_sub hostOps8 _ hostOps8_writes h

/-- After item 11, region 8: its arrays at what the pipeline leaves (an input's as entered, an output's with every
    point's write-back folded in), every other buffer as entered. -/
def W12 (c : Dev nD) : Valuation τ sig (Elt F) :=
  Pipeline.withArrays spec8 c (W11 m ρ c) fun w => (dat8 (V11 m ρ) c).arrAt w cfg8.N
theorem W12_arr (c : Dev nD) (w : Fin cfg8.W) :
    W12 m ρ c (Proc.devRef .tc (Pipeline.arrRef spec8 w)) = (dat8 (V11 m ρ) c).arrAt w cfg8.N := by
  unfold W12; exact Pipeline.withArrays_arr spec8 launch8.win.arr_inj c _ _ w
theorem W12_of_ne (c : Dev nD) (b : Ref sig .tc) (hb : ∀ w, Pipeline.arrRef spec8 w ≠ b) :
    W12 m ρ c (Proc.devRef .tc b) = W11 m ρ c (Proc.devRef .tc b) := by
  unfold W12; exact Pipeline.withArrays_of_ne spec8 c _ _ b hb
/-- The same read at the TensorCore's references (region 8's exit contents). -/
abbrev V12 : (c : Dev nD) → (b : Ref sig .tc) → Buf (Elt F) ((c : Thread nD τ).loc b) := fun c b => W12 m ρ c b
/-- At region 8's exit each of its arrays holds what the pipeline leaves, and every other buffer what it held at entry. -/
theorem hF8 (c : Dev nD) (w : Fin cfg8.W) : (dat8 (V11 m ρ) c).arrAt w cfg8.N = V12 m ρ c (Pipeline.arrRef spec8 w) :=
  (W12_arr m ρ c w).symm
theorem hrest8 (c : Dev nD) : ∀ b, b ∉ Finset.univ.image (Pipeline.arrRef spec8) → V12 m ρ c b = V11 m ρ c b :=
  fun b hb => W12_of_ne m ρ c b fun w e => hb (Finset.mem_image.mpr ⟨w, Finset.mem_univ _, e⟩)
/-- Region 8's output window 5 leaves its array `main_v14` at the fold of its write-backs. -/
theorem W12_main_v14 (c : Dev nD) : W12 m ρ c (Proc.devRef .tc main_v14) = (dat8 (V11 m ρ) c).arrAt 5 cfg8.N :=
  W12_arr m ρ c 5

/-- After item 12, the host stretch `hostOps9`. -/
abbrev W13 : Dev nD → Valuation τ sig (Elt F) := fun c => StableHlo.after hostOps9 (W12 m ρ c)
/-- The same read at the TensorCore's references. -/
abbrev V13 : (c : Dev nD) → (b : Ref sig .tc) → Buf (Elt F) ((c : Thread nD τ).loc b) := fun c b => W13 m ρ c b
/-- A buffer the stretch does not write is as before it. -/
theorem W13_keep (c : Dev nD) (r : Ref sig .tc) (h : r ∉ hostOps9_W) :
    W13 m ρ c (Proc.devRef .tc r) = W12 m ρ c (Proc.devRef .tc r) :=
  StableHlo.after_of_writes_sub hostOps9 _ hostOps9_writes h

/-- After item 13, the host stretch `hostOps9_1`. -/
abbrev W14 : Dev nD → Valuation τ sig (Elt F) := fun c => StableHlo.after hostOps9_1 (W13 m ρ c)
/-- The same read at the TensorCore's references. -/
abbrev V14 : (c : Dev nD) → (b : Ref sig .tc) → Buf (Elt F) ((c : Thread nD τ).loc b) := fun c b => W14 m ρ c b
/-- A buffer the stretch does not write is as before it. -/
theorem W14_keep (c : Dev nD) (r : Ref sig .tc) (h : r ∉ hostOps9_1_W) :
    W14 m ρ c (Proc.devRef .tc r) = W13 m ρ c (Proc.devRef .tc r) :=
  StableHlo.after_of_writes_sub hostOps9_1 _ hostOps9_1_writes h

/-- After item 14, the host stretch `hostOps9_2`. -/
abbrev W15 : Dev nD → Valuation τ sig (Elt F) := fun c => StableHlo.after hostOps9_2 (W14 m ρ c)
/-- The same read at the TensorCore's references. -/
abbrev V15 : (c : Dev nD) → (b : Ref sig .tc) → Buf (Elt F) ((c : Thread nD τ).loc b) := fun c b => W15 m ρ c b
/-- A buffer the stretch does not write is as before it. -/
theorem W15_keep (c : Dev nD) (r : Ref sig .tc) (h : r ∉ hostOps9_2_W) :
    W15 m ρ c (Proc.devRef .tc r) = W14 m ρ c (Proc.devRef .tc r) :=
  StableHlo.after_of_writes_sub hostOps9_2 _ hostOps9_2_writes h

/-- After item 15, the host stretch `hostOps9_3`. -/
abbrev W16 : Dev nD → Valuation τ sig (Elt F) := fun c => StableHlo.after hostOps9_3 (W15 m ρ c)
/-- The same read at the TensorCore's references. -/
abbrev V16 : (c : Dev nD) → (b : Ref sig .tc) → Buf (Elt F) ((c : Thread nD τ).loc b) := fun c b => W16 m ρ c b
/-- A buffer the stretch does not write is as before it. -/
theorem W16_keep (c : Dev nD) (r : Ref sig .tc) (h : r ∉ hostOps9_3_W) :
    W16 m ρ c (Proc.devRef .tc r) = W15 m ρ c (Proc.devRef .tc r) :=
  StableHlo.after_of_writes_sub hostOps9_3 _ hostOps9_3_writes h

/-- After item 16, the host stretch `hostOps9_4`. -/
abbrev W17 : Dev nD → Valuation τ sig (Elt F) := fun c => StableHlo.after hostOps9_4 (W16 m ρ c)
/-- The same read at the TensorCore's references. -/
abbrev V17 : (c : Dev nD) → (b : Ref sig .tc) → Buf (Elt F) ((c : Thread nD τ).loc b) := fun c b => W17 m ρ c b
/-- A buffer the stretch does not write is as before it. -/
theorem W17_keep (c : Dev nD) (r : Ref sig .tc) (h : r ∉ hostOps9_4_W) :
    W17 m ρ c (Proc.devRef .tc r) = W16 m ρ c (Proc.devRef .tc r) :=
  StableHlo.after_of_writes_sub hostOps9_4 _ hostOps9_4_writes h

/-- After item 17, the host stretch `hostOps9_5`. -/
abbrev W18 : Dev nD → Valuation τ sig (Elt F) := fun c => StableHlo.after hostOps9_5 (W17 m ρ c)
/-- The same read at the TensorCore's references. -/
abbrev V18 : (c : Dev nD) → (b : Ref sig .tc) → Buf (Elt F) ((c : Thread nD τ).loc b) := fun c b => W18 m ρ c b
/-- A buffer the stretch does not write is as before it. -/
theorem W18_keep (c : Dev nD) (r : Ref sig .tc) (h : r ∉ hostOps9_5_W) :
    W18 m ρ c (Proc.devRef .tc r) = W17 m ρ c (Proc.devRef .tc r) :=
  StableHlo.after_of_writes_sub hostOps9_5 _ hostOps9_5_writes h

/-- After item 18, region 9: its arrays at what the pipeline leaves (an input's as entered, an output's with every
    point's write-back folded in), every other buffer as entered. -/
def W19 (c : Dev nD) : Valuation τ sig (Elt F) :=
  Pipeline.withArrays spec9 c (W18 m ρ c) fun w => (dat9 (V18 m ρ) c).arrAt w cfg9.N
theorem W19_arr (c : Dev nD) (w : Fin cfg9.W) :
    W19 m ρ c (Proc.devRef .tc (Pipeline.arrRef spec9 w)) = (dat9 (V18 m ρ) c).arrAt w cfg9.N := by
  unfold W19; exact Pipeline.withArrays_arr spec9 launch9.win.arr_inj c _ _ w
theorem W19_of_ne (c : Dev nD) (b : Ref sig .tc) (hb : ∀ w, Pipeline.arrRef spec9 w ≠ b) :
    W19 m ρ c (Proc.devRef .tc b) = W18 m ρ c (Proc.devRef .tc b) := by
  unfold W19; exact Pipeline.withArrays_of_ne spec9 c _ _ b hb
/-- The same read at the TensorCore's references (region 9's exit contents). -/
abbrev V19 : (c : Dev nD) → (b : Ref sig .tc) → Buf (Elt F) ((c : Thread nD τ).loc b) := fun c b => W19 m ρ c b
/-- At region 9's exit each of its arrays holds what the pipeline leaves, and every other buffer what it held at entry. -/
theorem hF9 (c : Dev nD) (w : Fin cfg9.W) : (dat9 (V18 m ρ) c).arrAt w cfg9.N = V19 m ρ c (Pipeline.arrRef spec9 w) :=
  (W19_arr m ρ c w).symm
theorem hrest9 (c : Dev nD) : ∀ b, b ∉ Finset.univ.image (Pipeline.arrRef spec9) → V19 m ρ c b = V18 m ρ c b :=
  fun b hb => W19_of_ne m ρ c b fun w e => hb (Finset.mem_image.mpr ⟨w, Finset.mem_univ _, e⟩)
/-- Region 9's output window 1 leaves its array `main_v18` at the fold of its write-backs. -/
theorem W19_main_v18 (c : Dev nD) : W19 m ρ c (Proc.devRef .tc main_v18) = (dat9 (V18 m ρ) c).arrAt 1 cfg9.N :=
  W19_arr m ρ c 1

/-- After item 19, region 10: its arrays at what the pipeline leaves (an input's as entered, an output's with every
    point's write-back folded in), every other buffer as entered. -/
def W20 (c : Dev nD) : Valuation τ sig (Elt F) :=
  Pipeline.withArrays spec10 c (W19 m ρ c) fun w => (dat10 (V19 m ρ) c).arrAt w cfg10.N
theorem W20_arr (c : Dev nD) (w : Fin cfg10.W) :
    W20 m ρ c (Proc.devRef .tc (Pipeline.arrRef spec10 w)) = (dat10 (V19 m ρ) c).arrAt w cfg10.N := by
  unfold W20; exact Pipeline.withArrays_arr spec10 launch10.win.arr_inj c _ _ w
theorem W20_of_ne (c : Dev nD) (b : Ref sig .tc) (hb : ∀ w, Pipeline.arrRef spec10 w ≠ b) :
    W20 m ρ c (Proc.devRef .tc b) = W19 m ρ c (Proc.devRef .tc b) := by
  unfold W20; exact Pipeline.withArrays_of_ne spec10 c _ _ b hb
/-- The same read at the TensorCore's references (region 10's exit contents). -/
abbrev V20 : (c : Dev nD) → (b : Ref sig .tc) → Buf (Elt F) ((c : Thread nD τ).loc b) := fun c b => W20 m ρ c b
/-- At region 10's exit each of its arrays holds what the pipeline leaves, and every other buffer what it held at entry. -/
theorem hF10 (c : Dev nD) (w : Fin cfg10.W) : (dat10 (V19 m ρ) c).arrAt w cfg10.N = V20 m ρ c (Pipeline.arrRef spec10 w) :=
  (W20_arr m ρ c w).symm
theorem hrest10 (c : Dev nD) : ∀ b, b ∉ Finset.univ.image (Pipeline.arrRef spec10) → V20 m ρ c b = V19 m ρ c b :=
  fun b hb => W20_of_ne m ρ c b fun w e => hb (Finset.mem_image.mpr ⟨w, Finset.mem_univ _, e⟩)
/-- Region 10's output window 2 leaves its array `main_v19_0` at the fold of its write-backs. -/
theorem W20_main_v19_0 (c : Dev nD) : W20 m ρ c (Proc.devRef .tc main_v19_0) = (dat10 (V19 m ρ) c).arrAt 2 cfg10.N :=
  W20_arr m ρ c 2
/-- Region 10's output window 3 leaves its array `main_v19_1` at the fold of its write-backs. -/
theorem W20_main_v19_1 (c : Dev nD) : W20 m ρ c (Proc.devRef .tc main_v19_1) = (dat10 (V19 m ρ) c).arrAt 3 cfg10.N :=
  W20_arr m ρ c 3
/-- Region 10's output window 4 leaves its array `main_v19_2` at the fold of its write-backs. -/
theorem W20_main_v19_2 (c : Dev nD) : W20 m ρ c (Proc.devRef .tc main_v19_2) = (dat10 (V19 m ρ) c).arrAt 4 cfg10.N :=
  W20_arr m ρ c 4

/-- After item 20, the host stretch `hostOps11`. -/
abbrev W21 : Dev nD → Valuation τ sig (Elt F) := fun c => StableHlo.after hostOps11 (W20 m ρ c)
/-- The same read at the TensorCore's references. -/
abbrev V21 : (c : Dev nD) → (b : Ref sig .tc) → Buf (Elt F) ((c : Thread nD τ).loc b) := fun c b => W21 m ρ c b
/-- A buffer the stretch does not write is as before it. -/
theorem W21_keep (c : Dev nD) (r : Ref sig .tc) (h : r ∉ hostOps11_W) :
    W21 m ρ c (Proc.devRef .tc r) = W20 m ρ c (Proc.devRef .tc r) :=
  StableHlo.after_of_writes_sub hostOps11 _ hostOps11_writes h

/-- After item 21, region 11: its arrays at what the pipeline leaves (an input's as entered, an output's with every
    point's write-back folded in), every other buffer as entered. -/
def W22 (c : Dev nD) : Valuation τ sig (Elt F) :=
  Pipeline.withArrays spec11 c (W21 m ρ c) fun w => (dat11 (V21 m ρ) c).arrAt w cfg11.N
theorem W22_arr (c : Dev nD) (w : Fin cfg11.W) :
    W22 m ρ c (Proc.devRef .tc (Pipeline.arrRef spec11 w)) = (dat11 (V21 m ρ) c).arrAt w cfg11.N := by
  unfold W22; exact Pipeline.withArrays_arr spec11 launch11.win.arr_inj c _ _ w
theorem W22_of_ne (c : Dev nD) (b : Ref sig .tc) (hb : ∀ w, Pipeline.arrRef spec11 w ≠ b) :
    W22 m ρ c (Proc.devRef .tc b) = W21 m ρ c (Proc.devRef .tc b) := by
  unfold W22; exact Pipeline.withArrays_of_ne spec11 c _ _ b hb
/-- The same read at the TensorCore's references (region 11's exit contents). -/
abbrev V22 : (c : Dev nD) → (b : Ref sig .tc) → Buf (Elt F) ((c : Thread nD τ).loc b) := fun c b => W22 m ρ c b
/-- At region 11's exit each of its arrays holds what the pipeline leaves, and every other buffer what it held at entry. -/
theorem hF11 (c : Dev nD) (w : Fin cfg11.W) : (dat11 (V21 m ρ) c).arrAt w cfg11.N = V22 m ρ c (Pipeline.arrRef spec11 w) :=
  (W22_arr m ρ c w).symm
theorem hrest11 (c : Dev nD) : ∀ b, b ∉ Finset.univ.image (Pipeline.arrRef spec11) → V22 m ρ c b = V21 m ρ c b :=
  fun b hb => W22_of_ne m ρ c b fun w e => hb (Finset.mem_image.mpr ⟨w, Finset.mem_univ _, e⟩)
/-- Region 11's output window 5 leaves its array `main_v22` at the fold of its write-backs. -/
theorem W22_main_v22 (c : Dev nD) : W22 m ρ c (Proc.devRef .tc main_v22) = (dat11 (V21 m ρ) c).arrAt 5 cfg11.N :=
  W22_arr m ρ c 5

/-- After item 22, the host stretch `hostOps12`. -/
abbrev W23 : Dev nD → Valuation τ sig (Elt F) := fun c => StableHlo.after hostOps12 (W22 m ρ c)
/-- The same read at the TensorCore's references. -/
abbrev V23 : (c : Dev nD) → (b : Ref sig .tc) → Buf (Elt F) ((c : Thread nD τ).loc b) := fun c b => W23 m ρ c b
/-- A buffer the stretch does not write is as before it. -/
theorem W23_keep (c : Dev nD) (r : Ref sig .tc) (h : r ∉ hostOps12_W) :
    W23 m ρ c (Proc.devRef .tc r) = W22 m ρ c (Proc.devRef .tc r) :=
  StableHlo.after_of_writes_sub hostOps12 _ hostOps12_writes h

/-! ## The arguments end as launched

No host operation writes an argument and no region has one as an output window's array (a region reads it through an
input window, whose array it leaves as entered, or does not touch it), so the fold at an argument's buffer walks
back to the launch memory. -/

theorem W23_main_arg0 (c : Dev nD) : W23 m ρ c (Proc.devRef .tc main_arg0) = m ((c : Thread nD τ).loc main_arg0) :=
  calc W23 m ρ c (Proc.devRef .tc main_arg0)
    _ = W22 m ρ c (Proc.devRef .tc main_arg0) := W23_keep m ρ c main_arg0 (by decide)
    _ = W21 m ρ c (Proc.devRef .tc main_arg0) := W22_of_ne m ρ c main_arg0 (by decide)
    _ = W20 m ρ c (Proc.devRef .tc main_arg0) := W21_keep m ρ c main_arg0 (by decide)
    _ = W19 m ρ c (Proc.devRef .tc main_arg0) := W20_of_ne m ρ c main_arg0 (by decide)
    _ = W18 m ρ c (Proc.devRef .tc main_arg0) := W19_of_ne m ρ c main_arg0 (by decide)
    _ = W17 m ρ c (Proc.devRef .tc main_arg0) := W18_keep m ρ c main_arg0 (by decide)
    _ = W16 m ρ c (Proc.devRef .tc main_arg0) := W17_keep m ρ c main_arg0 (by decide)
    _ = W15 m ρ c (Proc.devRef .tc main_arg0) := W16_keep m ρ c main_arg0 (by decide)
    _ = W14 m ρ c (Proc.devRef .tc main_arg0) := W15_keep m ρ c main_arg0 (by decide)
    _ = W13 m ρ c (Proc.devRef .tc main_arg0) := W14_keep m ρ c main_arg0 (by decide)
    _ = W12 m ρ c (Proc.devRef .tc main_arg0) := W13_keep m ρ c main_arg0 (by decide)
    _ = W11 m ρ c (Proc.devRef .tc main_arg0) := W12_of_ne m ρ c main_arg0 (by decide)
    _ = W10 m ρ c (Proc.devRef .tc main_arg0) := W11_keep m ρ c main_arg0 (by decide)
    _ = W9 m ρ c (Proc.devRef .tc main_arg0) := W10_of_ne m ρ c main_arg0 (by decide)
    _ = W8 m ρ c (Proc.devRef .tc main_arg0) := W9_of_ne m ρ c main_arg0 (by decide)
    _ = W7 m ρ c (Proc.devRef .tc main_arg0) := W8_of_ne m ρ c main_arg0 (by decide)
    _ = W6 m ρ c (Proc.devRef .tc main_arg0) := W7_keep m ρ c main_arg0 (by decide)
    _ = W5 m ρ c (Proc.devRef .tc main_arg0) := W6_of_ne m ρ c main_arg0 (by decide)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_keep m ρ c main_arg0 (by decide)
    _ = W1 m ρ c (Proc.devRef .tc main_arg0) := (W2_arr m ρ c 0).trans (((dat1 (V1 m ρ) c).arrAt_in 0 rfl _).trans (A_eq1 (V1 m ρ) c 0))
    _ = W0 m ρ c (Proc.devRef .tc main_arg0) := W1_of_ne m ρ c main_arg0 (by decide)
    _ = m ((c : Thread nD τ).loc main_arg0) := rfl

theorem W23_main_arg1 (c : Dev nD) : W23 m ρ c (Proc.devRef .tc main_arg1) = m ((c : Thread nD τ).loc main_arg1) :=
  calc W23 m ρ c (Proc.devRef .tc main_arg1)
    _ = W22 m ρ c (Proc.devRef .tc main_arg1) := W23_keep m ρ c main_arg1 (by decide)
    _ = W21 m ρ c (Proc.devRef .tc main_arg1) := W22_of_ne m ρ c main_arg1 (by decide)
    _ = W20 m ρ c (Proc.devRef .tc main_arg1) := W21_keep m ρ c main_arg1 (by decide)
    _ = W19 m ρ c (Proc.devRef .tc main_arg1) := W20_of_ne m ρ c main_arg1 (by decide)
    _ = W18 m ρ c (Proc.devRef .tc main_arg1) := W19_of_ne m ρ c main_arg1 (by decide)
    _ = W17 m ρ c (Proc.devRef .tc main_arg1) := W18_keep m ρ c main_arg1 (by decide)
    _ = W16 m ρ c (Proc.devRef .tc main_arg1) := W17_keep m ρ c main_arg1 (by decide)
    _ = W15 m ρ c (Proc.devRef .tc main_arg1) := W16_keep m ρ c main_arg1 (by decide)
    _ = W14 m ρ c (Proc.devRef .tc main_arg1) := W15_keep m ρ c main_arg1 (by decide)
    _ = W13 m ρ c (Proc.devRef .tc main_arg1) := W14_keep m ρ c main_arg1 (by decide)
    _ = W12 m ρ c (Proc.devRef .tc main_arg1) := W13_keep m ρ c main_arg1 (by decide)
    _ = W11 m ρ c (Proc.devRef .tc main_arg1) := W12_of_ne m ρ c main_arg1 (by decide)
    _ = W10 m ρ c (Proc.devRef .tc main_arg1) := W11_keep m ρ c main_arg1 (by decide)
    _ = W9 m ρ c (Proc.devRef .tc main_arg1) := W10_of_ne m ρ c main_arg1 (by decide)
    _ = W8 m ρ c (Proc.devRef .tc main_arg1) := W9_of_ne m ρ c main_arg1 (by decide)
    _ = W7 m ρ c (Proc.devRef .tc main_arg1) := W8_of_ne m ρ c main_arg1 (by decide)
    _ = W6 m ρ c (Proc.devRef .tc main_arg1) := W7_keep m ρ c main_arg1 (by decide)
    _ = W5 m ρ c (Proc.devRef .tc main_arg1) := W6_of_ne m ρ c main_arg1 (by decide)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := W3_keep m ρ c main_arg1 (by decide)
    _ = W1 m ρ c (Proc.devRef .tc main_arg1) := W2_of_ne m ρ c main_arg1 (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

theorem W23_main_arg2 (c : Dev nD) : W23 m ρ c (Proc.devRef .tc main_arg2) = m ((c : Thread nD τ).loc main_arg2) :=
  calc W23 m ρ c (Proc.devRef .tc main_arg2)
    _ = W22 m ρ c (Proc.devRef .tc main_arg2) := W23_keep m ρ c main_arg2 (by decide)
    _ = W21 m ρ c (Proc.devRef .tc main_arg2) := W22_of_ne m ρ c main_arg2 (by decide)
    _ = W20 m ρ c (Proc.devRef .tc main_arg2) := W21_keep m ρ c main_arg2 (by decide)
    _ = W19 m ρ c (Proc.devRef .tc main_arg2) := W20_of_ne m ρ c main_arg2 (by decide)
    _ = W18 m ρ c (Proc.devRef .tc main_arg2) := W19_of_ne m ρ c main_arg2 (by decide)
    _ = W17 m ρ c (Proc.devRef .tc main_arg2) := W18_keep m ρ c main_arg2 (by decide)
    _ = W16 m ρ c (Proc.devRef .tc main_arg2) := W17_keep m ρ c main_arg2 (by decide)
    _ = W15 m ρ c (Proc.devRef .tc main_arg2) := W16_keep m ρ c main_arg2 (by decide)
    _ = W14 m ρ c (Proc.devRef .tc main_arg2) := W15_keep m ρ c main_arg2 (by decide)
    _ = W13 m ρ c (Proc.devRef .tc main_arg2) := W14_keep m ρ c main_arg2 (by decide)
    _ = W12 m ρ c (Proc.devRef .tc main_arg2) := W13_keep m ρ c main_arg2 (by decide)
    _ = W11 m ρ c (Proc.devRef .tc main_arg2) := W12_of_ne m ρ c main_arg2 (by decide)
    _ = W10 m ρ c (Proc.devRef .tc main_arg2) := W11_keep m ρ c main_arg2 (by decide)
    _ = W9 m ρ c (Proc.devRef .tc main_arg2) := W10_of_ne m ρ c main_arg2 (by decide)
    _ = W8 m ρ c (Proc.devRef .tc main_arg2) := W9_of_ne m ρ c main_arg2 (by decide)
    _ = W7 m ρ c (Proc.devRef .tc main_arg2) := W8_of_ne m ρ c main_arg2 (by decide)
    _ = W6 m ρ c (Proc.devRef .tc main_arg2) := W7_keep m ρ c main_arg2 (by decide)
    _ = W5 m ρ c (Proc.devRef .tc main_arg2) := W6_of_ne m ρ c main_arg2 (by decide)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := W3_keep m ρ c main_arg2 (by decide)
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

theorem W23_main_arg3 (c : Dev nD) : W23 m ρ c (Proc.devRef .tc main_arg3) = m ((c : Thread nD τ).loc main_arg3) :=
  calc W23 m ρ c (Proc.devRef .tc main_arg3)
    _ = W22 m ρ c (Proc.devRef .tc main_arg3) := W23_keep m ρ c main_arg3 (by decide)
    _ = W21 m ρ c (Proc.devRef .tc main_arg3) := W22_of_ne m ρ c main_arg3 (by decide)
    _ = W20 m ρ c (Proc.devRef .tc main_arg3) := W21_keep m ρ c main_arg3 (by decide)
    _ = W19 m ρ c (Proc.devRef .tc main_arg3) := W20_of_ne m ρ c main_arg3 (by decide)
    _ = W18 m ρ c (Proc.devRef .tc main_arg3) := W19_of_ne m ρ c main_arg3 (by decide)
    _ = W17 m ρ c (Proc.devRef .tc main_arg3) := W18_keep m ρ c main_arg3 (by decide)
    _ = W16 m ρ c (Proc.devRef .tc main_arg3) := W17_keep m ρ c main_arg3 (by decide)
    _ = W15 m ρ c (Proc.devRef .tc main_arg3) := W16_keep m ρ c main_arg3 (by decide)
    _ = W14 m ρ c (Proc.devRef .tc main_arg3) := W15_keep m ρ c main_arg3 (by decide)
    _ = W13 m ρ c (Proc.devRef .tc main_arg3) := W14_keep m ρ c main_arg3 (by decide)
    _ = W12 m ρ c (Proc.devRef .tc main_arg3) := W13_keep m ρ c main_arg3 (by decide)
    _ = W11 m ρ c (Proc.devRef .tc main_arg3) := W12_of_ne m ρ c main_arg3 (by decide)
    _ = W10 m ρ c (Proc.devRef .tc main_arg3) := W11_keep m ρ c main_arg3 (by decide)
    _ = W9 m ρ c (Proc.devRef .tc main_arg3) := W10_of_ne m ρ c main_arg3 (by decide)
    _ = W8 m ρ c (Proc.devRef .tc main_arg3) := W9_of_ne m ρ c main_arg3 (by decide)
    _ = W7 m ρ c (Proc.devRef .tc main_arg3) := W8_of_ne m ρ c main_arg3 (by decide)
    _ = W6 m ρ c (Proc.devRef .tc main_arg3) := W7_keep m ρ c main_arg3 (by decide)
    _ = W5 m ρ c (Proc.devRef .tc main_arg3) := W6_of_ne m ρ c main_arg3 (by decide)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := W3_keep m ρ c main_arg3 (by decide)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

theorem W23_main_arg4 (c : Dev nD) : W23 m ρ c (Proc.devRef .tc main_arg4) = m ((c : Thread nD τ).loc main_arg4) :=
  calc W23 m ρ c (Proc.devRef .tc main_arg4)
    _ = W22 m ρ c (Proc.devRef .tc main_arg4) := W23_keep m ρ c main_arg4 (by decide)
    _ = W21 m ρ c (Proc.devRef .tc main_arg4) := W22_of_ne m ρ c main_arg4 (by decide)
    _ = W20 m ρ c (Proc.devRef .tc main_arg4) := W21_keep m ρ c main_arg4 (by decide)
    _ = W19 m ρ c (Proc.devRef .tc main_arg4) := W20_of_ne m ρ c main_arg4 (by decide)
    _ = W18 m ρ c (Proc.devRef .tc main_arg4) := W19_of_ne m ρ c main_arg4 (by decide)
    _ = W17 m ρ c (Proc.devRef .tc main_arg4) := W18_keep m ρ c main_arg4 (by decide)
    _ = W16 m ρ c (Proc.devRef .tc main_arg4) := W17_keep m ρ c main_arg4 (by decide)
    _ = W15 m ρ c (Proc.devRef .tc main_arg4) := W16_keep m ρ c main_arg4 (by decide)
    _ = W14 m ρ c (Proc.devRef .tc main_arg4) := W15_keep m ρ c main_arg4 (by decide)
    _ = W13 m ρ c (Proc.devRef .tc main_arg4) := W14_keep m ρ c main_arg4 (by decide)
    _ = W12 m ρ c (Proc.devRef .tc main_arg4) := W13_keep m ρ c main_arg4 (by decide)
    _ = W11 m ρ c (Proc.devRef .tc main_arg4) := W12_of_ne m ρ c main_arg4 (by decide)
    _ = W10 m ρ c (Proc.devRef .tc main_arg4) := W11_keep m ρ c main_arg4 (by decide)
    _ = W9 m ρ c (Proc.devRef .tc main_arg4) := W10_of_ne m ρ c main_arg4 (by decide)
    _ = W8 m ρ c (Proc.devRef .tc main_arg4) := W9_of_ne m ρ c main_arg4 (by decide)
    _ = W7 m ρ c (Proc.devRef .tc main_arg4) := W8_of_ne m ρ c main_arg4 (by decide)
    _ = W6 m ρ c (Proc.devRef .tc main_arg4) := W7_keep m ρ c main_arg4 (by decide)
    _ = W5 m ρ c (Proc.devRef .tc main_arg4) := W6_of_ne m ρ c main_arg4 (by decide)
    _ = W4 m ρ c (Proc.devRef .tc main_arg4) := (W5_arr m ρ c 0).trans (((dat3 (V4 m ρ) c).arrAt_in 0 rfl _).trans (A_eq3 (V4 m ρ) c 0))
    _ = W3 m ρ c (Proc.devRef .tc main_arg4) := W4_of_ne m ρ c main_arg4 (by decide)
    _ = W2 m ρ c (Proc.devRef .tc main_arg4) := W3_keep m ρ c main_arg4 (by decide)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl

theorem W23_main_arg5 (c : Dev nD) : W23 m ρ c (Proc.devRef .tc main_arg5) = m ((c : Thread nD τ).loc main_arg5) :=
  calc W23 m ρ c (Proc.devRef .tc main_arg5)
    _ = W22 m ρ c (Proc.devRef .tc main_arg5) := W23_keep m ρ c main_arg5 (by decide)
    _ = W21 m ρ c (Proc.devRef .tc main_arg5) := W22_of_ne m ρ c main_arg5 (by decide)
    _ = W20 m ρ c (Proc.devRef .tc main_arg5) := W21_keep m ρ c main_arg5 (by decide)
    _ = W19 m ρ c (Proc.devRef .tc main_arg5) := W20_of_ne m ρ c main_arg5 (by decide)
    _ = W18 m ρ c (Proc.devRef .tc main_arg5) := W19_of_ne m ρ c main_arg5 (by decide)
    _ = W17 m ρ c (Proc.devRef .tc main_arg5) := W18_keep m ρ c main_arg5 (by decide)
    _ = W16 m ρ c (Proc.devRef .tc main_arg5) := W17_keep m ρ c main_arg5 (by decide)
    _ = W15 m ρ c (Proc.devRef .tc main_arg5) := W16_keep m ρ c main_arg5 (by decide)
    _ = W14 m ρ c (Proc.devRef .tc main_arg5) := W15_keep m ρ c main_arg5 (by decide)
    _ = W13 m ρ c (Proc.devRef .tc main_arg5) := W14_keep m ρ c main_arg5 (by decide)
    _ = W12 m ρ c (Proc.devRef .tc main_arg5) := W13_keep m ρ c main_arg5 (by decide)
    _ = W11 m ρ c (Proc.devRef .tc main_arg5) := W12_of_ne m ρ c main_arg5 (by decide)
    _ = W10 m ρ c (Proc.devRef .tc main_arg5) := W11_keep m ρ c main_arg5 (by decide)
    _ = W9 m ρ c (Proc.devRef .tc main_arg5) := W10_of_ne m ρ c main_arg5 (by decide)
    _ = W8 m ρ c (Proc.devRef .tc main_arg5) := W9_of_ne m ρ c main_arg5 (by decide)
    _ = W7 m ρ c (Proc.devRef .tc main_arg5) := W8_of_ne m ρ c main_arg5 (by decide)
    _ = W6 m ρ c (Proc.devRef .tc main_arg5) := W7_keep m ρ c main_arg5 (by decide)
    _ = W5 m ρ c (Proc.devRef .tc main_arg5) := W6_of_ne m ρ c main_arg5 (by decide)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := W3_keep m ρ c main_arg5 (by decide)
    _ = W1 m ρ c (Proc.devRef .tc main_arg5) := W2_of_ne m ρ c main_arg5 (by decide)
    _ = W0 m ρ c (Proc.devRef .tc main_arg5) := W1_of_ne m ρ c main_arg5 (by decide)
    _ = m ((c : Thread nD τ).loc main_arg5) := rfl

theorem W23_main_arg6 (c : Dev nD) : W23 m ρ c (Proc.devRef .tc main_arg6) = m ((c : Thread nD τ).loc main_arg6) :=
  calc W23 m ρ c (Proc.devRef .tc main_arg6)
    _ = W22 m ρ c (Proc.devRef .tc main_arg6) := W23_keep m ρ c main_arg6 (by decide)
    _ = W21 m ρ c (Proc.devRef .tc main_arg6) := W22_of_ne m ρ c main_arg6 (by decide)
    _ = W20 m ρ c (Proc.devRef .tc main_arg6) := W21_keep m ρ c main_arg6 (by decide)
    _ = W19 m ρ c (Proc.devRef .tc main_arg6) := W20_of_ne m ρ c main_arg6 (by decide)
    _ = W18 m ρ c (Proc.devRef .tc main_arg6) := W19_of_ne m ρ c main_arg6 (by decide)
    _ = W17 m ρ c (Proc.devRef .tc main_arg6) := W18_keep m ρ c main_arg6 (by decide)
    _ = W16 m ρ c (Proc.devRef .tc main_arg6) := W17_keep m ρ c main_arg6 (by decide)
    _ = W15 m ρ c (Proc.devRef .tc main_arg6) := W16_keep m ρ c main_arg6 (by decide)
    _ = W14 m ρ c (Proc.devRef .tc main_arg6) := W15_keep m ρ c main_arg6 (by decide)
    _ = W13 m ρ c (Proc.devRef .tc main_arg6) := W14_keep m ρ c main_arg6 (by decide)
    _ = W12 m ρ c (Proc.devRef .tc main_arg6) := W13_keep m ρ c main_arg6 (by decide)
    _ = W11 m ρ c (Proc.devRef .tc main_arg6) := W12_of_ne m ρ c main_arg6 (by decide)
    _ = W10 m ρ c (Proc.devRef .tc main_arg6) := W11_keep m ρ c main_arg6 (by decide)
    _ = W9 m ρ c (Proc.devRef .tc main_arg6) := W10_of_ne m ρ c main_arg6 (by decide)
    _ = W8 m ρ c (Proc.devRef .tc main_arg6) := W9_of_ne m ρ c main_arg6 (by decide)
    _ = W7 m ρ c (Proc.devRef .tc main_arg6) := W8_of_ne m ρ c main_arg6 (by decide)
    _ = W6 m ρ c (Proc.devRef .tc main_arg6) := W7_keep m ρ c main_arg6 (by decide)
    _ = W5 m ρ c (Proc.devRef .tc main_arg6) := W6_of_ne m ρ c main_arg6 (by decide)
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := W3_keep m ρ c main_arg6 (by decide)
    _ = W1 m ρ c (Proc.devRef .tc main_arg6) := W2_of_ne m ρ c main_arg6 (by decide)
    _ = W0 m ρ c (Proc.devRef .tc main_arg6) := W1_of_ne m ρ c main_arg6 (by decide)
    _ = m ((c : Thread nD τ).loc main_arg6) := rfl

theorem W23_main_arg7 (c : Dev nD) : W23 m ρ c (Proc.devRef .tc main_arg7) = m ((c : Thread nD τ).loc main_arg7) :=
  calc W23 m ρ c (Proc.devRef .tc main_arg7)
    _ = W22 m ρ c (Proc.devRef .tc main_arg7) := W23_keep m ρ c main_arg7 (by decide)
    _ = W21 m ρ c (Proc.devRef .tc main_arg7) := W22_of_ne m ρ c main_arg7 (by decide)
    _ = W20 m ρ c (Proc.devRef .tc main_arg7) := W21_keep m ρ c main_arg7 (by decide)
    _ = W19 m ρ c (Proc.devRef .tc main_arg7) := W20_of_ne m ρ c main_arg7 (by decide)
    _ = W18 m ρ c (Proc.devRef .tc main_arg7) := W19_of_ne m ρ c main_arg7 (by decide)
    _ = W17 m ρ c (Proc.devRef .tc main_arg7) := W18_keep m ρ c main_arg7 (by decide)
    _ = W16 m ρ c (Proc.devRef .tc main_arg7) := W17_keep m ρ c main_arg7 (by decide)
    _ = W15 m ρ c (Proc.devRef .tc main_arg7) := W16_keep m ρ c main_arg7 (by decide)
    _ = W14 m ρ c (Proc.devRef .tc main_arg7) := W15_keep m ρ c main_arg7 (by decide)
    _ = W13 m ρ c (Proc.devRef .tc main_arg7) := W14_keep m ρ c main_arg7 (by decide)
    _ = W12 m ρ c (Proc.devRef .tc main_arg7) := W13_keep m ρ c main_arg7 (by decide)
    _ = W11 m ρ c (Proc.devRef .tc main_arg7) := W12_of_ne m ρ c main_arg7 (by decide)
    _ = W10 m ρ c (Proc.devRef .tc main_arg7) := W11_keep m ρ c main_arg7 (by decide)
    _ = W9 m ρ c (Proc.devRef .tc main_arg7) := W10_of_ne m ρ c main_arg7 (by decide)
    _ = W8 m ρ c (Proc.devRef .tc main_arg7) := (W9_arr m ρ c 0).trans (((dat6 (V8 m ρ) c).arrAt_in 0 rfl _).trans (A_eq6 (V8 m ρ) c 0))
    _ = W7 m ρ c (Proc.devRef .tc main_arg7) := W8_of_ne m ρ c main_arg7 (by decide)
    _ = W6 m ρ c (Proc.devRef .tc main_arg7) := W7_keep m ρ c main_arg7 (by decide)
    _ = W5 m ρ c (Proc.devRef .tc main_arg7) := W6_of_ne m ρ c main_arg7 (by decide)
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := W3_keep m ρ c main_arg7 (by decide)
    _ = W1 m ρ c (Proc.devRef .tc main_arg7) := W2_of_ne m ρ c main_arg7 (by decide)
    _ = W0 m ρ c (Proc.devRef .tc main_arg7) := W1_of_ne m ρ c main_arg7 (by decide)
    _ = m ((c : Thread nD τ).loc main_arg7) := rfl

theorem W23_main_arg8 (c : Dev nD) : W23 m ρ c (Proc.devRef .tc main_arg8) = m ((c : Thread nD τ).loc main_arg8) :=
  calc W23 m ρ c (Proc.devRef .tc main_arg8)
    _ = W22 m ρ c (Proc.devRef .tc main_arg8) := W23_keep m ρ c main_arg8 (by decide)
    _ = W21 m ρ c (Proc.devRef .tc main_arg8) := W22_of_ne m ρ c main_arg8 (by decide)
    _ = W20 m ρ c (Proc.devRef .tc main_arg8) := W21_keep m ρ c main_arg8 (by decide)
    _ = W19 m ρ c (Proc.devRef .tc main_arg8) := W20_of_ne m ρ c main_arg8 (by decide)
    _ = W18 m ρ c (Proc.devRef .tc main_arg8) := W19_of_ne m ρ c main_arg8 (by decide)
    _ = W17 m ρ c (Proc.devRef .tc main_arg8) := W18_keep m ρ c main_arg8 (by decide)
    _ = W16 m ρ c (Proc.devRef .tc main_arg8) := W17_keep m ρ c main_arg8 (by decide)
    _ = W15 m ρ c (Proc.devRef .tc main_arg8) := W16_keep m ρ c main_arg8 (by decide)
    _ = W14 m ρ c (Proc.devRef .tc main_arg8) := W15_keep m ρ c main_arg8 (by decide)
    _ = W13 m ρ c (Proc.devRef .tc main_arg8) := W14_keep m ρ c main_arg8 (by decide)
    _ = W12 m ρ c (Proc.devRef .tc main_arg8) := W13_keep m ρ c main_arg8 (by decide)
    _ = W11 m ρ c (Proc.devRef .tc main_arg8) := W12_of_ne m ρ c main_arg8 (by decide)
    _ = W10 m ρ c (Proc.devRef .tc main_arg8) := W11_keep m ρ c main_arg8 (by decide)
    _ = W9 m ρ c (Proc.devRef .tc main_arg8) := W10_of_ne m ρ c main_arg8 (by decide)
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := W7_keep m ρ c main_arg8 (by decide)
    _ = W5 m ρ c (Proc.devRef .tc main_arg8) := W6_of_ne m ρ c main_arg8 (by decide)
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := W3_keep m ρ c main_arg8 (by decide)
    _ = W1 m ρ c (Proc.devRef .tc main_arg8) := W2_of_ne m ρ c main_arg8 (by decide)
    _ = W0 m ρ c (Proc.devRef .tc main_arg8) := W1_of_ne m ρ c main_arg8 (by decide)
    _ = m ((c : Thread nD τ).loc main_arg8) := rfl

theorem W23_main_arg9 (c : Dev nD) : W23 m ρ c (Proc.devRef .tc main_arg9) = m ((c : Thread nD τ).loc main_arg9) :=
  calc W23 m ρ c (Proc.devRef .tc main_arg9)
    _ = W22 m ρ c (Proc.devRef .tc main_arg9) := W23_keep m ρ c main_arg9 (by decide)
    _ = W21 m ρ c (Proc.devRef .tc main_arg9) := W22_of_ne m ρ c main_arg9 (by decide)
    _ = W20 m ρ c (Proc.devRef .tc main_arg9) := W21_keep m ρ c main_arg9 (by decide)
    _ = W19 m ρ c (Proc.devRef .tc main_arg9) := W20_of_ne m ρ c main_arg9 (by decide)
    _ = W18 m ρ c (Proc.devRef .tc main_arg9) := W19_of_ne m ρ c main_arg9 (by decide)
    _ = W17 m ρ c (Proc.devRef .tc main_arg9) := W18_keep m ρ c main_arg9 (by decide)
    _ = W16 m ρ c (Proc.devRef .tc main_arg9) := W17_keep m ρ c main_arg9 (by decide)
    _ = W15 m ρ c (Proc.devRef .tc main_arg9) := W16_keep m ρ c main_arg9 (by decide)
    _ = W14 m ρ c (Proc.devRef .tc main_arg9) := W15_keep m ρ c main_arg9 (by decide)
    _ = W13 m ρ c (Proc.devRef .tc main_arg9) := W14_keep m ρ c main_arg9 (by decide)
    _ = W12 m ρ c (Proc.devRef .tc main_arg9) := W13_keep m ρ c main_arg9 (by decide)
    _ = W11 m ρ c (Proc.devRef .tc main_arg9) := W12_of_ne m ρ c main_arg9 (by decide)
    _ = W10 m ρ c (Proc.devRef .tc main_arg9) := W11_keep m ρ c main_arg9 (by decide)
    _ = W9 m ρ c (Proc.devRef .tc main_arg9) := W10_of_ne m ρ c main_arg9 (by decide)
    _ = W8 m ρ c (Proc.devRef .tc main_arg9) := W9_of_ne m ρ c main_arg9 (by decide)
    _ = W7 m ρ c (Proc.devRef .tc main_arg9) := W8_of_ne m ρ c main_arg9 (by decide)
    _ = W6 m ρ c (Proc.devRef .tc main_arg9) := W7_keep m ρ c main_arg9 (by decide)
    _ = W5 m ρ c (Proc.devRef .tc main_arg9) := W6_of_ne m ρ c main_arg9 (by decide)
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := W3_keep m ρ c main_arg9 (by decide)
    _ = W1 m ρ c (Proc.devRef .tc main_arg9) := W2_of_ne m ρ c main_arg9 (by decide)
    _ = W0 m ρ c (Proc.devRef .tc main_arg9) := W1_of_ne m ρ c main_arg9 (by decide)
    _ = m ((c : Thread nD τ).loc main_arg9) := rfl

theorem W23_main_arg10 (c : Dev nD) : W23 m ρ c (Proc.devRef .tc main_arg10) = m ((c : Thread nD τ).loc main_arg10) :=
  calc W23 m ρ c (Proc.devRef .tc main_arg10)
    _ = W22 m ρ c (Proc.devRef .tc main_arg10) := W23_keep m ρ c main_arg10 (by decide)
    _ = W21 m ρ c (Proc.devRef .tc main_arg10) := W22_of_ne m ρ c main_arg10 (by decide)
    _ = W20 m ρ c (Proc.devRef .tc main_arg10) := W21_keep m ρ c main_arg10 (by decide)
    _ = W19 m ρ c (Proc.devRef .tc main_arg10) := W20_of_ne m ρ c main_arg10 (by decide)
    _ = W18 m ρ c (Proc.devRef .tc main_arg10) := W19_of_ne m ρ c main_arg10 (by decide)
    _ = W17 m ρ c (Proc.devRef .tc main_arg10) := W18_keep m ρ c main_arg10 (by decide)
    _ = W16 m ρ c (Proc.devRef .tc main_arg10) := W17_keep m ρ c main_arg10 (by decide)
    _ = W15 m ρ c (Proc.devRef .tc main_arg10) := W16_keep m ρ c main_arg10 (by decide)
    _ = W14 m ρ c (Proc.devRef .tc main_arg10) := W15_keep m ρ c main_arg10 (by decide)
    _ = W13 m ρ c (Proc.devRef .tc main_arg10) := W14_keep m ρ c main_arg10 (by decide)
    _ = W12 m ρ c (Proc.devRef .tc main_arg10) := W13_keep m ρ c main_arg10 (by decide)
    _ = W11 m ρ c (Proc.devRef .tc main_arg10) := W12_of_ne m ρ c main_arg10 (by decide)
    _ = W10 m ρ c (Proc.devRef .tc main_arg10) := W11_keep m ρ c main_arg10 (by decide)
    _ = W9 m ρ c (Proc.devRef .tc main_arg10) := W10_of_ne m ρ c main_arg10 (by decide)
    _ = W8 m ρ c (Proc.devRef .tc main_arg10) := W9_of_ne m ρ c main_arg10 (by decide)
    _ = W7 m ρ c (Proc.devRef .tc main_arg10) := W8_of_ne m ρ c main_arg10 (by decide)
    _ = W6 m ρ c (Proc.devRef .tc main_arg10) := W7_keep m ρ c main_arg10 (by decide)
    _ = W5 m ρ c (Proc.devRef .tc main_arg10) := W6_of_ne m ρ c main_arg10 (by decide)
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := W3_keep m ρ c main_arg10 (by decide)
    _ = W1 m ρ c (Proc.devRef .tc main_arg10) := W2_of_ne m ρ c main_arg10 (by decide)
    _ = W0 m ρ c (Proc.devRef .tc main_arg10) := W1_of_ne m ρ c main_arg10 (by decide)
    _ = m ((c : Thread nD τ).loc main_arg10) := rfl

theorem W23_main_arg11 (c : Dev nD) : W23 m ρ c (Proc.devRef .tc main_arg11) = m ((c : Thread nD τ).loc main_arg11) :=
  calc W23 m ρ c (Proc.devRef .tc main_arg11)
    _ = W22 m ρ c (Proc.devRef .tc main_arg11) := W23_keep m ρ c main_arg11 (by decide)
    _ = W21 m ρ c (Proc.devRef .tc main_arg11) := W22_of_ne m ρ c main_arg11 (by decide)
    _ = W20 m ρ c (Proc.devRef .tc main_arg11) := W21_keep m ρ c main_arg11 (by decide)
    _ = W19 m ρ c (Proc.devRef .tc main_arg11) := W20_of_ne m ρ c main_arg11 (by decide)
    _ = W18 m ρ c (Proc.devRef .tc main_arg11) := W19_of_ne m ρ c main_arg11 (by decide)
    _ = W17 m ρ c (Proc.devRef .tc main_arg11) := W18_keep m ρ c main_arg11 (by decide)
    _ = W16 m ρ c (Proc.devRef .tc main_arg11) := W17_keep m ρ c main_arg11 (by decide)
    _ = W15 m ρ c (Proc.devRef .tc main_arg11) := W16_keep m ρ c main_arg11 (by decide)
    _ = W14 m ρ c (Proc.devRef .tc main_arg11) := W15_keep m ρ c main_arg11 (by decide)
    _ = W13 m ρ c (Proc.devRef .tc main_arg11) := W14_keep m ρ c main_arg11 (by decide)
    _ = W12 m ρ c (Proc.devRef .tc main_arg11) := W13_keep m ρ c main_arg11 (by decide)
    _ = W11 m ρ c (Proc.devRef .tc main_arg11) := W12_of_ne m ρ c main_arg11 (by decide)
    _ = W10 m ρ c (Proc.devRef .tc main_arg11) := W11_keep m ρ c main_arg11 (by decide)
    _ = W9 m ρ c (Proc.devRef .tc main_arg11) := W10_of_ne m ρ c main_arg11 (by decide)
    _ = W8 m ρ c (Proc.devRef .tc main_arg11) := W9_of_ne m ρ c main_arg11 (by decide)
    _ = W7 m ρ c (Proc.devRef .tc main_arg11) := W8_of_ne m ρ c main_arg11 (by decide)
    _ = W6 m ρ c (Proc.devRef .tc main_arg11) := W7_keep m ρ c main_arg11 (by decide)
    _ = W5 m ρ c (Proc.devRef .tc main_arg11) := W6_of_ne m ρ c main_arg11 (by decide)
    _ = W4 m ρ c (Proc.devRef .tc main_arg11) := W5_of_ne m ρ c main_arg11 (by decide)
    _ = W3 m ρ c (Proc.devRef .tc main_arg11) := W4_of_ne m ρ c main_arg11 (by decide)
    _ = W2 m ρ c (Proc.devRef .tc main_arg11) := W3_keep m ρ c main_arg11 (by decide)
    _ = W1 m ρ c (Proc.devRef .tc main_arg11) := W2_of_ne m ρ c main_arg11 (by decide)
    _ = W0 m ρ c (Proc.devRef .tc main_arg11) := W1_of_ne m ρ c main_arg11 (by decide)
    _ = m ((c : Thread nD τ).loc main_arg11) := rfl

theorem W23_main_arg12 (c : Dev nD) : W23 m ρ c (Proc.devRef .tc main_arg12) = m ((c : Thread nD τ).loc main_arg12) :=
  calc W23 m ρ c (Proc.devRef .tc main_arg12)
    _ = W22 m ρ c (Proc.devRef .tc main_arg12) := W23_keep m ρ c main_arg12 (by decide)
    _ = W21 m ρ c (Proc.devRef .tc main_arg12) := W22_of_ne m ρ c main_arg12 (by decide)
    _ = W20 m ρ c (Proc.devRef .tc main_arg12) := W21_keep m ρ c main_arg12 (by decide)
    _ = W19 m ρ c (Proc.devRef .tc main_arg12) := W20_of_ne m ρ c main_arg12 (by decide)
    _ = W18 m ρ c (Proc.devRef .tc main_arg12) := W19_of_ne m ρ c main_arg12 (by decide)
    _ = W17 m ρ c (Proc.devRef .tc main_arg12) := W18_keep m ρ c main_arg12 (by decide)
    _ = W16 m ρ c (Proc.devRef .tc main_arg12) := W17_keep m ρ c main_arg12 (by decide)
    _ = W15 m ρ c (Proc.devRef .tc main_arg12) := W16_keep m ρ c main_arg12 (by decide)
    _ = W14 m ρ c (Proc.devRef .tc main_arg12) := W15_keep m ρ c main_arg12 (by decide)
    _ = W13 m ρ c (Proc.devRef .tc main_arg12) := W14_keep m ρ c main_arg12 (by decide)
    _ = W12 m ρ c (Proc.devRef .tc main_arg12) := W13_keep m ρ c main_arg12 (by decide)
    _ = W11 m ρ c (Proc.devRef .tc main_arg12) := W12_of_ne m ρ c main_arg12 (by decide)
    _ = W10 m ρ c (Proc.devRef .tc main_arg12) := W11_keep m ρ c main_arg12 (by decide)
    _ = W9 m ρ c (Proc.devRef .tc main_arg12) := W10_of_ne m ρ c main_arg12 (by decide)
    _ = W8 m ρ c (Proc.devRef .tc main_arg12) := W9_of_ne m ρ c main_arg12 (by decide)
    _ = W7 m ρ c (Proc.devRef .tc main_arg12) := W8_of_ne m ρ c main_arg12 (by decide)
    _ = W6 m ρ c (Proc.devRef .tc main_arg12) := W7_keep m ρ c main_arg12 (by decide)
    _ = W5 m ρ c (Proc.devRef .tc main_arg12) := W6_of_ne m ρ c main_arg12 (by decide)
    _ = W4 m ρ c (Proc.devRef .tc main_arg12) := W5_of_ne m ρ c main_arg12 (by decide)
    _ = W3 m ρ c (Proc.devRef .tc main_arg12) := W4_of_ne m ρ c main_arg12 (by decide)
    _ = W2 m ρ c (Proc.devRef .tc main_arg12) := W3_keep m ρ c main_arg12 (by decide)
    _ = W1 m ρ c (Proc.devRef .tc main_arg12) := W2_of_ne m ρ c main_arg12 (by decide)
    _ = W0 m ρ c (Proc.devRef .tc main_arg12) := W1_of_ne m ρ c main_arg12 (by decide)
    _ = m ((c : Thread nD τ).loc main_arg12) := rfl

end Cert.Kernel.Hand

end
-- ==== Proof.K.MainData.lean ====
import proofs.«157460_j63591285784858_2_alg».proof.Proof.K.MainFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The proof data of the twelve pipelines and the thread state between items

Every pipeline's proof data is taken at the buffer contents its region is entered with. Between two items a core
holds every unscoped buffer whole at that boundary's contents, its generator register at some state, and owes
nothing. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents. -/
def pdats : (p : Fin 12) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V3 m ρ) c
  | ⟨3, _⟩ => fun c => dat3 (V4 m ρ) c
  | ⟨4, _⟩ => fun c => dat4 (V5 m ρ) c
  | ⟨5, _⟩ => fun c => dat5 (V7 m ρ) c
  | ⟨6, _⟩ => fun c => dat6 (V8 m ρ) c
  | ⟨7, _⟩ => fun c => dat7 (V9 m ρ) c
  | ⟨8, _⟩ => fun c => dat8 (V11 m ρ) c
  | ⟨9, _⟩ => fun c => dat9 (V18 m ρ) c
  | ⟨10, _⟩ => fun c => dat10 (V19 m ρ) c
  | ⟨11, _⟩ => fun c => dat11 (V21 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it runs to those
    references at the contents after its operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W23 m ρ c) ∗ ∃ r, prngReg c r)
/-- What the last host stretch leaves is the last thread state beside the core owing nothing. -/
theorem last_state (c : Dev nD) :
    (iprop(StableHlo.held (c : Thread nD τ) (Pipeline.ucRefs τ sig) (W23 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

end Cert.Kernel.Hand

end
-- ==== Proof.K.MainRegs.lean ====
import proofs.«157460_j63591285784858_2_alg».proof.Proof.K.MainData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The twelve regions as segments

Each region as a segment of the program over the thread state: its windows' arrays are split out of the unscoped
buffers at entry and put back at the exit contents; the pipeline's invariant takes the generator register in and
gives it back. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (hb1 : ∀ (V : (c : Dev nD) → (b : Ref sig .tc) → Buf (Elt F) ((c : Thread nD τ).loc b)) (c : Dev nD), BodyObligation (dat1 (F := F) V c) (defs₀ (F := F)) Variants.none () Set.univ)
  (hb4 : ∀ (V : (c : Dev nD) → (b : Ref sig .tc) → Buf (Elt F) ((c : Thread nD τ).loc b)) (c : Dev nD), BodyObligation (dat4 (F := F) V c) (defs₀ (F := F)) Variants.none () Set.univ)
  (hb7 : ∀ (V : (c : Dev nD) → (b : Ref sig .tc) → Buf (Elt F) ((c : Thread nD τ).loc b)) (c : Dev nD), BodyObligation (dat7 (F := F) V c) (defs₀ (F := F)) Variants.none () Set.univ)
  (hb10 : ∀ (V : (c : Dev nD) → (b : Ref sig .tc) → Buf (Elt F) ((c : Thread nD τ).loc b)) (c : Dev nD), BodyObligation (dat10 (F := F) V c) (defs₀ (F := F)) Variants.none () Set.univ)
variable (m : (ℓ : Loc nD τ sig) → Buf (Elt F) ℓ) (ρ : Dev nD → PrngReg)

-- unifying a library lemma stated over the pinned configuration of pipeline 0 with the printed one takes unfolding
-- plain definitions in a metavariable's type
set_option backward.isDefEq.respectTransparency.types false in
/-- Region 0 over the thread state: entered from every unscoped buffer at `W0`, left at `W1`. Its arrays are split
    out of the unscoped buffers and put back at the exit contents; the generator register goes into the invariant
    and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration of pipeline 1 with the printed one takes unfolding
-- plain definitions in a metavariable's type
set_option backward.isDefEq.respectTransparency.types false in
/-- Region 1 over the thread state: entered from every unscoped buffer at `W1`, left at `W2`. Its arrays are split
    out of the unscoped buffers and put back at the exit contents; the generator register goes into the invariant
    and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V1 m ρ) c).Φ 0 from rfl]
    refine BIBase.Entails.trans ?_ (hin1 (V1 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V1 m ρ) c).Φ (Fin.last cfg1.N) from rfl]
    refine BIBase.Entails.trans (hout1 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration of pipeline 2 with the printed one takes unfolding
-- plain definitions in a metavariable's type
set_option backward.isDefEq.respectTransparency.types false in
/-- Region 2 over the thread state: entered from every unscoped buffer at `W3`, left at `W4`. Its arrays are split
    out of the unscoped buffers and put back at the exit contents; the generator register goes into the invariant
    and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration of pipeline 3 with the printed one takes unfolding
-- plain definitions in a metavariable's type
set_option backward.isDefEq.respectTransparency.types false in
/-- Region 3 over the thread state: entered from every unscoped buffer at `W4`, left at `W5`. Its arrays are split
    out of the unscoped buffers and put back at the exit contents; the generator register goes into the invariant
    and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration of pipeline 4 with the printed one takes unfolding
-- plain definitions in a metavariable's type
set_option backward.isDefEq.respectTransparency.types false in
/-- Region 4 over the thread state: entered from every unscoped buffer at `W5`, left at `W6`. Its arrays are split
    out of the unscoped buffers and put back at the exit contents; the generator register goes into the invariant
    and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (hb4 (V5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (V5 m ρ) c).Φ 0 from rfl]
    refine BIBase.Entails.trans ?_ (hin4 (V5 m ρ) c)
    unfold Pipeline.ΦA
    iintro ⟨Hp, -, Hr⟩
    isplitl [Hr]; · iexact Hr
    iexact Hp
  hout c := by
    rw [Pipeline.ownSems0_none, show (pdats m ρ 4 c).Φ (Fin.last _) = (dat4 (V5 m ρ) c).Φ (Fin.last cfg4.N) from rfl]
    refine BIBase.Entails.trans (hout4 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V5 m ρ c) (V6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration of pipeline 5 with the printed one takes unfolding
-- plain definitions in a metavariable's type
set_option backward.isDefEq.respectTransparency.types false in
/-- Region 5 over the thread state: entered from every unscoped buffer at `W7`, left at `W8`. Its arrays are split
    out of the unscoped buffers and put back at the exit contents; the generator register goes into the invariant
    and comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V7 m ρ) c).loose
  hwaits := Pipeline.hwaits_of_owed_zero _ _ _ _ L lv 5 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec5 c (V7 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V7 m ρ c) (V8 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration of pipeline 6 with the printed one takes unfolding
-- plain definitions in a metavariable's type
set_option backward.isDefEq.respectTransparency.types false in
/-- Region 6 over the thread state: entered from every unscoped buffer at `W8`, left at `W9`. Its arrays are split
    out of the unscoped buffers and put back at the exit contents; the generator register goes into the invariant
    and comes back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V8 m ρ) c).loose
  hwaits := Pipeline.hwaits_of_owed_zero _ _ _ _ L lv 6 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec6 c (V8 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V8 m ρ c) (V9 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration of pipeline 7 with the printed one takes unfolding
-- plain definitions in a metavariable's type
set_option backward.isDefEq.respectTransparency.types false in
/-- Region 7 over the thread state: entered from every unscoped buffer at `W9`, left at `W10`. Its arrays are split
    out of the unscoped buffers and put back at the exit contents; the generator register goes into the invariant
    and comes back; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (hb7 (V9 m ρ) c).loose
  hwaits := Pipeline.hwaits_of_owed_zero _ _ _ _ L lv 7 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec7 c (V9 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = (dat7 (V9 m ρ) c).Φ 0 from rfl]
    refine BIBase.Entails.trans ?_ (hin7 (V9 m ρ) c)
    unfold Pipeline.ΦA
    iintro ⟨Hp, -, Hr⟩
    isplitl [Hr]; · iexact Hr
    iexact Hp
  hout c := by
    rw [Pipeline.ownSems0_none, show (pdats m ρ 7 c).Φ (Fin.last _) = (dat7 (V9 m ρ) c).Φ (Fin.last cfg7.N) from rfl]
    refine BIBase.Entails.trans (hout7 (V9 m ρ) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V9 m ρ c) (V10 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration of pipeline 8 with the printed one takes unfolding
-- plain definitions in a metavariable's type
set_option backward.isDefEq.respectTransparency.types false in
/-- Region 8 over the thread state: entered from every unscoped buffer at `W11`, left at `W12`. Its arrays are split
    out of the unscoped buffers and put back at the exit contents; the generator register goes into the invariant
    and comes back; nothing is owed; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V11 m ρ) c).loose
  hwaits := Pipeline.hwaits_of_owed_zero _ _ _ _ L lv 8 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec8 c (V11 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V11 m ρ c) (V12 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration of pipeline 9 with the printed one takes unfolding
-- plain definitions in a metavariable's type
set_option backward.isDefEq.respectTransparency.types false in
/-- Region 9 over the thread state: entered from every unscoped buffer at `W18`, left at `W19`. Its arrays are split
    out of the unscoped buffers and put back at the exit contents; the generator register goes into the invariant
    and comes back; nothing is owed; the kernel has no semaphore of its own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V18 m ρ) c).loose
  hwaits := Pipeline.hwaits_of_owed_zero _ _ _ _ L lv 9 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := UR sig nD τ) (Lvl := ℕ) spec9 c (V18 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V18 m ρ c) (V19 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration of pipeline 10 with the printed one takes unfolding
-- plain definitions in a metavariable's type
set_option backward.isDefEq.respectTransparency.types false in
/-- Region 10 over the thread state: entered from every unscoped buffer at `W19`, left at `W20`. Its arrays are split
    out of the unscoped buffers and put back at the exit contents; the generator register goes into the invariant
    and comes back; nothing is owed; the kernel has no semaphore of its own. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (hb10 (V19 m ρ) c).loose
  hwaits := Pipeline.hwaits_of_owed_zero _ _ _ _ L lv 10 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec10 c (V19 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = (dat10 (V19 m ρ) c).Φ 0 from rfl]
    refine BIBase.Entails.trans ?_ (hin10 (V19 m ρ) c)
    unfold Pipeline.ΦA
    iintro ⟨Hp, -, Hr⟩
    isplitl [Hr]; · iexact Hr
    iexact Hp
  hout c := by
    rw [Pipeline.ownSems0_none, show (pdats m ρ 10 c).Φ (Fin.last _) = (dat10 (V19 m ρ) c).Φ (Fin.last cfg10.N) from rfl]
    refine BIBase.Entails.trans (hout10 (V19 m ρ) c) ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V19 m ρ c) (V20 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration of pipeline 11 with the printed one takes unfolding
-- plain definitions in a metavariable's type
set_option backward.isDefEq.respectTransparency.types false in
/-- Region 11 over the thread state: entered from every unscoped buffer at `W21`, left at `W22`. Its arrays are split
    out of the unscoped buffers and put back at the exit contents; the generator register goes into the invariant
    and comes back; nothing is owed; the kernel has no semaphore of its own. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V21 m ρ) c).loose
  hwaits := Pipeline.hwaits_of_owed_zero _ _ _ _ L lv 11 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec11 c (V21 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V21 m ρ c) (V22 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.MainResult.lean ====
import proofs.«157460_j63591285784858_2_alg».proof.Proof.K.MainFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The result array after the run

The last stretch is one operation, the slice of region 11's output array to its first 1000 columns; region 11's
output array is left at the fold of its write-backs. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The result array at the last boundary is the slice of what the boundary before holds in region 11's output array. -/
theorem W23_main_v23 (c : Dev nD) :
    W23 m ρ c (Proc.devRef .tc main_v23)
      = extractStridedSlice S4096x1000 ![0, 0] (W22 m ρ c (Proc.devRef .tc main_v22)) slices_S4096x1024_S4096x1000_0_0 := by
  show StableHlo.after hostOps12 (W22 m ρ c) (Proc.devRef .tc main_v23) = _
  simp only [hostOps12, StableHlo.after_cons, StableHlo.after_nil]
  exact StableHlo.unary_result _ _ _ _ _ _

/-- The result array at the last boundary is the slice of what region 11 leaves in its output array. -/
theorem result_eq (c : Dev nD) :
    W23 m ρ c (Proc.devRef .tc main_v23)
      = extractStridedSlice S4096x1000 ![0, 0] ((dat11 (V21 m ρ) c).arrAt 5 cfg11.N) slices_S4096x1024_S4096x1000_0_0 :=
  (W23_main_v23 m ρ c).trans (congrArg (extractStridedSlice S4096x1000 ![0, 0] · slices_S4096x1024_S4096x1000_0_0) (W22_main_v22 m ρ c))

end Cert.Kernel.Hand

end
-- ==== Proof.K.MainRun.lean ====
import proofs.«157460_j63591285784858_2_alg».proof.Proof.K.MainRegs
import proofs.«157460_j63591285784858_2_alg».proof.Proof.K.MainResult
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of the whole program

The program is the run of its 23 segments; the launch theorem for a program of several regions gives, for every
weakly fair execution, termination without a fault in a state whose unscoped buffers are at the last boundary's
contents. The body obligations of the four matrix-product regions are hypotheses here. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (hb1 : ∀ (V : (c : Dev nD) → (b : Ref sig .tc) → Buf (Elt F) ((c : Thread nD τ).loc b)) (c : Dev nD), BodyObligation (dat1 (F := F) V c) (defs₀ (F := F)) Variants.none () Set.univ)
  (hb4 : ∀ (V : (c : Dev nD) → (b : Ref sig .tc) → Buf (Elt F) ((c : Thread nD τ).loc b)) (c : Dev nD), BodyObligation (dat4 (F := F) V c) (defs₀ (F := F)) Variants.none () Set.univ)
  (hb7 : ∀ (V : (c : Dev nD) → (b : Ref sig .tc) → Buf (Elt F) ((c : Thread nD τ).loc b)) (c : Dev nD), BodyObligation (dat7 (F := F) V c) (defs₀ (F := F)) Variants.none () Set.univ)
  (hb10 : ∀ (V : (c : Dev nD) → (b : Ref sig .tc) → Buf (Elt F) ((c : Thread nD τ).loc b)) (c : Dev nD), BodyObligation (dat10 (F := F) V c) (defs₀ (F := F)) Variants.none () Set.univ)
variable (m : (ℓ : Loc nD τ sig) → Buf (Elt F) ℓ) (ρ : Dev nD → PrngReg)

/-- The program's 23 segments in order: a region per kernel launch, a host segment per stretch from its boundary's
    contents. -/
abbrev segs : List (Pipeline.Seg (pcfgs (F := F)) adm (pdats m ρ) () defs₀ 𝒱₀ L lv) :=
  [ .region (reg0 m ρ),
    .region (reg1 hb1 m ρ),
    .host (hseg hostOps2 hostOps2_sub hostOps2_fresh (W2 m ρ)),
    .region (reg2 m ρ),
    .region (reg3 m ρ),
    .region (reg4 hb4 m ρ),
    .host (hseg hostOps5 hostOps5_sub hostOps5_fresh (W6 m ρ)),
    .region (reg5 m ρ),
    .region (reg6 m ρ),
    .region (reg7 hb7 m ρ),
    .host (hseg hostOps8 hostOps8_sub hostOps8_fresh (W10 m ρ)),
    .region (reg8 m ρ),
    .host (hseg hostOps9 hostOps9_sub hostOps9_fresh (W12 m ρ)),
    .host (hseg hostOps9_1 hostOps9_1_sub hostOps9_1_fresh (W13 m ρ)),
    .host (hseg hostOps9_2 hostOps9_2_sub hostOps9_2_fresh (W14 m ρ)),
    .host (hseg hostOps9_3 hostOps9_3_sub hostOps9_3_fresh (W15 m ρ)),
    .host (hseg hostOps9_4 hostOps9_4_sub hostOps9_4_fresh (W16 m ρ)),
    .host (hseg hostOps9_5 hostOps9_5_sub hostOps9_5_fresh (W17 m ρ)),
    .region (reg9 m ρ),
    .region (reg10 hb10 m ρ),
    .host (hseg hostOps11 hostOps11_sub hostOps11_fresh (W20 m ρ)),
    .region (reg11 m ρ),
    .host (hseg hostOps12 hostOps12_sub hostOps12_fresh (W22 m ρ)) ]
/-- The program is the run of the segments: the chain of its items, then the segments' run against that chain by the
    kernel's definitional check. -/
theorem main_run (c : Dev nD) : main (F := F) c = Pipeline.Seg.run (segs hb1 hb4 hb7 hb10 m ρ) := (main_chain c).trans (by chain_rfl)

include hb1 hb4 hb7 hb10

-- the launch theorem's implicit arguments are found by unifying its conclusion with this one, which takes unfolding
-- plain definitions in a metavariable's type
set_option backward.isDefEq.respectTransparency.types false in
/-- From any memory with zero counters, every weakly fair execution of the program on the TensorCores terminates,
    nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W23 m ρ c b) :=
  Pipeline.θ_run_regions_kit (pcfgs (F := F)) adm (pdats m ρ) () cellOf_inj emb₁ defs₀ 𝒱₀ L lv m ρ main (segs hb1 hb4 hb7 hb10 m ρ)
    (fun c Q => by rw [main_run hb1 hb4 hb7 hb10 m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun _ h => h)

/-- The frame claim: every weakly fair execution terminates, nothing faulting, and every argument array ends as
    launched — each read off the last boundary's contents, which the fold walks back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs (onTc (τ := τ) (main (F := F))) ⟨m, fun _ => 0, ρ⟩).mono
    (Q := fun r => ∀ c : Dev nD, ∀ b ∈ Pipeline.ucRefs τ sig, r.2.mem (((c : Thread nD τ)).1, b) = W23 m ρ c b)
    (fun r h c => ⟨(h c _ (mem_uc main_arg0 (by decide))).trans (W23_main_arg0 m ρ c),
      (h c _ (mem_uc main_arg1 (by decide))).trans (W23_main_arg1 m ρ c),
      (h c _ (mem_uc main_arg2 (by decide))).trans (W23_main_arg2 m ρ c),
      (h c _ (mem_uc main_arg3 (by decide))).trans (W23_main_arg3 m ρ c),
      (h c _ (mem_uc main_arg4 (by decide))).trans (W23_main_arg4 m ρ c),
      (h c _ (mem_uc main_arg5 (by decide))).trans (W23_main_arg5 m ρ c),
      (h c _ (mem_uc main_arg6 (by decide))).trans (W23_main_arg6 m ρ c),
      (h c _ (mem_uc main_arg7 (by decide))).trans (W23_main_arg7 m ρ c),
      (h c _ (mem_uc main_arg8 (by decide))).trans (W23_main_arg8 m ρ c),
      (h c _ (mem_uc main_arg9 (by decide))).trans (W23_main_arg9 m ρ c),
      (h c _ (mem_uc main_arg10 (by decide))).trans (W23_main_arg10 m ρ c),
      (h c _ (mem_uc main_arg11 (by decide))).trans (W23_main_arg11 m ρ c),
      (h c _ (mem_uc main_arg12 (by decide))).trans (W23_main_arg12 m ρ c)⟩)
    (run_all hb1 hb4 hb7 hb10 m ρ)

/-- What the frame's run says of the result array: in every final state it holds the last boundary's contents. -/
theorem run_result : θ_run defs (onTc (τ := τ) (main (F := F))) ⟨m, fun _ => 0, ρ⟩ (fun r => ∀ c : Dev nD,
      r.2.mem ((c.tc : Thread nD τ).loc main_v23) = W23 m ρ c (Proc.devRef .tc main_v23)) :=
  (θ_run defs (onTc (τ := τ) (main (F := F))) ⟨m, fun _ => 0, ρ⟩).mono
    (Q := fun r => ∀ c : Dev nD, ∀ b ∈ Pipeline.ucRefs τ sig, r.2.mem (((c : Thread nD τ)).1, b) = W23 m ρ c b)
    (fun r h c => h c _ (mem_uc main_v23 (by decide)))
    (run_all hb1 hb4 hb7 hb10 m ρ)

end Cert.Kernel.Hand

end
-- ==== Proof.KI.R1Runs.lean ====
/-
  Matrix-product region 1: what its six control cases share — the three branch conditions in closed form over the grid
  (point n = 16 j + 4 i + k: the accumulator is reset at k = 0, the two running rows at i = 0, the statistics are taken at
  k = 3), where the three outputs are idle and when they are written back, and the memrefs the body is called with.
-/
import proofs.«157460_j63591285784858_2_alg».proof.Proof.KI.R1Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
abbrev cond1_1 (i : grid1.Coords) : Prop := (Scalar.cmpi .ne (Scalar.extui (Scalar.cmpi .eq (BitVec.ofNat 32 (i 1).val) 0#32)) 0#32) = 1#1
theorem hcond1_1 : ∀ t : Fin cfg1.N, cond1_1 (grid1.coords t) ↔ t.val / 4 % 4 = 0 :=
  (by decide +kernel : ∀ t : Fin grid1.N, cond1_1 (grid1.coords t) ↔ t.val / 4 % 4 = 0)
abbrev cond1_2 (i : grid1.Coords) : Prop := k1_cond3 i = 1#1
theorem hcond1_2 : ∀ t : Fin cfg1.N, cond1_2 (grid1.coords t) ↔ t.val % 4 = 3 :=
  (by decide +kernel : ∀ t : Fin grid1.N, cond1_2 (grid1.coords t) ↔ t.val % 4 = 3)

/-! ## Idle points and write-backs of the three outputs -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_2 (grid1.coords t) → cfg1.idle 2 (grid1.coords t) = true := by decide +kernel
theorem liveAt1_2 : ∀ t : Fin cfg1.N, cond1_2 (grid1.coords t) → cfg1.idle 2 (grid1.coords t) = false := by decide +kernel
theorem noFlush1_2 : ∀ t : Fin cfg1.N, ¬cond1_2 (grid1.coords t) → (cfg1.win 2).flush t = false := by decide +kernel
theorem idleAt1_3 : ∀ t : Fin cfg1.N, ¬cond1_2 (grid1.coords t) → cfg1.idle 3 (grid1.coords t) = true := by decide +kernel
theorem liveAt1_3 : ∀ t : Fin cfg1.N, cond1_2 (grid1.coords t) → cfg1.idle 3 (grid1.coords t) = false := by decide +kernel
theorem noFlush1_3 : ∀ t : Fin cfg1.N, ¬cond1_2 (grid1.coords t) → (cfg1.win 3).flush t = false := by decide +kernel
theorem idleAt1_4 : ∀ t : Fin cfg1.N, ¬cond1_2 (grid1.coords t) → cfg1.idle 4 (grid1.coords t) = true := by decide +kernel
theorem liveAt1_4 : ∀ t : Fin cfg1.N, cond1_2 (grid1.coords t) → cfg1.idle 4 (grid1.coords t) = false := by decide +kernel
theorem noFlush1_4 : ∀ t : Fin cfg1.N, ¬cond1_2 (grid1.coords t) → (cfg1.win 4).flush t = false := by decide +kernel

/-! ## The memrefs the body is called with -/

abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
/-- Views through which contents are stated (any whole buffer of the shape serves). -/
abbrev VB1 : View sig .tc .vmem S1024x1024 .f32 := scM1_0.view
abbrev VR1 : View sig .tc .vmem S1x1024 .f32 := scM1_1.view

end Cert.KernelIdeal.Hand

end
-- ==== Proof.KI.R1RunA.lean ====
/-
  The whole body at the first point of an output column tile (k = 0, i = 0): the accumulator is cleared and receives
  the block product; the two running rows are cleared. Nothing read of what the scratch buffers held;
  Only the buffers the body stores into are mentioned; what each ends with is found by running the body: the pieces
  are the witness.
-/
import proofs.«157460_j63591285784858_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : cond1_0 i) (hc1 : cond1_1 i) (hc2 : ¬cond1_2 i)
    (x0 : Vec F S1024x512 .f32) (x1 : Vec F S1024x512 .bf16)  :
    Σ' (LS0 : List (View.Piece (Elt F) S1024x1024 .f32)) (LS1 : List (View.Piece (Elt F) S1x1024 .f32)), { LS2 : List (View.Piece (Elt F) S1x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc1__matmul_stats_kernel i arg3 harg3 arg4 harg4 arg5 harg5 arg6 harg6 arg7 harg7 arg8 harg8 arg9 harg9 arg10 harg10) K } := by
  refine ⟨?_, ?_, ?_, fun E K => ?run⟩
  case run =>
    simp only [cc1__matmul_stats_kernel_eq_skeleton]; unfold cc1__matmul_stats_kernel_skel
    unfold owns
    iintro ⟨⟨%f0, %hf0, H0⟩, ⟨%f1, %hf1, H1⟩, ⟨%dHS0, %fHS0, -, HS0⟩, ⟨%dHS1, %fHS1, -, HS1⟩, ⟨%dHS2, %fHS2, -, HS2⟩, Hk⟩
    obtain rfl := harg3.eq_unread hf0; obtain rfl := harg4.eq_unread hf1

    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [HS0]; · iexists _; iexact HS0
    isplitl [HS1]; · iexists _; iexact HS1
    iexists _; iexact HS2

end Cert.KernelIdeal.Hand

end
-- ==== Proof.KI.R1RunB.lean ====
/-
  The whole body at the first reduction step of a batch tile that is not the first (k = 0, i ≠ 0): the accumulator is
  cleared and receives the block product; the two running rows keep what the tile before left.
  Only the buffers the body stores into are mentioned; what each ends with is found by running the body: the pieces
  are the witness.
-/
import proofs.«157460_j63591285784858_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : cond1_0 i) (hc1 : ¬cond1_1 i) (hc2 : ¬cond1_2 i)
    (x0 : Vec F S1024x512 .f32) (x1 : Vec F S1024x512 .bf16)  :
    { LS0 : List (View.Piece (Elt F) S1024x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg8 fullShare d)
            ∗ (iprop(owns (c : Thread nD τ) arg3 fullShare x0 ∗ owns (c : Thread nD τ) arg4 fullShare x1
                ∗ (∃ f, arg8.view.loc (c : Thread nD τ) ↦[arg8.view.set]{fullShare} arg8.view.writes (Elt F) f LS0)) -∗ K ⟨⟩))
          ⊢ wp frame (wpE (defs₀ (F := F)) Variants.none c none) E (cc1__matmul_stats_kernel i arg3 harg3 arg4 harg4 arg5 harg5 arg6 harg6 arg7 harg7 arg8 harg8 arg9 harg9 arg10 harg10) K } := by
  refine ⟨?_, fun E K => ?run⟩
  case run =>
    simp only [cc1__matmul_stats_kernel_eq_skeleton]; unfold cc1__matmul_stats_kernel_skel
    unfold owns
    iintro ⟨⟨%f0, %hf0, H0⟩, ⟨%f1, %hf1, H1⟩, ⟨%dHS0, %fHS0, -, HS0⟩, Hk⟩
    obtain rfl := harg3.eq_unread hf0; obtain rfl := harg4.eq_unread hf1

    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.KernelIdeal.Hand

end
-- ==== Proof.KI.R1RunC.lean ====
/-
  The whole body at a middle reduction step of the first batch tile (0 < k < 3, i = 0): the accumulator found at what
  the step before left receives the block product; the two running rows are cleared; the three outputs are not
  touched.
  Only the buffers the body stores into are mentioned; what each ends with is found by running the body: the pieces
  are the witness.
-/
import proofs.«157460_j63591285784858_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond1_0 i) (hc1 : cond1_1 i) (hc2 : ¬cond1_2 i)
    (x0 : Vec F S1024x512 .f32) (x1 : Vec F S1024x512 .bf16) (xs0 : Vec F S1024x1024 .f32) :
    Σ' (LS0 : List (View.Piece (Elt F) S1024x1024 .f32)) (LS1 : List (View.Piece (Elt F) S1x1024 .f32)), { LS2 : List (View.Piece (Elt F) S1x1024 .f32) //
      ∀ (E : Set ℕ) (K : PUnit → sProp 𝕄),
        iprop(owns (c : Thread nD τ) arg3 fullShare x0 ∗ owns (c : Thread nD τ) arg4 fullShare x1
            ∗ owns (c : Thread nD τ) arg8 fullShare xs0 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc1__matmul_stats_kernel i arg3 harg3 arg4 harg4 arg5 harg5 arg6 harg6 arg7 harg7 arg8 harg8 arg9 harg9 arg10 harg10) K } := by
  refine ⟨?_, ?_, ?_, fun E K => ?run⟩
  case run =>
    simp only [cc1__matmul_stats_kernel_eq_skeleton]; unfold cc1__matmul_stats_kernel_skel
    unfold owns
    iintro ⟨⟨%f0, %hf0, H0⟩, ⟨%f1, %hf1, H1⟩, ⟨%fHS0, %hfHS0, HS0⟩, ⟨%dHS1, %fHS1, -, HS1⟩, ⟨%dHS2, %fHS2, -, HS2⟩, Hk⟩
    obtain rfl := harg3.eq_unread hf0; obtain rfl := harg4.eq_unread hf1
    obtain rfl := harg8.eq_unread hfHS0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [HS0]; · iexists _; iexact HS0
    isplitl [HS1]; · iexists _; iexact HS1
    iexists _; iexact HS2

end Cert.KernelIdeal.Hand

end
-- ==== Proof.KI.R1RunD.lean ====
/-
  The whole body at a middle reduction step of a batch tile that is not the first (0 < k < 3, i ≠ 0): the accumulator
  found at what the step before left receives the block product; the two running rows keep what the tile before left;

  Only the buffers the body stores into are mentioned; what each ends with is found by running the body: the pieces
  are the witness.
-/
import proofs.«157460_j63591285784858_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_D (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond1_0 i) (hc1 : ¬cond1_1 i) (hc2 : ¬cond1_2 i)
    (x0 : Vec F S1024x512 .f32) (x1 : Vec F S1024x512 .bf16) (xs0 : Vec F S1024x1024 .f32) :
    { LS0 : List (View.Piece (Elt F) S1024x1024 .f32) //
      ∀ (E : Set ℕ) (K : PUnit → sProp 𝕄),
        iprop(owns (c : Thread nD τ) arg3 fullShare x0 ∗ owns (c : Thread nD τ) arg4 fullShare x1
            ∗ owns (c : Thread nD τ) arg8 fullShare xs0
            ∗ (iprop(owns (c : Thread nD τ) arg3 fullShare x0 ∗ owns (c : Thread nD τ) arg4 fullShare x1
                ∗ (∃ f, arg8.view.loc (c : Thread nD τ) ↦[arg8.view.set]{fullShare} arg8.view.writes (Elt F) f LS0)) -∗ K ⟨⟩))
          ⊢ wp frame (wpE (defs₀ (F := F)) Variants.none c none) E (cc1__matmul_stats_kernel i arg3 harg3 arg4 harg4 arg5 harg5 arg6 harg6 arg7 harg7 arg8 harg8 arg9 harg9 arg10 harg10) K } := by
  refine ⟨?_, fun E K => ?run⟩
  case run =>
    simp only [cc1__matmul_stats_kernel_eq_skeleton]; unfold cc1__matmul_stats_kernel_skel
    unfold owns
    iintro ⟨⟨%f0, %hf0, H0⟩, ⟨%f1, %hf1, H1⟩, ⟨%fHS0, %hfHS0, HS0⟩, Hk⟩
    obtain rfl := harg3.eq_unread hf0; obtain rfl := harg4.eq_unread hf1
    obtain rfl := harg8.eq_unread hfHS0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.KernelIdeal.Hand

end
-- ==== Proof.KI.R1RunE.lean ====
/-
  The whole body at the last reduction step of the first batch tile (k = 3, i = 0): the accumulator found at what the
  step before left receives the block product and is copied to the product's output block; the two running rows are
  cleared and receive its column sums and column sums of squares; the mean and the clamped variance are written from
  them.
  Only the buffers the body stores into are mentioned; what each ends with is found by running the body: the pieces
  are the witness.
-/
import proofs.«157460_j63591285784858_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_E (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond1_0 i) (hc1 : cond1_1 i) (hc2 : cond1_2 i)
    (x0 : Vec F S1024x512 .f32) (x1 : Vec F S1024x512 .bf16) (xs0 : Vec F S1024x1024 .f32) :
    Σ' (L2 : List (View.Piece (Elt F) S1024x1024 .f32)) (L3 : List (View.Piece (Elt F) S1x1024 .f32)) (L4 : List (View.Piece (Elt F) S1x1024 .f32)) (LS0 : List (View.Piece (Elt F) S1024x1024 .f32)) (LS1 : List (View.Piece (Elt F) S1x1024 .f32)), { LS2 : List (View.Piece (Elt F) S1x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc1__matmul_stats_kernel i arg3 harg3 arg4 harg4 arg5 harg5 arg6 harg6 arg7 harg7 arg8 harg8 arg9 harg9 arg10 harg10) K } := by
  refine ⟨?_, ?_, ?_, ?_, ?_, ?_, fun E K => ?run⟩
  case run =>
    simp only [cc1__matmul_stats_kernel_eq_skeleton]; unfold cc1__matmul_stats_kernel_skel
    unfold owns
    iintro ⟨⟨%f0, %hf0, H0⟩, ⟨%f1, %hf1, H1⟩, ⟨%dH2, %fH2, -, H2⟩, ⟨%dH3, %fH3, -, H3⟩, ⟨%dH4, %fH4, -, H4⟩, ⟨%fHS0, %hfHS0, HS0⟩, ⟨%dHS1, %fHS1, -, HS1⟩, ⟨%dHS2, %fHS2, -, HS2⟩, Hk⟩
    obtain rfl := harg3.eq_unread hf0; obtain rfl := harg4.eq_unread hf1
    obtain rfl := harg8.eq_unread hfHS0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    iexists _; iexact HS2

end Cert.KernelIdeal.Hand

end
-- ==== Proof.KI.R1RunF.lean ====
/-
  The whole body at the last reduction step of a batch tile that is not the first (k = last, i ≠ 0): the accumulator
  found at what the step before left receives the block product and is copied to the product's output block; its column
  sums and column sums of squares are added into the two running rows found at what the tile before left; the mean and
  the clamped variance are written from them.
  Only the buffers the body stores into are mentioned; what each ends with is found by running the body: the pieces
  are the witness.
-/
import proofs.«157460_j63591285784858_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_F (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond1_0 i) (hc1 : ¬cond1_1 i) (hc2 : cond1_2 i)
    (x0 : Vec F S1024x512 .f32) (x1 : Vec F S1024x512 .bf16) (xs0 : Vec F S1024x1024 .f32) (xs1 : Vec F S1x1024 .f32) (xs2 : Vec F S1x1024 .f32) :
    Σ' (L2 : List (View.Piece (Elt F) S1024x1024 .f32)) (L3 : List (View.Piece (Elt F) S1x1024 .f32)) (L4 : List (View.Piece (Elt F) S1x1024 .f32)) (LS0 : List (View.Piece (Elt F) S1024x1024 .f32)) (LS1 : List (View.Piece (Elt F) S1x1024 .f32)), { LS2 : List (View.Piece (Elt F) S1x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc1__matmul_stats_kernel i arg3 harg3 arg4 harg4 arg5 harg5 arg6 harg6 arg7 harg7 arg8 harg8 arg9 harg9 arg10 harg10) K } := by
  refine ⟨?_, ?_, ?_, ?_, ?_, ?_, fun E K => ?run⟩
  case run =>
    simp only [cc1__matmul_stats_kernel_eq_skeleton]; unfold cc1__matmul_stats_kernel_skel
    unfold owns
    iintro ⟨⟨%f0, %hf0, H0⟩, ⟨%f1, %hf1, H1⟩, ⟨%dH2, %fH2, -, H2⟩, ⟨%dH3, %fH3, -, H3⟩, ⟨%dH4, %fH4, -, H4⟩, ⟨%fHS0, %hfHS0, HS0⟩, ⟨%fHS1, %hfHS1, HS1⟩, ⟨%fHS2, %hfHS2, HS2⟩, Hk⟩
    obtain rfl := harg3.eq_unread hf0; obtain rfl := harg4.eq_unread hf1
    obtain rfl := harg8.eq_unread hfHS0; obtain rfl := harg9.eq_unread hfHS1; obtain rfl := harg10.eq_unread hfHS2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    iexists _; iexact HS2

end Cert.KernelIdeal.Hand

end
-- ==== Proof.LibUnitPieces.lean ====
/-
  Reading back what whole-buffer stores leave. A kernel body that loads and stores its buffers whole does so through
  the unit rectangle at zero offsets of the buffer's own sizes; a load through it after a list of stores whose LAST is
  such a whole store reads that store's payload, whatever the earlier stores were.
-/
import Idealize.ShloMosaic.Lib.Pipeline.Value

noncomputable section

namespace Cert.LibUnitPieces

open Idealize.ShloMosaic

/-- The zero offsets of a two-axis buffer, however spelt. -/
theorem hz2 : (![0, 0] : Fin 2 → Nat) = fun _ => 0 := funext fun a => by fin_cases a <;> rfl

/-- A load through the whole-shape rectangle after stores the last of which went through it reads that store's
    payload. -/
theorem readCov_cons_unit_zero {Val : EltTy → Type} {S : Shape} {e : EltTy} [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

end Cert.LibUnitPieces

end
-- ==== Proof.KI.R1Body.lean ====
/-
  Matrix-product region 1: the body obligation. At every grid point the point's control case is read off the
  closed forms of the three branch conditions; the case's whole-body run applies, the invariant handing it the scratch
  buffers at the state the point before left (at anything at the first point) and taking them back at this point's
  state; each stored buffer's found pieces read back as the payload the closed-form state names (one covering store,
  or a store after a clearing store), so the proof data's statements hold; an output the case does not store is handed
  back as it was found.
-/
import proofs.«157460_j63591285784858_2_alg».proof.Proof.KI.R1RunA
import proofs.«157460_j63591285784858_2_alg».proof.Proof.KI.R1RunB
import proofs.«157460_j63591285784858_2_alg».proof.Proof.KI.R1RunC
import proofs.«157460_j63591285784858_2_alg».proof.Proof.KI.R1RunD
import proofs.«157460_j63591285784858_2_alg».proof.Proof.KI.R1RunE
import proofs.«157460_j63591285784858_2_alg».proof.Proof.KI.R1RunF
import proofs.«157460_j63591285784858_2_alg».proof.Proof.LibUnitPieces
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert

/-! ## What each case's stored buffers end with -/

/-! ### Case A -/

section
variable (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : cond1_0 i) (hc1 : cond1_1 i) (hc2 : ¬cond1_2 i)
    (x0 : Vec F S1024x512 .f32) (x1 : Vec F S1024x512 .bf16)

theorem cov1_A_S0 (y : S1024x1024.Idx) : ∃ pc ∈ (kernelRun1_A c i arg3 harg3 arg4 harg4 arg5 harg5 arg6 harg6 arg7 harg7 arg8 harg8 arg9 harg9 arg10 harg10 hc0 hc1 hc2 x0 x1 ).1, y ∈ pc.1.set :=
  View.cover_of_tiledL _ S1024x1024.size (by sl_kernel_rfl) y
theorem val1_A_S0 : View.canon (kernelRun1_A c i arg3 harg3 arg4 harg4 arg5 harg5 arg6 harg6 arg7 harg7 arg8 harg8 arg9 harg9 arg10 harg10 hc0 hc1 hc2 x0 x1 ).1 = (k1_pay2 x0 k1_pay1 x1) := by
  unfold kernelRun1_A
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov1_A_S1 (y : S1x1024.Idx) : ∃ pc ∈ (kernelRun1_A c i arg3 harg3 arg4 harg4 arg5 harg5 arg6 harg6 arg7 harg7 arg8 harg8 arg9 harg9 arg10 harg10 hc0 hc1 hc2 x0 x1 ).2.1, y ∈ pc.1.set :=
  View.cover_of_tiledL _ S1x1024.size (by sl_kernel_rfl) y
theorem val1_A_S1 : View.canon (kernelRun1_A c i arg3 harg3 arg4 harg4 arg5 harg5 arg6 harg6 arg7 harg7 arg8 harg8 arg9 harg9 arg10 harg10 hc0 hc1 hc2 x0 x1 ).2.1 = k1_pay3 := by
  unfold kernelRun1_A
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov1_A_S2 (y : S1x1024.Idx) : ∃ pc ∈ (kernelRun1_A c i arg3 harg3 arg4 harg4 arg5 harg5 arg6 harg6 arg7 harg7 arg8 harg8 arg9 harg9 arg10 harg10 hc0 hc1 hc2 x0 x1 ).2.2.1, y ∈ pc.1.set :=
  View.cover_of_tiledL _ S1x1024.size (by sl_kernel_rfl) y
theorem val1_A_S2 : View.canon (kernelRun1_A c i arg3 harg3 arg4 harg4 arg5 harg5 arg6 harg6 arg7 harg7 arg8 harg8 arg9 harg9 arg10 harg10 hc0 hc1 hc2 x0 x1 ).2.2.1 = k1_pay4 := by
  unfold kernelRun1_A
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case B -/

section
variable (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : cond1_0 i) (hc1 : ¬cond1_1 i) (hc2 : ¬cond1_2 i)
    (x0 : Vec F S1024x512 .f32) (x1 : Vec F S1024x512 .bf16)

theorem cov1_B_S0 (y : S1024x1024.Idx) : ∃ pc ∈ (kernelRun1_B c i arg3 harg3 arg4 harg4 arg5 harg5 arg6 harg6 arg7 harg7 arg8 harg8 arg9 harg9 arg10 harg10 hc0 hc1 hc2 x0 x1 ).1, y ∈ pc.1.set :=
  View.cover_of_tiledL _ S1024x1024.size (by sl_kernel_rfl) y
theorem val1_B_S0 : View.canon (kernelRun1_B c i arg3 harg3 arg4 harg4 arg5 harg5 arg6 harg6 arg7 harg7 arg8 harg8 arg9 harg9 arg10 harg10 hc0 hc1 hc2 x0 x1 ).1 = (k1_pay2 x0 k1_pay1 x1) := by
  unfold kernelRun1_B
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case C -/

section
variable (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond1_0 i) (hc1 : cond1_1 i) (hc2 : ¬cond1_2 i)
    (x0 : Vec F S1024x512 .f32) (x1 : Vec F S1024x512 .bf16) (xs0 : Vec F S1024x1024 .f32)

theorem cov1_C_S0 (y : S1024x1024.Idx) : ∃ pc ∈ (kernelRun1_C c i arg3 harg3 arg4 harg4 arg5 harg5 arg6 harg6 arg7 harg7 arg8 harg8 arg9 harg9 arg10 harg10 hc0 hc1 hc2 x0 x1 xs0).1, y ∈ pc.1.set :=
  View.cover_of_tiledL _ S1024x1024.size (by sl_kernel_rfl) y
theorem val1_C_S0 : View.canon (kernelRun1_C c i arg3 harg3 arg4 harg4 arg5 harg5 arg6 harg6 arg7 harg7 arg8 harg8 arg9 harg9 arg10 harg10 hc0 hc1 hc2 x0 x1 xs0).1 = (k1_pay2 x0 xs0 x1) := by
  unfold kernelRun1_C
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov1_C_S1 (y : S1x1024.Idx) : ∃ pc ∈ (kernelRun1_C c i arg3 harg3 arg4 harg4 arg5 harg5 arg6 harg6 arg7 harg7 arg8 harg8 arg9 harg9 arg10 harg10 hc0 hc1 hc2 x0 x1 xs0).2.1, y ∈ pc.1.set :=
  View.cover_of_tiledL _ S1x1024.size (by sl_kernel_rfl) y
theorem val1_C_S1 : View.canon (kernelRun1_C c i arg3 harg3 arg4 harg4 arg5 harg5 arg6 harg6 arg7 harg7 arg8 harg8 arg9 harg9 arg10 harg10 hc0 hc1 hc2 x0 x1 xs0).2.1 = k1_pay3 := by
  unfold kernelRun1_C
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov1_C_S2 (y : S1x1024.Idx) : ∃ pc ∈ (kernelRun1_C c i arg3 harg3 arg4 harg4 arg5 harg5 arg6 harg6 arg7 harg7 arg8 harg8 arg9 harg9 arg10 harg10 hc0 hc1 hc2 x0 x1 xs0).2.2.1, y ∈ pc.1.set :=
  View.cover_of_tiledL _ S1x1024.size (by sl_kernel_rfl) y
theorem val1_C_S2 : View.canon (kernelRun1_C c i arg3 harg3 arg4 harg4 arg5 harg5 arg6 harg6 arg7 harg7 arg8 harg8 arg9 harg9 arg10 harg10 hc0 hc1 hc2 x0 x1 xs0).2.2.1 = k1_pay4 := by
  unfold kernelRun1_C
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case D -/

section
variable (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond1_0 i) (hc1 : ¬cond1_1 i) (hc2 : ¬cond1_2 i)
    (x0 : Vec F S1024x512 .f32) (x1 : Vec F S1024x512 .bf16) (xs0 : Vec F S1024x1024 .f32)

theorem cov1_D_S0 (y : S1024x1024.Idx) : ∃ pc ∈ (kernelRun1_D c i arg3 harg3 arg4 harg4 arg5 harg5 arg6 harg6 arg7 harg7 arg8 harg8 arg9 harg9 arg10 harg10 hc0 hc1 hc2 x0 x1 xs0).1, y ∈ pc.1.set :=
  View.cover_of_tiledL _ S1024x1024.size (by sl_kernel_rfl) y
theorem val1_D_S0 : View.canon (kernelRun1_D c i arg3 harg3 arg4 harg4 arg5 harg5 arg6 harg6 arg7 harg7 arg8 harg8 arg9 harg9 arg10 harg10 hc0 hc1 hc2 x0 x1 xs0).1 = (k1_pay2 x0 xs0 x1) := by
  unfold kernelRun1_D
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case E -/

section
variable (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond1_0 i) (hc1 : cond1_1 i) (hc2 : cond1_2 i)
    (x0 : Vec F S1024x512 .f32) (x1 : Vec F S1024x512 .bf16) (xs0 : Vec F S1024x1024 .f32)

theorem cov1_E_2 (y : S1024x1024.Idx) : ∃ pc ∈ (kernelRun1_E c i arg3 harg3 arg4 harg4 arg5 harg5 arg6 harg6 arg7 harg7 arg8 harg8 arg9 harg9 arg10 harg10 hc0 hc1 hc2 x0 x1 xs0).1, y ∈ pc.1.set :=
  View.cover_of_tiledL _ S1024x1024.size (by sl_kernel_rfl) y
theorem val1_E_2 : View.canon (kernelRun1_E c i arg3 harg3 arg4 harg4 arg5 harg5 arg6 harg6 arg7 harg7 arg8 harg8 arg9 harg9 arg10 harg10 hc0 hc1 hc2 x0 x1 xs0).1 = (k1_pay2 x0 xs0 x1) := by
  unfold kernelRun1_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov1_E_3 (y : S1x1024.Idx) : ∃ pc ∈ (kernelRun1_E c i arg3 harg3 arg4 harg4 arg5 harg5 arg6 harg6 arg7 harg7 arg8 harg8 arg9 harg9 arg10 harg10 hc0 hc1 hc2 x0 x1 xs0).2.1, y ∈ pc.1.set :=
  View.cover_of_tiledL _ S1x1024.size (by sl_kernel_rfl) y
theorem val1_E_3 : View.canon (kernelRun1_E c i arg3 harg3 arg4 harg4 arg5 harg5 arg6 harg6 arg7 harg7 arg8 harg8 arg9 harg9 arg10 harg10 hc0 hc1 hc2 x0 x1 xs0).2.1 = (k1_pay7 (k1_pay5 (k1_pay2 x0 xs0 x1) k1_pay3)) := by
  unfold kernelRun1_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov1_E_4 (y : S1x1024.Idx) : ∃ pc ∈ (kernelRun1_E c i arg3 harg3 arg4 harg4 arg5 harg5 arg6 harg6 arg7 harg7 arg8 harg8 arg9 harg9 arg10 harg10 hc0 hc1 hc2 x0 x1 xs0).2.2.1, y ∈ pc.1.set :=
  View.cover_of_tiledL _ S1x1024.size (by sl_kernel_rfl) y
theorem val1_E_4 : View.canon (kernelRun1_E c i arg3 harg3 arg4 harg4 arg5 harg5 arg6 harg6 arg7 harg7 arg8 harg8 arg9 harg9 arg10 harg10 hc0 hc1 hc2 x0 x1 xs0).2.2.1 = (k1_pay8 (k1_pay5 (k1_pay2 x0 xs0 x1) k1_pay3) (k1_pay6 (k1_pay2 x0 xs0 x1) k1_pay4)) := by
  unfold kernelRun1_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov1_E_S0 (y : S1024x1024.Idx) : ∃ pc ∈ (kernelRun1_E c i arg3 harg3 arg4 harg4 arg5 harg5 arg6 harg6 arg7 harg7 arg8 harg8 arg9 harg9 arg10 harg10 hc0 hc1 hc2 x0 x1 xs0).2.2.2.1, y ∈ pc.1.set :=
  View.cover_of_tiledL _ S1024x1024.size (by sl_kernel_rfl) y
theorem val1_E_S0 : View.canon (kernelRun1_E c i arg3 harg3 arg4 harg4 arg5 harg5 arg6 harg6 arg7 harg7 arg8 harg8 arg9 harg9 arg10 harg10 hc0 hc1 hc2 x0 x1 xs0).2.2.2.1 = (k1_pay2 x0 xs0 x1) := by
  unfold kernelRun1_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov1_E_S1 (y : S1x1024.Idx) : ∃ pc ∈ (kernelRun1_E c i arg3 harg3 arg4 harg4 arg5 harg5 arg6 harg6 arg7 harg7 arg8 harg8 arg9 harg9 arg10 harg10 hc0 hc1 hc2 x0 x1 xs0).2.2.2.2.1, y ∈ pc.1.set :=
  View.cover_of_tiledL _ S1x1024.size (by sl_kernel_rfl) y
theorem val1_E_S1 : View.canon (kernelRun1_E c i arg3 harg3 arg4 harg4 arg5 harg5 arg6 harg6 arg7 harg7 arg8 harg8 arg9 harg9 arg10 harg10 hc0 hc1 hc2 x0 x1 xs0).2.2.2.2.1 = (k1_pay5 (k1_pay2 x0 xs0 x1) k1_pay3) := by
  unfold kernelRun1_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov1_E_S2 (y : S1x1024.Idx) : ∃ pc ∈ (kernelRun1_E c i arg3 harg3 arg4 harg4 arg5 harg5 arg6 harg6 arg7 harg7 arg8 harg8 arg9 harg9 arg10 harg10 hc0 hc1 hc2 x0 x1 xs0).2.2.2.2.2.1, y ∈ pc.1.set :=
  View.cover_of_tiledL _ S1x1024.size (by sl_kernel_rfl) y
theorem val1_E_S2 : View.canon (kernelRun1_E c i arg3 harg3 arg4 harg4 arg5 harg5 arg6 harg6 arg7 harg7 arg8 harg8 arg9 harg9 arg10 harg10 hc0 hc1 hc2 x0 x1 xs0).2.2.2.2.2.1 = (k1_pay6 (k1_pay2 x0 xs0 x1) k1_pay4) := by
  unfold kernelRun1_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case F -/

section
variable (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond1_0 i) (hc1 : ¬cond1_1 i) (hc2 : cond1_2 i)
    (x0 : Vec F S1024x512 .f32) (x1 : Vec F S1024x512 .bf16) (xs0 : Vec F S1024x1024 .f32) (xs1 : Vec F S1x1024 .f32) (xs2 : Vec F S1x1024 .f32)

theorem cov1_F_2 (y : S1024x1024.Idx) : ∃ pc ∈ (kernelRun1_F c i arg3 harg3 arg4 harg4 arg5 harg5 arg6 harg6 arg7 harg7 arg8 harg8 arg9 harg9 arg10 harg10 hc0 hc1 hc2 x0 x1 xs0 xs1 xs2).1, y ∈ pc.1.set :=
  View.cover_of_tiledL _ S1024x1024.size (by sl_kernel_rfl) y
theorem val1_F_2 : View.canon (kernelRun1_F c i arg3 harg3 arg4 harg4 arg5 harg5 arg6 harg6 arg7 harg7 arg8 harg8 arg9 harg9 arg10 harg10 hc0 hc1 hc2 x0 x1 xs0 xs1 xs2).1 = (k1_pay2 x0 xs0 x1) := by
  unfold kernelRun1_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov1_F_3 (y : S1x1024.Idx) : ∃ pc ∈ (kernelRun1_F c i arg3 harg3 arg4 harg4 arg5 harg5 arg6 harg6 arg7 harg7 arg8 harg8 arg9 harg9 arg10 harg10 hc0 hc1 hc2 x0 x1 xs0 xs1 xs2).2.1, y ∈ pc.1.set :=
  View.cover_of_tiledL _ S1x1024.size (by sl_kernel_rfl) y
theorem val1_F_3 : View.canon (kernelRun1_F c i arg3 harg3 arg4 harg4 arg5 harg5 arg6 harg6 arg7 harg7 arg8 harg8 arg9 harg9 arg10 harg10 hc0 hc1 hc2 x0 x1 xs0 xs1 xs2).2.1 = (k1_pay7 (k1_pay5 (k1_pay2 x0 xs0 x1) xs1)) := by
  unfold kernelRun1_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov1_F_4 (y : S1x1024.Idx) : ∃ pc ∈ (kernelRun1_F c i arg3 harg3 arg4 harg4 arg5 harg5 arg6 harg6 arg7 harg7 arg8 harg8 arg9 harg9 arg10 harg10 hc0 hc1 hc2 x0 x1 xs0 xs1 xs2).2.2.1, y ∈ pc.1.set :=
  View.cover_of_tiledL _ S1x1024.size (by sl_kernel_rfl) y
theorem val1_F_4 : View.canon (kernelRun1_F c i arg3 harg3 arg4 harg4 arg5 harg5 arg6 harg6 arg7 harg7 arg8 harg8 arg9 harg9 arg10 harg10 hc0 hc1 hc2 x0 x1 xs0 xs1 xs2).2.2.1 = (k1_pay8 (k1_pay5 (k1_pay2 x0 xs0 x1) xs1) (k1_pay6 (k1_pay2 x0 xs0 x1) xs2)) := by
  unfold kernelRun1_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov1_F_S0 (y : S1024x1024.Idx) : ∃ pc ∈ (kernelRun1_F c i arg3 harg3 arg4 harg4 arg5 harg5 arg6 harg6 arg7 harg7 arg8 harg8 arg9 harg9 arg10 harg10 hc0 hc1 hc2 x0 x1 xs0 xs1 xs2).2.2.2.1, y ∈ pc.1.set :=
  View.cover_of_tiledL _ S1024x1024.size (by sl_kernel_rfl) y
theorem val1_F_S0 : View.canon (kernelRun1_F c i arg3 harg3 arg4 harg4 arg5 harg5 arg6 harg6 arg7 harg7 arg8 harg8 arg9 harg9 arg10 harg10 hc0 hc1 hc2 x0 x1 xs0 xs1 xs2).2.2.2.1 = (k1_pay2 x0 xs0 x1) := by
  unfold kernelRun1_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov1_F_S1 (y : S1x1024.Idx) : ∃ pc ∈ (kernelRun1_F c i arg3 harg3 arg4 harg4 arg5 harg5 arg6 harg6 arg7 harg7 arg8 harg8 arg9 harg9 arg10 harg10 hc0 hc1 hc2 x0 x1 xs0 xs1 xs2).2.2.2.2.1, y ∈ pc.1.set :=
  View.cover_of_tiledL _ S1x1024.size (by sl_kernel_rfl) y
theorem val1_F_S1 : View.canon (kernelRun1_F c i arg3 harg3 arg4 harg4 arg5 harg5 arg6 harg6 arg7 harg7 arg8 harg8 arg9 harg9 arg10 harg10 hc0 hc1 hc2 x0 x1 xs0 xs1 xs2).2.2.2.2.1 = (k1_pay5 (k1_pay2 x0 xs0 x1) xs1) := by
  unfold kernelRun1_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov1_F_S2 (y : S1x1024.Idx) : ∃ pc ∈ (kernelRun1_F c i arg3 harg3 arg4 harg4 arg5 harg5 arg6 harg6 arg7 harg7 arg8 harg8 arg9 harg9 arg10 harg10 hc0 hc1 hc2 x0 x1 xs0 xs1 xs2).2.2.2.2.2.1, y ∈ pc.1.set :=
  View.cover_of_tiledL _ S1x1024.size (by sl_kernel_rfl) y
theorem val1_F_S2 : View.canon (kernelRun1_F c i arg3 harg3 arg4 harg4 arg5 harg5 arg6 harg6 arg7 harg7 arg8 harg8 arg9 harg9 arg10 harg10 hc0 hc1 hc2 x0 x1 xs0 xs1 xs2).2.2.2.2.2.1 = (k1_pay6 (k1_pay2 x0 xs0 x1) xs2) := by
  unfold kernelRun1_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ## One grid point of the closed-form state, case by case -/

theorem step1_A (n : ℕ) (h0 : n % 4 = 0) (h1 : n / 4 % 4 = 0) (h2 : ¬n % 4 = 3) (x0 : Vec F S1024x512 .f32) (x1 : Vec F S1024x512 .bf16) (s : St1 F) :
    step1 n x0 x1 s = ⟨(k1_pay2 x0 k1_pay1 x1), k1_pay3, k1_pay4⟩ := by
  simp only [step1, if_pos h0, if_pos h1, if_neg h2]
theorem step1_B (n : ℕ) (h0 : n % 4 = 0) (h1 : ¬n / 4 % 4 = 0) (h2 : ¬n % 4 = 3) (x0 : Vec F S1024x512 .f32) (x1 : Vec F S1024x512 .bf16) (s : St1 F) :
    step1 n x0 x1 s = ⟨(k1_pay2 x0 k1_pay1 x1), s.sum, s.sq⟩ := by
  simp only [step1, if_pos h0, if_neg h1, if_neg h2]
theorem step1_C (n : ℕ) (h0 : ¬n % 4 = 0) (h1 : n / 4 % 4 = 0) (h2 : ¬n % 4 = 3) (x0 : Vec F S1024x512 .f32) (x1 : Vec F S1024x512 .bf16) (s : St1 F) :
    step1 n x0 x1 s = ⟨(k1_pay2 x0 s.acc x1), k1_pay3, k1_pay4⟩ := by
  simp only [step1, if_neg h0, if_pos h1, if_neg h2]
theorem step1_D (n : ℕ) (h0 : ¬n % 4 = 0) (h1 : ¬n / 4 % 4 = 0) (h2 : ¬n % 4 = 3) (x0 : Vec F S1024x512 .f32) (x1 : Vec F S1024x512 .bf16) (s : St1 F) :
    step1 n x0 x1 s = ⟨(k1_pay2 x0 s.acc x1), s.sum, s.sq⟩ := by
  simp only [step1, if_neg h0, if_neg h1, if_neg h2]
theorem step1_E (n : ℕ) (h0 : ¬n % 4 = 0) (h1 : n / 4 % 4 = 0) (h2 : n % 4 = 3) (x0 : Vec F S1024x512 .f32) (x1 : Vec F S1024x512 .bf16) (s : St1 F) :
    step1 n x0 x1 s = ⟨(k1_pay2 x0 s.acc x1), k1_pay5 (k1_pay2 x0 s.acc x1) k1_pay3, k1_pay6 (k1_pay2 x0 s.acc x1) k1_pay4⟩ := by
  simp only [step1, if_neg h0, if_pos h1, if_pos h2]
theorem step1_F (n : ℕ) (h0 : ¬n % 4 = 0) (h1 : ¬n / 4 % 4 = 0) (h2 : n % 4 = 3) (x0 : Vec F S1024x512 .f32) (x1 : Vec F S1024x512 .bf16) (s : St1 F) :
    step1 n x0 x1 s = ⟨(k1_pay2 x0 s.acc x1), k1_pay5 (k1_pay2 x0 s.acc x1) s.sum, k1_pay6 (k1_pay2 x0 s.acc x1) s.sq⟩ := by
  simp only [step1, if_neg h0, if_neg h1, if_pos h2]

section
variable (V : (c : Dev nD) → (b : Ref sig .tc) → Buf (Elt F) ((c : Thread nD τ).loc b))

theorem st1_zero (c : Dev nD) (t : Fin cfg1.N) (hz : t.val = 0) :
    st1 V c t.val t.isLt = step1 0 (iblk1 V c 0 t) (iblk1 V c 1 t) ⟨k1_pay1, k1_pay3, k1_pay4⟩ := by
  obtain ⟨n, hn⟩ := t
  cases n with
  | zero => rfl
  | succ n => exact absurd hz (Nat.succ_ne_zero n)
theorem st1_pos (c : Dev nD) (t : Fin cfg1.N) (hz : t.val ≠ 0) (hlt : t.val - 1 < cfg1.N) :
    st1 V c t.val t.isLt = step1 t.val (iblk1 V c 0 t) (iblk1 V c 1 t) (st1 V c (t.val - 1) hlt) := by
  obtain ⟨n, hn⟩ := t
  cases n with
  | zero => exact absurd rfl hz
  | succ n => rfl

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t
    ∗ (dat1 V c).leavesExact 2 t ∗ (dat1 V c).leavesExact 3 t ∗ (dat1 V c).leavesExact 4 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 64 := lt_of_lt_of_eq t.isLt (show cfg1.N = 64 from N_1)
  by_cases h0 : t.val % 4 = 0
  · have h2 : ¬t.val % 4 = 3 := by omega
    by_cases h1 : t.val / 4 % 4 = 0
    · by_cases hz : t.val = 0
      · rw [Dat.leavesExact_idle (dat1 V c) 2 t (idleAt1_2 t (fun h => h2 ((hcond1_2 t).mp h))) (noFlush1_2 t (fun h => h2 ((hcond1_2 t).mp h)))]
        rw [Dat.leavesExact_idle (dat1 V c) 3 t (idleAt1_3 t (fun h => h2 ((hcond1_2 t).mp h))) (noFlush1_3 t (fun h => h2 ((hcond1_2 t).mp h)))]
        rw [Dat.leavesExact_idle (dat1 V c) 4 t (idleAt1_4 t (fun h => h2 ((hcond1_2 t).mp h))) (noFlush1_4 t (fun h => h2 ((hcond1_2 t).mp h)))]
        rw [PhiS1_castSucc V c t, PhiS1_zero V c _ _ hz, PhiA1_eq, st1_zero V c t hz, step1_A _ (by omega) (by omega) (by omega)]
        dsimp only
        iintro ⟨⟨⟨⟨HS0, HS1, HS2⟩, Hr⟩, Hg⟩, Ho, ⟨%d0, H0⟩, ⟨%d1, H1⟩, H2, H3, H4⟩
        iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) ).2.2.2 Set.univ _)
        isplitl [H0]; · iexact H0
        isplitl [H1]; · iexact H1
        isplitl [HS0]; · iexact HS0
        isplitl [HS1]; · iexact HS1
        isplitl [HS2]; · iexact HS2
        iintro ⟨H0, H1, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov1_A_S0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) )).trans (val1_A_S0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) )
              isplitl [HS1]
              · unfold owns; iexists _; isplitr
                swap; · iexact HS1
                ipureintro; exact (View.read_writes_eq_canon _ _ _ (cov1_A_S1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) )).trans (val1_A_S1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) )
              · unfold owns; iexists _; isplitr
                swap; · iexact HS2
                ipureintro; exact (View.read_writes_eq_canon _ _ _ (cov1_A_S2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) )).trans (val1_A_S2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) )
            · iexact Hr
          · iexact Hg
        isplitl [Ho]; · iexact Ho
        isplitl [H0]; · iexact H0
        isplitl [H1]; · iexact H1
        isplitl [H2]; · iexact H2
        isplitl [H3]; · iexact H3
        iexact H4
      · rw [Dat.leavesExact_idle (dat1 V c) 2 t (idleAt1_2 t (fun h => h2 ((hcond1_2 t).mp h))) (noFlush1_2 t (fun h => h2 ((hcond1_2 t).mp h)))]
        rw [Dat.leavesExact_idle (dat1 V c) 3 t (idleAt1_3 t (fun h => h2 ((hcond1_2 t).mp h))) (noFlush1_3 t (fun h => h2 ((hcond1_2 t).mp h)))]
        rw [Dat.leavesExact_idle (dat1 V c) 4 t (idleAt1_4 t (fun h => h2 ((hcond1_2 t).mp h))) (noFlush1_4 t (fun h => h2 ((hcond1_2 t).mp h)))]
        have hlt : t.val - 1 < cfg1.N := by omega
        rw [PhiS1_castSucc V c t, PhiS1_pos V c _ _ hz, st1_pos V c t hz hlt, step1_A _ h0 h1 h2]
        dsimp only
        iintro ⟨⟨⟨⟨HS0, HS1, HS2⟩, Hr⟩, Hg⟩, Ho, ⟨%d0, H0⟩, ⟨%d1, H1⟩, H2, H3, H4⟩
        iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) ).2.2.2 Set.univ _)
        isplitl [H0]; · iexact H0
        isplitl [H1]; · iexact H1
        isplitl [HS0]; · iexists _; iexact HS0
        isplitl [HS1]; · iexists _; iexact HS1
        isplitl [HS2]; · iexists _; iexact HS2
        iintro ⟨H0, H1, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov1_A_S0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) )).trans (val1_A_S0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) )
              isplitl [HS1]
              · unfold owns; iexists _; isplitr
                swap; · iexact HS1
                ipureintro; exact (View.read_writes_eq_canon _ _ _ (cov1_A_S1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) )).trans (val1_A_S1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) )
              · unfold owns; iexists _; isplitr
                swap; · iexact HS2
                ipureintro; exact (View.read_writes_eq_canon _ _ _ (cov1_A_S2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) )).trans (val1_A_S2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) )
            · iexact Hr
          · iexact Hg
        isplitl [Ho]; · iexact Ho
        isplitl [H0]; · iexact H0
        isplitl [H1]; · iexact H1
        isplitl [H2]; · iexact H2
        isplitl [H3]; · iexact H3
        iexact H4
    · have hz : t.val ≠ 0 := by omega
      rw [Dat.leavesExact_idle (dat1 V c) 2 t (idleAt1_2 t (fun h => h2 ((hcond1_2 t).mp h))) (noFlush1_2 t (fun h => h2 ((hcond1_2 t).mp h)))]
      rw [Dat.leavesExact_idle (dat1 V c) 3 t (idleAt1_3 t (fun h => h2 ((hcond1_2 t).mp h))) (noFlush1_3 t (fun h => h2 ((hcond1_2 t).mp h)))]
      rw [Dat.leavesExact_idle (dat1 V c) 4 t (idleAt1_4 t (fun h => h2 ((hcond1_2 t).mp h))) (noFlush1_4 t (fun h => h2 ((hcond1_2 t).mp h)))]
      have hlt : t.val - 1 < cfg1.N := by omega
      rw [PhiS1_castSucc V c t, PhiS1_pos V c _ _ hz, st1_pos V c t hz hlt, step1_B _ h0 h1 h2]
      dsimp only
      iintro ⟨⟨⟨⟨HS0, HS1, HS2⟩, Hr⟩, Hg⟩, Ho, ⟨%d0, H0⟩, ⟨%d1, H1⟩, H2, H3, H4⟩
      iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (fun h => h2 ((hcond1_2 t).mp h)) (iblk1 V c 0 t) (iblk1 V c 1 t) ).2 Set.univ _)
      isplitl [H0]; · iexact H0
      isplitl [H1]; · iexact H1
      isplitl [HS0]; · iexists _; iexact HS0
      iintro ⟨H0, H1, ⟨%eS0, HS0⟩⟩
      isplitl [HS0 HS1 HS2 Hr Hg]
      · isplitl [HS0 HS1 HS2 Hr]
        · isplitl [HS0 HS1 HS2]
          · isplitl [HS0]
            · unfold owns; iexists _; isplitr
              swap; · iexact HS0
              ipureintro; exact (View.read_writes_eq_canon _ _ _ (cov1_B_S0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (fun h => h2 ((hcond1_2 t).mp h)) (iblk1 V c 0 t) (iblk1 V c 1 t) )).trans (val1_B_S0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (fun h => h2 ((hcond1_2 t).mp h)) (iblk1 V c 0 t) (iblk1 V c 1 t) )
            isplitl [HS1]
            · iexact HS1
            · iexact HS2
          · iexact Hr
        · iexact Hg
      isplitl [Ho]; · iexact Ho
      isplitl [H0]; · iexact H0
      isplitl [H1]; · iexact H1
      isplitl [H2]; · iexact H2
      isplitl [H3]; · iexact H3
      iexact H4
  · have hz : t.val ≠ 0 := by omega
    by_cases h1 : t.val / 4 % 4 = 0
    · by_cases h2 : t.val % 4 = 3
      · rw [show (dat1 V c).leavesExact 2 t = owns (c : Thread nD τ) (ms1_2 t) fullShare ((dat1 V c).after 2 t) from by
          unfold Dat.leavesExact; rw [liveAt1_2 t ((hcond1_2 t).mpr h2)], after1_2]
        rw [show (dat1 V c).leavesExact 3 t = owns (c : Thread nD τ) (ms1_3 t) fullShare ((dat1 V c).after 3 t) from by
          unfold Dat.leavesExact; rw [liveAt1_3 t ((hcond1_2 t).mpr h2)], after1_3]
        rw [show (dat1 V c).leavesExact 4 t = owns (c : Thread nD τ) (ms1_4 t) fullShare ((dat1 V c).after 4 t) from by
          unfold Dat.leavesExact; rw [liveAt1_4 t ((hcond1_2 t).mpr h2)], after1_4]
        have hlt : t.val - 1 < cfg1.N := by omega
        rw [PhiS1_castSucc V c t, PhiS1_pos V c _ _ hz, st1_pos V c t hz hlt, step1_E _ h0 h1 h2]
        dsimp only
        iintro ⟨⟨⟨⟨HS0, HS1, HS2⟩, Hr⟩, Hg⟩, Ho, ⟨%d0, H0⟩, ⟨%d1, H1⟩, ⟨%d2, H2⟩, ⟨%d3, H3⟩, ⟨%d4, H4⟩⟩
        iapply ((kernelRun1_E c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (st1 V c (t.val - 1) hlt).acc).2.2.2.2.2.2 Set.univ _)
        isplitl [H0]; · iexact H0
        isplitl [H1]; · iexact H1
        isplitl [H2]; · iexists _; iexact H2
        isplitl [H3]; · iexists _; iexact H3
        isplitl [H4]; · iexists _; iexact H4
        isplitl [HS0]; · iexact HS0
        isplitl [HS1]; · iexists _; iexact HS1
        isplitl [HS2]; · iexists _; iexact HS2
        iintro ⟨H0, H1, ⟨%e2, H2⟩, ⟨%e3, H3⟩, ⟨%e4, H4⟩, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov1_E_S0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (st1 V c (t.val - 1) hlt).acc)).trans (val1_E_S0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (st1 V c (t.val - 1) hlt).acc)
              isplitl [HS1]
              · unfold owns; iexists _; isplitr
                swap; · iexact HS1
                ipureintro; exact (View.read_writes_eq_canon _ _ _ (cov1_E_S1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (st1 V c (t.val - 1) hlt).acc)).trans (val1_E_S1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (st1 V c (t.val - 1) hlt).acc)
              · unfold owns; iexists _; isplitr
                swap; · iexact HS2
                ipureintro; exact (View.read_writes_eq_canon _ _ _ (cov1_E_S2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (st1 V c (t.val - 1) hlt).acc)).trans (val1_E_S2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (st1 V c (t.val - 1) hlt).acc)
            · iexact Hr
          · iexact Hg
        isplitl [Ho]; · iexact Ho
        isplitl [H0]; · iexact H0
        isplitl [H1]; · iexact H1
        isplitl [H2]
        · unfold owns; iexists _; isplitr
          swap; · iexact H2
          ipureintro; exact (View.read_writes_eq_canon _ _ _ (cov1_E_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (st1 V c (t.val - 1) hlt).acc)).trans (val1_E_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (st1 V c (t.val - 1) hlt).acc)
        isplitl [H3]
        · unfold owns; iexists _; isplitr
          swap; · iexact H3
          ipureintro; exact (View.read_writes_eq_canon _ _ _ (cov1_E_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (st1 V c (t.val - 1) hlt).acc)).trans (val1_E_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (st1 V c (t.val - 1) hlt).acc)
        · unfold owns; iexists _; isplitr
          swap; · iexact H4
          ipureintro; exact (View.read_writes_eq_canon _ _ _ (cov1_E_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (st1 V c (t.val - 1) hlt).acc)).trans (val1_E_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (st1 V c (t.val - 1) hlt).acc)
      · rw [Dat.leavesExact_idle (dat1 V c) 2 t (idleAt1_2 t (fun h => h2 ((hcond1_2 t).mp h))) (noFlush1_2 t (fun h => h2 ((hcond1_2 t).mp h)))]
        rw [Dat.leavesExact_idle (dat1 V c) 3 t (idleAt1_3 t (fun h => h2 ((hcond1_2 t).mp h))) (noFlush1_3 t (fun h => h2 ((hcond1_2 t).mp h)))]
        rw [Dat.leavesExact_idle (dat1 V c) 4 t (idleAt1_4 t (fun h => h2 ((hcond1_2 t).mp h))) (noFlush1_4 t (fun h => h2 ((hcond1_2 t).mp h)))]
        have hlt : t.val - 1 < cfg1.N := by omega
        rw [PhiS1_castSucc V c t, PhiS1_pos V c _ _ hz, st1_pos V c t hz hlt, step1_C _ h0 h1 h2]
        dsimp only
        iintro ⟨⟨⟨⟨HS0, HS1, HS2⟩, Hr⟩, Hg⟩, Ho, ⟨%d0, H0⟩, ⟨%d1, H1⟩, H2, H3, H4⟩
        iapply ((kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (st1 V c (t.val - 1) hlt).acc).2.2.2 Set.univ _)
        isplitl [H0]; · iexact H0
        isplitl [H1]; · iexact H1
        isplitl [HS0]; · iexact HS0
        isplitl [HS1]; · iexists _; iexact HS1
        isplitl [HS2]; · iexists _; iexact HS2
        iintro ⟨H0, H1, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov1_C_S0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (st1 V c (t.val - 1) hlt).acc)).trans (val1_C_S0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (st1 V c (t.val - 1) hlt).acc)
              isplitl [HS1]
              · unfold owns; iexists _; isplitr
                swap; · iexact HS1
                ipureintro; exact (View.read_writes_eq_canon _ _ _ (cov1_C_S1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (st1 V c (t.val - 1) hlt).acc)).trans (val1_C_S1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (st1 V c (t.val - 1) hlt).acc)
              · unfold owns; iexists _; isplitr
                swap; · iexact HS2
                ipureintro; exact (View.read_writes_eq_canon _ _ _ (cov1_C_S2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (st1 V c (t.val - 1) hlt).acc)).trans (val1_C_S2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (st1 V c (t.val - 1) hlt).acc)
            · iexact Hr
          · iexact Hg
        isplitl [Ho]; · iexact Ho
        isplitl [H0]; · iexact H0
        isplitl [H1]; · iexact H1
        isplitl [H2]; · iexact H2
        isplitl [H3]; · iexact H3
        iexact H4
    · by_cases h2 : t.val % 4 = 3
      · rw [show (dat1 V c).leavesExact 2 t = owns (c : Thread nD τ) (ms1_2 t) fullShare ((dat1 V c).after 2 t) from by
          unfold Dat.leavesExact; rw [liveAt1_2 t ((hcond1_2 t).mpr h2)], after1_2]
        rw [show (dat1 V c).leavesExact 3 t = owns (c : Thread nD τ) (ms1_3 t) fullShare ((dat1 V c).after 3 t) from by
          unfold Dat.leavesExact; rw [liveAt1_3 t ((hcond1_2 t).mpr h2)], after1_3]
        rw [show (dat1 V c).leavesExact 4 t = owns (c : Thread nD τ) (ms1_4 t) fullShare ((dat1 V c).after 4 t) from by
          unfold Dat.leavesExact; rw [liveAt1_4 t ((hcond1_2 t).mpr h2)], after1_4]
        have hlt : t.val - 1 < cfg1.N := by omega
        rw [PhiS1_castSucc V c t, PhiS1_pos V c _ _ hz, st1_pos V c t hz hlt, step1_F _ h0 h1 h2]
        dsimp only
        iintro ⟨⟨⟨⟨HS0, HS1, HS2⟩, Hr⟩, Hg⟩, Ho, ⟨%d0, H0⟩, ⟨%d1, H1⟩, ⟨%d2, H2⟩, ⟨%d3, H3⟩, ⟨%d4, H4⟩⟩
        iapply ((kernelRun1_F c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (st1 V c (t.val - 1) hlt).acc (st1 V c (t.val - 1) hlt).sum (st1 V c (t.val - 1) hlt).sq).2.2.2.2.2.2 Set.univ _)
        isplitl [H0]; · iexact H0
        isplitl [H1]; · iexact H1
        isplitl [H2]; · iexists _; iexact H2
        isplitl [H3]; · iexists _; iexact H3
        isplitl [H4]; · iexists _; iexact H4
        isplitl [HS0]; · iexact HS0
        isplitl [HS1]; · iexact HS1
        isplitl [HS2]; · iexact HS2
        iintro ⟨H0, H1, ⟨%e2, H2⟩, ⟨%e3, H3⟩, ⟨%e4, H4⟩, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov1_F_S0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (st1 V c (t.val - 1) hlt).acc (st1 V c (t.val - 1) hlt).sum (st1 V c (t.val - 1) hlt).sq)).trans (val1_F_S0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (st1 V c (t.val - 1) hlt).acc (st1 V c (t.val - 1) hlt).sum (st1 V c (t.val - 1) hlt).sq)
              isplitl [HS1]
              · unfold owns; iexists _; isplitr
                swap; · iexact HS1
                ipureintro; exact (View.read_writes_eq_canon _ _ _ (cov1_F_S1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (st1 V c (t.val - 1) hlt).acc (st1 V c (t.val - 1) hlt).sum (st1 V c (t.val - 1) hlt).sq)).trans (val1_F_S1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (st1 V c (t.val - 1) hlt).acc (st1 V c (t.val - 1) hlt).sum (st1 V c (t.val - 1) hlt).sq)
              · unfold owns; iexists _; isplitr
                swap; · iexact HS2
                ipureintro; exact (View.read_writes_eq_canon _ _ _ (cov1_F_S2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (st1 V c (t.val - 1) hlt).acc (st1 V c (t.val - 1) hlt).sum (st1 V c (t.val - 1) hlt).sq)).trans (val1_F_S2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (st1 V c (t.val - 1) hlt).acc (st1 V c (t.val - 1) hlt).sum (st1 V c (t.val - 1) hlt).sq)
            · iexact Hr
          · iexact Hg
        isplitl [Ho]; · iexact Ho
        isplitl [H0]; · iexact H0
        isplitl [H1]; · iexact H1
        isplitl [H2]
        · unfold owns; iexists _; isplitr
          swap; · iexact H2
          ipureintro; exact (View.read_writes_eq_canon _ _ _ (cov1_F_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (st1 V c (t.val - 1) hlt).acc (st1 V c (t.val - 1) hlt).sum (st1 V c (t.val - 1) hlt).sq)).trans (val1_F_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (st1 V c (t.val - 1) hlt).acc (st1 V c (t.val - 1) hlt).sum (st1 V c (t.val - 1) hlt).sq)
        isplitl [H3]
        · unfold owns; iexists _; isplitr
          swap; · iexact H3
          ipureintro; exact (View.read_writes_eq_canon _ _ _ (cov1_F_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (st1 V c (t.val - 1) hlt).acc (st1 V c (t.val - 1) hlt).sum (st1 V c (t.val - 1) hlt).sq)).trans (val1_F_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (st1 V c (t.val - 1) hlt).acc (st1 V c (t.val - 1) hlt).sum (st1 V c (t.val - 1) hlt).sq)
        · unfold owns; iexists _; isplitr
          swap; · iexact H4
          ipureintro; exact (View.read_writes_eq_canon _ _ _ (cov1_F_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (st1 V c (t.val - 1) hlt).acc (st1 V c (t.val - 1) hlt).sum (st1 V c (t.val - 1) hlt).sq)).trans (val1_F_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (st1 V c (t.val - 1) hlt).acc (st1 V c (t.val - 1) hlt).sum (st1 V c (t.val - 1) hlt).sq)
      · rw [Dat.leavesExact_idle (dat1 V c) 2 t (idleAt1_2 t (fun h => h2 ((hcond1_2 t).mp h))) (noFlush1_2 t (fun h => h2 ((hcond1_2 t).mp h)))]
        rw [Dat.leavesExact_idle (dat1 V c) 3 t (idleAt1_3 t (fun h => h2 ((hcond1_2 t).mp h))) (noFlush1_3 t (fun h => h2 ((hcond1_2 t).mp h)))]
        rw [Dat.leavesExact_idle (dat1 V c) 4 t (idleAt1_4 t (fun h => h2 ((hcond1_2 t).mp h))) (noFlush1_4 t (fun h => h2 ((hcond1_2 t).mp h)))]
        have hlt : t.val - 1 < cfg1.N := by omega
        rw [PhiS1_castSucc V c t, PhiS1_pos V c _ _ hz, st1_pos V c t hz hlt, step1_D _ h0 h1 h2]
        dsimp only
        iintro ⟨⟨⟨⟨HS0, HS1, HS2⟩, Hr⟩, Hg⟩, Ho, ⟨%d0, H0⟩, ⟨%d1, H1⟩, H2, H3, H4⟩
        iapply ((kernelRun1_D c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (fun h => h2 ((hcond1_2 t).mp h)) (iblk1 V c 0 t) (iblk1 V c 1 t) (st1 V c (t.val - 1) hlt).acc).2 Set.univ _)
        isplitl [H0]; · iexact H0
        isplitl [H1]; · iexact H1
        isplitl [HS0]; · iexact HS0
        iintro ⟨H0, H1, ⟨%eS0, HS0⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov1_D_S0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (fun h => h2 ((hcond1_2 t).mp h)) (iblk1 V c 0 t) (iblk1 V c 1 t) (st1 V c (t.val - 1) hlt).acc)).trans (val1_D_S0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (fun h => h2 ((hcond1_2 t).mp h)) (iblk1 V c 0 t) (iblk1 V c 1 t) (st1 V c (t.val - 1) hlt).acc)
              isplitl [HS1]
              · iexact HS1
              · iexact HS2
            · iexact Hr
          · iexact Hg
        isplitl [Ho]; · iexact Ho
        isplitl [H0]; · iexact H0
        isplitl [H1]; · iexact H1
        isplitl [H2]; · iexact H2
        isplitl [H3]; · iexact H3
        iexact H4

theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KI.R4Runs.lean ====
/-
  Matrix-product region 4: what its six control cases share — the three branch conditions in closed form over the grid
  (point n = 32 j + 8 i + k: the accumulator is reset at k = 0, the two running rows at i = 0, the statistics are taken at
  k = 7), where the three outputs are idle and when they are written back, and the memrefs the body is called with.
-/
import proofs.«157460_j63591285784858_2_alg».proof.Proof.KI.R4Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

abbrev cond4_0 (i : grid4.Coords) : Prop := (Scalar.cmpi .ne (Scalar.extui (Scalar.cmpi .eq (BitVec.ofNat 32 (i 2).val) 0#32)) 0#32) = 1#1
theorem hcond4_0 : ∀ t : Fin cfg4.N, cond4_0 (grid4.coords t) ↔ t.val % 8 = 0 :=
  (by decide +kernel : ∀ t : Fin grid4.N, cond4_0 (grid4.coords t) ↔ t.val % 8 = 0)
abbrev cond4_1 (i : grid4.Coords) : Prop := (Scalar.cmpi .ne (Scalar.extui (Scalar.cmpi .eq (BitVec.ofNat 32 (i 1).val) 0#32)) 0#32) = 1#1
theorem hcond4_1 : ∀ t : Fin cfg4.N, cond4_1 (grid4.coords t) ↔ t.val / 8 % 4 = 0 :=
  (by decide +kernel : ∀ t : Fin grid4.N, cond4_1 (grid4.coords t) ↔ t.val / 8 % 4 = 0)
abbrev cond4_2 (i : grid4.Coords) : Prop := k4_cond3 i = 1#1
theorem hcond4_2 : ∀ t : Fin cfg4.N, cond4_2 (grid4.coords t) ↔ t.val % 8 = 7 :=
  (by decide +kernel : ∀ t : Fin grid4.N, cond4_2 (grid4.coords t) ↔ t.val % 8 = 7)

/-! ## Idle points and write-backs of the three outputs -/

theorem liveAt4_0 : ∀ t : Fin cfg4.N, cfg4.idle 0 (grid4.coords t) = false := by decide +kernel
theorem liveAt4_1 : ∀ t : Fin cfg4.N, cfg4.idle 1 (grid4.coords t) = false := by decide +kernel
theorem idleAt4_2 : ∀ t : Fin cfg4.N, ¬cond4_2 (grid4.coords t) → cfg4.idle 2 (grid4.coords t) = true := by decide +kernel
theorem liveAt4_2 : ∀ t : Fin cfg4.N, cond4_2 (grid4.coords t) → cfg4.idle 2 (grid4.coords t) = false := by decide +kernel
theorem noFlush4_2 : ∀ t : Fin cfg4.N, ¬cond4_2 (grid4.coords t) → (cfg4.win 2).flush t = false := by decide +kernel
theorem idleAt4_3 : ∀ t : Fin cfg4.N, ¬cond4_2 (grid4.coords t) → cfg4.idle 3 (grid4.coords t) = true := by decide +kernel
theorem liveAt4_3 : ∀ t : Fin cfg4.N, cond4_2 (grid4.coords t) → cfg4.idle 3 (grid4.coords t) = false := by decide +kernel
theorem noFlush4_3 : ∀ t : Fin cfg4.N, ¬cond4_2 (grid4.coords t) → (cfg4.win 3).flush t = false := by decide +kernel
theorem idleAt4_4 : ∀ t : Fin cfg4.N, ¬cond4_2 (grid4.coords t) → cfg4.idle 4 (grid4.coords t) = true := by decide +kernel
theorem liveAt4_4 : ∀ t : Fin cfg4.N, cond4_2 (grid4.coords t) → cfg4.idle 4 (grid4.coords t) = false := by decide +kernel
theorem noFlush4_4 : ∀ t : Fin cfg4.N, ¬cond4_2 (grid4.coords t) → (cfg4.win 4).flush t = false := by decide +kernel

/-! ## The memrefs the body is called with -/

abbrev ms4_0 (t : Fin cfg4.N) : Memref sig .tc .vmem S1024x512 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x512 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x1024 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x1024 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x1024 .f32 := win4_4.stage (cfg4.slots t 4)
abbrev hs4_4 (t : Fin cfg4.N) : (ms4_4 t).IsWhole := hstage4_4 ((cfg4.slots t 4).cast nbuf4_4)
/-- Views through which contents are stated (any whole buffer of the shape serves). -/
abbrev VB4 : View sig .tc .vmem S1024x1024 .f32 := scM4_0.view
abbrev VR4 : View sig .tc .vmem S1x1024 .f32 := scM4_1.view

end Cert.KernelIdeal.Hand

end
-- ==== Proof.KI.R4RunA.lean ====
/-
  The whole body at the first point of an output column tile (k = 0, i = 0): the accumulator is cleared and receives
  the block product; the two running rows are cleared. Nothing read of what the scratch buffers held;
  Only the buffers the body stores into are mentioned; what each ends with is found by running the body: the pieces
  are the witness.
-/
import proofs.«157460_j63591285784858_2_alg».proof.Proof.KI.R4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_A (c : Dev nD) (i : grid4.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : cond4_0 i) (hc1 : cond4_1 i) (hc2 : ¬cond4_2 i)
    (x0 : Vec F S1024x512 .bf16) (x1 : Vec F S1024x512 .bf16)  :
    Σ' (LS0 : List (View.Piece (Elt F) S1024x1024 .f32)) (LS1 : List (View.Piece (Elt F) S1x1024 .f32)), { LS2 : List (View.Piece (Elt F) S1x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc4__matmul_stats_kernel i arg3 harg3 arg4 harg4 arg5 harg5 arg6 harg6 arg7 harg7 arg8 harg8 arg9 harg9 arg10 harg10) K } := by
  refine ⟨?_, ?_, ?_, fun E K => ?run⟩
  case run =>
    simp only [cc4__matmul_stats_kernel_eq_skeleton]; unfold cc4__matmul_stats_kernel_skel
    unfold owns
    iintro ⟨⟨%f0, %hf0, H0⟩, ⟨%f1, %hf1, H1⟩, ⟨%dHS0, %fHS0, -, HS0⟩, ⟨%dHS1, %fHS1, -, HS1⟩, ⟨%dHS2, %fHS2, -, HS2⟩, Hk⟩
    obtain rfl := harg3.eq_unread hf0; obtain rfl := harg4.eq_unread hf1

    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [HS0]; · iexists _; iexact HS0
    isplitl [HS1]; · iexists _; iexact HS1
    iexists _; iexact HS2

end Cert.KernelIdeal.Hand

end
-- ==== Proof.KI.R4RunB.lean ====
/-
  The whole body at the first reduction step of a batch tile that is not the first (k = 0, i ≠ 0): the accumulator is
  cleared and receives the block product; the two running rows keep what the tile before left.
  Only the buffers the body stores into are mentioned; what each ends with is found by running the body: the pieces
  are the witness.
-/
import proofs.«157460_j63591285784858_2_alg».proof.Proof.KI.R4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_B (c : Dev nD) (i : grid4.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : cond4_0 i) (hc1 : ¬cond4_1 i) (hc2 : ¬cond4_2 i)
    (x0 : Vec F S1024x512 .bf16) (x1 : Vec F S1024x512 .bf16)  :
    { LS0 : List (View.Piece (Elt F) S1024x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg8 fullShare d)
            ∗ (iprop(owns (c : Thread nD τ) arg3 fullShare x0 ∗ owns (c : Thread nD τ) arg4 fullShare x1
                ∗ (∃ f, arg8.view.loc (c : Thread nD τ) ↦[arg8.view.set]{fullShare} arg8.view.writes (Elt F) f LS0)) -∗ K ⟨⟩))
          ⊢ wp frame (wpE (defs₀ (F := F)) Variants.none c none) E (cc4__matmul_stats_kernel i arg3 harg3 arg4 harg4 arg5 harg5 arg6 harg6 arg7 harg7 arg8 harg8 arg9 harg9 arg10 harg10) K } := by
  refine ⟨?_, fun E K => ?run⟩
  case run =>
    simp only [cc4__matmul_stats_kernel_eq_skeleton]; unfold cc4__matmul_stats_kernel_skel
    unfold owns
    iintro ⟨⟨%f0, %hf0, H0⟩, ⟨%f1, %hf1, H1⟩, ⟨%dHS0, %fHS0, -, HS0⟩, Hk⟩
    obtain rfl := harg3.eq_unread hf0; obtain rfl := harg4.eq_unread hf1

    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.KernelIdeal.Hand

end
-- ==== Proof.KI.R4RunC.lean ====
/-
  The whole body at a middle reduction step of the first batch tile (0 < k < 3, i = 0): the accumulator found at what
  the step before left receives the block product; the two running rows are cleared; the three outputs are not
  touched.
  Only the buffers the body stores into are mentioned; what each ends with is found by running the body: the pieces
  are the witness.
-/
import proofs.«157460_j63591285784858_2_alg».proof.Proof.KI.R4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_C (c : Dev nD) (i : grid4.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond4_0 i) (hc1 : cond4_1 i) (hc2 : ¬cond4_2 i)
    (x0 : Vec F S1024x512 .bf16) (x1 : Vec F S1024x512 .bf16) (xs0 : Vec F S1024x1024 .f32) :
    Σ' (LS0 : List (View.Piece (Elt F) S1024x1024 .f32)) (LS1 : List (View.Piece (Elt F) S1x1024 .f32)), { LS2 : List (View.Piece (Elt F) S1x1024 .f32) //
      ∀ (E : Set ℕ) (K : PUnit → sProp 𝕄),
        iprop(owns (c : Thread nD τ) arg3 fullShare x0 ∗ owns (c : Thread nD τ) arg4 fullShare x1
            ∗ owns (c : Thread nD τ) arg8 fullShare xs0 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc4__matmul_stats_kernel i arg3 harg3 arg4 harg4 arg5 harg5 arg6 harg6 arg7 harg7 arg8 harg8 arg9 harg9 arg10 harg10) K } := by
  refine ⟨?_, ?_, ?_, fun E K => ?run⟩
  case run =>
    simp only [cc4__matmul_stats_kernel_eq_skeleton]; unfold cc4__matmul_stats_kernel_skel
    unfold owns
    iintro ⟨⟨%f0, %hf0, H0⟩, ⟨%f1, %hf1, H1⟩, ⟨%fHS0, %hfHS0, HS0⟩, ⟨%dHS1, %fHS1, -, HS1⟩, ⟨%dHS2, %fHS2, -, HS2⟩, Hk⟩
    obtain rfl := harg3.eq_unread hf0; obtain rfl := harg4.eq_unread hf1
    obtain rfl := harg8.eq_unread hfHS0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [HS0]; · iexists _; iexact HS0
    isplitl [HS1]; · iexists _; iexact HS1
    iexists _; iexact HS2

end Cert.KernelIdeal.Hand

end
-- ==== Proof.KI.R4RunD.lean ====
/-
  The whole body at a middle reduction step of a batch tile that is not the first (0 < k < 3, i ≠ 0): the accumulator
  found at what the step before left receives the block product; the two running rows keep what the tile before left;

  Only the buffers the body stores into are mentioned; what each ends with is found by running the body: the pieces
  are the witness.
-/
import proofs.«157460_j63591285784858_2_alg».proof.Proof.KI.R4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_D (c : Dev nD) (i : grid4.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond4_0 i) (hc1 : ¬cond4_1 i) (hc2 : ¬cond4_2 i)
    (x0 : Vec F S1024x512 .bf16) (x1 : Vec F S1024x512 .bf16) (xs0 : Vec F S1024x1024 .f32) :
    { LS0 : List (View.Piece (Elt F) S1024x1024 .f32) //
      ∀ (E : Set ℕ) (K : PUnit → sProp 𝕄),
        iprop(owns (c : Thread nD τ) arg3 fullShare x0 ∗ owns (c : Thread nD τ) arg4 fullShare x1
            ∗ owns (c : Thread nD τ) arg8 fullShare xs0
            ∗ (iprop(owns (c : Thread nD τ) arg3 fullShare x0 ∗ owns (c : Thread nD τ) arg4 fullShare x1
                ∗ (∃ f, arg8.view.loc (c : Thread nD τ) ↦[arg8.view.set]{fullShare} arg8.view.writes (Elt F) f LS0)) -∗ K ⟨⟩))
          ⊢ wp frame (wpE (defs₀ (F := F)) Variants.none c none) E (cc4__matmul_stats_kernel i arg3 harg3 arg4 harg4 arg5 harg5 arg6 harg6 arg7 harg7 arg8 harg8 arg9 harg9 arg10 harg10) K } := by
  refine ⟨?_, fun E K => ?run⟩
  case run =>
    simp only [cc4__matmul_stats_kernel_eq_skeleton]; unfold cc4__matmul_stats_kernel_skel
    unfold owns
    iintro ⟨⟨%f0, %hf0, H0⟩, ⟨%f1, %hf1, H1⟩, ⟨%fHS0, %hfHS0, HS0⟩, Hk⟩
    obtain rfl := harg3.eq_unread hf0; obtain rfl := harg4.eq_unread hf1
    obtain rfl := harg8.eq_unread hfHS0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.KernelIdeal.Hand

end
-- ==== Proof.KI.R4RunE.lean ====
/-
  The whole body at the last reduction step of the first batch tile (k = 3, i = 0): the accumulator found at what the
  step before left receives the block product and is copied to the product's output block; the two running rows are
  cleared and receive its column sums and column sums of squares; the mean and the clamped variance are written from
  them.
  Only the buffers the body stores into are mentioned; what each ends with is found by running the body: the pieces
  are the witness.
-/
import proofs.«157460_j63591285784858_2_alg».proof.Proof.KI.R4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_E (c : Dev nD) (i : grid4.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond4_0 i) (hc1 : cond4_1 i) (hc2 : cond4_2 i)
    (x0 : Vec F S1024x512 .bf16) (x1 : Vec F S1024x512 .bf16) (xs0 : Vec F S1024x1024 .f32) :
    Σ' (L2 : List (View.Piece (Elt F) S1024x1024 .f32)) (L3 : List (View.Piece (Elt F) S1x1024 .f32)) (L4 : List (View.Piece (Elt F) S1x1024 .f32)) (LS0 : List (View.Piece (Elt F) S1024x1024 .f32)) (LS1 : List (View.Piece (Elt F) S1x1024 .f32)), { LS2 : List (View.Piece (Elt F) S1x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc4__matmul_stats_kernel i arg3 harg3 arg4 harg4 arg5 harg5 arg6 harg6 arg7 harg7 arg8 harg8 arg9 harg9 arg10 harg10) K } := by
  refine ⟨?_, ?_, ?_, ?_, ?_, ?_, fun E K => ?run⟩
  case run =>
    simp only [cc4__matmul_stats_kernel_eq_skeleton]; unfold cc4__matmul_stats_kernel_skel
    unfold owns
    iintro ⟨⟨%f0, %hf0, H0⟩, ⟨%f1, %hf1, H1⟩, ⟨%dH2, %fH2, -, H2⟩, ⟨%dH3, %fH3, -, H3⟩, ⟨%dH4, %fH4, -, H4⟩, ⟨%fHS0, %hfHS0, HS0⟩, ⟨%dHS1, %fHS1, -, HS1⟩, ⟨%dHS2, %fHS2, -, HS2⟩, Hk⟩
    obtain rfl := harg3.eq_unread hf0; obtain rfl := harg4.eq_unread hf1
    obtain rfl := harg8.eq_unread hfHS0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    iexists _; iexact HS2

end Cert.KernelIdeal.Hand

end
-- ==== Proof.KI.R4RunF.lean ====
/-
  The whole body at the last reduction step of a batch tile that is not the first (k = last, i ≠ 0): the accumulator
  found at what the step before left receives the block product and is copied to the product's output block; its column
  sums and column sums of squares are added into the two running rows found at what the tile before left; the mean and
  the clamped variance are written from them.
  Only the buffers the body stores into are mentioned; what each ends with is found by running the body: the pieces
  are the witness.
-/
import proofs.«157460_j63591285784858_2_alg».proof.Proof.KI.R4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_F (c : Dev nD) (i : grid4.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond4_0 i) (hc1 : ¬cond4_1 i) (hc2 : cond4_2 i)
    (x0 : Vec F S1024x512 .bf16) (x1 : Vec F S1024x512 .bf16) (xs0 : Vec F S1024x1024 .f32) (xs1 : Vec F S1x1024 .f32) (xs2 : Vec F S1x1024 .f32) :
    Σ' (L2 : List (View.Piece (Elt F) S1024x1024 .f32)) (L3 : List (View.Piece (Elt F) S1x1024 .f32)) (L4 : List (View.Piece (Elt F) S1x1024 .f32)) (LS0 : List (View.Piece (Elt F) S1024x1024 .f32)) (LS1 : List (View.Piece (Elt F) S1x1024 .f32)), { LS2 : List (View.Piece (Elt F) S1x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc4__matmul_stats_kernel i arg3 harg3 arg4 harg4 arg5 harg5 arg6 harg6 arg7 harg7 arg8 harg8 arg9 harg9 arg10 harg10) K } := by
  refine ⟨?_, ?_, ?_, ?_, ?_, ?_, fun E K => ?run⟩
  case run =>
    simp only [cc4__matmul_stats_kernel_eq_skeleton]; unfold cc4__matmul_stats_kernel_skel
    unfold owns
    iintro ⟨⟨%f0, %hf0, H0⟩, ⟨%f1, %hf1, H1⟩, ⟨%dH2, %fH2, -, H2⟩, ⟨%dH3, %fH3, -, H3⟩, ⟨%dH4, %fH4, -, H4⟩, ⟨%fHS0, %hfHS0, HS0⟩, ⟨%fHS1, %hfHS1, HS1⟩, ⟨%fHS2, %hfHS2, HS2⟩, Hk⟩
    obtain rfl := harg3.eq_unread hf0; obtain rfl := harg4.eq_unread hf1
    obtain rfl := harg8.eq_unread hfHS0; obtain rfl := harg9.eq_unread hfHS1; obtain rfl := harg10.eq_unread hfHS2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    iexists _; iexact HS2

end Cert.KernelIdeal.Hand

end
-- ==== Proof.KI.R4Body.lean ====
/-
  Matrix-product region 4: the body obligation. At every grid point the point's control case is read off the
  closed forms of the three branch conditions; the case's whole-body run applies, the invariant handing it the scratch
  buffers at the state the point before left (at anything at the first point) and taking them back at this point's
  state; each stored buffer's found pieces read back as the payload the closed-form state names (one covering store,
  or a store after a clearing store), so the proof data's statements hold; an output the case does not store is handed
  back as it was found.
-/
import proofs.«157460_j63591285784858_2_alg».proof.Proof.KI.R4RunA
import proofs.«157460_j63591285784858_2_alg».proof.Proof.KI.R4RunB
import proofs.«157460_j63591285784858_2_alg».proof.Proof.KI.R4RunC
import proofs.«157460_j63591285784858_2_alg».proof.Proof.KI.R4RunD
import proofs.«157460_j63591285784858_2_alg».proof.Proof.KI.R4RunE
import proofs.«157460_j63591285784858_2_alg».proof.Proof.KI.R4RunF
import proofs.«157460_j63591285784858_2_alg».proof.Proof.LibUnitPieces
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert

/-! ## What each case's stored buffers end with -/

/-! ### Case A -/

section
variable (c : Dev nD) (i : grid4.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : cond4_0 i) (hc1 : cond4_1 i) (hc2 : ¬cond4_2 i)
    (x0 : Vec F S1024x512 .bf16) (x1 : Vec F S1024x512 .bf16)

theorem cov4_A_S0 (y : S1024x1024.Idx) : ∃ pc ∈ (kernelRun4_A c i arg3 harg3 arg4 harg4 arg5 harg5 arg6 harg6 arg7 harg7 arg8 harg8 arg9 harg9 arg10 harg10 hc0 hc1 hc2 x0 x1 ).1, y ∈ pc.1.set :=
  View.cover_of_tiledL _ S1024x1024.size (by sl_kernel_rfl) y
theorem val4_A_S0 : View.canon (kernelRun4_A c i arg3 harg3 arg4 harg4 arg5 harg5 arg6 harg6 arg7 harg7 arg8 harg8 arg9 harg9 arg10 harg10 hc0 hc1 hc2 x0 x1 ).1 = (k4_pay2 x0 k4_pay1 x1) := by
  unfold kernelRun4_A
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov4_A_S1 (y : S1x1024.Idx) : ∃ pc ∈ (kernelRun4_A c i arg3 harg3 arg4 harg4 arg5 harg5 arg6 harg6 arg7 harg7 arg8 harg8 arg9 harg9 arg10 harg10 hc0 hc1 hc2 x0 x1 ).2.1, y ∈ pc.1.set :=
  View.cover_of_tiledL _ S1x1024.size (by sl_kernel_rfl) y
theorem val4_A_S1 : View.canon (kernelRun4_A c i arg3 harg3 arg4 harg4 arg5 harg5 arg6 harg6 arg7 harg7 arg8 harg8 arg9 harg9 arg10 harg10 hc0 hc1 hc2 x0 x1 ).2.1 = k4_pay3 := by
  unfold kernelRun4_A
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov4_A_S2 (y : S1x1024.Idx) : ∃ pc ∈ (kernelRun4_A c i arg3 harg3 arg4 harg4 arg5 harg5 arg6 harg6 arg7 harg7 arg8 harg8 arg9 harg9 arg10 harg10 hc0 hc1 hc2 x0 x1 ).2.2.1, y ∈ pc.1.set :=
  View.cover_of_tiledL _ S1x1024.size (by sl_kernel_rfl) y
theorem val4_A_S2 : View.canon (kernelRun4_A c i arg3 harg3 arg4 harg4 arg5 harg5 arg6 harg6 arg7 harg7 arg8 harg8 arg9 harg9 arg10 harg10 hc0 hc1 hc2 x0 x1 ).2.2.1 = k4_pay4 := by
  unfold kernelRun4_A
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case B -/

section
variable (c : Dev nD) (i : grid4.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : cond4_0 i) (hc1 : ¬cond4_1 i) (hc2 : ¬cond4_2 i)
    (x0 : Vec F S1024x512 .bf16) (x1 : Vec F S1024x512 .bf16)

theorem cov4_B_S0 (y : S1024x1024.Idx) : ∃ pc ∈ (kernelRun4_B c i arg3 harg3 arg4 harg4 arg5 harg5 arg6 harg6 arg7 harg7 arg8 harg8 arg9 harg9 arg10 harg10 hc0 hc1 hc2 x0 x1 ).1, y ∈ pc.1.set :=
  View.cover_of_tiledL _ S1024x1024.size (by sl_kernel_rfl) y
theorem val4_B_S0 : View.canon (kernelRun4_B c i arg3 harg3 arg4 harg4 arg5 harg5 arg6 harg6 arg7 harg7 arg8 harg8 arg9 harg9 arg10 harg10 hc0 hc1 hc2 x0 x1 ).1 = (k4_pay2 x0 k4_pay1 x1) := by
  unfold kernelRun4_B
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case C -/

section
variable (c : Dev nD) (i : grid4.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond4_0 i) (hc1 : cond4_1 i) (hc2 : ¬cond4_2 i)
    (x0 : Vec F S1024x512 .bf16) (x1 : Vec F S1024x512 .bf16) (xs0 : Vec F S1024x1024 .f32)

theorem cov4_C_S0 (y : S1024x1024.Idx) : ∃ pc ∈ (kernelRun4_C c i arg3 harg3 arg4 harg4 arg5 harg5 arg6 harg6 arg7 harg7 arg8 harg8 arg9 harg9 arg10 harg10 hc0 hc1 hc2 x0 x1 xs0).1, y ∈ pc.1.set :=
  View.cover_of_tiledL _ S1024x1024.size (by sl_kernel_rfl) y
theorem val4_C_S0 : View.canon (kernelRun4_C c i arg3 harg3 arg4 harg4 arg5 harg5 arg6 harg6 arg7 harg7 arg8 harg8 arg9 harg9 arg10 harg10 hc0 hc1 hc2 x0 x1 xs0).1 = (k4_pay2 x0 xs0 x1) := by
  unfold kernelRun4_C
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov4_C_S1 (y : S1x1024.Idx) : ∃ pc ∈ (kernelRun4_C c i arg3 harg3 arg4 harg4 arg5 harg5 arg6 harg6 arg7 harg7 arg8 harg8 arg9 harg9 arg10 harg10 hc0 hc1 hc2 x0 x1 xs0).2.1, y ∈ pc.1.set :=
  View.cover_of_tiledL _ S1x1024.size (by sl_kernel_rfl) y
theorem val4_C_S1 : View.canon (kernelRun4_C c i arg3 harg3 arg4 harg4 arg5 harg5 arg6 harg6 arg7 harg7 arg8 harg8 arg9 harg9 arg10 harg10 hc0 hc1 hc2 x0 x1 xs0).2.1 = k4_pay3 := by
  unfold kernelRun4_C
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov4_C_S2 (y : S1x1024.Idx) : ∃ pc ∈ (kernelRun4_C c i arg3 harg3 arg4 harg4 arg5 harg5 arg6 harg6 arg7 harg7 arg8 harg8 arg9 harg9 arg10 harg10 hc0 hc1 hc2 x0 x1 xs0).2.2.1, y ∈ pc.1.set :=
  View.cover_of_tiledL _ S1x1024.size (by sl_kernel_rfl) y
theorem val4_C_S2 : View.canon (kernelRun4_C c i arg3 harg3 arg4 harg4 arg5 harg5 arg6 harg6 arg7 harg7 arg8 harg8 arg9 harg9 arg10 harg10 hc0 hc1 hc2 x0 x1 xs0).2.2.1 = k4_pay4 := by
  unfold kernelRun4_C
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case D -/

section
variable (c : Dev nD) (i : grid4.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond4_0 i) (hc1 : ¬cond4_1 i) (hc2 : ¬cond4_2 i)
    (x0 : Vec F S1024x512 .bf16) (x1 : Vec F S1024x512 .bf16) (xs0 : Vec F S1024x1024 .f32)

theorem cov4_D_S0 (y : S1024x1024.Idx) : ∃ pc ∈ (kernelRun4_D c i arg3 harg3 arg4 harg4 arg5 harg5 arg6 harg6 arg7 harg7 arg8 harg8 arg9 harg9 arg10 harg10 hc0 hc1 hc2 x0 x1 xs0).1, y ∈ pc.1.set :=
  View.cover_of_tiledL _ S1024x1024.size (by sl_kernel_rfl) y
theorem val4_D_S0 : View.canon (kernelRun4_D c i arg3 harg3 arg4 harg4 arg5 harg5 arg6 harg6 arg7 harg7 arg8 harg8 arg9 harg9 arg10 harg10 hc0 hc1 hc2 x0 x1 xs0).1 = (k4_pay2 x0 xs0 x1) := by
  unfold kernelRun4_D
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case E -/

section
variable (c : Dev nD) (i : grid4.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond4_0 i) (hc1 : cond4_1 i) (hc2 : cond4_2 i)
    (x0 : Vec F S1024x512 .bf16) (x1 : Vec F S1024x512 .bf16) (xs0 : Vec F S1024x1024 .f32)

theorem cov4_E_2 (y : S1024x1024.Idx) : ∃ pc ∈ (kernelRun4_E c i arg3 harg3 arg4 harg4 arg5 harg5 arg6 harg6 arg7 harg7 arg8 harg8 arg9 harg9 arg10 harg10 hc0 hc1 hc2 x0 x1 xs0).1, y ∈ pc.1.set :=
  View.cover_of_tiledL _ S1024x1024.size (by sl_kernel_rfl) y
theorem val4_E_2 : View.canon (kernelRun4_E c i arg3 harg3 arg4 harg4 arg5 harg5 arg6 harg6 arg7 harg7 arg8 harg8 arg9 harg9 arg10 harg10 hc0 hc1 hc2 x0 x1 xs0).1 = (k4_pay2 x0 xs0 x1) := by
  unfold kernelRun4_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov4_E_3 (y : S1x1024.Idx) : ∃ pc ∈ (kernelRun4_E c i arg3 harg3 arg4 harg4 arg5 harg5 arg6 harg6 arg7 harg7 arg8 harg8 arg9 harg9 arg10 harg10 hc0 hc1 hc2 x0 x1 xs0).2.1, y ∈ pc.1.set :=
  View.cover_of_tiledL _ S1x1024.size (by sl_kernel_rfl) y
theorem val4_E_3 : View.canon (kernelRun4_E c i arg3 harg3 arg4 harg4 arg5 harg5 arg6 harg6 arg7 harg7 arg8 harg8 arg9 harg9 arg10 harg10 hc0 hc1 hc2 x0 x1 xs0).2.1 = (k4_pay7 (k4_pay5 (k4_pay2 x0 xs0 x1) k4_pay3)) := by
  unfold kernelRun4_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov4_E_4 (y : S1x1024.Idx) : ∃ pc ∈ (kernelRun4_E c i arg3 harg3 arg4 harg4 arg5 harg5 arg6 harg6 arg7 harg7 arg8 harg8 arg9 harg9 arg10 harg10 hc0 hc1 hc2 x0 x1 xs0).2.2.1, y ∈ pc.1.set :=
  View.cover_of_tiledL _ S1x1024.size (by sl_kernel_rfl) y
theorem val4_E_4 : View.canon (kernelRun4_E c i arg3 harg3 arg4 harg4 arg5 harg5 arg6 harg6 arg7 harg7 arg8 harg8 arg9 harg9 arg10 harg10 hc0 hc1 hc2 x0 x1 xs0).2.2.1 = (k4_pay8 (k4_pay5 (k4_pay2 x0 xs0 x1) k4_pay3) (k4_pay6 (k4_pay2 x0 xs0 x1) k4_pay4)) := by
  unfold kernelRun4_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov4_E_S0 (y : S1024x1024.Idx) : ∃ pc ∈ (kernelRun4_E c i arg3 harg3 arg4 harg4 arg5 harg5 arg6 harg6 arg7 harg7 arg8 harg8 arg9 harg9 arg10 harg10 hc0 hc1 hc2 x0 x1 xs0).2.2.2.1, y ∈ pc.1.set :=
  View.cover_of_tiledL _ S1024x1024.size (by sl_kernel_rfl) y
theorem val4_E_S0 : View.canon (kernelRun4_E c i arg3 harg3 arg4 harg4 arg5 harg5 arg6 harg6 arg7 harg7 arg8 harg8 arg9 harg9 arg10 harg10 hc0 hc1 hc2 x0 x1 xs0).2.2.2.1 = (k4_pay2 x0 xs0 x1) := by
  unfold kernelRun4_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov4_E_S1 (y : S1x1024.Idx) : ∃ pc ∈ (kernelRun4_E c i arg3 harg3 arg4 harg4 arg5 harg5 arg6 harg6 arg7 harg7 arg8 harg8 arg9 harg9 arg10 harg10 hc0 hc1 hc2 x0 x1 xs0).2.2.2.2.1, y ∈ pc.1.set :=
  View.cover_of_tiledL _ S1x1024.size (by sl_kernel_rfl) y
theorem val4_E_S1 : View.canon (kernelRun4_E c i arg3 harg3 arg4 harg4 arg5 harg5 arg6 harg6 arg7 harg7 arg8 harg8 arg9 harg9 arg10 harg10 hc0 hc1 hc2 x0 x1 xs0).2.2.2.2.1 = (k4_pay5 (k4_pay2 x0 xs0 x1) k4_pay3) := by
  unfold kernelRun4_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov4_E_S2 (y : S1x1024.Idx) : ∃ pc ∈ (kernelRun4_E c i arg3 harg3 arg4 harg4 arg5 harg5 arg6 harg6 arg7 harg7 arg8 harg8 arg9 harg9 arg10 harg10 hc0 hc1 hc2 x0 x1 xs0).2.2.2.2.2.1, y ∈ pc.1.set :=
  View.cover_of_tiledL _ S1x1024.size (by sl_kernel_rfl) y
theorem val4_E_S2 : View.canon (kernelRun4_E c i arg3 harg3 arg4 harg4 arg5 harg5 arg6 harg6 arg7 harg7 arg8 harg8 arg9 harg9 arg10 harg10 hc0 hc1 hc2 x0 x1 xs0).2.2.2.2.2.1 = (k4_pay6 (k4_pay2 x0 xs0 x1) k4_pay4) := by
  unfold kernelRun4_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case F -/

section
variable (c : Dev nD) (i : grid4.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond4_0 i) (hc1 : ¬cond4_1 i) (hc2 : cond4_2 i)
    (x0 : Vec F S1024x512 .bf16) (x1 : Vec F S1024x512 .bf16) (xs0 : Vec F S1024x1024 .f32) (xs1 : Vec F S1x1024 .f32) (xs2 : Vec F S1x1024 .f32)

theorem cov4_F_2 (y : S1024x1024.Idx) : ∃ pc ∈ (kernelRun4_F c i arg3 harg3 arg4 harg4 arg5 harg5 arg6 harg6 arg7 harg7 arg8 harg8 arg9 harg9 arg10 harg10 hc0 hc1 hc2 x0 x1 xs0 xs1 xs2).1, y ∈ pc.1.set :=
  View.cover_of_tiledL _ S1024x1024.size (by sl_kernel_rfl) y
theorem val4_F_2 : View.canon (kernelRun4_F c i arg3 harg3 arg4 harg4 arg5 harg5 arg6 harg6 arg7 harg7 arg8 harg8 arg9 harg9 arg10 harg10 hc0 hc1 hc2 x0 x1 xs0 xs1 xs2).1 = (k4_pay2 x0 xs0 x1) := by
  unfold kernelRun4_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov4_F_3 (y : S1x1024.Idx) : ∃ pc ∈ (kernelRun4_F c i arg3 harg3 arg4 harg4 arg5 harg5 arg6 harg6 arg7 harg7 arg8 harg8 arg9 harg9 arg10 harg10 hc0 hc1 hc2 x0 x1 xs0 xs1 xs2).2.1, y ∈ pc.1.set :=
  View.cover_of_tiledL _ S1x1024.size (by sl_kernel_rfl) y
theorem val4_F_3 : View.canon (kernelRun4_F c i arg3 harg3 arg4 harg4 arg5 harg5 arg6 harg6 arg7 harg7 arg8 harg8 arg9 harg9 arg10 harg10 hc0 hc1 hc2 x0 x1 xs0 xs1 xs2).2.1 = (k4_pay7 (k4_pay5 (k4_pay2 x0 xs0 x1) xs1)) := by
  unfold kernelRun4_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov4_F_4 (y : S1x1024.Idx) : ∃ pc ∈ (kernelRun4_F c i arg3 harg3 arg4 harg4 arg5 harg5 arg6 harg6 arg7 harg7 arg8 harg8 arg9 harg9 arg10 harg10 hc0 hc1 hc2 x0 x1 xs0 xs1 xs2).2.2.1, y ∈ pc.1.set :=
  View.cover_of_tiledL _ S1x1024.size (by sl_kernel_rfl) y
theorem val4_F_4 : View.canon (kernelRun4_F c i arg3 harg3 arg4 harg4 arg5 harg5 arg6 harg6 arg7 harg7 arg8 harg8 arg9 harg9 arg10 harg10 hc0 hc1 hc2 x0 x1 xs0 xs1 xs2).2.2.1 = (k4_pay8 (k4_pay5 (k4_pay2 x0 xs0 x1) xs1) (k4_pay6 (k4_pay2 x0 xs0 x1) xs2)) := by
  unfold kernelRun4_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov4_F_S0 (y : S1024x1024.Idx) : ∃ pc ∈ (kernelRun4_F c i arg3 harg3 arg4 harg4 arg5 harg5 arg6 harg6 arg7 harg7 arg8 harg8 arg9 harg9 arg10 harg10 hc0 hc1 hc2 x0 x1 xs0 xs1 xs2).2.2.2.1, y ∈ pc.1.set :=
  View.cover_of_tiledL _ S1024x1024.size (by sl_kernel_rfl) y
theorem val4_F_S0 : View.canon (kernelRun4_F c i arg3 harg3 arg4 harg4 arg5 harg5 arg6 harg6 arg7 harg7 arg8 harg8 arg9 harg9 arg10 harg10 hc0 hc1 hc2 x0 x1 xs0 xs1 xs2).2.2.2.1 = (k4_pay2 x0 xs0 x1) := by
  unfold kernelRun4_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov4_F_S1 (y : S1x1024.Idx) : ∃ pc ∈ (kernelRun4_F c i arg3 harg3 arg4 harg4 arg5 harg5 arg6 harg6 arg7 harg7 arg8 harg8 arg9 harg9 arg10 harg10 hc0 hc1 hc2 x0 x1 xs0 xs1 xs2).2.2.2.2.1, y ∈ pc.1.set :=
  View.cover_of_tiledL _ S1x1024.size (by sl_kernel_rfl) y
theorem val4_F_S1 : View.canon (kernelRun4_F c i arg3 harg3 arg4 harg4 arg5 harg5 arg6 harg6 arg7 harg7 arg8 harg8 arg9 harg9 arg10 harg10 hc0 hc1 hc2 x0 x1 xs0 xs1 xs2).2.2.2.2.1 = (k4_pay5 (k4_pay2 x0 xs0 x1) xs1) := by
  unfold kernelRun4_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov4_F_S2 (y : S1x1024.Idx) : ∃ pc ∈ (kernelRun4_F c i arg3 harg3 arg4 harg4 arg5 harg5 arg6 harg6 arg7 harg7 arg8 harg8 arg9 harg9 arg10 harg10 hc0 hc1 hc2 x0 x1 xs0 xs1 xs2).2.2.2.2.2.1, y ∈ pc.1.set :=
  View.cover_of_tiledL _ S1x1024.size (by sl_kernel_rfl) y
theorem val4_F_S2 : View.canon (kernelRun4_F c i arg3 harg3 arg4 harg4 arg5 harg5 arg6 harg6 arg7 harg7 arg8 harg8 arg9 harg9 arg10 harg10 hc0 hc1 hc2 x0 x1 xs0 xs1 xs2).2.2.2.2.2.1 = (k4_pay6 (k4_pay2 x0 xs0 x1) xs2) := by
  unfold kernelRun4_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ## One grid point of the closed-form state, case by case -/

theorem step4_A (n : ℕ) (h0 : n % 8 = 0) (h1 : n / 8 % 4 = 0) (h2 : ¬n % 8 = 7) (x0 : Vec F S1024x512 .bf16) (x1 : Vec F S1024x512 .bf16) (s : St4 F) :
    step4 n x0 x1 s = ⟨(k4_pay2 x0 k4_pay1 x1), k4_pay3, k4_pay4⟩ := by
  simp only [step4, if_pos h0, if_pos h1, if_neg h2]
theorem step4_B (n : ℕ) (h0 : n % 8 = 0) (h1 : ¬n / 8 % 4 = 0) (h2 : ¬n % 8 = 7) (x0 : Vec F S1024x512 .bf16) (x1 : Vec F S1024x512 .bf16) (s : St4 F) :
    step4 n x0 x1 s = ⟨(k4_pay2 x0 k4_pay1 x1), s.sum, s.sq⟩ := by
  simp only [step4, if_pos h0, if_neg h1, if_neg h2]
theorem step4_C (n : ℕ) (h0 : ¬n % 8 = 0) (h1 : n / 8 % 4 = 0) (h2 : ¬n % 8 = 7) (x0 : Vec F S1024x512 .bf16) (x1 : Vec F S1024x512 .bf16) (s : St4 F) :
    step4 n x0 x1 s = ⟨(k4_pay2 x0 s.acc x1), k4_pay3, k4_pay4⟩ := by
  simp only [step4, if_neg h0, if_pos h1, if_neg h2]
theorem step4_D (n : ℕ) (h0 : ¬n % 8 = 0) (h1 : ¬n / 8 % 4 = 0) (h2 : ¬n % 8 = 7) (x0 : Vec F S1024x512 .bf16) (x1 : Vec F S1024x512 .bf16) (s : St4 F) :
    step4 n x0 x1 s = ⟨(k4_pay2 x0 s.acc x1), s.sum, s.sq⟩ := by
  simp only [step4, if_neg h0, if_neg h1, if_neg h2]
theorem step4_E (n : ℕ) (h0 : ¬n % 8 = 0) (h1 : n / 8 % 4 = 0) (h2 : n % 8 = 7) (x0 : Vec F S1024x512 .bf16) (x1 : Vec F S1024x512 .bf16) (s : St4 F) :
    step4 n x0 x1 s = ⟨(k4_pay2 x0 s.acc x1), k4_pay5 (k4_pay2 x0 s.acc x1) k4_pay3, k4_pay6 (k4_pay2 x0 s.acc x1) k4_pay4⟩ := by
  simp only [step4, if_neg h0, if_pos h1, if_pos h2]
theorem step4_F (n : ℕ) (h0 : ¬n % 8 = 0) (h1 : ¬n / 8 % 4 = 0) (h2 : n % 8 = 7) (x0 : Vec F S1024x512 .bf16) (x1 : Vec F S1024x512 .bf16) (s : St4 F) :
    step4 n x0 x1 s = ⟨(k4_pay2 x0 s.acc x1), k4_pay5 (k4_pay2 x0 s.acc x1) s.sum, k4_pay6 (k4_pay2 x0 s.acc x1) s.sq⟩ := by
  simp only [step4, if_neg h0, if_neg h1, if_pos h2]

section
variable (V : (c : Dev nD) → (b : Ref sig .tc) → Buf (Elt F) ((c : Thread nD τ).loc b))

theorem st4_zero (c : Dev nD) (t : Fin cfg4.N) (hz : t.val = 0) :
    st4 V c t.val t.isLt = step4 0 (iblk4 V c 0 t) (iblk4 V c 1 t) ⟨k4_pay1, k4_pay3, k4_pay4⟩ := by
  obtain ⟨n, hn⟩ := t
  cases n with
  | zero => rfl
  | succ n => exact absurd hz (Nat.succ_ne_zero n)
theorem st4_pos (c : Dev nD) (t : Fin cfg4.N) (hz : t.val ≠ 0) (hlt : t.val - 1 < cfg4.N) :
    st4 V c t.val t.isLt = step4 t.val (iblk4 V c 0 t) (iblk4 V c 1 t) (st4 V c (t.val - 1) hlt) := by
  obtain ⟨n, hn⟩ := t
  cases n with
  | zero => exact absurd rfl hz
  | succ n => rfl

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t ∗ (dat4 V c).leavesExact 1 t
    ∗ (dat4 V c).leavesExact 2 t ∗ (dat4 V c).leavesExact 3 t ∗ (dat4 V c).leavesExact 4 t)

set_option maxHeartbeats 8000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  have hN : t.val < 128 := lt_of_lt_of_eq t.isLt (show cfg4.N = 128 from N_4)
  by_cases h0 : t.val % 8 = 0
  · have h2 : ¬t.val % 8 = 7 := by omega
    by_cases h1 : t.val / 8 % 4 = 0
    · by_cases hz : t.val = 0
      · rw [Dat.leavesExact_idle (dat4 V c) 2 t (idleAt4_2 t (fun h => h2 ((hcond4_2 t).mp h))) (noFlush4_2 t (fun h => h2 ((hcond4_2 t).mp h)))]
        rw [Dat.leavesExact_idle (dat4 V c) 3 t (idleAt4_3 t (fun h => h2 ((hcond4_2 t).mp h))) (noFlush4_3 t (fun h => h2 ((hcond4_2 t).mp h)))]
        rw [Dat.leavesExact_idle (dat4 V c) 4 t (idleAt4_4 t (fun h => h2 ((hcond4_2 t).mp h))) (noFlush4_4 t (fun h => h2 ((hcond4_2 t).mp h)))]
        rw [PhiS4_castSucc V c t, PhiS4_zero V c _ _ hz, PhiA4_eq, st4_zero V c t hz, step4_A _ (by omega) (by omega) (by omega)]
        dsimp only
        iintro ⟨⟨⟨⟨HS0, HS1, HS2⟩, Hr⟩, Hg⟩, Ho, ⟨%d0, H0⟩, ⟨%d1, H1⟩, H2, H3, H4⟩
        iapply ((kernelRun4_A c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) ((hcond4_0 t).mpr h0) ((hcond4_1 t).mpr h1) (fun h => h2 ((hcond4_2 t).mp h)) (iblk4 V c 0 t) (iblk4 V c 1 t) ).2.2.2 Set.univ _)
        isplitl [H0]; · iexact H0
        isplitl [H1]; · iexact H1
        isplitl [HS0]; · iexact HS0
        isplitl [HS1]; · iexact HS1
        isplitl [HS2]; · iexact HS2
        iintro ⟨H0, H1, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov4_A_S0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) ((hcond4_0 t).mpr h0) ((hcond4_1 t).mpr h1) (fun h => h2 ((hcond4_2 t).mp h)) (iblk4 V c 0 t) (iblk4 V c 1 t) )).trans (val4_A_S0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) ((hcond4_0 t).mpr h0) ((hcond4_1 t).mpr h1) (fun h => h2 ((hcond4_2 t).mp h)) (iblk4 V c 0 t) (iblk4 V c 1 t) )
              isplitl [HS1]
              · unfold owns; iexists _; isplitr
                swap; · iexact HS1
                ipureintro; exact (View.read_writes_eq_canon _ _ _ (cov4_A_S1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) ((hcond4_0 t).mpr h0) ((hcond4_1 t).mpr h1) (fun h => h2 ((hcond4_2 t).mp h)) (iblk4 V c 0 t) (iblk4 V c 1 t) )).trans (val4_A_S1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) ((hcond4_0 t).mpr h0) ((hcond4_1 t).mpr h1) (fun h => h2 ((hcond4_2 t).mp h)) (iblk4 V c 0 t) (iblk4 V c 1 t) )
              · unfold owns; iexists _; isplitr
                swap; · iexact HS2
                ipureintro; exact (View.read_writes_eq_canon _ _ _ (cov4_A_S2 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) ((hcond4_0 t).mpr h0) ((hcond4_1 t).mpr h1) (fun h => h2 ((hcond4_2 t).mp h)) (iblk4 V c 0 t) (iblk4 V c 1 t) )).trans (val4_A_S2 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) ((hcond4_0 t).mpr h0) ((hcond4_1 t).mpr h1) (fun h => h2 ((hcond4_2 t).mp h)) (iblk4 V c 0 t) (iblk4 V c 1 t) )
            · iexact Hr
          · iexact Hg
        isplitl [Ho]; · iexact Ho
        isplitl [H0]; · iexact H0
        isplitl [H1]; · iexact H1
        isplitl [H2]; · iexact H2
        isplitl [H3]; · iexact H3
        iexact H4
      · rw [Dat.leavesExact_idle (dat4 V c) 2 t (idleAt4_2 t (fun h => h2 ((hcond4_2 t).mp h))) (noFlush4_2 t (fun h => h2 ((hcond4_2 t).mp h)))]
        rw [Dat.leavesExact_idle (dat4 V c) 3 t (idleAt4_3 t (fun h => h2 ((hcond4_2 t).mp h))) (noFlush4_3 t (fun h => h2 ((hcond4_2 t).mp h)))]
        rw [Dat.leavesExact_idle (dat4 V c) 4 t (idleAt4_4 t (fun h => h2 ((hcond4_2 t).mp h))) (noFlush4_4 t (fun h => h2 ((hcond4_2 t).mp h)))]
        have hlt : t.val - 1 < cfg4.N := by omega
        rw [PhiS4_castSucc V c t, PhiS4_pos V c _ _ hz, st4_pos V c t hz hlt, step4_A _ h0 h1 h2]
        dsimp only
        iintro ⟨⟨⟨⟨HS0, HS1, HS2⟩, Hr⟩, Hg⟩, Ho, ⟨%d0, H0⟩, ⟨%d1, H1⟩, H2, H3, H4⟩
        iapply ((kernelRun4_A c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) ((hcond4_0 t).mpr h0) ((hcond4_1 t).mpr h1) (fun h => h2 ((hcond4_2 t).mp h)) (iblk4 V c 0 t) (iblk4 V c 1 t) ).2.2.2 Set.univ _)
        isplitl [H0]; · iexact H0
        isplitl [H1]; · iexact H1
        isplitl [HS0]; · iexists _; iexact HS0
        isplitl [HS1]; · iexists _; iexact HS1
        isplitl [HS2]; · iexists _; iexact HS2
        iintro ⟨H0, H1, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov4_A_S0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) ((hcond4_0 t).mpr h0) ((hcond4_1 t).mpr h1) (fun h => h2 ((hcond4_2 t).mp h)) (iblk4 V c 0 t) (iblk4 V c 1 t) )).trans (val4_A_S0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) ((hcond4_0 t).mpr h0) ((hcond4_1 t).mpr h1) (fun h => h2 ((hcond4_2 t).mp h)) (iblk4 V c 0 t) (iblk4 V c 1 t) )
              isplitl [HS1]
              · unfold owns; iexists _; isplitr
                swap; · iexact HS1
                ipureintro; exact (View.read_writes_eq_canon _ _ _ (cov4_A_S1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) ((hcond4_0 t).mpr h0) ((hcond4_1 t).mpr h1) (fun h => h2 ((hcond4_2 t).mp h)) (iblk4 V c 0 t) (iblk4 V c 1 t) )).trans (val4_A_S1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) ((hcond4_0 t).mpr h0) ((hcond4_1 t).mpr h1) (fun h => h2 ((hcond4_2 t).mp h)) (iblk4 V c 0 t) (iblk4 V c 1 t) )
              · unfold owns; iexists _; isplitr
                swap; · iexact HS2
                ipureintro; exact (View.read_writes_eq_canon _ _ _ (cov4_A_S2 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) ((hcond4_0 t).mpr h0) ((hcond4_1 t).mpr h1) (fun h => h2 ((hcond4_2 t).mp h)) (iblk4 V c 0 t) (iblk4 V c 1 t) )).trans (val4_A_S2 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) ((hcond4_0 t).mpr h0) ((hcond4_1 t).mpr h1) (fun h => h2 ((hcond4_2 t).mp h)) (iblk4 V c 0 t) (iblk4 V c 1 t) )
            · iexact Hr
          · iexact Hg
        isplitl [Ho]; · iexact Ho
        isplitl [H0]; · iexact H0
        isplitl [H1]; · iexact H1
        isplitl [H2]; · iexact H2
        isplitl [H3]; · iexact H3
        iexact H4
    · have hz : t.val ≠ 0 := by omega
      rw [Dat.leavesExact_idle (dat4 V c) 2 t (idleAt4_2 t (fun h => h2 ((hcond4_2 t).mp h))) (noFlush4_2 t (fun h => h2 ((hcond4_2 t).mp h)))]
      rw [Dat.leavesExact_idle (dat4 V c) 3 t (idleAt4_3 t (fun h => h2 ((hcond4_2 t).mp h))) (noFlush4_3 t (fun h => h2 ((hcond4_2 t).mp h)))]
      rw [Dat.leavesExact_idle (dat4 V c) 4 t (idleAt4_4 t (fun h => h2 ((hcond4_2 t).mp h))) (noFlush4_4 t (fun h => h2 ((hcond4_2 t).mp h)))]
      have hlt : t.val - 1 < cfg4.N := by omega
      rw [PhiS4_castSucc V c t, PhiS4_pos V c _ _ hz, st4_pos V c t hz hlt, step4_B _ h0 h1 h2]
      dsimp only
      iintro ⟨⟨⟨⟨HS0, HS1, HS2⟩, Hr⟩, Hg⟩, Ho, ⟨%d0, H0⟩, ⟨%d1, H1⟩, H2, H3, H4⟩
      iapply ((kernelRun4_B c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) ((hcond4_0 t).mpr h0) (fun h => h1 ((hcond4_1 t).mp h)) (fun h => h2 ((hcond4_2 t).mp h)) (iblk4 V c 0 t) (iblk4 V c 1 t) ).2 Set.univ _)
      isplitl [H0]; · iexact H0
      isplitl [H1]; · iexact H1
      isplitl [HS0]; · iexists _; iexact HS0
      iintro ⟨H0, H1, ⟨%eS0, HS0⟩⟩
      isplitl [HS0 HS1 HS2 Hr Hg]
      · isplitl [HS0 HS1 HS2 Hr]
        · isplitl [HS0 HS1 HS2]
          · isplitl [HS0]
            · unfold owns; iexists _; isplitr
              swap; · iexact HS0
              ipureintro; exact (View.read_writes_eq_canon _ _ _ (cov4_B_S0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) ((hcond4_0 t).mpr h0) (fun h => h1 ((hcond4_1 t).mp h)) (fun h => h2 ((hcond4_2 t).mp h)) (iblk4 V c 0 t) (iblk4 V c 1 t) )).trans (val4_B_S0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) ((hcond4_0 t).mpr h0) (fun h => h1 ((hcond4_1 t).mp h)) (fun h => h2 ((hcond4_2 t).mp h)) (iblk4 V c 0 t) (iblk4 V c 1 t) )
            isplitl [HS1]
            · iexact HS1
            · iexact HS2
          · iexact Hr
        · iexact Hg
      isplitl [Ho]; · iexact Ho
      isplitl [H0]; · iexact H0
      isplitl [H1]; · iexact H1
      isplitl [H2]; · iexact H2
      isplitl [H3]; · iexact H3
      iexact H4
  · have hz : t.val ≠ 0 := by omega
    by_cases h1 : t.val / 8 % 4 = 0
    · by_cases h2 : t.val % 8 = 7
      · rw [show (dat4 V c).leavesExact 2 t = owns (c : Thread nD τ) (ms4_2 t) fullShare ((dat4 V c).after 2 t) from by
          unfold Dat.leavesExact; rw [liveAt4_2 t ((hcond4_2 t).mpr h2)], after4_2]
        rw [show (dat4 V c).leavesExact 3 t = owns (c : Thread nD τ) (ms4_3 t) fullShare ((dat4 V c).after 3 t) from by
          unfold Dat.leavesExact; rw [liveAt4_3 t ((hcond4_2 t).mpr h2)], after4_3]
        rw [show (dat4 V c).leavesExact 4 t = owns (c : Thread nD τ) (ms4_4 t) fullShare ((dat4 V c).after 4 t) from by
          unfold Dat.leavesExact; rw [liveAt4_4 t ((hcond4_2 t).mpr h2)], after4_4]
        have hlt : t.val - 1 < cfg4.N := by omega
        rw [PhiS4_castSucc V c t, PhiS4_pos V c _ _ hz, st4_pos V c t hz hlt, step4_E _ h0 h1 h2]
        dsimp only
        iintro ⟨⟨⟨⟨HS0, HS1, HS2⟩, Hr⟩, Hg⟩, Ho, ⟨%d0, H0⟩, ⟨%d1, H1⟩, ⟨%d2, H2⟩, ⟨%d3, H3⟩, ⟨%d4, H4⟩⟩
        iapply ((kernelRun4_E c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) ((hcond4_2 t).mpr h2) (iblk4 V c 0 t) (iblk4 V c 1 t) (st4 V c (t.val - 1) hlt).acc).2.2.2.2.2.2 Set.univ _)
        isplitl [H0]; · iexact H0
        isplitl [H1]; · iexact H1
        isplitl [H2]; · iexists _; iexact H2
        isplitl [H3]; · iexists _; iexact H3
        isplitl [H4]; · iexists _; iexact H4
        isplitl [HS0]; · iexact HS0
        isplitl [HS1]; · iexists _; iexact HS1
        isplitl [HS2]; · iexists _; iexact HS2
        iintro ⟨H0, H1, ⟨%e2, H2⟩, ⟨%e3, H3⟩, ⟨%e4, H4⟩, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov4_E_S0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) ((hcond4_2 t).mpr h2) (iblk4 V c 0 t) (iblk4 V c 1 t) (st4 V c (t.val - 1) hlt).acc)).trans (val4_E_S0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) ((hcond4_2 t).mpr h2) (iblk4 V c 0 t) (iblk4 V c 1 t) (st4 V c (t.val - 1) hlt).acc)
              isplitl [HS1]
              · unfold owns; iexists _; isplitr
                swap; · iexact HS1
                ipureintro; exact (View.read_writes_eq_canon _ _ _ (cov4_E_S1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) ((hcond4_2 t).mpr h2) (iblk4 V c 0 t) (iblk4 V c 1 t) (st4 V c (t.val - 1) hlt).acc)).trans (val4_E_S1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) ((hcond4_2 t).mpr h2) (iblk4 V c 0 t) (iblk4 V c 1 t) (st4 V c (t.val - 1) hlt).acc)
              · unfold owns; iexists _; isplitr
                swap; · iexact HS2
                ipureintro; exact (View.read_writes_eq_canon _ _ _ (cov4_E_S2 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) ((hcond4_2 t).mpr h2) (iblk4 V c 0 t) (iblk4 V c 1 t) (st4 V c (t.val - 1) hlt).acc)).trans (val4_E_S2 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) ((hcond4_2 t).mpr h2) (iblk4 V c 0 t) (iblk4 V c 1 t) (st4 V c (t.val - 1) hlt).acc)
            · iexact Hr
          · iexact Hg
        isplitl [Ho]; · iexact Ho
        isplitl [H0]; · iexact H0
        isplitl [H1]; · iexact H1
        isplitl [H2]
        · unfold owns; iexists _; isplitr
          swap; · iexact H2
          ipureintro; exact (View.read_writes_eq_canon _ _ _ (cov4_E_2 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) ((hcond4_2 t).mpr h2) (iblk4 V c 0 t) (iblk4 V c 1 t) (st4 V c (t.val - 1) hlt).acc)).trans (val4_E_2 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) ((hcond4_2 t).mpr h2) (iblk4 V c 0 t) (iblk4 V c 1 t) (st4 V c (t.val - 1) hlt).acc)
        isplitl [H3]
        · unfold owns; iexists _; isplitr
          swap; · iexact H3
          ipureintro; exact (View.read_writes_eq_canon _ _ _ (cov4_E_3 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) ((hcond4_2 t).mpr h2) (iblk4 V c 0 t) (iblk4 V c 1 t) (st4 V c (t.val - 1) hlt).acc)).trans (val4_E_3 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) ((hcond4_2 t).mpr h2) (iblk4 V c 0 t) (iblk4 V c 1 t) (st4 V c (t.val - 1) hlt).acc)
        · unfold owns; iexists _; isplitr
          swap; · iexact H4
          ipureintro; exact (View.read_writes_eq_canon _ _ _ (cov4_E_4 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) ((hcond4_2 t).mpr h2) (iblk4 V c 0 t) (iblk4 V c 1 t) (st4 V c (t.val - 1) hlt).acc)).trans (val4_E_4 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) ((hcond4_2 t).mpr h2) (iblk4 V c 0 t) (iblk4 V c 1 t) (st4 V c (t.val - 1) hlt).acc)
      · rw [Dat.leavesExact_idle (dat4 V c) 2 t (idleAt4_2 t (fun h => h2 ((hcond4_2 t).mp h))) (noFlush4_2 t (fun h => h2 ((hcond4_2 t).mp h)))]
        rw [Dat.leavesExact_idle (dat4 V c) 3 t (idleAt4_3 t (fun h => h2 ((hcond4_2 t).mp h))) (noFlush4_3 t (fun h => h2 ((hcond4_2 t).mp h)))]
        rw [Dat.leavesExact_idle (dat4 V c) 4 t (idleAt4_4 t (fun h => h2 ((hcond4_2 t).mp h))) (noFlush4_4 t (fun h => h2 ((hcond4_2 t).mp h)))]
        have hlt : t.val - 1 < cfg4.N := by omega
        rw [PhiS4_castSucc V c t, PhiS4_pos V c _ _ hz, st4_pos V c t hz hlt, step4_C _ h0 h1 h2]
        dsimp only
        iintro ⟨⟨⟨⟨HS0, HS1, HS2⟩, Hr⟩, Hg⟩, Ho, ⟨%d0, H0⟩, ⟨%d1, H1⟩, H2, H3, H4⟩
        iapply ((kernelRun4_C c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) (fun h => h2 ((hcond4_2 t).mp h)) (iblk4 V c 0 t) (iblk4 V c 1 t) (st4 V c (t.val - 1) hlt).acc).2.2.2 Set.univ _)
        isplitl [H0]; · iexact H0
        isplitl [H1]; · iexact H1
        isplitl [HS0]; · iexact HS0
        isplitl [HS1]; · iexists _; iexact HS1
        isplitl [HS2]; · iexists _; iexact HS2
        iintro ⟨H0, H1, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov4_C_S0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) (fun h => h2 ((hcond4_2 t).mp h)) (iblk4 V c 0 t) (iblk4 V c 1 t) (st4 V c (t.val - 1) hlt).acc)).trans (val4_C_S0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) (fun h => h2 ((hcond4_2 t).mp h)) (iblk4 V c 0 t) (iblk4 V c 1 t) (st4 V c (t.val - 1) hlt).acc)
              isplitl [HS1]
              · unfold owns; iexists _; isplitr
                swap; · iexact HS1
                ipureintro; exact (View.read_writes_eq_canon _ _ _ (cov4_C_S1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) (fun h => h2 ((hcond4_2 t).mp h)) (iblk4 V c 0 t) (iblk4 V c 1 t) (st4 V c (t.val - 1) hlt).acc)).trans (val4_C_S1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) (fun h => h2 ((hcond4_2 t).mp h)) (iblk4 V c 0 t) (iblk4 V c 1 t) (st4 V c (t.val - 1) hlt).acc)
              · unfold owns; iexists _; isplitr
                swap; · iexact HS2
                ipureintro; exact (View.read_writes_eq_canon _ _ _ (cov4_C_S2 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) (fun h => h2 ((hcond4_2 t).mp h)) (iblk4 V c 0 t) (iblk4 V c 1 t) (st4 V c (t.val - 1) hlt).acc)).trans (val4_C_S2 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) (fun h => h2 ((hcond4_2 t).mp h)) (iblk4 V c 0 t) (iblk4 V c 1 t) (st4 V c (t.val - 1) hlt).acc)
            · iexact Hr
          · iexact Hg
        isplitl [Ho]; · iexact Ho
        isplitl [H0]; · iexact H0
        isplitl [H1]; · iexact H1
        isplitl [H2]; · iexact H2
        isplitl [H3]; · iexact H3
        iexact H4
    · by_cases h2 : t.val % 8 = 7
      · rw [show (dat4 V c).leavesExact 2 t = owns (c : Thread nD τ) (ms4_2 t) fullShare ((dat4 V c).after 2 t) from by
          unfold Dat.leavesExact; rw [liveAt4_2 t ((hcond4_2 t).mpr h2)], after4_2]
        rw [show (dat4 V c).leavesExact 3 t = owns (c : Thread nD τ) (ms4_3 t) fullShare ((dat4 V c).after 3 t) from by
          unfold Dat.leavesExact; rw [liveAt4_3 t ((hcond4_2 t).mpr h2)], after4_3]
        rw [show (dat4 V c).leavesExact 4 t = owns (c : Thread nD τ) (ms4_4 t) fullShare ((dat4 V c).after 4 t) from by
          unfold Dat.leavesExact; rw [liveAt4_4 t ((hcond4_2 t).mpr h2)], after4_4]
        have hlt : t.val - 1 < cfg4.N := by omega
        rw [PhiS4_castSucc V c t, PhiS4_pos V c _ _ hz, st4_pos V c t hz hlt, step4_F _ h0 h1 h2]
        dsimp only
        iintro ⟨⟨⟨⟨HS0, HS1, HS2⟩, Hr⟩, Hg⟩, Ho, ⟨%d0, H0⟩, ⟨%d1, H1⟩, ⟨%d2, H2⟩, ⟨%d3, H3⟩, ⟨%d4, H4⟩⟩
        iapply ((kernelRun4_F c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) (fun h => h1 ((hcond4_1 t).mp h)) ((hcond4_2 t).mpr h2) (iblk4 V c 0 t) (iblk4 V c 1 t) (st4 V c (t.val - 1) hlt).acc (st4 V c (t.val - 1) hlt).sum (st4 V c (t.val - 1) hlt).sq).2.2.2.2.2.2 Set.univ _)
        isplitl [H0]; · iexact H0
        isplitl [H1]; · iexact H1
        isplitl [H2]; · iexists _; iexact H2
        isplitl [H3]; · iexists _; iexact H3
        isplitl [H4]; · iexists _; iexact H4
        isplitl [HS0]; · iexact HS0
        isplitl [HS1]; · iexact HS1
        isplitl [HS2]; · iexact HS2
        iintro ⟨H0, H1, ⟨%e2, H2⟩, ⟨%e3, H3⟩, ⟨%e4, H4⟩, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov4_F_S0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) (fun h => h1 ((hcond4_1 t).mp h)) ((hcond4_2 t).mpr h2) (iblk4 V c 0 t) (iblk4 V c 1 t) (st4 V c (t.val - 1) hlt).acc (st4 V c (t.val - 1) hlt).sum (st4 V c (t.val - 1) hlt).sq)).trans (val4_F_S0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) (fun h => h1 ((hcond4_1 t).mp h)) ((hcond4_2 t).mpr h2) (iblk4 V c 0 t) (iblk4 V c 1 t) (st4 V c (t.val - 1) hlt).acc (st4 V c (t.val - 1) hlt).sum (st4 V c (t.val - 1) hlt).sq)
              isplitl [HS1]
              · unfold owns; iexists _; isplitr
                swap; · iexact HS1
                ipureintro; exact (View.read_writes_eq_canon _ _ _ (cov4_F_S1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) (fun h => h1 ((hcond4_1 t).mp h)) ((hcond4_2 t).mpr h2) (iblk4 V c 0 t) (iblk4 V c 1 t) (st4 V c (t.val - 1) hlt).acc (st4 V c (t.val - 1) hlt).sum (st4 V c (t.val - 1) hlt).sq)).trans (val4_F_S1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) (fun h => h1 ((hcond4_1 t).mp h)) ((hcond4_2 t).mpr h2) (iblk4 V c 0 t) (iblk4 V c 1 t) (st4 V c (t.val - 1) hlt).acc (st4 V c (t.val - 1) hlt).sum (st4 V c (t.val - 1) hlt).sq)
              · unfold owns; iexists _; isplitr
                swap; · iexact HS2
                ipureintro; exact (View.read_writes_eq_canon _ _ _ (cov4_F_S2 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) (fun h => h1 ((hcond4_1 t).mp h)) ((hcond4_2 t).mpr h2) (iblk4 V c 0 t) (iblk4 V c 1 t) (st4 V c (t.val - 1) hlt).acc (st4 V c (t.val - 1) hlt).sum (st4 V c (t.val - 1) hlt).sq)).trans (val4_F_S2 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) (fun h => h1 ((hcond4_1 t).mp h)) ((hcond4_2 t).mpr h2) (iblk4 V c 0 t) (iblk4 V c 1 t) (st4 V c (t.val - 1) hlt).acc (st4 V c (t.val - 1) hlt).sum (st4 V c (t.val - 1) hlt).sq)
            · iexact Hr
          · iexact Hg
        isplitl [Ho]; · iexact Ho
        isplitl [H0]; · iexact H0
        isplitl [H1]; · iexact H1
        isplitl [H2]
        · unfold owns; iexists _; isplitr
          swap; · iexact H2
          ipureintro; exact (View.read_writes_eq_canon _ _ _ (cov4_F_2 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) (fun h => h1 ((hcond4_1 t).mp h)) ((hcond4_2 t).mpr h2) (iblk4 V c 0 t) (iblk4 V c 1 t) (st4 V c (t.val - 1) hlt).acc (st4 V c (t.val - 1) hlt).sum (st4 V c (t.val - 1) hlt).sq)).trans (val4_F_2 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) (fun h => h1 ((hcond4_1 t).mp h)) ((hcond4_2 t).mpr h2) (iblk4 V c 0 t) (iblk4 V c 1 t) (st4 V c (t.val - 1) hlt).acc (st4 V c (t.val - 1) hlt).sum (st4 V c (t.val - 1) hlt).sq)
        isplitl [H3]
        · unfold owns; iexists _; isplitr
          swap; · iexact H3
          ipureintro; exact (View.read_writes_eq_canon _ _ _ (cov4_F_3 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) (fun h => h1 ((hcond4_1 t).mp h)) ((hcond4_2 t).mpr h2) (iblk4 V c 0 t) (iblk4 V c 1 t) (st4 V c (t.val - 1) hlt).acc (st4 V c (t.val - 1) hlt).sum (st4 V c (t.val - 1) hlt).sq)).trans (val4_F_3 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) (fun h => h1 ((hcond4_1 t).mp h)) ((hcond4_2 t).mpr h2) (iblk4 V c 0 t) (iblk4 V c 1 t) (st4 V c (t.val - 1) hlt).acc (st4 V c (t.val - 1) hlt).sum (st4 V c (t.val - 1) hlt).sq)
        · unfold owns; iexists _; isplitr
          swap; · iexact H4
          ipureintro; exact (View.read_writes_eq_canon _ _ _ (cov4_F_4 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) (fun h => h1 ((hcond4_1 t).mp h)) ((hcond4_2 t).mpr h2) (iblk4 V c 0 t) (iblk4 V c 1 t) (st4 V c (t.val - 1) hlt).acc (st4 V c (t.val - 1) hlt).sum (st4 V c (t.val - 1) hlt).sq)).trans (val4_F_4 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) (fun h => h1 ((hcond4_1 t).mp h)) ((hcond4_2 t).mpr h2) (iblk4 V c 0 t) (iblk4 V c 1 t) (st4 V c (t.val - 1) hlt).acc (st4 V c (t.val - 1) hlt).sum (st4 V c (t.val - 1) hlt).sq)
      · rw [Dat.leavesExact_idle (dat4 V c) 2 t (idleAt4_2 t (fun h => h2 ((hcond4_2 t).mp h))) (noFlush4_2 t (fun h => h2 ((hcond4_2 t).mp h)))]
        rw [Dat.leavesExact_idle (dat4 V c) 3 t (idleAt4_3 t (fun h => h2 ((hcond4_2 t).mp h))) (noFlush4_3 t (fun h => h2 ((hcond4_2 t).mp h)))]
        rw [Dat.leavesExact_idle (dat4 V c) 4 t (idleAt4_4 t (fun h => h2 ((hcond4_2 t).mp h))) (noFlush4_4 t (fun h => h2 ((hcond4_2 t).mp h)))]
        have hlt : t.val - 1 < cfg4.N := by omega
        rw [PhiS4_castSucc V c t, PhiS4_pos V c _ _ hz, st4_pos V c t hz hlt, step4_D _ h0 h1 h2]
        dsimp only
        iintro ⟨⟨⟨⟨HS0, HS1, HS2⟩, Hr⟩, Hg⟩, Ho, ⟨%d0, H0⟩, ⟨%d1, H1⟩, H2, H3, H4⟩
        iapply ((kernelRun4_D c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) (fun h => h1 ((hcond4_1 t).mp h)) (fun h => h2 ((hcond4_2 t).mp h)) (iblk4 V c 0 t) (iblk4 V c 1 t) (st4 V c (t.val - 1) hlt).acc).2 Set.univ _)
        isplitl [H0]; · iexact H0
        isplitl [H1]; · iexact H1
        isplitl [HS0]; · iexact HS0
        iintro ⟨H0, H1, ⟨%eS0, HS0⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov4_D_S0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) (fun h => h1 ((hcond4_1 t).mp h)) (fun h => h2 ((hcond4_2 t).mp h)) (iblk4 V c 0 t) (iblk4 V c 1 t) (st4 V c (t.val - 1) hlt).acc)).trans (val4_D_S0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) (fun h => h1 ((hcond4_1 t).mp h)) (fun h => h2 ((hcond4_2 t).mp h)) (iblk4 V c 0 t) (iblk4 V c 1 t) (st4 V c (t.val - 1) hlt).acc)
              isplitl [HS1]
              · iexact HS1
              · iexact HS2
            · iexact Hr
          · iexact Hg
        isplitl [Ho]; · iexact Ho
        isplitl [H0]; · iexact H0
        isplitl [H1]; · iexact H1
        isplitl [H2]; · iexact H2
        isplitl [H3]; · iexact H3
        iexact H4

theorem body_obligation4 (c : Dev nD) : BodyObligation (dat4 (F := F) V c) (defs₀ (F := F)) Variants.none () Set.univ := fun t => by
  rw [bigSep_W4, bigSep_W4]
  exact sound_body4 V c t

end

end Cert.KernelIdeal.Hand

end
-- ==== Proof.KI.R7Runs.lean ====
/-
  Matrix-product region 7: what its six control cases share — the three branch conditions in closed form over the grid
  (point n = 32 j + 8 i + k: the accumulator is reset at k = 0, the two running rows at i = 0, the statistics are taken at
  k = 7), where the three outputs are idle and when they are written back, and the memrefs the body is called with.
-/
import proofs.«157460_j63591285784858_2_alg».proof.Proof.KI.R7Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

abbrev cond7_0 (i : grid7.Coords) : Prop := (Scalar.cmpi .ne (Scalar.extui (Scalar.cmpi .eq (BitVec.ofNat 32 (i 2).val) 0#32)) 0#32) = 1#1
theorem hcond7_0 : ∀ t : Fin cfg7.N, cond7_0 (grid7.coords t) ↔ t.val % 8 = 0 :=
  (by decide +kernel : ∀ t : Fin grid7.N, cond7_0 (grid7.coords t) ↔ t.val % 8 = 0)
abbrev cond7_1 (i : grid7.Coords) : Prop := (Scalar.cmpi .ne (Scalar.extui (Scalar.cmpi .eq (BitVec.ofNat 32 (i 1).val) 0#32)) 0#32) = 1#1
theorem hcond7_1 : ∀ t : Fin cfg7.N, cond7_1 (grid7.coords t) ↔ t.val / 8 % 4 = 0 :=
  (by decide +kernel : ∀ t : Fin grid7.N, cond7_1 (grid7.coords t) ↔ t.val / 8 % 4 = 0)
abbrev cond7_2 (i : grid7.Coords) : Prop := k7_cond3 i = 1#1
theorem hcond7_2 : ∀ t : Fin cfg7.N, cond7_2 (grid7.coords t) ↔ t.val % 8 = 7 :=
  (by decide +kernel : ∀ t : Fin grid7.N, cond7_2 (grid7.coords t) ↔ t.val % 8 = 7)

/-! ## Idle points and write-backs of the three outputs -/

theorem liveAt7_0 : ∀ t : Fin cfg7.N, cfg7.idle 0 (grid7.coords t) = false := by decide +kernel
theorem liveAt7_1 : ∀ t : Fin cfg7.N, cfg7.idle 1 (grid7.coords t) = false := by decide +kernel
theorem idleAt7_2 : ∀ t : Fin cfg7.N, ¬cond7_2 (grid7.coords t) → cfg7.idle 2 (grid7.coords t) = true := by decide +kernel
theorem liveAt7_2 : ∀ t : Fin cfg7.N, cond7_2 (grid7.coords t) → cfg7.idle 2 (grid7.coords t) = false := by decide +kernel
theorem noFlush7_2 : ∀ t : Fin cfg7.N, ¬cond7_2 (grid7.coords t) → (cfg7.win 2).flush t = false := by decide +kernel
theorem idleAt7_3 : ∀ t : Fin cfg7.N, ¬cond7_2 (grid7.coords t) → cfg7.idle 3 (grid7.coords t) = true := by decide +kernel
theorem liveAt7_3 : ∀ t : Fin cfg7.N, cond7_2 (grid7.coords t) → cfg7.idle 3 (grid7.coords t) = false := by decide +kernel
theorem noFlush7_3 : ∀ t : Fin cfg7.N, ¬cond7_2 (grid7.coords t) → (cfg7.win 3).flush t = false := by decide +kernel
theorem idleAt7_4 : ∀ t : Fin cfg7.N, ¬cond7_2 (grid7.coords t) → cfg7.idle 4 (grid7.coords t) = true := by decide +kernel
theorem liveAt7_4 : ∀ t : Fin cfg7.N, cond7_2 (grid7.coords t) → cfg7.idle 4 (grid7.coords t) = false := by decide +kernel
theorem noFlush7_4 : ∀ t : Fin cfg7.N, ¬cond7_2 (grid7.coords t) → (cfg7.win 4).flush t = false := by decide +kernel

/-! ## The memrefs the body is called with -/

abbrev ms7_0 (t : Fin cfg7.N) : Memref sig .tc .vmem S1024x512 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1024x512 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1024x1024 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x1024 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x1024 .f32 := win7_4.stage (cfg7.slots t 4)
abbrev hs7_4 (t : Fin cfg7.N) : (ms7_4 t).IsWhole := hstage7_4 ((cfg7.slots t 4).cast nbuf7_4)
/-- Views through which contents are stated (any whole buffer of the shape serves). -/
abbrev VB7 : View sig .tc .vmem S1024x1024 .f32 := scM7_0.view
abbrev VR7 : View sig .tc .vmem S1x1024 .f32 := scM7_1.view

end Cert.KernelIdeal.Hand

end
-- ==== Proof.KI.R7RunA.lean ====
/-
  The whole body at the first point of an output column tile (k = 0, i = 0): the accumulator is cleared and receives
  the block product; the two running rows are cleared. Nothing read of what the scratch buffers held;
  Only the buffers the body stores into are mentioned; what each ends with is found by running the body: the pieces
  are the witness.
-/
import proofs.«157460_j63591285784858_2_alg».proof.Proof.KI.R7Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun7_A (c : Dev nD) (i : grid7.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : cond7_0 i) (hc1 : cond7_1 i) (hc2 : ¬cond7_2 i)
    (x0 : Vec F S1024x512 .bf16) (x1 : Vec F S1024x512 .bf16)  :
    Σ' (LS0 : List (View.Piece (Elt F) S1024x1024 .f32)) (LS1 : List (View.Piece (Elt F) S1x1024 .f32)), { LS2 : List (View.Piece (Elt F) S1x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc7__matmul_stats_kernel i arg3 harg3 arg4 harg4 arg5 harg5 arg6 harg6 arg7 harg7 arg8 harg8 arg9 harg9 arg10 harg10) K } := by
  refine ⟨?_, ?_, ?_, fun E K => ?run⟩
  case run =>
    simp only [cc7__matmul_stats_kernel_eq_skeleton]; unfold cc7__matmul_stats_kernel_skel
    unfold owns
    iintro ⟨⟨%f0, %hf0, H0⟩, ⟨%f1, %hf1, H1⟩, ⟨%dHS0, %fHS0, -, HS0⟩, ⟨%dHS1, %fHS1, -, HS1⟩, ⟨%dHS2, %fHS2, -, HS2⟩, Hk⟩
    obtain rfl := harg3.eq_unread hf0; obtain rfl := harg4.eq_unread hf1

    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [HS0]; · iexists _; iexact HS0
    isplitl [HS1]; · iexists _; iexact HS1
    iexists _; iexact HS2

end Cert.KernelIdeal.Hand

end
-- ==== Proof.KI.R7RunB.lean ====
/-
  The whole body at the first reduction step of a batch tile that is not the first (k = 0, i ≠ 0): the accumulator is
  cleared and receives the block product; the two running rows keep what the tile before left.
  Only the buffers the body stores into are mentioned; what each ends with is found by running the body: the pieces
  are the witness.
-/
import proofs.«157460_j63591285784858_2_alg».proof.Proof.KI.R7Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun7_B (c : Dev nD) (i : grid7.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : cond7_0 i) (hc1 : ¬cond7_1 i) (hc2 : ¬cond7_2 i)
    (x0 : Vec F S1024x512 .bf16) (x1 : Vec F S1024x512 .bf16)  :
    { LS0 : List (View.Piece (Elt F) S1024x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg8 fullShare d)
            ∗ (iprop(owns (c : Thread nD τ) arg3 fullShare x0 ∗ owns (c : Thread nD τ) arg4 fullShare x1
                ∗ (∃ f, arg8.view.loc (c : Thread nD τ) ↦[arg8.view.set]{fullShare} arg8.view.writes (Elt F) f LS0)) -∗ K ⟨⟩))
          ⊢ wp frame (wpE (defs₀ (F := F)) Variants.none c none) E (cc7__matmul_stats_kernel i arg3 harg3 arg4 harg4 arg5 harg5 arg6 harg6 arg7 harg7 arg8 harg8 arg9 harg9 arg10 harg10) K } := by
  refine ⟨?_, fun E K => ?run⟩
  case run =>
    simp only [cc7__matmul_stats_kernel_eq_skeleton]; unfold cc7__matmul_stats_kernel_skel
    unfold owns
    iintro ⟨⟨%f0, %hf0, H0⟩, ⟨%f1, %hf1, H1⟩, ⟨%dHS0, %fHS0, -, HS0⟩, Hk⟩
    obtain rfl := harg3.eq_unread hf0; obtain rfl := harg4.eq_unread hf1

    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.KernelIdeal.Hand

end
-- ==== Proof.KI.R7RunC.lean ====
/-
  The whole body at a middle reduction step of the first batch tile (0 < k < 3, i = 0): the accumulator found at what
  the step before left receives the block product; the two running rows are cleared; the three outputs are not
  touched.
  Only the buffers the body stores into are mentioned; what each ends with is found by running the body: the pieces
  are the witness.
-/
import proofs.«157460_j63591285784858_2_alg».proof.Proof.KI.R7Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun7_C (c : Dev nD) (i : grid7.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond7_0 i) (hc1 : cond7_1 i) (hc2 : ¬cond7_2 i)
    (x0 : Vec F S1024x512 .bf16) (x1 : Vec F S1024x512 .bf16) (xs0 : Vec F S1024x1024 .f32) :
    Σ' (LS0 : List (View.Piece (Elt F) S1024x1024 .f32)) (LS1 : List (View.Piece (Elt F) S1x1024 .f32)), { LS2 : List (View.Piece (Elt F) S1x1024 .f32) //
      ∀ (E : Set ℕ) (K : PUnit → sProp 𝕄),
        iprop(owns (c : Thread nD τ) arg3 fullShare x0 ∗ owns (c : Thread nD τ) arg4 fullShare x1
            ∗ owns (c : Thread nD τ) arg8 fullShare xs0 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc7__matmul_stats_kernel i arg3 harg3 arg4 harg4 arg5 harg5 arg6 harg6 arg7 harg7 arg8 harg8 arg9 harg9 arg10 harg10) K } := by
  refine ⟨?_, ?_, ?_, fun E K => ?run⟩
  case run =>
    simp only [cc7__matmul_stats_kernel_eq_skeleton]; unfold cc7__matmul_stats_kernel_skel
    unfold owns
    iintro ⟨⟨%f0, %hf0, H0⟩, ⟨%f1, %hf1, H1⟩, ⟨%fHS0, %hfHS0, HS0⟩, ⟨%dHS1, %fHS1, -, HS1⟩, ⟨%dHS2, %fHS2, -, HS2⟩, Hk⟩
    obtain rfl := harg3.eq_unread hf0; obtain rfl := harg4.eq_unread hf1
    obtain rfl := harg8.eq_unread hfHS0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [HS0]; · iexists _; iexact HS0
    isplitl [HS1]; · iexists _; iexact HS1
    iexists _; iexact HS2

end Cert.KernelIdeal.Hand

end
-- ==== Proof.KI.R7RunD.lean ====
/-
  The whole body at a middle reduction step of a batch tile that is not the first (0 < k < 3, i ≠ 0): the accumulator
  found at what the step before left receives the block product; the two running rows keep what the tile before left;

  Only the buffers the body stores into are mentioned; what each ends with is found by running the body: the pieces
  are the witness.
-/
import proofs.«157460_j63591285784858_2_alg».proof.Proof.KI.R7Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun7_D (c : Dev nD) (i : grid7.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond7_0 i) (hc1 : ¬cond7_1 i) (hc2 : ¬cond7_2 i)
    (x0 : Vec F S1024x512 .bf16) (x1 : Vec F S1024x512 .bf16) (xs0 : Vec F S1024x1024 .f32) :
    { LS0 : List (View.Piece (Elt F) S1024x1024 .f32) //
      ∀ (E : Set ℕ) (K : PUnit → sProp 𝕄),
        iprop(owns (c : Thread nD τ) arg3 fullShare x0 ∗ owns (c : Thread nD τ) arg4 fullShare x1
            ∗ owns (c : Thread nD τ) arg8 fullShare xs0
            ∗ (iprop(owns (c : Thread nD τ) arg3 fullShare x0 ∗ owns (c : Thread nD τ) arg4 fullShare x1
                ∗ (∃ f, arg8.view.loc (c : Thread nD τ) ↦[arg8.view.set]{fullShare} arg8.view.writes (Elt F) f LS0)) -∗ K ⟨⟩))
          ⊢ wp frame (wpE (defs₀ (F := F)) Variants.none c none) E (cc7__matmul_stats_kernel i arg3 harg3 arg4 harg4 arg5 harg5 arg6 harg6 arg7 harg7 arg8 harg8 arg9 harg9 arg10 harg10) K } := by
  refine ⟨?_, fun E K => ?run⟩
  case run =>
    simp only [cc7__matmul_stats_kernel_eq_skeleton]; unfold cc7__matmul_stats_kernel_skel
    unfold owns
    iintro ⟨⟨%f0, %hf0, H0⟩, ⟨%f1, %hf1, H1⟩, ⟨%fHS0, %hfHS0, HS0⟩, Hk⟩
    obtain rfl := harg3.eq_unread hf0; obtain rfl := harg4.eq_unread hf1
    obtain rfl := harg8.eq_unread hfHS0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.KernelIdeal.Hand

end
-- ==== Proof.KI.R7RunE.lean ====
/-
  The whole body at the last reduction step of the first batch tile (k = 3, i = 0): the accumulator found at what the
  step before left receives the block product and is copied to the product's output block; the two running rows are
  cleared and receive its column sums and column sums of squares; the mean and the clamped variance are written from
  them.
  Only the buffers the body stores into are mentioned; what each ends with is found by running the body: the pieces
  are the witness.
-/
import proofs.«157460_j63591285784858_2_alg».proof.Proof.KI.R7Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun7_E (c : Dev nD) (i : grid7.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond7_0 i) (hc1 : cond7_1 i) (hc2 : cond7_2 i)
    (x0 : Vec F S1024x512 .bf16) (x1 : Vec F S1024x512 .bf16) (xs0 : Vec F S1024x1024 .f32) :
    Σ' (L2 : List (View.Piece (Elt F) S1024x1024 .f32)) (L3 : List (View.Piece (Elt F) S1x1024 .f32)) (L4 : List (View.Piece (Elt F) S1x1024 .f32)) (LS0 : List (View.Piece (Elt F) S1024x1024 .f32)) (LS1 : List (View.Piece (Elt F) S1x1024 .f32)), { LS2 : List (View.Piece (Elt F) S1x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc7__matmul_stats_kernel i arg3 harg3 arg4 harg4 arg5 harg5 arg6 harg6 arg7 harg7 arg8 harg8 arg9 harg9 arg10 harg10) K } := by
  refine ⟨?_, ?_, ?_, ?_, ?_, ?_, fun E K => ?run⟩
  case run =>
    simp only [cc7__matmul_stats_kernel_eq_skeleton]; unfold cc7__matmul_stats_kernel_skel
    unfold owns
    iintro ⟨⟨%f0, %hf0, H0⟩, ⟨%f1, %hf1, H1⟩, ⟨%dH2, %fH2, -, H2⟩, ⟨%dH3, %fH3, -, H3⟩, ⟨%dH4, %fH4, -, H4⟩, ⟨%fHS0, %hfHS0, HS0⟩, ⟨%dHS1, %fHS1, -, HS1⟩, ⟨%dHS2, %fHS2, -, HS2⟩, Hk⟩
    obtain rfl := harg3.eq_unread hf0; obtain rfl := harg4.eq_unread hf1
    obtain rfl := harg8.eq_unread hfHS0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    iexists _; iexact HS2

end Cert.KernelIdeal.Hand

end
-- ==== Proof.KI.R7RunF.lean ====
/-
  The whole body at the last reduction step of a batch tile that is not the first (k = last, i ≠ 0): the accumulator
  found at what the step before left receives the block product and is copied to the product's output block; its column
  sums and column sums of squares are added into the two running rows found at what the tile before left; the mean and
  the clamped variance are written from them.
  Only the buffers the body stores into are mentioned; what each ends with is found by running the body: the pieces
  are the witness.
-/
import proofs.«157460_j63591285784858_2_alg».proof.Proof.KI.R7Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun7_F (c : Dev nD) (i : grid7.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond7_0 i) (hc1 : ¬cond7_1 i) (hc2 : cond7_2 i)
    (x0 : Vec F S1024x512 .bf16) (x1 : Vec F S1024x512 .bf16) (xs0 : Vec F S1024x1024 .f32) (xs1 : Vec F S1x1024 .f32) (xs2 : Vec F S1x1024 .f32) :
    Σ' (L2 : List (View.Piece (Elt F) S1024x1024 .f32)) (L3 : List (View.Piece (Elt F) S1x1024 .f32)) (L4 : List (View.Piece (Elt F) S1x1024 .f32)) (LS0 : List (View.Piece (Elt F) S1024x1024 .f32)) (LS1 : List (View.Piece (Elt F) S1x1024 .f32)), { LS2 : List (View.Piece (Elt F) S1x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc7__matmul_stats_kernel i arg3 harg3 arg4 harg4 arg5 harg5 arg6 harg6 arg7 harg7 arg8 harg8 arg9 harg9 arg10 harg10) K } := by
  refine ⟨?_, ?_, ?_, ?_, ?_, ?_, fun E K => ?run⟩
  case run =>
    simp only [cc7__matmul_stats_kernel_eq_skeleton]; unfold cc7__matmul_stats_kernel_skel
    unfold owns
    iintro ⟨⟨%f0, %hf0, H0⟩, ⟨%f1, %hf1, H1⟩, ⟨%dH2, %fH2, -, H2⟩, ⟨%dH3, %fH3, -, H3⟩, ⟨%dH4, %fH4, -, H4⟩, ⟨%fHS0, %hfHS0, HS0⟩, ⟨%fHS1, %hfHS1, HS1⟩, ⟨%fHS2, %hfHS2, HS2⟩, Hk⟩
    obtain rfl := harg3.eq_unread hf0; obtain rfl := harg4.eq_unread hf1
    obtain rfl := harg8.eq_unread hfHS0; obtain rfl := harg9.eq_unread hfHS1; obtain rfl := harg10.eq_unread hfHS2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    iexists _; iexact HS2

end Cert.KernelIdeal.Hand

end
-- ==== Proof.KI.R7Body.lean ====
/-
  Matrix-product region 7: the body obligation. At every grid point the point's control case is read off the
  closed forms of the three branch conditions; the case's whole-body run applies, the invariant handing it the scratch
  buffers at the state the point before left (at anything at the first point) and taking them back at this point's
  state; each stored buffer's found pieces read back as the payload the closed-form state names (one covering store,
  or a store after a clearing store), so the proof data's statements hold; an output the case does not store is handed
  back as it was found.
-/
import proofs.«157460_j63591285784858_2_alg».proof.Proof.KI.R7RunA
import proofs.«157460_j63591285784858_2_alg».proof.Proof.KI.R7RunB
import proofs.«157460_j63591285784858_2_alg».proof.Proof.KI.R7RunC
import proofs.«157460_j63591285784858_2_alg».proof.Proof.KI.R7RunD
import proofs.«157460_j63591285784858_2_alg».proof.Proof.KI.R7RunE
import proofs.«157460_j63591285784858_2_alg».proof.Proof.KI.R7RunF
import proofs.«157460_j63591285784858_2_alg».proof.Proof.LibUnitPieces
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert

/-! ## What each case's stored buffers end with -/

/-! ### Case A -/

section
variable (c : Dev nD) (i : grid7.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : cond7_0 i) (hc1 : cond7_1 i) (hc2 : ¬cond7_2 i)
    (x0 : Vec F S1024x512 .bf16) (x1 : Vec F S1024x512 .bf16)

theorem cov7_A_S0 (y : S1024x1024.Idx) : ∃ pc ∈ (kernelRun7_A c i arg3 harg3 arg4 harg4 arg5 harg5 arg6 harg6 arg7 harg7 arg8 harg8 arg9 harg9 arg10 harg10 hc0 hc1 hc2 x0 x1 ).1, y ∈ pc.1.set :=
  View.cover_of_tiledL _ S1024x1024.size (by sl_kernel_rfl) y
theorem val7_A_S0 : View.canon (kernelRun7_A c i arg3 harg3 arg4 harg4 arg5 harg5 arg6 harg6 arg7 harg7 arg8 harg8 arg9 harg9 arg10 harg10 hc0 hc1 hc2 x0 x1 ).1 = (k7_pay2 x0 k7_pay1 x1) := by
  unfold kernelRun7_A
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov7_A_S1 (y : S1x1024.Idx) : ∃ pc ∈ (kernelRun7_A c i arg3 harg3 arg4 harg4 arg5 harg5 arg6 harg6 arg7 harg7 arg8 harg8 arg9 harg9 arg10 harg10 hc0 hc1 hc2 x0 x1 ).2.1, y ∈ pc.1.set :=
  View.cover_of_tiledL _ S1x1024.size (by sl_kernel_rfl) y
theorem val7_A_S1 : View.canon (kernelRun7_A c i arg3 harg3 arg4 harg4 arg5 harg5 arg6 harg6 arg7 harg7 arg8 harg8 arg9 harg9 arg10 harg10 hc0 hc1 hc2 x0 x1 ).2.1 = k7_pay3 := by
  unfold kernelRun7_A
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov7_A_S2 (y : S1x1024.Idx) : ∃ pc ∈ (kernelRun7_A c i arg3 harg3 arg4 harg4 arg5 harg5 arg6 harg6 arg7 harg7 arg8 harg8 arg9 harg9 arg10 harg10 hc0 hc1 hc2 x0 x1 ).2.2.1, y ∈ pc.1.set :=
  View.cover_of_tiledL _ S1x1024.size (by sl_kernel_rfl) y
theorem val7_A_S2 : View.canon (kernelRun7_A c i arg3 harg3 arg4 harg4 arg5 harg5 arg6 harg6 arg7 harg7 arg8 harg8 arg9 harg9 arg10 harg10 hc0 hc1 hc2 x0 x1 ).2.2.1 = k7_pay4 := by
  unfold kernelRun7_A
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case B -/

section
variable (c : Dev nD) (i : grid7.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : cond7_0 i) (hc1 : ¬cond7_1 i) (hc2 : ¬cond7_2 i)
    (x0 : Vec F S1024x512 .bf16) (x1 : Vec F S1024x512 .bf16)

theorem cov7_B_S0 (y : S1024x1024.Idx) : ∃ pc ∈ (kernelRun7_B c i arg3 harg3 arg4 harg4 arg5 harg5 arg6 harg6 arg7 harg7 arg8 harg8 arg9 harg9 arg10 harg10 hc0 hc1 hc2 x0 x1 ).1, y ∈ pc.1.set :=
  View.cover_of_tiledL _ S1024x1024.size (by sl_kernel_rfl) y
theorem val7_B_S0 : View.canon (kernelRun7_B c i arg3 harg3 arg4 harg4 arg5 harg5 arg6 harg6 arg7 harg7 arg8 harg8 arg9 harg9 arg10 harg10 hc0 hc1 hc2 x0 x1 ).1 = (k7_pay2 x0 k7_pay1 x1) := by
  unfold kernelRun7_B
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case C -/

section
variable (c : Dev nD) (i : grid7.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond7_0 i) (hc1 : cond7_1 i) (hc2 : ¬cond7_2 i)
    (x0 : Vec F S1024x512 .bf16) (x1 : Vec F S1024x512 .bf16) (xs0 : Vec F S1024x1024 .f32)

theorem cov7_C_S0 (y : S1024x1024.Idx) : ∃ pc ∈ (kernelRun7_C c i arg3 harg3 arg4 harg4 arg5 harg5 arg6 harg6 arg7 harg7 arg8 harg8 arg9 harg9 arg10 harg10 hc0 hc1 hc2 x0 x1 xs0).1, y ∈ pc.1.set :=
  View.cover_of_tiledL _ S1024x1024.size (by sl_kernel_rfl) y
theorem val7_C_S0 : View.canon (kernelRun7_C c i arg3 harg3 arg4 harg4 arg5 harg5 arg6 harg6 arg7 harg7 arg8 harg8 arg9 harg9 arg10 harg10 hc0 hc1 hc2 x0 x1 xs0).1 = (k7_pay2 x0 xs0 x1) := by
  unfold kernelRun7_C
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov7_C_S1 (y : S1x1024.Idx) : ∃ pc ∈ (kernelRun7_C c i arg3 harg3 arg4 harg4 arg5 harg5 arg6 harg6 arg7 harg7 arg8 harg8 arg9 harg9 arg10 harg10 hc0 hc1 hc2 x0 x1 xs0).2.1, y ∈ pc.1.set :=
  View.cover_of_tiledL _ S1x1024.size (by sl_kernel_rfl) y
theorem val7_C_S1 : View.canon (kernelRun7_C c i arg3 harg3 arg4 harg4 arg5 harg5 arg6 harg6 arg7 harg7 arg8 harg8 arg9 harg9 arg10 harg10 hc0 hc1 hc2 x0 x1 xs0).2.1 = k7_pay3 := by
  unfold kernelRun7_C
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov7_C_S2 (y : S1x1024.Idx) : ∃ pc ∈ (kernelRun7_C c i arg3 harg3 arg4 harg4 arg5 harg5 arg6 harg6 arg7 harg7 arg8 harg8 arg9 harg9 arg10 harg10 hc0 hc1 hc2 x0 x1 xs0).2.2.1, y ∈ pc.1.set :=
  View.cover_of_tiledL _ S1x1024.size (by sl_kernel_rfl) y
theorem val7_C_S2 : View.canon (kernelRun7_C c i arg3 harg3 arg4 harg4 arg5 harg5 arg6 harg6 arg7 harg7 arg8 harg8 arg9 harg9 arg10 harg10 hc0 hc1 hc2 x0 x1 xs0).2.2.1 = k7_pay4 := by
  unfold kernelRun7_C
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case D -/

section
variable (c : Dev nD) (i : grid7.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond7_0 i) (hc1 : ¬cond7_1 i) (hc2 : ¬cond7_2 i)
    (x0 : Vec F S1024x512 .bf16) (x1 : Vec F S1024x512 .bf16) (xs0 : Vec F S1024x1024 .f32)

theorem cov7_D_S0 (y : S1024x1024.Idx) : ∃ pc ∈ (kernelRun7_D c i arg3 harg3 arg4 harg4 arg5 harg5 arg6 harg6 arg7 harg7 arg8 harg8 arg9 harg9 arg10 harg10 hc0 hc1 hc2 x0 x1 xs0).1, y ∈ pc.1.set :=
  View.cover_of_tiledL _ S1024x1024.size (by sl_kernel_rfl) y
theorem val7_D_S0 : View.canon (kernelRun7_D c i arg3 harg3 arg4 harg4 arg5 harg5 arg6 harg6 arg7 harg7 arg8 harg8 arg9 harg9 arg10 harg10 hc0 hc1 hc2 x0 x1 xs0).1 = (k7_pay2 x0 xs0 x1) := by
  unfold kernelRun7_D
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case E -/

section
variable (c : Dev nD) (i : grid7.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond7_0 i) (hc1 : cond7_1 i) (hc2 : cond7_2 i)
    (x0 : Vec F S1024x512 .bf16) (x1 : Vec F S1024x512 .bf16) (xs0 : Vec F S1024x1024 .f32)

theorem cov7_E_2 (y : S1024x1024.Idx) : ∃ pc ∈ (kernelRun7_E c i arg3 harg3 arg4 harg4 arg5 harg5 arg6 harg6 arg7 harg7 arg8 harg8 arg9 harg9 arg10 harg10 hc0 hc1 hc2 x0 x1 xs0).1, y ∈ pc.1.set :=
  View.cover_of_tiledL _ S1024x1024.size (by sl_kernel_rfl) y
theorem val7_E_2 : View.canon (kernelRun7_E c i arg3 harg3 arg4 harg4 arg5 harg5 arg6 harg6 arg7 harg7 arg8 harg8 arg9 harg9 arg10 harg10 hc0 hc1 hc2 x0 x1 xs0).1 = (k7_pay2 x0 xs0 x1) := by
  unfold kernelRun7_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov7_E_3 (y : S1x1024.Idx) : ∃ pc ∈ (kernelRun7_E c i arg3 harg3 arg4 harg4 arg5 harg5 arg6 harg6 arg7 harg7 arg8 harg8 arg9 harg9 arg10 harg10 hc0 hc1 hc2 x0 x1 xs0).2.1, y ∈ pc.1.set :=
  View.cover_of_tiledL _ S1x1024.size (by sl_kernel_rfl) y
theorem val7_E_3 : View.canon (kernelRun7_E c i arg3 harg3 arg4 harg4 arg5 harg5 arg6 harg6 arg7 harg7 arg8 harg8 arg9 harg9 arg10 harg10 hc0 hc1 hc2 x0 x1 xs0).2.1 = (k7_pay7 (k7_pay5 (k7_pay2 x0 xs0 x1) k7_pay3)) := by
  unfold kernelRun7_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov7_E_4 (y : S1x1024.Idx) : ∃ pc ∈ (kernelRun7_E c i arg3 harg3 arg4 harg4 arg5 harg5 arg6 harg6 arg7 harg7 arg8 harg8 arg9 harg9 arg10 harg10 hc0 hc1 hc2 x0 x1 xs0).2.2.1, y ∈ pc.1.set :=
  View.cover_of_tiledL _ S1x1024.size (by sl_kernel_rfl) y
theorem val7_E_4 : View.canon (kernelRun7_E c i arg3 harg3 arg4 harg4 arg5 harg5 arg6 harg6 arg7 harg7 arg8 harg8 arg9 harg9 arg10 harg10 hc0 hc1 hc2 x0 x1 xs0).2.2.1 = (k7_pay8 (k7_pay5 (k7_pay2 x0 xs0 x1) k7_pay3) (k7_pay6 (k7_pay2 x0 xs0 x1) k7_pay4)) := by
  unfold kernelRun7_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov7_E_S0 (y : S1024x1024.Idx) : ∃ pc ∈ (kernelRun7_E c i arg3 harg3 arg4 harg4 arg5 harg5 arg6 harg6 arg7 harg7 arg8 harg8 arg9 harg9 arg10 harg10 hc0 hc1 hc2 x0 x1 xs0).2.2.2.1, y ∈ pc.1.set :=
  View.cover_of_tiledL _ S1024x1024.size (by sl_kernel_rfl) y
theorem val7_E_S0 : View.canon (kernelRun7_E c i arg3 harg3 arg4 harg4 arg5 harg5 arg6 harg6 arg7 harg7 arg8 harg8 arg9 harg9 arg10 harg10 hc0 hc1 hc2 x0 x1 xs0).2.2.2.1 = (k7_pay2 x0 xs0 x1) := by
  unfold kernelRun7_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov7_E_S1 (y : S1x1024.Idx) : ∃ pc ∈ (kernelRun7_E c i arg3 harg3 arg4 harg4 arg5 harg5 arg6 harg6 arg7 harg7 arg8 harg8 arg9 harg9 arg10 harg10 hc0 hc1 hc2 x0 x1 xs0).2.2.2.2.1, y ∈ pc.1.set :=
  View.cover_of_tiledL _ S1x1024.size (by sl_kernel_rfl) y
theorem val7_E_S1 : View.canon (kernelRun7_E c i arg3 harg3 arg4 harg4 arg5 harg5 arg6 harg6 arg7 harg7 arg8 harg8 arg9 harg9 arg10 harg10 hc0 hc1 hc2 x0 x1 xs0).2.2.2.2.1 = (k7_pay5 (k7_pay2 x0 xs0 x1) k7_pay3) := by
  unfold kernelRun7_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov7_E_S2 (y : S1x1024.Idx) : ∃ pc ∈ (kernelRun7_E c i arg3 harg3 arg4 harg4 arg5 harg5 arg6 harg6 arg7 harg7 arg8 harg8 arg9 harg9 arg10 harg10 hc0 hc1 hc2 x0 x1 xs0).2.2.2.2.2.1, y ∈ pc.1.set :=
  View.cover_of_tiledL _ S1x1024.size (by sl_kernel_rfl) y
theorem val7_E_S2 : View.canon (kernelRun7_E c i arg3 harg3 arg4 harg4 arg5 harg5 arg6 harg6 arg7 harg7 arg8 harg8 arg9 harg9 arg10 harg10 hc0 hc1 hc2 x0 x1 xs0).2.2.2.2.2.1 = (k7_pay6 (k7_pay2 x0 xs0 x1) k7_pay4) := by
  unfold kernelRun7_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case F -/

section
variable (c : Dev nD) (i : grid7.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond7_0 i) (hc1 : ¬cond7_1 i) (hc2 : cond7_2 i)
    (x0 : Vec F S1024x512 .bf16) (x1 : Vec F S1024x512 .bf16) (xs0 : Vec F S1024x1024 .f32) (xs1 : Vec F S1x1024 .f32) (xs2 : Vec F S1x1024 .f32)

theorem cov7_F_2 (y : S1024x1024.Idx) : ∃ pc ∈ (kernelRun7_F c i arg3 harg3 arg4 harg4 arg5 harg5 arg6 harg6 arg7 harg7 arg8 harg8 arg9 harg9 arg10 harg10 hc0 hc1 hc2 x0 x1 xs0 xs1 xs2).1, y ∈ pc.1.set :=
  View.cover_of_tiledL _ S1024x1024.size (by sl_kernel_rfl) y
theorem val7_F_2 : View.canon (kernelRun7_F c i arg3 harg3 arg4 harg4 arg5 harg5 arg6 harg6 arg7 harg7 arg8 harg8 arg9 harg9 arg10 harg10 hc0 hc1 hc2 x0 x1 xs0 xs1 xs2).1 = (k7_pay2 x0 xs0 x1) := by
  unfold kernelRun7_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov7_F_3 (y : S1x1024.Idx) : ∃ pc ∈ (kernelRun7_F c i arg3 harg3 arg4 harg4 arg5 harg5 arg6 harg6 arg7 harg7 arg8 harg8 arg9 harg9 arg10 harg10 hc0 hc1 hc2 x0 x1 xs0 xs1 xs2).2.1, y ∈ pc.1.set :=
  View.cover_of_tiledL _ S1x1024.size (by sl_kernel_rfl) y
theorem val7_F_3 : View.canon (kernelRun7_F c i arg3 harg3 arg4 harg4 arg5 harg5 arg6 harg6 arg7 harg7 arg8 harg8 arg9 harg9 arg10 harg10 hc0 hc1 hc2 x0 x1 xs0 xs1 xs2).2.1 = (k7_pay7 (k7_pay5 (k7_pay2 x0 xs0 x1) xs1)) := by
  unfold kernelRun7_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov7_F_4 (y : S1x1024.Idx) : ∃ pc ∈ (kernelRun7_F c i arg3 harg3 arg4 harg4 arg5 harg5 arg6 harg6 arg7 harg7 arg8 harg8 arg9 harg9 arg10 harg10 hc0 hc1 hc2 x0 x1 xs0 xs1 xs2).2.2.1, y ∈ pc.1.set :=
  View.cover_of_tiledL _ S1x1024.size (by sl_kernel_rfl) y
theorem val7_F_4 : View.canon (kernelRun7_F c i arg3 harg3 arg4 harg4 arg5 harg5 arg6 harg6 arg7 harg7 arg8 harg8 arg9 harg9 arg10 harg10 hc0 hc1 hc2 x0 x1 xs0 xs1 xs2).2.2.1 = (k7_pay8 (k7_pay5 (k7_pay2 x0 xs0 x1) xs1) (k7_pay6 (k7_pay2 x0 xs0 x1) xs2)) := by
  unfold kernelRun7_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov7_F_S0 (y : S1024x1024.Idx) : ∃ pc ∈ (kernelRun7_F c i arg3 harg3 arg4 harg4 arg5 harg5 arg6 harg6 arg7 harg7 arg8 harg8 arg9 harg9 arg10 harg10 hc0 hc1 hc2 x0 x1 xs0 xs1 xs2).2.2.2.1, y ∈ pc.1.set :=
  View.cover_of_tiledL _ S1024x1024.size (by sl_kernel_rfl) y
theorem val7_F_S0 : View.canon (kernelRun7_F c i arg3 harg3 arg4 harg4 arg5 harg5 arg6 harg6 arg7 harg7 arg8 harg8 arg9 harg9 arg10 harg10 hc0 hc1 hc2 x0 x1 xs0 xs1 xs2).2.2.2.1 = (k7_pay2 x0 xs0 x1) := by
  unfold kernelRun7_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov7_F_S1 (y : S1x1024.Idx) : ∃ pc ∈ (kernelRun7_F c i arg3 harg3 arg4 harg4 arg5 harg5 arg6 harg6 arg7 harg7 arg8 harg8 arg9 harg9 arg10 harg10 hc0 hc1 hc2 x0 x1 xs0 xs1 xs2).2.2.2.2.1, y ∈ pc.1.set :=
  View.cover_of_tiledL _ S1x1024.size (by sl_kernel_rfl) y
theorem val7_F_S1 : View.canon (kernelRun7_F c i arg3 harg3 arg4 harg4 arg5 harg5 arg6 harg6 arg7 harg7 arg8 harg8 arg9 harg9 arg10 harg10 hc0 hc1 hc2 x0 x1 xs0 xs1 xs2).2.2.2.2.1 = (k7_pay5 (k7_pay2 x0 xs0 x1) xs1) := by
  unfold kernelRun7_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov7_F_S2 (y : S1x1024.Idx) : ∃ pc ∈ (kernelRun7_F c i arg3 harg3 arg4 harg4 arg5 harg5 arg6 harg6 arg7 harg7 arg8 harg8 arg9 harg9 arg10 harg10 hc0 hc1 hc2 x0 x1 xs0 xs1 xs2).2.2.2.2.2.1, y ∈ pc.1.set :=
  View.cover_of_tiledL _ S1x1024.size (by sl_kernel_rfl) y
theorem val7_F_S2 : View.canon (kernelRun7_F c i arg3 harg3 arg4 harg4 arg5 harg5 arg6 harg6 arg7 harg7 arg8 harg8 arg9 harg9 arg10 harg10 hc0 hc1 hc2 x0 x1 xs0 xs1 xs2).2.2.2.2.2.1 = (k7_pay6 (k7_pay2 x0 xs0 x1) xs2) := by
  unfold kernelRun7_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ## One grid point of the closed-form state, case by case -/

theorem step7_A (n : ℕ) (h0 : n % 8 = 0) (h1 : n / 8 % 4 = 0) (h2 : ¬n % 8 = 7) (x0 : Vec F S1024x512 .bf16) (x1 : Vec F S1024x512 .bf16) (s : St7 F) :
    step7 n x0 x1 s = ⟨(k7_pay2 x0 k7_pay1 x1), k7_pay3, k7_pay4⟩ := by
  simp only [step7, if_pos h0, if_pos h1, if_neg h2]
theorem step7_B (n : ℕ) (h0 : n % 8 = 0) (h1 : ¬n / 8 % 4 = 0) (h2 : ¬n % 8 = 7) (x0 : Vec F S1024x512 .bf16) (x1 : Vec F S1024x512 .bf16) (s : St7 F) :
    step7 n x0 x1 s = ⟨(k7_pay2 x0 k7_pay1 x1), s.sum, s.sq⟩ := by
  simp only [step7, if_pos h0, if_neg h1, if_neg h2]
theorem step7_C (n : ℕ) (h0 : ¬n % 8 = 0) (h1 : n / 8 % 4 = 0) (h2 : ¬n % 8 = 7) (x0 : Vec F S1024x512 .bf16) (x1 : Vec F S1024x512 .bf16) (s : St7 F) :
    step7 n x0 x1 s = ⟨(k7_pay2 x0 s.acc x1), k7_pay3, k7_pay4⟩ := by
  simp only [step7, if_neg h0, if_pos h1, if_neg h2]
theorem step7_D (n : ℕ) (h0 : ¬n % 8 = 0) (h1 : ¬n / 8 % 4 = 0) (h2 : ¬n % 8 = 7) (x0 : Vec F S1024x512 .bf16) (x1 : Vec F S1024x512 .bf16) (s : St7 F) :
    step7 n x0 x1 s = ⟨(k7_pay2 x0 s.acc x1), s.sum, s.sq⟩ := by
  simp only [step7, if_neg h0, if_neg h1, if_neg h2]
theorem step7_E (n : ℕ) (h0 : ¬n % 8 = 0) (h1 : n / 8 % 4 = 0) (h2 : n % 8 = 7) (x0 : Vec F S1024x512 .bf16) (x1 : Vec F S1024x512 .bf16) (s : St7 F) :
    step7 n x0 x1 s = ⟨(k7_pay2 x0 s.acc x1), k7_pay5 (k7_pay2 x0 s.acc x1) k7_pay3, k7_pay6 (k7_pay2 x0 s.acc x1) k7_pay4⟩ := by
  simp only [step7, if_neg h0, if_pos h1, if_pos h2]
theorem step7_F (n : ℕ) (h0 : ¬n % 8 = 0) (h1 : ¬n / 8 % 4 = 0) (h2 : n % 8 = 7) (x0 : Vec F S1024x512 .bf16) (x1 : Vec F S1024x512 .bf16) (s : St7 F) :
    step7 n x0 x1 s = ⟨(k7_pay2 x0 s.acc x1), k7_pay5 (k7_pay2 x0 s.acc x1) s.sum, k7_pay6 (k7_pay2 x0 s.acc x1) s.sq⟩ := by
  simp only [step7, if_neg h0, if_neg h1, if_pos h2]

section
variable (V : (c : Dev nD) → (b : Ref sig .tc) → Buf (Elt F) ((c : Thread nD τ).loc b))

theorem st7_zero (c : Dev nD) (t : Fin cfg7.N) (hz : t.val = 0) :
    st7 V c t.val t.isLt = step7 0 (iblk7 V c 0 t) (iblk7 V c 1 t) ⟨k7_pay1, k7_pay3, k7_pay4⟩ := by
  obtain ⟨n, hn⟩ := t
  cases n with
  | zero => rfl
  | succ n => exact absurd hz (Nat.succ_ne_zero n)
theorem st7_pos (c : Dev nD) (t : Fin cfg7.N) (hz : t.val ≠ 0) (hlt : t.val - 1 < cfg7.N) :
    st7 V c t.val t.isLt = step7 t.val (iblk7 V c 0 t) (iblk7 V c 1 t) (st7 V c (t.val - 1) hlt) := by
  obtain ⟨n, hn⟩ := t
  cases n with
  | zero => exact absurd rfl hz
  | succ n => rfl

/-! ## The body obligation -/

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d)))

def bodyPost7 (c : Dev nD) (t : Fin cfg7.N) : sProp 𝕄 :=
  iprop((dat7 V c).Φ t.succ ∗ (dat7 V c).owesAt () t.succ
    ∗ (dat7 V c).leavesExact 0 t ∗ (dat7 V c).leavesExact 1 t
    ∗ (dat7 V c).leavesExact 2 t ∗ (dat7 V c).leavesExact 3 t ∗ (dat7 V c).leavesExact 4 t)

set_option maxHeartbeats 8000000 in
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  have hN : t.val < 128 := lt_of_lt_of_eq t.isLt (show cfg7.N = 128 from N_7)
  by_cases h0 : t.val % 8 = 0
  · have h2 : ¬t.val % 8 = 7 := by omega
    by_cases h1 : t.val / 8 % 4 = 0
    · by_cases hz : t.val = 0
      · rw [Dat.leavesExact_idle (dat7 V c) 2 t (idleAt7_2 t (fun h => h2 ((hcond7_2 t).mp h))) (noFlush7_2 t (fun h => h2 ((hcond7_2 t).mp h)))]
        rw [Dat.leavesExact_idle (dat7 V c) 3 t (idleAt7_3 t (fun h => h2 ((hcond7_2 t).mp h))) (noFlush7_3 t (fun h => h2 ((hcond7_2 t).mp h)))]
        rw [Dat.leavesExact_idle (dat7 V c) 4 t (idleAt7_4 t (fun h => h2 ((hcond7_2 t).mp h))) (noFlush7_4 t (fun h => h2 ((hcond7_2 t).mp h)))]
        rw [PhiS7_castSucc V c t, PhiS7_zero V c _ _ hz, PhiA7_eq, st7_zero V c t hz, step7_A _ (by omega) (by omega) (by omega)]
        dsimp only
        iintro ⟨⟨⟨⟨HS0, HS1, HS2⟩, Hr⟩, Hg⟩, Ho, ⟨%d0, H0⟩, ⟨%d1, H1⟩, H2, H3, H4⟩
        iapply ((kernelRun7_A c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) ((hcond7_0 t).mpr h0) ((hcond7_1 t).mpr h1) (fun h => h2 ((hcond7_2 t).mp h)) (iblk7 V c 0 t) (iblk7 V c 1 t) ).2.2.2 Set.univ _)
        isplitl [H0]; · iexact H0
        isplitl [H1]; · iexact H1
        isplitl [HS0]; · iexact HS0
        isplitl [HS1]; · iexact HS1
        isplitl [HS2]; · iexact HS2
        iintro ⟨H0, H1, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov7_A_S0 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) ((hcond7_0 t).mpr h0) ((hcond7_1 t).mpr h1) (fun h => h2 ((hcond7_2 t).mp h)) (iblk7 V c 0 t) (iblk7 V c 1 t) )).trans (val7_A_S0 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) ((hcond7_0 t).mpr h0) ((hcond7_1 t).mpr h1) (fun h => h2 ((hcond7_2 t).mp h)) (iblk7 V c 0 t) (iblk7 V c 1 t) )
              isplitl [HS1]
              · unfold owns; iexists _; isplitr
                swap; · iexact HS1
                ipureintro; exact (View.read_writes_eq_canon _ _ _ (cov7_A_S1 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) ((hcond7_0 t).mpr h0) ((hcond7_1 t).mpr h1) (fun h => h2 ((hcond7_2 t).mp h)) (iblk7 V c 0 t) (iblk7 V c 1 t) )).trans (val7_A_S1 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) ((hcond7_0 t).mpr h0) ((hcond7_1 t).mpr h1) (fun h => h2 ((hcond7_2 t).mp h)) (iblk7 V c 0 t) (iblk7 V c 1 t) )
              · unfold owns; iexists _; isplitr
                swap; · iexact HS2
                ipureintro; exact (View.read_writes_eq_canon _ _ _ (cov7_A_S2 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) ((hcond7_0 t).mpr h0) ((hcond7_1 t).mpr h1) (fun h => h2 ((hcond7_2 t).mp h)) (iblk7 V c 0 t) (iblk7 V c 1 t) )).trans (val7_A_S2 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) ((hcond7_0 t).mpr h0) ((hcond7_1 t).mpr h1) (fun h => h2 ((hcond7_2 t).mp h)) (iblk7 V c 0 t) (iblk7 V c 1 t) )
            · iexact Hr
          · iexact Hg
        isplitl [Ho]; · iexact Ho
        isplitl [H0]; · iexact H0
        isplitl [H1]; · iexact H1
        isplitl [H2]; · iexact H2
        isplitl [H3]; · iexact H3
        iexact H4
      · rw [Dat.leavesExact_idle (dat7 V c) 2 t (idleAt7_2 t (fun h => h2 ((hcond7_2 t).mp h))) (noFlush7_2 t (fun h => h2 ((hcond7_2 t).mp h)))]
        rw [Dat.leavesExact_idle (dat7 V c) 3 t (idleAt7_3 t (fun h => h2 ((hcond7_2 t).mp h))) (noFlush7_3 t (fun h => h2 ((hcond7_2 t).mp h)))]
        rw [Dat.leavesExact_idle (dat7 V c) 4 t (idleAt7_4 t (fun h => h2 ((hcond7_2 t).mp h))) (noFlush7_4 t (fun h => h2 ((hcond7_2 t).mp h)))]
        have hlt : t.val - 1 < cfg7.N := by omega
        rw [PhiS7_castSucc V c t, PhiS7_pos V c _ _ hz, st7_pos V c t hz hlt, step7_A _ h0 h1 h2]
        dsimp only
        iintro ⟨⟨⟨⟨HS0, HS1, HS2⟩, Hr⟩, Hg⟩, Ho, ⟨%d0, H0⟩, ⟨%d1, H1⟩, H2, H3, H4⟩
        iapply ((kernelRun7_A c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) ((hcond7_0 t).mpr h0) ((hcond7_1 t).mpr h1) (fun h => h2 ((hcond7_2 t).mp h)) (iblk7 V c 0 t) (iblk7 V c 1 t) ).2.2.2 Set.univ _)
        isplitl [H0]; · iexact H0
        isplitl [H1]; · iexact H1
        isplitl [HS0]; · iexists _; iexact HS0
        isplitl [HS1]; · iexists _; iexact HS1
        isplitl [HS2]; · iexists _; iexact HS2
        iintro ⟨H0, H1, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov7_A_S0 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) ((hcond7_0 t).mpr h0) ((hcond7_1 t).mpr h1) (fun h => h2 ((hcond7_2 t).mp h)) (iblk7 V c 0 t) (iblk7 V c 1 t) )).trans (val7_A_S0 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) ((hcond7_0 t).mpr h0) ((hcond7_1 t).mpr h1) (fun h => h2 ((hcond7_2 t).mp h)) (iblk7 V c 0 t) (iblk7 V c 1 t) )
              isplitl [HS1]
              · unfold owns; iexists _; isplitr
                swap; · iexact HS1
                ipureintro; exact (View.read_writes_eq_canon _ _ _ (cov7_A_S1 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) ((hcond7_0 t).mpr h0) ((hcond7_1 t).mpr h1) (fun h => h2 ((hcond7_2 t).mp h)) (iblk7 V c 0 t) (iblk7 V c 1 t) )).trans (val7_A_S1 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) ((hcond7_0 t).mpr h0) ((hcond7_1 t).mpr h1) (fun h => h2 ((hcond7_2 t).mp h)) (iblk7 V c 0 t) (iblk7 V c 1 t) )
              · unfold owns; iexists _; isplitr
                swap; · iexact HS2
                ipureintro; exact (View.read_writes_eq_canon _ _ _ (cov7_A_S2 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) ((hcond7_0 t).mpr h0) ((hcond7_1 t).mpr h1) (fun h => h2 ((hcond7_2 t).mp h)) (iblk7 V c 0 t) (iblk7 V c 1 t) )).trans (val7_A_S2 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) ((hcond7_0 t).mpr h0) ((hcond7_1 t).mpr h1) (fun h => h2 ((hcond7_2 t).mp h)) (iblk7 V c 0 t) (iblk7 V c 1 t) )
            · iexact Hr
          · iexact Hg
        isplitl [Ho]; · iexact Ho
        isplitl [H0]; · iexact H0
        isplitl [H1]; · iexact H1
        isplitl [H2]; · iexact H2
        isplitl [H3]; · iexact H3
        iexact H4
    · have hz : t.val ≠ 0 := by omega
      rw [Dat.leavesExact_idle (dat7 V c) 2 t (idleAt7_2 t (fun h => h2 ((hcond7_2 t).mp h))) (noFlush7_2 t (fun h => h2 ((hcond7_2 t).mp h)))]
      rw [Dat.leavesExact_idle (dat7 V c) 3 t (idleAt7_3 t (fun h => h2 ((hcond7_2 t).mp h))) (noFlush7_3 t (fun h => h2 ((hcond7_2 t).mp h)))]
      rw [Dat.leavesExact_idle (dat7 V c) 4 t (idleAt7_4 t (fun h => h2 ((hcond7_2 t).mp h))) (noFlush7_4 t (fun h => h2 ((hcond7_2 t).mp h)))]
      have hlt : t.val - 1 < cfg7.N := by omega
      rw [PhiS7_castSucc V c t, PhiS7_pos V c _ _ hz, st7_pos V c t hz hlt, step7_B _ h0 h1 h2]
      dsimp only
      iintro ⟨⟨⟨⟨HS0, HS1, HS2⟩, Hr⟩, Hg⟩, Ho, ⟨%d0, H0⟩, ⟨%d1, H1⟩, H2, H3, H4⟩
      iapply ((kernelRun7_B c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) ((hcond7_0 t).mpr h0) (fun h => h1 ((hcond7_1 t).mp h)) (fun h => h2 ((hcond7_2 t).mp h)) (iblk7 V c 0 t) (iblk7 V c 1 t) ).2 Set.univ _)
      isplitl [H0]; · iexact H0
      isplitl [H1]; · iexact H1
      isplitl [HS0]; · iexists _; iexact HS0
      iintro ⟨H0, H1, ⟨%eS0, HS0⟩⟩
      isplitl [HS0 HS1 HS2 Hr Hg]
      · isplitl [HS0 HS1 HS2 Hr]
        · isplitl [HS0 HS1 HS2]
          · isplitl [HS0]
            · unfold owns; iexists _; isplitr
              swap; · iexact HS0
              ipureintro; exact (View.read_writes_eq_canon _ _ _ (cov7_B_S0 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) ((hcond7_0 t).mpr h0) (fun h => h1 ((hcond7_1 t).mp h)) (fun h => h2 ((hcond7_2 t).mp h)) (iblk7 V c 0 t) (iblk7 V c 1 t) )).trans (val7_B_S0 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) ((hcond7_0 t).mpr h0) (fun h => h1 ((hcond7_1 t).mp h)) (fun h => h2 ((hcond7_2 t).mp h)) (iblk7 V c 0 t) (iblk7 V c 1 t) )
            isplitl [HS1]
            · iexact HS1
            · iexact HS2
          · iexact Hr
        · iexact Hg
      isplitl [Ho]; · iexact Ho
      isplitl [H0]; · iexact H0
      isplitl [H1]; · iexact H1
      isplitl [H2]; · iexact H2
      isplitl [H3]; · iexact H3
      iexact H4
  · have hz : t.val ≠ 0 := by omega
    by_cases h1 : t.val / 8 % 4 = 0
    · by_cases h2 : t.val % 8 = 7
      · rw [show (dat7 V c).leavesExact 2 t = owns (c : Thread nD τ) (ms7_2 t) fullShare ((dat7 V c).after 2 t) from by
          unfold Dat.leavesExact; rw [liveAt7_2 t ((hcond7_2 t).mpr h2)], after7_2]
        rw [show (dat7 V c).leavesExact 3 t = owns (c : Thread nD τ) (ms7_3 t) fullShare ((dat7 V c).after 3 t) from by
          unfold Dat.leavesExact; rw [liveAt7_3 t ((hcond7_2 t).mpr h2)], after7_3]
        rw [show (dat7 V c).leavesExact 4 t = owns (c : Thread nD τ) (ms7_4 t) fullShare ((dat7 V c).after 4 t) from by
          unfold Dat.leavesExact; rw [liveAt7_4 t ((hcond7_2 t).mpr h2)], after7_4]
        have hlt : t.val - 1 < cfg7.N := by omega
        rw [PhiS7_castSucc V c t, PhiS7_pos V c _ _ hz, st7_pos V c t hz hlt, step7_E _ h0 h1 h2]
        dsimp only
        iintro ⟨⟨⟨⟨HS0, HS1, HS2⟩, Hr⟩, Hg⟩, Ho, ⟨%d0, H0⟩, ⟨%d1, H1⟩, ⟨%d2, H2⟩, ⟨%d3, H3⟩, ⟨%d4, H4⟩⟩
        iapply ((kernelRun7_E c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) ((hcond7_2 t).mpr h2) (iblk7 V c 0 t) (iblk7 V c 1 t) (st7 V c (t.val - 1) hlt).acc).2.2.2.2.2.2 Set.univ _)
        isplitl [H0]; · iexact H0
        isplitl [H1]; · iexact H1
        isplitl [H2]; · iexists _; iexact H2
        isplitl [H3]; · iexists _; iexact H3
        isplitl [H4]; · iexists _; iexact H4
        isplitl [HS0]; · iexact HS0
        isplitl [HS1]; · iexists _; iexact HS1
        isplitl [HS2]; · iexists _; iexact HS2
        iintro ⟨H0, H1, ⟨%e2, H2⟩, ⟨%e3, H3⟩, ⟨%e4, H4⟩, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov7_E_S0 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) ((hcond7_2 t).mpr h2) (iblk7 V c 0 t) (iblk7 V c 1 t) (st7 V c (t.val - 1) hlt).acc)).trans (val7_E_S0 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) ((hcond7_2 t).mpr h2) (iblk7 V c 0 t) (iblk7 V c 1 t) (st7 V c (t.val - 1) hlt).acc)
              isplitl [HS1]
              · unfold owns; iexists _; isplitr
                swap; · iexact HS1
                ipureintro; exact (View.read_writes_eq_canon _ _ _ (cov7_E_S1 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) ((hcond7_2 t).mpr h2) (iblk7 V c 0 t) (iblk7 V c 1 t) (st7 V c (t.val - 1) hlt).acc)).trans (val7_E_S1 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) ((hcond7_2 t).mpr h2) (iblk7 V c 0 t) (iblk7 V c 1 t) (st7 V c (t.val - 1) hlt).acc)
              · unfold owns; iexists _; isplitr
                swap; · iexact HS2
                ipureintro; exact (View.read_writes_eq_canon _ _ _ (cov7_E_S2 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) ((hcond7_2 t).mpr h2) (iblk7 V c 0 t) (iblk7 V c 1 t) (st7 V c (t.val - 1) hlt).acc)).trans (val7_E_S2 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) ((hcond7_2 t).mpr h2) (iblk7 V c 0 t) (iblk7 V c 1 t) (st7 V c (t.val - 1) hlt).acc)
            · iexact Hr
          · iexact Hg
        isplitl [Ho]; · iexact Ho
        isplitl [H0]; · iexact H0
        isplitl [H1]; · iexact H1
        isplitl [H2]
        · unfold owns; iexists _; isplitr
          swap; · iexact H2
          ipureintro; exact (View.read_writes_eq_canon _ _ _ (cov7_E_2 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) ((hcond7_2 t).mpr h2) (iblk7 V c 0 t) (iblk7 V c 1 t) (st7 V c (t.val - 1) hlt).acc)).trans (val7_E_2 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) ((hcond7_2 t).mpr h2) (iblk7 V c 0 t) (iblk7 V c 1 t) (st7 V c (t.val - 1) hlt).acc)
        isplitl [H3]
        · unfold owns; iexists _; isplitr
          swap; · iexact H3
          ipureintro; exact (View.read_writes_eq_canon _ _ _ (cov7_E_3 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) ((hcond7_2 t).mpr h2) (iblk7 V c 0 t) (iblk7 V c 1 t) (st7 V c (t.val - 1) hlt).acc)).trans (val7_E_3 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) ((hcond7_2 t).mpr h2) (iblk7 V c 0 t) (iblk7 V c 1 t) (st7 V c (t.val - 1) hlt).acc)
        · unfold owns; iexists _; isplitr
          swap; · iexact H4
          ipureintro; exact (View.read_writes_eq_canon _ _ _ (cov7_E_4 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) ((hcond7_2 t).mpr h2) (iblk7 V c 0 t) (iblk7 V c 1 t) (st7 V c (t.val - 1) hlt).acc)).trans (val7_E_4 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) ((hcond7_2 t).mpr h2) (iblk7 V c 0 t) (iblk7 V c 1 t) (st7 V c (t.val - 1) hlt).acc)
      · rw [Dat.leavesExact_idle (dat7 V c) 2 t (idleAt7_2 t (fun h => h2 ((hcond7_2 t).mp h))) (noFlush7_2 t (fun h => h2 ((hcond7_2 t).mp h)))]
        rw [Dat.leavesExact_idle (dat7 V c) 3 t (idleAt7_3 t (fun h => h2 ((hcond7_2 t).mp h))) (noFlush7_3 t (fun h => h2 ((hcond7_2 t).mp h)))]
        rw [Dat.leavesExact_idle (dat7 V c) 4 t (idleAt7_4 t (fun h => h2 ((hcond7_2 t).mp h))) (noFlush7_4 t (fun h => h2 ((hcond7_2 t).mp h)))]
        have hlt : t.val - 1 < cfg7.N := by omega
        rw [PhiS7_castSucc V c t, PhiS7_pos V c _ _ hz, st7_pos V c t hz hlt, step7_C _ h0 h1 h2]
        dsimp only
        iintro ⟨⟨⟨⟨HS0, HS1, HS2⟩, Hr⟩, Hg⟩, Ho, ⟨%d0, H0⟩, ⟨%d1, H1⟩, H2, H3, H4⟩
        iapply ((kernelRun7_C c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) (fun h => h2 ((hcond7_2 t).mp h)) (iblk7 V c 0 t) (iblk7 V c 1 t) (st7 V c (t.val - 1) hlt).acc).2.2.2 Set.univ _)
        isplitl [H0]; · iexact H0
        isplitl [H1]; · iexact H1
        isplitl [HS0]; · iexact HS0
        isplitl [HS1]; · iexists _; iexact HS1
        isplitl [HS2]; · iexists _; iexact HS2
        iintro ⟨H0, H1, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov7_C_S0 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) (fun h => h2 ((hcond7_2 t).mp h)) (iblk7 V c 0 t) (iblk7 V c 1 t) (st7 V c (t.val - 1) hlt).acc)).trans (val7_C_S0 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) (fun h => h2 ((hcond7_2 t).mp h)) (iblk7 V c 0 t) (iblk7 V c 1 t) (st7 V c (t.val - 1) hlt).acc)
              isplitl [HS1]
              · unfold owns; iexists _; isplitr
                swap; · iexact HS1
                ipureintro; exact (View.read_writes_eq_canon _ _ _ (cov7_C_S1 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) (fun h => h2 ((hcond7_2 t).mp h)) (iblk7 V c 0 t) (iblk7 V c 1 t) (st7 V c (t.val - 1) hlt).acc)).trans (val7_C_S1 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) (fun h => h2 ((hcond7_2 t).mp h)) (iblk7 V c 0 t) (iblk7 V c 1 t) (st7 V c (t.val - 1) hlt).acc)
              · unfold owns; iexists _; isplitr
                swap; · iexact HS2
                ipureintro; exact (View.read_writes_eq_canon _ _ _ (cov7_C_S2 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) (fun h => h2 ((hcond7_2 t).mp h)) (iblk7 V c 0 t) (iblk7 V c 1 t) (st7 V c (t.val - 1) hlt).acc)).trans (val7_C_S2 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) (fun h => h2 ((hcond7_2 t).mp h)) (iblk7 V c 0 t) (iblk7 V c 1 t) (st7 V c (t.val - 1) hlt).acc)
            · iexact Hr
          · iexact Hg
        isplitl [Ho]; · iexact Ho
        isplitl [H0]; · iexact H0
        isplitl [H1]; · iexact H1
        isplitl [H2]; · iexact H2
        isplitl [H3]; · iexact H3
        iexact H4
    · by_cases h2 : t.val % 8 = 7
      · rw [show (dat7 V c).leavesExact 2 t = owns (c : Thread nD τ) (ms7_2 t) fullShare ((dat7 V c).after 2 t) from by
          unfold Dat.leavesExact; rw [liveAt7_2 t ((hcond7_2 t).mpr h2)], after7_2]
        rw [show (dat7 V c).leavesExact 3 t = owns (c : Thread nD τ) (ms7_3 t) fullShare ((dat7 V c).after 3 t) from by
          unfold Dat.leavesExact; rw [liveAt7_3 t ((hcond7_2 t).mpr h2)], after7_3]
        rw [show (dat7 V c).leavesExact 4 t = owns (c : Thread nD τ) (ms7_4 t) fullShare ((dat7 V c).after 4 t) from by
          unfold Dat.leavesExact; rw [liveAt7_4 t ((hcond7_2 t).mpr h2)], after7_4]
        have hlt : t.val - 1 < cfg7.N := by omega
        rw [PhiS7_castSucc V c t, PhiS7_pos V c _ _ hz, st7_pos V c t hz hlt, step7_F _ h0 h1 h2]
        dsimp only
        iintro ⟨⟨⟨⟨HS0, HS1, HS2⟩, Hr⟩, Hg⟩, Ho, ⟨%d0, H0⟩, ⟨%d1, H1⟩, ⟨%d2, H2⟩, ⟨%d3, H3⟩, ⟨%d4, H4⟩⟩
        iapply ((kernelRun7_F c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) (fun h => h1 ((hcond7_1 t).mp h)) ((hcond7_2 t).mpr h2) (iblk7 V c 0 t) (iblk7 V c 1 t) (st7 V c (t.val - 1) hlt).acc (st7 V c (t.val - 1) hlt).sum (st7 V c (t.val - 1) hlt).sq).2.2.2.2.2.2 Set.univ _)
        isplitl [H0]; · iexact H0
        isplitl [H1]; · iexact H1
        isplitl [H2]; · iexists _; iexact H2
        isplitl [H3]; · iexists _; iexact H3
        isplitl [H4]; · iexists _; iexact H4
        isplitl [HS0]; · iexact HS0
        isplitl [HS1]; · iexact HS1
        isplitl [HS2]; · iexact HS2
        iintro ⟨H0, H1, ⟨%e2, H2⟩, ⟨%e3, H3⟩, ⟨%e4, H4⟩, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov7_F_S0 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) (fun h => h1 ((hcond7_1 t).mp h)) ((hcond7_2 t).mpr h2) (iblk7 V c 0 t) (iblk7 V c 1 t) (st7 V c (t.val - 1) hlt).acc (st7 V c (t.val - 1) hlt).sum (st7 V c (t.val - 1) hlt).sq)).trans (val7_F_S0 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) (fun h => h1 ((hcond7_1 t).mp h)) ((hcond7_2 t).mpr h2) (iblk7 V c 0 t) (iblk7 V c 1 t) (st7 V c (t.val - 1) hlt).acc (st7 V c (t.val - 1) hlt).sum (st7 V c (t.val - 1) hlt).sq)
              isplitl [HS1]
              · unfold owns; iexists _; isplitr
                swap; · iexact HS1
                ipureintro; exact (View.read_writes_eq_canon _ _ _ (cov7_F_S1 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) (fun h => h1 ((hcond7_1 t).mp h)) ((hcond7_2 t).mpr h2) (iblk7 V c 0 t) (iblk7 V c 1 t) (st7 V c (t.val - 1) hlt).acc (st7 V c (t.val - 1) hlt).sum (st7 V c (t.val - 1) hlt).sq)).trans (val7_F_S1 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) (fun h => h1 ((hcond7_1 t).mp h)) ((hcond7_2 t).mpr h2) (iblk7 V c 0 t) (iblk7 V c 1 t) (st7 V c (t.val - 1) hlt).acc (st7 V c (t.val - 1) hlt).sum (st7 V c (t.val - 1) hlt).sq)
              · unfold owns; iexists _; isplitr
                swap; · iexact HS2
                ipureintro; exact (View.read_writes_eq_canon _ _ _ (cov7_F_S2 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) (fun h => h1 ((hcond7_1 t).mp h)) ((hcond7_2 t).mpr h2) (iblk7 V c 0 t) (iblk7 V c 1 t) (st7 V c (t.val - 1) hlt).acc (st7 V c (t.val - 1) hlt).sum (st7 V c (t.val - 1) hlt).sq)).trans (val7_F_S2 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) (fun h => h1 ((hcond7_1 t).mp h)) ((hcond7_2 t).mpr h2) (iblk7 V c 0 t) (iblk7 V c 1 t) (st7 V c (t.val - 1) hlt).acc (st7 V c (t.val - 1) hlt).sum (st7 V c (t.val - 1) hlt).sq)
            · iexact Hr
          · iexact Hg
        isplitl [Ho]; · iexact Ho
        isplitl [H0]; · iexact H0
        isplitl [H1]; · iexact H1
        isplitl [H2]
        · unfold owns; iexists _; isplitr
          swap; · iexact H2
          ipureintro; exact (View.read_writes_eq_canon _ _ _ (cov7_F_2 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) (fun h => h1 ((hcond7_1 t).mp h)) ((hcond7_2 t).mpr h2) (iblk7 V c 0 t) (iblk7 V c 1 t) (st7 V c (t.val - 1) hlt).acc (st7 V c (t.val - 1) hlt).sum (st7 V c (t.val - 1) hlt).sq)).trans (val7_F_2 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) (fun h => h1 ((hcond7_1 t).mp h)) ((hcond7_2 t).mpr h2) (iblk7 V c 0 t) (iblk7 V c 1 t) (st7 V c (t.val - 1) hlt).acc (st7 V c (t.val - 1) hlt).sum (st7 V c (t.val - 1) hlt).sq)
        isplitl [H3]
        · unfold owns; iexists _; isplitr
          swap; · iexact H3
          ipureintro; exact (View.read_writes_eq_canon _ _ _ (cov7_F_3 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) (fun h => h1 ((hcond7_1 t).mp h)) ((hcond7_2 t).mpr h2) (iblk7 V c 0 t) (iblk7 V c 1 t) (st7 V c (t.val - 1) hlt).acc (st7 V c (t.val - 1) hlt).sum (st7 V c (t.val - 1) hlt).sq)).trans (val7_F_3 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) (fun h => h1 ((hcond7_1 t).mp h)) ((hcond7_2 t).mpr h2) (iblk7 V c 0 t) (iblk7 V c 1 t) (st7 V c (t.val - 1) hlt).acc (st7 V c (t.val - 1) hlt).sum (st7 V c (t.val - 1) hlt).sq)
        · unfold owns; iexists _; isplitr
          swap; · iexact H4
          ipureintro; exact (View.read_writes_eq_canon _ _ _ (cov7_F_4 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) (fun h => h1 ((hcond7_1 t).mp h)) ((hcond7_2 t).mpr h2) (iblk7 V c 0 t) (iblk7 V c 1 t) (st7 V c (t.val - 1) hlt).acc (st7 V c (t.val - 1) hlt).sum (st7 V c (t.val - 1) hlt).sq)).trans (val7_F_4 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) (fun h => h1 ((hcond7_1 t).mp h)) ((hcond7_2 t).mpr h2) (iblk7 V c 0 t) (iblk7 V c 1 t) (st7 V c (t.val - 1) hlt).acc (st7 V c (t.val - 1) hlt).sum (st7 V c (t.val - 1) hlt).sq)
      · rw [Dat.leavesExact_idle (dat7 V c) 2 t (idleAt7_2 t (fun h => h2 ((hcond7_2 t).mp h))) (noFlush7_2 t (fun h => h2 ((hcond7_2 t).mp h)))]
        rw [Dat.leavesExact_idle (dat7 V c) 3 t (idleAt7_3 t (fun h => h2 ((hcond7_2 t).mp h))) (noFlush7_3 t (fun h => h2 ((hcond7_2 t).mp h)))]
        rw [Dat.leavesExact_idle (dat7 V c) 4 t (idleAt7_4 t (fun h => h2 ((hcond7_2 t).mp h))) (noFlush7_4 t (fun h => h2 ((hcond7_2 t).mp h)))]
        have hlt : t.val - 1 < cfg7.N := by omega
        rw [PhiS7_castSucc V c t, PhiS7_pos V c _ _ hz, st7_pos V c t hz hlt, step7_D _ h0 h1 h2]
        dsimp only
        iintro ⟨⟨⟨⟨HS0, HS1, HS2⟩, Hr⟩, Hg⟩, Ho, ⟨%d0, H0⟩, ⟨%d1, H1⟩, H2, H3, H4⟩
        iapply ((kernelRun7_D c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) (fun h => h1 ((hcond7_1 t).mp h)) (fun h => h2 ((hcond7_2 t).mp h)) (iblk7 V c 0 t) (iblk7 V c 1 t) (st7 V c (t.val - 1) hlt).acc).2 Set.univ _)
        isplitl [H0]; · iexact H0
        isplitl [H1]; · iexact H1
        isplitl [HS0]; · iexact HS0
        iintro ⟨H0, H1, ⟨%eS0, HS0⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov7_D_S0 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) (fun h => h1 ((hcond7_1 t).mp h)) (fun h => h2 ((hcond7_2 t).mp h)) (iblk7 V c 0 t) (iblk7 V c 1 t) (st7 V c (t.val - 1) hlt).acc)).trans (val7_D_S0 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) (fun h => h1 ((hcond7_1 t).mp h)) (fun h => h2 ((hcond7_2 t).mp h)) (iblk7 V c 0 t) (iblk7 V c 1 t) (st7 V c (t.val - 1) hlt).acc)
              isplitl [HS1]
              · iexact HS1
              · iexact HS2
            · iexact Hr
          · iexact Hg
        isplitl [Ho]; · iexact Ho
        isplitl [H0]; · iexact H0
        isplitl [H1]; · iexact H1
        isplitl [H2]; · iexact H2
        isplitl [H3]; · iexact H3
        iexact H4

theorem body_obligation7 (c : Dev nD) : BodyObligation (dat7 (F := F) V c) (defs₀ (F := F)) Variants.none () Set.univ := fun t => by
  rw [bigSep_W7, bigSep_W7]
  exact sound_body7 V c t

end

end Cert.KernelIdeal.Hand

end
-- ==== Proof.KI.R10Runs.lean ====
/-
  Matrix-product region 10: what its six control cases share — the three branch conditions in closed form over the grid
  (point n = 32 j + 8 i + k: the accumulator is reset at k = 0, the two running rows at i = 0, the statistics are taken at
  k = 7), where the three outputs are idle and when they are written back, and the memrefs the body is called with.
-/
import proofs.«157460_j63591285784858_2_alg».proof.Proof.KI.R10Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

abbrev cond10_0 (i : grid10.Coords) : Prop := (Scalar.cmpi .ne (Scalar.extui (Scalar.cmpi .eq (BitVec.ofNat 32 (i 2).val) 0#32)) 0#32) = 1#1
theorem hcond10_0 : ∀ t : Fin cfg10.N, cond10_0 (grid10.coords t) ↔ t.val % 8 = 0 :=
  (by decide +kernel : ∀ t : Fin grid10.N, cond10_0 (grid10.coords t) ↔ t.val % 8 = 0)
abbrev cond10_1 (i : grid10.Coords) : Prop := (Scalar.cmpi .ne (Scalar.extui (Scalar.cmpi .eq (BitVec.ofNat 32 (i 1).val) 0#32)) 0#32) = 1#1
theorem hcond10_1 : ∀ t : Fin cfg10.N, cond10_1 (grid10.coords t) ↔ t.val / 8 % 4 = 0 :=
  (by decide +kernel : ∀ t : Fin grid10.N, cond10_1 (grid10.coords t) ↔ t.val / 8 % 4 = 0)
abbrev cond10_2 (i : grid10.Coords) : Prop := k10_cond3 i = 1#1
theorem hcond10_2 : ∀ t : Fin cfg10.N, cond10_2 (grid10.coords t) ↔ t.val % 8 = 7 :=
  (by decide +kernel : ∀ t : Fin grid10.N, cond10_2 (grid10.coords t) ↔ t.val % 8 = 7)

/-! ## Idle points and write-backs of the three outputs -/

theorem liveAt10_0 : ∀ t : Fin cfg10.N, cfg10.idle 0 (grid10.coords t) = false := by decide +kernel
theorem liveAt10_1 : ∀ t : Fin cfg10.N, cfg10.idle 1 (grid10.coords t) = false := by decide +kernel
theorem idleAt10_2 : ∀ t : Fin cfg10.N, ¬cond10_2 (grid10.coords t) → cfg10.idle 2 (grid10.coords t) = true := by decide +kernel
theorem liveAt10_2 : ∀ t : Fin cfg10.N, cond10_2 (grid10.coords t) → cfg10.idle 2 (grid10.coords t) = false := by decide +kernel
theorem noFlush10_2 : ∀ t : Fin cfg10.N, ¬cond10_2 (grid10.coords t) → (cfg10.win 2).flush t = false := by decide +kernel
theorem idleAt10_3 : ∀ t : Fin cfg10.N, ¬cond10_2 (grid10.coords t) → cfg10.idle 3 (grid10.coords t) = true := by decide +kernel
theorem liveAt10_3 : ∀ t : Fin cfg10.N, cond10_2 (grid10.coords t) → cfg10.idle 3 (grid10.coords t) = false := by decide +kernel
theorem noFlush10_3 : ∀ t : Fin cfg10.N, ¬cond10_2 (grid10.coords t) → (cfg10.win 3).flush t = false := by decide +kernel
theorem idleAt10_4 : ∀ t : Fin cfg10.N, ¬cond10_2 (grid10.coords t) → cfg10.idle 4 (grid10.coords t) = true := by decide +kernel
theorem liveAt10_4 : ∀ t : Fin cfg10.N, cond10_2 (grid10.coords t) → cfg10.idle 4 (grid10.coords t) = false := by decide +kernel
theorem noFlush10_4 : ∀ t : Fin cfg10.N, ¬cond10_2 (grid10.coords t) → (cfg10.win 4).flush t = false := by decide +kernel

/-! ## The memrefs the body is called with -/

abbrev ms10_0 (t : Fin cfg10.N) : Memref sig .tc .vmem S1024x512 .bf16 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S1024x512 .bf16 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S1024x1024 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S1x1024 .f32 := win10_3.stage (cfg10.slots t 3)
abbrev hs10_3 (t : Fin cfg10.N) : (ms10_3 t).IsWhole := hstage10_3 ((cfg10.slots t 3).cast nbuf10_3)
abbrev ms10_4 (t : Fin cfg10.N) : Memref sig .tc .vmem S1x1024 .f32 := win10_4.stage (cfg10.slots t 4)
abbrev hs10_4 (t : Fin cfg10.N) : (ms10_4 t).IsWhole := hstage10_4 ((cfg10.slots t 4).cast nbuf10_4)
/-- Views through which contents are stated (any whole buffer of the shape serves). -/
abbrev VB10 : View sig .tc .vmem S1024x1024 .f32 := scM10_0.view
abbrev VR10 : View sig .tc .vmem S1x1024 .f32 := scM10_1.view

end Cert.KernelIdeal.Hand

end
-- ==== Proof.KI.R10RunA.lean ====
/-
  The whole body at the first point of an output column tile (k = 0, i = 0): the accumulator is cleared and receives
  the block product; the two running rows are cleared. Nothing read of what the scratch buffers held;
  Only the buffers the body stores into are mentioned; what each ends with is found by running the body: the pieces
  are the witness.
-/
import proofs.«157460_j63591285784858_2_alg».proof.Proof.KI.R10Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun10_A (c : Dev nD) (i : grid10.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : cond10_0 i) (hc1 : cond10_1 i) (hc2 : ¬cond10_2 i)
    (x0 : Vec F S1024x512 .bf16) (x1 : Vec F S1024x512 .bf16)  :
    Σ' (LS0 : List (View.Piece (Elt F) S1024x1024 .f32)) (LS1 : List (View.Piece (Elt F) S1x1024 .f32)), { LS2 : List (View.Piece (Elt F) S1x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc10__matmul_stats_kernel i arg3 harg3 arg4 harg4 arg5 harg5 arg6 harg6 arg7 harg7 arg8 harg8 arg9 harg9 arg10 harg10) K } := by
  refine ⟨?_, ?_, ?_, fun E K => ?run⟩
  case run =>
    simp only [cc10__matmul_stats_kernel_eq_skeleton]; unfold cc10__matmul_stats_kernel_skel
    unfold owns
    iintro ⟨⟨%f0, %hf0, H0⟩, ⟨%f1, %hf1, H1⟩, ⟨%dHS0, %fHS0, -, HS0⟩, ⟨%dHS1, %fHS1, -, HS1⟩, ⟨%dHS2, %fHS2, -, HS2⟩, Hk⟩
    obtain rfl := harg3.eq_unread hf0; obtain rfl := harg4.eq_unread hf1

    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [HS0]; · iexists _; iexact HS0
    isplitl [HS1]; · iexists _; iexact HS1
    iexists _; iexact HS2

end Cert.KernelIdeal.Hand

end
-- ==== Proof.KI.R10RunB.lean ====
/-
  The whole body at the first reduction step of a batch tile that is not the first (k = 0, i ≠ 0): the accumulator is
  cleared and receives the block product; the two running rows keep what the tile before left.
  Only the buffers the body stores into are mentioned; what each ends with is found by running the body: the pieces
  are the witness.
-/
import proofs.«157460_j63591285784858_2_alg».proof.Proof.KI.R10Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun10_B (c : Dev nD) (i : grid10.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : cond10_0 i) (hc1 : ¬cond10_1 i) (hc2 : ¬cond10_2 i)
    (x0 : Vec F S1024x512 .bf16) (x1 : Vec F S1024x512 .bf16)  :
    { LS0 : List (View.Piece (Elt F) S1024x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg8 fullShare d)
            ∗ (iprop(owns (c : Thread nD τ) arg3 fullShare x0 ∗ owns (c : Thread nD τ) arg4 fullShare x1
                ∗ (∃ f, arg8.view.loc (c : Thread nD τ) ↦[arg8.view.set]{fullShare} arg8.view.writes (Elt F) f LS0)) -∗ K ⟨⟩))
          ⊢ wp frame (wpE (defs₀ (F := F)) Variants.none c none) E (cc10__matmul_stats_kernel i arg3 harg3 arg4 harg4 arg5 harg5 arg6 harg6 arg7 harg7 arg8 harg8 arg9 harg9 arg10 harg10) K } := by
  refine ⟨?_, fun E K => ?run⟩
  case run =>
    simp only [cc10__matmul_stats_kernel_eq_skeleton]; unfold cc10__matmul_stats_kernel_skel
    unfold owns
    iintro ⟨⟨%f0, %hf0, H0⟩, ⟨%f1, %hf1, H1⟩, ⟨%dHS0, %fHS0, -, HS0⟩, Hk⟩
    obtain rfl := harg3.eq_unread hf0; obtain rfl := harg4.eq_unread hf1

    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.KernelIdeal.Hand

end
-- ==== Proof.KI.R10RunC.lean ====
/-
  The whole body at a middle reduction step of the first batch tile (0 < k < 3, i = 0): the accumulator found at what
  the step before left receives the block product; the two running rows are cleared; the three outputs are not
  touched.
  Only the buffers the body stores into are mentioned; what each ends with is found by running the body: the pieces
  are the witness.
-/
import proofs.«157460_j63591285784858_2_alg».proof.Proof.KI.R10Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun10_C (c : Dev nD) (i : grid10.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond10_0 i) (hc1 : cond10_1 i) (hc2 : ¬cond10_2 i)
    (x0 : Vec F S1024x512 .bf16) (x1 : Vec F S1024x512 .bf16) (xs0 : Vec F S1024x1024 .f32) :
    Σ' (LS0 : List (View.Piece (Elt F) S1024x1024 .f32)) (LS1 : List (View.Piece (Elt F) S1x1024 .f32)), { LS2 : List (View.Piece (Elt F) S1x1024 .f32) //
      ∀ (E : Set ℕ) (K : PUnit → sProp 𝕄),
        iprop(owns (c : Thread nD τ) arg3 fullShare x0 ∗ owns (c : Thread nD τ) arg4 fullShare x1
            ∗ owns (c : Thread nD τ) arg8 fullShare xs0 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc10__matmul_stats_kernel i arg3 harg3 arg4 harg4 arg5 harg5 arg6 harg6 arg7 harg7 arg8 harg8 arg9 harg9 arg10 harg10) K } := by
  refine ⟨?_, ?_, ?_, fun E K => ?run⟩
  case run =>
    simp only [cc10__matmul_stats_kernel_eq_skeleton]; unfold cc10__matmul_stats_kernel_skel
    unfold owns
    iintro ⟨⟨%f0, %hf0, H0⟩, ⟨%f1, %hf1, H1⟩, ⟨%fHS0, %hfHS0, HS0⟩, ⟨%dHS1, %fHS1, -, HS1⟩, ⟨%dHS2, %fHS2, -, HS2⟩, Hk⟩
    obtain rfl := harg3.eq_unread hf0; obtain rfl := harg4.eq_unread hf1
    obtain rfl := harg8.eq_unread hfHS0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [HS0]; · iexists _; iexact HS0
    isplitl [HS1]; · iexists _; iexact HS1
    iexists _; iexact HS2

end Cert.KernelIdeal.Hand

end
-- ==== Proof.KI.R10RunD.lean ====
/-
  The whole body at a middle reduction step of a batch tile that is not the first (0 < k < 3, i ≠ 0): the accumulator
  found at what the step before left receives the block product; the two running rows keep what the tile before left;

  Only the buffers the body stores into are mentioned; what each ends with is found by running the body: the pieces
  are the witness.
-/
import proofs.«157460_j63591285784858_2_alg».proof.Proof.KI.R10Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun10_D (c : Dev nD) (i : grid10.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond10_0 i) (hc1 : ¬cond10_1 i) (hc2 : ¬cond10_2 i)
    (x0 : Vec F S1024x512 .bf16) (x1 : Vec F S1024x512 .bf16) (xs0 : Vec F S1024x1024 .f32) :
    { LS0 : List (View.Piece (Elt F) S1024x1024 .f32) //
      ∀ (E : Set ℕ) (K : PUnit → sProp 𝕄),
        iprop(owns (c : Thread nD τ) arg3 fullShare x0 ∗ owns (c : Thread nD τ) arg4 fullShare x1
            ∗ owns (c : Thread nD τ) arg8 fullShare xs0
            ∗ (iprop(owns (c : Thread nD τ) arg3 fullShare x0 ∗ owns (c : Thread nD τ) arg4 fullShare x1
                ∗ (∃ f, arg8.view.loc (c : Thread nD τ) ↦[arg8.view.set]{fullShare} arg8.view.writes (Elt F) f LS0)) -∗ K ⟨⟩))
          ⊢ wp frame (wpE (defs₀ (F := F)) Variants.none c none) E (cc10__matmul_stats_kernel i arg3 harg3 arg4 harg4 arg5 harg5 arg6 harg6 arg7 harg7 arg8 harg8 arg9 harg9 arg10 harg10) K } := by
  refine ⟨?_, fun E K => ?run⟩
  case run =>
    simp only [cc10__matmul_stats_kernel_eq_skeleton]; unfold cc10__matmul_stats_kernel_skel
    unfold owns
    iintro ⟨⟨%f0, %hf0, H0⟩, ⟨%f1, %hf1, H1⟩, ⟨%fHS0, %hfHS0, HS0⟩, Hk⟩
    obtain rfl := harg3.eq_unread hf0; obtain rfl := harg4.eq_unread hf1
    obtain rfl := harg8.eq_unread hfHS0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.KernelIdeal.Hand

end
-- ==== Proof.KI.R10RunE.lean ====
/-
  The whole body at the last reduction step of the first batch tile (k = 3, i = 0): the accumulator found at what the
  step before left receives the block product and is copied to the product's output block; the two running rows are
  cleared and receive its column sums and column sums of squares; the mean and the clamped variance are written from
  them.
  Only the buffers the body stores into are mentioned; what each ends with is found by running the body: the pieces
  are the witness.
-/
import proofs.«157460_j63591285784858_2_alg».proof.Proof.KI.R10Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun10_E (c : Dev nD) (i : grid10.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond10_0 i) (hc1 : cond10_1 i) (hc2 : cond10_2 i)
    (x0 : Vec F S1024x512 .bf16) (x1 : Vec F S1024x512 .bf16) (xs0 : Vec F S1024x1024 .f32) :
    Σ' (L2 : List (View.Piece (Elt F) S1024x1024 .f32)) (L3 : List (View.Piece (Elt F) S1x1024 .f32)) (L4 : List (View.Piece (Elt F) S1x1024 .f32)) (LS0 : List (View.Piece (Elt F) S1024x1024 .f32)) (LS1 : List (View.Piece (Elt F) S1x1024 .f32)), { LS2 : List (View.Piece (Elt F) S1x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc10__matmul_stats_kernel i arg3 harg3 arg4 harg4 arg5 harg5 arg6 harg6 arg7 harg7 arg8 harg8 arg9 harg9 arg10 harg10) K } := by
  refine ⟨?_, ?_, ?_, ?_, ?_, ?_, fun E K => ?run⟩
  case run =>
    simp only [cc10__matmul_stats_kernel_eq_skeleton]; unfold cc10__matmul_stats_kernel_skel
    unfold owns
    iintro ⟨⟨%f0, %hf0, H0⟩, ⟨%f1, %hf1, H1⟩, ⟨%dH2, %fH2, -, H2⟩, ⟨%dH3, %fH3, -, H3⟩, ⟨%dH4, %fH4, -, H4⟩, ⟨%fHS0, %hfHS0, HS0⟩, ⟨%dHS1, %fHS1, -, HS1⟩, ⟨%dHS2, %fHS2, -, HS2⟩, Hk⟩
    obtain rfl := harg3.eq_unread hf0; obtain rfl := harg4.eq_unread hf1
    obtain rfl := harg8.eq_unread hfHS0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    iexists _; iexact HS2

end Cert.KernelIdeal.Hand

end
-- ==== Proof.KI.R10RunF.lean ====
/-
  The whole body at the last reduction step of a batch tile that is not the first (k = last, i ≠ 0): the accumulator
  found at what the step before left receives the block product and is copied to the product's output block; its column
  sums and column sums of squares are added into the two running rows found at what the tile before left; the mean and
  the clamped variance are written from them.
  Only the buffers the body stores into are mentioned; what each ends with is found by running the body: the pieces
  are the witness.
-/
import proofs.«157460_j63591285784858_2_alg».proof.Proof.KI.R10Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun10_F (c : Dev nD) (i : grid10.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond10_0 i) (hc1 : ¬cond10_1 i) (hc2 : cond10_2 i)
    (x0 : Vec F S1024x512 .bf16) (x1 : Vec F S1024x512 .bf16) (xs0 : Vec F S1024x1024 .f32) (xs1 : Vec F S1x1024 .f32) (xs2 : Vec F S1x1024 .f32) :
    Σ' (L2 : List (View.Piece (Elt F) S1024x1024 .f32)) (L3 : List (View.Piece (Elt F) S1x1024 .f32)) (L4 : List (View.Piece (Elt F) S1x1024 .f32)) (LS0 : List (View.Piece (Elt F) S1024x1024 .f32)) (LS1 : List (View.Piece (Elt F) S1x1024 .f32)), { LS2 : List (View.Piece (Elt F) S1x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc10__matmul_stats_kernel i arg3 harg3 arg4 harg4 arg5 harg5 arg6 harg6 arg7 harg7 arg8 harg8 arg9 harg9 arg10 harg10) K } := by
  refine ⟨?_, ?_, ?_, ?_, ?_, ?_, fun E K => ?run⟩
  case run =>
    simp only [cc10__matmul_stats_kernel_eq_skeleton]; unfold cc10__matmul_stats_kernel_skel
    unfold owns
    iintro ⟨⟨%f0, %hf0, H0⟩, ⟨%f1, %hf1, H1⟩, ⟨%dH2, %fH2, -, H2⟩, ⟨%dH3, %fH3, -, H3⟩, ⟨%dH4, %fH4, -, H4⟩, ⟨%fHS0, %hfHS0, HS0⟩, ⟨%fHS1, %hfHS1, HS1⟩, ⟨%fHS2, %hfHS2, HS2⟩, Hk⟩
    obtain rfl := harg3.eq_unread hf0; obtain rfl := harg4.eq_unread hf1
    obtain rfl := harg8.eq_unread hfHS0; obtain rfl := harg9.eq_unread hfHS1; obtain rfl := harg10.eq_unread hfHS2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    iexists _; iexact HS2

end Cert.KernelIdeal.Hand

end
-- ==== Proof.KI.R10Body.lean ====
/-
  Matrix-product region 10: the body obligation. At every grid point the point's control case is read off the
  closed forms of the three branch conditions; the case's whole-body run applies, the invariant handing it the scratch
  buffers at the state the point before left (at anything at the first point) and taking them back at this point's
  state; each stored buffer's found pieces read back as the payload the closed-form state names (one covering store,
  or a store after a clearing store), so the proof data's statements hold; an output the case does not store is handed
  back as it was found.
-/
import proofs.«157460_j63591285784858_2_alg».proof.Proof.KI.R10RunA
import proofs.«157460_j63591285784858_2_alg».proof.Proof.KI.R10RunB
import proofs.«157460_j63591285784858_2_alg».proof.Proof.KI.R10RunC
import proofs.«157460_j63591285784858_2_alg».proof.Proof.KI.R10RunD
import proofs.«157460_j63591285784858_2_alg».proof.Proof.KI.R10RunE
import proofs.«157460_j63591285784858_2_alg».proof.Proof.KI.R10RunF
import proofs.«157460_j63591285784858_2_alg».proof.Proof.LibUnitPieces
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert

/-! ## What each case's stored buffers end with -/

/-! ### Case A -/

section
variable (c : Dev nD) (i : grid10.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : cond10_0 i) (hc1 : cond10_1 i) (hc2 : ¬cond10_2 i)
    (x0 : Vec F S1024x512 .bf16) (x1 : Vec F S1024x512 .bf16)

theorem cov10_A_S0 (y : S1024x1024.Idx) : ∃ pc ∈ (kernelRun10_A c i arg3 harg3 arg4 harg4 arg5 harg5 arg6 harg6 arg7 harg7 arg8 harg8 arg9 harg9 arg10 harg10 hc0 hc1 hc2 x0 x1 ).1, y ∈ pc.1.set :=
  View.cover_of_tiledL _ S1024x1024.size (by sl_kernel_rfl) y
theorem val10_A_S0 : View.canon (kernelRun10_A c i arg3 harg3 arg4 harg4 arg5 harg5 arg6 harg6 arg7 harg7 arg8 harg8 arg9 harg9 arg10 harg10 hc0 hc1 hc2 x0 x1 ).1 = (k10_pay2 x0 k10_pay1 x1) := by
  unfold kernelRun10_A
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov10_A_S1 (y : S1x1024.Idx) : ∃ pc ∈ (kernelRun10_A c i arg3 harg3 arg4 harg4 arg5 harg5 arg6 harg6 arg7 harg7 arg8 harg8 arg9 harg9 arg10 harg10 hc0 hc1 hc2 x0 x1 ).2.1, y ∈ pc.1.set :=
  View.cover_of_tiledL _ S1x1024.size (by sl_kernel_rfl) y
theorem val10_A_S1 : View.canon (kernelRun10_A c i arg3 harg3 arg4 harg4 arg5 harg5 arg6 harg6 arg7 harg7 arg8 harg8 arg9 harg9 arg10 harg10 hc0 hc1 hc2 x0 x1 ).2.1 = k10_pay3 := by
  unfold kernelRun10_A
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov10_A_S2 (y : S1x1024.Idx) : ∃ pc ∈ (kernelRun10_A c i arg3 harg3 arg4 harg4 arg5 harg5 arg6 harg6 arg7 harg7 arg8 harg8 arg9 harg9 arg10 harg10 hc0 hc1 hc2 x0 x1 ).2.2.1, y ∈ pc.1.set :=
  View.cover_of_tiledL _ S1x1024.size (by sl_kernel_rfl) y
theorem val10_A_S2 : View.canon (kernelRun10_A c i arg3 harg3 arg4 harg4 arg5 harg5 arg6 harg6 arg7 harg7 arg8 harg8 arg9 harg9 arg10 harg10 hc0 hc1 hc2 x0 x1 ).2.2.1 = k10_pay4 := by
  unfold kernelRun10_A
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case B -/

section
variable (c : Dev nD) (i : grid10.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : cond10_0 i) (hc1 : ¬cond10_1 i) (hc2 : ¬cond10_2 i)
    (x0 : Vec F S1024x512 .bf16) (x1 : Vec F S1024x512 .bf16)

theorem cov10_B_S0 (y : S1024x1024.Idx) : ∃ pc ∈ (kernelRun10_B c i arg3 harg3 arg4 harg4 arg5 harg5 arg6 harg6 arg7 harg7 arg8 harg8 arg9 harg9 arg10 harg10 hc0 hc1 hc2 x0 x1 ).1, y ∈ pc.1.set :=
  View.cover_of_tiledL _ S1024x1024.size (by sl_kernel_rfl) y
theorem val10_B_S0 : View.canon (kernelRun10_B c i arg3 harg3 arg4 harg4 arg5 harg5 arg6 harg6 arg7 harg7 arg8 harg8 arg9 harg9 arg10 harg10 hc0 hc1 hc2 x0 x1 ).1 = (k10_pay2 x0 k10_pay1 x1) := by
  unfold kernelRun10_B
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case C -/

section
variable (c : Dev nD) (i : grid10.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond10_0 i) (hc1 : cond10_1 i) (hc2 : ¬cond10_2 i)
    (x0 : Vec F S1024x512 .bf16) (x1 : Vec F S1024x512 .bf16) (xs0 : Vec F S1024x1024 .f32)

theorem cov10_C_S0 (y : S1024x1024.Idx) : ∃ pc ∈ (kernelRun10_C c i arg3 harg3 arg4 harg4 arg5 harg5 arg6 harg6 arg7 harg7 arg8 harg8 arg9 harg9 arg10 harg10 hc0 hc1 hc2 x0 x1 xs0).1, y ∈ pc.1.set :=
  View.cover_of_tiledL _ S1024x1024.size (by sl_kernel_rfl) y
theorem val10_C_S0 : View.canon (kernelRun10_C c i arg3 harg3 arg4 harg4 arg5 harg5 arg6 harg6 arg7 harg7 arg8 harg8 arg9 harg9 arg10 harg10 hc0 hc1 hc2 x0 x1 xs0).1 = (k10_pay2 x0 xs0 x1) := by
  unfold kernelRun10_C
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov10_C_S1 (y : S1x1024.Idx) : ∃ pc ∈ (kernelRun10_C c i arg3 harg3 arg4 harg4 arg5 harg5 arg6 harg6 arg7 harg7 arg8 harg8 arg9 harg9 arg10 harg10 hc0 hc1 hc2 x0 x1 xs0).2.1, y ∈ pc.1.set :=
  View.cover_of_tiledL _ S1x1024.size (by sl_kernel_rfl) y
theorem val10_C_S1 : View.canon (kernelRun10_C c i arg3 harg3 arg4 harg4 arg5 harg5 arg6 harg6 arg7 harg7 arg8 harg8 arg9 harg9 arg10 harg10 hc0 hc1 hc2 x0 x1 xs0).2.1 = k10_pay3 := by
  unfold kernelRun10_C
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov10_C_S2 (y : S1x1024.Idx) : ∃ pc ∈ (kernelRun10_C c i arg3 harg3 arg4 harg4 arg5 harg5 arg6 harg6 arg7 harg7 arg8 harg8 arg9 harg9 arg10 harg10 hc0 hc1 hc2 x0 x1 xs0).2.2.1, y ∈ pc.1.set :=
  View.cover_of_tiledL _ S1x1024.size (by sl_kernel_rfl) y
theorem val10_C_S2 : View.canon (kernelRun10_C c i arg3 harg3 arg4 harg4 arg5 harg5 arg6 harg6 arg7 harg7 arg8 harg8 arg9 harg9 arg10 harg10 hc0 hc1 hc2 x0 x1 xs0).2.2.1 = k10_pay4 := by
  unfold kernelRun10_C
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case D -/

section
variable (c : Dev nD) (i : grid10.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond10_0 i) (hc1 : ¬cond10_1 i) (hc2 : ¬cond10_2 i)
    (x0 : Vec F S1024x512 .bf16) (x1 : Vec F S1024x512 .bf16) (xs0 : Vec F S1024x1024 .f32)

theorem cov10_D_S0 (y : S1024x1024.Idx) : ∃ pc ∈ (kernelRun10_D c i arg3 harg3 arg4 harg4 arg5 harg5 arg6 harg6 arg7 harg7 arg8 harg8 arg9 harg9 arg10 harg10 hc0 hc1 hc2 x0 x1 xs0).1, y ∈ pc.1.set :=
  View.cover_of_tiledL _ S1024x1024.size (by sl_kernel_rfl) y
theorem val10_D_S0 : View.canon (kernelRun10_D c i arg3 harg3 arg4 harg4 arg5 harg5 arg6 harg6 arg7 harg7 arg8 harg8 arg9 harg9 arg10 harg10 hc0 hc1 hc2 x0 x1 xs0).1 = (k10_pay2 x0 xs0 x1) := by
  unfold kernelRun10_D
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case E -/

section
variable (c : Dev nD) (i : grid10.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond10_0 i) (hc1 : cond10_1 i) (hc2 : cond10_2 i)
    (x0 : Vec F S1024x512 .bf16) (x1 : Vec F S1024x512 .bf16) (xs0 : Vec F S1024x1024 .f32)

theorem cov10_E_2 (y : S1024x1024.Idx) : ∃ pc ∈ (kernelRun10_E c i arg3 harg3 arg4 harg4 arg5 harg5 arg6 harg6 arg7 harg7 arg8 harg8 arg9 harg9 arg10 harg10 hc0 hc1 hc2 x0 x1 xs0).1, y ∈ pc.1.set :=
  View.cover_of_tiledL _ S1024x1024.size (by sl_kernel_rfl) y
theorem val10_E_2 : View.canon (kernelRun10_E c i arg3 harg3 arg4 harg4 arg5 harg5 arg6 harg6 arg7 harg7 arg8 harg8 arg9 harg9 arg10 harg10 hc0 hc1 hc2 x0 x1 xs0).1 = (k10_pay2 x0 xs0 x1) := by
  unfold kernelRun10_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov10_E_3 (y : S1x1024.Idx) : ∃ pc ∈ (kernelRun10_E c i arg3 harg3 arg4 harg4 arg5 harg5 arg6 harg6 arg7 harg7 arg8 harg8 arg9 harg9 arg10 harg10 hc0 hc1 hc2 x0 x1 xs0).2.1, y ∈ pc.1.set :=
  View.cover_of_tiledL _ S1x1024.size (by sl_kernel_rfl) y
theorem val10_E_3 : View.canon (kernelRun10_E c i arg3 harg3 arg4 harg4 arg5 harg5 arg6 harg6 arg7 harg7 arg8 harg8 arg9 harg9 arg10 harg10 hc0 hc1 hc2 x0 x1 xs0).2.1 = (k10_pay7 (k10_pay5 (k10_pay2 x0 xs0 x1) k10_pay3)) := by
  unfold kernelRun10_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov10_E_4 (y : S1x1024.Idx) : ∃ pc ∈ (kernelRun10_E c i arg3 harg3 arg4 harg4 arg5 harg5 arg6 harg6 arg7 harg7 arg8 harg8 arg9 harg9 arg10 harg10 hc0 hc1 hc2 x0 x1 xs0).2.2.1, y ∈ pc.1.set :=
  View.cover_of_tiledL _ S1x1024.size (by sl_kernel_rfl) y
theorem val10_E_4 : View.canon (kernelRun10_E c i arg3 harg3 arg4 harg4 arg5 harg5 arg6 harg6 arg7 harg7 arg8 harg8 arg9 harg9 arg10 harg10 hc0 hc1 hc2 x0 x1 xs0).2.2.1 = (k10_pay8 (k10_pay5 (k10_pay2 x0 xs0 x1) k10_pay3) (k10_pay6 (k10_pay2 x0 xs0 x1) k10_pay4)) := by
  unfold kernelRun10_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov10_E_S0 (y : S1024x1024.Idx) : ∃ pc ∈ (kernelRun10_E c i arg3 harg3 arg4 harg4 arg5 harg5 arg6 harg6 arg7 harg7 arg8 harg8 arg9 harg9 arg10 harg10 hc0 hc1 hc2 x0 x1 xs0).2.2.2.1, y ∈ pc.1.set :=
  View.cover_of_tiledL _ S1024x1024.size (by sl_kernel_rfl) y
theorem val10_E_S0 : View.canon (kernelRun10_E c i arg3 harg3 arg4 harg4 arg5 harg5 arg6 harg6 arg7 harg7 arg8 harg8 arg9 harg9 arg10 harg10 hc0 hc1 hc2 x0 x1 xs0).2.2.2.1 = (k10_pay2 x0 xs0 x1) := by
  unfold kernelRun10_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov10_E_S1 (y : S1x1024.Idx) : ∃ pc ∈ (kernelRun10_E c i arg3 harg3 arg4 harg4 arg5 harg5 arg6 harg6 arg7 harg7 arg8 harg8 arg9 harg9 arg10 harg10 hc0 hc1 hc2 x0 x1 xs0).2.2.2.2.1, y ∈ pc.1.set :=
  View.cover_of_tiledL _ S1x1024.size (by sl_kernel_rfl) y
theorem val10_E_S1 : View.canon (kernelRun10_E c i arg3 harg3 arg4 harg4 arg5 harg5 arg6 harg6 arg7 harg7 arg8 harg8 arg9 harg9 arg10 harg10 hc0 hc1 hc2 x0 x1 xs0).2.2.2.2.1 = (k10_pay5 (k10_pay2 x0 xs0 x1) k10_pay3) := by
  unfold kernelRun10_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov10_E_S2 (y : S1x1024.Idx) : ∃ pc ∈ (kernelRun10_E c i arg3 harg3 arg4 harg4 arg5 harg5 arg6 harg6 arg7 harg7 arg8 harg8 arg9 harg9 arg10 harg10 hc0 hc1 hc2 x0 x1 xs0).2.2.2.2.2.1, y ∈ pc.1.set :=
  View.cover_of_tiledL _ S1x1024.size (by sl_kernel_rfl) y
theorem val10_E_S2 : View.canon (kernelRun10_E c i arg3 harg3 arg4 harg4 arg5 harg5 arg6 harg6 arg7 harg7 arg8 harg8 arg9 harg9 arg10 harg10 hc0 hc1 hc2 x0 x1 xs0).2.2.2.2.2.1 = (k10_pay6 (k10_pay2 x0 xs0 x1) k10_pay4) := by
  unfold kernelRun10_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case F -/

section
variable (c : Dev nD) (i : grid10.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond10_0 i) (hc1 : ¬cond10_1 i) (hc2 : cond10_2 i)
    (x0 : Vec F S1024x512 .bf16) (x1 : Vec F S1024x512 .bf16) (xs0 : Vec F S1024x1024 .f32) (xs1 : Vec F S1x1024 .f32) (xs2 : Vec F S1x1024 .f32)

theorem cov10_F_2 (y : S1024x1024.Idx) : ∃ pc ∈ (kernelRun10_F c i arg3 harg3 arg4 harg4 arg5 harg5 arg6 harg6 arg7 harg7 arg8 harg8 arg9 harg9 arg10 harg10 hc0 hc1 hc2 x0 x1 xs0 xs1 xs2).1, y ∈ pc.1.set :=
  View.cover_of_tiledL _ S1024x1024.size (by sl_kernel_rfl) y
theorem val10_F_2 : View.canon (kernelRun10_F c i arg3 harg3 arg4 harg4 arg5 harg5 arg6 harg6 arg7 harg7 arg8 harg8 arg9 harg9 arg10 harg10 hc0 hc1 hc2 x0 x1 xs0 xs1 xs2).1 = (k10_pay2 x0 xs0 x1) := by
  unfold kernelRun10_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov10_F_3 (y : S1x1024.Idx) : ∃ pc ∈ (kernelRun10_F c i arg3 harg3 arg4 harg4 arg5 harg5 arg6 harg6 arg7 harg7 arg8 harg8 arg9 harg9 arg10 harg10 hc0 hc1 hc2 x0 x1 xs0 xs1 xs2).2.1, y ∈ pc.1.set :=
  View.cover_of_tiledL _ S1x1024.size (by sl_kernel_rfl) y
theorem val10_F_3 : View.canon (kernelRun10_F c i arg3 harg3 arg4 harg4 arg5 harg5 arg6 harg6 arg7 harg7 arg8 harg8 arg9 harg9 arg10 harg10 hc0 hc1 hc2 x0 x1 xs0 xs1 xs2).2.1 = (k10_pay7 (k10_pay5 (k10_pay2 x0 xs0 x1) xs1)) := by
  unfold kernelRun10_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov10_F_4 (y : S1x1024.Idx) : ∃ pc ∈ (kernelRun10_F c i arg3 harg3 arg4 harg4 arg5 harg5 arg6 harg6 arg7 harg7 arg8 harg8 arg9 harg9 arg10 harg10 hc0 hc1 hc2 x0 x1 xs0 xs1 xs2).2.2.1, y ∈ pc.1.set :=
  View.cover_of_tiledL _ S1x1024.size (by sl_kernel_rfl) y
theorem val10_F_4 : View.canon (kernelRun10_F c i arg3 harg3 arg4 harg4 arg5 harg5 arg6 harg6 arg7 harg7 arg8 harg8 arg9 harg9 arg10 harg10 hc0 hc1 hc2 x0 x1 xs0 xs1 xs2).2.2.1 = (k10_pay8 (k10_pay5 (k10_pay2 x0 xs0 x1) xs1) (k10_pay6 (k10_pay2 x0 xs0 x1) xs2)) := by
  unfold kernelRun10_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov10_F_S0 (y : S1024x1024.Idx) : ∃ pc ∈ (kernelRun10_F c i arg3 harg3 arg4 harg4 arg5 harg5 arg6 harg6 arg7 harg7 arg8 harg8 arg9 harg9 arg10 harg10 hc0 hc1 hc2 x0 x1 xs0 xs1 xs2).2.2.2.1, y ∈ pc.1.set :=
  View.cover_of_tiledL _ S1024x1024.size (by sl_kernel_rfl) y
theorem val10_F_S0 : View.canon (kernelRun10_F c i arg3 harg3 arg4 harg4 arg5 harg5 arg6 harg6 arg7 harg7 arg8 harg8 arg9 harg9 arg10 harg10 hc0 hc1 hc2 x0 x1 xs0 xs1 xs2).2.2.2.1 = (k10_pay2 x0 xs0 x1) := by
  unfold kernelRun10_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov10_F_S1 (y : S1x1024.Idx) : ∃ pc ∈ (kernelRun10_F c i arg3 harg3 arg4 harg4 arg5 harg5 arg6 harg6 arg7 harg7 arg8 harg8 arg9 harg9 arg10 harg10 hc0 hc1 hc2 x0 x1 xs0 xs1 xs2).2.2.2.2.1, y ∈ pc.1.set :=
  View.cover_of_tiledL _ S1x1024.size (by sl_kernel_rfl) y
theorem val10_F_S1 : View.canon (kernelRun10_F c i arg3 harg3 arg4 harg4 arg5 harg5 arg6 harg6 arg7 harg7 arg8 harg8 arg9 harg9 arg10 harg10 hc0 hc1 hc2 x0 x1 xs0 xs1 xs2).2.2.2.2.1 = (k10_pay5 (k10_pay2 x0 xs0 x1) xs1) := by
  unfold kernelRun10_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov10_F_S2 (y : S1x1024.Idx) : ∃ pc ∈ (kernelRun10_F c i arg3 harg3 arg4 harg4 arg5 harg5 arg6 harg6 arg7 harg7 arg8 harg8 arg9 harg9 arg10 harg10 hc0 hc1 hc2 x0 x1 xs0 xs1 xs2).2.2.2.2.2.1, y ∈ pc.1.set :=
  View.cover_of_tiledL _ S1x1024.size (by sl_kernel_rfl) y
theorem val10_F_S2 : View.canon (kernelRun10_F c i arg3 harg3 arg4 harg4 arg5 harg5 arg6 harg6 arg7 harg7 arg8 harg8 arg9 harg9 arg10 harg10 hc0 hc1 hc2 x0 x1 xs0 xs1 xs2).2.2.2.2.2.1 = (k10_pay6 (k10_pay2 x0 xs0 x1) xs2) := by
  unfold kernelRun10_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ## One grid point of the closed-form state, case by case -/

theorem step10_A (n : ℕ) (h0 : n % 8 = 0) (h1 : n / 8 % 4 = 0) (h2 : ¬n % 8 = 7) (x0 : Vec F S1024x512 .bf16) (x1 : Vec F S1024x512 .bf16) (s : St10 F) :
    step10 n x0 x1 s = ⟨(k10_pay2 x0 k10_pay1 x1), k10_pay3, k10_pay4⟩ := by
  simp only [step10, if_pos h0, if_pos h1, if_neg h2]
theorem step10_B (n : ℕ) (h0 : n % 8 = 0) (h1 : ¬n / 8 % 4 = 0) (h2 : ¬n % 8 = 7) (x0 : Vec F S1024x512 .bf16) (x1 : Vec F S1024x512 .bf16) (s : St10 F) :
    step10 n x0 x1 s = ⟨(k10_pay2 x0 k10_pay1 x1), s.sum, s.sq⟩ := by
  simp only [step10, if_pos h0, if_neg h1, if_neg h2]
theorem step10_C (n : ℕ) (h0 : ¬n % 8 = 0) (h1 : n / 8 % 4 = 0) (h2 : ¬n % 8 = 7) (x0 : Vec F S1024x512 .bf16) (x1 : Vec F S1024x512 .bf16) (s : St10 F) :
    step10 n x0 x1 s = ⟨(k10_pay2 x0 s.acc x1), k10_pay3, k10_pay4⟩ := by
  simp only [step10, if_neg h0, if_pos h1, if_neg h2]
theorem step10_D (n : ℕ) (h0 : ¬n % 8 = 0) (h1 : ¬n / 8 % 4 = 0) (h2 : ¬n % 8 = 7) (x0 : Vec F S1024x512 .bf16) (x1 : Vec F S1024x512 .bf16) (s : St10 F) :
    step10 n x0 x1 s = ⟨(k10_pay2 x0 s.acc x1), s.sum, s.sq⟩ := by
  simp only [step10, if_neg h0, if_neg h1, if_neg h2]
theorem step10_E (n : ℕ) (h0 : ¬n % 8 = 0) (h1 : n / 8 % 4 = 0) (h2 : n % 8 = 7) (x0 : Vec F S1024x512 .bf16) (x1 : Vec F S1024x512 .bf16) (s : St10 F) :
    step10 n x0 x1 s = ⟨(k10_pay2 x0 s.acc x1), k10_pay5 (k10_pay2 x0 s.acc x1) k10_pay3, k10_pay6 (k10_pay2 x0 s.acc x1) k10_pay4⟩ := by
  simp only [step10, if_neg h0, if_pos h1, if_pos h2]
theorem step10_F (n : ℕ) (h0 : ¬n % 8 = 0) (h1 : ¬n / 8 % 4 = 0) (h2 : n % 8 = 7) (x0 : Vec F S1024x512 .bf16) (x1 : Vec F S1024x512 .bf16) (s : St10 F) :
    step10 n x0 x1 s = ⟨(k10_pay2 x0 s.acc x1), k10_pay5 (k10_pay2 x0 s.acc x1) s.sum, k10_pay6 (k10_pay2 x0 s.acc x1) s.sq⟩ := by
  simp only [step10, if_neg h0, if_neg h1, if_pos h2]

section
variable (V : (c : Dev nD) → (b : Ref sig .tc) → Buf (Elt F) ((c : Thread nD τ).loc b))

theorem st10_zero (c : Dev nD) (t : Fin cfg10.N) (hz : t.val = 0) :
    st10 V c t.val t.isLt = step10 0 (iblk10 V c 0 t) (iblk10 V c 1 t) ⟨k10_pay1, k10_pay3, k10_pay4⟩ := by
  obtain ⟨n, hn⟩ := t
  cases n with
  | zero => rfl
  | succ n => exact absurd hz (Nat.succ_ne_zero n)
theorem st10_pos (c : Dev nD) (t : Fin cfg10.N) (hz : t.val ≠ 0) (hlt : t.val - 1 < cfg10.N) :
    st10 V c t.val t.isLt = step10 t.val (iblk10 V c 0 t) (iblk10 V c 1 t) (st10 V c (t.val - 1) hlt) := by
  obtain ⟨n, hn⟩ := t
  cases n with
  | zero => exact absurd rfl hz
  | succ n => rfl

/-! ## The body obligation -/

def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d))
    ∗ (∃ d, owns (c : Thread nD τ) (ms10_4 t) fullShare ((dat10 V c).before 4 t d)))

def bodyPost10 (c : Dev nD) (t : Fin cfg10.N) : sProp 𝕄 :=
  iprop((dat10 V c).Φ t.succ ∗ (dat10 V c).owesAt () t.succ
    ∗ (dat10 V c).leavesExact 0 t ∗ (dat10 V c).leavesExact 1 t
    ∗ (dat10 V c).leavesExact 2 t ∗ (dat10 V c).leavesExact 3 t ∗ (dat10 V c).leavesExact 4 t)

set_option maxHeartbeats 8000000 in
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl]
  rw [show (dat10 V c).Φ t.succ = PhiS10 V c (t.val + 1) t.isLt from rfl, PhiS10_succ]
  rw [show (dat10 V c).leavesExact 0 t = owns (c : Thread nD τ) (ms10_0 t) fullShare ((dat10 V c).after 0 t) from by
    unfold Dat.leavesExact; rw [liveAt10_0 t], after10_0]
  rw [show (dat10 V c).leavesExact 1 t = owns (c : Thread nD τ) (ms10_1 t) fullShare ((dat10 V c).after 1 t) from by
    unfold Dat.leavesExact; rw [liveAt10_1 t], after10_1]
  have hN : t.val < 32 := lt_of_lt_of_eq t.isLt (show cfg10.N = 32 from N_10)
  by_cases h0 : t.val % 8 = 0
  · have h2 : ¬t.val % 8 = 7 := by omega
    by_cases h1 : t.val / 8 % 4 = 0
    · by_cases hz : t.val = 0
      · rw [Dat.leavesExact_idle (dat10 V c) 2 t (idleAt10_2 t (fun h => h2 ((hcond10_2 t).mp h))) (noFlush10_2 t (fun h => h2 ((hcond10_2 t).mp h)))]
        rw [Dat.leavesExact_idle (dat10 V c) 3 t (idleAt10_3 t (fun h => h2 ((hcond10_2 t).mp h))) (noFlush10_3 t (fun h => h2 ((hcond10_2 t).mp h)))]
        rw [Dat.leavesExact_idle (dat10 V c) 4 t (idleAt10_4 t (fun h => h2 ((hcond10_2 t).mp h))) (noFlush10_4 t (fun h => h2 ((hcond10_2 t).mp h)))]
        rw [PhiS10_castSucc V c t, PhiS10_zero V c _ _ hz, PhiA10_eq, st10_zero V c t hz, step10_A _ (by omega) (by omega) (by omega)]
        dsimp only
        iintro ⟨⟨⟨⟨HS0, HS1, HS2⟩, Hr⟩, Hg⟩, Ho, ⟨%d0, H0⟩, ⟨%d1, H1⟩, H2, H3, H4⟩
        iapply ((kernelRun10_A c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) ((hcond10_0 t).mpr h0) ((hcond10_1 t).mpr h1) (fun h => h2 ((hcond10_2 t).mp h)) (iblk10 V c 0 t) (iblk10 V c 1 t) ).2.2.2 Set.univ _)
        isplitl [H0]; · iexact H0
        isplitl [H1]; · iexact H1
        isplitl [HS0]; · iexact HS0
        isplitl [HS1]; · iexact HS1
        isplitl [HS2]; · iexact HS2
        iintro ⟨H0, H1, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov10_A_S0 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) ((hcond10_0 t).mpr h0) ((hcond10_1 t).mpr h1) (fun h => h2 ((hcond10_2 t).mp h)) (iblk10 V c 0 t) (iblk10 V c 1 t) )).trans (val10_A_S0 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) ((hcond10_0 t).mpr h0) ((hcond10_1 t).mpr h1) (fun h => h2 ((hcond10_2 t).mp h)) (iblk10 V c 0 t) (iblk10 V c 1 t) )
              isplitl [HS1]
              · unfold owns; iexists _; isplitr
                swap; · iexact HS1
                ipureintro; exact (View.read_writes_eq_canon _ _ _ (cov10_A_S1 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) ((hcond10_0 t).mpr h0) ((hcond10_1 t).mpr h1) (fun h => h2 ((hcond10_2 t).mp h)) (iblk10 V c 0 t) (iblk10 V c 1 t) )).trans (val10_A_S1 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) ((hcond10_0 t).mpr h0) ((hcond10_1 t).mpr h1) (fun h => h2 ((hcond10_2 t).mp h)) (iblk10 V c 0 t) (iblk10 V c 1 t) )
              · unfold owns; iexists _; isplitr
                swap; · iexact HS2
                ipureintro; exact (View.read_writes_eq_canon _ _ _ (cov10_A_S2 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) ((hcond10_0 t).mpr h0) ((hcond10_1 t).mpr h1) (fun h => h2 ((hcond10_2 t).mp h)) (iblk10 V c 0 t) (iblk10 V c 1 t) )).trans (val10_A_S2 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) ((hcond10_0 t).mpr h0) ((hcond10_1 t).mpr h1) (fun h => h2 ((hcond10_2 t).mp h)) (iblk10 V c 0 t) (iblk10 V c 1 t) )
            · iexact Hr
          · iexact Hg
        isplitl [Ho]; · iexact Ho
        isplitl [H0]; · iexact H0
        isplitl [H1]; · iexact H1
        isplitl [H2]; · iexact H2
        isplitl [H3]; · iexact H3
        iexact H4
      · rw [Dat.leavesExact_idle (dat10 V c) 2 t (idleAt10_2 t (fun h => h2 ((hcond10_2 t).mp h))) (noFlush10_2 t (fun h => h2 ((hcond10_2 t).mp h)))]
        rw [Dat.leavesExact_idle (dat10 V c) 3 t (idleAt10_3 t (fun h => h2 ((hcond10_2 t).mp h))) (noFlush10_3 t (fun h => h2 ((hcond10_2 t).mp h)))]
        rw [Dat.leavesExact_idle (dat10 V c) 4 t (idleAt10_4 t (fun h => h2 ((hcond10_2 t).mp h))) (noFlush10_4 t (fun h => h2 ((hcond10_2 t).mp h)))]
        have hlt : t.val - 1 < cfg10.N := by omega
        rw [PhiS10_castSucc V c t, PhiS10_pos V c _ _ hz, st10_pos V c t hz hlt, step10_A _ h0 h1 h2]
        dsimp only
        iintro ⟨⟨⟨⟨HS0, HS1, HS2⟩, Hr⟩, Hg⟩, Ho, ⟨%d0, H0⟩, ⟨%d1, H1⟩, H2, H3, H4⟩
        iapply ((kernelRun10_A c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) ((hcond10_0 t).mpr h0) ((hcond10_1 t).mpr h1) (fun h => h2 ((hcond10_2 t).mp h)) (iblk10 V c 0 t) (iblk10 V c 1 t) ).2.2.2 Set.univ _)
        isplitl [H0]; · iexact H0
        isplitl [H1]; · iexact H1
        isplitl [HS0]; · iexists _; iexact HS0
        isplitl [HS1]; · iexists _; iexact HS1
        isplitl [HS2]; · iexists _; iexact HS2
        iintro ⟨H0, H1, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov10_A_S0 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) ((hcond10_0 t).mpr h0) ((hcond10_1 t).mpr h1) (fun h => h2 ((hcond10_2 t).mp h)) (iblk10 V c 0 t) (iblk10 V c 1 t) )).trans (val10_A_S0 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) ((hcond10_0 t).mpr h0) ((hcond10_1 t).mpr h1) (fun h => h2 ((hcond10_2 t).mp h)) (iblk10 V c 0 t) (iblk10 V c 1 t) )
              isplitl [HS1]
              · unfold owns; iexists _; isplitr
                swap; · iexact HS1
                ipureintro; exact (View.read_writes_eq_canon _ _ _ (cov10_A_S1 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) ((hcond10_0 t).mpr h0) ((hcond10_1 t).mpr h1) (fun h => h2 ((hcond10_2 t).mp h)) (iblk10 V c 0 t) (iblk10 V c 1 t) )).trans (val10_A_S1 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) ((hcond10_0 t).mpr h0) ((hcond10_1 t).mpr h1) (fun h => h2 ((hcond10_2 t).mp h)) (iblk10 V c 0 t) (iblk10 V c 1 t) )
              · unfold owns; iexists _; isplitr
                swap; · iexact HS2
                ipureintro; exact (View.read_writes_eq_canon _ _ _ (cov10_A_S2 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) ((hcond10_0 t).mpr h0) ((hcond10_1 t).mpr h1) (fun h => h2 ((hcond10_2 t).mp h)) (iblk10 V c 0 t) (iblk10 V c 1 t) )).trans (val10_A_S2 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) ((hcond10_0 t).mpr h0) ((hcond10_1 t).mpr h1) (fun h => h2 ((hcond10_2 t).mp h)) (iblk10 V c 0 t) (iblk10 V c 1 t) )
            · iexact Hr
          · iexact Hg
        isplitl [Ho]; · iexact Ho
        isplitl [H0]; · iexact H0
        isplitl [H1]; · iexact H1
        isplitl [H2]; · iexact H2
        isplitl [H3]; · iexact H3
        iexact H4
    · have hz : t.val ≠ 0 := by omega
      rw [Dat.leavesExact_idle (dat10 V c) 2 t (idleAt10_2 t (fun h => h2 ((hcond10_2 t).mp h))) (noFlush10_2 t (fun h => h2 ((hcond10_2 t).mp h)))]
      rw [Dat.leavesExact_idle (dat10 V c) 3 t (idleAt10_3 t (fun h => h2 ((hcond10_2 t).mp h))) (noFlush10_3 t (fun h => h2 ((hcond10_2 t).mp h)))]
      rw [Dat.leavesExact_idle (dat10 V c) 4 t (idleAt10_4 t (fun h => h2 ((hcond10_2 t).mp h))) (noFlush10_4 t (fun h => h2 ((hcond10_2 t).mp h)))]
      have hlt : t.val - 1 < cfg10.N := by omega
      rw [PhiS10_castSucc V c t, PhiS10_pos V c _ _ hz, st10_pos V c t hz hlt, step10_B _ h0 h1 h2]
      dsimp only
      iintro ⟨⟨⟨⟨HS0, HS1, HS2⟩, Hr⟩, Hg⟩, Ho, ⟨%d0, H0⟩, ⟨%d1, H1⟩, H2, H3, H4⟩
      iapply ((kernelRun10_B c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) ((hcond10_0 t).mpr h0) (fun h => h1 ((hcond10_1 t).mp h)) (fun h => h2 ((hcond10_2 t).mp h)) (iblk10 V c 0 t) (iblk10 V c 1 t) ).2 Set.univ _)
      isplitl [H0]; · iexact H0
      isplitl [H1]; · iexact H1
      isplitl [HS0]; · iexists _; iexact HS0
      iintro ⟨H0, H1, ⟨%eS0, HS0⟩⟩
      isplitl [HS0 HS1 HS2 Hr Hg]
      · isplitl [HS0 HS1 HS2 Hr]
        · isplitl [HS0 HS1 HS2]
          · isplitl [HS0]
            · unfold owns; iexists _; isplitr
              swap; · iexact HS0
              ipureintro; exact (View.read_writes_eq_canon _ _ _ (cov10_B_S0 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) ((hcond10_0 t).mpr h0) (fun h => h1 ((hcond10_1 t).mp h)) (fun h => h2 ((hcond10_2 t).mp h)) (iblk10 V c 0 t) (iblk10 V c 1 t) )).trans (val10_B_S0 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) ((hcond10_0 t).mpr h0) (fun h => h1 ((hcond10_1 t).mp h)) (fun h => h2 ((hcond10_2 t).mp h)) (iblk10 V c 0 t) (iblk10 V c 1 t) )
            isplitl [HS1]
            · iexact HS1
            · iexact HS2
          · iexact Hr
        · iexact Hg
      isplitl [Ho]; · iexact Ho
      isplitl [H0]; · iexact H0
      isplitl [H1]; · iexact H1
      isplitl [H2]; · iexact H2
      isplitl [H3]; · iexact H3
      iexact H4
  · have hz : t.val ≠ 0 := by omega
    by_cases h1 : t.val / 8 % 4 = 0
    · by_cases h2 : t.val % 8 = 7
      · rw [show (dat10 V c).leavesExact 2 t = owns (c : Thread nD τ) (ms10_2 t) fullShare ((dat10 V c).after 2 t) from by
          unfold Dat.leavesExact; rw [liveAt10_2 t ((hcond10_2 t).mpr h2)], after10_2]
        rw [show (dat10 V c).leavesExact 3 t = owns (c : Thread nD τ) (ms10_3 t) fullShare ((dat10 V c).after 3 t) from by
          unfold Dat.leavesExact; rw [liveAt10_3 t ((hcond10_2 t).mpr h2)], after10_3]
        rw [show (dat10 V c).leavesExact 4 t = owns (c : Thread nD τ) (ms10_4 t) fullShare ((dat10 V c).after 4 t) from by
          unfold Dat.leavesExact; rw [liveAt10_4 t ((hcond10_2 t).mpr h2)], after10_4]
        have hlt : t.val - 1 < cfg10.N := by omega
        rw [PhiS10_castSucc V c t, PhiS10_pos V c _ _ hz, st10_pos V c t hz hlt, step10_E _ h0 h1 h2]
        dsimp only
        iintro ⟨⟨⟨⟨HS0, HS1, HS2⟩, Hr⟩, Hg⟩, Ho, ⟨%d0, H0⟩, ⟨%d1, H1⟩, ⟨%d2, H2⟩, ⟨%d3, H3⟩, ⟨%d4, H4⟩⟩
        iapply ((kernelRun10_E c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) ((hcond10_2 t).mpr h2) (iblk10 V c 0 t) (iblk10 V c 1 t) (st10 V c (t.val - 1) hlt).acc).2.2.2.2.2.2 Set.univ _)
        isplitl [H0]; · iexact H0
        isplitl [H1]; · iexact H1
        isplitl [H2]; · iexists _; iexact H2
        isplitl [H3]; · iexists _; iexact H3
        isplitl [H4]; · iexists _; iexact H4
        isplitl [HS0]; · iexact HS0
        isplitl [HS1]; · iexists _; iexact HS1
        isplitl [HS2]; · iexists _; iexact HS2
        iintro ⟨H0, H1, ⟨%e2, H2⟩, ⟨%e3, H3⟩, ⟨%e4, H4⟩, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov10_E_S0 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) ((hcond10_2 t).mpr h2) (iblk10 V c 0 t) (iblk10 V c 1 t) (st10 V c (t.val - 1) hlt).acc)).trans (val10_E_S0 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) ((hcond10_2 t).mpr h2) (iblk10 V c 0 t) (iblk10 V c 1 t) (st10 V c (t.val - 1) hlt).acc)
              isplitl [HS1]
              · unfold owns; iexists _; isplitr
                swap; · iexact HS1
                ipureintro; exact (View.read_writes_eq_canon _ _ _ (cov10_E_S1 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) ((hcond10_2 t).mpr h2) (iblk10 V c 0 t) (iblk10 V c 1 t) (st10 V c (t.val - 1) hlt).acc)).trans (val10_E_S1 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) ((hcond10_2 t).mpr h2) (iblk10 V c 0 t) (iblk10 V c 1 t) (st10 V c (t.val - 1) hlt).acc)
              · unfold owns; iexists _; isplitr
                swap; · iexact HS2
                ipureintro; exact (View.read_writes_eq_canon _ _ _ (cov10_E_S2 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) ((hcond10_2 t).mpr h2) (iblk10 V c 0 t) (iblk10 V c 1 t) (st10 V c (t.val - 1) hlt).acc)).trans (val10_E_S2 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) ((hcond10_2 t).mpr h2) (iblk10 V c 0 t) (iblk10 V c 1 t) (st10 V c (t.val - 1) hlt).acc)
            · iexact Hr
          · iexact Hg
        isplitl [Ho]; · iexact Ho
        isplitl [H0]; · iexact H0
        isplitl [H1]; · iexact H1
        isplitl [H2]
        · unfold owns; iexists _; isplitr
          swap; · iexact H2
          ipureintro; exact (View.read_writes_eq_canon _ _ _ (cov10_E_2 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) ((hcond10_2 t).mpr h2) (iblk10 V c 0 t) (iblk10 V c 1 t) (st10 V c (t.val - 1) hlt).acc)).trans (val10_E_2 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) ((hcond10_2 t).mpr h2) (iblk10 V c 0 t) (iblk10 V c 1 t) (st10 V c (t.val - 1) hlt).acc)
        isplitl [H3]
        · unfold owns; iexists _; isplitr
          swap; · iexact H3
          ipureintro; exact (View.read_writes_eq_canon _ _ _ (cov10_E_3 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) ((hcond10_2 t).mpr h2) (iblk10 V c 0 t) (iblk10 V c 1 t) (st10 V c (t.val - 1) hlt).acc)).trans (val10_E_3 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) ((hcond10_2 t).mpr h2) (iblk10 V c 0 t) (iblk10 V c 1 t) (st10 V c (t.val - 1) hlt).acc)
        · unfold owns; iexists _; isplitr
          swap; · iexact H4
          ipureintro; exact (View.read_writes_eq_canon _ _ _ (cov10_E_4 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) ((hcond10_2 t).mpr h2) (iblk10 V c 0 t) (iblk10 V c 1 t) (st10 V c (t.val - 1) hlt).acc)).trans (val10_E_4 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) ((hcond10_2 t).mpr h2) (iblk10 V c 0 t) (iblk10 V c 1 t) (st10 V c (t.val - 1) hlt).acc)
      · rw [Dat.leavesExact_idle (dat10 V c) 2 t (idleAt10_2 t (fun h => h2 ((hcond10_2 t).mp h))) (noFlush10_2 t (fun h => h2 ((hcond10_2 t).mp h)))]
        rw [Dat.leavesExact_idle (dat10 V c) 3 t (idleAt10_3 t (fun h => h2 ((hcond10_2 t).mp h))) (noFlush10_3 t (fun h => h2 ((hcond10_2 t).mp h)))]
        rw [Dat.leavesExact_idle (dat10 V c) 4 t (idleAt10_4 t (fun h => h2 ((hcond10_2 t).mp h))) (noFlush10_4 t (fun h => h2 ((hcond10_2 t).mp h)))]
        have hlt : t.val - 1 < cfg10.N := by omega
        rw [PhiS10_castSucc V c t, PhiS10_pos V c _ _ hz, st10_pos V c t hz hlt, step10_C _ h0 h1 h2]
        dsimp only
        iintro ⟨⟨⟨⟨HS0, HS1, HS2⟩, Hr⟩, Hg⟩, Ho, ⟨%d0, H0⟩, ⟨%d1, H1⟩, H2, H3, H4⟩
        iapply ((kernelRun10_C c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) (fun h => h2 ((hcond10_2 t).mp h)) (iblk10 V c 0 t) (iblk10 V c 1 t) (st10 V c (t.val - 1) hlt).acc).2.2.2 Set.univ _)
        isplitl [H0]; · iexact H0
        isplitl [H1]; · iexact H1
        isplitl [HS0]; · iexact HS0
        isplitl [HS1]; · iexists _; iexact HS1
        isplitl [HS2]; · iexists _; iexact HS2
        iintro ⟨H0, H1, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov10_C_S0 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) (fun h => h2 ((hcond10_2 t).mp h)) (iblk10 V c 0 t) (iblk10 V c 1 t) (st10 V c (t.val - 1) hlt).acc)).trans (val10_C_S0 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) (fun h => h2 ((hcond10_2 t).mp h)) (iblk10 V c 0 t) (iblk10 V c 1 t) (st10 V c (t.val - 1) hlt).acc)
              isplitl [HS1]
              · unfold owns; iexists _; isplitr
                swap; · iexact HS1
                ipureintro; exact (View.read_writes_eq_canon _ _ _ (cov10_C_S1 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) (fun h => h2 ((hcond10_2 t).mp h)) (iblk10 V c 0 t) (iblk10 V c 1 t) (st10 V c (t.val - 1) hlt).acc)).trans (val10_C_S1 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) (fun h => h2 ((hcond10_2 t).mp h)) (iblk10 V c 0 t) (iblk10 V c 1 t) (st10 V c (t.val - 1) hlt).acc)
              · unfold owns; iexists _; isplitr
                swap; · iexact HS2
                ipureintro; exact (View.read_writes_eq_canon _ _ _ (cov10_C_S2 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) (fun h => h2 ((hcond10_2 t).mp h)) (iblk10 V c 0 t) (iblk10 V c 1 t) (st10 V c (t.val - 1) hlt).acc)).trans (val10_C_S2 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) (fun h => h2 ((hcond10_2 t).mp h)) (iblk10 V c 0 t) (iblk10 V c 1 t) (st10 V c (t.val - 1) hlt).acc)
            · iexact Hr
          · iexact Hg
        isplitl [Ho]; · iexact Ho
        isplitl [H0]; · iexact H0
        isplitl [H1]; · iexact H1
        isplitl [H2]; · iexact H2
        isplitl [H3]; · iexact H3
        iexact H4
    · by_cases h2 : t.val % 8 = 7
      · rw [show (dat10 V c).leavesExact 2 t = owns (c : Thread nD τ) (ms10_2 t) fullShare ((dat10 V c).after 2 t) from by
          unfold Dat.leavesExact; rw [liveAt10_2 t ((hcond10_2 t).mpr h2)], after10_2]
        rw [show (dat10 V c).leavesExact 3 t = owns (c : Thread nD τ) (ms10_3 t) fullShare ((dat10 V c).after 3 t) from by
          unfold Dat.leavesExact; rw [liveAt10_3 t ((hcond10_2 t).mpr h2)], after10_3]
        rw [show (dat10 V c).leavesExact 4 t = owns (c : Thread nD τ) (ms10_4 t) fullShare ((dat10 V c).after 4 t) from by
          unfold Dat.leavesExact; rw [liveAt10_4 t ((hcond10_2 t).mpr h2)], after10_4]
        have hlt : t.val - 1 < cfg10.N := by omega
        rw [PhiS10_castSucc V c t, PhiS10_pos V c _ _ hz, st10_pos V c t hz hlt, step10_F _ h0 h1 h2]
        dsimp only
        iintro ⟨⟨⟨⟨HS0, HS1, HS2⟩, Hr⟩, Hg⟩, Ho, ⟨%d0, H0⟩, ⟨%d1, H1⟩, ⟨%d2, H2⟩, ⟨%d3, H3⟩, ⟨%d4, H4⟩⟩
        iapply ((kernelRun10_F c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) (fun h => h1 ((hcond10_1 t).mp h)) ((hcond10_2 t).mpr h2) (iblk10 V c 0 t) (iblk10 V c 1 t) (st10 V c (t.val - 1) hlt).acc (st10 V c (t.val - 1) hlt).sum (st10 V c (t.val - 1) hlt).sq).2.2.2.2.2.2 Set.univ _)
        isplitl [H0]; · iexact H0
        isplitl [H1]; · iexact H1
        isplitl [H2]; · iexists _; iexact H2
        isplitl [H3]; · iexists _; iexact H3
        isplitl [H4]; · iexists _; iexact H4
        isplitl [HS0]; · iexact HS0
        isplitl [HS1]; · iexact HS1
        isplitl [HS2]; · iexact HS2
        iintro ⟨H0, H1, ⟨%e2, H2⟩, ⟨%e3, H3⟩, ⟨%e4, H4⟩, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov10_F_S0 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) (fun h => h1 ((hcond10_1 t).mp h)) ((hcond10_2 t).mpr h2) (iblk10 V c 0 t) (iblk10 V c 1 t) (st10 V c (t.val - 1) hlt).acc (st10 V c (t.val - 1) hlt).sum (st10 V c (t.val - 1) hlt).sq)).trans (val10_F_S0 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) (fun h => h1 ((hcond10_1 t).mp h)) ((hcond10_2 t).mpr h2) (iblk10 V c 0 t) (iblk10 V c 1 t) (st10 V c (t.val - 1) hlt).acc (st10 V c (t.val - 1) hlt).sum (st10 V c (t.val - 1) hlt).sq)
              isplitl [HS1]
              · unfold owns; iexists _; isplitr
                swap; · iexact HS1
                ipureintro; exact (View.read_writes_eq_canon _ _ _ (cov10_F_S1 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) (fun h => h1 ((hcond10_1 t).mp h)) ((hcond10_2 t).mpr h2) (iblk10 V c 0 t) (iblk10 V c 1 t) (st10 V c (t.val - 1) hlt).acc (st10 V c (t.val - 1) hlt).sum (st10 V c (t.val - 1) hlt).sq)).trans (val10_F_S1 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) (fun h => h1 ((hcond10_1 t).mp h)) ((hcond10_2 t).mpr h2) (iblk10 V c 0 t) (iblk10 V c 1 t) (st10 V c (t.val - 1) hlt).acc (st10 V c (t.val - 1) hlt).sum (st10 V c (t.val - 1) hlt).sq)
              · unfold owns; iexists _; isplitr
                swap; · iexact HS2
                ipureintro; exact (View.read_writes_eq_canon _ _ _ (cov10_F_S2 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) (fun h => h1 ((hcond10_1 t).mp h)) ((hcond10_2 t).mpr h2) (iblk10 V c 0 t) (iblk10 V c 1 t) (st10 V c (t.val - 1) hlt).acc (st10 V c (t.val - 1) hlt).sum (st10 V c (t.val - 1) hlt).sq)).trans (val10_F_S2 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) (fun h => h1 ((hcond10_1 t).mp h)) ((hcond10_2 t).mpr h2) (iblk10 V c 0 t) (iblk10 V c 1 t) (st10 V c (t.val - 1) hlt).acc (st10 V c (t.val - 1) hlt).sum (st10 V c (t.val - 1) hlt).sq)
            · iexact Hr
          · iexact Hg
        isplitl [Ho]; · iexact Ho
        isplitl [H0]; · iexact H0
        isplitl [H1]; · iexact H1
        isplitl [H2]
        · unfold owns; iexists _; isplitr
          swap; · iexact H2
          ipureintro; exact (View.read_writes_eq_canon _ _ _ (cov10_F_2 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) (fun h => h1 ((hcond10_1 t).mp h)) ((hcond10_2 t).mpr h2) (iblk10 V c 0 t) (iblk10 V c 1 t) (st10 V c (t.val - 1) hlt).acc (st10 V c (t.val - 1) hlt).sum (st10 V c (t.val - 1) hlt).sq)).trans (val10_F_2 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) (fun h => h1 ((hcond10_1 t).mp h)) ((hcond10_2 t).mpr h2) (iblk10 V c 0 t) (iblk10 V c 1 t) (st10 V c (t.val - 1) hlt).acc (st10 V c (t.val - 1) hlt).sum (st10 V c (t.val - 1) hlt).sq)
        isplitl [H3]
        · unfold owns; iexists _; isplitr
          swap; · iexact H3
          ipureintro; exact (View.read_writes_eq_canon _ _ _ (cov10_F_3 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) (fun h => h1 ((hcond10_1 t).mp h)) ((hcond10_2 t).mpr h2) (iblk10 V c 0 t) (iblk10 V c 1 t) (st10 V c (t.val - 1) hlt).acc (st10 V c (t.val - 1) hlt).sum (st10 V c (t.val - 1) hlt).sq)).trans (val10_F_3 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) (fun h => h1 ((hcond10_1 t).mp h)) ((hcond10_2 t).mpr h2) (iblk10 V c 0 t) (iblk10 V c 1 t) (st10 V c (t.val - 1) hlt).acc (st10 V c (t.val - 1) hlt).sum (st10 V c (t.val - 1) hlt).sq)
        · unfold owns; iexists _; isplitr
          swap; · iexact H4
          ipureintro; exact (View.read_writes_eq_canon _ _ _ (cov10_F_4 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) (fun h => h1 ((hcond10_1 t).mp h)) ((hcond10_2 t).mpr h2) (iblk10 V c 0 t) (iblk10 V c 1 t) (st10 V c (t.val - 1) hlt).acc (st10 V c (t.val - 1) hlt).sum (st10 V c (t.val - 1) hlt).sq)).trans (val10_F_4 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) (fun h => h1 ((hcond10_1 t).mp h)) ((hcond10_2 t).mpr h2) (iblk10 V c 0 t) (iblk10 V c 1 t) (st10 V c (t.val - 1) hlt).acc (st10 V c (t.val - 1) hlt).sum (st10 V c (t.val - 1) hlt).sq)
      · rw [Dat.leavesExact_idle (dat10 V c) 2 t (idleAt10_2 t (fun h => h2 ((hcond10_2 t).mp h))) (noFlush10_2 t (fun h => h2 ((hcond10_2 t).mp h)))]
        rw [Dat.leavesExact_idle (dat10 V c) 3 t (idleAt10_3 t (fun h => h2 ((hcond10_2 t).mp h))) (noFlush10_3 t (fun h => h2 ((hcond10_2 t).mp h)))]
        rw [Dat.leavesExact_idle (dat10 V c) 4 t (idleAt10_4 t (fun h => h2 ((hcond10_2 t).mp h))) (noFlush10_4 t (fun h => h2 ((hcond10_2 t).mp h)))]
        have hlt : t.val - 1 < cfg10.N := by omega
        rw [PhiS10_castSucc V c t, PhiS10_pos V c _ _ hz, st10_pos V c t hz hlt, step10_D _ h0 h1 h2]
        dsimp only
        iintro ⟨⟨⟨⟨HS0, HS1, HS2⟩, Hr⟩, Hg⟩, Ho, ⟨%d0, H0⟩, ⟨%d1, H1⟩, H2, H3, H4⟩
        iapply ((kernelRun10_D c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) (fun h => h1 ((hcond10_1 t).mp h)) (fun h => h2 ((hcond10_2 t).mp h)) (iblk10 V c 0 t) (iblk10 V c 1 t) (st10 V c (t.val - 1) hlt).acc).2 Set.univ _)
        isplitl [H0]; · iexact H0
        isplitl [H1]; · iexact H1
        isplitl [HS0]; · iexact HS0
        iintro ⟨H0, H1, ⟨%eS0, HS0⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov10_D_S0 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) (fun h => h1 ((hcond10_1 t).mp h)) (fun h => h2 ((hcond10_2 t).mp h)) (iblk10 V c 0 t) (iblk10 V c 1 t) (st10 V c (t.val - 1) hlt).acc)).trans (val10_D_S0 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) (fun h => h1 ((hcond10_1 t).mp h)) (fun h => h2 ((hcond10_2 t).mp h)) (iblk10 V c 0 t) (iblk10 V c 1 t) (st10 V c (t.val - 1) hlt).acc)
              isplitl [HS1]
              · iexact HS1
              · iexact HS2
            · iexact Hr
          · iexact Hg
        isplitl [Ho]; · iexact Ho
        isplitl [H0]; · iexact H0
        isplitl [H1]; · iexact H1
        isplitl [H2]; · iexact H2
        isplitl [H3]; · iexact H3
        iexact H4

theorem body_obligation10 (c : Dev nD) : BodyObligation (dat10 (F := F) V c) (defs₀ (F := F)) Variants.none () Set.univ := fun t => by
  rw [bigSep_W10, bigSep_W10]
  exact sound_body10 V c t

end

end Cert.KernelIdeal.Hand

end
-- ==== Proof.K.R1Runs.lean ====
/-
  Matrix-product region 1: what its six control cases share — the three branch conditions in closed form over the grid
  (point n = 16 j + 4 i + k: the accumulator is reset at k = 0, the two running rows at i = 0, the statistics are taken at
  k = 3), where the three outputs are idle and when they are written back, and the memrefs the body is called with.
-/
import proofs.«157460_j63591285784858_2_alg».proof.Proof.K.R1Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## The branch conditions -/

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
abbrev cond1_1 (i : grid1.Coords) : Prop := (Scalar.cmpi .ne (Scalar.extui (Scalar.cmpi .eq (BitVec.ofNat 32 (i 1).val) 0#32)) 0#32) = 1#1
theorem hcond1_1 : ∀ t : Fin cfg1.N, cond1_1 (grid1.coords t) ↔ t.val / 4 % 4 = 0 :=
  (by decide +kernel : ∀ t : Fin grid1.N, cond1_1 (grid1.coords t) ↔ t.val / 4 % 4 = 0)
abbrev cond1_2 (i : grid1.Coords) : Prop := k1_cond3 i = 1#1
theorem hcond1_2 : ∀ t : Fin cfg1.N, cond1_2 (grid1.coords t) ↔ t.val % 4 = 3 :=
  (by decide +kernel : ∀ t : Fin grid1.N, cond1_2 (grid1.coords t) ↔ t.val % 4 = 3)

/-! ## Idle points and write-backs of the three outputs -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_2 (grid1.coords t) → cfg1.idle 2 (grid1.coords t) = true := by decide +kernel
theorem liveAt1_2 : ∀ t : Fin cfg1.N, cond1_2 (grid1.coords t) → cfg1.idle 2 (grid1.coords t) = false := by decide +kernel
theorem noFlush1_2 : ∀ t : Fin cfg1.N, ¬cond1_2 (grid1.coords t) → (cfg1.win 2).flush t = false := by decide +kernel
theorem idleAt1_3 : ∀ t : Fin cfg1.N, ¬cond1_2 (grid1.coords t) → cfg1.idle 3 (grid1.coords t) = true := by decide +kernel
theorem liveAt1_3 : ∀ t : Fin cfg1.N, cond1_2 (grid1.coords t) → cfg1.idle 3 (grid1.coords t) = false := by decide +kernel
theorem noFlush1_3 : ∀ t : Fin cfg1.N, ¬cond1_2 (grid1.coords t) → (cfg1.win 3).flush t = false := by decide +kernel
theorem idleAt1_4 : ∀ t : Fin cfg1.N, ¬cond1_2 (grid1.coords t) → cfg1.idle 4 (grid1.coords t) = true := by decide +kernel
theorem liveAt1_4 : ∀ t : Fin cfg1.N, cond1_2 (grid1.coords t) → cfg1.idle 4 (grid1.coords t) = false := by decide +kernel
theorem noFlush1_4 : ∀ t : Fin cfg1.N, ¬cond1_2 (grid1.coords t) → (cfg1.win 4).flush t = false := by decide +kernel

/-! ## The memrefs the body is called with -/

abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
/-- Views through which contents are stated (any whole buffer of the shape serves). -/
abbrev VB1 : View sig .tc .vmem S1024x1024 .f32 := scM1_0.view
abbrev VR1 : View sig .tc .vmem S1x1024 .f32 := scM1_1.view

end Cert.Kernel.Hand

end
-- ==== Proof.K.R1RunA.lean ====
/-
  The whole body at the first point of an output column tile (k = 0, i = 0): the accumulator is cleared and receives
  the block product; the two running rows are cleared. Nothing read of what the scratch buffers held;
  Only the buffers the body stores into are mentioned; what each ends with is found by running the body: the pieces
  are the witness.
-/
import proofs.«157460_j63591285784858_2_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
noncomputable def kernelRun1_A (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : cond1_0 i) (hc1 : cond1_1 i) (hc2 : ¬cond1_2 i)
    (x0 : Vec F S1024x512 .f32) (x1 : Vec F S1024x512 .bf16)  :
    Σ' (LS0 : List (View.Piece (Elt F) S1024x1024 .f32)) (LS1 : List (View.Piece (Elt F) S1x1024 .f32)), { LS2 : List (View.Piece (Elt F) S1x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc1__matmul_stats_kernel i arg3 harg3 arg4 harg4 arg5 harg5 arg6 harg6 arg7 harg7 arg8 harg8 arg9 harg9 arg10 harg10) K } := by
  refine ⟨?_, ?_, ?_, fun E K => ?run⟩
  case run =>
    simp only [cc1__matmul_stats_kernel_eq_skeleton]; unfold cc1__matmul_stats_kernel_skel
    unfold owns
    iintro ⟨⟨%f0, %hf0, H0⟩, ⟨%f1, %hf1, H1⟩, ⟨%dHS0, %fHS0, -, HS0⟩, ⟨%dHS1, %fHS1, -, HS1⟩, ⟨%dHS2, %fHS2, -, HS2⟩, Hk⟩
    obtain rfl := harg3.eq_unread hf0; obtain rfl := harg4.eq_unread hf1

    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [HS0]; · iexists _; iexact HS0
    isplitl [HS1]; · iexists _; iexact HS1
    iexists _; iexact HS2

end Cert.Kernel.Hand

end
-- ==== Proof.K.R1RunB.lean ====
/-
  The whole body at the first reduction step of a batch tile that is not the first (k = 0, i ≠ 0): the accumulator is
  cleared and receives the block product; the two running rows keep what the tile before left.
  Only the buffers the body stores into are mentioned; what each ends with is found by running the body: the pieces
  are the witness.
-/
import proofs.«157460_j63591285784858_2_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
noncomputable def kernelRun1_B (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : cond1_0 i) (hc1 : ¬cond1_1 i) (hc2 : ¬cond1_2 i)
    (x0 : Vec F S1024x512 .f32) (x1 : Vec F S1024x512 .bf16)  :
    { LS0 : List (View.Piece (Elt F) S1024x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg8 fullShare d)
            ∗ (iprop(owns (c : Thread nD τ) arg3 fullShare x0 ∗ owns (c : Thread nD τ) arg4 fullShare x1
                ∗ (∃ f, arg8.view.loc (c : Thread nD τ) ↦[arg8.view.set]{fullShare} arg8.view.writes (Elt F) f LS0)) -∗ K ⟨⟩))
          ⊢ wp frame (wpE (defs₀ (F := F)) Variants.none c none) E (cc1__matmul_stats_kernel i arg3 harg3 arg4 harg4 arg5 harg5 arg6 harg6 arg7 harg7 arg8 harg8 arg9 harg9 arg10 harg10) K } := by
  refine ⟨?_, fun E K => ?run⟩
  case run =>
    simp only [cc1__matmul_stats_kernel_eq_skeleton]; unfold cc1__matmul_stats_kernel_skel
    unfold owns
    iintro ⟨⟨%f0, %hf0, H0⟩, ⟨%f1, %hf1, H1⟩, ⟨%dHS0, %fHS0, -, HS0⟩, Hk⟩
    obtain rfl := harg3.eq_unread hf0; obtain rfl := harg4.eq_unread hf1

    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.Kernel.Hand

end
-- ==== Proof.K.R1RunC.lean ====
/-
  The whole body at a middle reduction step of the first batch tile (0 < k < 3, i = 0): the accumulator found at what
  the step before left receives the block product; the two running rows are cleared; the three outputs are not
  touched.
  Only the buffers the body stores into are mentioned; what each ends with is found by running the body: the pieces
  are the witness.
-/
import proofs.«157460_j63591285784858_2_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
noncomputable def kernelRun1_C (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond1_0 i) (hc1 : cond1_1 i) (hc2 : ¬cond1_2 i)
    (x0 : Vec F S1024x512 .f32) (x1 : Vec F S1024x512 .bf16) (xs0 : Vec F S1024x1024 .f32) :
    Σ' (LS0 : List (View.Piece (Elt F) S1024x1024 .f32)) (LS1 : List (View.Piece (Elt F) S1x1024 .f32)), { LS2 : List (View.Piece (Elt F) S1x1024 .f32) //
      ∀ (E : Set ℕ) (K : PUnit → sProp 𝕄),
        iprop(owns (c : Thread nD τ) arg3 fullShare x0 ∗ owns (c : Thread nD τ) arg4 fullShare x1
            ∗ owns (c : Thread nD τ) arg8 fullShare xs0 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc1__matmul_stats_kernel i arg3 harg3 arg4 harg4 arg5 harg5 arg6 harg6 arg7 harg7 arg8 harg8 arg9 harg9 arg10 harg10) K } := by
  refine ⟨?_, ?_, ?_, fun E K => ?run⟩
  case run =>
    simp only [cc1__matmul_stats_kernel_eq_skeleton]; unfold cc1__matmul_stats_kernel_skel
    unfold owns
    iintro ⟨⟨%f0, %hf0, H0⟩, ⟨%f1, %hf1, H1⟩, ⟨%fHS0, %hfHS0, HS0⟩, ⟨%dHS1, %fHS1, -, HS1⟩, ⟨%dHS2, %fHS2, -, HS2⟩, Hk⟩
    obtain rfl := harg3.eq_unread hf0; obtain rfl := harg4.eq_unread hf1
    obtain rfl := harg8.eq_unread hfHS0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [HS0]; · iexists _; iexact HS0
    isplitl [HS1]; · iexists _; iexact HS1
    iexists _; iexact HS2

end Cert.Kernel.Hand

end
-- ==== Proof.K.R1RunD.lean ====
/-
  The whole body at a middle reduction step of a batch tile that is not the first (0 < k < 3, i ≠ 0): the accumulator
  found at what the step before left receives the block product; the two running rows keep what the tile before left;

  Only the buffers the body stores into are mentioned; what each ends with is found by running the body: the pieces
  are the witness.
-/
import proofs.«157460_j63591285784858_2_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
noncomputable def kernelRun1_D (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond1_0 i) (hc1 : ¬cond1_1 i) (hc2 : ¬cond1_2 i)
    (x0 : Vec F S1024x512 .f32) (x1 : Vec F S1024x512 .bf16) (xs0 : Vec F S1024x1024 .f32) :
    { LS0 : List (View.Piece (Elt F) S1024x1024 .f32) //
      ∀ (E : Set ℕ) (K : PUnit → sProp 𝕄),
        iprop(owns (c : Thread nD τ) arg3 fullShare x0 ∗ owns (c : Thread nD τ) arg4 fullShare x1
            ∗ owns (c : Thread nD τ) arg8 fullShare xs0
            ∗ (iprop(owns (c : Thread nD τ) arg3 fullShare x0 ∗ owns (c : Thread nD τ) arg4 fullShare x1
                ∗ (∃ f, arg8.view.loc (c : Thread nD τ) ↦[arg8.view.set]{fullShare} arg8.view.writes (Elt F) f LS0)) -∗ K ⟨⟩))
          ⊢ wp frame (wpE (defs₀ (F := F)) Variants.none c none) E (cc1__matmul_stats_kernel i arg3 harg3 arg4 harg4 arg5 harg5 arg6 harg6 arg7 harg7 arg8 harg8 arg9 harg9 arg10 harg10) K } := by
  refine ⟨?_, fun E K => ?run⟩
  case run =>
    simp only [cc1__matmul_stats_kernel_eq_skeleton]; unfold cc1__matmul_stats_kernel_skel
    unfold owns
    iintro ⟨⟨%f0, %hf0, H0⟩, ⟨%f1, %hf1, H1⟩, ⟨%fHS0, %hfHS0, HS0⟩, Hk⟩
    obtain rfl := harg3.eq_unread hf0; obtain rfl := harg4.eq_unread hf1
    obtain rfl := harg8.eq_unread hfHS0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.Kernel.Hand

end
-- ==== Proof.K.R1RunE.lean ====
/-
  The whole body at the last reduction step of the first batch tile (k = 3, i = 0): the accumulator found at what the
  step before left receives the block product and is copied to the product's output block; the two running rows are
  cleared and receive its column sums and column sums of squares; the mean and the clamped variance are written from
  them.
  Only the buffers the body stores into are mentioned; what each ends with is found by running the body: the pieces
  are the witness.
-/
import proofs.«157460_j63591285784858_2_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
noncomputable def kernelRun1_E (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond1_0 i) (hc1 : cond1_1 i) (hc2 : cond1_2 i)
    (x0 : Vec F S1024x512 .f32) (x1 : Vec F S1024x512 .bf16) (xs0 : Vec F S1024x1024 .f32) :
    Σ' (L2 : List (View.Piece (Elt F) S1024x1024 .f32)) (L3 : List (View.Piece (Elt F) S1x1024 .f32)) (L4 : List (View.Piece (Elt F) S1x1024 .f32)) (LS0 : List (View.Piece (Elt F) S1024x1024 .f32)) (LS1 : List (View.Piece (Elt F) S1x1024 .f32)), { LS2 : List (View.Piece (Elt F) S1x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc1__matmul_stats_kernel i arg3 harg3 arg4 harg4 arg5 harg5 arg6 harg6 arg7 harg7 arg8 harg8 arg9 harg9 arg10 harg10) K } := by
  refine ⟨?_, ?_, ?_, ?_, ?_, ?_, fun E K => ?run⟩
  case run =>
    simp only [cc1__matmul_stats_kernel_eq_skeleton]; unfold cc1__matmul_stats_kernel_skel
    unfold owns
    iintro ⟨⟨%f0, %hf0, H0⟩, ⟨%f1, %hf1, H1⟩, ⟨%dH2, %fH2, -, H2⟩, ⟨%dH3, %fH3, -, H3⟩, ⟨%dH4, %fH4, -, H4⟩, ⟨%fHS0, %hfHS0, HS0⟩, ⟨%dHS1, %fHS1, -, HS1⟩, ⟨%dHS2, %fHS2, -, HS2⟩, Hk⟩
    obtain rfl := harg3.eq_unread hf0; obtain rfl := harg4.eq_unread hf1
    obtain rfl := harg8.eq_unread hfHS0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    iexists _; iexact HS2

end Cert.Kernel.Hand

end
-- ==== Proof.K.R1RunF.lean ====
/-
  The whole body at the last reduction step of a batch tile that is not the first (k = last, i ≠ 0): the accumulator
  found at what the step before left receives the block product and is copied to the product's output block; its column
  sums and column sums of squares are added into the two running rows found at what the tile before left; the mean and
  the clamped variance are written from them.
  Only the buffers the body stores into are mentioned; what each ends with is found by running the body: the pieces
  are the witness.
-/
import proofs.«157460_j63591285784858_2_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
noncomputable def kernelRun1_F (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond1_0 i) (hc1 : ¬cond1_1 i) (hc2 : cond1_2 i)
    (x0 : Vec F S1024x512 .f32) (x1 : Vec F S1024x512 .bf16) (xs0 : Vec F S1024x1024 .f32) (xs1 : Vec F S1x1024 .f32) (xs2 : Vec F S1x1024 .f32) :
    Σ' (L2 : List (View.Piece (Elt F) S1024x1024 .f32)) (L3 : List (View.Piece (Elt F) S1x1024 .f32)) (L4 : List (View.Piece (Elt F) S1x1024 .f32)) (LS0 : List (View.Piece (Elt F) S1024x1024 .f32)) (LS1 : List (View.Piece (Elt F) S1x1024 .f32)), { LS2 : List (View.Piece (Elt F) S1x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc1__matmul_stats_kernel i arg3 harg3 arg4 harg4 arg5 harg5 arg6 harg6 arg7 harg7 arg8 harg8 arg9 harg9 arg10 harg10) K } := by
  refine ⟨?_, ?_, ?_, ?_, ?_, ?_, fun E K => ?run⟩
  case run =>
    simp only [cc1__matmul_stats_kernel_eq_skeleton]; unfold cc1__matmul_stats_kernel_skel
    unfold owns
    iintro ⟨⟨%f0, %hf0, H0⟩, ⟨%f1, %hf1, H1⟩, ⟨%dH2, %fH2, -, H2⟩, ⟨%dH3, %fH3, -, H3⟩, ⟨%dH4, %fH4, -, H4⟩, ⟨%fHS0, %hfHS0, HS0⟩, ⟨%fHS1, %hfHS1, HS1⟩, ⟨%fHS2, %hfHS2, HS2⟩, Hk⟩
    obtain rfl := harg3.eq_unread hf0; obtain rfl := harg4.eq_unread hf1
    obtain rfl := harg8.eq_unread hfHS0; obtain rfl := harg9.eq_unread hfHS1; obtain rfl := harg10.eq_unread hfHS2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    iexists _; iexact HS2

end Cert.Kernel.Hand

end
-- ==== Proof.K.R1Body.lean ====
/-
  Matrix-product region 1: the body obligation. At every grid point the point's control case is read off the
  closed forms of the three branch conditions; the case's whole-body run applies, the invariant handing it the scratch
  buffers at the state the point before left (at anything at the first point) and taking them back at this point's
  state; each stored buffer's found pieces read back as the payload the closed-form state names (one covering store,
  or a store after a clearing store), so the proof data's statements hold; an output the case does not store is handed
  back as it was found.
-/
import proofs.«157460_j63591285784858_2_alg».proof.Proof.K.R1RunA
import proofs.«157460_j63591285784858_2_alg».proof.Proof.K.R1RunB
import proofs.«157460_j63591285784858_2_alg».proof.Proof.K.R1RunC
import proofs.«157460_j63591285784858_2_alg».proof.Proof.K.R1RunD
import proofs.«157460_j63591285784858_2_alg».proof.Proof.K.R1RunE
import proofs.«157460_j63591285784858_2_alg».proof.Proof.K.R1RunF
import proofs.«157460_j63591285784858_2_alg».proof.Proof.LibUnitPieces
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

open Cert

/-! ## What each case's stored buffers end with -/

/-! ### Case A -/

section
variable (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : cond1_0 i) (hc1 : cond1_1 i) (hc2 : ¬cond1_2 i)
    (x0 : Vec F S1024x512 .f32) (x1 : Vec F S1024x512 .bf16)

theorem cov1_A_S0 (y : S1024x1024.Idx) : ∃ pc ∈ (kernelRun1_A c i arg3 harg3 arg4 harg4 arg5 harg5 arg6 harg6 arg7 harg7 arg8 harg8 arg9 harg9 arg10 harg10 hc0 hc1 hc2 x0 x1 ).1, y ∈ pc.1.set :=
  View.cover_of_tiledL _ S1024x1024.size (by sl_kernel_rfl) y
theorem val1_A_S0 : View.canon (kernelRun1_A c i arg3 harg3 arg4 harg4 arg5 harg5 arg6 harg6 arg7 harg7 arg8 harg8 arg9 harg9 arg10 harg10 hc0 hc1 hc2 x0 x1 ).1 = (k1_pay2 x0 k1_pay1 x1) := by
  unfold kernelRun1_A
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov1_A_S1 (y : S1x1024.Idx) : ∃ pc ∈ (kernelRun1_A c i arg3 harg3 arg4 harg4 arg5 harg5 arg6 harg6 arg7 harg7 arg8 harg8 arg9 harg9 arg10 harg10 hc0 hc1 hc2 x0 x1 ).2.1, y ∈ pc.1.set :=
  View.cover_of_tiledL _ S1x1024.size (by sl_kernel_rfl) y
theorem val1_A_S1 : View.canon (kernelRun1_A c i arg3 harg3 arg4 harg4 arg5 harg5 arg6 harg6 arg7 harg7 arg8 harg8 arg9 harg9 arg10 harg10 hc0 hc1 hc2 x0 x1 ).2.1 = k1_pay3 := by
  unfold kernelRun1_A
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov1_A_S2 (y : S1x1024.Idx) : ∃ pc ∈ (kernelRun1_A c i arg3 harg3 arg4 harg4 arg5 harg5 arg6 harg6 arg7 harg7 arg8 harg8 arg9 harg9 arg10 harg10 hc0 hc1 hc2 x0 x1 ).2.2.1, y ∈ pc.1.set :=
  View.cover_of_tiledL _ S1x1024.size (by sl_kernel_rfl) y
theorem val1_A_S2 : View.canon (kernelRun1_A c i arg3 harg3 arg4 harg4 arg5 harg5 arg6 harg6 arg7 harg7 arg8 harg8 arg9 harg9 arg10 harg10 hc0 hc1 hc2 x0 x1 ).2.2.1 = k1_pay4 := by
  unfold kernelRun1_A
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case B -/

section
variable (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : cond1_0 i) (hc1 : ¬cond1_1 i) (hc2 : ¬cond1_2 i)
    (x0 : Vec F S1024x512 .f32) (x1 : Vec F S1024x512 .bf16)

theorem cov1_B_S0 (y : S1024x1024.Idx) : ∃ pc ∈ (kernelRun1_B c i arg3 harg3 arg4 harg4 arg5 harg5 arg6 harg6 arg7 harg7 arg8 harg8 arg9 harg9 arg10 harg10 hc0 hc1 hc2 x0 x1 ).1, y ∈ pc.1.set :=
  View.cover_of_tiledL _ S1024x1024.size (by sl_kernel_rfl) y
theorem val1_B_S0 : View.canon (kernelRun1_B c i arg3 harg3 arg4 harg4 arg5 harg5 arg6 harg6 arg7 harg7 arg8 harg8 arg9 harg9 arg10 harg10 hc0 hc1 hc2 x0 x1 ).1 = (k1_pay2 x0 k1_pay1 x1) := by
  unfold kernelRun1_B
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case C -/

section
variable (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond1_0 i) (hc1 : cond1_1 i) (hc2 : ¬cond1_2 i)
    (x0 : Vec F S1024x512 .f32) (x1 : Vec F S1024x512 .bf16) (xs0 : Vec F S1024x1024 .f32)

theorem cov1_C_S0 (y : S1024x1024.Idx) : ∃ pc ∈ (kernelRun1_C c i arg3 harg3 arg4 harg4 arg5 harg5 arg6 harg6 arg7 harg7 arg8 harg8 arg9 harg9 arg10 harg10 hc0 hc1 hc2 x0 x1 xs0).1, y ∈ pc.1.set :=
  View.cover_of_tiledL _ S1024x1024.size (by sl_kernel_rfl) y
theorem val1_C_S0 : View.canon (kernelRun1_C c i arg3 harg3 arg4 harg4 arg5 harg5 arg6 harg6 arg7 harg7 arg8 harg8 arg9 harg9 arg10 harg10 hc0 hc1 hc2 x0 x1 xs0).1 = (k1_pay2 x0 xs0 x1) := by
  unfold kernelRun1_C
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov1_C_S1 (y : S1x1024.Idx) : ∃ pc ∈ (kernelRun1_C c i arg3 harg3 arg4 harg4 arg5 harg5 arg6 harg6 arg7 harg7 arg8 harg8 arg9 harg9 arg10 harg10 hc0 hc1 hc2 x0 x1 xs0).2.1, y ∈ pc.1.set :=
  View.cover_of_tiledL _ S1x1024.size (by sl_kernel_rfl) y
theorem val1_C_S1 : View.canon (kernelRun1_C c i arg3 harg3 arg4 harg4 arg5 harg5 arg6 harg6 arg7 harg7 arg8 harg8 arg9 harg9 arg10 harg10 hc0 hc1 hc2 x0 x1 xs0).2.1 = k1_pay3 := by
  unfold kernelRun1_C
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov1_C_S2 (y : S1x1024.Idx) : ∃ pc ∈ (kernelRun1_C c i arg3 harg3 arg4 harg4 arg5 harg5 arg6 harg6 arg7 harg7 arg8 harg8 arg9 harg9 arg10 harg10 hc0 hc1 hc2 x0 x1 xs0).2.2.1, y ∈ pc.1.set :=
  View.cover_of_tiledL _ S1x1024.size (by sl_kernel_rfl) y
theorem val1_C_S2 : View.canon (kernelRun1_C c i arg3 harg3 arg4 harg4 arg5 harg5 arg6 harg6 arg7 harg7 arg8 harg8 arg9 harg9 arg10 harg10 hc0 hc1 hc2 x0 x1 xs0).2.2.1 = k1_pay4 := by
  unfold kernelRun1_C
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case D -/

section
variable (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond1_0 i) (hc1 : ¬cond1_1 i) (hc2 : ¬cond1_2 i)
    (x0 : Vec F S1024x512 .f32) (x1 : Vec F S1024x512 .bf16) (xs0 : Vec F S1024x1024 .f32)

theorem cov1_D_S0 (y : S1024x1024.Idx) : ∃ pc ∈ (kernelRun1_D c i arg3 harg3 arg4 harg4 arg5 harg5 arg6 harg6 arg7 harg7 arg8 harg8 arg9 harg9 arg10 harg10 hc0 hc1 hc2 x0 x1 xs0).1, y ∈ pc.1.set :=
  View.cover_of_tiledL _ S1024x1024.size (by sl_kernel_rfl) y
theorem val1_D_S0 : View.canon (kernelRun1_D c i arg3 harg3 arg4 harg4 arg5 harg5 arg6 harg6 arg7 harg7 arg8 harg8 arg9 harg9 arg10 harg10 hc0 hc1 hc2 x0 x1 xs0).1 = (k1_pay2 x0 xs0 x1) := by
  unfold kernelRun1_D
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case E -/

section
variable (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond1_0 i) (hc1 : cond1_1 i) (hc2 : cond1_2 i)
    (x0 : Vec F S1024x512 .f32) (x1 : Vec F S1024x512 .bf16) (xs0 : Vec F S1024x1024 .f32)

theorem cov1_E_2 (y : S1024x1024.Idx) : ∃ pc ∈ (kernelRun1_E c i arg3 harg3 arg4 harg4 arg5 harg5 arg6 harg6 arg7 harg7 arg8 harg8 arg9 harg9 arg10 harg10 hc0 hc1 hc2 x0 x1 xs0).1, y ∈ pc.1.set :=
  View.cover_of_tiledL _ S1024x1024.size (by sl_kernel_rfl) y
theorem val1_E_2 : View.canon (kernelRun1_E c i arg3 harg3 arg4 harg4 arg5 harg5 arg6 harg6 arg7 harg7 arg8 harg8 arg9 harg9 arg10 harg10 hc0 hc1 hc2 x0 x1 xs0).1 = (k1_pay2 x0 xs0 x1) := by
  unfold kernelRun1_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov1_E_3 (y : S1x1024.Idx) : ∃ pc ∈ (kernelRun1_E c i arg3 harg3 arg4 harg4 arg5 harg5 arg6 harg6 arg7 harg7 arg8 harg8 arg9 harg9 arg10 harg10 hc0 hc1 hc2 x0 x1 xs0).2.1, y ∈ pc.1.set :=
  View.cover_of_tiledL _ S1x1024.size (by sl_kernel_rfl) y
theorem val1_E_3 : View.canon (kernelRun1_E c i arg3 harg3 arg4 harg4 arg5 harg5 arg6 harg6 arg7 harg7 arg8 harg8 arg9 harg9 arg10 harg10 hc0 hc1 hc2 x0 x1 xs0).2.1 = (k1_pay7 (k1_pay5 (k1_pay2 x0 xs0 x1) k1_pay3)) := by
  unfold kernelRun1_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov1_E_4 (y : S1x1024.Idx) : ∃ pc ∈ (kernelRun1_E c i arg3 harg3 arg4 harg4 arg5 harg5 arg6 harg6 arg7 harg7 arg8 harg8 arg9 harg9 arg10 harg10 hc0 hc1 hc2 x0 x1 xs0).2.2.1, y ∈ pc.1.set :=
  View.cover_of_tiledL _ S1x1024.size (by sl_kernel_rfl) y
theorem val1_E_4 : View.canon (kernelRun1_E c i arg3 harg3 arg4 harg4 arg5 harg5 arg6 harg6 arg7 harg7 arg8 harg8 arg9 harg9 arg10 harg10 hc0 hc1 hc2 x0 x1 xs0).2.2.1 = (k1_pay8 (k1_pay5 (k1_pay2 x0 xs0 x1) k1_pay3) (k1_pay6 (k1_pay2 x0 xs0 x1) k1_pay4)) := by
  unfold kernelRun1_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov1_E_S0 (y : S1024x1024.Idx) : ∃ pc ∈ (kernelRun1_E c i arg3 harg3 arg4 harg4 arg5 harg5 arg6 harg6 arg7 harg7 arg8 harg8 arg9 harg9 arg10 harg10 hc0 hc1 hc2 x0 x1 xs0).2.2.2.1, y ∈ pc.1.set :=
  View.cover_of_tiledL _ S1024x1024.size (by sl_kernel_rfl) y
theorem val1_E_S0 : View.canon (kernelRun1_E c i arg3 harg3 arg4 harg4 arg5 harg5 arg6 harg6 arg7 harg7 arg8 harg8 arg9 harg9 arg10 harg10 hc0 hc1 hc2 x0 x1 xs0).2.2.2.1 = (k1_pay2 x0 xs0 x1) := by
  unfold kernelRun1_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov1_E_S1 (y : S1x1024.Idx) : ∃ pc ∈ (kernelRun1_E c i arg3 harg3 arg4 harg4 arg5 harg5 arg6 harg6 arg7 harg7 arg8 harg8 arg9 harg9 arg10 harg10 hc0 hc1 hc2 x0 x1 xs0).2.2.2.2.1, y ∈ pc.1.set :=
  View.cover_of_tiledL _ S1x1024.size (by sl_kernel_rfl) y
theorem val1_E_S1 : View.canon (kernelRun1_E c i arg3 harg3 arg4 harg4 arg5 harg5 arg6 harg6 arg7 harg7 arg8 harg8 arg9 harg9 arg10 harg10 hc0 hc1 hc2 x0 x1 xs0).2.2.2.2.1 = (k1_pay5 (k1_pay2 x0 xs0 x1) k1_pay3) := by
  unfold kernelRun1_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov1_E_S2 (y : S1x1024.Idx) : ∃ pc ∈ (kernelRun1_E c i arg3 harg3 arg4 harg4 arg5 harg5 arg6 harg6 arg7 harg7 arg8 harg8 arg9 harg9 arg10 harg10 hc0 hc1 hc2 x0 x1 xs0).2.2.2.2.2.1, y ∈ pc.1.set :=
  View.cover_of_tiledL _ S1x1024.size (by sl_kernel_rfl) y
theorem val1_E_S2 : View.canon (kernelRun1_E c i arg3 harg3 arg4 harg4 arg5 harg5 arg6 harg6 arg7 harg7 arg8 harg8 arg9 harg9 arg10 harg10 hc0 hc1 hc2 x0 x1 xs0).2.2.2.2.2.1 = (k1_pay6 (k1_pay2 x0 xs0 x1) k1_pay4) := by
  unfold kernelRun1_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case F -/

section
variable (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond1_0 i) (hc1 : ¬cond1_1 i) (hc2 : cond1_2 i)
    (x0 : Vec F S1024x512 .f32) (x1 : Vec F S1024x512 .bf16) (xs0 : Vec F S1024x1024 .f32) (xs1 : Vec F S1x1024 .f32) (xs2 : Vec F S1x1024 .f32)

theorem cov1_F_2 (y : S1024x1024.Idx) : ∃ pc ∈ (kernelRun1_F c i arg3 harg3 arg4 harg4 arg5 harg5 arg6 harg6 arg7 harg7 arg8 harg8 arg9 harg9 arg10 harg10 hc0 hc1 hc2 x0 x1 xs0 xs1 xs2).1, y ∈ pc.1.set :=
  View.cover_of_tiledL _ S1024x1024.size (by sl_kernel_rfl) y
theorem val1_F_2 : View.canon (kernelRun1_F c i arg3 harg3 arg4 harg4 arg5 harg5 arg6 harg6 arg7 harg7 arg8 harg8 arg9 harg9 arg10 harg10 hc0 hc1 hc2 x0 x1 xs0 xs1 xs2).1 = (k1_pay2 x0 xs0 x1) := by
  unfold kernelRun1_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov1_F_3 (y : S1x1024.Idx) : ∃ pc ∈ (kernelRun1_F c i arg3 harg3 arg4 harg4 arg5 harg5 arg6 harg6 arg7 harg7 arg8 harg8 arg9 harg9 arg10 harg10 hc0 hc1 hc2 x0 x1 xs0 xs1 xs2).2.1, y ∈ pc.1.set :=
  View.cover_of_tiledL _ S1x1024.size (by sl_kernel_rfl) y
theorem val1_F_3 : View.canon (kernelRun1_F c i arg3 harg3 arg4 harg4 arg5 harg5 arg6 harg6 arg7 harg7 arg8 harg8 arg9 harg9 arg10 harg10 hc0 hc1 hc2 x0 x1 xs0 xs1 xs2).2.1 = (k1_pay7 (k1_pay5 (k1_pay2 x0 xs0 x1) xs1)) := by
  unfold kernelRun1_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov1_F_4 (y : S1x1024.Idx) : ∃ pc ∈ (kernelRun1_F c i arg3 harg3 arg4 harg4 arg5 harg5 arg6 harg6 arg7 harg7 arg8 harg8 arg9 harg9 arg10 harg10 hc0 hc1 hc2 x0 x1 xs0 xs1 xs2).2.2.1, y ∈ pc.1.set :=
  View.cover_of_tiledL _ S1x1024.size (by sl_kernel_rfl) y
theorem val1_F_4 : View.canon (kernelRun1_F c i arg3 harg3 arg4 harg4 arg5 harg5 arg6 harg6 arg7 harg7 arg8 harg8 arg9 harg9 arg10 harg10 hc0 hc1 hc2 x0 x1 xs0 xs1 xs2).2.2.1 = (k1_pay8 (k1_pay5 (k1_pay2 x0 xs0 x1) xs1) (k1_pay6 (k1_pay2 x0 xs0 x1) xs2)) := by
  unfold kernelRun1_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov1_F_S0 (y : S1024x1024.Idx) : ∃ pc ∈ (kernelRun1_F c i arg3 harg3 arg4 harg4 arg5 harg5 arg6 harg6 arg7 harg7 arg8 harg8 arg9 harg9 arg10 harg10 hc0 hc1 hc2 x0 x1 xs0 xs1 xs2).2.2.2.1, y ∈ pc.1.set :=
  View.cover_of_tiledL _ S1024x1024.size (by sl_kernel_rfl) y
theorem val1_F_S0 : View.canon (kernelRun1_F c i arg3 harg3 arg4 harg4 arg5 harg5 arg6 harg6 arg7 harg7 arg8 harg8 arg9 harg9 arg10 harg10 hc0 hc1 hc2 x0 x1 xs0 xs1 xs2).2.2.2.1 = (k1_pay2 x0 xs0 x1) := by
  unfold kernelRun1_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov1_F_S1 (y : S1x1024.Idx) : ∃ pc ∈ (kernelRun1_F c i arg3 harg3 arg4 harg4 arg5 harg5 arg6 harg6 arg7 harg7 arg8 harg8 arg9 harg9 arg10 harg10 hc0 hc1 hc2 x0 x1 xs0 xs1 xs2).2.2.2.2.1, y ∈ pc.1.set :=
  View.cover_of_tiledL _ S1x1024.size (by sl_kernel_rfl) y
theorem val1_F_S1 : View.canon (kernelRun1_F c i arg3 harg3 arg4 harg4 arg5 harg5 arg6 harg6 arg7 harg7 arg8 harg8 arg9 harg9 arg10 harg10 hc0 hc1 hc2 x0 x1 xs0 xs1 xs2).2.2.2.2.1 = (k1_pay5 (k1_pay2 x0 xs0 x1) xs1) := by
  unfold kernelRun1_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov1_F_S2 (y : S1x1024.Idx) : ∃ pc ∈ (kernelRun1_F c i arg3 harg3 arg4 harg4 arg5 harg5 arg6 harg6 arg7 harg7 arg8 harg8 arg9 harg9 arg10 harg10 hc0 hc1 hc2 x0 x1 xs0 xs1 xs2).2.2.2.2.2.1, y ∈ pc.1.set :=
  View.cover_of_tiledL _ S1x1024.size (by sl_kernel_rfl) y
theorem val1_F_S2 : View.canon (kernelRun1_F c i arg3 harg3 arg4 harg4 arg5 harg5 arg6 harg6 arg7 harg7 arg8 harg8 arg9 harg9 arg10 harg10 hc0 hc1 hc2 x0 x1 xs0 xs1 xs2).2.2.2.2.2.1 = (k1_pay6 (k1_pay2 x0 xs0 x1) xs2) := by
  unfold kernelRun1_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ## One grid point of the closed-form state, case by case -/

theorem step1_A (n : ℕ) (h0 : n % 4 = 0) (h1 : n / 4 % 4 = 0) (h2 : ¬n % 4 = 3) (x0 : Vec F S1024x512 .f32) (x1 : Vec F S1024x512 .bf16) (s : St1 F) :
    step1 n x0 x1 s = ⟨(k1_pay2 x0 k1_pay1 x1), k1_pay3, k1_pay4⟩ := by
  simp only [step1, if_pos h0, if_pos h1, if_neg h2]
theorem step1_B (n : ℕ) (h0 : n % 4 = 0) (h1 : ¬n / 4 % 4 = 0) (h2 : ¬n % 4 = 3) (x0 : Vec F S1024x512 .f32) (x1 : Vec F S1024x512 .bf16) (s : St1 F) :
    step1 n x0 x1 s = ⟨(k1_pay2 x0 k1_pay1 x1), s.sum, s.sq⟩ := by
  simp only [step1, if_pos h0, if_neg h1, if_neg h2]
theorem step1_C (n : ℕ) (h0 : ¬n % 4 = 0) (h1 : n / 4 % 4 = 0) (h2 : ¬n % 4 = 3) (x0 : Vec F S1024x512 .f32) (x1 : Vec F S1024x512 .bf16) (s : St1 F) :
    step1 n x0 x1 s = ⟨(k1_pay2 x0 s.acc x1), k1_pay3, k1_pay4⟩ := by
  simp only [step1, if_neg h0, if_pos h1, if_neg h2]
theorem step1_D (n : ℕ) (h0 : ¬n % 4 = 0) (h1 : ¬n / 4 % 4 = 0) (h2 : ¬n % 4 = 3) (x0 : Vec F S1024x512 .f32) (x1 : Vec F S1024x512 .bf16) (s : St1 F) :
    step1 n x0 x1 s = ⟨(k1_pay2 x0 s.acc x1), s.sum, s.sq⟩ := by
  simp only [step1, if_neg h0, if_neg h1, if_neg h2]
theorem step1_E (n : ℕ) (h0 : ¬n % 4 = 0) (h1 : n / 4 % 4 = 0) (h2 : n % 4 = 3) (x0 : Vec F S1024x512 .f32) (x1 : Vec F S1024x512 .bf16) (s : St1 F) :
    step1 n x0 x1 s = ⟨(k1_pay2 x0 s.acc x1), k1_pay5 (k1_pay2 x0 s.acc x1) k1_pay3, k1_pay6 (k1_pay2 x0 s.acc x1) k1_pay4⟩ := by
  simp only [step1, if_neg h0, if_pos h1, if_pos h2]
theorem step1_F (n : ℕ) (h0 : ¬n % 4 = 0) (h1 : ¬n / 4 % 4 = 0) (h2 : n % 4 = 3) (x0 : Vec F S1024x512 .f32) (x1 : Vec F S1024x512 .bf16) (s : St1 F) :
    step1 n x0 x1 s = ⟨(k1_pay2 x0 s.acc x1), k1_pay5 (k1_pay2 x0 s.acc x1) s.sum, k1_pay6 (k1_pay2 x0 s.acc x1) s.sq⟩ := by
  simp only [step1, if_neg h0, if_neg h1, if_pos h2]

section
variable (V : (c : Dev nD) → (b : Ref sig .tc) → Buf (Elt F) ((c : Thread nD τ).loc b))

theorem st1_zero (c : Dev nD) (t : Fin cfg1.N) (hz : t.val = 0) :
    st1 V c t.val t.isLt = step1 0 (iblk1 V c 0 t) (iblk1 V c 1 t) ⟨k1_pay1, k1_pay3, k1_pay4⟩ := by
  obtain ⟨n, hn⟩ := t
  cases n with
  | zero => rfl
  | succ n => exact absurd hz (Nat.succ_ne_zero n)
theorem st1_pos (c : Dev nD) (t : Fin cfg1.N) (hz : t.val ≠ 0) (hlt : t.val - 1 < cfg1.N) :
    st1 V c t.val t.isLt = step1 t.val (iblk1 V c 0 t) (iblk1 V c 1 t) (st1 V c (t.val - 1) hlt) := by
  obtain ⟨n, hn⟩ := t
  cases n with
  | zero => exact absurd rfl hz
  | succ n => rfl

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t
    ∗ (dat1 V c).leavesExact 2 t ∗ (dat1 V c).leavesExact 3 t ∗ (dat1 V c).leavesExact 4 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 64 := lt_of_lt_of_eq t.isLt (show cfg1.N = 64 from N_1)
  by_cases h0 : t.val % 4 = 0
  · have h2 : ¬t.val % 4 = 3 := by omega
    by_cases h1 : t.val / 4 % 4 = 0
    · by_cases hz : t.val = 0
      · rw [Dat.leavesExact_idle (dat1 V c) 2 t (idleAt1_2 t (fun h => h2 ((hcond1_2 t).mp h))) (noFlush1_2 t (fun h => h2 ((hcond1_2 t).mp h)))]
        rw [Dat.leavesExact_idle (dat1 V c) 3 t (idleAt1_3 t (fun h => h2 ((hcond1_2 t).mp h))) (noFlush1_3 t (fun h => h2 ((hcond1_2 t).mp h)))]
        rw [Dat.leavesExact_idle (dat1 V c) 4 t (idleAt1_4 t (fun h => h2 ((hcond1_2 t).mp h))) (noFlush1_4 t (fun h => h2 ((hcond1_2 t).mp h)))]
        rw [PhiS1_castSucc V c t, PhiS1_zero V c _ _ hz, PhiA1_eq, st1_zero V c t hz, step1_A _ (by omega) (by omega) (by omega)]
        dsimp only
        iintro ⟨⟨⟨⟨HS0, HS1, HS2⟩, Hr⟩, Hg⟩, Ho, ⟨%d0, H0⟩, ⟨%d1, H1⟩, H2, H3, H4⟩
        iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) ).2.2.2 Set.univ _)
        isplitl [H0]; · iexact H0
        isplitl [H1]; · iexact H1
        isplitl [HS0]; · iexact HS0
        isplitl [HS1]; · iexact HS1
        isplitl [HS2]; · iexact HS2
        iintro ⟨H0, H1, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov1_A_S0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) )).trans (val1_A_S0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) )
              isplitl [HS1]
              · unfold owns; iexists _; isplitr
                swap; · iexact HS1
                ipureintro; exact (View.read_writes_eq_canon _ _ _ (cov1_A_S1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) )).trans (val1_A_S1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) )
              · unfold owns; iexists _; isplitr
                swap; · iexact HS2
                ipureintro; exact (View.read_writes_eq_canon _ _ _ (cov1_A_S2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) )).trans (val1_A_S2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) )
            · iexact Hr
          · iexact Hg
        isplitl [Ho]; · iexact Ho
        isplitl [H0]; · iexact H0
        isplitl [H1]; · iexact H1
        isplitl [H2]; · iexact H2
        isplitl [H3]; · iexact H3
        iexact H4
      · rw [Dat.leavesExact_idle (dat1 V c) 2 t (idleAt1_2 t (fun h => h2 ((hcond1_2 t).mp h))) (noFlush1_2 t (fun h => h2 ((hcond1_2 t).mp h)))]
        rw [Dat.leavesExact_idle (dat1 V c) 3 t (idleAt1_3 t (fun h => h2 ((hcond1_2 t).mp h))) (noFlush1_3 t (fun h => h2 ((hcond1_2 t).mp h)))]
        rw [Dat.leavesExact_idle (dat1 V c) 4 t (idleAt1_4 t (fun h => h2 ((hcond1_2 t).mp h))) (noFlush1_4 t (fun h => h2 ((hcond1_2 t).mp h)))]
        have hlt : t.val - 1 < cfg1.N := by omega
        rw [PhiS1_castSucc V c t, PhiS1_pos V c _ _ hz, st1_pos V c t hz hlt, step1_A _ h0 h1 h2]
        dsimp only
        iintro ⟨⟨⟨⟨HS0, HS1, HS2⟩, Hr⟩, Hg⟩, Ho, ⟨%d0, H0⟩, ⟨%d1, H1⟩, H2, H3, H4⟩
        iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) ).2.2.2 Set.univ _)
        isplitl [H0]; · iexact H0
        isplitl [H1]; · iexact H1
        isplitl [HS0]; · iexists _; iexact HS0
        isplitl [HS1]; · iexists _; iexact HS1
        isplitl [HS2]; · iexists _; iexact HS2
        iintro ⟨H0, H1, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov1_A_S0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) )).trans (val1_A_S0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) )
              isplitl [HS1]
              · unfold owns; iexists _; isplitr
                swap; · iexact HS1
                ipureintro; exact (View.read_writes_eq_canon _ _ _ (cov1_A_S1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) )).trans (val1_A_S1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) )
              · unfold owns; iexists _; isplitr
                swap; · iexact HS2
                ipureintro; exact (View.read_writes_eq_canon _ _ _ (cov1_A_S2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) )).trans (val1_A_S2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) )
            · iexact Hr
          · iexact Hg
        isplitl [Ho]; · iexact Ho
        isplitl [H0]; · iexact H0
        isplitl [H1]; · iexact H1
        isplitl [H2]; · iexact H2
        isplitl [H3]; · iexact H3
        iexact H4
    · have hz : t.val ≠ 0 := by omega
      rw [Dat.leavesExact_idle (dat1 V c) 2 t (idleAt1_2 t (fun h => h2 ((hcond1_2 t).mp h))) (noFlush1_2 t (fun h => h2 ((hcond1_2 t).mp h)))]
      rw [Dat.leavesExact_idle (dat1 V c) 3 t (idleAt1_3 t (fun h => h2 ((hcond1_2 t).mp h))) (noFlush1_3 t (fun h => h2 ((hcond1_2 t).mp h)))]
      rw [Dat.leavesExact_idle (dat1 V c) 4 t (idleAt1_4 t (fun h => h2 ((hcond1_2 t).mp h))) (noFlush1_4 t (fun h => h2 ((hcond1_2 t).mp h)))]
      have hlt : t.val - 1 < cfg1.N := by omega
      rw [PhiS1_castSucc V c t, PhiS1_pos V c _ _ hz, st1_pos V c t hz hlt, step1_B _ h0 h1 h2]
      dsimp only
      iintro ⟨⟨⟨⟨HS0, HS1, HS2⟩, Hr⟩, Hg⟩, Ho, ⟨%d0, H0⟩, ⟨%d1, H1⟩, H2, H3, H4⟩
      iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (fun h => h2 ((hcond1_2 t).mp h)) (iblk1 V c 0 t) (iblk1 V c 1 t) ).2 Set.univ _)
      isplitl [H0]; · iexact H0
      isplitl [H1]; · iexact H1
      isplitl [HS0]; · iexists _; iexact HS0
      iintro ⟨H0, H1, ⟨%eS0, HS0⟩⟩
      isplitl [HS0 HS1 HS2 Hr Hg]
      · isplitl [HS0 HS1 HS2 Hr]
        · isplitl [HS0 HS1 HS2]
          · isplitl [HS0]
            · unfold owns; iexists _; isplitr
              swap; · iexact HS0
              ipureintro; exact (View.read_writes_eq_canon _ _ _ (cov1_B_S0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (fun h => h2 ((hcond1_2 t).mp h)) (iblk1 V c 0 t) (iblk1 V c 1 t) )).trans (val1_B_S0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (fun h => h2 ((hcond1_2 t).mp h)) (iblk1 V c 0 t) (iblk1 V c 1 t) )
            isplitl [HS1]
            · iexact HS1
            · iexact HS2
          · iexact Hr
        · iexact Hg
      isplitl [Ho]; · iexact Ho
      isplitl [H0]; · iexact H0
      isplitl [H1]; · iexact H1
      isplitl [H2]; · iexact H2
      isplitl [H3]; · iexact H3
      iexact H4
  · have hz : t.val ≠ 0 := by omega
    by_cases h1 : t.val / 4 % 4 = 0
    · by_cases h2 : t.val % 4 = 3
      · rw [show (dat1 V c).leavesExact 2 t = owns (c : Thread nD τ) (ms1_2 t) fullShare ((dat1 V c).after 2 t) from by
          unfold Dat.leavesExact; rw [liveAt1_2 t ((hcond1_2 t).mpr h2)], after1_2]
        rw [show (dat1 V c).leavesExact 3 t = owns (c : Thread nD τ) (ms1_3 t) fullShare ((dat1 V c).after 3 t) from by
          unfold Dat.leavesExact; rw [liveAt1_3 t ((hcond1_2 t).mpr h2)], after1_3]
        rw [show (dat1 V c).leavesExact 4 t = owns (c : Thread nD τ) (ms1_4 t) fullShare ((dat1 V c).after 4 t) from by
          unfold Dat.leavesExact; rw [liveAt1_4 t ((hcond1_2 t).mpr h2)], after1_4]
        have hlt : t.val - 1 < cfg1.N := by omega
        rw [PhiS1_castSucc V c t, PhiS1_pos V c _ _ hz, st1_pos V c t hz hlt, step1_E _ h0 h1 h2]
        dsimp only
        iintro ⟨⟨⟨⟨HS0, HS1, HS2⟩, Hr⟩, Hg⟩, Ho, ⟨%d0, H0⟩, ⟨%d1, H1⟩, ⟨%d2, H2⟩, ⟨%d3, H3⟩, ⟨%d4, H4⟩⟩
        iapply ((kernelRun1_E c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (st1 V c (t.val - 1) hlt).acc).2.2.2.2.2.2 Set.univ _)
        isplitl [H0]; · iexact H0
        isplitl [H1]; · iexact H1
        isplitl [H2]; · iexists _; iexact H2
        isplitl [H3]; · iexists _; iexact H3
        isplitl [H4]; · iexists _; iexact H4
        isplitl [HS0]; · iexact HS0
        isplitl [HS1]; · iexists _; iexact HS1
        isplitl [HS2]; · iexists _; iexact HS2
        iintro ⟨H0, H1, ⟨%e2, H2⟩, ⟨%e3, H3⟩, ⟨%e4, H4⟩, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov1_E_S0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (st1 V c (t.val - 1) hlt).acc)).trans (val1_E_S0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (st1 V c (t.val - 1) hlt).acc)
              isplitl [HS1]
              · unfold owns; iexists _; isplitr
                swap; · iexact HS1
                ipureintro; exact (View.read_writes_eq_canon _ _ _ (cov1_E_S1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (st1 V c (t.val - 1) hlt).acc)).trans (val1_E_S1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (st1 V c (t.val - 1) hlt).acc)
              · unfold owns; iexists _; isplitr
                swap; · iexact HS2
                ipureintro; exact (View.read_writes_eq_canon _ _ _ (cov1_E_S2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (st1 V c (t.val - 1) hlt).acc)).trans (val1_E_S2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (st1 V c (t.val - 1) hlt).acc)
            · iexact Hr
          · iexact Hg
        isplitl [Ho]; · iexact Ho
        isplitl [H0]; · iexact H0
        isplitl [H1]; · iexact H1
        isplitl [H2]
        · unfold owns; iexists _; isplitr
          swap; · iexact H2
          ipureintro; exact (View.read_writes_eq_canon _ _ _ (cov1_E_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (st1 V c (t.val - 1) hlt).acc)).trans (val1_E_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (st1 V c (t.val - 1) hlt).acc)
        isplitl [H3]
        · unfold owns; iexists _; isplitr
          swap; · iexact H3
          ipureintro; exact (View.read_writes_eq_canon _ _ _ (cov1_E_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (st1 V c (t.val - 1) hlt).acc)).trans (val1_E_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (st1 V c (t.val - 1) hlt).acc)
        · unfold owns; iexists _; isplitr
          swap; · iexact H4
          ipureintro; exact (View.read_writes_eq_canon _ _ _ (cov1_E_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (st1 V c (t.val - 1) hlt).acc)).trans (val1_E_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (st1 V c (t.val - 1) hlt).acc)
      · rw [Dat.leavesExact_idle (dat1 V c) 2 t (idleAt1_2 t (fun h => h2 ((hcond1_2 t).mp h))) (noFlush1_2 t (fun h => h2 ((hcond1_2 t).mp h)))]
        rw [Dat.leavesExact_idle (dat1 V c) 3 t (idleAt1_3 t (fun h => h2 ((hcond1_2 t).mp h))) (noFlush1_3 t (fun h => h2 ((hcond1_2 t).mp h)))]
        rw [Dat.leavesExact_idle (dat1 V c) 4 t (idleAt1_4 t (fun h => h2 ((hcond1_2 t).mp h))) (noFlush1_4 t (fun h => h2 ((hcond1_2 t).mp h)))]
        have hlt : t.val - 1 < cfg1.N := by omega
        rw [PhiS1_castSucc V c t, PhiS1_pos V c _ _ hz, st1_pos V c t hz hlt, step1_C _ h0 h1 h2]
        dsimp only
        iintro ⟨⟨⟨⟨HS0, HS1, HS2⟩, Hr⟩, Hg⟩, Ho, ⟨%d0, H0⟩, ⟨%d1, H1⟩, H2, H3, H4⟩
        iapply ((kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (st1 V c (t.val - 1) hlt).acc).2.2.2 Set.univ _)
        isplitl [H0]; · iexact H0
        isplitl [H1]; · iexact H1
        isplitl [HS0]; · iexact HS0
        isplitl [HS1]; · iexists _; iexact HS1
        isplitl [HS2]; · iexists _; iexact HS2
        iintro ⟨H0, H1, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov1_C_S0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (st1 V c (t.val - 1) hlt).acc)).trans (val1_C_S0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (st1 V c (t.val - 1) hlt).acc)
              isplitl [HS1]
              · unfold owns; iexists _; isplitr
                swap; · iexact HS1
                ipureintro; exact (View.read_writes_eq_canon _ _ _ (cov1_C_S1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (st1 V c (t.val - 1) hlt).acc)).trans (val1_C_S1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (st1 V c (t.val - 1) hlt).acc)
              · unfold owns; iexists _; isplitr
                swap; · iexact HS2
                ipureintro; exact (View.read_writes_eq_canon _ _ _ (cov1_C_S2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (st1 V c (t.val - 1) hlt).acc)).trans (val1_C_S2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (st1 V c (t.val - 1) hlt).acc)
            · iexact Hr
          · iexact Hg
        isplitl [Ho]; · iexact Ho
        isplitl [H0]; · iexact H0
        isplitl [H1]; · iexact H1
        isplitl [H2]; · iexact H2
        isplitl [H3]; · iexact H3
        iexact H4
    · by_cases h2 : t.val % 4 = 3
      · rw [show (dat1 V c).leavesExact 2 t = owns (c : Thread nD τ) (ms1_2 t) fullShare ((dat1 V c).after 2 t) from by
          unfold Dat.leavesExact; rw [liveAt1_2 t ((hcond1_2 t).mpr h2)], after1_2]
        rw [show (dat1 V c).leavesExact 3 t = owns (c : Thread nD τ) (ms1_3 t) fullShare ((dat1 V c).after 3 t) from by
          unfold Dat.leavesExact; rw [liveAt1_3 t ((hcond1_2 t).mpr h2)], after1_3]
        rw [show (dat1 V c).leavesExact 4 t = owns (c : Thread nD τ) (ms1_4 t) fullShare ((dat1 V c).after 4 t) from by
          unfold Dat.leavesExact; rw [liveAt1_4 t ((hcond1_2 t).mpr h2)], after1_4]
        have hlt : t.val - 1 < cfg1.N := by omega
        rw [PhiS1_castSucc V c t, PhiS1_pos V c _ _ hz, st1_pos V c t hz hlt, step1_F _ h0 h1 h2]
        dsimp only
        iintro ⟨⟨⟨⟨HS0, HS1, HS2⟩, Hr⟩, Hg⟩, Ho, ⟨%d0, H0⟩, ⟨%d1, H1⟩, ⟨%d2, H2⟩, ⟨%d3, H3⟩, ⟨%d4, H4⟩⟩
        iapply ((kernelRun1_F c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (st1 V c (t.val - 1) hlt).acc (st1 V c (t.val - 1) hlt).sum (st1 V c (t.val - 1) hlt).sq).2.2.2.2.2.2 Set.univ _)
        isplitl [H0]; · iexact H0
        isplitl [H1]; · iexact H1
        isplitl [H2]; · iexists _; iexact H2
        isplitl [H3]; · iexists _; iexact H3
        isplitl [H4]; · iexists _; iexact H4
        isplitl [HS0]; · iexact HS0
        isplitl [HS1]; · iexact HS1
        isplitl [HS2]; · iexact HS2
        iintro ⟨H0, H1, ⟨%e2, H2⟩, ⟨%e3, H3⟩, ⟨%e4, H4⟩, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov1_F_S0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (st1 V c (t.val - 1) hlt).acc (st1 V c (t.val - 1) hlt).sum (st1 V c (t.val - 1) hlt).sq)).trans (val1_F_S0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (st1 V c (t.val - 1) hlt).acc (st1 V c (t.val - 1) hlt).sum (st1 V c (t.val - 1) hlt).sq)
              isplitl [HS1]
              · unfold owns; iexists _; isplitr
                swap; · iexact HS1
                ipureintro; exact (View.read_writes_eq_canon _ _ _ (cov1_F_S1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (st1 V c (t.val - 1) hlt).acc (st1 V c (t.val - 1) hlt).sum (st1 V c (t.val - 1) hlt).sq)).trans (val1_F_S1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (st1 V c (t.val - 1) hlt).acc (st1 V c (t.val - 1) hlt).sum (st1 V c (t.val - 1) hlt).sq)
              · unfold owns; iexists _; isplitr
                swap; · iexact HS2
                ipureintro; exact (View.read_writes_eq_canon _ _ _ (cov1_F_S2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (st1 V c (t.val - 1) hlt).acc (st1 V c (t.val - 1) hlt).sum (st1 V c (t.val - 1) hlt).sq)).trans (val1_F_S2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (st1 V c (t.val - 1) hlt).acc (st1 V c (t.val - 1) hlt).sum (st1 V c (t.val - 1) hlt).sq)
            · iexact Hr
          · iexact Hg
        isplitl [Ho]; · iexact Ho
        isplitl [H0]; · iexact H0
        isplitl [H1]; · iexact H1
        isplitl [H2]
        · unfold owns; iexists _; isplitr
          swap; · iexact H2
          ipureintro; exact (View.read_writes_eq_canon _ _ _ (cov1_F_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (st1 V c (t.val - 1) hlt).acc (st1 V c (t.val - 1) hlt).sum (st1 V c (t.val - 1) hlt).sq)).trans (val1_F_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (st1 V c (t.val - 1) hlt).acc (st1 V c (t.val - 1) hlt).sum (st1 V c (t.val - 1) hlt).sq)
        isplitl [H3]
        · unfold owns; iexists _; isplitr
          swap; · iexact H3
          ipureintro; exact (View.read_writes_eq_canon _ _ _ (cov1_F_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (st1 V c (t.val - 1) hlt).acc (st1 V c (t.val - 1) hlt).sum (st1 V c (t.val - 1) hlt).sq)).trans (val1_F_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (st1 V c (t.val - 1) hlt).acc (st1 V c (t.val - 1) hlt).sum (st1 V c (t.val - 1) hlt).sq)
        · unfold owns; iexists _; isplitr
          swap; · iexact H4
          ipureintro; exact (View.read_writes_eq_canon _ _ _ (cov1_F_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (st1 V c (t.val - 1) hlt).acc (st1 V c (t.val - 1) hlt).sum (st1 V c (t.val - 1) hlt).sq)).trans (val1_F_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (st1 V c (t.val - 1) hlt).acc (st1 V c (t.val - 1) hlt).sum (st1 V c (t.val - 1) hlt).sq)
      · rw [Dat.leavesExact_idle (dat1 V c) 2 t (idleAt1_2 t (fun h => h2 ((hcond1_2 t).mp h))) (noFlush1_2 t (fun h => h2 ((hcond1_2 t).mp h)))]
        rw [Dat.leavesExact_idle (dat1 V c) 3 t (idleAt1_3 t (fun h => h2 ((hcond1_2 t).mp h))) (noFlush1_3 t (fun h => h2 ((hcond1_2 t).mp h)))]
        rw [Dat.leavesExact_idle (dat1 V c) 4 t (idleAt1_4 t (fun h => h2 ((hcond1_2 t).mp h))) (noFlush1_4 t (fun h => h2 ((hcond1_2 t).mp h)))]
        have hlt : t.val - 1 < cfg1.N := by omega
        rw [PhiS1_castSucc V c t, PhiS1_pos V c _ _ hz, st1_pos V c t hz hlt, step1_D _ h0 h1 h2]
        dsimp only
        iintro ⟨⟨⟨⟨HS0, HS1, HS2⟩, Hr⟩, Hg⟩, Ho, ⟨%d0, H0⟩, ⟨%d1, H1⟩, H2, H3, H4⟩
        iapply ((kernelRun1_D c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (fun h => h2 ((hcond1_2 t).mp h)) (iblk1 V c 0 t) (iblk1 V c 1 t) (st1 V c (t.val - 1) hlt).acc).2 Set.univ _)
        isplitl [H0]; · iexact H0
        isplitl [H1]; · iexact H1
        isplitl [HS0]; · iexact HS0
        iintro ⟨H0, H1, ⟨%eS0, HS0⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov1_D_S0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (fun h => h2 ((hcond1_2 t).mp h)) (iblk1 V c 0 t) (iblk1 V c 1 t) (st1 V c (t.val - 1) hlt).acc)).trans (val1_D_S0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (fun h => h2 ((hcond1_2 t).mp h)) (iblk1 V c 0 t) (iblk1 V c 1 t) (st1 V c (t.val - 1) hlt).acc)
              isplitl [HS1]
              · iexact HS1
              · iexact HS2
            · iexact Hr
          · iexact Hg
        isplitl [Ho]; · iexact Ho
        isplitl [H0]; · iexact H0
        isplitl [H1]; · iexact H1
        isplitl [H2]; · iexact H2
        isplitl [H3]; · iexact H3
        iexact H4

theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.K.R4Runs.lean ====
/-
  Matrix-product region 4: what its six control cases share — the three branch conditions in closed form over the grid
  (point n = 32 j + 8 i + k: the accumulator is reset at k = 0, the two running rows at i = 0, the statistics are taken at
  k = 7), where the three outputs are idle and when they are written back, and the memrefs the body is called with.
-/
import proofs.«157460_j63591285784858_2_alg».proof.Proof.K.R4Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## The branch conditions -/

abbrev cond4_0 (i : grid4.Coords) : Prop := (Scalar.cmpi .ne (Scalar.extui (Scalar.cmpi .eq (BitVec.ofNat 32 (i 2).val) 0#32)) 0#32) = 1#1
theorem hcond4_0 : ∀ t : Fin cfg4.N, cond4_0 (grid4.coords t) ↔ t.val % 8 = 0 :=
  (by decide +kernel : ∀ t : Fin grid4.N, cond4_0 (grid4.coords t) ↔ t.val % 8 = 0)
abbrev cond4_1 (i : grid4.Coords) : Prop := (Scalar.cmpi .ne (Scalar.extui (Scalar.cmpi .eq (BitVec.ofNat 32 (i 1).val) 0#32)) 0#32) = 1#1
theorem hcond4_1 : ∀ t : Fin cfg4.N, cond4_1 (grid4.coords t) ↔ t.val / 8 % 4 = 0 :=
  (by decide +kernel : ∀ t : Fin grid4.N, cond4_1 (grid4.coords t) ↔ t.val / 8 % 4 = 0)
abbrev cond4_2 (i : grid4.Coords) : Prop := k4_cond3 i = 1#1
theorem hcond4_2 : ∀ t : Fin cfg4.N, cond4_2 (grid4.coords t) ↔ t.val % 8 = 7 :=
  (by decide +kernel : ∀ t : Fin grid4.N, cond4_2 (grid4.coords t) ↔ t.val % 8 = 7)

/-! ## Idle points and write-backs of the three outputs -/

theorem liveAt4_0 : ∀ t : Fin cfg4.N, cfg4.idle 0 (grid4.coords t) = false := by decide +kernel
theorem liveAt4_1 : ∀ t : Fin cfg4.N, cfg4.idle 1 (grid4.coords t) = false := by decide +kernel
theorem idleAt4_2 : ∀ t : Fin cfg4.N, ¬cond4_2 (grid4.coords t) → cfg4.idle 2 (grid4.coords t) = true := by decide +kernel
theorem liveAt4_2 : ∀ t : Fin cfg4.N, cond4_2 (grid4.coords t) → cfg4.idle 2 (grid4.coords t) = false := by decide +kernel
theorem noFlush4_2 : ∀ t : Fin cfg4.N, ¬cond4_2 (grid4.coords t) → (cfg4.win 2).flush t = false := by decide +kernel
theorem idleAt4_3 : ∀ t : Fin cfg4.N, ¬cond4_2 (grid4.coords t) → cfg4.idle 3 (grid4.coords t) = true := by decide +kernel
theorem liveAt4_3 : ∀ t : Fin cfg4.N, cond4_2 (grid4.coords t) → cfg4.idle 3 (grid4.coords t) = false := by decide +kernel
theorem noFlush4_3 : ∀ t : Fin cfg4.N, ¬cond4_2 (grid4.coords t) → (cfg4.win 3).flush t = false := by decide +kernel
theorem idleAt4_4 : ∀ t : Fin cfg4.N, ¬cond4_2 (grid4.coords t) → cfg4.idle 4 (grid4.coords t) = true := by decide +kernel
theorem liveAt4_4 : ∀ t : Fin cfg4.N, cond4_2 (grid4.coords t) → cfg4.idle 4 (grid4.coords t) = false := by decide +kernel
theorem noFlush4_4 : ∀ t : Fin cfg4.N, ¬cond4_2 (grid4.coords t) → (cfg4.win 4).flush t = false := by decide +kernel

/-! ## The memrefs the body is called with -/

abbrev ms4_0 (t : Fin cfg4.N) : Memref sig .tc .vmem S1024x512 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x512 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x1024 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x1024 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x1024 .f32 := win4_4.stage (cfg4.slots t 4)
abbrev hs4_4 (t : Fin cfg4.N) : (ms4_4 t).IsWhole := hstage4_4 ((cfg4.slots t 4).cast nbuf4_4)
/-- Views through which contents are stated (any whole buffer of the shape serves). -/
abbrev VB4 : View sig .tc .vmem S1024x1024 .f32 := scM4_0.view
abbrev VR4 : View sig .tc .vmem S1x1024 .f32 := scM4_1.view

end Cert.Kernel.Hand

end
-- ==== Proof.K.R4RunA.lean ====
/-
  The whole body at the first point of an output column tile (k = 0, i = 0): the accumulator is cleared and receives
  the block product; the two running rows are cleared. Nothing read of what the scratch buffers held;
  Only the buffers the body stores into are mentioned; what each ends with is found by running the body: the pieces
  are the witness.
-/
import proofs.«157460_j63591285784858_2_alg».proof.Proof.K.R4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
noncomputable def kernelRun4_A (c : Dev nD) (i : grid4.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : cond4_0 i) (hc1 : cond4_1 i) (hc2 : ¬cond4_2 i)
    (x0 : Vec F S1024x512 .bf16) (x1 : Vec F S1024x512 .bf16)  :
    Σ' (LS0 : List (View.Piece (Elt F) S1024x1024 .f32)) (LS1 : List (View.Piece (Elt F) S1x1024 .f32)), { LS2 : List (View.Piece (Elt F) S1x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc4__matmul_stats_kernel i arg3 harg3 arg4 harg4 arg5 harg5 arg6 harg6 arg7 harg7 arg8 harg8 arg9 harg9 arg10 harg10) K } := by
  refine ⟨?_, ?_, ?_, fun E K => ?run⟩
  case run =>
    simp only [cc4__matmul_stats_kernel_eq_skeleton]; unfold cc4__matmul_stats_kernel_skel
    unfold owns
    iintro ⟨⟨%f0, %hf0, H0⟩, ⟨%f1, %hf1, H1⟩, ⟨%dHS0, %fHS0, -, HS0⟩, ⟨%dHS1, %fHS1, -, HS1⟩, ⟨%dHS2, %fHS2, -, HS2⟩, Hk⟩
    obtain rfl := harg3.eq_unread hf0; obtain rfl := harg4.eq_unread hf1

    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [HS0]; · iexists _; iexact HS0
    isplitl [HS1]; · iexists _; iexact HS1
    iexists _; iexact HS2

end Cert.Kernel.Hand

end
-- ==== Proof.K.R4RunB.lean ====
/-
  The whole body at the first reduction step of a batch tile that is not the first (k = 0, i ≠ 0): the accumulator is
  cleared and receives the block product; the two running rows keep what the tile before left.
  Only the buffers the body stores into are mentioned; what each ends with is found by running the body: the pieces
  are the witness.
-/
import proofs.«157460_j63591285784858_2_alg».proof.Proof.K.R4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
noncomputable def kernelRun4_B (c : Dev nD) (i : grid4.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : cond4_0 i) (hc1 : ¬cond4_1 i) (hc2 : ¬cond4_2 i)
    (x0 : Vec F S1024x512 .bf16) (x1 : Vec F S1024x512 .bf16)  :
    { LS0 : List (View.Piece (Elt F) S1024x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg8 fullShare d)
            ∗ (iprop(owns (c : Thread nD τ) arg3 fullShare x0 ∗ owns (c : Thread nD τ) arg4 fullShare x1
                ∗ (∃ f, arg8.view.loc (c : Thread nD τ) ↦[arg8.view.set]{fullShare} arg8.view.writes (Elt F) f LS0)) -∗ K ⟨⟩))
          ⊢ wp frame (wpE (defs₀ (F := F)) Variants.none c none) E (cc4__matmul_stats_kernel i arg3 harg3 arg4 harg4 arg5 harg5 arg6 harg6 arg7 harg7 arg8 harg8 arg9 harg9 arg10 harg10) K } := by
  refine ⟨?_, fun E K => ?run⟩
  case run =>
    simp only [cc4__matmul_stats_kernel_eq_skeleton]; unfold cc4__matmul_stats_kernel_skel
    unfold owns
    iintro ⟨⟨%f0, %hf0, H0⟩, ⟨%f1, %hf1, H1⟩, ⟨%dHS0, %fHS0, -, HS0⟩, Hk⟩
    obtain rfl := harg3.eq_unread hf0; obtain rfl := harg4.eq_unread hf1

    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.Kernel.Hand

end
-- ==== Proof.K.R4RunC.lean ====
/-
  The whole body at a middle reduction step of the first batch tile (0 < k < 3, i = 0): the accumulator found at what
  the step before left receives the block product; the two running rows are cleared; the three outputs are not
  touched.
  Only the buffers the body stores into are mentioned; what each ends with is found by running the body: the pieces
  are the witness.
-/
import proofs.«157460_j63591285784858_2_alg».proof.Proof.K.R4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
noncomputable def kernelRun4_C (c : Dev nD) (i : grid4.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond4_0 i) (hc1 : cond4_1 i) (hc2 : ¬cond4_2 i)
    (x0 : Vec F S1024x512 .bf16) (x1 : Vec F S1024x512 .bf16) (xs0 : Vec F S1024x1024 .f32) :
    Σ' (LS0 : List (View.Piece (Elt F) S1024x1024 .f32)) (LS1 : List (View.Piece (Elt F) S1x1024 .f32)), { LS2 : List (View.Piece (Elt F) S1x1024 .f32) //
      ∀ (E : Set ℕ) (K : PUnit → sProp 𝕄),
        iprop(owns (c : Thread nD τ) arg3 fullShare x0 ∗ owns (c : Thread nD τ) arg4 fullShare x1
            ∗ owns (c : Thread nD τ) arg8 fullShare xs0 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc4__matmul_stats_kernel i arg3 harg3 arg4 harg4 arg5 harg5 arg6 harg6 arg7 harg7 arg8 harg8 arg9 harg9 arg10 harg10) K } := by
  refine ⟨?_, ?_, ?_, fun E K => ?run⟩
  case run =>
    simp only [cc4__matmul_stats_kernel_eq_skeleton]; unfold cc4__matmul_stats_kernel_skel
    unfold owns
    iintro ⟨⟨%f0, %hf0, H0⟩, ⟨%f1, %hf1, H1⟩, ⟨%fHS0, %hfHS0, HS0⟩, ⟨%dHS1, %fHS1, -, HS1⟩, ⟨%dHS2, %fHS2, -, HS2⟩, Hk⟩
    obtain rfl := harg3.eq_unread hf0; obtain rfl := harg4.eq_unread hf1
    obtain rfl := harg8.eq_unread hfHS0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [HS0]; · iexists _; iexact HS0
    isplitl [HS1]; · iexists _; iexact HS1
    iexists _; iexact HS2

end Cert.Kernel.Hand

end
-- ==== Proof.K.R4RunD.lean ====
/-
  The whole body at a middle reduction step of a batch tile that is not the first (0 < k < 3, i ≠ 0): the accumulator
  found at what the step before left receives the block product; the two running rows keep what the tile before left;

  Only the buffers the body stores into are mentioned; what each ends with is found by running the body: the pieces
  are the witness.
-/
import proofs.«157460_j63591285784858_2_alg».proof.Proof.K.R4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
noncomputable def kernelRun4_D (c : Dev nD) (i : grid4.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond4_0 i) (hc1 : ¬cond4_1 i) (hc2 : ¬cond4_2 i)
    (x0 : Vec F S1024x512 .bf16) (x1 : Vec F S1024x512 .bf16) (xs0 : Vec F S1024x1024 .f32) :
    { LS0 : List (View.Piece (Elt F) S1024x1024 .f32) //
      ∀ (E : Set ℕ) (K : PUnit → sProp 𝕄),
        iprop(owns (c : Thread nD τ) arg3 fullShare x0 ∗ owns (c : Thread nD τ) arg4 fullShare x1
            ∗ owns (c : Thread nD τ) arg8 fullShare xs0
            ∗ (iprop(owns (c : Thread nD τ) arg3 fullShare x0 ∗ owns (c : Thread nD τ) arg4 fullShare x1
                ∗ (∃ f, arg8.view.loc (c : Thread nD τ) ↦[arg8.view.set]{fullShare} arg8.view.writes (Elt F) f LS0)) -∗ K ⟨⟩))
          ⊢ wp frame (wpE (defs₀ (F := F)) Variants.none c none) E (cc4__matmul_stats_kernel i arg3 harg3 arg4 harg4 arg5 harg5 arg6 harg6 arg7 harg7 arg8 harg8 arg9 harg9 arg10 harg10) K } := by
  refine ⟨?_, fun E K => ?run⟩
  case run =>
    simp only [cc4__matmul_stats_kernel_eq_skeleton]; unfold cc4__matmul_stats_kernel_skel
    unfold owns
    iintro ⟨⟨%f0, %hf0, H0⟩, ⟨%f1, %hf1, H1⟩, ⟨%fHS0, %hfHS0, HS0⟩, Hk⟩
    obtain rfl := harg3.eq_unread hf0; obtain rfl := harg4.eq_unread hf1
    obtain rfl := harg8.eq_unread hfHS0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.Kernel.Hand

end
-- ==== Proof.K.R4RunE.lean ====
/-
  The whole body at the last reduction step of the first batch tile (k = 3, i = 0): the accumulator found at what the
  step before left receives the block product and is copied to the product's output block; the two running rows are
  cleared and receive its column sums and column sums of squares; the mean and the clamped variance are written from
  them.
  Only the buffers the body stores into are mentioned; what each ends with is found by running the body: the pieces
  are the witness.
-/
import proofs.«157460_j63591285784858_2_alg».proof.Proof.K.R4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
noncomputable def kernelRun4_E (c : Dev nD) (i : grid4.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond4_0 i) (hc1 : cond4_1 i) (hc2 : cond4_2 i)
    (x0 : Vec F S1024x512 .bf16) (x1 : Vec F S1024x512 .bf16) (xs0 : Vec F S1024x1024 .f32) :
    Σ' (L2 : List (View.Piece (Elt F) S1024x1024 .f32)) (L3 : List (View.Piece (Elt F) S1x1024 .f32)) (L4 : List (View.Piece (Elt F) S1x1024 .f32)) (LS0 : List (View.Piece (Elt F) S1024x1024 .f32)) (LS1 : List (View.Piece (Elt F) S1x1024 .f32)), { LS2 : List (View.Piece (Elt F) S1x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc4__matmul_stats_kernel i arg3 harg3 arg4 harg4 arg5 harg5 arg6 harg6 arg7 harg7 arg8 harg8 arg9 harg9 arg10 harg10) K } := by
  refine ⟨?_, ?_, ?_, ?_, ?_, ?_, fun E K => ?run⟩
  case run =>
    simp only [cc4__matmul_stats_kernel_eq_skeleton]; unfold cc4__matmul_stats_kernel_skel
    unfold owns
    iintro ⟨⟨%f0, %hf0, H0⟩, ⟨%f1, %hf1, H1⟩, ⟨%dH2, %fH2, -, H2⟩, ⟨%dH3, %fH3, -, H3⟩, ⟨%dH4, %fH4, -, H4⟩, ⟨%fHS0, %hfHS0, HS0⟩, ⟨%dHS1, %fHS1, -, HS1⟩, ⟨%dHS2, %fHS2, -, HS2⟩, Hk⟩
    obtain rfl := harg3.eq_unread hf0; obtain rfl := harg4.eq_unread hf1
    obtain rfl := harg8.eq_unread hfHS0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    iexists _; iexact HS2

end Cert.Kernel.Hand

end
-- ==== Proof.K.R4RunF.lean ====
/-
  The whole body at the last reduction step of a batch tile that is not the first (k = last, i ≠ 0): the accumulator
  found at what the step before left receives the block product and is copied to the product's output block; its column
  sums and column sums of squares are added into the two running rows found at what the tile before left; the mean and
  the clamped variance are written from them.
  Only the buffers the body stores into are mentioned; what each ends with is found by running the body: the pieces
  are the witness.
-/
import proofs.«157460_j63591285784858_2_alg».proof.Proof.K.R4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
noncomputable def kernelRun4_F (c : Dev nD) (i : grid4.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond4_0 i) (hc1 : ¬cond4_1 i) (hc2 : cond4_2 i)
    (x0 : Vec F S1024x512 .bf16) (x1 : Vec F S1024x512 .bf16) (xs0 : Vec F S1024x1024 .f32) (xs1 : Vec F S1x1024 .f32) (xs2 : Vec F S1x1024 .f32) :
    Σ' (L2 : List (View.Piece (Elt F) S1024x1024 .f32)) (L3 : List (View.Piece (Elt F) S1x1024 .f32)) (L4 : List (View.Piece (Elt F) S1x1024 .f32)) (LS0 : List (View.Piece (Elt F) S1024x1024 .f32)) (LS1 : List (View.Piece (Elt F) S1x1024 .f32)), { LS2 : List (View.Piece (Elt F) S1x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc4__matmul_stats_kernel i arg3 harg3 arg4 harg4 arg5 harg5 arg6 harg6 arg7 harg7 arg8 harg8 arg9 harg9 arg10 harg10) K } := by
  refine ⟨?_, ?_, ?_, ?_, ?_, ?_, fun E K => ?run⟩
  case run =>
    simp only [cc4__matmul_stats_kernel_eq_skeleton]; unfold cc4__matmul_stats_kernel_skel
    unfold owns
    iintro ⟨⟨%f0, %hf0, H0⟩, ⟨%f1, %hf1, H1⟩, ⟨%dH2, %fH2, -, H2⟩, ⟨%dH3, %fH3, -, H3⟩, ⟨%dH4, %fH4, -, H4⟩, ⟨%fHS0, %hfHS0, HS0⟩, ⟨%fHS1, %hfHS1, HS1⟩, ⟨%fHS2, %hfHS2, HS2⟩, Hk⟩
    obtain rfl := harg3.eq_unread hf0; obtain rfl := harg4.eq_unread hf1
    obtain rfl := harg8.eq_unread hfHS0; obtain rfl := harg9.eq_unread hfHS1; obtain rfl := harg10.eq_unread hfHS2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    iexists _; iexact HS2

end Cert.Kernel.Hand

end
-- ==== Proof.K.R4Body.lean ====
/-
  Matrix-product region 4: the body obligation. At every grid point the point's control case is read off the
  closed forms of the three branch conditions; the case's whole-body run applies, the invariant handing it the scratch
  buffers at the state the point before left (at anything at the first point) and taking them back at this point's
  state; each stored buffer's found pieces read back as the payload the closed-form state names (one covering store,
  or a store after a clearing store), so the proof data's statements hold; an output the case does not store is handed
  back as it was found.
-/
import proofs.«157460_j63591285784858_2_alg».proof.Proof.K.R4RunA
import proofs.«157460_j63591285784858_2_alg».proof.Proof.K.R4RunB
import proofs.«157460_j63591285784858_2_alg».proof.Proof.K.R4RunC
import proofs.«157460_j63591285784858_2_alg».proof.Proof.K.R4RunD
import proofs.«157460_j63591285784858_2_alg».proof.Proof.K.R4RunE
import proofs.«157460_j63591285784858_2_alg».proof.Proof.K.R4RunF
import proofs.«157460_j63591285784858_2_alg».proof.Proof.LibUnitPieces
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

open Cert

/-! ## What each case's stored buffers end with -/

/-! ### Case A -/

section
variable (c : Dev nD) (i : grid4.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : cond4_0 i) (hc1 : cond4_1 i) (hc2 : ¬cond4_2 i)
    (x0 : Vec F S1024x512 .bf16) (x1 : Vec F S1024x512 .bf16)

theorem cov4_A_S0 (y : S1024x1024.Idx) : ∃ pc ∈ (kernelRun4_A c i arg3 harg3 arg4 harg4 arg5 harg5 arg6 harg6 arg7 harg7 arg8 harg8 arg9 harg9 arg10 harg10 hc0 hc1 hc2 x0 x1 ).1, y ∈ pc.1.set :=
  View.cover_of_tiledL _ S1024x1024.size (by sl_kernel_rfl) y
theorem val4_A_S0 : View.canon (kernelRun4_A c i arg3 harg3 arg4 harg4 arg5 harg5 arg6 harg6 arg7 harg7 arg8 harg8 arg9 harg9 arg10 harg10 hc0 hc1 hc2 x0 x1 ).1 = (k4_pay2 x0 k4_pay1 x1) := by
  unfold kernelRun4_A
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov4_A_S1 (y : S1x1024.Idx) : ∃ pc ∈ (kernelRun4_A c i arg3 harg3 arg4 harg4 arg5 harg5 arg6 harg6 arg7 harg7 arg8 harg8 arg9 harg9 arg10 harg10 hc0 hc1 hc2 x0 x1 ).2.1, y ∈ pc.1.set :=
  View.cover_of_tiledL _ S1x1024.size (by sl_kernel_rfl) y
theorem val4_A_S1 : View.canon (kernelRun4_A c i arg3 harg3 arg4 harg4 arg5 harg5 arg6 harg6 arg7 harg7 arg8 harg8 arg9 harg9 arg10 harg10 hc0 hc1 hc2 x0 x1 ).2.1 = k4_pay3 := by
  unfold kernelRun4_A
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov4_A_S2 (y : S1x1024.Idx) : ∃ pc ∈ (kernelRun4_A c i arg3 harg3 arg4 harg4 arg5 harg5 arg6 harg6 arg7 harg7 arg8 harg8 arg9 harg9 arg10 harg10 hc0 hc1 hc2 x0 x1 ).2.2.1, y ∈ pc.1.set :=
  View.cover_of_tiledL _ S1x1024.size (by sl_kernel_rfl) y
theorem val4_A_S2 : View.canon (kernelRun4_A c i arg3 harg3 arg4 harg4 arg5 harg5 arg6 harg6 arg7 harg7 arg8 harg8 arg9 harg9 arg10 harg10 hc0 hc1 hc2 x0 x1 ).2.2.1 = k4_pay4 := by
  unfold kernelRun4_A
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case B -/

section
variable (c : Dev nD) (i : grid4.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : cond4_0 i) (hc1 : ¬cond4_1 i) (hc2 : ¬cond4_2 i)
    (x0 : Vec F S1024x512 .bf16) (x1 : Vec F S1024x512 .bf16)

theorem cov4_B_S0 (y : S1024x1024.Idx) : ∃ pc ∈ (kernelRun4_B c i arg3 harg3 arg4 harg4 arg5 harg5 arg6 harg6 arg7 harg7 arg8 harg8 arg9 harg9 arg10 harg10 hc0 hc1 hc2 x0 x1 ).1, y ∈ pc.1.set :=
  View.cover_of_tiledL _ S1024x1024.size (by sl_kernel_rfl) y
theorem val4_B_S0 : View.canon (kernelRun4_B c i arg3 harg3 arg4 harg4 arg5 harg5 arg6 harg6 arg7 harg7 arg8 harg8 arg9 harg9 arg10 harg10 hc0 hc1 hc2 x0 x1 ).1 = (k4_pay2 x0 k4_pay1 x1) := by
  unfold kernelRun4_B
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case C -/

section
variable (c : Dev nD) (i : grid4.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond4_0 i) (hc1 : cond4_1 i) (hc2 : ¬cond4_2 i)
    (x0 : Vec F S1024x512 .bf16) (x1 : Vec F S1024x512 .bf16) (xs0 : Vec F S1024x1024 .f32)

theorem cov4_C_S0 (y : S1024x1024.Idx) : ∃ pc ∈ (kernelRun4_C c i arg3 harg3 arg4 harg4 arg5 harg5 arg6 harg6 arg7 harg7 arg8 harg8 arg9 harg9 arg10 harg10 hc0 hc1 hc2 x0 x1 xs0).1, y ∈ pc.1.set :=
  View.cover_of_tiledL _ S1024x1024.size (by sl_kernel_rfl) y
theorem val4_C_S0 : View.canon (kernelRun4_C c i arg3 harg3 arg4 harg4 arg5 harg5 arg6 harg6 arg7 harg7 arg8 harg8 arg9 harg9 arg10 harg10 hc0 hc1 hc2 x0 x1 xs0).1 = (k4_pay2 x0 xs0 x1) := by
  unfold kernelRun4_C
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov4_C_S1 (y : S1x1024.Idx) : ∃ pc ∈ (kernelRun4_C c i arg3 harg3 arg4 harg4 arg5 harg5 arg6 harg6 arg7 harg7 arg8 harg8 arg9 harg9 arg10 harg10 hc0 hc1 hc2 x0 x1 xs0).2.1, y ∈ pc.1.set :=
  View.cover_of_tiledL _ S1x1024.size (by sl_kernel_rfl) y
theorem val4_C_S1 : View.canon (kernelRun4_C c i arg3 harg3 arg4 harg4 arg5 harg5 arg6 harg6 arg7 harg7 arg8 harg8 arg9 harg9 arg10 harg10 hc0 hc1 hc2 x0 x1 xs0).2.1 = k4_pay3 := by
  unfold kernelRun4_C
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov4_C_S2 (y : S1x1024.Idx) : ∃ pc ∈ (kernelRun4_C c i arg3 harg3 arg4 harg4 arg5 harg5 arg6 harg6 arg7 harg7 arg8 harg8 arg9 harg9 arg10 harg10 hc0 hc1 hc2 x0 x1 xs0).2.2.1, y ∈ pc.1.set :=
  View.cover_of_tiledL _ S1x1024.size (by sl_kernel_rfl) y
theorem val4_C_S2 : View.canon (kernelRun4_C c i arg3 harg3 arg4 harg4 arg5 harg5 arg6 harg6 arg7 harg7 arg8 harg8 arg9 harg9 arg10 harg10 hc0 hc1 hc2 x0 x1 xs0).2.2.1 = k4_pay4 := by
  unfold kernelRun4_C
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case D -/

section
variable (c : Dev nD) (i : grid4.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond4_0 i) (hc1 : ¬cond4_1 i) (hc2 : ¬cond4_2 i)
    (x0 : Vec F S1024x512 .bf16) (x1 : Vec F S1024x512 .bf16) (xs0 : Vec F S1024x1024 .f32)

theorem cov4_D_S0 (y : S1024x1024.Idx) : ∃ pc ∈ (kernelRun4_D c i arg3 harg3 arg4 harg4 arg5 harg5 arg6 harg6 arg7 harg7 arg8 harg8 arg9 harg9 arg10 harg10 hc0 hc1 hc2 x0 x1 xs0).1, y ∈ pc.1.set :=
  View.cover_of_tiledL _ S1024x1024.size (by sl_kernel_rfl) y
theorem val4_D_S0 : View.canon (kernelRun4_D c i arg3 harg3 arg4 harg4 arg5 harg5 arg6 harg6 arg7 harg7 arg8 harg8 arg9 harg9 arg10 harg10 hc0 hc1 hc2 x0 x1 xs0).1 = (k4_pay2 x0 xs0 x1) := by
  unfold kernelRun4_D
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case E -/

section
variable (c : Dev nD) (i : grid4.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond4_0 i) (hc1 : cond4_1 i) (hc2 : cond4_2 i)
    (x0 : Vec F S1024x512 .bf16) (x1 : Vec F S1024x512 .bf16) (xs0 : Vec F S1024x1024 .f32)

theorem cov4_E_2 (y : S1024x1024.Idx) : ∃ pc ∈ (kernelRun4_E c i arg3 harg3 arg4 harg4 arg5 harg5 arg6 harg6 arg7 harg7 arg8 harg8 arg9 harg9 arg10 harg10 hc0 hc1 hc2 x0 x1 xs0).1, y ∈ pc.1.set :=
  View.cover_of_tiledL _ S1024x1024.size (by sl_kernel_rfl) y
theorem val4_E_2 : View.canon (kernelRun4_E c i arg3 harg3 arg4 harg4 arg5 harg5 arg6 harg6 arg7 harg7 arg8 harg8 arg9 harg9 arg10 harg10 hc0 hc1 hc2 x0 x1 xs0).1 = (k4_pay2 x0 xs0 x1) := by
  unfold kernelRun4_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov4_E_3 (y : S1x1024.Idx) : ∃ pc ∈ (kernelRun4_E c i arg3 harg3 arg4 harg4 arg5 harg5 arg6 harg6 arg7 harg7 arg8 harg8 arg9 harg9 arg10 harg10 hc0 hc1 hc2 x0 x1 xs0).2.1, y ∈ pc.1.set :=
  View.cover_of_tiledL _ S1x1024.size (by sl_kernel_rfl) y
theorem val4_E_3 : View.canon (kernelRun4_E c i arg3 harg3 arg4 harg4 arg5 harg5 arg6 harg6 arg7 harg7 arg8 harg8 arg9 harg9 arg10 harg10 hc0 hc1 hc2 x0 x1 xs0).2.1 = (k4_pay7 (k4_pay5 (k4_pay2 x0 xs0 x1) k4_pay3)) := by
  unfold kernelRun4_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov4_E_4 (y : S1x1024.Idx) : ∃ pc ∈ (kernelRun4_E c i arg3 harg3 arg4 harg4 arg5 harg5 arg6 harg6 arg7 harg7 arg8 harg8 arg9 harg9 arg10 harg10 hc0 hc1 hc2 x0 x1 xs0).2.2.1, y ∈ pc.1.set :=
  View.cover_of_tiledL _ S1x1024.size (by sl_kernel_rfl) y
theorem val4_E_4 : View.canon (kernelRun4_E c i arg3 harg3 arg4 harg4 arg5 harg5 arg6 harg6 arg7 harg7 arg8 harg8 arg9 harg9 arg10 harg10 hc0 hc1 hc2 x0 x1 xs0).2.2.1 = (k4_pay8 (k4_pay5 (k4_pay2 x0 xs0 x1) k4_pay3) (k4_pay6 (k4_pay2 x0 xs0 x1) k4_pay4)) := by
  unfold kernelRun4_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov4_E_S0 (y : S1024x1024.Idx) : ∃ pc ∈ (kernelRun4_E c i arg3 harg3 arg4 harg4 arg5 harg5 arg6 harg6 arg7 harg7 arg8 harg8 arg9 harg9 arg10 harg10 hc0 hc1 hc2 x0 x1 xs0).2.2.2.1, y ∈ pc.1.set :=
  View.cover_of_tiledL _ S1024x1024.size (by sl_kernel_rfl) y
theorem val4_E_S0 : View.canon (kernelRun4_E c i arg3 harg3 arg4 harg4 arg5 harg5 arg6 harg6 arg7 harg7 arg8 harg8 arg9 harg9 arg10 harg10 hc0 hc1 hc2 x0 x1 xs0).2.2.2.1 = (k4_pay2 x0 xs0 x1) := by
  unfold kernelRun4_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov4_E_S1 (y : S1x1024.Idx) : ∃ pc ∈ (kernelRun4_E c i arg3 harg3 arg4 harg4 arg5 harg5 arg6 harg6 arg7 harg7 arg8 harg8 arg9 harg9 arg10 harg10 hc0 hc1 hc2 x0 x1 xs0).2.2.2.2.1, y ∈ pc.1.set :=
  View.cover_of_tiledL _ S1x1024.size (by sl_kernel_rfl) y
theorem val4_E_S1 : View.canon (kernelRun4_E c i arg3 harg3 arg4 harg4 arg5 harg5 arg6 harg6 arg7 harg7 arg8 harg8 arg9 harg9 arg10 harg10 hc0 hc1 hc2 x0 x1 xs0).2.2.2.2.1 = (k4_pay5 (k4_pay2 x0 xs0 x1) k4_pay3) := by
  unfold kernelRun4_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov4_E_S2 (y : S1x1024.Idx) : ∃ pc ∈ (kernelRun4_E c i arg3 harg3 arg4 harg4 arg5 harg5 arg6 harg6 arg7 harg7 arg8 harg8 arg9 harg9 arg10 harg10 hc0 hc1 hc2 x0 x1 xs0).2.2.2.2.2.1, y ∈ pc.1.set :=
  View.cover_of_tiledL _ S1x1024.size (by sl_kernel_rfl) y
theorem val4_E_S2 : View.canon (kernelRun4_E c i arg3 harg3 arg4 harg4 arg5 harg5 arg6 harg6 arg7 harg7 arg8 harg8 arg9 harg9 arg10 harg10 hc0 hc1 hc2 x0 x1 xs0).2.2.2.2.2.1 = (k4_pay6 (k4_pay2 x0 xs0 x1) k4_pay4) := by
  unfold kernelRun4_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case F -/

section
variable (c : Dev nD) (i : grid4.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond4_0 i) (hc1 : ¬cond4_1 i) (hc2 : cond4_2 i)
    (x0 : Vec F S1024x512 .bf16) (x1 : Vec F S1024x512 .bf16) (xs0 : Vec F S1024x1024 .f32) (xs1 : Vec F S1x1024 .f32) (xs2 : Vec F S1x1024 .f32)

theorem cov4_F_2 (y : S1024x1024.Idx) : ∃ pc ∈ (kernelRun4_F c i arg3 harg3 arg4 harg4 arg5 harg5 arg6 harg6 arg7 harg7 arg8 harg8 arg9 harg9 arg10 harg10 hc0 hc1 hc2 x0 x1 xs0 xs1 xs2).1, y ∈ pc.1.set :=
  View.cover_of_tiledL _ S1024x1024.size (by sl_kernel_rfl) y
theorem val4_F_2 : View.canon (kernelRun4_F c i arg3 harg3 arg4 harg4 arg5 harg5 arg6 harg6 arg7 harg7 arg8 harg8 arg9 harg9 arg10 harg10 hc0 hc1 hc2 x0 x1 xs0 xs1 xs2).1 = (k4_pay2 x0 xs0 x1) := by
  unfold kernelRun4_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov4_F_3 (y : S1x1024.Idx) : ∃ pc ∈ (kernelRun4_F c i arg3 harg3 arg4 harg4 arg5 harg5 arg6 harg6 arg7 harg7 arg8 harg8 arg9 harg9 arg10 harg10 hc0 hc1 hc2 x0 x1 xs0 xs1 xs2).2.1, y ∈ pc.1.set :=
  View.cover_of_tiledL _ S1x1024.size (by sl_kernel_rfl) y
theorem val4_F_3 : View.canon (kernelRun4_F c i arg3 harg3 arg4 harg4 arg5 harg5 arg6 harg6 arg7 harg7 arg8 harg8 arg9 harg9 arg10 harg10 hc0 hc1 hc2 x0 x1 xs0 xs1 xs2).2.1 = (k4_pay7 (k4_pay5 (k4_pay2 x0 xs0 x1) xs1)) := by
  unfold kernelRun4_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov4_F_4 (y : S1x1024.Idx) : ∃ pc ∈ (kernelRun4_F c i arg3 harg3 arg4 harg4 arg5 harg5 arg6 harg6 arg7 harg7 arg8 harg8 arg9 harg9 arg10 harg10 hc0 hc1 hc2 x0 x1 xs0 xs1 xs2).2.2.1, y ∈ pc.1.set :=
  View.cover_of_tiledL _ S1x1024.size (by sl_kernel_rfl) y
theorem val4_F_4 : View.canon (kernelRun4_F c i arg3 harg3 arg4 harg4 arg5 harg5 arg6 harg6 arg7 harg7 arg8 harg8 arg9 harg9 arg10 harg10 hc0 hc1 hc2 x0 x1 xs0 xs1 xs2).2.2.1 = (k4_pay8 (k4_pay5 (k4_pay2 x0 xs0 x1) xs1) (k4_pay6 (k4_pay2 x0 xs0 x1) xs2)) := by
  unfold kernelRun4_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov4_F_S0 (y : S1024x1024.Idx) : ∃ pc ∈ (kernelRun4_F c i arg3 harg3 arg4 harg4 arg5 harg5 arg6 harg6 arg7 harg7 arg8 harg8 arg9 harg9 arg10 harg10 hc0 hc1 hc2 x0 x1 xs0 xs1 xs2).2.2.2.1, y ∈ pc.1.set :=
  View.cover_of_tiledL _ S1024x1024.size (by sl_kernel_rfl) y
theorem val4_F_S0 : View.canon (kernelRun4_F c i arg3 harg3 arg4 harg4 arg5 harg5 arg6 harg6 arg7 harg7 arg8 harg8 arg9 harg9 arg10 harg10 hc0 hc1 hc2 x0 x1 xs0 xs1 xs2).2.2.2.1 = (k4_pay2 x0 xs0 x1) := by
  unfold kernelRun4_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov4_F_S1 (y : S1x1024.Idx) : ∃ pc ∈ (kernelRun4_F c i arg3 harg3 arg4 harg4 arg5 harg5 arg6 harg6 arg7 harg7 arg8 harg8 arg9 harg9 arg10 harg10 hc0 hc1 hc2 x0 x1 xs0 xs1 xs2).2.2.2.2.1, y ∈ pc.1.set :=
  View.cover_of_tiledL _ S1x1024.size (by sl_kernel_rfl) y
theorem val4_F_S1 : View.canon (kernelRun4_F c i arg3 harg3 arg4 harg4 arg5 harg5 arg6 harg6 arg7 harg7 arg8 harg8 arg9 harg9 arg10 harg10 hc0 hc1 hc2 x0 x1 xs0 xs1 xs2).2.2.2.2.1 = (k4_pay5 (k4_pay2 x0 xs0 x1) xs1) := by
  unfold kernelRun4_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov4_F_S2 (y : S1x1024.Idx) : ∃ pc ∈ (kernelRun4_F c i arg3 harg3 arg4 harg4 arg5 harg5 arg6 harg6 arg7 harg7 arg8 harg8 arg9 harg9 arg10 harg10 hc0 hc1 hc2 x0 x1 xs0 xs1 xs2).2.2.2.2.2.1, y ∈ pc.1.set :=
  View.cover_of_tiledL _ S1x1024.size (by sl_kernel_rfl) y
theorem val4_F_S2 : View.canon (kernelRun4_F c i arg3 harg3 arg4 harg4 arg5 harg5 arg6 harg6 arg7 harg7 arg8 harg8 arg9 harg9 arg10 harg10 hc0 hc1 hc2 x0 x1 xs0 xs1 xs2).2.2.2.2.2.1 = (k4_pay6 (k4_pay2 x0 xs0 x1) xs2) := by
  unfold kernelRun4_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ## One grid point of the closed-form state, case by case -/

theorem step4_A (n : ℕ) (h0 : n % 8 = 0) (h1 : n / 8 % 4 = 0) (h2 : ¬n % 8 = 7) (x0 : Vec F S1024x512 .bf16) (x1 : Vec F S1024x512 .bf16) (s : St4 F) :
    step4 n x0 x1 s = ⟨(k4_pay2 x0 k4_pay1 x1), k4_pay3, k4_pay4⟩ := by
  simp only [step4, if_pos h0, if_pos h1, if_neg h2]
theorem step4_B (n : ℕ) (h0 : n % 8 = 0) (h1 : ¬n / 8 % 4 = 0) (h2 : ¬n % 8 = 7) (x0 : Vec F S1024x512 .bf16) (x1 : Vec F S1024x512 .bf16) (s : St4 F) :
    step4 n x0 x1 s = ⟨(k4_pay2 x0 k4_pay1 x1), s.sum, s.sq⟩ := by
  simp only [step4, if_pos h0, if_neg h1, if_neg h2]
theorem step4_C (n : ℕ) (h0 : ¬n % 8 = 0) (h1 : n / 8 % 4 = 0) (h2 : ¬n % 8 = 7) (x0 : Vec F S1024x512 .bf16) (x1 : Vec F S1024x512 .bf16) (s : St4 F) :
    step4 n x0 x1 s = ⟨(k4_pay2 x0 s.acc x1), k4_pay3, k4_pay4⟩ := by
  simp only [step4, if_neg h0, if_pos h1, if_neg h2]
theorem step4_D (n : ℕ) (h0 : ¬n % 8 = 0) (h1 : ¬n / 8 % 4 = 0) (h2 : ¬n % 8 = 7) (x0 : Vec F S1024x512 .bf16) (x1 : Vec F S1024x512 .bf16) (s : St4 F) :
    step4 n x0 x1 s = ⟨(k4_pay2 x0 s.acc x1), s.sum, s.sq⟩ := by
  simp only [step4, if_neg h0, if_neg h1, if_neg h2]
theorem step4_E (n : ℕ) (h0 : ¬n % 8 = 0) (h1 : n / 8 % 4 = 0) (h2 : n % 8 = 7) (x0 : Vec F S1024x512 .bf16) (x1 : Vec F S1024x512 .bf16) (s : St4 F) :
    step4 n x0 x1 s = ⟨(k4_pay2 x0 s.acc x1), k4_pay5 (k4_pay2 x0 s.acc x1) k4_pay3, k4_pay6 (k4_pay2 x0 s.acc x1) k4_pay4⟩ := by
  simp only [step4, if_neg h0, if_pos h1, if_pos h2]
theorem step4_F (n : ℕ) (h0 : ¬n % 8 = 0) (h1 : ¬n / 8 % 4 = 0) (h2 : n % 8 = 7) (x0 : Vec F S1024x512 .bf16) (x1 : Vec F S1024x512 .bf16) (s : St4 F) :
    step4 n x0 x1 s = ⟨(k4_pay2 x0 s.acc x1), k4_pay5 (k4_pay2 x0 s.acc x1) s.sum, k4_pay6 (k4_pay2 x0 s.acc x1) s.sq⟩ := by
  simp only [step4, if_neg h0, if_neg h1, if_pos h2]

section
variable (V : (c : Dev nD) → (b : Ref sig .tc) → Buf (Elt F) ((c : Thread nD τ).loc b))

theorem st4_zero (c : Dev nD) (t : Fin cfg4.N) (hz : t.val = 0) :
    st4 V c t.val t.isLt = step4 0 (iblk4 V c 0 t) (iblk4 V c 1 t) ⟨k4_pay1, k4_pay3, k4_pay4⟩ := by
  obtain ⟨n, hn⟩ := t
  cases n with
  | zero => rfl
  | succ n => exact absurd hz (Nat.succ_ne_zero n)
theorem st4_pos (c : Dev nD) (t : Fin cfg4.N) (hz : t.val ≠ 0) (hlt : t.val - 1 < cfg4.N) :
    st4 V c t.val t.isLt = step4 t.val (iblk4 V c 0 t) (iblk4 V c 1 t) (st4 V c (t.val - 1) hlt) := by
  obtain ⟨n, hn⟩ := t
  cases n with
  | zero => exact absurd rfl hz
  | succ n => rfl

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t ∗ (dat4 V c).leavesExact 1 t
    ∗ (dat4 V c).leavesExact 2 t ∗ (dat4 V c).leavesExact 3 t ∗ (dat4 V c).leavesExact 4 t)

set_option maxHeartbeats 8000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  have hN : t.val < 128 := lt_of_lt_of_eq t.isLt (show cfg4.N = 128 from N_4)
  by_cases h0 : t.val % 8 = 0
  · have h2 : ¬t.val % 8 = 7 := by omega
    by_cases h1 : t.val / 8 % 4 = 0
    · by_cases hz : t.val = 0
      · rw [Dat.leavesExact_idle (dat4 V c) 2 t (idleAt4_2 t (fun h => h2 ((hcond4_2 t).mp h))) (noFlush4_2 t (fun h => h2 ((hcond4_2 t).mp h)))]
        rw [Dat.leavesExact_idle (dat4 V c) 3 t (idleAt4_3 t (fun h => h2 ((hcond4_2 t).mp h))) (noFlush4_3 t (fun h => h2 ((hcond4_2 t).mp h)))]
        rw [Dat.leavesExact_idle (dat4 V c) 4 t (idleAt4_4 t (fun h => h2 ((hcond4_2 t).mp h))) (noFlush4_4 t (fun h => h2 ((hcond4_2 t).mp h)))]
        rw [PhiS4_castSucc V c t, PhiS4_zero V c _ _ hz, PhiA4_eq, st4_zero V c t hz, step4_A _ (by omega) (by omega) (by omega)]
        dsimp only
        iintro ⟨⟨⟨⟨HS0, HS1, HS2⟩, Hr⟩, Hg⟩, Ho, ⟨%d0, H0⟩, ⟨%d1, H1⟩, H2, H3, H4⟩
        iapply ((kernelRun4_A c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) ((hcond4_0 t).mpr h0) ((hcond4_1 t).mpr h1) (fun h => h2 ((hcond4_2 t).mp h)) (iblk4 V c 0 t) (iblk4 V c 1 t) ).2.2.2 Set.univ _)
        isplitl [H0]; · iexact H0
        isplitl [H1]; · iexact H1
        isplitl [HS0]; · iexact HS0
        isplitl [HS1]; · iexact HS1
        isplitl [HS2]; · iexact HS2
        iintro ⟨H0, H1, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov4_A_S0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) ((hcond4_0 t).mpr h0) ((hcond4_1 t).mpr h1) (fun h => h2 ((hcond4_2 t).mp h)) (iblk4 V c 0 t) (iblk4 V c 1 t) )).trans (val4_A_S0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) ((hcond4_0 t).mpr h0) ((hcond4_1 t).mpr h1) (fun h => h2 ((hcond4_2 t).mp h)) (iblk4 V c 0 t) (iblk4 V c 1 t) )
              isplitl [HS1]
              · unfold owns; iexists _; isplitr
                swap; · iexact HS1
                ipureintro; exact (View.read_writes_eq_canon _ _ _ (cov4_A_S1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) ((hcond4_0 t).mpr h0) ((hcond4_1 t).mpr h1) (fun h => h2 ((hcond4_2 t).mp h)) (iblk4 V c 0 t) (iblk4 V c 1 t) )).trans (val4_A_S1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) ((hcond4_0 t).mpr h0) ((hcond4_1 t).mpr h1) (fun h => h2 ((hcond4_2 t).mp h)) (iblk4 V c 0 t) (iblk4 V c 1 t) )
              · unfold owns; iexists _; isplitr
                swap; · iexact HS2
                ipureintro; exact (View.read_writes_eq_canon _ _ _ (cov4_A_S2 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) ((hcond4_0 t).mpr h0) ((hcond4_1 t).mpr h1) (fun h => h2 ((hcond4_2 t).mp h)) (iblk4 V c 0 t) (iblk4 V c 1 t) )).trans (val4_A_S2 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) ((hcond4_0 t).mpr h0) ((hcond4_1 t).mpr h1) (fun h => h2 ((hcond4_2 t).mp h)) (iblk4 V c 0 t) (iblk4 V c 1 t) )
            · iexact Hr
          · iexact Hg
        isplitl [Ho]; · iexact Ho
        isplitl [H0]; · iexact H0
        isplitl [H1]; · iexact H1
        isplitl [H2]; · iexact H2
        isplitl [H3]; · iexact H3
        iexact H4
      · rw [Dat.leavesExact_idle (dat4 V c) 2 t (idleAt4_2 t (fun h => h2 ((hcond4_2 t).mp h))) (noFlush4_2 t (fun h => h2 ((hcond4_2 t).mp h)))]
        rw [Dat.leavesExact_idle (dat4 V c) 3 t (idleAt4_3 t (fun h => h2 ((hcond4_2 t).mp h))) (noFlush4_3 t (fun h => h2 ((hcond4_2 t).mp h)))]
        rw [Dat.leavesExact_idle (dat4 V c) 4 t (idleAt4_4 t (fun h => h2 ((hcond4_2 t).mp h))) (noFlush4_4 t (fun h => h2 ((hcond4_2 t).mp h)))]
        have hlt : t.val - 1 < cfg4.N := by omega
        rw [PhiS4_castSucc V c t, PhiS4_pos V c _ _ hz, st4_pos V c t hz hlt, step4_A _ h0 h1 h2]
        dsimp only
        iintro ⟨⟨⟨⟨HS0, HS1, HS2⟩, Hr⟩, Hg⟩, Ho, ⟨%d0, H0⟩, ⟨%d1, H1⟩, H2, H3, H4⟩
        iapply ((kernelRun4_A c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) ((hcond4_0 t).mpr h0) ((hcond4_1 t).mpr h1) (fun h => h2 ((hcond4_2 t).mp h)) (iblk4 V c 0 t) (iblk4 V c 1 t) ).2.2.2 Set.univ _)
        isplitl [H0]; · iexact H0
        isplitl [H1]; · iexact H1
        isplitl [HS0]; · iexists _; iexact HS0
        isplitl [HS1]; · iexists _; iexact HS1
        isplitl [HS2]; · iexists _; iexact HS2
        iintro ⟨H0, H1, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov4_A_S0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) ((hcond4_0 t).mpr h0) ((hcond4_1 t).mpr h1) (fun h => h2 ((hcond4_2 t).mp h)) (iblk4 V c 0 t) (iblk4 V c 1 t) )).trans (val4_A_S0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) ((hcond4_0 t).mpr h0) ((hcond4_1 t).mpr h1) (fun h => h2 ((hcond4_2 t).mp h)) (iblk4 V c 0 t) (iblk4 V c 1 t) )
              isplitl [HS1]
              · unfold owns; iexists _; isplitr
                swap; · iexact HS1
                ipureintro; exact (View.read_writes_eq_canon _ _ _ (cov4_A_S1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) ((hcond4_0 t).mpr h0) ((hcond4_1 t).mpr h1) (fun h => h2 ((hcond4_2 t).mp h)) (iblk4 V c 0 t) (iblk4 V c 1 t) )).trans (val4_A_S1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) ((hcond4_0 t).mpr h0) ((hcond4_1 t).mpr h1) (fun h => h2 ((hcond4_2 t).mp h)) (iblk4 V c 0 t) (iblk4 V c 1 t) )
              · unfold owns; iexists _; isplitr
                swap; · iexact HS2
                ipureintro; exact (View.read_writes_eq_canon _ _ _ (cov4_A_S2 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) ((hcond4_0 t).mpr h0) ((hcond4_1 t).mpr h1) (fun h => h2 ((hcond4_2 t).mp h)) (iblk4 V c 0 t) (iblk4 V c 1 t) )).trans (val4_A_S2 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) ((hcond4_0 t).mpr h0) ((hcond4_1 t).mpr h1) (fun h => h2 ((hcond4_2 t).mp h)) (iblk4 V c 0 t) (iblk4 V c 1 t) )
            · iexact Hr
          · iexact Hg
        isplitl [Ho]; · iexact Ho
        isplitl [H0]; · iexact H0
        isplitl [H1]; · iexact H1
        isplitl [H2]; · iexact H2
        isplitl [H3]; · iexact H3
        iexact H4
    · have hz : t.val ≠ 0 := by omega
      rw [Dat.leavesExact_idle (dat4 V c) 2 t (idleAt4_2 t (fun h => h2 ((hcond4_2 t).mp h))) (noFlush4_2 t (fun h => h2 ((hcond4_2 t).mp h)))]
      rw [Dat.leavesExact_idle (dat4 V c) 3 t (idleAt4_3 t (fun h => h2 ((hcond4_2 t).mp h))) (noFlush4_3 t (fun h => h2 ((hcond4_2 t).mp h)))]
      rw [Dat.leavesExact_idle (dat4 V c) 4 t (idleAt4_4 t (fun h => h2 ((hcond4_2 t).mp h))) (noFlush4_4 t (fun h => h2 ((hcond4_2 t).mp h)))]
      have hlt : t.val - 1 < cfg4.N := by omega
      rw [PhiS4_castSucc V c t, PhiS4_pos V c _ _ hz, st4_pos V c t hz hlt, step4_B _ h0 h1 h2]
      dsimp only
      iintro ⟨⟨⟨⟨HS0, HS1, HS2⟩, Hr⟩, Hg⟩, Ho, ⟨%d0, H0⟩, ⟨%d1, H1⟩, H2, H3, H4⟩
      iapply ((kernelRun4_B c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) ((hcond4_0 t).mpr h0) (fun h => h1 ((hcond4_1 t).mp h)) (fun h => h2 ((hcond4_2 t).mp h)) (iblk4 V c 0 t) (iblk4 V c 1 t) ).2 Set.univ _)
      isplitl [H0]; · iexact H0
      isplitl [H1]; · iexact H1
      isplitl [HS0]; · iexists _; iexact HS0
      iintro ⟨H0, H1, ⟨%eS0, HS0⟩⟩
      isplitl [HS0 HS1 HS2 Hr Hg]
      · isplitl [HS0 HS1 HS2 Hr]
        · isplitl [HS0 HS1 HS2]
          · isplitl [HS0]
            · unfold owns; iexists _; isplitr
              swap; · iexact HS0
              ipureintro; exact (View.read_writes_eq_canon _ _ _ (cov4_B_S0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) ((hcond4_0 t).mpr h0) (fun h => h1 ((hcond4_1 t).mp h)) (fun h => h2 ((hcond4_2 t).mp h)) (iblk4 V c 0 t) (iblk4 V c 1 t) )).trans (val4_B_S0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) ((hcond4_0 t).mpr h0) (fun h => h1 ((hcond4_1 t).mp h)) (fun h => h2 ((hcond4_2 t).mp h)) (iblk4 V c 0 t) (iblk4 V c 1 t) )
            isplitl [HS1]
            · iexact HS1
            · iexact HS2
          · iexact Hr
        · iexact Hg
      isplitl [Ho]; · iexact Ho
      isplitl [H0]; · iexact H0
      isplitl [H1]; · iexact H1
      isplitl [H2]; · iexact H2
      isplitl [H3]; · iexact H3
      iexact H4
  · have hz : t.val ≠ 0 := by omega
    by_cases h1 : t.val / 8 % 4 = 0
    · by_cases h2 : t.val % 8 = 7
      · rw [show (dat4 V c).leavesExact 2 t = owns (c : Thread nD τ) (ms4_2 t) fullShare ((dat4 V c).after 2 t) from by
          unfold Dat.leavesExact; rw [liveAt4_2 t ((hcond4_2 t).mpr h2)], after4_2]
        rw [show (dat4 V c).leavesExact 3 t = owns (c : Thread nD τ) (ms4_3 t) fullShare ((dat4 V c).after 3 t) from by
          unfold Dat.leavesExact; rw [liveAt4_3 t ((hcond4_2 t).mpr h2)], after4_3]
        rw [show (dat4 V c).leavesExact 4 t = owns (c : Thread nD τ) (ms4_4 t) fullShare ((dat4 V c).after 4 t) from by
          unfold Dat.leavesExact; rw [liveAt4_4 t ((hcond4_2 t).mpr h2)], after4_4]
        have hlt : t.val - 1 < cfg4.N := by omega
        rw [PhiS4_castSucc V c t, PhiS4_pos V c _ _ hz, st4_pos V c t hz hlt, step4_E _ h0 h1 h2]
        dsimp only
        iintro ⟨⟨⟨⟨HS0, HS1, HS2⟩, Hr⟩, Hg⟩, Ho, ⟨%d0, H0⟩, ⟨%d1, H1⟩, ⟨%d2, H2⟩, ⟨%d3, H3⟩, ⟨%d4, H4⟩⟩
        iapply ((kernelRun4_E c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) ((hcond4_2 t).mpr h2) (iblk4 V c 0 t) (iblk4 V c 1 t) (st4 V c (t.val - 1) hlt).acc).2.2.2.2.2.2 Set.univ _)
        isplitl [H0]; · iexact H0
        isplitl [H1]; · iexact H1
        isplitl [H2]; · iexists _; iexact H2
        isplitl [H3]; · iexists _; iexact H3
        isplitl [H4]; · iexists _; iexact H4
        isplitl [HS0]; · iexact HS0
        isplitl [HS1]; · iexists _; iexact HS1
        isplitl [HS2]; · iexists _; iexact HS2
        iintro ⟨H0, H1, ⟨%e2, H2⟩, ⟨%e3, H3⟩, ⟨%e4, H4⟩, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov4_E_S0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) ((hcond4_2 t).mpr h2) (iblk4 V c 0 t) (iblk4 V c 1 t) (st4 V c (t.val - 1) hlt).acc)).trans (val4_E_S0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) ((hcond4_2 t).mpr h2) (iblk4 V c 0 t) (iblk4 V c 1 t) (st4 V c (t.val - 1) hlt).acc)
              isplitl [HS1]
              · unfold owns; iexists _; isplitr
                swap; · iexact HS1
                ipureintro; exact (View.read_writes_eq_canon _ _ _ (cov4_E_S1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) ((hcond4_2 t).mpr h2) (iblk4 V c 0 t) (iblk4 V c 1 t) (st4 V c (t.val - 1) hlt).acc)).trans (val4_E_S1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) ((hcond4_2 t).mpr h2) (iblk4 V c 0 t) (iblk4 V c 1 t) (st4 V c (t.val - 1) hlt).acc)
              · unfold owns; iexists _; isplitr
                swap; · iexact HS2
                ipureintro; exact (View.read_writes_eq_canon _ _ _ (cov4_E_S2 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) ((hcond4_2 t).mpr h2) (iblk4 V c 0 t) (iblk4 V c 1 t) (st4 V c (t.val - 1) hlt).acc)).trans (val4_E_S2 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) ((hcond4_2 t).mpr h2) (iblk4 V c 0 t) (iblk4 V c 1 t) (st4 V c (t.val - 1) hlt).acc)
            · iexact Hr
          · iexact Hg
        isplitl [Ho]; · iexact Ho
        isplitl [H0]; · iexact H0
        isplitl [H1]; · iexact H1
        isplitl [H2]
        · unfold owns; iexists _; isplitr
          swap; · iexact H2
          ipureintro; exact (View.read_writes_eq_canon _ _ _ (cov4_E_2 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) ((hcond4_2 t).mpr h2) (iblk4 V c 0 t) (iblk4 V c 1 t) (st4 V c (t.val - 1) hlt).acc)).trans (val4_E_2 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) ((hcond4_2 t).mpr h2) (iblk4 V c 0 t) (iblk4 V c 1 t) (st4 V c (t.val - 1) hlt).acc)
        isplitl [H3]
        · unfold owns; iexists _; isplitr
          swap; · iexact H3
          ipureintro; exact (View.read_writes_eq_canon _ _ _ (cov4_E_3 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) ((hcond4_2 t).mpr h2) (iblk4 V c 0 t) (iblk4 V c 1 t) (st4 V c (t.val - 1) hlt).acc)).trans (val4_E_3 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) ((hcond4_2 t).mpr h2) (iblk4 V c 0 t) (iblk4 V c 1 t) (st4 V c (t.val - 1) hlt).acc)
        · unfold owns; iexists _; isplitr
          swap; · iexact H4
          ipureintro; exact (View.read_writes_eq_canon _ _ _ (cov4_E_4 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) ((hcond4_2 t).mpr h2) (iblk4 V c 0 t) (iblk4 V c 1 t) (st4 V c (t.val - 1) hlt).acc)).trans (val4_E_4 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) ((hcond4_2 t).mpr h2) (iblk4 V c 0 t) (iblk4 V c 1 t) (st4 V c (t.val - 1) hlt).acc)
      · rw [Dat.leavesExact_idle (dat4 V c) 2 t (idleAt4_2 t (fun h => h2 ((hcond4_2 t).mp h))) (noFlush4_2 t (fun h => h2 ((hcond4_2 t).mp h)))]
        rw [Dat.leavesExact_idle (dat4 V c) 3 t (idleAt4_3 t (fun h => h2 ((hcond4_2 t).mp h))) (noFlush4_3 t (fun h => h2 ((hcond4_2 t).mp h)))]
        rw [Dat.leavesExact_idle (dat4 V c) 4 t (idleAt4_4 t (fun h => h2 ((hcond4_2 t).mp h))) (noFlush4_4 t (fun h => h2 ((hcond4_2 t).mp h)))]
        have hlt : t.val - 1 < cfg4.N := by omega
        rw [PhiS4_castSucc V c t, PhiS4_pos V c _ _ hz, st4_pos V c t hz hlt, step4_C _ h0 h1 h2]
        dsimp only
        iintro ⟨⟨⟨⟨HS0, HS1, HS2⟩, Hr⟩, Hg⟩, Ho, ⟨%d0, H0⟩, ⟨%d1, H1⟩, H2, H3, H4⟩
        iapply ((kernelRun4_C c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) (fun h => h2 ((hcond4_2 t).mp h)) (iblk4 V c 0 t) (iblk4 V c 1 t) (st4 V c (t.val - 1) hlt).acc).2.2.2 Set.univ _)
        isplitl [H0]; · iexact H0
        isplitl [H1]; · iexact H1
        isplitl [HS0]; · iexact HS0
        isplitl [HS1]; · iexists _; iexact HS1
        isplitl [HS2]; · iexists _; iexact HS2
        iintro ⟨H0, H1, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov4_C_S0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) (fun h => h2 ((hcond4_2 t).mp h)) (iblk4 V c 0 t) (iblk4 V c 1 t) (st4 V c (t.val - 1) hlt).acc)).trans (val4_C_S0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) (fun h => h2 ((hcond4_2 t).mp h)) (iblk4 V c 0 t) (iblk4 V c 1 t) (st4 V c (t.val - 1) hlt).acc)
              isplitl [HS1]
              · unfold owns; iexists _; isplitr
                swap; · iexact HS1
                ipureintro; exact (View.read_writes_eq_canon _ _ _ (cov4_C_S1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) (fun h => h2 ((hcond4_2 t).mp h)) (iblk4 V c 0 t) (iblk4 V c 1 t) (st4 V c (t.val - 1) hlt).acc)).trans (val4_C_S1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) (fun h => h2 ((hcond4_2 t).mp h)) (iblk4 V c 0 t) (iblk4 V c 1 t) (st4 V c (t.val - 1) hlt).acc)
              · unfold owns; iexists _; isplitr
                swap; · iexact HS2
                ipureintro; exact (View.read_writes_eq_canon _ _ _ (cov4_C_S2 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) (fun h => h2 ((hcond4_2 t).mp h)) (iblk4 V c 0 t) (iblk4 V c 1 t) (st4 V c (t.val - 1) hlt).acc)).trans (val4_C_S2 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) ((hcond4_1 t).mpr h1) (fun h => h2 ((hcond4_2 t).mp h)) (iblk4 V c 0 t) (iblk4 V c 1 t) (st4 V c (t.val - 1) hlt).acc)
            · iexact Hr
          · iexact Hg
        isplitl [Ho]; · iexact Ho
        isplitl [H0]; · iexact H0
        isplitl [H1]; · iexact H1
        isplitl [H2]; · iexact H2
        isplitl [H3]; · iexact H3
        iexact H4
    · by_cases h2 : t.val % 8 = 7
      · rw [show (dat4 V c).leavesExact 2 t = owns (c : Thread nD τ) (ms4_2 t) fullShare ((dat4 V c).after 2 t) from by
          unfold Dat.leavesExact; rw [liveAt4_2 t ((hcond4_2 t).mpr h2)], after4_2]
        rw [show (dat4 V c).leavesExact 3 t = owns (c : Thread nD τ) (ms4_3 t) fullShare ((dat4 V c).after 3 t) from by
          unfold Dat.leavesExact; rw [liveAt4_3 t ((hcond4_2 t).mpr h2)], after4_3]
        rw [show (dat4 V c).leavesExact 4 t = owns (c : Thread nD τ) (ms4_4 t) fullShare ((dat4 V c).after 4 t) from by
          unfold Dat.leavesExact; rw [liveAt4_4 t ((hcond4_2 t).mpr h2)], after4_4]
        have hlt : t.val - 1 < cfg4.N := by omega
        rw [PhiS4_castSucc V c t, PhiS4_pos V c _ _ hz, st4_pos V c t hz hlt, step4_F _ h0 h1 h2]
        dsimp only
        iintro ⟨⟨⟨⟨HS0, HS1, HS2⟩, Hr⟩, Hg⟩, Ho, ⟨%d0, H0⟩, ⟨%d1, H1⟩, ⟨%d2, H2⟩, ⟨%d3, H3⟩, ⟨%d4, H4⟩⟩
        iapply ((kernelRun4_F c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) (fun h => h1 ((hcond4_1 t).mp h)) ((hcond4_2 t).mpr h2) (iblk4 V c 0 t) (iblk4 V c 1 t) (st4 V c (t.val - 1) hlt).acc (st4 V c (t.val - 1) hlt).sum (st4 V c (t.val - 1) hlt).sq).2.2.2.2.2.2 Set.univ _)
        isplitl [H0]; · iexact H0
        isplitl [H1]; · iexact H1
        isplitl [H2]; · iexists _; iexact H2
        isplitl [H3]; · iexists _; iexact H3
        isplitl [H4]; · iexists _; iexact H4
        isplitl [HS0]; · iexact HS0
        isplitl [HS1]; · iexact HS1
        isplitl [HS2]; · iexact HS2
        iintro ⟨H0, H1, ⟨%e2, H2⟩, ⟨%e3, H3⟩, ⟨%e4, H4⟩, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov4_F_S0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) (fun h => h1 ((hcond4_1 t).mp h)) ((hcond4_2 t).mpr h2) (iblk4 V c 0 t) (iblk4 V c 1 t) (st4 V c (t.val - 1) hlt).acc (st4 V c (t.val - 1) hlt).sum (st4 V c (t.val - 1) hlt).sq)).trans (val4_F_S0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) (fun h => h1 ((hcond4_1 t).mp h)) ((hcond4_2 t).mpr h2) (iblk4 V c 0 t) (iblk4 V c 1 t) (st4 V c (t.val - 1) hlt).acc (st4 V c (t.val - 1) hlt).sum (st4 V c (t.val - 1) hlt).sq)
              isplitl [HS1]
              · unfold owns; iexists _; isplitr
                swap; · iexact HS1
                ipureintro; exact (View.read_writes_eq_canon _ _ _ (cov4_F_S1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) (fun h => h1 ((hcond4_1 t).mp h)) ((hcond4_2 t).mpr h2) (iblk4 V c 0 t) (iblk4 V c 1 t) (st4 V c (t.val - 1) hlt).acc (st4 V c (t.val - 1) hlt).sum (st4 V c (t.val - 1) hlt).sq)).trans (val4_F_S1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) (fun h => h1 ((hcond4_1 t).mp h)) ((hcond4_2 t).mpr h2) (iblk4 V c 0 t) (iblk4 V c 1 t) (st4 V c (t.val - 1) hlt).acc (st4 V c (t.val - 1) hlt).sum (st4 V c (t.val - 1) hlt).sq)
              · unfold owns; iexists _; isplitr
                swap; · iexact HS2
                ipureintro; exact (View.read_writes_eq_canon _ _ _ (cov4_F_S2 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) (fun h => h1 ((hcond4_1 t).mp h)) ((hcond4_2 t).mpr h2) (iblk4 V c 0 t) (iblk4 V c 1 t) (st4 V c (t.val - 1) hlt).acc (st4 V c (t.val - 1) hlt).sum (st4 V c (t.val - 1) hlt).sq)).trans (val4_F_S2 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) (fun h => h1 ((hcond4_1 t).mp h)) ((hcond4_2 t).mpr h2) (iblk4 V c 0 t) (iblk4 V c 1 t) (st4 V c (t.val - 1) hlt).acc (st4 V c (t.val - 1) hlt).sum (st4 V c (t.val - 1) hlt).sq)
            · iexact Hr
          · iexact Hg
        isplitl [Ho]; · iexact Ho
        isplitl [H0]; · iexact H0
        isplitl [H1]; · iexact H1
        isplitl [H2]
        · unfold owns; iexists _; isplitr
          swap; · iexact H2
          ipureintro; exact (View.read_writes_eq_canon _ _ _ (cov4_F_2 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) (fun h => h1 ((hcond4_1 t).mp h)) ((hcond4_2 t).mpr h2) (iblk4 V c 0 t) (iblk4 V c 1 t) (st4 V c (t.val - 1) hlt).acc (st4 V c (t.val - 1) hlt).sum (st4 V c (t.val - 1) hlt).sq)).trans (val4_F_2 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) (fun h => h1 ((hcond4_1 t).mp h)) ((hcond4_2 t).mpr h2) (iblk4 V c 0 t) (iblk4 V c 1 t) (st4 V c (t.val - 1) hlt).acc (st4 V c (t.val - 1) hlt).sum (st4 V c (t.val - 1) hlt).sq)
        isplitl [H3]
        · unfold owns; iexists _; isplitr
          swap; · iexact H3
          ipureintro; exact (View.read_writes_eq_canon _ _ _ (cov4_F_3 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) (fun h => h1 ((hcond4_1 t).mp h)) ((hcond4_2 t).mpr h2) (iblk4 V c 0 t) (iblk4 V c 1 t) (st4 V c (t.val - 1) hlt).acc (st4 V c (t.val - 1) hlt).sum (st4 V c (t.val - 1) hlt).sq)).trans (val4_F_3 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) (fun h => h1 ((hcond4_1 t).mp h)) ((hcond4_2 t).mpr h2) (iblk4 V c 0 t) (iblk4 V c 1 t) (st4 V c (t.val - 1) hlt).acc (st4 V c (t.val - 1) hlt).sum (st4 V c (t.val - 1) hlt).sq)
        · unfold owns; iexists _; isplitr
          swap; · iexact H4
          ipureintro; exact (View.read_writes_eq_canon _ _ _ (cov4_F_4 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) (fun h => h1 ((hcond4_1 t).mp h)) ((hcond4_2 t).mpr h2) (iblk4 V c 0 t) (iblk4 V c 1 t) (st4 V c (t.val - 1) hlt).acc (st4 V c (t.val - 1) hlt).sum (st4 V c (t.val - 1) hlt).sq)).trans (val4_F_4 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) (fun h => h1 ((hcond4_1 t).mp h)) ((hcond4_2 t).mpr h2) (iblk4 V c 0 t) (iblk4 V c 1 t) (st4 V c (t.val - 1) hlt).acc (st4 V c (t.val - 1) hlt).sum (st4 V c (t.val - 1) hlt).sq)
      · rw [Dat.leavesExact_idle (dat4 V c) 2 t (idleAt4_2 t (fun h => h2 ((hcond4_2 t).mp h))) (noFlush4_2 t (fun h => h2 ((hcond4_2 t).mp h)))]
        rw [Dat.leavesExact_idle (dat4 V c) 3 t (idleAt4_3 t (fun h => h2 ((hcond4_2 t).mp h))) (noFlush4_3 t (fun h => h2 ((hcond4_2 t).mp h)))]
        rw [Dat.leavesExact_idle (dat4 V c) 4 t (idleAt4_4 t (fun h => h2 ((hcond4_2 t).mp h))) (noFlush4_4 t (fun h => h2 ((hcond4_2 t).mp h)))]
        have hlt : t.val - 1 < cfg4.N := by omega
        rw [PhiS4_castSucc V c t, PhiS4_pos V c _ _ hz, st4_pos V c t hz hlt, step4_D _ h0 h1 h2]
        dsimp only
        iintro ⟨⟨⟨⟨HS0, HS1, HS2⟩, Hr⟩, Hg⟩, Ho, ⟨%d0, H0⟩, ⟨%d1, H1⟩, H2, H3, H4⟩
        iapply ((kernelRun4_D c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) (fun h => h1 ((hcond4_1 t).mp h)) (fun h => h2 ((hcond4_2 t).mp h)) (iblk4 V c 0 t) (iblk4 V c 1 t) (st4 V c (t.val - 1) hlt).acc).2 Set.univ _)
        isplitl [H0]; · iexact H0
        isplitl [H1]; · iexact H1
        isplitl [HS0]; · iexact HS0
        iintro ⟨H0, H1, ⟨%eS0, HS0⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov4_D_S0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) (fun h => h1 ((hcond4_1 t).mp h)) (fun h => h2 ((hcond4_2 t).mp h)) (iblk4 V c 0 t) (iblk4 V c 1 t) (st4 V c (t.val - 1) hlt).acc)).trans (val4_D_S0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) scM4_2 (Memref.isWhole_whole _) (fun h => h0 ((hcond4_0 t).mp h)) (fun h => h1 ((hcond4_1 t).mp h)) (fun h => h2 ((hcond4_2 t).mp h)) (iblk4 V c 0 t) (iblk4 V c 1 t) (st4 V c (t.val - 1) hlt).acc)
              isplitl [HS1]
              · iexact HS1
              · iexact HS2
            · iexact Hr
          · iexact Hg
        isplitl [Ho]; · iexact Ho
        isplitl [H0]; · iexact H0
        isplitl [H1]; · iexact H1
        isplitl [H2]; · iexact H2
        isplitl [H3]; · iexact H3
        iexact H4

theorem body_obligation4 (c : Dev nD) : BodyObligation (dat4 (F := F) V c) (defs₀ (F := F)) Variants.none () Set.univ := fun t => by
  rw [bigSep_W4, bigSep_W4]
  exact sound_body4 V c t

end

end Cert.Kernel.Hand

end
-- ==== Proof.K.R7Runs.lean ====
/-
  Matrix-product region 7: what its six control cases share — the three branch conditions in closed form over the grid
  (point n = 32 j + 8 i + k: the accumulator is reset at k = 0, the two running rows at i = 0, the statistics are taken at
  k = 7), where the three outputs are idle and when they are written back, and the memrefs the body is called with.
-/
import proofs.«157460_j63591285784858_2_alg».proof.Proof.K.R7Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## The branch conditions -/

abbrev cond7_0 (i : grid7.Coords) : Prop := (Scalar.cmpi .ne (Scalar.extui (Scalar.cmpi .eq (BitVec.ofNat 32 (i 2).val) 0#32)) 0#32) = 1#1
theorem hcond7_0 : ∀ t : Fin cfg7.N, cond7_0 (grid7.coords t) ↔ t.val % 8 = 0 :=
  (by decide +kernel : ∀ t : Fin grid7.N, cond7_0 (grid7.coords t) ↔ t.val % 8 = 0)
abbrev cond7_1 (i : grid7.Coords) : Prop := (Scalar.cmpi .ne (Scalar.extui (Scalar.cmpi .eq (BitVec.ofNat 32 (i 1).val) 0#32)) 0#32) = 1#1
theorem hcond7_1 : ∀ t : Fin cfg7.N, cond7_1 (grid7.coords t) ↔ t.val / 8 % 4 = 0 :=
  (by decide +kernel : ∀ t : Fin grid7.N, cond7_1 (grid7.coords t) ↔ t.val / 8 % 4 = 0)
abbrev cond7_2 (i : grid7.Coords) : Prop := k7_cond3 i = 1#1
theorem hcond7_2 : ∀ t : Fin cfg7.N, cond7_2 (grid7.coords t) ↔ t.val % 8 = 7 :=
  (by decide +kernel : ∀ t : Fin grid7.N, cond7_2 (grid7.coords t) ↔ t.val % 8 = 7)

/-! ## Idle points and write-backs of the three outputs -/

theorem liveAt7_0 : ∀ t : Fin cfg7.N, cfg7.idle 0 (grid7.coords t) = false := by decide +kernel
theorem liveAt7_1 : ∀ t : Fin cfg7.N, cfg7.idle 1 (grid7.coords t) = false := by decide +kernel
theorem idleAt7_2 : ∀ t : Fin cfg7.N, ¬cond7_2 (grid7.coords t) → cfg7.idle 2 (grid7.coords t) = true := by decide +kernel
theorem liveAt7_2 : ∀ t : Fin cfg7.N, cond7_2 (grid7.coords t) → cfg7.idle 2 (grid7.coords t) = false := by decide +kernel
theorem noFlush7_2 : ∀ t : Fin cfg7.N, ¬cond7_2 (grid7.coords t) → (cfg7.win 2).flush t = false := by decide +kernel
theorem idleAt7_3 : ∀ t : Fin cfg7.N, ¬cond7_2 (grid7.coords t) → cfg7.idle 3 (grid7.coords t) = true := by decide +kernel
theorem liveAt7_3 : ∀ t : Fin cfg7.N, cond7_2 (grid7.coords t) → cfg7.idle 3 (grid7.coords t) = false := by decide +kernel
theorem noFlush7_3 : ∀ t : Fin cfg7.N, ¬cond7_2 (grid7.coords t) → (cfg7.win 3).flush t = false := by decide +kernel
theorem idleAt7_4 : ∀ t : Fin cfg7.N, ¬cond7_2 (grid7.coords t) → cfg7.idle 4 (grid7.coords t) = true := by decide +kernel
theorem liveAt7_4 : ∀ t : Fin cfg7.N, cond7_2 (grid7.coords t) → cfg7.idle 4 (grid7.coords t) = false := by decide +kernel
theorem noFlush7_4 : ∀ t : Fin cfg7.N, ¬cond7_2 (grid7.coords t) → (cfg7.win 4).flush t = false := by decide +kernel

/-! ## The memrefs the body is called with -/

abbrev ms7_0 (t : Fin cfg7.N) : Memref sig .tc .vmem S1024x512 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1024x512 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1024x1024 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x1024 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x1024 .f32 := win7_4.stage (cfg7.slots t 4)
abbrev hs7_4 (t : Fin cfg7.N) : (ms7_4 t).IsWhole := hstage7_4 ((cfg7.slots t 4).cast nbuf7_4)
/-- Views through which contents are stated (any whole buffer of the shape serves). -/
abbrev VB7 : View sig .tc .vmem S1024x1024 .f32 := scM7_0.view
abbrev VR7 : View sig .tc .vmem S1x1024 .f32 := scM7_1.view

end Cert.Kernel.Hand

end
-- ==== Proof.K.R7RunA.lean ====
/-
  The whole body at the first point of an output column tile (k = 0, i = 0): the accumulator is cleared and receives
  the block product; the two running rows are cleared. Nothing read of what the scratch buffers held;
  Only the buffers the body stores into are mentioned; what each ends with is found by running the body: the pieces
  are the witness.
-/
import proofs.«157460_j63591285784858_2_alg».proof.Proof.K.R7Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
noncomputable def kernelRun7_A (c : Dev nD) (i : grid7.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : cond7_0 i) (hc1 : cond7_1 i) (hc2 : ¬cond7_2 i)
    (x0 : Vec F S1024x512 .bf16) (x1 : Vec F S1024x512 .bf16)  :
    Σ' (LS0 : List (View.Piece (Elt F) S1024x1024 .f32)) (LS1 : List (View.Piece (Elt F) S1x1024 .f32)), { LS2 : List (View.Piece (Elt F) S1x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc7__matmul_stats_kernel i arg3 harg3 arg4 harg4 arg5 harg5 arg6 harg6 arg7 harg7 arg8 harg8 arg9 harg9 arg10 harg10) K } := by
  refine ⟨?_, ?_, ?_, fun E K => ?run⟩
  case run =>
    simp only [cc7__matmul_stats_kernel_eq_skeleton]; unfold cc7__matmul_stats_kernel_skel
    unfold owns
    iintro ⟨⟨%f0, %hf0, H0⟩, ⟨%f1, %hf1, H1⟩, ⟨%dHS0, %fHS0, -, HS0⟩, ⟨%dHS1, %fHS1, -, HS1⟩, ⟨%dHS2, %fHS2, -, HS2⟩, Hk⟩
    obtain rfl := harg3.eq_unread hf0; obtain rfl := harg4.eq_unread hf1

    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [HS0]; · iexists _; iexact HS0
    isplitl [HS1]; · iexists _; iexact HS1
    iexists _; iexact HS2

end Cert.Kernel.Hand

end
-- ==== Proof.K.R7RunB.lean ====
/-
  The whole body at the first reduction step of a batch tile that is not the first (k = 0, i ≠ 0): the accumulator is
  cleared and receives the block product; the two running rows keep what the tile before left.
  Only the buffers the body stores into are mentioned; what each ends with is found by running the body: the pieces
  are the witness.
-/
import proofs.«157460_j63591285784858_2_alg».proof.Proof.K.R7Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
noncomputable def kernelRun7_B (c : Dev nD) (i : grid7.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : cond7_0 i) (hc1 : ¬cond7_1 i) (hc2 : ¬cond7_2 i)
    (x0 : Vec F S1024x512 .bf16) (x1 : Vec F S1024x512 .bf16)  :
    { LS0 : List (View.Piece (Elt F) S1024x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg8 fullShare d)
            ∗ (iprop(owns (c : Thread nD τ) arg3 fullShare x0 ∗ owns (c : Thread nD τ) arg4 fullShare x1
                ∗ (∃ f, arg8.view.loc (c : Thread nD τ) ↦[arg8.view.set]{fullShare} arg8.view.writes (Elt F) f LS0)) -∗ K ⟨⟩))
          ⊢ wp frame (wpE (defs₀ (F := F)) Variants.none c none) E (cc7__matmul_stats_kernel i arg3 harg3 arg4 harg4 arg5 harg5 arg6 harg6 arg7 harg7 arg8 harg8 arg9 harg9 arg10 harg10) K } := by
  refine ⟨?_, fun E K => ?run⟩
  case run =>
    simp only [cc7__matmul_stats_kernel_eq_skeleton]; unfold cc7__matmul_stats_kernel_skel
    unfold owns
    iintro ⟨⟨%f0, %hf0, H0⟩, ⟨%f1, %hf1, H1⟩, ⟨%dHS0, %fHS0, -, HS0⟩, Hk⟩
    obtain rfl := harg3.eq_unread hf0; obtain rfl := harg4.eq_unread hf1

    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.Kernel.Hand

end
-- ==== Proof.K.R7RunC.lean ====
/-
  The whole body at a middle reduction step of the first batch tile (0 < k < 3, i = 0): the accumulator found at what
  the step before left receives the block product; the two running rows are cleared; the three outputs are not
  touched.
  Only the buffers the body stores into are mentioned; what each ends with is found by running the body: the pieces
  are the witness.
-/
import proofs.«157460_j63591285784858_2_alg».proof.Proof.K.R7Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
noncomputable def kernelRun7_C (c : Dev nD) (i : grid7.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond7_0 i) (hc1 : cond7_1 i) (hc2 : ¬cond7_2 i)
    (x0 : Vec F S1024x512 .bf16) (x1 : Vec F S1024x512 .bf16) (xs0 : Vec F S1024x1024 .f32) :
    Σ' (LS0 : List (View.Piece (Elt F) S1024x1024 .f32)) (LS1 : List (View.Piece (Elt F) S1x1024 .f32)), { LS2 : List (View.Piece (Elt F) S1x1024 .f32) //
      ∀ (E : Set ℕ) (K : PUnit → sProp 𝕄),
        iprop(owns (c : Thread nD τ) arg3 fullShare x0 ∗ owns (c : Thread nD τ) arg4 fullShare x1
            ∗ owns (c : Thread nD τ) arg8 fullShare xs0 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc7__matmul_stats_kernel i arg3 harg3 arg4 harg4 arg5 harg5 arg6 harg6 arg7 harg7 arg8 harg8 arg9 harg9 arg10 harg10) K } := by
  refine ⟨?_, ?_, ?_, fun E K => ?run⟩
  case run =>
    simp only [cc7__matmul_stats_kernel_eq_skeleton]; unfold cc7__matmul_stats_kernel_skel
    unfold owns
    iintro ⟨⟨%f0, %hf0, H0⟩, ⟨%f1, %hf1, H1⟩, ⟨%fHS0, %hfHS0, HS0⟩, ⟨%dHS1, %fHS1, -, HS1⟩, ⟨%dHS2, %fHS2, -, HS2⟩, Hk⟩
    obtain rfl := harg3.eq_unread hf0; obtain rfl := harg4.eq_unread hf1
    obtain rfl := harg8.eq_unread hfHS0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [HS0]; · iexists _; iexact HS0
    isplitl [HS1]; · iexists _; iexact HS1
    iexists _; iexact HS2

end Cert.Kernel.Hand

end
-- ==== Proof.K.R7RunD.lean ====
/-
  The whole body at a middle reduction step of a batch tile that is not the first (0 < k < 3, i ≠ 0): the accumulator
  found at what the step before left receives the block product; the two running rows keep what the tile before left;

  Only the buffers the body stores into are mentioned; what each ends with is found by running the body: the pieces
  are the witness.
-/
import proofs.«157460_j63591285784858_2_alg».proof.Proof.K.R7Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
noncomputable def kernelRun7_D (c : Dev nD) (i : grid7.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond7_0 i) (hc1 : ¬cond7_1 i) (hc2 : ¬cond7_2 i)
    (x0 : Vec F S1024x512 .bf16) (x1 : Vec F S1024x512 .bf16) (xs0 : Vec F S1024x1024 .f32) :
    { LS0 : List (View.Piece (Elt F) S1024x1024 .f32) //
      ∀ (E : Set ℕ) (K : PUnit → sProp 𝕄),
        iprop(owns (c : Thread nD τ) arg3 fullShare x0 ∗ owns (c : Thread nD τ) arg4 fullShare x1
            ∗ owns (c : Thread nD τ) arg8 fullShare xs0
            ∗ (iprop(owns (c : Thread nD τ) arg3 fullShare x0 ∗ owns (c : Thread nD τ) arg4 fullShare x1
                ∗ (∃ f, arg8.view.loc (c : Thread nD τ) ↦[arg8.view.set]{fullShare} arg8.view.writes (Elt F) f LS0)) -∗ K ⟨⟩))
          ⊢ wp frame (wpE (defs₀ (F := F)) Variants.none c none) E (cc7__matmul_stats_kernel i arg3 harg3 arg4 harg4 arg5 harg5 arg6 harg6 arg7 harg7 arg8 harg8 arg9 harg9 arg10 harg10) K } := by
  refine ⟨?_, fun E K => ?run⟩
  case run =>
    simp only [cc7__matmul_stats_kernel_eq_skeleton]; unfold cc7__matmul_stats_kernel_skel
    unfold owns
    iintro ⟨⟨%f0, %hf0, H0⟩, ⟨%f1, %hf1, H1⟩, ⟨%fHS0, %hfHS0, HS0⟩, Hk⟩
    obtain rfl := harg3.eq_unread hf0; obtain rfl := harg4.eq_unread hf1
    obtain rfl := harg8.eq_unread hfHS0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.Kernel.Hand

end
-- ==== Proof.K.R7RunE.lean ====
/-
  The whole body at the last reduction step of the first batch tile (k = 3, i = 0): the accumulator found at what the
  step before left receives the block product and is copied to the product's output block; the two running rows are
  cleared and receive its column sums and column sums of squares; the mean and the clamped variance are written from
  them.
  Only the buffers the body stores into are mentioned; what each ends with is found by running the body: the pieces
  are the witness.
-/
import proofs.«157460_j63591285784858_2_alg».proof.Proof.K.R7Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
noncomputable def kernelRun7_E (c : Dev nD) (i : grid7.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond7_0 i) (hc1 : cond7_1 i) (hc2 : cond7_2 i)
    (x0 : Vec F S1024x512 .bf16) (x1 : Vec F S1024x512 .bf16) (xs0 : Vec F S1024x1024 .f32) :
    Σ' (L2 : List (View.Piece (Elt F) S1024x1024 .f32)) (L3 : List (View.Piece (Elt F) S1x1024 .f32)) (L4 : List (View.Piece (Elt F) S1x1024 .f32)) (LS0 : List (View.Piece (Elt F) S1024x1024 .f32)) (LS1 : List (View.Piece (Elt F) S1x1024 .f32)), { LS2 : List (View.Piece (Elt F) S1x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc7__matmul_stats_kernel i arg3 harg3 arg4 harg4 arg5 harg5 arg6 harg6 arg7 harg7 arg8 harg8 arg9 harg9 arg10 harg10) K } := by
  refine ⟨?_, ?_, ?_, ?_, ?_, ?_, fun E K => ?run⟩
  case run =>
    simp only [cc7__matmul_stats_kernel_eq_skeleton]; unfold cc7__matmul_stats_kernel_skel
    unfold owns
    iintro ⟨⟨%f0, %hf0, H0⟩, ⟨%f1, %hf1, H1⟩, ⟨%dH2, %fH2, -, H2⟩, ⟨%dH3, %fH3, -, H3⟩, ⟨%dH4, %fH4, -, H4⟩, ⟨%fHS0, %hfHS0, HS0⟩, ⟨%dHS1, %fHS1, -, HS1⟩, ⟨%dHS2, %fHS2, -, HS2⟩, Hk⟩
    obtain rfl := harg3.eq_unread hf0; obtain rfl := harg4.eq_unread hf1
    obtain rfl := harg8.eq_unread hfHS0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    iexists _; iexact HS2

end Cert.Kernel.Hand

end
-- ==== Proof.K.R7RunF.lean ====
/-
  The whole body at the last reduction step of a batch tile that is not the first (k = last, i ≠ 0): the accumulator
  found at what the step before left receives the block product and is copied to the product's output block; its column
  sums and column sums of squares are added into the two running rows found at what the tile before left; the mean and
  the clamped variance are written from them.
  Only the buffers the body stores into are mentioned; what each ends with is found by running the body: the pieces
  are the witness.
-/
import proofs.«157460_j63591285784858_2_alg».proof.Proof.K.R7Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
noncomputable def kernelRun7_F (c : Dev nD) (i : grid7.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond7_0 i) (hc1 : ¬cond7_1 i) (hc2 : cond7_2 i)
    (x0 : Vec F S1024x512 .bf16) (x1 : Vec F S1024x512 .bf16) (xs0 : Vec F S1024x1024 .f32) (xs1 : Vec F S1x1024 .f32) (xs2 : Vec F S1x1024 .f32) :
    Σ' (L2 : List (View.Piece (Elt F) S1024x1024 .f32)) (L3 : List (View.Piece (Elt F) S1x1024 .f32)) (L4 : List (View.Piece (Elt F) S1x1024 .f32)) (LS0 : List (View.Piece (Elt F) S1024x1024 .f32)) (LS1 : List (View.Piece (Elt F) S1x1024 .f32)), { LS2 : List (View.Piece (Elt F) S1x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc7__matmul_stats_kernel i arg3 harg3 arg4 harg4 arg5 harg5 arg6 harg6 arg7 harg7 arg8 harg8 arg9 harg9 arg10 harg10) K } := by
  refine ⟨?_, ?_, ?_, ?_, ?_, ?_, fun E K => ?run⟩
  case run =>
    simp only [cc7__matmul_stats_kernel_eq_skeleton]; unfold cc7__matmul_stats_kernel_skel
    unfold owns
    iintro ⟨⟨%f0, %hf0, H0⟩, ⟨%f1, %hf1, H1⟩, ⟨%dH2, %fH2, -, H2⟩, ⟨%dH3, %fH3, -, H3⟩, ⟨%dH4, %fH4, -, H4⟩, ⟨%fHS0, %hfHS0, HS0⟩, ⟨%fHS1, %hfHS1, HS1⟩, ⟨%fHS2, %hfHS2, HS2⟩, Hk⟩
    obtain rfl := harg3.eq_unread hf0; obtain rfl := harg4.eq_unread hf1
    obtain rfl := harg8.eq_unread hfHS0; obtain rfl := harg9.eq_unread hfHS1; obtain rfl := harg10.eq_unread hfHS2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    iexists _; iexact HS2

end Cert.Kernel.Hand

end
-- ==== Proof.K.R7Body.lean ====
/-
  Matrix-product region 7: the body obligation. At every grid point the point's control case is read off the
  closed forms of the three branch conditions; the case's whole-body run applies, the invariant handing it the scratch
  buffers at the state the point before left (at anything at the first point) and taking them back at this point's
  state; each stored buffer's found pieces read back as the payload the closed-form state names (one covering store,
  or a store after a clearing store), so the proof data's statements hold; an output the case does not store is handed
  back as it was found.
-/
import proofs.«157460_j63591285784858_2_alg».proof.Proof.K.R7RunA
import proofs.«157460_j63591285784858_2_alg».proof.Proof.K.R7RunB
import proofs.«157460_j63591285784858_2_alg».proof.Proof.K.R7RunC
import proofs.«157460_j63591285784858_2_alg».proof.Proof.K.R7RunD
import proofs.«157460_j63591285784858_2_alg».proof.Proof.K.R7RunE
import proofs.«157460_j63591285784858_2_alg».proof.Proof.K.R7RunF
import proofs.«157460_j63591285784858_2_alg».proof.Proof.LibUnitPieces
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

open Cert

/-! ## What each case's stored buffers end with -/

/-! ### Case A -/

section
variable (c : Dev nD) (i : grid7.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : cond7_0 i) (hc1 : cond7_1 i) (hc2 : ¬cond7_2 i)
    (x0 : Vec F S1024x512 .bf16) (x1 : Vec F S1024x512 .bf16)

theorem cov7_A_S0 (y : S1024x1024.Idx) : ∃ pc ∈ (kernelRun7_A c i arg3 harg3 arg4 harg4 arg5 harg5 arg6 harg6 arg7 harg7 arg8 harg8 arg9 harg9 arg10 harg10 hc0 hc1 hc2 x0 x1 ).1, y ∈ pc.1.set :=
  View.cover_of_tiledL _ S1024x1024.size (by sl_kernel_rfl) y
theorem val7_A_S0 : View.canon (kernelRun7_A c i arg3 harg3 arg4 harg4 arg5 harg5 arg6 harg6 arg7 harg7 arg8 harg8 arg9 harg9 arg10 harg10 hc0 hc1 hc2 x0 x1 ).1 = (k7_pay2 x0 k7_pay1 x1) := by
  unfold kernelRun7_A
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov7_A_S1 (y : S1x1024.Idx) : ∃ pc ∈ (kernelRun7_A c i arg3 harg3 arg4 harg4 arg5 harg5 arg6 harg6 arg7 harg7 arg8 harg8 arg9 harg9 arg10 harg10 hc0 hc1 hc2 x0 x1 ).2.1, y ∈ pc.1.set :=
  View.cover_of_tiledL _ S1x1024.size (by sl_kernel_rfl) y
theorem val7_A_S1 : View.canon (kernelRun7_A c i arg3 harg3 arg4 harg4 arg5 harg5 arg6 harg6 arg7 harg7 arg8 harg8 arg9 harg9 arg10 harg10 hc0 hc1 hc2 x0 x1 ).2.1 = k7_pay3 := by
  unfold kernelRun7_A
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov7_A_S2 (y : S1x1024.Idx) : ∃ pc ∈ (kernelRun7_A c i arg3 harg3 arg4 harg4 arg5 harg5 arg6 harg6 arg7 harg7 arg8 harg8 arg9 harg9 arg10 harg10 hc0 hc1 hc2 x0 x1 ).2.2.1, y ∈ pc.1.set :=
  View.cover_of_tiledL _ S1x1024.size (by sl_kernel_rfl) y
theorem val7_A_S2 : View.canon (kernelRun7_A c i arg3 harg3 arg4 harg4 arg5 harg5 arg6 harg6 arg7 harg7 arg8 harg8 arg9 harg9 arg10 harg10 hc0 hc1 hc2 x0 x1 ).2.2.1 = k7_pay4 := by
  unfold kernelRun7_A
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case B -/

section
variable (c : Dev nD) (i : grid7.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : cond7_0 i) (hc1 : ¬cond7_1 i) (hc2 : ¬cond7_2 i)
    (x0 : Vec F S1024x512 .bf16) (x1 : Vec F S1024x512 .bf16)

theorem cov7_B_S0 (y : S1024x1024.Idx) : ∃ pc ∈ (kernelRun7_B c i arg3 harg3 arg4 harg4 arg5 harg5 arg6 harg6 arg7 harg7 arg8 harg8 arg9 harg9 arg10 harg10 hc0 hc1 hc2 x0 x1 ).1, y ∈ pc.1.set :=
  View.cover_of_tiledL _ S1024x1024.size (by sl_kernel_rfl) y
theorem val7_B_S0 : View.canon (kernelRun7_B c i arg3 harg3 arg4 harg4 arg5 harg5 arg6 harg6 arg7 harg7 arg8 harg8 arg9 harg9 arg10 harg10 hc0 hc1 hc2 x0 x1 ).1 = (k7_pay2 x0 k7_pay1 x1) := by
  unfold kernelRun7_B
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case C -/

section
variable (c : Dev nD) (i : grid7.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond7_0 i) (hc1 : cond7_1 i) (hc2 : ¬cond7_2 i)
    (x0 : Vec F S1024x512 .bf16) (x1 : Vec F S1024x512 .bf16) (xs0 : Vec F S1024x1024 .f32)

theorem cov7_C_S0 (y : S1024x1024.Idx) : ∃ pc ∈ (kernelRun7_C c i arg3 harg3 arg4 harg4 arg5 harg5 arg6 harg6 arg7 harg7 arg8 harg8 arg9 harg9 arg10 harg10 hc0 hc1 hc2 x0 x1 xs0).1, y ∈ pc.1.set :=
  View.cover_of_tiledL _ S1024x1024.size (by sl_kernel_rfl) y
theorem val7_C_S0 : View.canon (kernelRun7_C c i arg3 harg3 arg4 harg4 arg5 harg5 arg6 harg6 arg7 harg7 arg8 harg8 arg9 harg9 arg10 harg10 hc0 hc1 hc2 x0 x1 xs0).1 = (k7_pay2 x0 xs0 x1) := by
  unfold kernelRun7_C
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov7_C_S1 (y : S1x1024.Idx) : ∃ pc ∈ (kernelRun7_C c i arg3 harg3 arg4 harg4 arg5 harg5 arg6 harg6 arg7 harg7 arg8 harg8 arg9 harg9 arg10 harg10 hc0 hc1 hc2 x0 x1 xs0).2.1, y ∈ pc.1.set :=
  View.cover_of_tiledL _ S1x1024.size (by sl_kernel_rfl) y
theorem val7_C_S1 : View.canon (kernelRun7_C c i arg3 harg3 arg4 harg4 arg5 harg5 arg6 harg6 arg7 harg7 arg8 harg8 arg9 harg9 arg10 harg10 hc0 hc1 hc2 x0 x1 xs0).2.1 = k7_pay3 := by
  unfold kernelRun7_C
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov7_C_S2 (y : S1x1024.Idx) : ∃ pc ∈ (kernelRun7_C c i arg3 harg3 arg4 harg4 arg5 harg5 arg6 harg6 arg7 harg7 arg8 harg8 arg9 harg9 arg10 harg10 hc0 hc1 hc2 x0 x1 xs0).2.2.1, y ∈ pc.1.set :=
  View.cover_of_tiledL _ S1x1024.size (by sl_kernel_rfl) y
theorem val7_C_S2 : View.canon (kernelRun7_C c i arg3 harg3 arg4 harg4 arg5 harg5 arg6 harg6 arg7 harg7 arg8 harg8 arg9 harg9 arg10 harg10 hc0 hc1 hc2 x0 x1 xs0).2.2.1 = k7_pay4 := by
  unfold kernelRun7_C
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case D -/

section
variable (c : Dev nD) (i : grid7.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond7_0 i) (hc1 : ¬cond7_1 i) (hc2 : ¬cond7_2 i)
    (x0 : Vec F S1024x512 .bf16) (x1 : Vec F S1024x512 .bf16) (xs0 : Vec F S1024x1024 .f32)

theorem cov7_D_S0 (y : S1024x1024.Idx) : ∃ pc ∈ (kernelRun7_D c i arg3 harg3 arg4 harg4 arg5 harg5 arg6 harg6 arg7 harg7 arg8 harg8 arg9 harg9 arg10 harg10 hc0 hc1 hc2 x0 x1 xs0).1, y ∈ pc.1.set :=
  View.cover_of_tiledL _ S1024x1024.size (by sl_kernel_rfl) y
theorem val7_D_S0 : View.canon (kernelRun7_D c i arg3 harg3 arg4 harg4 arg5 harg5 arg6 harg6 arg7 harg7 arg8 harg8 arg9 harg9 arg10 harg10 hc0 hc1 hc2 x0 x1 xs0).1 = (k7_pay2 x0 xs0 x1) := by
  unfold kernelRun7_D
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case E -/

section
variable (c : Dev nD) (i : grid7.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond7_0 i) (hc1 : cond7_1 i) (hc2 : cond7_2 i)
    (x0 : Vec F S1024x512 .bf16) (x1 : Vec F S1024x512 .bf16) (xs0 : Vec F S1024x1024 .f32)

theorem cov7_E_2 (y : S1024x1024.Idx) : ∃ pc ∈ (kernelRun7_E c i arg3 harg3 arg4 harg4 arg5 harg5 arg6 harg6 arg7 harg7 arg8 harg8 arg9 harg9 arg10 harg10 hc0 hc1 hc2 x0 x1 xs0).1, y ∈ pc.1.set :=
  View.cover_of_tiledL _ S1024x1024.size (by sl_kernel_rfl) y
theorem val7_E_2 : View.canon (kernelRun7_E c i arg3 harg3 arg4 harg4 arg5 harg5 arg6 harg6 arg7 harg7 arg8 harg8 arg9 harg9 arg10 harg10 hc0 hc1 hc2 x0 x1 xs0).1 = (k7_pay2 x0 xs0 x1) := by
  unfold kernelRun7_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov7_E_3 (y : S1x1024.Idx) : ∃ pc ∈ (kernelRun7_E c i arg3 harg3 arg4 harg4 arg5 harg5 arg6 harg6 arg7 harg7 arg8 harg8 arg9 harg9 arg10 harg10 hc0 hc1 hc2 x0 x1 xs0).2.1, y ∈ pc.1.set :=
  View.cover_of_tiledL _ S1x1024.size (by sl_kernel_rfl) y
theorem val7_E_3 : View.canon (kernelRun7_E c i arg3 harg3 arg4 harg4 arg5 harg5 arg6 harg6 arg7 harg7 arg8 harg8 arg9 harg9 arg10 harg10 hc0 hc1 hc2 x0 x1 xs0).2.1 = (k7_pay7 (k7_pay5 (k7_pay2 x0 xs0 x1) k7_pay3)) := by
  unfold kernelRun7_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov7_E_4 (y : S1x1024.Idx) : ∃ pc ∈ (kernelRun7_E c i arg3 harg3 arg4 harg4 arg5 harg5 arg6 harg6 arg7 harg7 arg8 harg8 arg9 harg9 arg10 harg10 hc0 hc1 hc2 x0 x1 xs0).2.2.1, y ∈ pc.1.set :=
  View.cover_of_tiledL _ S1x1024.size (by sl_kernel_rfl) y
theorem val7_E_4 : View.canon (kernelRun7_E c i arg3 harg3 arg4 harg4 arg5 harg5 arg6 harg6 arg7 harg7 arg8 harg8 arg9 harg9 arg10 harg10 hc0 hc1 hc2 x0 x1 xs0).2.2.1 = (k7_pay8 (k7_pay5 (k7_pay2 x0 xs0 x1) k7_pay3) (k7_pay6 (k7_pay2 x0 xs0 x1) k7_pay4)) := by
  unfold kernelRun7_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov7_E_S0 (y : S1024x1024.Idx) : ∃ pc ∈ (kernelRun7_E c i arg3 harg3 arg4 harg4 arg5 harg5 arg6 harg6 arg7 harg7 arg8 harg8 arg9 harg9 arg10 harg10 hc0 hc1 hc2 x0 x1 xs0).2.2.2.1, y ∈ pc.1.set :=
  View.cover_of_tiledL _ S1024x1024.size (by sl_kernel_rfl) y
theorem val7_E_S0 : View.canon (kernelRun7_E c i arg3 harg3 arg4 harg4 arg5 harg5 arg6 harg6 arg7 harg7 arg8 harg8 arg9 harg9 arg10 harg10 hc0 hc1 hc2 x0 x1 xs0).2.2.2.1 = (k7_pay2 x0 xs0 x1) := by
  unfold kernelRun7_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov7_E_S1 (y : S1x1024.Idx) : ∃ pc ∈ (kernelRun7_E c i arg3 harg3 arg4 harg4 arg5 harg5 arg6 harg6 arg7 harg7 arg8 harg8 arg9 harg9 arg10 harg10 hc0 hc1 hc2 x0 x1 xs0).2.2.2.2.1, y ∈ pc.1.set :=
  View.cover_of_tiledL _ S1x1024.size (by sl_kernel_rfl) y
theorem val7_E_S1 : View.canon (kernelRun7_E c i arg3 harg3 arg4 harg4 arg5 harg5 arg6 harg6 arg7 harg7 arg8 harg8 arg9 harg9 arg10 harg10 hc0 hc1 hc2 x0 x1 xs0).2.2.2.2.1 = (k7_pay5 (k7_pay2 x0 xs0 x1) k7_pay3) := by
  unfold kernelRun7_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov7_E_S2 (y : S1x1024.Idx) : ∃ pc ∈ (kernelRun7_E c i arg3 harg3 arg4 harg4 arg5 harg5 arg6 harg6 arg7 harg7 arg8 harg8 arg9 harg9 arg10 harg10 hc0 hc1 hc2 x0 x1 xs0).2.2.2.2.2.1, y ∈ pc.1.set :=
  View.cover_of_tiledL _ S1x1024.size (by sl_kernel_rfl) y
theorem val7_E_S2 : View.canon (kernelRun7_E c i arg3 harg3 arg4 harg4 arg5 harg5 arg6 harg6 arg7 harg7 arg8 harg8 arg9 harg9 arg10 harg10 hc0 hc1 hc2 x0 x1 xs0).2.2.2.2.2.1 = (k7_pay6 (k7_pay2 x0 xs0 x1) k7_pay4) := by
  unfold kernelRun7_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case F -/

section
variable (c : Dev nD) (i : grid7.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond7_0 i) (hc1 : ¬cond7_1 i) (hc2 : cond7_2 i)
    (x0 : Vec F S1024x512 .bf16) (x1 : Vec F S1024x512 .bf16) (xs0 : Vec F S1024x1024 .f32) (xs1 : Vec F S1x1024 .f32) (xs2 : Vec F S1x1024 .f32)

theorem cov7_F_2 (y : S1024x1024.Idx) : ∃ pc ∈ (kernelRun7_F c i arg3 harg3 arg4 harg4 arg5 harg5 arg6 harg6 arg7 harg7 arg8 harg8 arg9 harg9 arg10 harg10 hc0 hc1 hc2 x0 x1 xs0 xs1 xs2).1, y ∈ pc.1.set :=
  View.cover_of_tiledL _ S1024x1024.size (by sl_kernel_rfl) y
theorem val7_F_2 : View.canon (kernelRun7_F c i arg3 harg3 arg4 harg4 arg5 harg5 arg6 harg6 arg7 harg7 arg8 harg8 arg9 harg9 arg10 harg10 hc0 hc1 hc2 x0 x1 xs0 xs1 xs2).1 = (k7_pay2 x0 xs0 x1) := by
  unfold kernelRun7_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov7_F_3 (y : S1x1024.Idx) : ∃ pc ∈ (kernelRun7_F c i arg3 harg3 arg4 harg4 arg5 harg5 arg6 harg6 arg7 harg7 arg8 harg8 arg9 harg9 arg10 harg10 hc0 hc1 hc2 x0 x1 xs0 xs1 xs2).2.1, y ∈ pc.1.set :=
  View.cover_of_tiledL _ S1x1024.size (by sl_kernel_rfl) y
theorem val7_F_3 : View.canon (kernelRun7_F c i arg3 harg3 arg4 harg4 arg5 harg5 arg6 harg6 arg7 harg7 arg8 harg8 arg9 harg9 arg10 harg10 hc0 hc1 hc2 x0 x1 xs0 xs1 xs2).2.1 = (k7_pay7 (k7_pay5 (k7_pay2 x0 xs0 x1) xs1)) := by
  unfold kernelRun7_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov7_F_4 (y : S1x1024.Idx) : ∃ pc ∈ (kernelRun7_F c i arg3 harg3 arg4 harg4 arg5 harg5 arg6 harg6 arg7 harg7 arg8 harg8 arg9 harg9 arg10 harg10 hc0 hc1 hc2 x0 x1 xs0 xs1 xs2).2.2.1, y ∈ pc.1.set :=
  View.cover_of_tiledL _ S1x1024.size (by sl_kernel_rfl) y
theorem val7_F_4 : View.canon (kernelRun7_F c i arg3 harg3 arg4 harg4 arg5 harg5 arg6 harg6 arg7 harg7 arg8 harg8 arg9 harg9 arg10 harg10 hc0 hc1 hc2 x0 x1 xs0 xs1 xs2).2.2.1 = (k7_pay8 (k7_pay5 (k7_pay2 x0 xs0 x1) xs1) (k7_pay6 (k7_pay2 x0 xs0 x1) xs2)) := by
  unfold kernelRun7_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov7_F_S0 (y : S1024x1024.Idx) : ∃ pc ∈ (kernelRun7_F c i arg3 harg3 arg4 harg4 arg5 harg5 arg6 harg6 arg7 harg7 arg8 harg8 arg9 harg9 arg10 harg10 hc0 hc1 hc2 x0 x1 xs0 xs1 xs2).2.2.2.1, y ∈ pc.1.set :=
  View.cover_of_tiledL _ S1024x1024.size (by sl_kernel_rfl) y
theorem val7_F_S0 : View.canon (kernelRun7_F c i arg3 harg3 arg4 harg4 arg5 harg5 arg6 harg6 arg7 harg7 arg8 harg8 arg9 harg9 arg10 harg10 hc0 hc1 hc2 x0 x1 xs0 xs1 xs2).2.2.2.1 = (k7_pay2 x0 xs0 x1) := by
  unfold kernelRun7_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov7_F_S1 (y : S1x1024.Idx) : ∃ pc ∈ (kernelRun7_F c i arg3 harg3 arg4 harg4 arg5 harg5 arg6 harg6 arg7 harg7 arg8 harg8 arg9 harg9 arg10 harg10 hc0 hc1 hc2 x0 x1 xs0 xs1 xs2).2.2.2.2.1, y ∈ pc.1.set :=
  View.cover_of_tiledL _ S1x1024.size (by sl_kernel_rfl) y
theorem val7_F_S1 : View.canon (kernelRun7_F c i arg3 harg3 arg4 harg4 arg5 harg5 arg6 harg6 arg7 harg7 arg8 harg8 arg9 harg9 arg10 harg10 hc0 hc1 hc2 x0 x1 xs0 xs1 xs2).2.2.2.2.1 = (k7_pay5 (k7_pay2 x0 xs0 x1) xs1) := by
  unfold kernelRun7_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov7_F_S2 (y : S1x1024.Idx) : ∃ pc ∈ (kernelRun7_F c i arg3 harg3 arg4 harg4 arg5 harg5 arg6 harg6 arg7 harg7 arg8 harg8 arg9 harg9 arg10 harg10 hc0 hc1 hc2 x0 x1 xs0 xs1 xs2).2.2.2.2.2.1, y ∈ pc.1.set :=
  View.cover_of_tiledL _ S1x1024.size (by sl_kernel_rfl) y
theorem val7_F_S2 : View.canon (kernelRun7_F c i arg3 harg3 arg4 harg4 arg5 harg5 arg6 harg6 arg7 harg7 arg8 harg8 arg9 harg9 arg10 harg10 hc0 hc1 hc2 x0 x1 xs0 xs1 xs2).2.2.2.2.2.1 = (k7_pay6 (k7_pay2 x0 xs0 x1) xs2) := by
  unfold kernelRun7_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ## One grid point of the closed-form state, case by case -/

theorem step7_A (n : ℕ) (h0 : n % 8 = 0) (h1 : n / 8 % 4 = 0) (h2 : ¬n % 8 = 7) (x0 : Vec F S1024x512 .bf16) (x1 : Vec F S1024x512 .bf16) (s : St7 F) :
    step7 n x0 x1 s = ⟨(k7_pay2 x0 k7_pay1 x1), k7_pay3, k7_pay4⟩ := by
  simp only [step7, if_pos h0, if_pos h1, if_neg h2]
theorem step7_B (n : ℕ) (h0 : n % 8 = 0) (h1 : ¬n / 8 % 4 = 0) (h2 : ¬n % 8 = 7) (x0 : Vec F S1024x512 .bf16) (x1 : Vec F S1024x512 .bf16) (s : St7 F) :
    step7 n x0 x1 s = ⟨(k7_pay2 x0 k7_pay1 x1), s.sum, s.sq⟩ := by
  simp only [step7, if_pos h0, if_neg h1, if_neg h2]
theorem step7_C (n : ℕ) (h0 : ¬n % 8 = 0) (h1 : n / 8 % 4 = 0) (h2 : ¬n % 8 = 7) (x0 : Vec F S1024x512 .bf16) (x1 : Vec F S1024x512 .bf16) (s : St7 F) :
    step7 n x0 x1 s = ⟨(k7_pay2 x0 s.acc x1), k7_pay3, k7_pay4⟩ := by
  simp only [step7, if_neg h0, if_pos h1, if_neg h2]
theorem step7_D (n : ℕ) (h0 : ¬n % 8 = 0) (h1 : ¬n / 8 % 4 = 0) (h2 : ¬n % 8 = 7) (x0 : Vec F S1024x512 .bf16) (x1 : Vec F S1024x512 .bf16) (s : St7 F) :
    step7 n x0 x1 s = ⟨(k7_pay2 x0 s.acc x1), s.sum, s.sq⟩ := by
  simp only [step7, if_neg h0, if_neg h1, if_neg h2]
theorem step7_E (n : ℕ) (h0 : ¬n % 8 = 0) (h1 : n / 8 % 4 = 0) (h2 : n % 8 = 7) (x0 : Vec F S1024x512 .bf16) (x1 : Vec F S1024x512 .bf16) (s : St7 F) :
    step7 n x0 x1 s = ⟨(k7_pay2 x0 s.acc x1), k7_pay5 (k7_pay2 x0 s.acc x1) k7_pay3, k7_pay6 (k7_pay2 x0 s.acc x1) k7_pay4⟩ := by
  simp only [step7, if_neg h0, if_pos h1, if_pos h2]
theorem step7_F (n : ℕ) (h0 : ¬n % 8 = 0) (h1 : ¬n / 8 % 4 = 0) (h2 : n % 8 = 7) (x0 : Vec F S1024x512 .bf16) (x1 : Vec F S1024x512 .bf16) (s : St7 F) :
    step7 n x0 x1 s = ⟨(k7_pay2 x0 s.acc x1), k7_pay5 (k7_pay2 x0 s.acc x1) s.sum, k7_pay6 (k7_pay2 x0 s.acc x1) s.sq⟩ := by
  simp only [step7, if_neg h0, if_neg h1, if_pos h2]

section
variable (V : (c : Dev nD) → (b : Ref sig .tc) → Buf (Elt F) ((c : Thread nD τ).loc b))

theorem st7_zero (c : Dev nD) (t : Fin cfg7.N) (hz : t.val = 0) :
    st7 V c t.val t.isLt = step7 0 (iblk7 V c 0 t) (iblk7 V c 1 t) ⟨k7_pay1, k7_pay3, k7_pay4⟩ := by
  obtain ⟨n, hn⟩ := t
  cases n with
  | zero => rfl
  | succ n => exact absurd hz (Nat.succ_ne_zero n)
theorem st7_pos (c : Dev nD) (t : Fin cfg7.N) (hz : t.val ≠ 0) (hlt : t.val - 1 < cfg7.N) :
    st7 V c t.val t.isLt = step7 t.val (iblk7 V c 0 t) (iblk7 V c 1 t) (st7 V c (t.val - 1) hlt) := by
  obtain ⟨n, hn⟩ := t
  cases n with
  | zero => exact absurd rfl hz
  | succ n => rfl

/-! ## The body obligation -/

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d)))

def bodyPost7 (c : Dev nD) (t : Fin cfg7.N) : sProp 𝕄 :=
  iprop((dat7 V c).Φ t.succ ∗ (dat7 V c).owesAt () t.succ
    ∗ (dat7 V c).leavesExact 0 t ∗ (dat7 V c).leavesExact 1 t
    ∗ (dat7 V c).leavesExact 2 t ∗ (dat7 V c).leavesExact 3 t ∗ (dat7 V c).leavesExact 4 t)

set_option maxHeartbeats 8000000 in
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  have hN : t.val < 128 := lt_of_lt_of_eq t.isLt (show cfg7.N = 128 from N_7)
  by_cases h0 : t.val % 8 = 0
  · have h2 : ¬t.val % 8 = 7 := by omega
    by_cases h1 : t.val / 8 % 4 = 0
    · by_cases hz : t.val = 0
      · rw [Dat.leavesExact_idle (dat7 V c) 2 t (idleAt7_2 t (fun h => h2 ((hcond7_2 t).mp h))) (noFlush7_2 t (fun h => h2 ((hcond7_2 t).mp h)))]
        rw [Dat.leavesExact_idle (dat7 V c) 3 t (idleAt7_3 t (fun h => h2 ((hcond7_2 t).mp h))) (noFlush7_3 t (fun h => h2 ((hcond7_2 t).mp h)))]
        rw [Dat.leavesExact_idle (dat7 V c) 4 t (idleAt7_4 t (fun h => h2 ((hcond7_2 t).mp h))) (noFlush7_4 t (fun h => h2 ((hcond7_2 t).mp h)))]
        rw [PhiS7_castSucc V c t, PhiS7_zero V c _ _ hz, PhiA7_eq, st7_zero V c t hz, step7_A _ (by omega) (by omega) (by omega)]
        dsimp only
        iintro ⟨⟨⟨⟨HS0, HS1, HS2⟩, Hr⟩, Hg⟩, Ho, ⟨%d0, H0⟩, ⟨%d1, H1⟩, H2, H3, H4⟩
        iapply ((kernelRun7_A c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) ((hcond7_0 t).mpr h0) ((hcond7_1 t).mpr h1) (fun h => h2 ((hcond7_2 t).mp h)) (iblk7 V c 0 t) (iblk7 V c 1 t) ).2.2.2 Set.univ _)
        isplitl [H0]; · iexact H0
        isplitl [H1]; · iexact H1
        isplitl [HS0]; · iexact HS0
        isplitl [HS1]; · iexact HS1
        isplitl [HS2]; · iexact HS2
        iintro ⟨H0, H1, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov7_A_S0 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) ((hcond7_0 t).mpr h0) ((hcond7_1 t).mpr h1) (fun h => h2 ((hcond7_2 t).mp h)) (iblk7 V c 0 t) (iblk7 V c 1 t) )).trans (val7_A_S0 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) ((hcond7_0 t).mpr h0) ((hcond7_1 t).mpr h1) (fun h => h2 ((hcond7_2 t).mp h)) (iblk7 V c 0 t) (iblk7 V c 1 t) )
              isplitl [HS1]
              · unfold owns; iexists _; isplitr
                swap; · iexact HS1
                ipureintro; exact (View.read_writes_eq_canon _ _ _ (cov7_A_S1 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) ((hcond7_0 t).mpr h0) ((hcond7_1 t).mpr h1) (fun h => h2 ((hcond7_2 t).mp h)) (iblk7 V c 0 t) (iblk7 V c 1 t) )).trans (val7_A_S1 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) ((hcond7_0 t).mpr h0) ((hcond7_1 t).mpr h1) (fun h => h2 ((hcond7_2 t).mp h)) (iblk7 V c 0 t) (iblk7 V c 1 t) )
              · unfold owns; iexists _; isplitr
                swap; · iexact HS2
                ipureintro; exact (View.read_writes_eq_canon _ _ _ (cov7_A_S2 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) ((hcond7_0 t).mpr h0) ((hcond7_1 t).mpr h1) (fun h => h2 ((hcond7_2 t).mp h)) (iblk7 V c 0 t) (iblk7 V c 1 t) )).trans (val7_A_S2 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) ((hcond7_0 t).mpr h0) ((hcond7_1 t).mpr h1) (fun h => h2 ((hcond7_2 t).mp h)) (iblk7 V c 0 t) (iblk7 V c 1 t) )
            · iexact Hr
          · iexact Hg
        isplitl [Ho]; · iexact Ho
        isplitl [H0]; · iexact H0
        isplitl [H1]; · iexact H1
        isplitl [H2]; · iexact H2
        isplitl [H3]; · iexact H3
        iexact H4
      · rw [Dat.leavesExact_idle (dat7 V c) 2 t (idleAt7_2 t (fun h => h2 ((hcond7_2 t).mp h))) (noFlush7_2 t (fun h => h2 ((hcond7_2 t).mp h)))]
        rw [Dat.leavesExact_idle (dat7 V c) 3 t (idleAt7_3 t (fun h => h2 ((hcond7_2 t).mp h))) (noFlush7_3 t (fun h => h2 ((hcond7_2 t).mp h)))]
        rw [Dat.leavesExact_idle (dat7 V c) 4 t (idleAt7_4 t (fun h => h2 ((hcond7_2 t).mp h))) (noFlush7_4 t (fun h => h2 ((hcond7_2 t).mp h)))]
        have hlt : t.val - 1 < cfg7.N := by omega
        rw [PhiS7_castSucc V c t, PhiS7_pos V c _ _ hz, st7_pos V c t hz hlt, step7_A _ h0 h1 h2]
        dsimp only
        iintro ⟨⟨⟨⟨HS0, HS1, HS2⟩, Hr⟩, Hg⟩, Ho, ⟨%d0, H0⟩, ⟨%d1, H1⟩, H2, H3, H4⟩
        iapply ((kernelRun7_A c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) ((hcond7_0 t).mpr h0) ((hcond7_1 t).mpr h1) (fun h => h2 ((hcond7_2 t).mp h)) (iblk7 V c 0 t) (iblk7 V c 1 t) ).2.2.2 Set.univ _)
        isplitl [H0]; · iexact H0
        isplitl [H1]; · iexact H1
        isplitl [HS0]; · iexists _; iexact HS0
        isplitl [HS1]; · iexists _; iexact HS1
        isplitl [HS2]; · iexists _; iexact HS2
        iintro ⟨H0, H1, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov7_A_S0 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) ((hcond7_0 t).mpr h0) ((hcond7_1 t).mpr h1) (fun h => h2 ((hcond7_2 t).mp h)) (iblk7 V c 0 t) (iblk7 V c 1 t) )).trans (val7_A_S0 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) ((hcond7_0 t).mpr h0) ((hcond7_1 t).mpr h1) (fun h => h2 ((hcond7_2 t).mp h)) (iblk7 V c 0 t) (iblk7 V c 1 t) )
              isplitl [HS1]
              · unfold owns; iexists _; isplitr
                swap; · iexact HS1
                ipureintro; exact (View.read_writes_eq_canon _ _ _ (cov7_A_S1 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) ((hcond7_0 t).mpr h0) ((hcond7_1 t).mpr h1) (fun h => h2 ((hcond7_2 t).mp h)) (iblk7 V c 0 t) (iblk7 V c 1 t) )).trans (val7_A_S1 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) ((hcond7_0 t).mpr h0) ((hcond7_1 t).mpr h1) (fun h => h2 ((hcond7_2 t).mp h)) (iblk7 V c 0 t) (iblk7 V c 1 t) )
              · unfold owns; iexists _; isplitr
                swap; · iexact HS2
                ipureintro; exact (View.read_writes_eq_canon _ _ _ (cov7_A_S2 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) ((hcond7_0 t).mpr h0) ((hcond7_1 t).mpr h1) (fun h => h2 ((hcond7_2 t).mp h)) (iblk7 V c 0 t) (iblk7 V c 1 t) )).trans (val7_A_S2 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) ((hcond7_0 t).mpr h0) ((hcond7_1 t).mpr h1) (fun h => h2 ((hcond7_2 t).mp h)) (iblk7 V c 0 t) (iblk7 V c 1 t) )
            · iexact Hr
          · iexact Hg
        isplitl [Ho]; · iexact Ho
        isplitl [H0]; · iexact H0
        isplitl [H1]; · iexact H1
        isplitl [H2]; · iexact H2
        isplitl [H3]; · iexact H3
        iexact H4
    · have hz : t.val ≠ 0 := by omega
      rw [Dat.leavesExact_idle (dat7 V c) 2 t (idleAt7_2 t (fun h => h2 ((hcond7_2 t).mp h))) (noFlush7_2 t (fun h => h2 ((hcond7_2 t).mp h)))]
      rw [Dat.leavesExact_idle (dat7 V c) 3 t (idleAt7_3 t (fun h => h2 ((hcond7_2 t).mp h))) (noFlush7_3 t (fun h => h2 ((hcond7_2 t).mp h)))]
      rw [Dat.leavesExact_idle (dat7 V c) 4 t (idleAt7_4 t (fun h => h2 ((hcond7_2 t).mp h))) (noFlush7_4 t (fun h => h2 ((hcond7_2 t).mp h)))]
      have hlt : t.val - 1 < cfg7.N := by omega
      rw [PhiS7_castSucc V c t, PhiS7_pos V c _ _ hz, st7_pos V c t hz hlt, step7_B _ h0 h1 h2]
      dsimp only
      iintro ⟨⟨⟨⟨HS0, HS1, HS2⟩, Hr⟩, Hg⟩, Ho, ⟨%d0, H0⟩, ⟨%d1, H1⟩, H2, H3, H4⟩
      iapply ((kernelRun7_B c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) ((hcond7_0 t).mpr h0) (fun h => h1 ((hcond7_1 t).mp h)) (fun h => h2 ((hcond7_2 t).mp h)) (iblk7 V c 0 t) (iblk7 V c 1 t) ).2 Set.univ _)
      isplitl [H0]; · iexact H0
      isplitl [H1]; · iexact H1
      isplitl [HS0]; · iexists _; iexact HS0
      iintro ⟨H0, H1, ⟨%eS0, HS0⟩⟩
      isplitl [HS0 HS1 HS2 Hr Hg]
      · isplitl [HS0 HS1 HS2 Hr]
        · isplitl [HS0 HS1 HS2]
          · isplitl [HS0]
            · unfold owns; iexists _; isplitr
              swap; · iexact HS0
              ipureintro; exact (View.read_writes_eq_canon _ _ _ (cov7_B_S0 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) ((hcond7_0 t).mpr h0) (fun h => h1 ((hcond7_1 t).mp h)) (fun h => h2 ((hcond7_2 t).mp h)) (iblk7 V c 0 t) (iblk7 V c 1 t) )).trans (val7_B_S0 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) ((hcond7_0 t).mpr h0) (fun h => h1 ((hcond7_1 t).mp h)) (fun h => h2 ((hcond7_2 t).mp h)) (iblk7 V c 0 t) (iblk7 V c 1 t) )
            isplitl [HS1]
            · iexact HS1
            · iexact HS2
          · iexact Hr
        · iexact Hg
      isplitl [Ho]; · iexact Ho
      isplitl [H0]; · iexact H0
      isplitl [H1]; · iexact H1
      isplitl [H2]; · iexact H2
      isplitl [H3]; · iexact H3
      iexact H4
  · have hz : t.val ≠ 0 := by omega
    by_cases h1 : t.val / 8 % 4 = 0
    · by_cases h2 : t.val % 8 = 7
      · rw [show (dat7 V c).leavesExact 2 t = owns (c : Thread nD τ) (ms7_2 t) fullShare ((dat7 V c).after 2 t) from by
          unfold Dat.leavesExact; rw [liveAt7_2 t ((hcond7_2 t).mpr h2)], after7_2]
        rw [show (dat7 V c).leavesExact 3 t = owns (c : Thread nD τ) (ms7_3 t) fullShare ((dat7 V c).after 3 t) from by
          unfold Dat.leavesExact; rw [liveAt7_3 t ((hcond7_2 t).mpr h2)], after7_3]
        rw [show (dat7 V c).leavesExact 4 t = owns (c : Thread nD τ) (ms7_4 t) fullShare ((dat7 V c).after 4 t) from by
          unfold Dat.leavesExact; rw [liveAt7_4 t ((hcond7_2 t).mpr h2)], after7_4]
        have hlt : t.val - 1 < cfg7.N := by omega
        rw [PhiS7_castSucc V c t, PhiS7_pos V c _ _ hz, st7_pos V c t hz hlt, step7_E _ h0 h1 h2]
        dsimp only
        iintro ⟨⟨⟨⟨HS0, HS1, HS2⟩, Hr⟩, Hg⟩, Ho, ⟨%d0, H0⟩, ⟨%d1, H1⟩, ⟨%d2, H2⟩, ⟨%d3, H3⟩, ⟨%d4, H4⟩⟩
        iapply ((kernelRun7_E c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) ((hcond7_2 t).mpr h2) (iblk7 V c 0 t) (iblk7 V c 1 t) (st7 V c (t.val - 1) hlt).acc).2.2.2.2.2.2 Set.univ _)
        isplitl [H0]; · iexact H0
        isplitl [H1]; · iexact H1
        isplitl [H2]; · iexists _; iexact H2
        isplitl [H3]; · iexists _; iexact H3
        isplitl [H4]; · iexists _; iexact H4
        isplitl [HS0]; · iexact HS0
        isplitl [HS1]; · iexists _; iexact HS1
        isplitl [HS2]; · iexists _; iexact HS2
        iintro ⟨H0, H1, ⟨%e2, H2⟩, ⟨%e3, H3⟩, ⟨%e4, H4⟩, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov7_E_S0 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) ((hcond7_2 t).mpr h2) (iblk7 V c 0 t) (iblk7 V c 1 t) (st7 V c (t.val - 1) hlt).acc)).trans (val7_E_S0 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) ((hcond7_2 t).mpr h2) (iblk7 V c 0 t) (iblk7 V c 1 t) (st7 V c (t.val - 1) hlt).acc)
              isplitl [HS1]
              · unfold owns; iexists _; isplitr
                swap; · iexact HS1
                ipureintro; exact (View.read_writes_eq_canon _ _ _ (cov7_E_S1 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) ((hcond7_2 t).mpr h2) (iblk7 V c 0 t) (iblk7 V c 1 t) (st7 V c (t.val - 1) hlt).acc)).trans (val7_E_S1 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) ((hcond7_2 t).mpr h2) (iblk7 V c 0 t) (iblk7 V c 1 t) (st7 V c (t.val - 1) hlt).acc)
              · unfold owns; iexists _; isplitr
                swap; · iexact HS2
                ipureintro; exact (View.read_writes_eq_canon _ _ _ (cov7_E_S2 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) ((hcond7_2 t).mpr h2) (iblk7 V c 0 t) (iblk7 V c 1 t) (st7 V c (t.val - 1) hlt).acc)).trans (val7_E_S2 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) ((hcond7_2 t).mpr h2) (iblk7 V c 0 t) (iblk7 V c 1 t) (st7 V c (t.val - 1) hlt).acc)
            · iexact Hr
          · iexact Hg
        isplitl [Ho]; · iexact Ho
        isplitl [H0]; · iexact H0
        isplitl [H1]; · iexact H1
        isplitl [H2]
        · unfold owns; iexists _; isplitr
          swap; · iexact H2
          ipureintro; exact (View.read_writes_eq_canon _ _ _ (cov7_E_2 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) ((hcond7_2 t).mpr h2) (iblk7 V c 0 t) (iblk7 V c 1 t) (st7 V c (t.val - 1) hlt).acc)).trans (val7_E_2 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) ((hcond7_2 t).mpr h2) (iblk7 V c 0 t) (iblk7 V c 1 t) (st7 V c (t.val - 1) hlt).acc)
        isplitl [H3]
        · unfold owns; iexists _; isplitr
          swap; · iexact H3
          ipureintro; exact (View.read_writes_eq_canon _ _ _ (cov7_E_3 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) ((hcond7_2 t).mpr h2) (iblk7 V c 0 t) (iblk7 V c 1 t) (st7 V c (t.val - 1) hlt).acc)).trans (val7_E_3 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) ((hcond7_2 t).mpr h2) (iblk7 V c 0 t) (iblk7 V c 1 t) (st7 V c (t.val - 1) hlt).acc)
        · unfold owns; iexists _; isplitr
          swap; · iexact H4
          ipureintro; exact (View.read_writes_eq_canon _ _ _ (cov7_E_4 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) ((hcond7_2 t).mpr h2) (iblk7 V c 0 t) (iblk7 V c 1 t) (st7 V c (t.val - 1) hlt).acc)).trans (val7_E_4 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) ((hcond7_2 t).mpr h2) (iblk7 V c 0 t) (iblk7 V c 1 t) (st7 V c (t.val - 1) hlt).acc)
      · rw [Dat.leavesExact_idle (dat7 V c) 2 t (idleAt7_2 t (fun h => h2 ((hcond7_2 t).mp h))) (noFlush7_2 t (fun h => h2 ((hcond7_2 t).mp h)))]
        rw [Dat.leavesExact_idle (dat7 V c) 3 t (idleAt7_3 t (fun h => h2 ((hcond7_2 t).mp h))) (noFlush7_3 t (fun h => h2 ((hcond7_2 t).mp h)))]
        rw [Dat.leavesExact_idle (dat7 V c) 4 t (idleAt7_4 t (fun h => h2 ((hcond7_2 t).mp h))) (noFlush7_4 t (fun h => h2 ((hcond7_2 t).mp h)))]
        have hlt : t.val - 1 < cfg7.N := by omega
        rw [PhiS7_castSucc V c t, PhiS7_pos V c _ _ hz, st7_pos V c t hz hlt, step7_C _ h0 h1 h2]
        dsimp only
        iintro ⟨⟨⟨⟨HS0, HS1, HS2⟩, Hr⟩, Hg⟩, Ho, ⟨%d0, H0⟩, ⟨%d1, H1⟩, H2, H3, H4⟩
        iapply ((kernelRun7_C c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) (fun h => h2 ((hcond7_2 t).mp h)) (iblk7 V c 0 t) (iblk7 V c 1 t) (st7 V c (t.val - 1) hlt).acc).2.2.2 Set.univ _)
        isplitl [H0]; · iexact H0
        isplitl [H1]; · iexact H1
        isplitl [HS0]; · iexact HS0
        isplitl [HS1]; · iexists _; iexact HS1
        isplitl [HS2]; · iexists _; iexact HS2
        iintro ⟨H0, H1, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov7_C_S0 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) (fun h => h2 ((hcond7_2 t).mp h)) (iblk7 V c 0 t) (iblk7 V c 1 t) (st7 V c (t.val - 1) hlt).acc)).trans (val7_C_S0 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) (fun h => h2 ((hcond7_2 t).mp h)) (iblk7 V c 0 t) (iblk7 V c 1 t) (st7 V c (t.val - 1) hlt).acc)
              isplitl [HS1]
              · unfold owns; iexists _; isplitr
                swap; · iexact HS1
                ipureintro; exact (View.read_writes_eq_canon _ _ _ (cov7_C_S1 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) (fun h => h2 ((hcond7_2 t).mp h)) (iblk7 V c 0 t) (iblk7 V c 1 t) (st7 V c (t.val - 1) hlt).acc)).trans (val7_C_S1 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) (fun h => h2 ((hcond7_2 t).mp h)) (iblk7 V c 0 t) (iblk7 V c 1 t) (st7 V c (t.val - 1) hlt).acc)
              · unfold owns; iexists _; isplitr
                swap; · iexact HS2
                ipureintro; exact (View.read_writes_eq_canon _ _ _ (cov7_C_S2 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) (fun h => h2 ((hcond7_2 t).mp h)) (iblk7 V c 0 t) (iblk7 V c 1 t) (st7 V c (t.val - 1) hlt).acc)).trans (val7_C_S2 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) ((hcond7_1 t).mpr h1) (fun h => h2 ((hcond7_2 t).mp h)) (iblk7 V c 0 t) (iblk7 V c 1 t) (st7 V c (t.val - 1) hlt).acc)
            · iexact Hr
          · iexact Hg
        isplitl [Ho]; · iexact Ho
        isplitl [H0]; · iexact H0
        isplitl [H1]; · iexact H1
        isplitl [H2]; · iexact H2
        isplitl [H3]; · iexact H3
        iexact H4
    · by_cases h2 : t.val % 8 = 7
      · rw [show (dat7 V c).leavesExact 2 t = owns (c : Thread nD τ) (ms7_2 t) fullShare ((dat7 V c).after 2 t) from by
          unfold Dat.leavesExact; rw [liveAt7_2 t ((hcond7_2 t).mpr h2)], after7_2]
        rw [show (dat7 V c).leavesExact 3 t = owns (c : Thread nD τ) (ms7_3 t) fullShare ((dat7 V c).after 3 t) from by
          unfold Dat.leavesExact; rw [liveAt7_3 t ((hcond7_2 t).mpr h2)], after7_3]
        rw [show (dat7 V c).leavesExact 4 t = owns (c : Thread nD τ) (ms7_4 t) fullShare ((dat7 V c).after 4 t) from by
          unfold Dat.leavesExact; rw [liveAt7_4 t ((hcond7_2 t).mpr h2)], after7_4]
        have hlt : t.val - 1 < cfg7.N := by omega
        rw [PhiS7_castSucc V c t, PhiS7_pos V c _ _ hz, st7_pos V c t hz hlt, step7_F _ h0 h1 h2]
        dsimp only
        iintro ⟨⟨⟨⟨HS0, HS1, HS2⟩, Hr⟩, Hg⟩, Ho, ⟨%d0, H0⟩, ⟨%d1, H1⟩, ⟨%d2, H2⟩, ⟨%d3, H3⟩, ⟨%d4, H4⟩⟩
        iapply ((kernelRun7_F c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) (fun h => h1 ((hcond7_1 t).mp h)) ((hcond7_2 t).mpr h2) (iblk7 V c 0 t) (iblk7 V c 1 t) (st7 V c (t.val - 1) hlt).acc (st7 V c (t.val - 1) hlt).sum (st7 V c (t.val - 1) hlt).sq).2.2.2.2.2.2 Set.univ _)
        isplitl [H0]; · iexact H0
        isplitl [H1]; · iexact H1
        isplitl [H2]; · iexists _; iexact H2
        isplitl [H3]; · iexists _; iexact H3
        isplitl [H4]; · iexists _; iexact H4
        isplitl [HS0]; · iexact HS0
        isplitl [HS1]; · iexact HS1
        isplitl [HS2]; · iexact HS2
        iintro ⟨H0, H1, ⟨%e2, H2⟩, ⟨%e3, H3⟩, ⟨%e4, H4⟩, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov7_F_S0 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) (fun h => h1 ((hcond7_1 t).mp h)) ((hcond7_2 t).mpr h2) (iblk7 V c 0 t) (iblk7 V c 1 t) (st7 V c (t.val - 1) hlt).acc (st7 V c (t.val - 1) hlt).sum (st7 V c (t.val - 1) hlt).sq)).trans (val7_F_S0 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) (fun h => h1 ((hcond7_1 t).mp h)) ((hcond7_2 t).mpr h2) (iblk7 V c 0 t) (iblk7 V c 1 t) (st7 V c (t.val - 1) hlt).acc (st7 V c (t.val - 1) hlt).sum (st7 V c (t.val - 1) hlt).sq)
              isplitl [HS1]
              · unfold owns; iexists _; isplitr
                swap; · iexact HS1
                ipureintro; exact (View.read_writes_eq_canon _ _ _ (cov7_F_S1 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) (fun h => h1 ((hcond7_1 t).mp h)) ((hcond7_2 t).mpr h2) (iblk7 V c 0 t) (iblk7 V c 1 t) (st7 V c (t.val - 1) hlt).acc (st7 V c (t.val - 1) hlt).sum (st7 V c (t.val - 1) hlt).sq)).trans (val7_F_S1 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) (fun h => h1 ((hcond7_1 t).mp h)) ((hcond7_2 t).mpr h2) (iblk7 V c 0 t) (iblk7 V c 1 t) (st7 V c (t.val - 1) hlt).acc (st7 V c (t.val - 1) hlt).sum (st7 V c (t.val - 1) hlt).sq)
              · unfold owns; iexists _; isplitr
                swap; · iexact HS2
                ipureintro; exact (View.read_writes_eq_canon _ _ _ (cov7_F_S2 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) (fun h => h1 ((hcond7_1 t).mp h)) ((hcond7_2 t).mpr h2) (iblk7 V c 0 t) (iblk7 V c 1 t) (st7 V c (t.val - 1) hlt).acc (st7 V c (t.val - 1) hlt).sum (st7 V c (t.val - 1) hlt).sq)).trans (val7_F_S2 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) (fun h => h1 ((hcond7_1 t).mp h)) ((hcond7_2 t).mpr h2) (iblk7 V c 0 t) (iblk7 V c 1 t) (st7 V c (t.val - 1) hlt).acc (st7 V c (t.val - 1) hlt).sum (st7 V c (t.val - 1) hlt).sq)
            · iexact Hr
          · iexact Hg
        isplitl [Ho]; · iexact Ho
        isplitl [H0]; · iexact H0
        isplitl [H1]; · iexact H1
        isplitl [H2]
        · unfold owns; iexists _; isplitr
          swap; · iexact H2
          ipureintro; exact (View.read_writes_eq_canon _ _ _ (cov7_F_2 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) (fun h => h1 ((hcond7_1 t).mp h)) ((hcond7_2 t).mpr h2) (iblk7 V c 0 t) (iblk7 V c 1 t) (st7 V c (t.val - 1) hlt).acc (st7 V c (t.val - 1) hlt).sum (st7 V c (t.val - 1) hlt).sq)).trans (val7_F_2 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) (fun h => h1 ((hcond7_1 t).mp h)) ((hcond7_2 t).mpr h2) (iblk7 V c 0 t) (iblk7 V c 1 t) (st7 V c (t.val - 1) hlt).acc (st7 V c (t.val - 1) hlt).sum (st7 V c (t.val - 1) hlt).sq)
        isplitl [H3]
        · unfold owns; iexists _; isplitr
          swap; · iexact H3
          ipureintro; exact (View.read_writes_eq_canon _ _ _ (cov7_F_3 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) (fun h => h1 ((hcond7_1 t).mp h)) ((hcond7_2 t).mpr h2) (iblk7 V c 0 t) (iblk7 V c 1 t) (st7 V c (t.val - 1) hlt).acc (st7 V c (t.val - 1) hlt).sum (st7 V c (t.val - 1) hlt).sq)).trans (val7_F_3 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) (fun h => h1 ((hcond7_1 t).mp h)) ((hcond7_2 t).mpr h2) (iblk7 V c 0 t) (iblk7 V c 1 t) (st7 V c (t.val - 1) hlt).acc (st7 V c (t.val - 1) hlt).sum (st7 V c (t.val - 1) hlt).sq)
        · unfold owns; iexists _; isplitr
          swap; · iexact H4
          ipureintro; exact (View.read_writes_eq_canon _ _ _ (cov7_F_4 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) (fun h => h1 ((hcond7_1 t).mp h)) ((hcond7_2 t).mpr h2) (iblk7 V c 0 t) (iblk7 V c 1 t) (st7 V c (t.val - 1) hlt).acc (st7 V c (t.val - 1) hlt).sum (st7 V c (t.val - 1) hlt).sq)).trans (val7_F_4 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) (fun h => h1 ((hcond7_1 t).mp h)) ((hcond7_2 t).mpr h2) (iblk7 V c 0 t) (iblk7 V c 1 t) (st7 V c (t.val - 1) hlt).acc (st7 V c (t.val - 1) hlt).sum (st7 V c (t.val - 1) hlt).sq)
      · rw [Dat.leavesExact_idle (dat7 V c) 2 t (idleAt7_2 t (fun h => h2 ((hcond7_2 t).mp h))) (noFlush7_2 t (fun h => h2 ((hcond7_2 t).mp h)))]
        rw [Dat.leavesExact_idle (dat7 V c) 3 t (idleAt7_3 t (fun h => h2 ((hcond7_2 t).mp h))) (noFlush7_3 t (fun h => h2 ((hcond7_2 t).mp h)))]
        rw [Dat.leavesExact_idle (dat7 V c) 4 t (idleAt7_4 t (fun h => h2 ((hcond7_2 t).mp h))) (noFlush7_4 t (fun h => h2 ((hcond7_2 t).mp h)))]
        have hlt : t.val - 1 < cfg7.N := by omega
        rw [PhiS7_castSucc V c t, PhiS7_pos V c _ _ hz, st7_pos V c t hz hlt, step7_D _ h0 h1 h2]
        dsimp only
        iintro ⟨⟨⟨⟨HS0, HS1, HS2⟩, Hr⟩, Hg⟩, Ho, ⟨%d0, H0⟩, ⟨%d1, H1⟩, H2, H3, H4⟩
        iapply ((kernelRun7_D c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) (fun h => h1 ((hcond7_1 t).mp h)) (fun h => h2 ((hcond7_2 t).mp h)) (iblk7 V c 0 t) (iblk7 V c 1 t) (st7 V c (t.val - 1) hlt).acc).2 Set.univ _)
        isplitl [H0]; · iexact H0
        isplitl [H1]; · iexact H1
        isplitl [HS0]; · iexact HS0
        iintro ⟨H0, H1, ⟨%eS0, HS0⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov7_D_S0 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) (fun h => h1 ((hcond7_1 t).mp h)) (fun h => h2 ((hcond7_2 t).mp h)) (iblk7 V c 0 t) (iblk7 V c 1 t) (st7 V c (t.val - 1) hlt).acc)).trans (val7_D_S0 c (grid7.coords t) (ms7_0 t) (hs7_0 t) (ms7_1 t) (hs7_1 t) (ms7_2 t) (hs7_2 t) (ms7_3 t) (hs7_3 t) (ms7_4 t) (hs7_4 t) scM7_0 (Memref.isWhole_whole _) scM7_1 (Memref.isWhole_whole _) scM7_2 (Memref.isWhole_whole _) (fun h => h0 ((hcond7_0 t).mp h)) (fun h => h1 ((hcond7_1 t).mp h)) (fun h => h2 ((hcond7_2 t).mp h)) (iblk7 V c 0 t) (iblk7 V c 1 t) (st7 V c (t.val - 1) hlt).acc)
              isplitl [HS1]
              · iexact HS1
              · iexact HS2
            · iexact Hr
          · iexact Hg
        isplitl [Ho]; · iexact Ho
        isplitl [H0]; · iexact H0
        isplitl [H1]; · iexact H1
        isplitl [H2]; · iexact H2
        isplitl [H3]; · iexact H3
        iexact H4

theorem body_obligation7 (c : Dev nD) : BodyObligation (dat7 (F := F) V c) (defs₀ (F := F)) Variants.none () Set.univ := fun t => by
  rw [bigSep_W7, bigSep_W7]
  exact sound_body7 V c t

end

end Cert.Kernel.Hand

end
-- ==== Proof.K.R10Runs.lean ====
/-
  Matrix-product region 10: what its six control cases share — the three branch conditions in closed form over the grid
  (point n = 32 j + 8 i + k: the accumulator is reset at k = 0, the two running rows at i = 0, the statistics are taken at
  k = 7), where the three outputs are idle and when they are written back, and the memrefs the body is called with.
-/
import proofs.«157460_j63591285784858_2_alg».proof.Proof.K.R10Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## The branch conditions -/

abbrev cond10_0 (i : grid10.Coords) : Prop := (Scalar.cmpi .ne (Scalar.extui (Scalar.cmpi .eq (BitVec.ofNat 32 (i 2).val) 0#32)) 0#32) = 1#1
theorem hcond10_0 : ∀ t : Fin cfg10.N, cond10_0 (grid10.coords t) ↔ t.val % 8 = 0 :=
  (by decide +kernel : ∀ t : Fin grid10.N, cond10_0 (grid10.coords t) ↔ t.val % 8 = 0)
abbrev cond10_1 (i : grid10.Coords) : Prop := (Scalar.cmpi .ne (Scalar.extui (Scalar.cmpi .eq (BitVec.ofNat 32 (i 1).val) 0#32)) 0#32) = 1#1
theorem hcond10_1 : ∀ t : Fin cfg10.N, cond10_1 (grid10.coords t) ↔ t.val / 8 % 4 = 0 :=
  (by decide +kernel : ∀ t : Fin grid10.N, cond10_1 (grid10.coords t) ↔ t.val / 8 % 4 = 0)
abbrev cond10_2 (i : grid10.Coords) : Prop := k10_cond3 i = 1#1
theorem hcond10_2 : ∀ t : Fin cfg10.N, cond10_2 (grid10.coords t) ↔ t.val % 8 = 7 :=
  (by decide +kernel : ∀ t : Fin grid10.N, cond10_2 (grid10.coords t) ↔ t.val % 8 = 7)

/-! ## Idle points and write-backs of the three outputs -/

theorem liveAt10_0 : ∀ t : Fin cfg10.N, cfg10.idle 0 (grid10.coords t) = false := by decide +kernel
theorem liveAt10_1 : ∀ t : Fin cfg10.N, cfg10.idle 1 (grid10.coords t) = false := by decide +kernel
theorem idleAt10_2 : ∀ t : Fin cfg10.N, ¬cond10_2 (grid10.coords t) → cfg10.idle 2 (grid10.coords t) = true := by decide +kernel
theorem liveAt10_2 : ∀ t : Fin cfg10.N, cond10_2 (grid10.coords t) → cfg10.idle 2 (grid10.coords t) = false := by decide +kernel
theorem noFlush10_2 : ∀ t : Fin cfg10.N, ¬cond10_2 (grid10.coords t) → (cfg10.win 2).flush t = false := by decide +kernel
theorem idleAt10_3 : ∀ t : Fin cfg10.N, ¬cond10_2 (grid10.coords t) → cfg10.idle 3 (grid10.coords t) = true := by decide +kernel
theorem liveAt10_3 : ∀ t : Fin cfg10.N, cond10_2 (grid10.coords t) → cfg10.idle 3 (grid10.coords t) = false := by decide +kernel
theorem noFlush10_3 : ∀ t : Fin cfg10.N, ¬cond10_2 (grid10.coords t) → (cfg10.win 3).flush t = false := by decide +kernel
theorem idleAt10_4 : ∀ t : Fin cfg10.N, ¬cond10_2 (grid10.coords t) → cfg10.idle 4 (grid10.coords t) = true := by decide +kernel
theorem liveAt10_4 : ∀ t : Fin cfg10.N, cond10_2 (grid10.coords t) → cfg10.idle 4 (grid10.coords t) = false := by decide +kernel
theorem noFlush10_4 : ∀ t : Fin cfg10.N, ¬cond10_2 (grid10.coords t) → (cfg10.win 4).flush t = false := by decide +kernel

/-! ## The memrefs the body is called with -/

abbrev ms10_0 (t : Fin cfg10.N) : Memref sig .tc .vmem S1024x512 .bf16 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S1024x512 .bf16 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S1024x1024 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S1x1024 .f32 := win10_3.stage (cfg10.slots t 3)
abbrev hs10_3 (t : Fin cfg10.N) : (ms10_3 t).IsWhole := hstage10_3 ((cfg10.slots t 3).cast nbuf10_3)
abbrev ms10_4 (t : Fin cfg10.N) : Memref sig .tc .vmem S1x1024 .f32 := win10_4.stage (cfg10.slots t 4)
abbrev hs10_4 (t : Fin cfg10.N) : (ms10_4 t).IsWhole := hstage10_4 ((cfg10.slots t 4).cast nbuf10_4)
/-- Views through which contents are stated (any whole buffer of the shape serves). -/
abbrev VB10 : View sig .tc .vmem S1024x1024 .f32 := scM10_0.view
abbrev VR10 : View sig .tc .vmem S1x1024 .f32 := scM10_1.view

end Cert.Kernel.Hand

end
-- ==== Proof.K.R10RunA.lean ====
/-
  The whole body at the first point of an output column tile (k = 0, i = 0): the accumulator is cleared and receives
  the block product; the two running rows are cleared. Nothing read of what the scratch buffers held;
  Only the buffers the body stores into are mentioned; what each ends with is found by running the body: the pieces
  are the witness.
-/
import proofs.«157460_j63591285784858_2_alg».proof.Proof.K.R10Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
noncomputable def kernelRun10_A (c : Dev nD) (i : grid10.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : cond10_0 i) (hc1 : cond10_1 i) (hc2 : ¬cond10_2 i)
    (x0 : Vec F S1024x512 .bf16) (x1 : Vec F S1024x512 .bf16)  :
    Σ' (LS0 : List (View.Piece (Elt F) S1024x1024 .f32)) (LS1 : List (View.Piece (Elt F) S1x1024 .f32)), { LS2 : List (View.Piece (Elt F) S1x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc10__matmul_stats_kernel i arg3 harg3 arg4 harg4 arg5 harg5 arg6 harg6 arg7 harg7 arg8 harg8 arg9 harg9 arg10 harg10) K } := by
  refine ⟨?_, ?_, ?_, fun E K => ?run⟩
  case run =>
    simp only [cc10__matmul_stats_kernel_eq_skeleton]; unfold cc10__matmul_stats_kernel_skel
    unfold owns
    iintro ⟨⟨%f0, %hf0, H0⟩, ⟨%f1, %hf1, H1⟩, ⟨%dHS0, %fHS0, -, HS0⟩, ⟨%dHS1, %fHS1, -, HS1⟩, ⟨%dHS2, %fHS2, -, HS2⟩, Hk⟩
    obtain rfl := harg3.eq_unread hf0; obtain rfl := harg4.eq_unread hf1

    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [HS0]; · iexists _; iexact HS0
    isplitl [HS1]; · iexists _; iexact HS1
    iexists _; iexact HS2

end Cert.Kernel.Hand

end
-- ==== Proof.K.R10RunB.lean ====
/-
  The whole body at the first reduction step of a batch tile that is not the first (k = 0, i ≠ 0): the accumulator is
  cleared and receives the block product; the two running rows keep what the tile before left.
  Only the buffers the body stores into are mentioned; what each ends with is found by running the body: the pieces
  are the witness.
-/
import proofs.«157460_j63591285784858_2_alg».proof.Proof.K.R10Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
noncomputable def kernelRun10_B (c : Dev nD) (i : grid10.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : cond10_0 i) (hc1 : ¬cond10_1 i) (hc2 : ¬cond10_2 i)
    (x0 : Vec F S1024x512 .bf16) (x1 : Vec F S1024x512 .bf16)  :
    { LS0 : List (View.Piece (Elt F) S1024x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg8 fullShare d)
            ∗ (iprop(owns (c : Thread nD τ) arg3 fullShare x0 ∗ owns (c : Thread nD τ) arg4 fullShare x1
                ∗ (∃ f, arg8.view.loc (c : Thread nD τ) ↦[arg8.view.set]{fullShare} arg8.view.writes (Elt F) f LS0)) -∗ K ⟨⟩))
          ⊢ wp frame (wpE (defs₀ (F := F)) Variants.none c none) E (cc10__matmul_stats_kernel i arg3 harg3 arg4 harg4 arg5 harg5 arg6 harg6 arg7 harg7 arg8 harg8 arg9 harg9 arg10 harg10) K } := by
  refine ⟨?_, fun E K => ?run⟩
  case run =>
    simp only [cc10__matmul_stats_kernel_eq_skeleton]; unfold cc10__matmul_stats_kernel_skel
    unfold owns
    iintro ⟨⟨%f0, %hf0, H0⟩, ⟨%f1, %hf1, H1⟩, ⟨%dHS0, %fHS0, -, HS0⟩, Hk⟩
    obtain rfl := harg3.eq_unread hf0; obtain rfl := harg4.eq_unread hf1

    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.Kernel.Hand

end
-- ==== Proof.K.R10RunC.lean ====
/-
  The whole body at a middle reduction step of the first batch tile (0 < k < 3, i = 0): the accumulator found at what
  the step before left receives the block product; the two running rows are cleared; the three outputs are not
  touched.
  Only the buffers the body stores into are mentioned; what each ends with is found by running the body: the pieces
  are the witness.
-/
import proofs.«157460_j63591285784858_2_alg».proof.Proof.K.R10Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
noncomputable def kernelRun10_C (c : Dev nD) (i : grid10.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond10_0 i) (hc1 : cond10_1 i) (hc2 : ¬cond10_2 i)
    (x0 : Vec F S1024x512 .bf16) (x1 : Vec F S1024x512 .bf16) (xs0 : Vec F S1024x1024 .f32) :
    Σ' (LS0 : List (View.Piece (Elt F) S1024x1024 .f32)) (LS1 : List (View.Piece (Elt F) S1x1024 .f32)), { LS2 : List (View.Piece (Elt F) S1x1024 .f32) //
      ∀ (E : Set ℕ) (K : PUnit → sProp 𝕄),
        iprop(owns (c : Thread nD τ) arg3 fullShare x0 ∗ owns (c : Thread nD τ) arg4 fullShare x1
            ∗ owns (c : Thread nD τ) arg8 fullShare xs0 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc10__matmul_stats_kernel i arg3 harg3 arg4 harg4 arg5 harg5 arg6 harg6 arg7 harg7 arg8 harg8 arg9 harg9 arg10 harg10) K } := by
  refine ⟨?_, ?_, ?_, fun E K => ?run⟩
  case run =>
    simp only [cc10__matmul_stats_kernel_eq_skeleton]; unfold cc10__matmul_stats_kernel_skel
    unfold owns
    iintro ⟨⟨%f0, %hf0, H0⟩, ⟨%f1, %hf1, H1⟩, ⟨%fHS0, %hfHS0, HS0⟩, ⟨%dHS1, %fHS1, -, HS1⟩, ⟨%dHS2, %fHS2, -, HS2⟩, Hk⟩
    obtain rfl := harg3.eq_unread hf0; obtain rfl := harg4.eq_unread hf1
    obtain rfl := harg8.eq_unread hfHS0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [HS0]; · iexists _; iexact HS0
    isplitl [HS1]; · iexists _; iexact HS1
    iexists _; iexact HS2

end Cert.Kernel.Hand

end
-- ==== Proof.K.R10RunD.lean ====
/-
  The whole body at a middle reduction step of a batch tile that is not the first (0 < k < 3, i ≠ 0): the accumulator
  found at what the step before left receives the block product; the two running rows keep what the tile before left;

  Only the buffers the body stores into are mentioned; what each ends with is found by running the body: the pieces
  are the witness.
-/
import proofs.«157460_j63591285784858_2_alg».proof.Proof.K.R10Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
noncomputable def kernelRun10_D (c : Dev nD) (i : grid10.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond10_0 i) (hc1 : ¬cond10_1 i) (hc2 : ¬cond10_2 i)
    (x0 : Vec F S1024x512 .bf16) (x1 : Vec F S1024x512 .bf16) (xs0 : Vec F S1024x1024 .f32) :
    { LS0 : List (View.Piece (Elt F) S1024x1024 .f32) //
      ∀ (E : Set ℕ) (K : PUnit → sProp 𝕄),
        iprop(owns (c : Thread nD τ) arg3 fullShare x0 ∗ owns (c : Thread nD τ) arg4 fullShare x1
            ∗ owns (c : Thread nD τ) arg8 fullShare xs0
            ∗ (iprop(owns (c : Thread nD τ) arg3 fullShare x0 ∗ owns (c : Thread nD τ) arg4 fullShare x1
                ∗ (∃ f, arg8.view.loc (c : Thread nD τ) ↦[arg8.view.set]{fullShare} arg8.view.writes (Elt F) f LS0)) -∗ K ⟨⟩))
          ⊢ wp frame (wpE (defs₀ (F := F)) Variants.none c none) E (cc10__matmul_stats_kernel i arg3 harg3 arg4 harg4 arg5 harg5 arg6 harg6 arg7 harg7 arg8 harg8 arg9 harg9 arg10 harg10) K } := by
  refine ⟨?_, fun E K => ?run⟩
  case run =>
    simp only [cc10__matmul_stats_kernel_eq_skeleton]; unfold cc10__matmul_stats_kernel_skel
    unfold owns
    iintro ⟨⟨%f0, %hf0, H0⟩, ⟨%f1, %hf1, H1⟩, ⟨%fHS0, %hfHS0, HS0⟩, Hk⟩
    obtain rfl := harg3.eq_unread hf0; obtain rfl := harg4.eq_unread hf1
    obtain rfl := harg8.eq_unread hfHS0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.Kernel.Hand

end
-- ==== Proof.K.R10RunE.lean ====
/-
  The whole body at the last reduction step of the first batch tile (k = 3, i = 0): the accumulator found at what the
  step before left receives the block product and is copied to the product's output block; the two running rows are
  cleared and receive its column sums and column sums of squares; the mean and the clamped variance are written from
  them.
  Only the buffers the body stores into are mentioned; what each ends with is found by running the body: the pieces
  are the witness.
-/
import proofs.«157460_j63591285784858_2_alg».proof.Proof.K.R10Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
noncomputable def kernelRun10_E (c : Dev nD) (i : grid10.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond10_0 i) (hc1 : cond10_1 i) (hc2 : cond10_2 i)
    (x0 : Vec F S1024x512 .bf16) (x1 : Vec F S1024x512 .bf16) (xs0 : Vec F S1024x1024 .f32) :
    Σ' (L2 : List (View.Piece (Elt F) S1024x1024 .f32)) (L3 : List (View.Piece (Elt F) S1x1024 .f32)) (L4 : List (View.Piece (Elt F) S1x1024 .f32)) (LS0 : List (View.Piece (Elt F) S1024x1024 .f32)) (LS1 : List (View.Piece (Elt F) S1x1024 .f32)), { LS2 : List (View.Piece (Elt F) S1x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc10__matmul_stats_kernel i arg3 harg3 arg4 harg4 arg5 harg5 arg6 harg6 arg7 harg7 arg8 harg8 arg9 harg9 arg10 harg10) K } := by
  refine ⟨?_, ?_, ?_, ?_, ?_, ?_, fun E K => ?run⟩
  case run =>
    simp only [cc10__matmul_stats_kernel_eq_skeleton]; unfold cc10__matmul_stats_kernel_skel
    unfold owns
    iintro ⟨⟨%f0, %hf0, H0⟩, ⟨%f1, %hf1, H1⟩, ⟨%dH2, %fH2, -, H2⟩, ⟨%dH3, %fH3, -, H3⟩, ⟨%dH4, %fH4, -, H4⟩, ⟨%fHS0, %hfHS0, HS0⟩, ⟨%dHS1, %fHS1, -, HS1⟩, ⟨%dHS2, %fHS2, -, HS2⟩, Hk⟩
    obtain rfl := harg3.eq_unread hf0; obtain rfl := harg4.eq_unread hf1
    obtain rfl := harg8.eq_unread hfHS0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    iexists _; iexact HS2

end Cert.Kernel.Hand

end
-- ==== Proof.K.R10RunF.lean ====
/-
  The whole body at the last reduction step of a batch tile that is not the first (k = last, i ≠ 0): the accumulator
  found at what the step before left receives the block product and is copied to the product's output block; its column
  sums and column sums of squares are added into the two running rows found at what the tile before left; the mean and
  the clamped variance are written from them.
  Only the buffers the body stores into are mentioned; what each ends with is found by running the body: the pieces
  are the witness.
-/
import proofs.«157460_j63591285784858_2_alg».proof.Proof.K.R10Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
noncomputable def kernelRun10_F (c : Dev nD) (i : grid10.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond10_0 i) (hc1 : ¬cond10_1 i) (hc2 : cond10_2 i)
    (x0 : Vec F S1024x512 .bf16) (x1 : Vec F S1024x512 .bf16) (xs0 : Vec F S1024x1024 .f32) (xs1 : Vec F S1x1024 .f32) (xs2 : Vec F S1x1024 .f32) :
    Σ' (L2 : List (View.Piece (Elt F) S1024x1024 .f32)) (L3 : List (View.Piece (Elt F) S1x1024 .f32)) (L4 : List (View.Piece (Elt F) S1x1024 .f32)) (LS0 : List (View.Piece (Elt F) S1024x1024 .f32)) (LS1 : List (View.Piece (Elt F) S1x1024 .f32)), { LS2 : List (View.Piece (Elt F) S1x1024 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc10__matmul_stats_kernel i arg3 harg3 arg4 harg4 arg5 harg5 arg6 harg6 arg7 harg7 arg8 harg8 arg9 harg9 arg10 harg10) K } := by
  refine ⟨?_, ?_, ?_, ?_, ?_, ?_, fun E K => ?run⟩
  case run =>
    simp only [cc10__matmul_stats_kernel_eq_skeleton]; unfold cc10__matmul_stats_kernel_skel
    unfold owns
    iintro ⟨⟨%f0, %hf0, H0⟩, ⟨%f1, %hf1, H1⟩, ⟨%dH2, %fH2, -, H2⟩, ⟨%dH3, %fH3, -, H3⟩, ⟨%dH4, %fH4, -, H4⟩, ⟨%fHS0, %hfHS0, HS0⟩, ⟨%fHS1, %hfHS1, HS1⟩, ⟨%fHS2, %hfHS2, HS2⟩, Hk⟩
    obtain rfl := harg3.eq_unread hf0; obtain rfl := harg4.eq_unread hf1
    obtain rfl := harg8.eq_unread hfHS0; obtain rfl := harg9.eq_unread hfHS1; obtain rfl := harg10.eq_unread hfHS2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    iexists _; iexact HS2

end Cert.Kernel.Hand

end
-- ==== Proof.K.R10Body.lean ====
/-
  Matrix-product region 10: the body obligation. At every grid point the point's control case is read off the
  closed forms of the three branch conditions; the case's whole-body run applies, the invariant handing it the scratch
  buffers at the state the point before left (at anything at the first point) and taking them back at this point's
  state; each stored buffer's found pieces read back as the payload the closed-form state names (one covering store,
  or a store after a clearing store), so the proof data's statements hold; an output the case does not store is handed
  back as it was found.
-/
import proofs.«157460_j63591285784858_2_alg».proof.Proof.K.R10RunA
import proofs.«157460_j63591285784858_2_alg».proof.Proof.K.R10RunB
import proofs.«157460_j63591285784858_2_alg».proof.Proof.K.R10RunC
import proofs.«157460_j63591285784858_2_alg».proof.Proof.K.R10RunD
import proofs.«157460_j63591285784858_2_alg».proof.Proof.K.R10RunE
import proofs.«157460_j63591285784858_2_alg».proof.Proof.K.R10RunF
import proofs.«157460_j63591285784858_2_alg».proof.Proof.LibUnitPieces
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

open Cert

/-! ## What each case's stored buffers end with -/

/-! ### Case A -/

section
variable (c : Dev nD) (i : grid10.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : cond10_0 i) (hc1 : cond10_1 i) (hc2 : ¬cond10_2 i)
    (x0 : Vec F S1024x512 .bf16) (x1 : Vec F S1024x512 .bf16)

theorem cov10_A_S0 (y : S1024x1024.Idx) : ∃ pc ∈ (kernelRun10_A c i arg3 harg3 arg4 harg4 arg5 harg5 arg6 harg6 arg7 harg7 arg8 harg8 arg9 harg9 arg10 harg10 hc0 hc1 hc2 x0 x1 ).1, y ∈ pc.1.set :=
  View.cover_of_tiledL _ S1024x1024.size (by sl_kernel_rfl) y
theorem val10_A_S0 : View.canon (kernelRun10_A c i arg3 harg3 arg4 harg4 arg5 harg5 arg6 harg6 arg7 harg7 arg8 harg8 arg9 harg9 arg10 harg10 hc0 hc1 hc2 x0 x1 ).1 = (k10_pay2 x0 k10_pay1 x1) := by
  unfold kernelRun10_A
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov10_A_S1 (y : S1x1024.Idx) : ∃ pc ∈ (kernelRun10_A c i arg3 harg3 arg4 harg4 arg5 harg5 arg6 harg6 arg7 harg7 arg8 harg8 arg9 harg9 arg10 harg10 hc0 hc1 hc2 x0 x1 ).2.1, y ∈ pc.1.set :=
  View.cover_of_tiledL _ S1x1024.size (by sl_kernel_rfl) y
theorem val10_A_S1 : View.canon (kernelRun10_A c i arg3 harg3 arg4 harg4 arg5 harg5 arg6 harg6 arg7 harg7 arg8 harg8 arg9 harg9 arg10 harg10 hc0 hc1 hc2 x0 x1 ).2.1 = k10_pay3 := by
  unfold kernelRun10_A
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov10_A_S2 (y : S1x1024.Idx) : ∃ pc ∈ (kernelRun10_A c i arg3 harg3 arg4 harg4 arg5 harg5 arg6 harg6 arg7 harg7 arg8 harg8 arg9 harg9 arg10 harg10 hc0 hc1 hc2 x0 x1 ).2.2.1, y ∈ pc.1.set :=
  View.cover_of_tiledL _ S1x1024.size (by sl_kernel_rfl) y
theorem val10_A_S2 : View.canon (kernelRun10_A c i arg3 harg3 arg4 harg4 arg5 harg5 arg6 harg6 arg7 harg7 arg8 harg8 arg9 harg9 arg10 harg10 hc0 hc1 hc2 x0 x1 ).2.2.1 = k10_pay4 := by
  unfold kernelRun10_A
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case B -/

section
variable (c : Dev nD) (i : grid10.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : cond10_0 i) (hc1 : ¬cond10_1 i) (hc2 : ¬cond10_2 i)
    (x0 : Vec F S1024x512 .bf16) (x1 : Vec F S1024x512 .bf16)

theorem cov10_B_S0 (y : S1024x1024.Idx) : ∃ pc ∈ (kernelRun10_B c i arg3 harg3 arg4 harg4 arg5 harg5 arg6 harg6 arg7 harg7 arg8 harg8 arg9 harg9 arg10 harg10 hc0 hc1 hc2 x0 x1 ).1, y ∈ pc.1.set :=
  View.cover_of_tiledL _ S1024x1024.size (by sl_kernel_rfl) y
theorem val10_B_S0 : View.canon (kernelRun10_B c i arg3 harg3 arg4 harg4 arg5 harg5 arg6 harg6 arg7 harg7 arg8 harg8 arg9 harg9 arg10 harg10 hc0 hc1 hc2 x0 x1 ).1 = (k10_pay2 x0 k10_pay1 x1) := by
  unfold kernelRun10_B
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case C -/

section
variable (c : Dev nD) (i : grid10.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond10_0 i) (hc1 : cond10_1 i) (hc2 : ¬cond10_2 i)
    (x0 : Vec F S1024x512 .bf16) (x1 : Vec F S1024x512 .bf16) (xs0 : Vec F S1024x1024 .f32)

theorem cov10_C_S0 (y : S1024x1024.Idx) : ∃ pc ∈ (kernelRun10_C c i arg3 harg3 arg4 harg4 arg5 harg5 arg6 harg6 arg7 harg7 arg8 harg8 arg9 harg9 arg10 harg10 hc0 hc1 hc2 x0 x1 xs0).1, y ∈ pc.1.set :=
  View.cover_of_tiledL _ S1024x1024.size (by sl_kernel_rfl) y
theorem val10_C_S0 : View.canon (kernelRun10_C c i arg3 harg3 arg4 harg4 arg5 harg5 arg6 harg6 arg7 harg7 arg8 harg8 arg9 harg9 arg10 harg10 hc0 hc1 hc2 x0 x1 xs0).1 = (k10_pay2 x0 xs0 x1) := by
  unfold kernelRun10_C
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov10_C_S1 (y : S1x1024.Idx) : ∃ pc ∈ (kernelRun10_C c i arg3 harg3 arg4 harg4 arg5 harg5 arg6 harg6 arg7 harg7 arg8 harg8 arg9 harg9 arg10 harg10 hc0 hc1 hc2 x0 x1 xs0).2.1, y ∈ pc.1.set :=
  View.cover_of_tiledL _ S1x1024.size (by sl_kernel_rfl) y
theorem val10_C_S1 : View.canon (kernelRun10_C c i arg3 harg3 arg4 harg4 arg5 harg5 arg6 harg6 arg7 harg7 arg8 harg8 arg9 harg9 arg10 harg10 hc0 hc1 hc2 x0 x1 xs0).2.1 = k10_pay3 := by
  unfold kernelRun10_C
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov10_C_S2 (y : S1x1024.Idx) : ∃ pc ∈ (kernelRun10_C c i arg3 harg3 arg4 harg4 arg5 harg5 arg6 harg6 arg7 harg7 arg8 harg8 arg9 harg9 arg10 harg10 hc0 hc1 hc2 x0 x1 xs0).2.2.1, y ∈ pc.1.set :=
  View.cover_of_tiledL _ S1x1024.size (by sl_kernel_rfl) y
theorem val10_C_S2 : View.canon (kernelRun10_C c i arg3 harg3 arg4 harg4 arg5 harg5 arg6 harg6 arg7 harg7 arg8 harg8 arg9 harg9 arg10 harg10 hc0 hc1 hc2 x0 x1 xs0).2.2.1 = k10_pay4 := by
  unfold kernelRun10_C
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case D -/

section
variable (c : Dev nD) (i : grid10.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond10_0 i) (hc1 : ¬cond10_1 i) (hc2 : ¬cond10_2 i)
    (x0 : Vec F S1024x512 .bf16) (x1 : Vec F S1024x512 .bf16) (xs0 : Vec F S1024x1024 .f32)

theorem cov10_D_S0 (y : S1024x1024.Idx) : ∃ pc ∈ (kernelRun10_D c i arg3 harg3 arg4 harg4 arg5 harg5 arg6 harg6 arg7 harg7 arg8 harg8 arg9 harg9 arg10 harg10 hc0 hc1 hc2 x0 x1 xs0).1, y ∈ pc.1.set :=
  View.cover_of_tiledL _ S1024x1024.size (by sl_kernel_rfl) y
theorem val10_D_S0 : View.canon (kernelRun10_D c i arg3 harg3 arg4 harg4 arg5 harg5 arg6 harg6 arg7 harg7 arg8 harg8 arg9 harg9 arg10 harg10 hc0 hc1 hc2 x0 x1 xs0).1 = (k10_pay2 x0 xs0 x1) := by
  unfold kernelRun10_D
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case E -/

section
variable (c : Dev nD) (i : grid10.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond10_0 i) (hc1 : cond10_1 i) (hc2 : cond10_2 i)
    (x0 : Vec F S1024x512 .bf16) (x1 : Vec F S1024x512 .bf16) (xs0 : Vec F S1024x1024 .f32)

theorem cov10_E_2 (y : S1024x1024.Idx) : ∃ pc ∈ (kernelRun10_E c i arg3 harg3 arg4 harg4 arg5 harg5 arg6 harg6 arg7 harg7 arg8 harg8 arg9 harg9 arg10 harg10 hc0 hc1 hc2 x0 x1 xs0).1, y ∈ pc.1.set :=
  View.cover_of_tiledL _ S1024x1024.size (by sl_kernel_rfl) y
theorem val10_E_2 : View.canon (kernelRun10_E c i arg3 harg3 arg4 harg4 arg5 harg5 arg6 harg6 arg7 harg7 arg8 harg8 arg9 harg9 arg10 harg10 hc0 hc1 hc2 x0 x1 xs0).1 = (k10_pay2 x0 xs0 x1) := by
  unfold kernelRun10_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov10_E_3 (y : S1x1024.Idx) : ∃ pc ∈ (kernelRun10_E c i arg3 harg3 arg4 harg4 arg5 harg5 arg6 harg6 arg7 harg7 arg8 harg8 arg9 harg9 arg10 harg10 hc0 hc1 hc2 x0 x1 xs0).2.1, y ∈ pc.1.set :=
  View.cover_of_tiledL _ S1x1024.size (by sl_kernel_rfl) y
theorem val10_E_3 : View.canon (kernelRun10_E c i arg3 harg3 arg4 harg4 arg5 harg5 arg6 harg6 arg7 harg7 arg8 harg8 arg9 harg9 arg10 harg10 hc0 hc1 hc2 x0 x1 xs0).2.1 = (k10_pay7 (k10_pay5 (k10_pay2 x0 xs0 x1) k10_pay3)) := by
  unfold kernelRun10_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov10_E_4 (y : S1x1024.Idx) : ∃ pc ∈ (kernelRun10_E c i arg3 harg3 arg4 harg4 arg5 harg5 arg6 harg6 arg7 harg7 arg8 harg8 arg9 harg9 arg10 harg10 hc0 hc1 hc2 x0 x1 xs0).2.2.1, y ∈ pc.1.set :=
  View.cover_of_tiledL _ S1x1024.size (by sl_kernel_rfl) y
theorem val10_E_4 : View.canon (kernelRun10_E c i arg3 harg3 arg4 harg4 arg5 harg5 arg6 harg6 arg7 harg7 arg8 harg8 arg9 harg9 arg10 harg10 hc0 hc1 hc2 x0 x1 xs0).2.2.1 = (k10_pay8 (k10_pay5 (k10_pay2 x0 xs0 x1) k10_pay3) (k10_pay6 (k10_pay2 x0 xs0 x1) k10_pay4)) := by
  unfold kernelRun10_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov10_E_S0 (y : S1024x1024.Idx) : ∃ pc ∈ (kernelRun10_E c i arg3 harg3 arg4 harg4 arg5 harg5 arg6 harg6 arg7 harg7 arg8 harg8 arg9 harg9 arg10 harg10 hc0 hc1 hc2 x0 x1 xs0).2.2.2.1, y ∈ pc.1.set :=
  View.cover_of_tiledL _ S1024x1024.size (by sl_kernel_rfl) y
theorem val10_E_S0 : View.canon (kernelRun10_E c i arg3 harg3 arg4 harg4 arg5 harg5 arg6 harg6 arg7 harg7 arg8 harg8 arg9 harg9 arg10 harg10 hc0 hc1 hc2 x0 x1 xs0).2.2.2.1 = (k10_pay2 x0 xs0 x1) := by
  unfold kernelRun10_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov10_E_S1 (y : S1x1024.Idx) : ∃ pc ∈ (kernelRun10_E c i arg3 harg3 arg4 harg4 arg5 harg5 arg6 harg6 arg7 harg7 arg8 harg8 arg9 harg9 arg10 harg10 hc0 hc1 hc2 x0 x1 xs0).2.2.2.2.1, y ∈ pc.1.set :=
  View.cover_of_tiledL _ S1x1024.size (by sl_kernel_rfl) y
theorem val10_E_S1 : View.canon (kernelRun10_E c i arg3 harg3 arg4 harg4 arg5 harg5 arg6 harg6 arg7 harg7 arg8 harg8 arg9 harg9 arg10 harg10 hc0 hc1 hc2 x0 x1 xs0).2.2.2.2.1 = (k10_pay5 (k10_pay2 x0 xs0 x1) k10_pay3) := by
  unfold kernelRun10_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov10_E_S2 (y : S1x1024.Idx) : ∃ pc ∈ (kernelRun10_E c i arg3 harg3 arg4 harg4 arg5 harg5 arg6 harg6 arg7 harg7 arg8 harg8 arg9 harg9 arg10 harg10 hc0 hc1 hc2 x0 x1 xs0).2.2.2.2.2.1, y ∈ pc.1.set :=
  View.cover_of_tiledL _ S1x1024.size (by sl_kernel_rfl) y
theorem val10_E_S2 : View.canon (kernelRun10_E c i arg3 harg3 arg4 harg4 arg5 harg5 arg6 harg6 arg7 harg7 arg8 harg8 arg9 harg9 arg10 harg10 hc0 hc1 hc2 x0 x1 xs0).2.2.2.2.2.1 = (k10_pay6 (k10_pay2 x0 xs0 x1) k10_pay4) := by
  unfold kernelRun10_E
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ### Case F -/

section
variable (c : Dev nD) (i : grid10.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (hc0 : ¬cond10_0 i) (hc1 : ¬cond10_1 i) (hc2 : cond10_2 i)
    (x0 : Vec F S1024x512 .bf16) (x1 : Vec F S1024x512 .bf16) (xs0 : Vec F S1024x1024 .f32) (xs1 : Vec F S1x1024 .f32) (xs2 : Vec F S1x1024 .f32)

theorem cov10_F_2 (y : S1024x1024.Idx) : ∃ pc ∈ (kernelRun10_F c i arg3 harg3 arg4 harg4 arg5 harg5 arg6 harg6 arg7 harg7 arg8 harg8 arg9 harg9 arg10 harg10 hc0 hc1 hc2 x0 x1 xs0 xs1 xs2).1, y ∈ pc.1.set :=
  View.cover_of_tiledL _ S1024x1024.size (by sl_kernel_rfl) y
theorem val10_F_2 : View.canon (kernelRun10_F c i arg3 harg3 arg4 harg4 arg5 harg5 arg6 harg6 arg7 harg7 arg8 harg8 arg9 harg9 arg10 harg10 hc0 hc1 hc2 x0 x1 xs0 xs1 xs2).1 = (k10_pay2 x0 xs0 x1) := by
  unfold kernelRun10_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov10_F_3 (y : S1x1024.Idx) : ∃ pc ∈ (kernelRun10_F c i arg3 harg3 arg4 harg4 arg5 harg5 arg6 harg6 arg7 harg7 arg8 harg8 arg9 harg9 arg10 harg10 hc0 hc1 hc2 x0 x1 xs0 xs1 xs2).2.1, y ∈ pc.1.set :=
  View.cover_of_tiledL _ S1x1024.size (by sl_kernel_rfl) y
theorem val10_F_3 : View.canon (kernelRun10_F c i arg3 harg3 arg4 harg4 arg5 harg5 arg6 harg6 arg7 harg7 arg8 harg8 arg9 harg9 arg10 harg10 hc0 hc1 hc2 x0 x1 xs0 xs1 xs2).2.1 = (k10_pay7 (k10_pay5 (k10_pay2 x0 xs0 x1) xs1)) := by
  unfold kernelRun10_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov10_F_4 (y : S1x1024.Idx) : ∃ pc ∈ (kernelRun10_F c i arg3 harg3 arg4 harg4 arg5 harg5 arg6 harg6 arg7 harg7 arg8 harg8 arg9 harg9 arg10 harg10 hc0 hc1 hc2 x0 x1 xs0 xs1 xs2).2.2.1, y ∈ pc.1.set :=
  View.cover_of_tiledL _ S1x1024.size (by sl_kernel_rfl) y
theorem val10_F_4 : View.canon (kernelRun10_F c i arg3 harg3 arg4 harg4 arg5 harg5 arg6 harg6 arg7 harg7 arg8 harg8 arg9 harg9 arg10 harg10 hc0 hc1 hc2 x0 x1 xs0 xs1 xs2).2.2.1 = (k10_pay8 (k10_pay5 (k10_pay2 x0 xs0 x1) xs1) (k10_pay6 (k10_pay2 x0 xs0 x1) xs2)) := by
  unfold kernelRun10_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov10_F_S0 (y : S1024x1024.Idx) : ∃ pc ∈ (kernelRun10_F c i arg3 harg3 arg4 harg4 arg5 harg5 arg6 harg6 arg7 harg7 arg8 harg8 arg9 harg9 arg10 harg10 hc0 hc1 hc2 x0 x1 xs0 xs1 xs2).2.2.2.1, y ∈ pc.1.set :=
  View.cover_of_tiledL _ S1024x1024.size (by sl_kernel_rfl) y
theorem val10_F_S0 : View.canon (kernelRun10_F c i arg3 harg3 arg4 harg4 arg5 harg5 arg6 harg6 arg7 harg7 arg8 harg8 arg9 harg9 arg10 harg10 hc0 hc1 hc2 x0 x1 xs0 xs1 xs2).2.2.2.1 = (k10_pay2 x0 xs0 x1) := by
  unfold kernelRun10_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov10_F_S1 (y : S1x1024.Idx) : ∃ pc ∈ (kernelRun10_F c i arg3 harg3 arg4 harg4 arg5 harg5 arg6 harg6 arg7 harg7 arg8 harg8 arg9 harg9 arg10 harg10 hc0 hc1 hc2 x0 x1 xs0 xs1 xs2).2.2.2.2.1, y ∈ pc.1.set :=
  View.cover_of_tiledL _ S1x1024.size (by sl_kernel_rfl) y
theorem val10_F_S1 : View.canon (kernelRun10_F c i arg3 harg3 arg4 harg4 arg5 harg5 arg6 harg6 arg7 harg7 arg8 harg8 arg9 harg9 arg10 harg10 hc0 hc1 hc2 x0 x1 xs0 xs1 xs2).2.2.2.2.1 = (k10_pay5 (k10_pay2 x0 xs0 x1) xs1) := by
  unfold kernelRun10_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]

theorem cov10_F_S2 (y : S1x1024.Idx) : ∃ pc ∈ (kernelRun10_F c i arg3 harg3 arg4 harg4 arg5 harg5 arg6 harg6 arg7 harg7 arg8 harg8 arg9 harg9 arg10 harg10 hc0 hc1 hc2 x0 x1 xs0 xs1 xs2).2.2.2.2.2.1, y ∈ pc.1.set :=
  View.cover_of_tiledL _ S1x1024.size (by sl_kernel_rfl) y
theorem val10_F_S2 : View.canon (kernelRun10_F c i arg3 harg3 arg4 harg4 arg5 harg5 arg6 harg6 arg7 harg7 arg8 harg8 arg9 harg9 arg10 harg10 hc0 hc1 hc2 x0 x1 xs0 xs1 xs2).2.2.2.2.2.1 = (k10_pay6 (k10_pay2 x0 xs0 x1) xs2) := by
  unfold kernelRun10_F
  dsimp only
  sl_unfold_words
  simp only [View.canon_unit_zero (S := S1024x1024) LibUnitPieces.hz2, View.canon_unit_zero (S := S1x1024) LibUnitPieces.hz2, View.canon_cons_unit_zero (S := S1024x1024) LibUnitPieces.hz2, View.canon_cons_unit_zero (S := S1x1024) LibUnitPieces.hz2, View.readCov_unit_zero (S := S1024x1024) _ LibUnitPieces.hz2, View.readCov_unit_zero (S := S1x1024) _ LibUnitPieces.hz2, LibUnitPieces.readCov_cons_unit_zero (S := S1024x1024) _ LibUnitPieces.hz2, LibUnitPieces.readCov_cons_unit_zero (S := S1x1024) _ LibUnitPieces.hz2, View.readAt_eq_ld, Memref.IsWhole.read_unread, View.ld_unit_zero (S := S1024x512) LibUnitPieces.hz2, View.ld_unit_zero (S := S1024x1024) LibUnitPieces.hz2, View.ld_unit_zero (S := S1x1024) LibUnitPieces.hz2]
end

/-! ## One grid point of the closed-form state, case by case -/

theorem step10_A (n : ℕ) (h0 : n % 8 = 0) (h1 : n / 8 % 4 = 0) (h2 : ¬n % 8 = 7) (x0 : Vec F S1024x512 .bf16) (x1 : Vec F S1024x512 .bf16) (s : St10 F) :
    step10 n x0 x1 s = ⟨(k10_pay2 x0 k10_pay1 x1), k10_pay3, k10_pay4⟩ := by
  simp only [step10, if_pos h0, if_pos h1, if_neg h2]
theorem step10_B (n : ℕ) (h0 : n % 8 = 0) (h1 : ¬n / 8 % 4 = 0) (h2 : ¬n % 8 = 7) (x0 : Vec F S1024x512 .bf16) (x1 : Vec F S1024x512 .bf16) (s : St10 F) :
    step10 n x0 x1 s = ⟨(k10_pay2 x0 k10_pay1 x1), s.sum, s.sq⟩ := by
  simp only [step10, if_pos h0, if_neg h1, if_neg h2]
theorem step10_C (n : ℕ) (h0 : ¬n % 8 = 0) (h1 : n / 8 % 4 = 0) (h2 : ¬n % 8 = 7) (x0 : Vec F S1024x512 .bf16) (x1 : Vec F S1024x512 .bf16) (s : St10 F) :
    step10 n x0 x1 s = ⟨(k10_pay2 x0 s.acc x1), k10_pay3, k10_pay4⟩ := by
  simp only [step10, if_neg h0, if_pos h1, if_neg h2]
theorem step10_D (n : ℕ) (h0 : ¬n % 8 = 0) (h1 : ¬n / 8 % 4 = 0) (h2 : ¬n % 8 = 7) (x0 : Vec F S1024x512 .bf16) (x1 : Vec F S1024x512 .bf16) (s : St10 F) :
    step10 n x0 x1 s = ⟨(k10_pay2 x0 s.acc x1), s.sum, s.sq⟩ := by
  simp only [step10, if_neg h0, if_neg h1, if_neg h2]
theorem step10_E (n : ℕ) (h0 : ¬n % 8 = 0) (h1 : n / 8 % 4 = 0) (h2 : n % 8 = 7) (x0 : Vec F S1024x512 .bf16) (x1 : Vec F S1024x512 .bf16) (s : St10 F) :
    step10 n x0 x1 s = ⟨(k10_pay2 x0 s.acc x1), k10_pay5 (k10_pay2 x0 s.acc x1) k10_pay3, k10_pay6 (k10_pay2 x0 s.acc x1) k10_pay4⟩ := by
  simp only [step10, if_neg h0, if_pos h1, if_pos h2]
theorem step10_F (n : ℕ) (h0 : ¬n % 8 = 0) (h1 : ¬n / 8 % 4 = 0) (h2 : n % 8 = 7) (x0 : Vec F S1024x512 .bf16) (x1 : Vec F S1024x512 .bf16) (s : St10 F) :
    step10 n x0 x1 s = ⟨(k10_pay2 x0 s.acc x1), k10_pay5 (k10_pay2 x0 s.acc x1) s.sum, k10_pay6 (k10_pay2 x0 s.acc x1) s.sq⟩ := by
  simp only [step10, if_neg h0, if_neg h1, if_pos h2]

section
variable (V : (c : Dev nD) → (b : Ref sig .tc) → Buf (Elt F) ((c : Thread nD τ).loc b))

theorem st10_zero (c : Dev nD) (t : Fin cfg10.N) (hz : t.val = 0) :
    st10 V c t.val t.isLt = step10 0 (iblk10 V c 0 t) (iblk10 V c 1 t) ⟨k10_pay1, k10_pay3, k10_pay4⟩ := by
  obtain ⟨n, hn⟩ := t
  cases n with
  | zero => rfl
  | succ n => exact absurd hz (Nat.succ_ne_zero n)
theorem st10_pos (c : Dev nD) (t : Fin cfg10.N) (hz : t.val ≠ 0) (hlt : t.val - 1 < cfg10.N) :
    st10 V c t.val t.isLt = step10 t.val (iblk10 V c 0 t) (iblk10 V c 1 t) (st10 V c (t.val - 1) hlt) := by
  obtain ⟨n, hn⟩ := t
  cases n with
  | zero => exact absurd rfl hz
  | succ n => rfl

/-! ## The body obligation -/

def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d))
    ∗ (∃ d, owns (c : Thread nD τ) (ms10_4 t) fullShare ((dat10 V c).before 4 t d)))

def bodyPost10 (c : Dev nD) (t : Fin cfg10.N) : sProp 𝕄 :=
  iprop((dat10 V c).Φ t.succ ∗ (dat10 V c).owesAt () t.succ
    ∗ (dat10 V c).leavesExact 0 t ∗ (dat10 V c).leavesExact 1 t
    ∗ (dat10 V c).leavesExact 2 t ∗ (dat10 V c).leavesExact 3 t ∗ (dat10 V c).leavesExact 4 t)

set_option maxHeartbeats 8000000 in
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl]
  rw [show (dat10 V c).Φ t.succ = PhiS10 V c (t.val + 1) t.isLt from rfl, PhiS10_succ]
  rw [show (dat10 V c).leavesExact 0 t = owns (c : Thread nD τ) (ms10_0 t) fullShare ((dat10 V c).after 0 t) from by
    unfold Dat.leavesExact; rw [liveAt10_0 t], after10_0]
  rw [show (dat10 V c).leavesExact 1 t = owns (c : Thread nD τ) (ms10_1 t) fullShare ((dat10 V c).after 1 t) from by
    unfold Dat.leavesExact; rw [liveAt10_1 t], after10_1]
  have hN : t.val < 32 := lt_of_lt_of_eq t.isLt (show cfg10.N = 32 from N_10)
  by_cases h0 : t.val % 8 = 0
  · have h2 : ¬t.val % 8 = 7 := by omega
    by_cases h1 : t.val / 8 % 4 = 0
    · by_cases hz : t.val = 0
      · rw [Dat.leavesExact_idle (dat10 V c) 2 t (idleAt10_2 t (fun h => h2 ((hcond10_2 t).mp h))) (noFlush10_2 t (fun h => h2 ((hcond10_2 t).mp h)))]
        rw [Dat.leavesExact_idle (dat10 V c) 3 t (idleAt10_3 t (fun h => h2 ((hcond10_2 t).mp h))) (noFlush10_3 t (fun h => h2 ((hcond10_2 t).mp h)))]
        rw [Dat.leavesExact_idle (dat10 V c) 4 t (idleAt10_4 t (fun h => h2 ((hcond10_2 t).mp h))) (noFlush10_4 t (fun h => h2 ((hcond10_2 t).mp h)))]
        rw [PhiS10_castSucc V c t, PhiS10_zero V c _ _ hz, PhiA10_eq, st10_zero V c t hz, step10_A _ (by omega) (by omega) (by omega)]
        dsimp only
        iintro ⟨⟨⟨⟨HS0, HS1, HS2⟩, Hr⟩, Hg⟩, Ho, ⟨%d0, H0⟩, ⟨%d1, H1⟩, H2, H3, H4⟩
        iapply ((kernelRun10_A c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) ((hcond10_0 t).mpr h0) ((hcond10_1 t).mpr h1) (fun h => h2 ((hcond10_2 t).mp h)) (iblk10 V c 0 t) (iblk10 V c 1 t) ).2.2.2 Set.univ _)
        isplitl [H0]; · iexact H0
        isplitl [H1]; · iexact H1
        isplitl [HS0]; · iexact HS0
        isplitl [HS1]; · iexact HS1
        isplitl [HS2]; · iexact HS2
        iintro ⟨H0, H1, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov10_A_S0 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) ((hcond10_0 t).mpr h0) ((hcond10_1 t).mpr h1) (fun h => h2 ((hcond10_2 t).mp h)) (iblk10 V c 0 t) (iblk10 V c 1 t) )).trans (val10_A_S0 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) ((hcond10_0 t).mpr h0) ((hcond10_1 t).mpr h1) (fun h => h2 ((hcond10_2 t).mp h)) (iblk10 V c 0 t) (iblk10 V c 1 t) )
              isplitl [HS1]
              · unfold owns; iexists _; isplitr
                swap; · iexact HS1
                ipureintro; exact (View.read_writes_eq_canon _ _ _ (cov10_A_S1 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) ((hcond10_0 t).mpr h0) ((hcond10_1 t).mpr h1) (fun h => h2 ((hcond10_2 t).mp h)) (iblk10 V c 0 t) (iblk10 V c 1 t) )).trans (val10_A_S1 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) ((hcond10_0 t).mpr h0) ((hcond10_1 t).mpr h1) (fun h => h2 ((hcond10_2 t).mp h)) (iblk10 V c 0 t) (iblk10 V c 1 t) )
              · unfold owns; iexists _; isplitr
                swap; · iexact HS2
                ipureintro; exact (View.read_writes_eq_canon _ _ _ (cov10_A_S2 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) ((hcond10_0 t).mpr h0) ((hcond10_1 t).mpr h1) (fun h => h2 ((hcond10_2 t).mp h)) (iblk10 V c 0 t) (iblk10 V c 1 t) )).trans (val10_A_S2 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) ((hcond10_0 t).mpr h0) ((hcond10_1 t).mpr h1) (fun h => h2 ((hcond10_2 t).mp h)) (iblk10 V c 0 t) (iblk10 V c 1 t) )
            · iexact Hr
          · iexact Hg
        isplitl [Ho]; · iexact Ho
        isplitl [H0]; · iexact H0
        isplitl [H1]; · iexact H1
        isplitl [H2]; · iexact H2
        isplitl [H3]; · iexact H3
        iexact H4
      · rw [Dat.leavesExact_idle (dat10 V c) 2 t (idleAt10_2 t (fun h => h2 ((hcond10_2 t).mp h))) (noFlush10_2 t (fun h => h2 ((hcond10_2 t).mp h)))]
        rw [Dat.leavesExact_idle (dat10 V c) 3 t (idleAt10_3 t (fun h => h2 ((hcond10_2 t).mp h))) (noFlush10_3 t (fun h => h2 ((hcond10_2 t).mp h)))]
        rw [Dat.leavesExact_idle (dat10 V c) 4 t (idleAt10_4 t (fun h => h2 ((hcond10_2 t).mp h))) (noFlush10_4 t (fun h => h2 ((hcond10_2 t).mp h)))]
        have hlt : t.val - 1 < cfg10.N := by omega
        rw [PhiS10_castSucc V c t, PhiS10_pos V c _ _ hz, st10_pos V c t hz hlt, step10_A _ h0 h1 h2]
        dsimp only
        iintro ⟨⟨⟨⟨HS0, HS1, HS2⟩, Hr⟩, Hg⟩, Ho, ⟨%d0, H0⟩, ⟨%d1, H1⟩, H2, H3, H4⟩
        iapply ((kernelRun10_A c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) ((hcond10_0 t).mpr h0) ((hcond10_1 t).mpr h1) (fun h => h2 ((hcond10_2 t).mp h)) (iblk10 V c 0 t) (iblk10 V c 1 t) ).2.2.2 Set.univ _)
        isplitl [H0]; · iexact H0
        isplitl [H1]; · iexact H1
        isplitl [HS0]; · iexists _; iexact HS0
        isplitl [HS1]; · iexists _; iexact HS1
        isplitl [HS2]; · iexists _; iexact HS2
        iintro ⟨H0, H1, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov10_A_S0 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) ((hcond10_0 t).mpr h0) ((hcond10_1 t).mpr h1) (fun h => h2 ((hcond10_2 t).mp h)) (iblk10 V c 0 t) (iblk10 V c 1 t) )).trans (val10_A_S0 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) ((hcond10_0 t).mpr h0) ((hcond10_1 t).mpr h1) (fun h => h2 ((hcond10_2 t).mp h)) (iblk10 V c 0 t) (iblk10 V c 1 t) )
              isplitl [HS1]
              · unfold owns; iexists _; isplitr
                swap; · iexact HS1
                ipureintro; exact (View.read_writes_eq_canon _ _ _ (cov10_A_S1 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) ((hcond10_0 t).mpr h0) ((hcond10_1 t).mpr h1) (fun h => h2 ((hcond10_2 t).mp h)) (iblk10 V c 0 t) (iblk10 V c 1 t) )).trans (val10_A_S1 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) ((hcond10_0 t).mpr h0) ((hcond10_1 t).mpr h1) (fun h => h2 ((hcond10_2 t).mp h)) (iblk10 V c 0 t) (iblk10 V c 1 t) )
              · unfold owns; iexists _; isplitr
                swap; · iexact HS2
                ipureintro; exact (View.read_writes_eq_canon _ _ _ (cov10_A_S2 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) ((hcond10_0 t).mpr h0) ((hcond10_1 t).mpr h1) (fun h => h2 ((hcond10_2 t).mp h)) (iblk10 V c 0 t) (iblk10 V c 1 t) )).trans (val10_A_S2 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) ((hcond10_0 t).mpr h0) ((hcond10_1 t).mpr h1) (fun h => h2 ((hcond10_2 t).mp h)) (iblk10 V c 0 t) (iblk10 V c 1 t) )
            · iexact Hr
          · iexact Hg
        isplitl [Ho]; · iexact Ho
        isplitl [H0]; · iexact H0
        isplitl [H1]; · iexact H1
        isplitl [H2]; · iexact H2
        isplitl [H3]; · iexact H3
        iexact H4
    · have hz : t.val ≠ 0 := by omega
      rw [Dat.leavesExact_idle (dat10 V c) 2 t (idleAt10_2 t (fun h => h2 ((hcond10_2 t).mp h))) (noFlush10_2 t (fun h => h2 ((hcond10_2 t).mp h)))]
      rw [Dat.leavesExact_idle (dat10 V c) 3 t (idleAt10_3 t (fun h => h2 ((hcond10_2 t).mp h))) (noFlush10_3 t (fun h => h2 ((hcond10_2 t).mp h)))]
      rw [Dat.leavesExact_idle (dat10 V c) 4 t (idleAt10_4 t (fun h => h2 ((hcond10_2 t).mp h))) (noFlush10_4 t (fun h => h2 ((hcond10_2 t).mp h)))]
      have hlt : t.val - 1 < cfg10.N := by omega
      rw [PhiS10_castSucc V c t, PhiS10_pos V c _ _ hz, st10_pos V c t hz hlt, step10_B _ h0 h1 h2]
      dsimp only
      iintro ⟨⟨⟨⟨HS0, HS1, HS2⟩, Hr⟩, Hg⟩, Ho, ⟨%d0, H0⟩, ⟨%d1, H1⟩, H2, H3, H4⟩
      iapply ((kernelRun10_B c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) ((hcond10_0 t).mpr h0) (fun h => h1 ((hcond10_1 t).mp h)) (fun h => h2 ((hcond10_2 t).mp h)) (iblk10 V c 0 t) (iblk10 V c 1 t) ).2 Set.univ _)
      isplitl [H0]; · iexact H0
      isplitl [H1]; · iexact H1
      isplitl [HS0]; · iexists _; iexact HS0
      iintro ⟨H0, H1, ⟨%eS0, HS0⟩⟩
      isplitl [HS0 HS1 HS2 Hr Hg]
      · isplitl [HS0 HS1 HS2 Hr]
        · isplitl [HS0 HS1 HS2]
          · isplitl [HS0]
            · unfold owns; iexists _; isplitr
              swap; · iexact HS0
              ipureintro; exact (View.read_writes_eq_canon _ _ _ (cov10_B_S0 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) ((hcond10_0 t).mpr h0) (fun h => h1 ((hcond10_1 t).mp h)) (fun h => h2 ((hcond10_2 t).mp h)) (iblk10 V c 0 t) (iblk10 V c 1 t) )).trans (val10_B_S0 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) ((hcond10_0 t).mpr h0) (fun h => h1 ((hcond10_1 t).mp h)) (fun h => h2 ((hcond10_2 t).mp h)) (iblk10 V c 0 t) (iblk10 V c 1 t) )
            isplitl [HS1]
            · iexact HS1
            · iexact HS2
          · iexact Hr
        · iexact Hg
      isplitl [Ho]; · iexact Ho
      isplitl [H0]; · iexact H0
      isplitl [H1]; · iexact H1
      isplitl [H2]; · iexact H2
      isplitl [H3]; · iexact H3
      iexact H4
  · have hz : t.val ≠ 0 := by omega
    by_cases h1 : t.val / 8 % 4 = 0
    · by_cases h2 : t.val % 8 = 7
      · rw [show (dat10 V c).leavesExact 2 t = owns (c : Thread nD τ) (ms10_2 t) fullShare ((dat10 V c).after 2 t) from by
          unfold Dat.leavesExact; rw [liveAt10_2 t ((hcond10_2 t).mpr h2)], after10_2]
        rw [show (dat10 V c).leavesExact 3 t = owns (c : Thread nD τ) (ms10_3 t) fullShare ((dat10 V c).after 3 t) from by
          unfold Dat.leavesExact; rw [liveAt10_3 t ((hcond10_2 t).mpr h2)], after10_3]
        rw [show (dat10 V c).leavesExact 4 t = owns (c : Thread nD τ) (ms10_4 t) fullShare ((dat10 V c).after 4 t) from by
          unfold Dat.leavesExact; rw [liveAt10_4 t ((hcond10_2 t).mpr h2)], after10_4]
        have hlt : t.val - 1 < cfg10.N := by omega
        rw [PhiS10_castSucc V c t, PhiS10_pos V c _ _ hz, st10_pos V c t hz hlt, step10_E _ h0 h1 h2]
        dsimp only
        iintro ⟨⟨⟨⟨HS0, HS1, HS2⟩, Hr⟩, Hg⟩, Ho, ⟨%d0, H0⟩, ⟨%d1, H1⟩, ⟨%d2, H2⟩, ⟨%d3, H3⟩, ⟨%d4, H4⟩⟩
        iapply ((kernelRun10_E c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) ((hcond10_2 t).mpr h2) (iblk10 V c 0 t) (iblk10 V c 1 t) (st10 V c (t.val - 1) hlt).acc).2.2.2.2.2.2 Set.univ _)
        isplitl [H0]; · iexact H0
        isplitl [H1]; · iexact H1
        isplitl [H2]; · iexists _; iexact H2
        isplitl [H3]; · iexists _; iexact H3
        isplitl [H4]; · iexists _; iexact H4
        isplitl [HS0]; · iexact HS0
        isplitl [HS1]; · iexists _; iexact HS1
        isplitl [HS2]; · iexists _; iexact HS2
        iintro ⟨H0, H1, ⟨%e2, H2⟩, ⟨%e3, H3⟩, ⟨%e4, H4⟩, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov10_E_S0 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) ((hcond10_2 t).mpr h2) (iblk10 V c 0 t) (iblk10 V c 1 t) (st10 V c (t.val - 1) hlt).acc)).trans (val10_E_S0 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) ((hcond10_2 t).mpr h2) (iblk10 V c 0 t) (iblk10 V c 1 t) (st10 V c (t.val - 1) hlt).acc)
              isplitl [HS1]
              · unfold owns; iexists _; isplitr
                swap; · iexact HS1
                ipureintro; exact (View.read_writes_eq_canon _ _ _ (cov10_E_S1 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) ((hcond10_2 t).mpr h2) (iblk10 V c 0 t) (iblk10 V c 1 t) (st10 V c (t.val - 1) hlt).acc)).trans (val10_E_S1 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) ((hcond10_2 t).mpr h2) (iblk10 V c 0 t) (iblk10 V c 1 t) (st10 V c (t.val - 1) hlt).acc)
              · unfold owns; iexists _; isplitr
                swap; · iexact HS2
                ipureintro; exact (View.read_writes_eq_canon _ _ _ (cov10_E_S2 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) ((hcond10_2 t).mpr h2) (iblk10 V c 0 t) (iblk10 V c 1 t) (st10 V c (t.val - 1) hlt).acc)).trans (val10_E_S2 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) ((hcond10_2 t).mpr h2) (iblk10 V c 0 t) (iblk10 V c 1 t) (st10 V c (t.val - 1) hlt).acc)
            · iexact Hr
          · iexact Hg
        isplitl [Ho]; · iexact Ho
        isplitl [H0]; · iexact H0
        isplitl [H1]; · iexact H1
        isplitl [H2]
        · unfold owns; iexists _; isplitr
          swap; · iexact H2
          ipureintro; exact (View.read_writes_eq_canon _ _ _ (cov10_E_2 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) ((hcond10_2 t).mpr h2) (iblk10 V c 0 t) (iblk10 V c 1 t) (st10 V c (t.val - 1) hlt).acc)).trans (val10_E_2 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) ((hcond10_2 t).mpr h2) (iblk10 V c 0 t) (iblk10 V c 1 t) (st10 V c (t.val - 1) hlt).acc)
        isplitl [H3]
        · unfold owns; iexists _; isplitr
          swap; · iexact H3
          ipureintro; exact (View.read_writes_eq_canon _ _ _ (cov10_E_3 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) ((hcond10_2 t).mpr h2) (iblk10 V c 0 t) (iblk10 V c 1 t) (st10 V c (t.val - 1) hlt).acc)).trans (val10_E_3 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) ((hcond10_2 t).mpr h2) (iblk10 V c 0 t) (iblk10 V c 1 t) (st10 V c (t.val - 1) hlt).acc)
        · unfold owns; iexists _; isplitr
          swap; · iexact H4
          ipureintro; exact (View.read_writes_eq_canon _ _ _ (cov10_E_4 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) ((hcond10_2 t).mpr h2) (iblk10 V c 0 t) (iblk10 V c 1 t) (st10 V c (t.val - 1) hlt).acc)).trans (val10_E_4 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) ((hcond10_2 t).mpr h2) (iblk10 V c 0 t) (iblk10 V c 1 t) (st10 V c (t.val - 1) hlt).acc)
      · rw [Dat.leavesExact_idle (dat10 V c) 2 t (idleAt10_2 t (fun h => h2 ((hcond10_2 t).mp h))) (noFlush10_2 t (fun h => h2 ((hcond10_2 t).mp h)))]
        rw [Dat.leavesExact_idle (dat10 V c) 3 t (idleAt10_3 t (fun h => h2 ((hcond10_2 t).mp h))) (noFlush10_3 t (fun h => h2 ((hcond10_2 t).mp h)))]
        rw [Dat.leavesExact_idle (dat10 V c) 4 t (idleAt10_4 t (fun h => h2 ((hcond10_2 t).mp h))) (noFlush10_4 t (fun h => h2 ((hcond10_2 t).mp h)))]
        have hlt : t.val - 1 < cfg10.N := by omega
        rw [PhiS10_castSucc V c t, PhiS10_pos V c _ _ hz, st10_pos V c t hz hlt, step10_C _ h0 h1 h2]
        dsimp only
        iintro ⟨⟨⟨⟨HS0, HS1, HS2⟩, Hr⟩, Hg⟩, Ho, ⟨%d0, H0⟩, ⟨%d1, H1⟩, H2, H3, H4⟩
        iapply ((kernelRun10_C c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) (fun h => h2 ((hcond10_2 t).mp h)) (iblk10 V c 0 t) (iblk10 V c 1 t) (st10 V c (t.val - 1) hlt).acc).2.2.2 Set.univ _)
        isplitl [H0]; · iexact H0
        isplitl [H1]; · iexact H1
        isplitl [HS0]; · iexact HS0
        isplitl [HS1]; · iexists _; iexact HS1
        isplitl [HS2]; · iexists _; iexact HS2
        iintro ⟨H0, H1, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov10_C_S0 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) (fun h => h2 ((hcond10_2 t).mp h)) (iblk10 V c 0 t) (iblk10 V c 1 t) (st10 V c (t.val - 1) hlt).acc)).trans (val10_C_S0 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) (fun h => h2 ((hcond10_2 t).mp h)) (iblk10 V c 0 t) (iblk10 V c 1 t) (st10 V c (t.val - 1) hlt).acc)
              isplitl [HS1]
              · unfold owns; iexists _; isplitr
                swap; · iexact HS1
                ipureintro; exact (View.read_writes_eq_canon _ _ _ (cov10_C_S1 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) (fun h => h2 ((hcond10_2 t).mp h)) (iblk10 V c 0 t) (iblk10 V c 1 t) (st10 V c (t.val - 1) hlt).acc)).trans (val10_C_S1 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) (fun h => h2 ((hcond10_2 t).mp h)) (iblk10 V c 0 t) (iblk10 V c 1 t) (st10 V c (t.val - 1) hlt).acc)
              · unfold owns; iexists _; isplitr
                swap; · iexact HS2
                ipureintro; exact (View.read_writes_eq_canon _ _ _ (cov10_C_S2 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) (fun h => h2 ((hcond10_2 t).mp h)) (iblk10 V c 0 t) (iblk10 V c 1 t) (st10 V c (t.val - 1) hlt).acc)).trans (val10_C_S2 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) ((hcond10_1 t).mpr h1) (fun h => h2 ((hcond10_2 t).mp h)) (iblk10 V c 0 t) (iblk10 V c 1 t) (st10 V c (t.val - 1) hlt).acc)
            · iexact Hr
          · iexact Hg
        isplitl [Ho]; · iexact Ho
        isplitl [H0]; · iexact H0
        isplitl [H1]; · iexact H1
        isplitl [H2]; · iexact H2
        isplitl [H3]; · iexact H3
        iexact H4
    · by_cases h2 : t.val % 8 = 7
      · rw [show (dat10 V c).leavesExact 2 t = owns (c : Thread nD τ) (ms10_2 t) fullShare ((dat10 V c).after 2 t) from by
          unfold Dat.leavesExact; rw [liveAt10_2 t ((hcond10_2 t).mpr h2)], after10_2]
        rw [show (dat10 V c).leavesExact 3 t = owns (c : Thread nD τ) (ms10_3 t) fullShare ((dat10 V c).after 3 t) from by
          unfold Dat.leavesExact; rw [liveAt10_3 t ((hcond10_2 t).mpr h2)], after10_3]
        rw [show (dat10 V c).leavesExact 4 t = owns (c : Thread nD τ) (ms10_4 t) fullShare ((dat10 V c).after 4 t) from by
          unfold Dat.leavesExact; rw [liveAt10_4 t ((hcond10_2 t).mpr h2)], after10_4]
        have hlt : t.val - 1 < cfg10.N := by omega
        rw [PhiS10_castSucc V c t, PhiS10_pos V c _ _ hz, st10_pos V c t hz hlt, step10_F _ h0 h1 h2]
        dsimp only
        iintro ⟨⟨⟨⟨HS0, HS1, HS2⟩, Hr⟩, Hg⟩, Ho, ⟨%d0, H0⟩, ⟨%d1, H1⟩, ⟨%d2, H2⟩, ⟨%d3, H3⟩, ⟨%d4, H4⟩⟩
        iapply ((kernelRun10_F c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) (fun h => h1 ((hcond10_1 t).mp h)) ((hcond10_2 t).mpr h2) (iblk10 V c 0 t) (iblk10 V c 1 t) (st10 V c (t.val - 1) hlt).acc (st10 V c (t.val - 1) hlt).sum (st10 V c (t.val - 1) hlt).sq).2.2.2.2.2.2 Set.univ _)
        isplitl [H0]; · iexact H0
        isplitl [H1]; · iexact H1
        isplitl [H2]; · iexists _; iexact H2
        isplitl [H3]; · iexists _; iexact H3
        isplitl [H4]; · iexists _; iexact H4
        isplitl [HS0]; · iexact HS0
        isplitl [HS1]; · iexact HS1
        isplitl [HS2]; · iexact HS2
        iintro ⟨H0, H1, ⟨%e2, H2⟩, ⟨%e3, H3⟩, ⟨%e4, H4⟩, ⟨%eS0, HS0⟩, ⟨%eS1, HS1⟩, ⟨%eS2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov10_F_S0 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) (fun h => h1 ((hcond10_1 t).mp h)) ((hcond10_2 t).mpr h2) (iblk10 V c 0 t) (iblk10 V c 1 t) (st10 V c (t.val - 1) hlt).acc (st10 V c (t.val - 1) hlt).sum (st10 V c (t.val - 1) hlt).sq)).trans (val10_F_S0 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) (fun h => h1 ((hcond10_1 t).mp h)) ((hcond10_2 t).mpr h2) (iblk10 V c 0 t) (iblk10 V c 1 t) (st10 V c (t.val - 1) hlt).acc (st10 V c (t.val - 1) hlt).sum (st10 V c (t.val - 1) hlt).sq)
              isplitl [HS1]
              · unfold owns; iexists _; isplitr
                swap; · iexact HS1
                ipureintro; exact (View.read_writes_eq_canon _ _ _ (cov10_F_S1 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) (fun h => h1 ((hcond10_1 t).mp h)) ((hcond10_2 t).mpr h2) (iblk10 V c 0 t) (iblk10 V c 1 t) (st10 V c (t.val - 1) hlt).acc (st10 V c (t.val - 1) hlt).sum (st10 V c (t.val - 1) hlt).sq)).trans (val10_F_S1 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) (fun h => h1 ((hcond10_1 t).mp h)) ((hcond10_2 t).mpr h2) (iblk10 V c 0 t) (iblk10 V c 1 t) (st10 V c (t.val - 1) hlt).acc (st10 V c (t.val - 1) hlt).sum (st10 V c (t.val - 1) hlt).sq)
              · unfold owns; iexists _; isplitr
                swap; · iexact HS2
                ipureintro; exact (View.read_writes_eq_canon _ _ _ (cov10_F_S2 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) (fun h => h1 ((hcond10_1 t).mp h)) ((hcond10_2 t).mpr h2) (iblk10 V c 0 t) (iblk10 V c 1 t) (st10 V c (t.val - 1) hlt).acc (st10 V c (t.val - 1) hlt).sum (st10 V c (t.val - 1) hlt).sq)).trans (val10_F_S2 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) (fun h => h1 ((hcond10_1 t).mp h)) ((hcond10_2 t).mpr h2) (iblk10 V c 0 t) (iblk10 V c 1 t) (st10 V c (t.val - 1) hlt).acc (st10 V c (t.val - 1) hlt).sum (st10 V c (t.val - 1) hlt).sq)
            · iexact Hr
          · iexact Hg
        isplitl [Ho]; · iexact Ho
        isplitl [H0]; · iexact H0
        isplitl [H1]; · iexact H1
        isplitl [H2]
        · unfold owns; iexists _; isplitr
          swap; · iexact H2
          ipureintro; exact (View.read_writes_eq_canon _ _ _ (cov10_F_2 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) (fun h => h1 ((hcond10_1 t).mp h)) ((hcond10_2 t).mpr h2) (iblk10 V c 0 t) (iblk10 V c 1 t) (st10 V c (t.val - 1) hlt).acc (st10 V c (t.val - 1) hlt).sum (st10 V c (t.val - 1) hlt).sq)).trans (val10_F_2 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) (fun h => h1 ((hcond10_1 t).mp h)) ((hcond10_2 t).mpr h2) (iblk10 V c 0 t) (iblk10 V c 1 t) (st10 V c (t.val - 1) hlt).acc (st10 V c (t.val - 1) hlt).sum (st10 V c (t.val - 1) hlt).sq)
        isplitl [H3]
        · unfold owns; iexists _; isplitr
          swap; · iexact H3
          ipureintro; exact (View.read_writes_eq_canon _ _ _ (cov10_F_3 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) (fun h => h1 ((hcond10_1 t).mp h)) ((hcond10_2 t).mpr h2) (iblk10 V c 0 t) (iblk10 V c 1 t) (st10 V c (t.val - 1) hlt).acc (st10 V c (t.val - 1) hlt).sum (st10 V c (t.val - 1) hlt).sq)).trans (val10_F_3 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) (fun h => h1 ((hcond10_1 t).mp h)) ((hcond10_2 t).mpr h2) (iblk10 V c 0 t) (iblk10 V c 1 t) (st10 V c (t.val - 1) hlt).acc (st10 V c (t.val - 1) hlt).sum (st10 V c (t.val - 1) hlt).sq)
        · unfold owns; iexists _; isplitr
          swap; · iexact H4
          ipureintro; exact (View.read_writes_eq_canon _ _ _ (cov10_F_4 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) (fun h => h1 ((hcond10_1 t).mp h)) ((hcond10_2 t).mpr h2) (iblk10 V c 0 t) (iblk10 V c 1 t) (st10 V c (t.val - 1) hlt).acc (st10 V c (t.val - 1) hlt).sum (st10 V c (t.val - 1) hlt).sq)).trans (val10_F_4 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) (fun h => h1 ((hcond10_1 t).mp h)) ((hcond10_2 t).mpr h2) (iblk10 V c 0 t) (iblk10 V c 1 t) (st10 V c (t.val - 1) hlt).acc (st10 V c (t.val - 1) hlt).sum (st10 V c (t.val - 1) hlt).sq)
      · rw [Dat.leavesExact_idle (dat10 V c) 2 t (idleAt10_2 t (fun h => h2 ((hcond10_2 t).mp h))) (noFlush10_2 t (fun h => h2 ((hcond10_2 t).mp h)))]
        rw [Dat.leavesExact_idle (dat10 V c) 3 t (idleAt10_3 t (fun h => h2 ((hcond10_2 t).mp h))) (noFlush10_3 t (fun h => h2 ((hcond10_2 t).mp h)))]
        rw [Dat.leavesExact_idle (dat10 V c) 4 t (idleAt10_4 t (fun h => h2 ((hcond10_2 t).mp h))) (noFlush10_4 t (fun h => h2 ((hcond10_2 t).mp h)))]
        have hlt : t.val - 1 < cfg10.N := by omega
        rw [PhiS10_castSucc V c t, PhiS10_pos V c _ _ hz, st10_pos V c t hz hlt, step10_D _ h0 h1 h2]
        dsimp only
        iintro ⟨⟨⟨⟨HS0, HS1, HS2⟩, Hr⟩, Hg⟩, Ho, ⟨%d0, H0⟩, ⟨%d1, H1⟩, H2, H3, H4⟩
        iapply ((kernelRun10_D c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) (fun h => h1 ((hcond10_1 t).mp h)) (fun h => h2 ((hcond10_2 t).mp h)) (iblk10 V c 0 t) (iblk10 V c 1 t) (st10 V c (t.val - 1) hlt).acc).2 Set.univ _)
        isplitl [H0]; · iexact H0
        isplitl [H1]; · iexact H1
        isplitl [HS0]; · iexact HS0
        iintro ⟨H0, H1, ⟨%eS0, HS0⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact (View.read_writes_eq_canon _ _ _ (cov10_D_S0 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) (fun h => h1 ((hcond10_1 t).mp h)) (fun h => h2 ((hcond10_2 t).mp h)) (iblk10 V c 0 t) (iblk10 V c 1 t) (st10 V c (t.val - 1) hlt).acc)).trans (val10_D_S0 c (grid10.coords t) (ms10_0 t) (hs10_0 t) (ms10_1 t) (hs10_1 t) (ms10_2 t) (hs10_2 t) (ms10_3 t) (hs10_3 t) (ms10_4 t) (hs10_4 t) scM10_0 (Memref.isWhole_whole _) scM10_1 (Memref.isWhole_whole _) scM10_2 (Memref.isWhole_whole _) (fun h => h0 ((hcond10_0 t).mp h)) (fun h => h1 ((hcond10_1 t).mp h)) (fun h => h2 ((hcond10_2 t).mp h)) (iblk10 V c 0 t) (iblk10 V c 1 t) (st10 V c (t.val - 1) hlt).acc)
              isplitl [HS1]
              · iexact HS1
              · iexact HS2
            · iexact Hr
          · iexact Hg
        isplitl [Ho]; · iexact Ho
        isplitl [H0]; · iexact H0
        isplitl [H1]; · iexact H1
        isplitl [H2]; · iexact H2
        isplitl [H3]; · iexact H3
        iexact H4

theorem body_obligation10 (c : Dev nD) : BodyObligation (dat10 (F := F) V c) (defs₀ (F := F)) Variants.none () Set.univ := fun t => by
  rw [bigSep_W10, bigSep_W10]
  exact sound_body10 V c t

end

end Cert.Kernel.Hand

end
-- ==== Proof.KI.Value0.lean ====
import proofs.«157460_j63591285784858_2_alg».proof.Proof.KI.Region0
import proofs.«157460_j63591285784858_2_alg».proof.Proof.LibSignSelect
import Idealize.ShloMosaic.Lib.Pipeline.Value

/-! # Region 0 at the exact values: the result array is the sign of the weight array, entry by entry

Point `t` of the grid stages rows `256·t … 256·t + 255` of the 4096×2048 weight array, and writes back the
same rows of the result.  The body's result at an entry of the block is the sign of the input block's entry,
so what point `t` writes back is block `t` of the entrywise sign of the weights; the 16 row blocks tile the
array (row `r` lies in block `r / 256`), so the array ends as the entrywise sign of the weights. -/

noncomputable section

namespace Cert.KernelIdeal.Hand

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The offsets of the body's one rectangle are all zero. -/
theorem zeroOffsets0 : (![0, 0] : Fin 2 → Nat) = fun _ => 0 := funext fun a => by fin_cases a <;> rfl

/-- The entrywise sign of a 4096×2048 array (the result's format change is the identity at the exact values). -/
def signOf0 (A : S4096x2048.Idx → Elt Ideal .f32) : S4096x2048.Idx → Elt Ideal .bf16 := fun i => Ideal.sign (A i)

theorem signOf0_apply (A : S4096x2048.Idx → Elt Ideal .f32) (i : S4096x2048.Idx) : signOf0 A i = Ideal.sign (A i) := rfl

/-- The body's payload at an entry: the sign of the loaded block's entry. -/
theorem pay0_apply (x : Vec Ideal S256x2048 .f32) (j : S256x2048.Idx) : k0_pay1 x j = Ideal.sign (x j) := by
  unfold k0_pay1
  exact Cert.LibSignSelect.signSelect_truncf_apply x j _

/-- The block indices, decided over the grid: both windows are at row block `t`, column block 0. -/
theorem blockIndex0 : ∀ t : Fin cfg0.N, win0_0.index t (0 : Fin 2) = t.val
    ∧ win0_0.index t (1 : Fin 2) = 0
    ∧ win0_1.index t (0 : Fin 2) = t.val
    ∧ win0_1.index t (1 : Fin 2) = 0 :=
  (by decide +kernel : ∀ t : Fin grid0.N, _)

/-- What point `t` writes back is block `t` of the entrywise sign of the weights as the region finds them. -/
theorem flushed0_eq (c : Dev nD) (t : Fin cfg0.N) :
    (dat0 V c).flushed 1 t = ((cfg0.win 1).blk t).view.read (Elt Ideal) (signOf0 (V c main_arg1)) := by
  show (cfg0.win 1).cut (grid0.coords t) ((dat0 V c).after 1 t) = _
  rw [after0_1]
  unfold out0_1
  rw [View.canon_unit_zero zeroOffsets0]
  simp only [View.ld_unit_zero (S := S256x2048) zeroOffsets0]
  obtain ⟨e0, e1, e2, e3⟩ := blockIndex0 t
  funext j
  refine (pay0_apply _ j).trans ?_
  show Ideal.sign (V c main_arg1 (((cfg0.win 0).blk t).view.emb j)) = Ideal.sign (V c main_arg1 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 256 + 1 * (j 0).val = win0_1.index t (0 : Fin 2) * 256 + 1 * (j 0).val; omega
    | ⟨1, _⟩ => show win0_0.index t (1 : Fin 2) * 2048 + 1 * (j 1).val = win0_1.index t (1 : Fin 2) * 2048 + 1 * (j 1).val; omega
  rw [h0]

/-- An index of the array is in point `t`'s block iff each coordinate is in the block's range on its axis. -/
theorem memBlock0 (t : Fin cfg0.N) (i : S4096x2048.Idx) :
    i ∈ ((cfg0.win 1).blk t).view.set ↔ ∀ a : Fin 2, win0_1.index t a * S256x2048.size a ≤ (i a).val ∧ (i a).val < win0_1.index t a * S256x2048.size a + S256x2048.size a := by
  show i ∈ ((View.whole main_v0).slice (win0_1.rect t)).set ↔ _
  rw [View.set_slice_whole, Rect.mem_set_unit]
  exact Iff.rfl

/-- Every index of the result is in some point's block: row `r` is in block `r / 256`. -/
theorem covered0 (i : S4096x2048.Idx) : ∃ t : Fin cfg0.N, (cfg0.win 1).flush t = true ∧ i ∈ ((cfg0.win 1).blk t).view.set := by
  have hi0 : (i 0).val < 4096 := (i 0).isLt
  have hi1 : (i 1).val < 2048 := (i 1).isLt
  have hN : grid0.N = 16 := N_0
  have hlt : (i 0).val / 256 < grid0.N := by omega
  obtain ⟨e0, e1, e2, e3⟩ := blockIndex0 ⟨(i 0).val / 256, hlt⟩
  have e2' : win0_1.index ⟨(i 0).val / 256, hlt⟩ (0 : Fin 2) = (i 0).val / 256 := e2
  refine ⟨⟨(i 0).val / 256, hlt⟩, flush0_1 _, ?_⟩
  rw [memBlock0]
  intro a
  match a with
  | ⟨0, _⟩ => show win0_1.index ⟨(i 0).val / 256, hlt⟩ (0 : Fin 2) * 256 ≤ (i 0).val ∧ (i 0).val < win0_1.index ⟨(i 0).val / 256, hlt⟩ (0 : Fin 2) * 256 + 256; omega
  | ⟨1, _⟩ => show win0_1.index ⟨(i 0).val / 256, hlt⟩ (1 : Fin 2) * 2048 ≤ (i 1).val ∧ (i 1).val < win0_1.index ⟨(i 0).val / 256, hlt⟩ (1 : Fin 2) * 2048 + 2048; omega

/-- The result array after the region: the entrywise sign of the weight array as the region finds it. -/
theorem final0 (c : Dev nD) : (dat0 V c).arrAt 1 cfg0.N = signOf0 (V c (Pipeline.arrRef spec0 0)) :=
  (dat0 V c).arrAt_eq_of_cover 1 (signOf0 (V c main_arg1)) (fun t _ => flushed0_eq V c t) covered0

end Cert.KernelIdeal.Hand

end
-- ==== Proof.KI.R1Pay.lean ====
/-
  The payloads of the matrix-product-with-statistics body, each read at one element of its result, at the ideal
  float values: the zero blocks are zero; the accumulating step adds to the accumulator at `(r, q)` the contraction
  of row `r` of the first block with row `q` of the second over their 512 columns; the two statistic steps add to a
  row at `(0, q)` the sum over the 1024 rows of column `q` of the accumulator, or of its squares; the mean scales
  by the word `0x39800000`; the variance is `max (sq · c − (sum · c)²) 0` with the same word `c`.
-/
import proofs.«157460_j63591285784858_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.ValueIdx
open scoped BigOperators

/-! ## The zero blocks -/

theorem k1_pay1_apply (j : S1024x1024.Idx) : k1_pay1 (F := Ideal) j = 0 := by
  unfold k1_pay1
  show shapeCast S1024x1024 (broadcast S1024x1024 (Scalar.ofBits (F := Ideal) .f32 0x00000000#32)) _ j = 0
  rw [shapeCast_self]
  exact Ideal.ofBits_zero_f32

theorem k1_pay3_apply (j : S1x1024.Idx) : k1_pay3 (F := Ideal) j = 0 := by
  unfold k1_pay3
  show shapeCast S1x1024 (broadcast S1x1024 (Scalar.ofBits (F := Ideal) .f32 0x00000000#32)) _ j = 0
  rw [shapeCast_self]
  exact Ideal.ofBits_zero_f32

theorem k1_pay4_apply (j : S1x1024.Idx) : k1_pay4 (F := Ideal) j = 0 := by
  unfold k1_pay4
  show shapeCast S1x1024 (broadcast S1x1024 (Scalar.ofBits (F := Ideal) .f32 0x00000000#32)) _ j = 0
  rw [shapeCast_self]
  exact Ideal.ofBits_zero_f32

/-! ## The accumulating product -/

local notation "D1" => dot_S1024x512_S1024x512_S1024x1024_1_1_0_0_n_n

theorem lhs_D1_0 (i : S1024x1024.Idx) (q : (dot_S1024x512_S1024x512_S1024x1024_1_1_0_0_n_n).contr.Idx) :
    ((dot_S1024x512_S1024x512_S1024x1024_1_1_0_0_n_n).lhsIdx i q 0).val = (i 0).val := by
  unfold DotDims.lhsIdx
  rw [dif_neg (show ¬(0 : Fin S1024x512.rank) ∈ (dot_S1024x512_S1024x512_S1024x1024_1_1_0_0_n_n).lhsBatch by decide),
    dif_pos (show (0 : Fin S1024x512.rank) ∈ (dot_S1024x512_S1024x512_S1024x1024_1_1_0_0_n_n).lhsNonContracting by decide)]
  rfl
theorem lhs_D1_1 (i : S1024x1024.Idx) (q : (dot_S1024x512_S1024x512_S1024x1024_1_1_0_0_n_n).contr.Idx) :
    ((dot_S1024x512_S1024x512_S1024x1024_1_1_0_0_n_n).lhsIdx i q 1).val = (q ⟨0, by decide⟩).val :=
  (dot_S1024x512_S1024x512_S1024x1024_1_1_0_0_n_n).lhsIdx_val_of_single rfl i q
theorem rhs_D1_0 (i : S1024x1024.Idx) (q : (dot_S1024x512_S1024x512_S1024x1024_1_1_0_0_n_n).contr.Idx) :
    ((dot_S1024x512_S1024x512_S1024x1024_1_1_0_0_n_n).rhsIdx i q 0).val = (i 1).val := by
  unfold DotDims.rhsIdx
  rw [dif_neg (show ¬(0 : Fin S1024x512.rank) ∈ (dot_S1024x512_S1024x512_S1024x1024_1_1_0_0_n_n).rhsBatch by decide),
    dif_pos (show (0 : Fin S1024x512.rank) ∈ (dot_S1024x512_S1024x512_S1024x1024_1_1_0_0_n_n).rhsNonContracting by decide)]
  rfl
theorem rhs_D1_1 (i : S1024x1024.Idx) (q : (dot_S1024x512_S1024x512_S1024x1024_1_1_0_0_n_n).contr.Idx) :
    ((dot_S1024x512_S1024x512_S1024x1024_1_1_0_0_n_n).rhsIdx i q 1).val = (q ⟨0, by decide⟩).val :=
  (dot_S1024x512_S1024x512_S1024x1024_1_1_0_0_n_n).rhsIdx_val_of_single rfl i q

/-- The block product into a zero accumulator, at `(r, q)`: row `r` of the left block against row `q` of the right. -/
theorem matmul_D1_apply (x0 : FVec Ideal S1024x512 .bf16) (x1 : FVec Ideal S1024x512 .bf16) (r q : Fin 1024) :
    matmul dot_S1024x512_S1024x512_S1024x1024_1_1_0_0_n_n none x0 x1 (constant (F := Ideal) S1024x1024 .f32 0x00000000#32) (ix2 r q)
      = ∑ p : Fin 512, x0 (ix2 r p) * x1 (ix2 q p) := by
  refine (Ideal.matmul_constant_zero_apply dot_S1024x512_S1024x512_S1024x1024_1_1_0_0_n_n none x0 x1 (ix2 r q)).trans ?_
  rw [← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : (dot_S1024x512_S1024x512_S1024x1024_1_1_0_0_n_n).lhsIdx (ix2 r q)
      ((contrEquiv1 dot_S1024x512_S1024x512_S1024x1024_1_1_0_0_n_n 512 rfl rfl).symm k) = ix2 r k := funext fun a => Fin.ext (by
    match a with
    | ⟨0, _⟩ => exact lhs_D1_0 _ _
    | ⟨1, _⟩ => exact (lhs_D1_1 _ _).trans hk)
  have er : (dot_S1024x512_S1024x512_S1024x1024_1_1_0_0_n_n).rhsIdx (ix2 r q)
      ((contrEquiv1 dot_S1024x512_S1024x512_S1024x1024_1_1_0_0_n_n 512 rfl rfl).symm k) = ix2 q k := funext fun a => Fin.ext (by
    match a with
    | ⟨0, _⟩ => exact rhs_D1_0 _ _
    | ⟨1, _⟩ => exact (rhs_D1_1 _ _).trans hk)
  rw [el, er]

theorem k1_pay2_apply (x0 : FVec Ideal S1024x512 .f32) (acc : FVec Ideal S1024x1024 .f32) (x1 : FVec Ideal S1024x512 .bf16)
    (r q : Fin 1024) :
    k1_pay2 (F := Ideal) x0 acc x1 (ix2 r q) = acc (ix2 r q) + ∑ p : Fin 512, x0 (ix2 r p) * x1 (ix2 q p) := by
  unfold k1_pay2
  show shapeCast S1024x1024 (addf acc (matmul dot_S1024x512_S1024x512_S1024x1024_1_1_0_0_n_n none
    (truncf .bf16 x0 _) (shapeCast S1024x512 x1 _) (constant (F := Ideal) S1024x1024 .f32 0x00000000#32))) _ (ix2 r q) = _
  rw [shapeCast_self, shapeCast_self]
  exact congrArg (acc (ix2 r q) + ·) (matmul_D1_apply _ x1 r q)

/-! ## The column sums -/

theorem lift_ix1 (h : S1024x1024.Reduces [0] S1024) (q : Fin 1024) (k : Fin 1024) :
    h.lift (ix1 q) k = ix2 k q := funext fun a => Fin.ext (by
  match a with
  | ⟨0, _⟩ => rfl
  | ⟨1, _⟩ => rfl)

/-- A sum over the rows of a `[1024, 1024]` vector, reshaped to a row, at `(0, q)`. -/
theorem colsum1024_apply (v : FVec Ideal S1024x1024 .f32) (h : S1024x1024.Reduces [0] S1024) (hφ : FKind.Formats .f32)
    (hacc : (0x00000000#32 : BitVec 32) = FKind.add.neutral .f32 hφ) (hc : S1024.ShapeCasts S1x1024) (z : Fin 1) (q : Fin 1024) :
    shapeCast S1x1024 (multiReduction (F := Ideal) .add [0] S1024 v 0x00000000#32 h hφ hacc) hc (ix2 z q)
      = ∑ r : Fin 1024, v (ix2 r q) := by
  refine (shapeCast_addUnit_apply ![1024] _ hc (ix2 z q)).trans ?_
  have e : (fun a : Fin 1 => (ix2 z q : S1x1024.Idx) a.succ) = ix1 q := funext fun a => by
    match a with
    | ⟨0, _⟩ => rfl
  rw [e]
  refine (Ideal.multiReduction_add_single v 0x00000000#32 h hφ hacc (ix1 q)).trans ?_
  exact Finset.sum_congr rfl fun k _ => congrArg v (lift_ix1 h q k)

theorem k1_pay5_apply (acc : FVec Ideal S1024x1024 .f32) (s : FVec Ideal S1x1024 .f32) (z : Fin 1) (q : Fin 1024) :
    k1_pay5 (F := Ideal) acc s (ix2 z q) = s (ix2 z q) + ∑ r : Fin 1024, acc (ix2 r q) := by
  unfold k1_pay5
  show shapeCast S1x1024 (addf s (shapeCast S1x1024 (multiReduction (F := Ideal) .add [0] S1024 acc 0x00000000#32 _ _ _) _)) _ (ix2 z q) = _
  rw [shapeCast_self]
  exact congrArg (s (ix2 z q) + ·) (colsum1024_apply acc _ _ _ _ z q)

theorem k1_pay6_apply (acc : FVec Ideal S1024x1024 .f32) (s : FVec Ideal S1x1024 .f32) (z : Fin 1) (q : Fin 1024) :
    k1_pay6 (F := Ideal) acc s (ix2 z q) = s (ix2 z q) + ∑ r : Fin 1024, acc (ix2 r q) * acc (ix2 r q) := by
  unfold k1_pay6
  show shapeCast S1x1024 (addf s (shapeCast S1x1024 (multiReduction (F := Ideal) .add [0] S1024 (mulf acc acc) 0x00000000#32 _ _ _) _)) _ (ix2 z q) = _
  rw [shapeCast_self]
  exact congrArg (s (ix2 z q) + ·) (colsum1024_apply (mulf acc acc) _ _ _ _ z q)

/-! ## The mean and the variance -/

theorem k1_pay7_apply (s : FVec Ideal S1x1024 .f32) (j : S1x1024.Idx) :
    k1_pay7 (F := Ideal) s j = s j * Ideal.ofBits .f32 0x39800000#32 := rfl

theorem k1_pay8_apply (s sq : FVec Ideal S1x1024 .f32) (j : S1x1024.Idx) :
    k1_pay8 (F := Ideal) s sq j
      = max (sq j * Ideal.ofBits .f32 0x39800000#32
          - s j * Ideal.ofBits .f32 0x39800000#32 * (s j * Ideal.ofBits .f32 0x39800000#32)) (Ideal.ofBits .f32 0x00000000#32) := rfl

end Cert.KernelIdeal.Hand

end
-- ==== Proof.KI.R1Value.lean ====
/-
  The value of the first matrix-product region at the ideal float values.

  The region walks a grid of points `t = 16 j + 4 i + k` (`j` the column block of the product, `i` its row block, `k`
  the reduction step). At a point the two input windows stage rows `1024 i …`, columns `512 k …` of `x` and rows
  `1024 j …`, columns `512 k …` of the binarized weights. The carried state is an accumulator, a row of running column
  sums and a row of running column sums of squares. In closed form, after point `t`:
    • the accumulator at `(r, q)` is the contraction of row `1024 i + r` of `x` with row `1024 j + q` of the weights
      over the first `512 (k + 1)` columns — after the last step `k = 3`, the whole product entry;
    • the running sums at `(0, q)` are the sums of column `1024 j + q` of the product (of its squares) over the row
      blocks completed so far for this `j`: `i` of them, and `i + 1` after a last step.
  Both by induction on the point; sums on the extended reals commute and associate with no finiteness, so nothing is
  assumed of the arrays. The partial sums are stated with the arrays read at natural-number coordinates (`rd`), which
  keeps the index arithmetic free of bounds proofs.
-/
import proofs.«157460_j63591285784858_2_alg».proof.Proof.KI.R1Dat
import proofs.«157460_j63591285784858_2_alg».proof.Proof.KI.R1Spec
import proofs.«157460_j63591285784858_2_alg».proof.Proof.KI.R1Pay
import proofs.«157460_j63591285784858_2_alg».proof.Proof.LibBatchVar
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.MatStats
open scoped BigOperators

/-! ## The index maps and the input blocks -/

/-- The printed index maps, decided over the grid: with `t = 16 j + 4 i + k`, the block indices of the five windows. -/
theorem idx1 : ∀ t : Fin cfg1.N,
    win1_0.index t (0 : Fin 2) = t.val / 4 % 4 ∧ win1_0.index t (1 : Fin 2) = t.val % 4
    ∧ win1_1.index t (0 : Fin 2) = t.val / 16 ∧ win1_1.index t (1 : Fin 2) = t.val % 4
    ∧ win1_2.index t (0 : Fin 2) = t.val / 4 % 4 ∧ win1_2.index t (1 : Fin 2) = t.val / 16
    ∧ win1_3.index t (0 : Fin 2) = 0 ∧ win1_3.index t (1 : Fin 2) = t.val / 16
    ∧ win1_4.index t (0 : Fin 2) = 0 ∧ win1_4.index t (1 : Fin 2) = t.val / 16 :=
  (by decide +kernel : ∀ t : Fin grid1.N, _)

theorem N1_eq : cfg1.N = 64 := N_1

section Blocks
variable (V : (c : Dev nD) → (b : Ref sig .tc) → Buf (Elt Ideal) ((c : Thread nD τ).loc b))

/-- The array of `x` and the array of the binarized weights, as the region finds them. -/
abbrev lhs1 (c : Dev nD) : S4096x2048.Idx → EReal := V c main_arg0
abbrev rhs1 (c : Dev nD) : S4096x2048.Idx → EReal := V c main_v0

theorem iblk1_0_apply (c : Dev nD) (t : Fin cfg1.N) (r : Fin 1024) (p : Fin 512) :
    (iblk1 V c 0 t : Vec Ideal S1024x512 .f32) (ix2 r p)
      = rd (lhs1 V c) (1024 * (t.val / 4 % 4) + r.val) (512 * (t.val % 4) + p.val) := by
  obtain ⟨e0, e1, -⟩ := idx1 t
  have hN : t.val < 64 := by have := t.isLt; have := N1_eq; omega
  rw [rd_of_lt _ (by have := r.isLt; omega) (by have := p.isLt; omega)]
  unfold iblk1
  rw [View.read_apply]
  show V c main_arg0 _ = V c main_arg0 _
  congr 1
  funext a
  apply Fin.ext
  match a with
  | ⟨0, _⟩ => show win1_0.index t (0 : Fin 2) * 1024 + 1 * r.val = 1024 * (t.val / 4 % 4) + r.val; rw [e0]; omega
  | ⟨1, _⟩ => show win1_0.index t (1 : Fin 2) * 512 + 1 * p.val = 512 * (t.val % 4) + p.val; rw [e1]; omega

theorem iblk1_1_apply (c : Dev nD) (t : Fin cfg1.N) (q : Fin 1024) (p : Fin 512) :
    (iblk1 V c 1 t : Vec Ideal S1024x512 .bf16) (ix2 q p)
      = rd (rhs1 V c) (1024 * (t.val / 16) + q.val) (512 * (t.val % 4) + p.val) := by
  obtain ⟨-, -, e0, e1, -⟩ := idx1 t
  have hN : t.val < 64 := by have := t.isLt; have := N1_eq; omega
  rw [rd_of_lt _ (by have := q.isLt; omega) (by have := p.isLt; omega)]
  unfold iblk1
  rw [View.read_apply]
  show V c main_v0 _ = V c main_v0 _
  congr 1
  funext a
  apply Fin.ext
  match a with
  | ⟨0, _⟩ => show win1_1.index t (0 : Fin 2) * 1024 + 1 * q.val = 1024 * (t.val / 16) + q.val; rw [e0]; omega
  | ⟨1, _⟩ => show win1_1.index t (1 : Fin 2) * 512 + 1 * p.val = 512 * (t.val % 4) + p.val; rw [e1]; omega

end Blocks

/-! ## The closed forms -/

/-- The contraction of row `1024 i + r` of `X` with row `1024 j + q` of `W` over the first `K` blocks of 512 columns. -/
def accP (X W : S4096x2048.Idx → EReal) (i j K r q : ℕ) : EReal :=
  ∑ k' ∈ Finset.range K, ∑ p ∈ Finset.range 512, rd X (1024 * i + r) (512 * k' + p) * rd W (1024 * j + q) (512 * k' + p)

/-- After four blocks it is the contraction over all 2048 columns. -/
theorem accP_four (X W : S4096x2048.Idx → EReal) (i j r q : ℕ) :
    accP X W i j 4 r q = dotN X W 2048 (1024 * i + r) (1024 * j + q) := by
  unfold accP dotN
  exact (sum_range_blocks (fun p => rd X (1024 * i + r) p * rd W (1024 * j + q) p) 4 512).symm

theorem accP_zero (X W : S4096x2048.Idx → EReal) (i j r q : ℕ) : accP X W i j 0 r q = 0 := by
  unfold accP; rw [Finset.range_zero, Finset.sum_empty]

theorem accP_succ (X W : S4096x2048.Idx → EReal) (i j K r q : ℕ) :
    accP X W i j (K + 1) r q
      = accP X W i j K r q + ∑ p ∈ Finset.range 512, rd X (1024 * i + r) (512 * K + p) * rd W (1024 * j + q) (512 * K + p) := by
  unfold accP; exact Finset.sum_range_succ _ K

/-- The sum of `g` at column `1024 j + q` over the first `I` blocks of 1024 rows. -/
def rowsP (g : ℕ → ℕ → EReal) (j I q : ℕ) : EReal :=
  ∑ i' ∈ Finset.range I, ∑ r ∈ Finset.range 1024, g (1024 * i' + r) (1024 * j + q)

theorem rowsP_zero (g : ℕ → ℕ → EReal) (j q : ℕ) : rowsP g j 0 q = 0 := by
  unfold rowsP; rw [Finset.range_zero, Finset.sum_empty]

theorem rowsP_succ (g : ℕ → ℕ → EReal) (j I q : ℕ) :
    rowsP g j (I + 1) q = rowsP g j I q + ∑ r ∈ Finset.range 1024, g (1024 * I + r) (1024 * j + q) := by
  unfold rowsP; exact Finset.sum_range_succ _ I

/-- The product entry and its square, at natural-number coordinates. -/
abbrev gS (X W : S4096x2048.Idx → EReal) (a b : ℕ) : EReal := dotN X W 2048 a b
abbrev gQ (X W : S4096x2048.Idx → EReal) (a b : ℕ) : EReal := dotN X W 2048 a b * dotN X W 2048 a b

/-! ## One grid point -/

section Step
variable {F : FTy → Type} [FloatOps F]

theorem step1_acc_eq (n : ℕ) (x0 : Vec F S1024x512 .f32) (x1 : Vec F S1024x512 .bf16) (s : St1 F) :
    (step1 n x0 x1 s).acc = k1_pay2 x0 (if n % 4 = 0 then k1_pay1 else s.acc) x1 := by
  unfold step1
  dsimp only
  split <;> rfl

theorem step1_sum_eq (n : ℕ) (x0 : Vec F S1024x512 .f32) (x1 : Vec F S1024x512 .bf16) (s : St1 F) :
    (step1 n x0 x1 s).sum
      = if n % 4 = 3 then k1_pay5 (k1_pay2 x0 (if n % 4 = 0 then k1_pay1 else s.acc) x1) (if n / 4 % 4 = 0 then k1_pay3 else s.sum)
        else (if n / 4 % 4 = 0 then k1_pay3 else s.sum) := by
  unfold step1
  dsimp only
  split <;> rfl

theorem step1_sq_eq (n : ℕ) (x0 : Vec F S1024x512 .f32) (x1 : Vec F S1024x512 .bf16) (s : St1 F) :
    (step1 n x0 x1 s).sq
      = if n % 4 = 3 then k1_pay6 (k1_pay2 x0 (if n % 4 = 0 then k1_pay1 else s.acc) x1) (if n / 4 % 4 = 0 then k1_pay4 else s.sq)
        else (if n / 4 % 4 = 0 then k1_pay4 else s.sq) := by
  unfold step1
  dsimp only
  split <;> rfl

end Step

/-- The accumulator after point `n`, from the two blocks the point stages and the accumulator before it. -/
theorem acc_step (X W : S4096x2048.Idx → EReal) (n : ℕ) (x0 : FVec Ideal S1024x512 .f32) (x1 : FVec Ideal S1024x512 .bf16)
    (a : FVec Ideal S1024x1024 .f32)
    (hx0 : ∀ (r : Fin 1024) (p : Fin 512), x0 (ix2 r p) = rd X (1024 * (n / 4 % 4) + r.val) (512 * (n % 4) + p.val))
    (hx1 : ∀ (q : Fin 1024) (p : Fin 512), x1 (ix2 q p) = rd W (1024 * (n / 16) + q.val) (512 * (n % 4) + p.val))
    (ha : n % 4 ≠ 0 → ∀ r q : Fin 1024, a (ix2 r q) = accP X W ((n - 1) / 4 % 4) ((n - 1) / 16) ((n - 1) % 4 + 1) r.val q.val)
    (r q : Fin 1024) :
    k1_pay2 (F := Ideal) x0 (if n % 4 = 0 then k1_pay1 (F := Ideal) else a) x1 (ix2 r q)
      = accP X W (n / 4 % 4) (n / 16) (n % 4 + 1) r.val q.val := by
  rw [k1_pay2_apply]
  have hblk : ∑ p : Fin 512, x0 (ix2 r p) * x1 (ix2 q p)
      = ∑ p ∈ Finset.range 512, rd X (1024 * (n / 4 % 4) + r.val) (512 * (n % 4) + p) * rd W (1024 * (n / 16) + q.val) (512 * (n % 4) + p) := by
    rw [← sum_fin_eq_range (fun p => rd X (1024 * (n / 4 % 4) + r.val) (512 * (n % 4) + p) * rd W (1024 * (n / 16) + q.val) (512 * (n % 4) + p))]
    exact Finset.sum_congr rfl fun p _ => by rw [hx0, hx1]
  rw [hblk, accP_succ]
  by_cases h0 : n % 4 = 0
  · rw [if_pos h0, k1_pay1_apply, h0, accP_zero]
  · rw [if_neg h0, ha h0 r q, show (n - 1) / 4 % 4 = n / 4 % 4 by omega, show (n - 1) / 16 = n / 16 by omega,
      show (n - 1) % 4 + 1 = n % 4 by omega]

/-- The running column sums after point `n`. -/
theorem sum_step (X W : S4096x2048.Idx → EReal) (n : ℕ) (acc : FVec Ideal S1024x1024 .f32) (s : FVec Ideal S1x1024 .f32)
    (hacc : ∀ r q : Fin 1024, acc (ix2 r q) = accP X W (n / 4 % 4) (n / 16) (n % 4 + 1) r.val q.val)
    (hs : n / 4 % 4 ≠ 0 → ∀ (z : Fin 1) (q : Fin 1024), s (ix2 z q) = rowsP (gS X W) ((n - 1) / 16) (((n - 1) % 16 + 1) / 4) q.val)
    (z : Fin 1) (q : Fin 1024) :
    (if n % 4 = 3 then k1_pay5 (F := Ideal) acc (if n / 4 % 4 = 0 then k1_pay3 (F := Ideal) else s) else (if n / 4 % 4 = 0 then k1_pay3 (F := Ideal) else s)) (ix2 z q)
      = rowsP (gS X W) (n / 16) ((n % 16 + 1) / 4) q.val := by
  have h0 : (if n / 4 % 4 = 0 then k1_pay3 (F := Ideal) else s) (ix2 z q) = rowsP (gS X W) (n / 16) (n / 4 % 4) q.val := by
    by_cases hi : n / 4 % 4 = 0
    · rw [if_pos hi, k1_pay3_apply, hi, rowsP_zero]
    · rw [if_neg hi, hs hi z q, show (n - 1) / 16 = n / 16 by omega, show ((n - 1) % 16 + 1) / 4 = n / 4 % 4 by omega]
  by_cases h3 : n % 4 = 3
  · rw [if_pos h3, k1_pay5_apply, h0]
    have hcol : ∑ r : Fin 1024, acc (ix2 r q) = ∑ r ∈ Finset.range 1024, gS X W (1024 * (n / 4 % 4) + r) (1024 * (n / 16) + q.val) := by
      rw [← sum_fin_eq_range (fun r => gS X W (1024 * (n / 4 % 4) + r) (1024 * (n / 16) + q.val))]
      exact Finset.sum_congr rfl fun r _ => by rw [hacc, h3]; exact accP_four X W _ _ _ _
    rw [hcol, show (n % 16 + 1) / 4 = n / 4 % 4 + 1 by omega, rowsP_succ]
  · rw [if_neg h3, h0, show (n % 16 + 1) / 4 = n / 4 % 4 by omega]

/-- The running column sums of squares after point `n`. -/
theorem sq_step (X W : S4096x2048.Idx → EReal) (n : ℕ) (acc : FVec Ideal S1024x1024 .f32) (s : FVec Ideal S1x1024 .f32)
    (hacc : ∀ r q : Fin 1024, acc (ix2 r q) = accP X W (n / 4 % 4) (n / 16) (n % 4 + 1) r.val q.val)
    (hs : n / 4 % 4 ≠ 0 → ∀ (z : Fin 1) (q : Fin 1024), s (ix2 z q) = rowsP (gQ X W) ((n - 1) / 16) (((n - 1) % 16 + 1) / 4) q.val)
    (z : Fin 1) (q : Fin 1024) :
    (if n % 4 = 3 then k1_pay6 (F := Ideal) acc (if n / 4 % 4 = 0 then k1_pay4 (F := Ideal) else s) else (if n / 4 % 4 = 0 then k1_pay4 (F := Ideal) else s)) (ix2 z q)
      = rowsP (gQ X W) (n / 16) ((n % 16 + 1) / 4) q.val := by
  have h0 : (if n / 4 % 4 = 0 then k1_pay4 (F := Ideal) else s) (ix2 z q) = rowsP (gQ X W) (n / 16) (n / 4 % 4) q.val := by
    by_cases hi : n / 4 % 4 = 0
    · rw [if_pos hi, k1_pay4_apply, hi, rowsP_zero]
    · rw [if_neg hi, hs hi z q, show (n - 1) / 16 = n / 16 by omega, show ((n - 1) % 16 + 1) / 4 = n / 4 % 4 by omega]
  by_cases h3 : n % 4 = 3
  · rw [if_pos h3, k1_pay6_apply, h0]
    have hcol : ∑ r : Fin 1024, acc (ix2 r q) * acc (ix2 r q)
        = ∑ r ∈ Finset.range 1024, gQ X W (1024 * (n / 4 % 4) + r) (1024 * (n / 16) + q.val) := by
      rw [← sum_fin_eq_range (fun r => gQ X W (1024 * (n / 4 % 4) + r) (1024 * (n / 16) + q.val))]
      exact Finset.sum_congr rfl fun r _ => by rw [hacc, h3, accP_four X W _ _ _ _]
    rw [hcol, show (n % 16 + 1) / 4 = n / 4 % 4 + 1 by omega, rowsP_succ]
  · rw [if_neg h3, h0, show (n % 16 + 1) / 4 = n / 4 % 4 by omega]

/-- One point: the three closed forms after it, from the blocks it stages and the closed forms before it. -/
theorem step_forms (X W : S4096x2048.Idx → EReal) (n : ℕ) (x0 : Vec Ideal S1024x512 .f32) (x1 : Vec Ideal S1024x512 .bf16)
    (s : St1 Ideal)
    (hx0 : ∀ (r : Fin 1024) (p : Fin 512), x0 (ix2 r p) = rd X (1024 * (n / 4 % 4) + r.val) (512 * (n % 4) + p.val))
    (hx1 : ∀ (q : Fin 1024) (p : Fin 512), x1 (ix2 q p) = rd W (1024 * (n / 16) + q.val) (512 * (n % 4) + p.val))
    (ha : n % 4 ≠ 0 → ∀ r q : Fin 1024, s.acc (ix2 r q) = accP X W ((n - 1) / 4 % 4) ((n - 1) / 16) ((n - 1) % 4 + 1) r.val q.val)
    (hs : n / 4 % 4 ≠ 0 → ∀ (z : Fin 1) (q : Fin 1024), s.sum (ix2 z q) = rowsP (gS X W) ((n - 1) / 16) (((n - 1) % 16 + 1) / 4) q.val)
    (hq : n / 4 % 4 ≠ 0 → ∀ (z : Fin 1) (q : Fin 1024), s.sq (ix2 z q) = rowsP (gQ X W) ((n - 1) / 16) (((n - 1) % 16 + 1) / 4) q.val) :
    (∀ r q : Fin 1024, (step1 n x0 x1 s).acc (ix2 r q) = accP X W (n / 4 % 4) (n / 16) (n % 4 + 1) r.val q.val)
    ∧ (∀ (z : Fin 1) (q : Fin 1024), (step1 n x0 x1 s).sum (ix2 z q) = rowsP (gS X W) (n / 16) ((n % 16 + 1) / 4) q.val)
    ∧ (∀ (z : Fin 1) (q : Fin 1024), (step1 n x0 x1 s).sq (ix2 z q) = rowsP (gQ X W) (n / 16) ((n % 16 + 1) / 4) q.val) := by
  have hA : ∀ r q : Fin 1024, k1_pay2 (F := Ideal) x0 (if n % 4 = 0 then k1_pay1 (F := Ideal) else s.acc) x1 (ix2 r q)
      = accP X W (n / 4 % 4) (n / 16) (n % 4 + 1) r.val q.val := fun r q => acc_step X W n x0 x1 s.acc hx0 hx1 ha r q
  refine ⟨fun r q => ?_, fun z q => ?_, fun z q => ?_⟩
  · rw [step1_acc_eq]; exact hA r q
  · rw [step1_sum_eq]; exact sum_step X W n _ s.sum hA hs z q
  · rw [step1_sq_eq]; exact sq_step X W n _ s.sq hA hq z q

/-! ## The state after every point -/

section State
variable (V : (c : Dev nD) → (b : Ref sig .tc) → Buf (Elt Ideal) ((c : Thread nD τ).loc b))

/-- After point `n = 16 j + 4 i + k`: the accumulator is the contraction over the first `k + 1` column blocks, the two rows
    the column sums over the row blocks completed for this `j`. -/
theorem st1_forms (c : Dev nD) : ∀ (n : ℕ) (hn : n < cfg1.N),
    (∀ r q : Fin 1024, (st1 V c n hn).acc (ix2 r q) = accP (lhs1 V c) (rhs1 V c) (n / 4 % 4) (n / 16) (n % 4 + 1) r.val q.val)
    ∧ (∀ (z : Fin 1) (q : Fin 1024), (st1 V c n hn).sum (ix2 z q) = rowsP (gS (lhs1 V c) (rhs1 V c)) (n / 16) ((n % 16 + 1) / 4) q.val)
    ∧ (∀ (z : Fin 1) (q : Fin 1024), (st1 V c n hn).sq (ix2 z q) = rowsP (gQ (lhs1 V c) (rhs1 V c)) (n / 16) ((n % 16 + 1) / 4) q.val)
  | 0, hn =>
    step_forms (lhs1 V c) (rhs1 V c) 0 (iblk1 V c 0 ⟨0, hn⟩) (iblk1 V c 1 ⟨0, hn⟩) (St1.mk (k1_pay1 (F := Ideal)) (k1_pay3 (F := Ideal)) (k1_pay4 (F := Ideal)))
      (fun r p => iblk1_0_apply V c ⟨0, hn⟩ r p) (fun q p => iblk1_1_apply V c ⟨0, hn⟩ q p)
      (fun h => absurd rfl h) (fun h => absurd rfl h) (fun h => absurd rfl h)
  | n + 1, hn => by
    obtain ⟨ia, is, iq⟩ := st1_forms c n (Nat.lt_of_succ_lt hn)
    rw [st1_succ]
    exact step_forms (lhs1 V c) (rhs1 V c) (n + 1) (iblk1 V c 0 ⟨n + 1, hn⟩) (iblk1 V c 1 ⟨n + 1, hn⟩) (st1 V c n (Nat.lt_of_succ_lt hn))
      (fun r p => iblk1_0_apply V c ⟨n + 1, hn⟩ r p) (fun q p => iblk1_1_apply V c ⟨n + 1, hn⟩ q p)
      (fun _ => ia) (fun _ => is) (fun _ => iq)

end State

/-! ## The three output arrays -/

section Arrays
variable (V : (c : Dev nD) → (b : Ref sig .tc) → Buf (Elt Ideal) ((c : Thread nD τ).loc b))

/-- The product of `x` with the transpose of the binarized weights, as a whole array. -/
abbrev H1 (c : Dev nD) : S4096x4096.Idx → EReal := prod (lhs1 V c) (rhs1 V c)

/-- After a last reduction step the accumulator is the product's block `(i, j)`. -/
theorem acc_block (c : Dev nD) (t : Fin cfg1.N) (h3 : t.val % 4 = 3) (y : S1024x1024.Idx) (i : S4096x4096.Idx)
    (h0 : (i 0).val = 1024 * (t.val / 4 % 4) + (y 0).val) (h1 : (i 1).val = 1024 * (t.val / 16) + (y 1).val) :
    (st1 V c t.val t.isLt).acc y = H1 V c i := by
  obtain ⟨r, q, rfl⟩ : ∃ (r q : Fin 1024), y = ix2 r q := ⟨y 0, y 1, eq_ix2 y⟩
  obtain ⟨a, b, rfl⟩ : ∃ (a b : Fin 4096), i = ix2 a b := ⟨i 0, i 1, eq_ix2 i⟩
  have h0' : a.val = 1024 * (t.val / 4 % 4) + r.val := h0
  have h1' : b.val = 1024 * (t.val / 16) + q.val := h1
  rw [(st1_forms V c t.val t.isLt).1 r q, show t.val % 4 + 1 = 4 by omega, accP_four]
  show _ = prod (lhs1 V c) (rhs1 V c) (ix2 a b)
  rw [prod_eq_dotN, h0', h1']

/-- After the last point of a column block the running sums are the whole column sums of the product. -/
theorem sum_last (c : Dev nD) (t : Fin cfg1.N) (h15 : t.val % 16 = 15) (z : Fin 1) (q : Fin 1024) (b : Fin 4096)
    (hb : b.val = 1024 * (t.val / 16) + q.val) :
    (st1 V c t.val t.isLt).sum (ix2 z q) = ∑ a : Fin 4096, H1 V c (ix2 a b) := by
  rw [(st1_forms V c t.val t.isLt).2.1 z q, colsum_blocks (H1 V c) 4 1024 (by norm_num) b, show (t.val % 16 + 1) / 4 = 4 by omega]
  unfold rowsP
  refine Finset.sum_congr rfl fun i' hi' => Finset.sum_congr rfl fun r hr => ?_
  have hi4 : i' < 4 := Finset.mem_range.mp hi'
  have hr4 : r < 1024 := Finset.mem_range.mp hr
  rw [rd_prod (lhs1 V c) (rhs1 V c) (by omega) b.isLt, hb]

theorem sq_last (c : Dev nD) (t : Fin cfg1.N) (h15 : t.val % 16 = 15) (z : Fin 1) (q : Fin 1024) (b : Fin 4096)
    (hb : b.val = 1024 * (t.val / 16) + q.val) :
    (st1 V c t.val t.isLt).sq (ix2 z q) = ∑ a : Fin 4096, H1 V c (ix2 a b) * H1 V c (ix2 a b) := by
  rw [(st1_forms V c t.val t.isLt).2.2 z q, colsumsq_blocks (H1 V c) 4 1024 (by norm_num) b, show (t.val % 16 + 1) / 4 = 4 by omega]
  unfold rowsP
  refine Finset.sum_congr rfl fun i' hi' => Finset.sum_congr rfl fun r hr => ?_
  have hi4 : i' < 4 := Finset.mem_range.mp hi'
  have hr4 : r < 1024 := Finset.mem_range.mp hr
  rw [rd_prod (lhs1 V c) (rhs1 V c) (by omega) b.isLt, hb]

/-- The mean's block after the last point of column block `j`. -/
theorem mean_block (c : Dev nD) (t : Fin cfg1.N) (h15 : t.val % 16 = 15) (y : S1x1024.Idx) (i : S1x4096.Idx)
    (h1 : (i 1).val = 1024 * (t.val / 16) + (y 1).val) :
    k1_pay7 (F := Ideal) (st1 V c t.val t.isLt).sum y = colMean 4096 (H1 V c) i := by
  obtain ⟨z, q, rfl⟩ : ∃ (z : Fin 1) (q : Fin 1024), y = ix2 z q := ⟨y 0, y 1, eq_ix2 y⟩
  obtain ⟨z', b, rfl⟩ : ∃ (z' : Fin 1) (b : Fin 4096), i = ix2 z' b := ⟨i 0, i 1, eq_ix2 i⟩
  rw [k1_pay7_apply, sum_last V c t h15 z q b h1, Cert.LibBatchVar.ofBits_inv_4096, colMean_apply]

/-- The variance's block after the last point of column block `j`. -/
theorem var_block (c : Dev nD) (t : Fin cfg1.N) (h15 : t.val % 16 = 15) (y : S1x1024.Idx) (i : S1x4096.Idx)
    (h1 : (i 1).val = 1024 * (t.val / 16) + (y 1).val) :
    k1_pay8 (F := Ideal) (st1 V c t.val t.isLt).sum (st1 V c t.val t.isLt).sq y = colVar 4096 (H1 V c) i := by
  obtain ⟨z, q, rfl⟩ : ∃ (z : Fin 1) (q : Fin 1024), y = ix2 z q := ⟨y 0, y 1, eq_ix2 y⟩
  obtain ⟨z', b, rfl⟩ : ∃ (z' : Fin 1) (b : Fin 4096), i = ix2 z' b := ⟨i 0, i 1, eq_ix2 i⟩
  rw [k1_pay8_apply, sum_last V c t h15 z q b h1, sq_last V c t h15 z q b h1, Cert.LibBatchVar.ofBits_inv_4096,
    Ideal.ofBits_zero_f32, colVar_apply]

/-! ### What the flushing points write back -/

theorem flushed1_2 (c : Dev nD) (t : Fin cfg1.N) (hf : (cfg1.win 2).flush t = true) :
    (dat1 V c).flushed 2 t = ((cfg1.win 2).blk t).view.read (Elt Ideal) (H1 V c) := by
  have h3 : t.val % 4 = 3 := (flush1_2 t).mp hf
  obtain ⟨-, -, -, -, e0, e1, -⟩ := idx1 t
  show (cfg1.win 2).cut (grid1.coords t) ((dat1 V c).after 2 t) = _
  rw [after1_2]
  funext y
  rw [View.read_apply]
  exact acc_block V c t h3 y _
    (by show win1_2.index t (0 : Fin 2) * 1024 + 1 * (y 0).val = _; rw [e0]; omega)
    (by show win1_2.index t (1 : Fin 2) * 1024 + 1 * (y 1).val = _; rw [e1]; omega)

theorem flushed1_3 (c : Dev nD) (t : Fin cfg1.N) (hf : (cfg1.win 3).flush t = true) :
    (dat1 V c).flushed 3 t = ((cfg1.win 3).blk t).view.read (Elt Ideal) (colMean 4096 (H1 V c)) := by
  have h15 : t.val % 16 = 15 := (flush1_3 t).mp hf
  obtain ⟨-, -, -, -, -, -, e0, e1, -⟩ := idx1 t
  show (cfg1.win 3).cut (grid1.coords t) ((dat1 V c).after 3 t) = _
  rw [after1_3]
  funext y
  rw [View.read_apply]
  exact mean_block V c t h15 y _
    (by show win1_3.index t (1 : Fin 2) * 1024 + 1 * (y 1).val = _; rw [e1]; omega)

theorem flushed1_4 (c : Dev nD) (t : Fin cfg1.N) (hf : (cfg1.win 4).flush t = true) :
    (dat1 V c).flushed 4 t = ((cfg1.win 4).blk t).view.read (Elt Ideal) (colVar 4096 (H1 V c)) := by
  have h15 : t.val % 16 = 15 := (flush1_4 t).mp hf
  obtain ⟨-, -, -, -, -, -, -, -, e0, e1⟩ := idx1 t
  show (cfg1.win 4).cut (grid1.coords t) ((dat1 V c).after 4 t) = _
  rw [after1_4]
  funext y
  rw [View.read_apply]
  exact var_block V c t h15 y _
    (by show win1_4.index t (1 : Fin 2) * 1024 + 1 * (y 1).val = _; rw [e1]; omega)

/-! ### The flushing points' blocks cover the arrays -/

theorem mem_blk1_2 (t : Fin cfg1.N) (i : S4096x4096.Idx) :
    i ∈ ((cfg1.win 2).blk t).view.set
      ↔ ∀ a : Fin 2, win1_2.index t a * S1024x1024.size a ≤ (i a).val ∧ (i a).val < win1_2.index t a * S1024x1024.size a + S1024x1024.size a := by
  show i ∈ ((View.whole main_v1_0).slice (win1_2.rect t)).set ↔ _
  rw [View.set_slice_whole, Rect.mem_set_unit]
  exact Iff.rfl

theorem mem_blk1_3 (t : Fin cfg1.N) (i : S1x4096.Idx) :
    i ∈ ((cfg1.win 3).blk t).view.set
      ↔ ∀ a : Fin 2, win1_3.index t a * S1x1024.size a ≤ (i a).val ∧ (i a).val < win1_3.index t a * S1x1024.size a + S1x1024.size a := by
  show i ∈ ((View.whole main_v1_1).slice (win1_3.rect t)).set ↔ _
  rw [View.set_slice_whole, Rect.mem_set_unit]
  exact Iff.rfl

theorem mem_blk1_4 (t : Fin cfg1.N) (i : S1x4096.Idx) :
    i ∈ ((cfg1.win 4).blk t).view.set
      ↔ ∀ a : Fin 2, win1_4.index t a * S1x1024.size a ≤ (i a).val ∧ (i a).val < win1_4.index t a * S1x1024.size a + S1x1024.size a := by
  show i ∈ ((View.whole main_v1_2).slice (win1_4.rect t)).set ↔ _
  rw [View.set_slice_whole, Rect.mem_set_unit]
  exact Iff.rfl

/-- Entry `(a, b)` of the product is written back at the last reduction step of the point with `i = a / 1024`, `j = b / 1024`. -/
theorem cover1_2 (i : S4096x4096.Idx) : ∃ t : Fin cfg1.N, (cfg1.win 2).flush t = true ∧ i ∈ ((cfg1.win 2).blk t).view.set := by
  have hi0 : (i 0).val < 4096 := (i 0).isLt
  have hi1 : (i 1).val < 4096 := (i 1).isLt
  have hN := N1_eq
  have hlt : 16 * ((i 1).val / 1024) + 4 * ((i 0).val / 1024) + 3 < cfg1.N := by omega
  obtain ⟨-, -, -, -, e0, e1, -⟩ := idx1 ⟨16 * ((i 1).val / 1024) + 4 * ((i 0).val / 1024) + 3, hlt⟩
  refine ⟨⟨16 * ((i 1).val / 1024) + 4 * ((i 0).val / 1024) + 3, hlt⟩, (flush1_2 _).mpr (by show (16 * ((i 1).val / 1024) + 4 * ((i 0).val / 1024) + 3) % 4 = 3; omega), ?_⟩
  rw [mem_blk1_2]
  intro a
  match a with
  | ⟨0, _⟩ =>
    show win1_2.index _ (0 : Fin 2) * 1024 ≤ (i 0).val ∧ (i 0).val < win1_2.index _ (0 : Fin 2) * 1024 + 1024
    rw [e0]; dsimp only; omega
  | ⟨1, _⟩ =>
    show win1_2.index _ (1 : Fin 2) * 1024 ≤ (i 1).val ∧ (i 1).val < win1_2.index _ (1 : Fin 2) * 1024 + 1024
    rw [e1]; dsimp only; omega

theorem cover1_3 (i : S1x4096.Idx) : ∃ t : Fin cfg1.N, (cfg1.win 3).flush t = true ∧ i ∈ ((cfg1.win 3).blk t).view.set := by
  have hi0 : (i 0).val < 1 := (i 0).isLt
  have hi1 : (i 1).val < 4096 := (i 1).isLt
  have hN := N1_eq
  have hlt : 16 * ((i 1).val / 1024) + 15 < cfg1.N := by omega
  obtain ⟨-, -, -, -, -, -, e0, e1, -⟩ := idx1 ⟨16 * ((i 1).val / 1024) + 15, hlt⟩
  refine ⟨⟨16 * ((i 1).val / 1024) + 15, hlt⟩, (flush1_3 _).mpr (by show (16 * ((i 1).val / 1024) + 15) % 16 = 15; omega), ?_⟩
  rw [mem_blk1_3]
  intro a
  match a with
  | ⟨0, _⟩ =>
    show win1_3.index _ (0 : Fin 2) * 1 ≤ (i 0).val ∧ (i 0).val < win1_3.index _ (0 : Fin 2) * 1 + 1
    rw [e0]; omega
  | ⟨1, _⟩ =>
    show win1_3.index _ (1 : Fin 2) * 1024 ≤ (i 1).val ∧ (i 1).val < win1_3.index _ (1 : Fin 2) * 1024 + 1024
    rw [e1]; dsimp only; omega

theorem cover1_4 (i : S1x4096.Idx) : ∃ t : Fin cfg1.N, (cfg1.win 4).flush t = true ∧ i ∈ ((cfg1.win 4).blk t).view.set := by
  have hi0 : (i 0).val < 1 := (i 0).isLt
  have hi1 : (i 1).val < 4096 := (i 1).isLt
  have hN := N1_eq
  have hlt : 16 * ((i 1).val / 1024) + 15 < cfg1.N := by omega
  obtain ⟨-, -, -, -, -, -, -, -, e0, e1⟩ := idx1 ⟨16 * ((i 1).val / 1024) + 15, hlt⟩
  refine ⟨⟨16 * ((i 1).val / 1024) + 15, hlt⟩, (flush1_4 _).mpr (by show (16 * ((i 1).val / 1024) + 15) % 16 = 15; omega), ?_⟩
  rw [mem_blk1_4]
  intro a
  match a with
  | ⟨0, _⟩ =>
    show win1_4.index _ (0 : Fin 2) * 1 ≤ (i 0).val ∧ (i 0).val < win1_4.index _ (0 : Fin 2) * 1 + 1
    rw [e0]; omega
  | ⟨1, _⟩ =>
    show win1_4.index _ (1 : Fin 2) * 1024 ≤ (i 1).val ∧ (i 1).val < win1_4.index _ (1 : Fin 2) * 1024 + 1024
    rw [e1]; dsimp only; omega

/-! ### The arrays after the run -/

/-- The product array ends holding `x · sign(W)ᵀ`. -/
theorem arr1_2 (c : Dev nD) : (dat1 V c).arrAt 2 cfg1.N = H1 V c :=
  (dat1 V c).arrAt_eq_of_cover 2 (H1 V c) (flushed1_2 V c) cover1_2

/-- The mean array ends holding the column means of the product. -/
theorem arr1_3 (c : Dev nD) : (dat1 V c).arrAt 3 cfg1.N = colMean 4096 (H1 V c) :=
  (dat1 V c).arrAt_eq_of_cover 3 (colMean 4096 (H1 V c)) (flushed1_3 V c) cover1_3

/-- The variance array ends holding the clamped column variances of the product. -/
theorem arr1_4 (c : Dev nD) : (dat1 V c).arrAt 4 cfg1.N = colVar 4096 (H1 V c) :=
  (dat1 V c).arrAt_eq_of_cover 4 (colVar 4096 (H1 V c)) (flushed1_4 V c) cover1_4

end Arrays

end Cert.KernelIdeal.Hand

end
-- ==== Proof.KI.NormSpec.lean ====
import Idealize.ShloMosaic.PureOps.Ideal
import Idealize.ShloMosaic.Lib.ValueIdx

/-! # The normalize-and-scale map of a layer, index by index, over exact values

For an `a × b` array `H` and four `1 × b` rows — the column means `M`, the column variances `Vr`, the scale `G`
and the shift `B` — entry `(r, k)` of the normalized array is `G k · (H r k − M k) · rsqrt (Vr k + ε) + B k`, the
products taken in that order, with `ε` the f32 value of `1e-5`.  The activated form takes the sign of each entry. -/

noncomputable section

namespace Cert.KernelIdeal.Hand

open Idealize.ShloMosaic Idealize.ShloMosaic.ValueIdx

/-- Entry `i` of the normalized, scaled and shifted array. -/
def normAffine (a b : Nat) (H : (⟨2, ![a, b]⟩ : Shape).Idx → EReal) (M Vr G B : (⟨2, ![1, b]⟩ : Shape).Idx → EReal) :
    (⟨2, ![a, b]⟩ : Shape).Idx → EReal :=
  fun i => G (ix2 0 (i 1)) * (H i - M (ix2 0 (i 1))) * Ideal.rsqrt (Vr (ix2 0 (i 1)) + Ideal.ofBits .f32 0x3727C5AC#32) + B (ix2 0 (i 1))

/-- Its entrywise sign. -/
def normAct (a b : Nat) (H : (⟨2, ![a, b]⟩ : Shape).Idx → EReal) (M Vr G B : (⟨2, ![1, b]⟩ : Shape).Idx → EReal) :
    (⟨2, ![a, b]⟩ : Shape).Idx → EReal :=
  fun i => Ideal.sign (normAffine a b H M Vr G B i)

theorem normAffine_apply (a b : Nat) (H : (⟨2, ![a, b]⟩ : Shape).Idx → EReal) (M Vr G B : (⟨2, ![1, b]⟩ : Shape).Idx → EReal)
    (i : (⟨2, ![a, b]⟩ : Shape).Idx) :
    normAffine a b H M Vr G B i
      = G (ix2 0 (i 1)) * (H i - M (ix2 0 (i 1))) * Ideal.rsqrt (Vr (ix2 0 (i 1)) + Ideal.ofBits .f32 0x3727C5AC#32) + B (ix2 0 (i 1)) := rfl

theorem normAct_apply (a b : Nat) (H : (⟨2, ![a, b]⟩ : Shape).Idx → EReal) (M Vr G B : (⟨2, ![1, b]⟩ : Shape).Idx → EReal)
    (i : (⟨2, ![a, b]⟩ : Shape).Idx) :
    normAct a b H M Vr G B i
      = Ideal.sign (G (ix2 0 (i 1)) * (H i - M (ix2 0 (i 1))) * Ideal.rsqrt (Vr (ix2 0 (i 1)) + Ideal.ofBits .f32 0x3727C5AC#32) + B (ix2 0 (i 1))) := rfl

/-- The tile form: the map's formula evaluated at a tile's own copies of the index — the tile entry `e0` of the
    product and the row entries `r1 … r4` — is the map at the array index `e5`, when the copies are `e5` and its
    column in row 0. -/
theorem normAffine_of_tile (a b : Nat) (H : (⟨2, ![a, b]⟩ : Shape).Idx → EReal) (M Vr G B : (⟨2, ![1, b]⟩ : Shape).Idx → EReal)
    (e0 e5 : (⟨2, ![a, b]⟩ : Shape).Idx) (r1 r2 r3 r4 : (⟨2, ![1, b]⟩ : Shape).Idx)
    (h0 : e0 = e5) (h1 : r1 = ix2 0 (e5 1)) (h2 : r2 = ix2 0 (e5 1)) (h3 : r3 = ix2 0 (e5 1)) (h4 : r4 = ix2 0 (e5 1)) :
    G r3 * (H e0 - M r1) * Ideal.rsqrt (Vr r2 + Ideal.ofBits .f32 0x3727C5AC#32) + B r4 = normAffine a b H M Vr G B e5 := by
  subst h0 h1 h2 h3 h4; rfl

theorem normAct_of_tile (a b : Nat) (H : (⟨2, ![a, b]⟩ : Shape).Idx → EReal) (M Vr G B : (⟨2, ![1, b]⟩ : Shape).Idx → EReal)
    (e0 e5 : (⟨2, ![a, b]⟩ : Shape).Idx) (r1 r2 r3 r4 : (⟨2, ![1, b]⟩ : Shape).Idx)
    (h0 : e0 = e5) (h1 : r1 = ix2 0 (e5 1)) (h2 : r2 = ix2 0 (e5 1)) (h3 : r3 = ix2 0 (e5 1)) (h4 : r4 = ix2 0 (e5 1)) :
    Ideal.sign (G r3 * (H e0 - M r1) * Ideal.rsqrt (Vr r2 + Ideal.ofBits .f32 0x3727C5AC#32) + B r4) = normAct a b H M Vr G B e5 := by
  subst h0 h1 h2 h3 h4; rfl

end Cert.KernelIdeal.Hand

end
-- ==== Proof.KI.Value2.lean ====
import proofs.«157460_j63591285784858_2_alg».proof.Proof.KI.Region2
import proofs.«157460_j63591285784858_2_alg».proof.Proof.KI.NormSpec
import proofs.«157460_j63591285784858_2_alg».proof.Proof.LibSignSelect
import Idealize.ShloMosaic.Lib.Pipeline.Value
import Idealize.ShloMosaic.Lib.ValueLayout

/-! # Region 2 at the exact values: the result array is the normalized, activated product array

Point `t` of the 4×4 grid stages the 1024×1024 tile `(r, k)` of the 4096×4096 product array and the 1×1024 pieces `k` of
the four rows (means, variances, scale, shift), and writes back tile `(r, k)` of the result.  The body's result at
entry `(p, q)` of the tile is `sign (g q · (h p q − mean q) · rsqrt (var q + ε) + shift q)`, so what point `t` writes
back is tile `t` of that map of the whole arrays; the tiles cover the array (entry `(r, k)` lies in tile
`(r / 1024, k / 1024)`), so the array ends as that map of the arrays the region finds. -/

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The offsets of the body's rectangles are all zero. -/
theorem zeroOffsets2 : (![0, 0] : Fin 2 → Nat) = fun _ => 0 := funext fun a => by fin_cases a <;> rfl

/-- The body's payload at entry `(p, q)` of the tile, from the loaded tile and the four loaded row pieces. -/
theorem bodyPay2_apply (v0 : Vec Ideal S1024x1024 .f32) (v2 v7 v9 v17 : Vec Ideal S1x1024 .f32) (p q : Fin 1024) :
    k2_pay1 v0 v2 v7 v9 v17 (ix2 p q)
      = Ideal.sign (v7 (ix2 (0 : Fin 1) q) * (v0 (ix2 p q) - v9 (ix2 (0 : Fin 1) q)) * Ideal.rsqrt (v2 (ix2 (0 : Fin 1) q) + Ideal.ofBits .f32 0x3727C5AC#32) + v17 (ix2 (0 : Fin 1) q)) := by
  unfold k2_pay1
  refine (Cert.LibSignSelect.signSelect_truncf_apply _ (ix2 p q) _).trans (congrArg Ideal.sign ?_)
  simp only [shapeCast_self]
  rw [addf_apply, mulf_apply, mulf_apply, subf_apply, broadcastTo_1b_ab_apply, broadcastTo_1b_ab_apply,
    broadcastTo_1b_ab_apply, broadcastTo_1b_ab_apply]
  rfl

/-- The block indices, decided over the grid: the product's tile moves with the result's; each row piece is at row
    block 0 and at the result's column block. -/
theorem blockIndex2 : ∀ t : Fin cfg2.N, win2_0.index t (0 : Fin 2) = win2_5.index t (0 : Fin 2)
    ∧ win2_0.index t (1 : Fin 2) = win2_5.index t (1 : Fin 2)
    ∧ win2_1.index t (0 : Fin 2) = 0 ∧ win2_1.index t (1 : Fin 2) = win2_5.index t (1 : Fin 2)
    ∧ win2_2.index t (0 : Fin 2) = 0 ∧ win2_2.index t (1 : Fin 2) = win2_5.index t (1 : Fin 2)
    ∧ win2_3.index t (0 : Fin 2) = 0 ∧ win2_3.index t (1 : Fin 2) = win2_5.index t (1 : Fin 2)
    ∧ win2_4.index t (0 : Fin 2) = 0 ∧ win2_4.index t (1 : Fin 2) = win2_5.index t (1 : Fin 2) :=
  (by decide +kernel : ∀ t : Fin grid2.N, _)

/-- Every tile of the result is some point's. -/
theorem blockOnto2 : ∀ (q0 : Fin 4) (q1 : Fin 4), ∃ t : Fin cfg2.N, win2_5.index t = ![q0.val, q1.val] :=
  (by decide +kernel : ∀ (q0 : Fin 4) (q1 : Fin 4), ∃ t : Fin grid2.N, win2_5.index t = ![q0.val, q1.val])

/-- What point `t` writes back is tile `t` of the map of the arrays as the region finds them. -/
theorem flushed2_eq (c : Dev nD) (t : Fin cfg2.N) :
    (dat2 V c).flushed 5 t = ((cfg2.win 5).blk t).view.read (Elt Ideal) (normAct 4096 4096 (V c main_v1_0) (V c main_v1_1) (V c main_v1_2) (V c main_v2) (V c main_v3)) := by
  show (cfg2.win 5).cut (grid2.coords t) ((dat2 V c).after 5 t) = _
  rw [after2_5]
  unfold out2_5
  rw [View.canon_unit_zero zeroOffsets2]
  simp only [View.ld_unit_zero (S := S1024x1024) zeroOffsets2, View.ld_unit_zero (S := S1x1024) zeroOffsets2]
  obtain ⟨e00, e01, e10, e11, e20, e21, e30, e31, e40, e41⟩ := blockIndex2 t
  funext j
  obtain ⟨p, q, rfl⟩ : ∃ (p : Fin 1024) (q : Fin 1024), j = ix2 p q := ⟨j 0, j 1, eq_ix2 j⟩
  have h0 : ((cfg2.win 0).blk t).view.emb (ix2 p q) = ((cfg2.win 5).blk t).view.emb (ix2 p q) := by
    funext a; apply Fin.ext
    match a with
    | ⟨0, _⟩ => show win2_0.index t (0 : Fin 2) * 1024 + 1 * p.val = win2_5.index t (0 : Fin 2) * 1024 + 1 * p.val; omega
    | ⟨1, _⟩ => show win2_0.index t (1 : Fin 2) * 1024 + 1 * q.val = win2_5.index t (1 : Fin 2) * 1024 + 1 * q.val; omega
  have h1 : ((cfg2.win 1).blk t).view.emb (ix2 (0 : Fin 1) q) = ix2 (0 : Fin 1) ((((cfg2.win 5).blk t).view.emb (ix2 p q)) 1) := by
    funext a; apply Fin.ext
    match a with
    | ⟨0, _⟩ => show win2_1.index t (0 : Fin 2) * 1 + 1 * 0 = 0; omega
    | ⟨1, _⟩ => show win2_1.index t (1 : Fin 2) * 1024 + 1 * q.val = win2_5.index t (1 : Fin 2) * 1024 + 1 * q.val; omega
  have h2 : ((cfg2.win 2).blk t).view.emb (ix2 (0 : Fin 1) q) = ix2 (0 : Fin 1) ((((cfg2.win 5).blk t).view.emb (ix2 p q)) 1) := by
    funext a; apply Fin.ext
    match a with
    | ⟨0, _⟩ => show win2_2.index t (0 : Fin 2) * 1 + 1 * 0 = 0; omega
    | ⟨1, _⟩ => show win2_2.index t (1 : Fin 2) * 1024 + 1 * q.val = win2_5.index t (1 : Fin 2) * 1024 + 1 * q.val; omega
  have h3 : ((cfg2.win 3).blk t).view.emb (ix2 (0 : Fin 1) q) = ix2 (0 : Fin 1) ((((cfg2.win 5).blk t).view.emb (ix2 p q)) 1) := by
    funext a; apply Fin.ext
    match a with
    | ⟨0, _⟩ => show win2_3.index t (0 : Fin 2) * 1 + 1 * 0 = 0; omega
    | ⟨1, _⟩ => show win2_3.index t (1 : Fin 2) * 1024 + 1 * q.val = win2_5.index t (1 : Fin 2) * 1024 + 1 * q.val; omega
  have h4 : ((cfg2.win 4).blk t).view.emb (ix2 (0 : Fin 1) q) = ix2 (0 : Fin 1) ((((cfg2.win 5).blk t).view.emb (ix2 p q)) 1) := by
    funext a; apply Fin.ext
    match a with
    | ⟨0, _⟩ => show win2_4.index t (0 : Fin 2) * 1 + 1 * 0 = 0; omega
    | ⟨1, _⟩ => show win2_4.index t (1 : Fin 2) * 1024 + 1 * q.val = win2_5.index t (1 : Fin 2) * 1024 + 1 * q.val; omega
  refine (bodyPay2_apply _ _ _ _ _ p q).trans ?_
  exact normAct_of_tile 4096 4096 (V c main_v1_0) (V c main_v1_1) (V c main_v1_2) (V c main_v2) (V c main_v3) _ _ _ _ _ _ h0 h1 h2 h3 h4

/-- An index of the array is in point `t`'s tile iff each coordinate is in the tile's range on its axis. -/
theorem memBlock2 (t : Fin cfg2.N) (i : S4096x4096.Idx) :
    i ∈ ((cfg2.win 5).blk t).view.set ↔ ∀ a : Fin 2, win2_5.index t a * S1024x1024.size a ≤ (i a).val ∧ (i a).val < win2_5.index t a * S1024x1024.size a + S1024x1024.size a := by
  show i ∈ ((View.whole main_v4).slice (win2_5.rect t)).set ↔ _
  rw [View.set_slice_whole, Rect.mem_set_unit]
  exact Iff.rfl

/-- Every index of the result is in some point's tile: entry `(r, k)` is in tile `(r / 1024, k / 1024)`. -/
theorem covered2 (i : S4096x4096.Idx) : ∃ t : Fin cfg2.N, (cfg2.win 5).flush t = true ∧ i ∈ ((cfg2.win 5).blk t).view.set := by
  have hi0 : (i 0).val < 4096 := (i 0).isLt
  have hi1 : (i 1).val < 4096 := (i 1).isLt
  obtain ⟨t, ht⟩ := blockOnto2 ⟨(i 0).val / 1024, by omega⟩ ⟨(i 1).val / 1024, by omega⟩
  have q0 : win2_5.index t (0 : Fin 2) = (i 0).val / 1024 := congrFun ht 0
  have q1 : win2_5.index t (1 : Fin 2) = (i 1).val / 1024 := congrFun ht 1
  refine ⟨t, flush2_5 t, ?_⟩
  rw [memBlock2]
  intro a
  match a with
  | ⟨0, _⟩ => show win2_5.index t (0 : Fin 2) * 1024 ≤ (i 0).val ∧ (i 0).val < win2_5.index t (0 : Fin 2) * 1024 + 1024; omega
  | ⟨1, _⟩ => show win2_5.index t (1 : Fin 2) * 1024 ≤ (i 1).val ∧ (i 1).val < win2_5.index t (1 : Fin 2) * 1024 + 1024; omega

/-- The result array after the region: the normalize-and-sign map of the five arrays as the region finds them. -/
theorem final2 (c : Dev nD) : (dat2 V c).arrAt 5 cfg2.N
    = normAct 4096 4096 (V c (Pipeline.arrRef spec2 0)) (V c (Pipeline.arrRef spec2 1)) (V c (Pipeline.arrRef spec2 2)) (V c (Pipeline.arrRef spec2 3)) (V c (Pipeline.arrRef spec2 4)) :=
  (dat2 V c).arrAt_eq_of_cover 5 (normAct 4096 4096 (V c main_v1_0) (V c main_v1_1) (V c main_v1_2) (V c main_v2) (V c main_v3)) (fun t _ => flushed2_eq V c t) covered2

end Cert.KernelIdeal.Hand

end
-- ==== Proof.KI.KernelValueLib.lean ====
import proofs.«157460_j63591285784858_2_alg».proof.Proof.LayerBridge
import Idealize.ShloMosaic.Lib.ValueLayout

noncomputable section

namespace Cert.KernelIdeal.Hand

open Idealize.ShloMosaic Idealize.ShloMosaic.ValueIdx Cert.LayerBridge

/-- A vector recast as one row is the vector read along the row: entry `(0, q)` of the row is entry `q` of the vector. -/
theorem cast_row {a : ℕ} (g : (⟨1, ![a]⟩ : Shape).Idx → EReal) (h : (⟨1, ![a]⟩ : Shape).ShapeCasts ⟨2, ![1, a]⟩) :
    shapeCast ⟨2, ![1, a]⟩ g h = asRow g := by
  funext j
  rw [eq_ix2 j]
  exact shapeCast_a_1a_apply g h _ _

end Cert.KernelIdeal.Hand

end
-- ==== Proof.KI.KernelValue0.lean ====
import proofs.«157460_j63591285784858_2_alg».proof.Proof.KI.MainFold
import proofs.«157460_j63591285784858_2_alg».proof.Proof.KI.Value0
import proofs.«157460_j63591285784858_2_alg».proof.Proof.KI.R1Value
import proofs.«157460_j63591285784858_2_alg».proof.Proof.KI.Value2
import proofs.«157460_j63591285784858_2_alg».proof.Proof.KI.KernelValueLib
import proofs.«157460_j63591285784858_2_alg».proof.Proof.LayerBridge
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.MatStats Cert.LayerBridge
open Idealize.ShloMosaic.StableHlo (after_cons after_nil reshape_result reshape_result_ne)

variable (m : (ℓ : Loc nD τ sig) → Buf (Elt Ideal) ℓ) (ρ : Dev nD → PrngReg)

/-! Layer 0: the sign region writes the signs of the weights; the product region writes the product of the layer's
    input with their transpose, its column means and its clamped column variances; the host stretch recasts the scale
    and the shift as rows; the normalization region writes the normalized, activated product. None of these items writes
    an argument array, nor an array an earlier item left for a later one. -/

/-- The weights, as the sign region finds them, are the launch contents. -/
theorem k0_wa (c : Dev nD) : V0 m ρ c main_arg1 = (m ((c : Thread nD τ).loc main_arg1)) :=
  rfl

/-- The layer's input, as the product region finds it. -/
theorem k0_x (c : Dev nD) : V1 m ρ c main_arg0 = (m ((c : Thread nD τ).loc main_arg0)) :=
  (W1_of_ne m ρ c main_arg0 (by decide))

/-- The signs of the weights, as the product region finds them. -/
theorem k0_w (c : Dev nD) : V1 m ρ c main_v0 = signArr (m ((c : Thread nD τ).loc main_arg1)) :=
  (W1_main_v0 m ρ c).trans ((final0 (V0 m ρ) c).trans (congrArg signArr (k0_wa m ρ c)))

theorem k0_P (c : Dev nD) : prod (V1 m ρ c main_arg0) (V1 m ρ c main_v0) = (prod (m ((c : Thread nD τ).loc main_arg0)) (signArr (m ((c : Thread nD τ).loc main_arg1)))) :=
  congrArg₂ prod (k0_x m ρ c) (k0_w m ρ c)

/-- The product, its column means and its column variances, as the normalization region finds them. -/
theorem k0_H (c : Dev nD) : V3 m ρ c main_v1_0 = (prod (m ((c : Thread nD τ).loc main_arg0)) (signArr (m ((c : Thread nD τ).loc main_arg1)))) :=
  (W3_keep m ρ c main_v1_0 (by decide)).trans ((W2_main_v1_0 m ρ c).trans ((arr1_2 (V1 m ρ) c).trans (k0_P m ρ c)))

theorem k0_M (c : Dev nD) : V3 m ρ c main_v1_1 = colMean 4096 (prod (m ((c : Thread nD τ).loc main_arg0)) (signArr (m ((c : Thread nD τ).loc main_arg1)))) :=
  (W3_keep m ρ c main_v1_1 (by decide)).trans ((W2_main_v1_1 m ρ c).trans ((arr1_3 (V1 m ρ) c).trans (congrArg (colMean 4096) (k0_P m ρ c))))

theorem k0_Vr (c : Dev nD) : V3 m ρ c main_v1_2 = colVar 4096 (prod (m ((c : Thread nD τ).loc main_arg0)) (signArr (m ((c : Thread nD τ).loc main_arg1)))) :=
  (W3_keep m ρ c main_v1_2 (by decide)).trans ((W2_main_v1_2 m ρ c).trans ((arr1_4 (V1 m ρ) c).trans (congrArg (colVar 4096) (k0_P m ρ c))))

/-- The scale and the shift, as the host stretch finds them, are the launch contents. -/
theorem k0_g (c : Dev nD) : W2 m ρ c (Proc.devRef .tc main_arg2) = (m ((c : Thread nD τ).loc main_arg2)) :=
  ((W2_of_ne m ρ c main_arg2 (by decide)).trans (W1_of_ne m ρ c main_arg2 (by decide)))

theorem k0_b (c : Dev nD) : W2 m ρ c (Proc.devRef .tc main_arg3) = (m ((c : Thread nD τ).loc main_arg3)) :=
  ((W2_of_ne m ρ c main_arg3 (by decide)).trans (W1_of_ne m ρ c main_arg3 (by decide)))

/-- The scale and the shift recast as rows, as the normalization region finds them. -/
theorem k0_G (c : Dev nD) : V3 m ρ c main_v2 = asRow (m ((c : Thread nD τ).loc main_arg2)) := by
  show StableHlo.after hostOps2 (W2 m ρ c) (Proc.devRef .tc main_v2) = _
  refine Eq.trans ?_ (cast_row (m ((c : Thread nD τ).loc main_arg2)) shapeCasts_S4096_S1x4096)
  rw [← k0_g m ρ c]
  simp only [hostOps2]
  after_results
  rfl

theorem k0_B (c : Dev nD) : V3 m ρ c main_v3 = asRow (m ((c : Thread nD τ).loc main_arg3)) := by
  show StableHlo.after hostOps2 (W2 m ρ c) (Proc.devRef .tc main_v3) = _
  refine Eq.trans ?_ (cast_row (m ((c : Thread nD τ).loc main_arg3)) shapeCasts_S4096_S1x4096)
  rw [← k0_b m ρ c]
  simp only [hostOps2]
  after_results
  rfl

/-- Layer 0's activation array, after its normalization region, is the layer's function of its input and of the
    launch contents of its three parameter arrays. -/
theorem kernel_layer0 (c : Dev nD) :
    W4 m ρ c (Proc.devRef .tc main_v4)
      = kLayer0 (m ((c : Thread nD τ).loc main_arg0)) (m ((c : Thread nD τ).loc main_arg1)) (m ((c : Thread nD τ).loc main_arg2)) (m ((c : Thread nD τ).loc main_arg3)) := by
  rw [W4_main_v4, final2 (V3 m ρ) c]
  show normAct 4096 4096 (V3 m ρ c main_v1_0) (V3 m ρ c main_v1_1) (V3 m ρ c main_v1_2) (V3 m ρ c main_v2) (V3 m ρ c main_v3) = _
  rw [k0_H, k0_M, k0_Vr, k0_G, k0_B]
  rfl

end Cert.KernelIdeal.Hand

end
-- ==== Proof.KI.Value3.lean ====
import proofs.«157460_j63591285784858_2_alg».proof.Proof.KI.Region3
import proofs.«157460_j63591285784858_2_alg».proof.Proof.LibSignSelect
import Idealize.ShloMosaic.Lib.Pipeline.Value

/-! # Region 3 at the exact values: the result array is the sign of the weight array, entry by entry

Point `t` of the grid stages rows `256·t … 256·t + 255` of the 4096×4096 weight array, and writes back the
same rows of the result.  The body's result at an entry of the block is the sign of the input block's entry,
so what point `t` writes back is block `t` of the entrywise sign of the weights; the 16 row blocks tile the
array (row `r` lies in block `r / 256`), so the array ends as the entrywise sign of the weights. -/

noncomputable section

namespace Cert.KernelIdeal.Hand

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The offsets of the body's one rectangle are all zero. -/
theorem zeroOffsets3 : (![0, 0] : Fin 2 → Nat) = fun _ => 0 := funext fun a => by fin_cases a <;> rfl

/-- The entrywise sign of a 4096×4096 array (the result's format change is the identity at the exact values). -/
def signOf3 (A : S4096x4096.Idx → Elt Ideal .f32) : S4096x4096.Idx → Elt Ideal .bf16 := fun i => Ideal.sign (A i)

theorem signOf3_apply (A : S4096x4096.Idx → Elt Ideal .f32) (i : S4096x4096.Idx) : signOf3 A i = Ideal.sign (A i) := rfl

/-- The body's payload at an entry: the sign of the loaded block's entry. -/
theorem bodyPay3_apply (x : Vec Ideal S256x4096 .f32) (j : S256x4096.Idx) : k3_pay1 x j = Ideal.sign (x j) := by
  unfold k3_pay1
  exact Cert.LibSignSelect.signSelect_truncf_apply x j _

/-- The block indices, decided over the grid: both windows are at row block `t`, column block 0. -/
theorem blockIndex3 : ∀ t : Fin cfg3.N, win3_0.index t (0 : Fin 2) = t.val
    ∧ win3_0.index t (1 : Fin 2) = 0
    ∧ win3_1.index t (0 : Fin 2) = t.val
    ∧ win3_1.index t (1 : Fin 2) = 0 :=
  (by decide +kernel : ∀ t : Fin grid3.N, _)

/-- What point `t` writes back is block `t` of the entrywise sign of the weights as the region finds them. -/
theorem flushed3_eq (c : Dev nD) (t : Fin cfg3.N) :
    (dat3 V c).flushed 1 t = ((cfg3.win 1).blk t).view.read (Elt Ideal) (signOf3 (V c main_arg4)) := by
  show (cfg3.win 1).cut (grid3.coords t) ((dat3 V c).after 1 t) = _
  rw [after3_1]
  unfold out3_1
  rw [View.canon_unit_zero zeroOffsets3]
  simp only [View.ld_unit_zero (S := S256x4096) zeroOffsets3]
  obtain ⟨e0, e1, e2, e3⟩ := blockIndex3 t
  funext j
  refine (bodyPay3_apply _ j).trans ?_
  show Ideal.sign (V c main_arg4 (((cfg3.win 0).blk t).view.emb j)) = Ideal.sign (V c main_arg4 (((cfg3.win 1).blk t).view.emb j))
  have h0 : ((cfg3.win 0).blk t).view.emb j = ((cfg3.win 1).blk t).view.emb j := by
    funext a; apply Fin.ext
    match a with
    | ⟨0, _⟩ => show win3_0.index t (0 : Fin 2) * 256 + 1 * (j 0).val = win3_1.index t (0 : Fin 2) * 256 + 1 * (j 0).val; omega
    | ⟨1, _⟩ => show win3_0.index t (1 : Fin 2) * 4096 + 1 * (j 1).val = win3_1.index t (1 : Fin 2) * 4096 + 1 * (j 1).val; omega
  rw [h0]

/-- An index of the array is in point `t`'s block iff each coordinate is in the block's range on its axis. -/
theorem memBlock3 (t : Fin cfg3.N) (i : S4096x4096.Idx) :
    i ∈ ((cfg3.win 1).blk t).view.set ↔ ∀ a : Fin 2, win3_1.index t a * S256x4096.size a ≤ (i a).val ∧ (i a).val < win3_1.index t a * S256x4096.size a + S256x4096.size a := by
  show i ∈ ((View.whole main_v5).slice (win3_1.rect t)).set ↔ _
  rw [View.set_slice_whole, Rect.mem_set_unit]
  exact Iff.rfl

/-- Every index of the result is in some point's block: row `r` is in block `r / 256`. -/
theorem covered3 (i : S4096x4096.Idx) : ∃ t : Fin cfg3.N, (cfg3.win 1).flush t = true ∧ i ∈ ((cfg3.win 1).blk t).view.set := by
  have hi0 : (i 0).val < 4096 := (i 0).isLt
  have hi1 : (i 1).val < 4096 := (i 1).isLt
  have hN : grid3.N = 16 := N_3
  have hlt : (i 0).val / 256 < grid3.N := by omega
  obtain ⟨e0, e1, e2, e3⟩ := blockIndex3 ⟨(i 0).val / 256, hlt⟩
  have e2' : win3_1.index ⟨(i 0).val / 256, hlt⟩ (0 : Fin 2) = (i 0).val / 256 := e2
  refine ⟨⟨(i 0).val / 256, hlt⟩, flush3_1 _, ?_⟩
  rw [memBlock3]
  intro a
  match a with
  | ⟨0, _⟩ => show win3_1.index ⟨(i 0).val / 256, hlt⟩ (0 : Fin 2) * 256 ≤ (i 0).val ∧ (i 0).val < win3_1.index ⟨(i 0).val / 256, hlt⟩ (0 : Fin 2) * 256 + 256; omega
  | ⟨1, _⟩ => show win3_1.index ⟨(i 0).val / 256, hlt⟩ (1 : Fin 2) * 4096 ≤ (i 1).val ∧ (i 1).val < win3_1.index ⟨(i 0).val / 256, hlt⟩ (1 : Fin 2) * 4096 + 4096; omega

/-- The result array after the region: the entrywise sign of the weight array as the region finds it. -/
theorem final3 (c : Dev nD) : (dat3 V c).arrAt 1 cfg3.N = signOf3 (V c (Pipeline.arrRef spec3 0)) :=
  (dat3 V c).arrAt_eq_of_cover 1 (signOf3 (V c main_arg4)) (fun t _ => flushed3_eq V c t) covered3

end Cert.KernelIdeal.Hand

end
-- ==== Proof.KI.RnPay.lean ====
/-
  The payloads of the three later matrix-product-with-statistics bodies (their first operand already in sixteen bits),
  each read at one element of its result at the ideal float values — the same readings as the first region's: zero
  blocks; the accumulator plus a contraction over 512 columns; a row plus the column sums of the accumulator or of its
  squares; the scaled mean; the clamped variance.
-/
import proofs.«157460_j63591285784858_2_alg».proof.Proof.KI.R1Pay

noncomputable section

namespace Cert.KernelIdeal.Hand

open Cert.KernelIdeal Cert.KernelIdeal.Gen
open Idealize.ShloMosaic Idealize.ShloMosaic.ValueIdx
open scoped BigOperators

/-! ## Region 4 -/

theorem k4_pay1_apply (j : S1024x1024.Idx) : k4_pay1 (F := Ideal) j = 0 := by
  unfold k4_pay1
  show shapeCast S1024x1024 (broadcast S1024x1024 (Scalar.ofBits (F := Ideal) .f32 0x00000000#32)) _ j = 0
  rw [shapeCast_self]
  exact Ideal.ofBits_zero_f32

theorem k4_pay3_apply (j : S1x1024.Idx) : k4_pay3 (F := Ideal) j = 0 := by
  unfold k4_pay3
  show shapeCast S1x1024 (broadcast S1x1024 (Scalar.ofBits (F := Ideal) .f32 0x00000000#32)) _ j = 0
  rw [shapeCast_self]
  exact Ideal.ofBits_zero_f32

theorem k4_pay4_apply (j : S1x1024.Idx) : k4_pay4 (F := Ideal) j = 0 := by
  unfold k4_pay4
  show shapeCast S1x1024 (broadcast S1x1024 (Scalar.ofBits (F := Ideal) .f32 0x00000000#32)) _ j = 0
  rw [shapeCast_self]
  exact Ideal.ofBits_zero_f32

theorem k4_pay2_apply (x0 : FVec Ideal S1024x512 .bf16) (acc : FVec Ideal S1024x1024 .f32) (x1 : FVec Ideal S1024x512 .bf16)
    (r q : Fin 1024) :
    k4_pay2 (F := Ideal) x0 acc x1 (ix2 r q) = acc (ix2 r q) + ∑ p : Fin 512, x0 (ix2 r p) * x1 (ix2 q p) := by
  unfold k4_pay2
  show shapeCast S1024x1024 (addf acc (matmul dot_S1024x512_S1024x512_S1024x1024_1_1_0_0_n_n none
    (shapeCast S1024x512 x0 _) (shapeCast S1024x512 x1 _) (constant (F := Ideal) S1024x1024 .f32 0x00000000#32))) _ (ix2 r q) = _
  rw [shapeCast_self, shapeCast_self, shapeCast_self]
  exact congrArg (acc (ix2 r q) + ·) (matmul_D1_apply x0 x1 r q)

theorem k4_pay5_apply (acc : FVec Ideal S1024x1024 .f32) (s : FVec Ideal S1x1024 .f32) (z : Fin 1) (q : Fin 1024) :
    k4_pay5 (F := Ideal) acc s (ix2 z q) = s (ix2 z q) + ∑ r : Fin 1024, acc (ix2 r q) := by
  unfold k4_pay5
  show shapeCast S1x1024 (addf s (shapeCast S1x1024 (multiReduction (F := Ideal) .add [0] S1024 acc 0x00000000#32 _ _ _) _)) _ (ix2 z q) = _
  rw [shapeCast_self]
  exact congrArg (s (ix2 z q) + ·) (colsum1024_apply acc _ _ _ _ z q)

theorem k4_pay6_apply (acc : FVec Ideal S1024x1024 .f32) (s : FVec Ideal S1x1024 .f32) (z : Fin 1) (q : Fin 1024) :
    k4_pay6 (F := Ideal) acc s (ix2 z q) = s (ix2 z q) + ∑ r : Fin 1024, acc (ix2 r q) * acc (ix2 r q) := by
  unfold k4_pay6
  show shapeCast S1x1024 (addf s (shapeCast S1x1024 (multiReduction (F := Ideal) .add [0] S1024 (mulf acc acc) 0x00000000#32 _ _ _) _)) _ (ix2 z q) = _
  rw [shapeCast_self]
  exact congrArg (s (ix2 z q) + ·) (colsum1024_apply (mulf acc acc) _ _ _ _ z q)

theorem k4_pay7_apply (s : FVec Ideal S1x1024 .f32) (j : S1x1024.Idx) :
    k4_pay7 (F := Ideal) s j = s j * Ideal.ofBits .f32 0x39800000#32 := rfl

theorem k4_pay8_apply (s sq : FVec Ideal S1x1024 .f32) (j : S1x1024.Idx) :
    k4_pay8 (F := Ideal) s sq j
      = max (sq j * Ideal.ofBits .f32 0x39800000#32
          - s j * Ideal.ofBits .f32 0x39800000#32 * (s j * Ideal.ofBits .f32 0x39800000#32)) (Ideal.ofBits .f32 0x00000000#32) := rfl

/-! ## Region 7 -/

theorem k7_pay1_apply (j : S1024x1024.Idx) : k7_pay1 (F := Ideal) j = 0 := by
  unfold k7_pay1
  show shapeCast S1024x1024 (broadcast S1024x1024 (Scalar.ofBits (F := Ideal) .f32 0x00000000#32)) _ j = 0
  rw [shapeCast_self]
  exact Ideal.ofBits_zero_f32

theorem k7_pay3_apply (j : S1x1024.Idx) : k7_pay3 (F := Ideal) j = 0 := by
  unfold k7_pay3
  show shapeCast S1x1024 (broadcast S1x1024 (Scalar.ofBits (F := Ideal) .f32 0x00000000#32)) _ j = 0
  rw [shapeCast_self]
  exact Ideal.ofBits_zero_f32

theorem k7_pay4_apply (j : S1x1024.Idx) : k7_pay4 (F := Ideal) j = 0 := by
  unfold k7_pay4
  show shapeCast S1x1024 (broadcast S1x1024 (Scalar.ofBits (F := Ideal) .f32 0x00000000#32)) _ j = 0
  rw [shapeCast_self]
  exact Ideal.ofBits_zero_f32

theorem k7_pay2_apply (x0 : FVec Ideal S1024x512 .bf16) (acc : FVec Ideal S1024x1024 .f32) (x1 : FVec Ideal S1024x512 .bf16)
    (r q : Fin 1024) :
    k7_pay2 (F := Ideal) x0 acc x1 (ix2 r q) = acc (ix2 r q) + ∑ p : Fin 512, x0 (ix2 r p) * x1 (ix2 q p) := by
  unfold k7_pay2
  show shapeCast S1024x1024 (addf acc (matmul dot_S1024x512_S1024x512_S1024x1024_1_1_0_0_n_n none
    (shapeCast S1024x512 x0 _) (shapeCast S1024x512 x1 _) (constant (F := Ideal) S1024x1024 .f32 0x00000000#32))) _ (ix2 r q) = _
  rw [shapeCast_self, shapeCast_self, shapeCast_self]
  exact congrArg (acc (ix2 r q) + ·) (matmul_D1_apply x0 x1 r q)

theorem k7_pay5_apply (acc : FVec Ideal S1024x1024 .f32) (s : FVec Ideal S1x1024 .f32) (z : Fin 1) (q : Fin 1024) :
    k7_pay5 (F := Ideal) acc s (ix2 z q) = s (ix2 z q) + ∑ r : Fin 1024, acc (ix2 r q) := by
  unfold k7_pay5
  show shapeCast S1x1024 (addf s (shapeCast S1x1024 (multiReduction (F := Ideal) .add [0] S1024 acc 0x00000000#32 _ _ _) _)) _ (ix2 z q) = _
  rw [shapeCast_self]
  exact congrArg (s (ix2 z q) + ·) (colsum1024_apply acc _ _ _ _ z q)

theorem k7_pay6_apply (acc : FVec Ideal S1024x1024 .f32) (s : FVec Ideal S1x1024 .f32) (z : Fin 1) (q : Fin 1024) :
    k7_pay6 (F := Ideal) acc s (ix2 z q) = s (ix2 z q) + ∑ r : Fin 1024, acc (ix2 r q) * acc (ix2 r q) := by
  unfold k7_pay6
  show shapeCast S1x1024 (addf s (shapeCast S1x1024 (multiReduction (F := Ideal) .add [0] S1024 (mulf acc acc) 0x00000000#32 _ _ _) _)) _ (ix2 z q) = _
  rw [shapeCast_self]
  exact congrArg (s (ix2 z q) + ·) (colsum1024_apply (mulf acc acc) _ _ _ _ z q)

theorem k7_pay7_apply (s : FVec Ideal S1x1024 .f32) (j : S1x1024.Idx) :
    k7_pay7 (F := Ideal) s j = s j * Ideal.ofBits .f32 0x39800000#32 := rfl

theorem k7_pay8_apply (s sq : FVec Ideal S1x1024 .f32) (j : S1x1024.Idx) :
    k7_pay8 (F := Ideal) s sq j
      = max (sq j * Ideal.ofBits .f32 0x39800000#32
          - s j * Ideal.ofBits .f32 0x39800000#32 * (s j * Ideal.ofBits .f32 0x39800000#32)) (Ideal.ofBits .f32 0x00000000#32) := rfl

/-! ## Region 10 -/

theorem k10_pay1_apply (j : S1024x1024.Idx) : k10_pay1 (F := Ideal) j = 0 := by
  unfold k10_pay1
  show shapeCast S1024x1024 (broadcast S1024x1024 (Scalar.ofBits (F := Ideal) .f32 0x00000000#32)) _ j = 0
  rw [shapeCast_self]
  exact Ideal.ofBits_zero_f32

theorem k10_pay3_apply (j : S1x1024.Idx) : k10_pay3 (F := Ideal) j = 0 := by
  unfold k10_pay3
  show shapeCast S1x1024 (broadcast S1x1024 (Scalar.ofBits (F := Ideal) .f32 0x00000000#32)) _ j = 0
  rw [shapeCast_self]
  exact Ideal.ofBits_zero_f32

theorem k10_pay4_apply (j : S1x1024.Idx) : k10_pay4 (F := Ideal) j = 0 := by
  unfold k10_pay4
  show shapeCast S1x1024 (broadcast S1x1024 (Scalar.ofBits (F := Ideal) .f32 0x00000000#32)) _ j = 0
  rw [shapeCast_self]
  exact Ideal.ofBits_zero_f32

theorem k10_pay2_apply (x0 : FVec Ideal S1024x512 .bf16) (acc : FVec Ideal S1024x1024 .f32) (x1 : FVec Ideal S1024x512 .bf16)
    (r q : Fin 1024) :
    k10_pay2 (F := Ideal) x0 acc x1 (ix2 r q) = acc (ix2 r q) + ∑ p : Fin 512, x0 (ix2 r p) * x1 (ix2 q p) := by
  unfold k10_pay2
  show shapeCast S1024x1024 (addf acc (matmul dot_S1024x512_S1024x512_S1024x1024_1_1_0_0_n_n none
    (shapeCast S1024x512 x0 _) (shapeCast S1024x512 x1 _) (constant (F := Ideal) S1024x1024 .f32 0x00000000#32))) _ (ix2 r q) = _
  rw [shapeCast_self, shapeCast_self, shapeCast_self]
  exact congrArg (acc (ix2 r q) + ·) (matmul_D1_apply x0 x1 r q)

theorem k10_pay5_apply (acc : FVec Ideal S1024x1024 .f32) (s : FVec Ideal S1x1024 .f32) (z : Fin 1) (q : Fin 1024) :
    k10_pay5 (F := Ideal) acc s (ix2 z q) = s (ix2 z q) + ∑ r : Fin 1024, acc (ix2 r q) := by
  unfold k10_pay5
  show shapeCast S1x1024 (addf s (shapeCast S1x1024 (multiReduction (F := Ideal) .add [0] S1024 acc 0x00000000#32 _ _ _) _)) _ (ix2 z q) = _
  rw [shapeCast_self]
  exact congrArg (s (ix2 z q) + ·) (colsum1024_apply acc _ _ _ _ z q)

theorem k10_pay6_apply (acc : FVec Ideal S1024x1024 .f32) (s : FVec Ideal S1x1024 .f32) (z : Fin 1) (q : Fin 1024) :
    k10_pay6 (F := Ideal) acc s (ix2 z q) = s (ix2 z q) + ∑ r : Fin 1024, acc (ix2 r q) * acc (ix2 r q) := by
  unfold k10_pay6
  show shapeCast S1x1024 (addf s (shapeCast S1x1024 (multiReduction (F := Ideal) .add [0] S1024 (mulf acc acc) 0x00000000#32 _ _ _) _)) _ (ix2 z q) = _
  rw [shapeCast_self]
  exact congrArg (s (ix2 z q) + ·) (colsum1024_apply (mulf acc acc) _ _ _ _ z q)

theorem k10_pay7_apply (s : FVec Ideal S1x1024 .f32) (j : S1x1024.Idx) :
    k10_pay7 (F := Ideal) s j = s j * Ideal.ofBits .f32 0x39800000#32 := rfl

theorem k10_pay8_apply (s sq : FVec Ideal S1x1024 .f32) (j : S1x1024.Idx) :
    k10_pay8 (F := Ideal) s sq j
      = max (sq j * Ideal.ofBits .f32 0x39800000#32
          - s j * Ideal.ofBits .f32 0x39800000#32 * (s j * Ideal.ofBits .f32 0x39800000#32)) (Ideal.ofBits .f32 0x00000000#32) := rfl

end Cert.KernelIdeal.Hand

end
-- ==== Proof.KI.R4Value.lean ====
/-
  The value of matrix-product region 4 at the ideal float values.

  The region walks a grid of points `t = 32 j + 8 i + k` (`j` the column block of the product, `i` its row block, `k`
  the reduction step). At a point the two input windows stage rows `1024 i …`, columns `512 k …` of the left array and
  rows `1024 j …`, columns `512 k …` of the right one. The carried state is an accumulator, a row of running column
  sums and a row of running column sums of squares. In closed form, after point `t`:
    • the accumulator at `(r, q)` is the contraction of row `1024 i + r` of the left array with row `1024 j + q` of the
      right one over the first `512 (k + 1)` columns — after the last step `k = 7`, the whole product entry;
    • the running sums at `(0, q)` are the sums of column `1024 j + q` of the product (of its squares) over the row
      blocks completed so far for this `j`: `i` of them, and `i + 1` after a last step.
  Both by induction on the point; sums on the extended reals commute and associate with no finiteness, so nothing is
  assumed of the arrays. The partial sums are stated with the arrays read at natural-number coordinates (`rd`), which
  keeps the index arithmetic free of bounds proofs. Then the three output arrays after the run: the product, its
  column means and its clamped column variances, each written back block by block at the points that flush.
-/
import proofs.«157460_j63591285784858_2_alg».proof.Proof.KI.R4Dat
import proofs.«157460_j63591285784858_2_alg».proof.Proof.KI.R1Spec
import proofs.«157460_j63591285784858_2_alg».proof.Proof.KI.RnPay
import proofs.«157460_j63591285784858_2_alg».proof.Proof.LibBatchVar
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.MatStats
open scoped BigOperators

/-! ## The index maps and the input blocks -/

/-- The printed index maps, decided over the grid: with `t = 32 j + 8 i + k`, the block indices of the five windows. -/
theorem idx4 : ∀ t : Fin cfg4.N,
    win4_0.index t (0 : Fin 2) = t.val / 8 % 4 ∧ win4_0.index t (1 : Fin 2) = t.val % 8
    ∧ win4_1.index t (0 : Fin 2) = t.val / 32 ∧ win4_1.index t (1 : Fin 2) = t.val % 8
    ∧ win4_2.index t (0 : Fin 2) = t.val / 8 % 4 ∧ win4_2.index t (1 : Fin 2) = t.val / 32
    ∧ win4_3.index t (0 : Fin 2) = 0 ∧ win4_3.index t (1 : Fin 2) = t.val / 32
    ∧ win4_4.index t (0 : Fin 2) = 0 ∧ win4_4.index t (1 : Fin 2) = t.val / 32 :=
  (by decide +kernel : ∀ t : Fin grid4.N, _)

theorem N4_eq : cfg4.N = 128 := N_4

section Blocks
variable (V : (c : Dev nD) → (b : Ref sig .tc) → Buf (Elt Ideal) ((c : Thread nD τ).loc b))

/-- The left and the right array, as the region finds them. -/
abbrev lhs4 (c : Dev nD) : S4096x4096.Idx → EReal := V c main_v4
abbrev rhs4 (c : Dev nD) : S4096x4096.Idx → EReal := V c main_v5

theorem iblk4_0_apply (c : Dev nD) (t : Fin cfg4.N) (r : Fin 1024) (p : Fin 512) :
    (iblk4 V c 0 t : Vec Ideal S1024x512 .bf16) (ix2 r p)
      = rd (lhs4 V c) (1024 * (t.val / 8 % 4) + r.val) (512 * (t.val % 8) + p.val) := by
  obtain ⟨e0, e1, -⟩ := idx4 t
  have hN : t.val < 128 := by have := t.isLt; have := N4_eq; omega
  rw [rd_of_lt _ (by have := r.isLt; omega) (by have := p.isLt; omega)]
  unfold iblk4
  rw [View.read_apply]
  show V c main_v4 _ = V c main_v4 _
  congr 1
  funext a
  apply Fin.ext
  match a with
  | ⟨0, _⟩ => show win4_0.index t (0 : Fin 2) * 1024 + 1 * r.val = 1024 * (t.val / 8 % 4) + r.val; rw [e0]; omega
  | ⟨1, _⟩ => show win4_0.index t (1 : Fin 2) * 512 + 1 * p.val = 512 * (t.val % 8) + p.val; rw [e1]; omega

theorem iblk4_1_apply (c : Dev nD) (t : Fin cfg4.N) (q : Fin 1024) (p : Fin 512) :
    (iblk4 V c 1 t : Vec Ideal S1024x512 .bf16) (ix2 q p)
      = rd (rhs4 V c) (1024 * (t.val / 32) + q.val) (512 * (t.val % 8) + p.val) := by
  obtain ⟨-, -, e0, e1, -⟩ := idx4 t
  have hN : t.val < 128 := by have := t.isLt; have := N4_eq; omega
  rw [rd_of_lt _ (by have := q.isLt; omega) (by have := p.isLt; omega)]
  unfold iblk4
  rw [View.read_apply]
  show V c main_v5 _ = V c main_v5 _
  congr 1
  funext a
  apply Fin.ext
  match a with
  | ⟨0, _⟩ => show win4_1.index t (0 : Fin 2) * 1024 + 1 * q.val = 1024 * (t.val / 32) + q.val; rw [e0]; omega
  | ⟨1, _⟩ => show win4_1.index t (1 : Fin 2) * 512 + 1 * p.val = 512 * (t.val % 8) + p.val; rw [e1]; omega

end Blocks

/-! ## The closed forms -/

/-- The contraction of row `1024 i + r` of `X` with row `1024 j + q` of `W` over the first `K` blocks of 512 columns. -/
def accP4 (X : S4096x4096.Idx → EReal) (W : S4096x4096.Idx → EReal) (i j K r q : ℕ) : EReal :=
  ∑ k' ∈ Finset.range K, ∑ p ∈ Finset.range 512, rd X (1024 * i + r) (512 * k' + p) * rd W (1024 * j + q) (512 * k' + p)

/-- After 8 blocks it is the contraction over all 4096 columns. -/
theorem accP4_full (X : S4096x4096.Idx → EReal) (W : S4096x4096.Idx → EReal) (i j r q : ℕ) :
    accP4 X W i j 8 r q = dotN X W 4096 (1024 * i + r) (1024 * j + q) := by
  unfold accP4 dotN
  exact (sum_range_blocks (fun p => rd X (1024 * i + r) p * rd W (1024 * j + q) p) 8 512).symm

theorem accP4_zero (X : S4096x4096.Idx → EReal) (W : S4096x4096.Idx → EReal) (i j r q : ℕ) : accP4 X W i j 0 r q = 0 := by
  unfold accP4; rw [Finset.range_zero, Finset.sum_empty]

theorem accP4_succ (X : S4096x4096.Idx → EReal) (W : S4096x4096.Idx → EReal) (i j K r q : ℕ) :
    accP4 X W i j (K + 1) r q
      = accP4 X W i j K r q + ∑ p ∈ Finset.range 512, rd X (1024 * i + r) (512 * K + p) * rd W (1024 * j + q) (512 * K + p) := by
  unfold accP4; exact Finset.sum_range_succ _ K

/-- The sum of `g` at column `1024 j + q` over the first `I` blocks of 1024 rows. -/
def rowsP4 (g : ℕ → ℕ → EReal) (j I q : ℕ) : EReal :=
  ∑ i' ∈ Finset.range I, ∑ r ∈ Finset.range 1024, g (1024 * i' + r) (1024 * j + q)

theorem rowsP4_zero (g : ℕ → ℕ → EReal) (j q : ℕ) : rowsP4 g j 0 q = 0 := by
  unfold rowsP4; rw [Finset.range_zero, Finset.sum_empty]

theorem rowsP4_succ (g : ℕ → ℕ → EReal) (j I q : ℕ) :
    rowsP4 g j (I + 1) q = rowsP4 g j I q + ∑ r ∈ Finset.range 1024, g (1024 * I + r) (1024 * j + q) := by
  unfold rowsP4; exact Finset.sum_range_succ _ I

/-- The product entry and its square, at natural-number coordinates. -/
abbrev gS4 (X : S4096x4096.Idx → EReal) (W : S4096x4096.Idx → EReal) (a b : ℕ) : EReal := dotN X W 4096 a b
abbrev gQ4 (X : S4096x4096.Idx → EReal) (W : S4096x4096.Idx → EReal) (a b : ℕ) : EReal := dotN X W 4096 a b * dotN X W 4096 a b

/-! ## One grid point -/

section Step
variable {F : FTy → Type} [FloatOps F]

theorem step4_acc_eq (n : ℕ) (x0 : Vec F S1024x512 .bf16) (x1 : Vec F S1024x512 .bf16) (s : St4 F) :
    (step4 n x0 x1 s).acc = k4_pay2 x0 (if n % 8 = 0 then k4_pay1 else s.acc) x1 := by
  unfold step4
  dsimp only
  split <;> rfl

theorem step4_sum_eq (n : ℕ) (x0 : Vec F S1024x512 .bf16) (x1 : Vec F S1024x512 .bf16) (s : St4 F) :
    (step4 n x0 x1 s).sum
      = if n % 8 = 7 then k4_pay5 (k4_pay2 x0 (if n % 8 = 0 then k4_pay1 else s.acc) x1) (if n / 8 % 4 = 0 then k4_pay3 else s.sum)
        else (if n / 8 % 4 = 0 then k4_pay3 else s.sum) := by
  unfold step4
  dsimp only
  split <;> rfl

theorem step4_sq_eq (n : ℕ) (x0 : Vec F S1024x512 .bf16) (x1 : Vec F S1024x512 .bf16) (s : St4 F) :
    (step4 n x0 x1 s).sq
      = if n % 8 = 7 then k4_pay6 (k4_pay2 x0 (if n % 8 = 0 then k4_pay1 else s.acc) x1) (if n / 8 % 4 = 0 then k4_pay4 else s.sq)
        else (if n / 8 % 4 = 0 then k4_pay4 else s.sq) := by
  unfold step4
  dsimp only
  split <;> rfl

end Step

/-- The accumulator after point `n`, from the two blocks the point stages and the accumulator before it. -/
theorem acc_step4 (X : S4096x4096.Idx → EReal) (W : S4096x4096.Idx → EReal) (n : ℕ) (x0 : FVec Ideal S1024x512 .bf16) (x1 : FVec Ideal S1024x512 .bf16)
    (a : FVec Ideal S1024x1024 .f32)
    (hx0 : ∀ (r : Fin 1024) (p : Fin 512), x0 (ix2 r p) = rd X (1024 * (n / 8 % 4) + r.val) (512 * (n % 8) + p.val))
    (hx1 : ∀ (q : Fin 1024) (p : Fin 512), x1 (ix2 q p) = rd W (1024 * (n / 32) + q.val) (512 * (n % 8) + p.val))
    (ha : n % 8 ≠ 0 → ∀ r q : Fin 1024, a (ix2 r q) = accP4 X W ((n - 1) / 8 % 4) ((n - 1) / 32) ((n - 1) % 8 + 1) r.val q.val)
    (r q : Fin 1024) :
    k4_pay2 (F := Ideal) x0 (if n % 8 = 0 then k4_pay1 (F := Ideal) else a) x1 (ix2 r q)
      = accP4 X W (n / 8 % 4) (n / 32) (n % 8 + 1) r.val q.val := by
  rw [k4_pay2_apply]
  have hblk : ∑ p : Fin 512, x0 (ix2 r p) * x1 (ix2 q p)
      = ∑ p ∈ Finset.range 512, rd X (1024 * (n / 8 % 4) + r.val) (512 * (n % 8) + p) * rd W (1024 * (n / 32) + q.val) (512 * (n % 8) + p) := by
    rw [← sum_fin_eq_range (fun p => rd X (1024 * (n / 8 % 4) + r.val) (512 * (n % 8) + p) * rd W (1024 * (n / 32) + q.val) (512 * (n % 8) + p))]
    exact Finset.sum_congr rfl fun p _ => by rw [hx0, hx1]
  rw [hblk, accP4_succ]
  by_cases h0 : n % 8 = 0
  · rw [if_pos h0, k4_pay1_apply, h0, accP4_zero]
  · rw [if_neg h0, ha h0 r q, show (n - 1) / 8 % 4 = n / 8 % 4 by omega, show (n - 1) / 32 = n / 32 by omega,
      show (n - 1) % 8 + 1 = n % 8 by omega]

/-- The running column sums after point `n`. -/
theorem sum_step4 (X : S4096x4096.Idx → EReal) (W : S4096x4096.Idx → EReal) (n : ℕ) (acc : FVec Ideal S1024x1024 .f32) (s : FVec Ideal S1x1024 .f32)
    (hacc : ∀ r q : Fin 1024, acc (ix2 r q) = accP4 X W (n / 8 % 4) (n / 32) (n % 8 + 1) r.val q.val)
    (hs : n / 8 % 4 ≠ 0 → ∀ (z : Fin 1) (q : Fin 1024), s (ix2 z q) = rowsP4 (gS4 X W) ((n - 1) / 32) (((n - 1) % 32 + 1) / 8) q.val)
    (z : Fin 1) (q : Fin 1024) :
    (if n % 8 = 7 then k4_pay5 (F := Ideal) acc (if n / 8 % 4 = 0 then k4_pay3 (F := Ideal) else s) else (if n / 8 % 4 = 0 then k4_pay3 (F := Ideal) else s)) (ix2 z q)
      = rowsP4 (gS4 X W) (n / 32) ((n % 32 + 1) / 8) q.val := by
  have h0 : (if n / 8 % 4 = 0 then k4_pay3 (F := Ideal) else s) (ix2 z q) = rowsP4 (gS4 X W) (n / 32) (n / 8 % 4) q.val := by
    by_cases hi : n / 8 % 4 = 0
    · rw [if_pos hi, k4_pay3_apply, hi, rowsP4_zero]
    · rw [if_neg hi, hs hi z q, show (n - 1) / 32 = n / 32 by omega, show ((n - 1) % 32 + 1) / 8 = n / 8 % 4 by omega]
  by_cases h3 : n % 8 = 7
  · rw [if_pos h3, k4_pay5_apply, h0]
    have hcol : ∑ r : Fin 1024, acc (ix2 r q) = ∑ r ∈ Finset.range 1024, gS4 X W (1024 * (n / 8 % 4) + r) (1024 * (n / 32) + q.val) := by
      rw [← sum_fin_eq_range (fun r => gS4 X W (1024 * (n / 8 % 4) + r) (1024 * (n / 32) + q.val))]
      exact Finset.sum_congr rfl fun r _ => by rw [hacc, h3]; exact accP4_full X W _ _ _ _
    rw [hcol, show (n % 32 + 1) / 8 = n / 8 % 4 + 1 by omega, rowsP4_succ]
  · rw [if_neg h3, h0, show (n % 32 + 1) / 8 = n / 8 % 4 by omega]

/-- The running column sums of squares after point `n`. -/
theorem sq_step4 (X : S4096x4096.Idx → EReal) (W : S4096x4096.Idx → EReal) (n : ℕ) (acc : FVec Ideal S1024x1024 .f32) (s : FVec Ideal S1x1024 .f32)
    (hacc : ∀ r q : Fin 1024, acc (ix2 r q) = accP4 X W (n / 8 % 4) (n / 32) (n % 8 + 1) r.val q.val)
    (hs : n / 8 % 4 ≠ 0 → ∀ (z : Fin 1) (q : Fin 1024), s (ix2 z q) = rowsP4 (gQ4 X W) ((n - 1) / 32) (((n - 1) % 32 + 1) / 8) q.val)
    (z : Fin 1) (q : Fin 1024) :
    (if n % 8 = 7 then k4_pay6 (F := Ideal) acc (if n / 8 % 4 = 0 then k4_pay4 (F := Ideal) else s) else (if n / 8 % 4 = 0 then k4_pay4 (F := Ideal) else s)) (ix2 z q)
      = rowsP4 (gQ4 X W) (n / 32) ((n % 32 + 1) / 8) q.val := by
  have h0 : (if n / 8 % 4 = 0 then k4_pay4 (F := Ideal) else s) (ix2 z q) = rowsP4 (gQ4 X W) (n / 32) (n / 8 % 4) q.val := by
    by_cases hi : n / 8 % 4 = 0
    · rw [if_pos hi, k4_pay4_apply, hi, rowsP4_zero]
    · rw [if_neg hi, hs hi z q, show (n - 1) / 32 = n / 32 by omega, show ((n - 1) % 32 + 1) / 8 = n / 8 % 4 by omega]
  by_cases h3 : n % 8 = 7
  · rw [if_pos h3, k4_pay6_apply, h0]
    have hcol : ∑ r : Fin 1024, acc (ix2 r q) * acc (ix2 r q)
        = ∑ r ∈ Finset.range 1024, gQ4 X W (1024 * (n / 8 % 4) + r) (1024 * (n / 32) + q.val) := by
      rw [← sum_fin_eq_range (fun r => gQ4 X W (1024 * (n / 8 % 4) + r) (1024 * (n / 32) + q.val))]
      exact Finset.sum_congr rfl fun r _ => by rw [hacc, h3, accP4_full X W _ _ _ _]
    rw [hcol, show (n % 32 + 1) / 8 = n / 8 % 4 + 1 by omega, rowsP4_succ]
  · rw [if_neg h3, h0, show (n % 32 + 1) / 8 = n / 8 % 4 by omega]

/-- One point: the three closed forms after it, from the blocks it stages and the closed forms before it. -/
theorem step_forms4 (X : S4096x4096.Idx → EReal) (W : S4096x4096.Idx → EReal) (n : ℕ) (x0 : Vec Ideal S1024x512 .bf16) (x1 : Vec Ideal S1024x512 .bf16)
    (s : St4 Ideal)
    (hx0 : ∀ (r : Fin 1024) (p : Fin 512), x0 (ix2 r p) = rd X (1024 * (n / 8 % 4) + r.val) (512 * (n % 8) + p.val))
    (hx1 : ∀ (q : Fin 1024) (p : Fin 512), x1 (ix2 q p) = rd W (1024 * (n / 32) + q.val) (512 * (n % 8) + p.val))
    (ha : n % 8 ≠ 0 → ∀ r q : Fin 1024, s.acc (ix2 r q) = accP4 X W ((n - 1) / 8 % 4) ((n - 1) / 32) ((n - 1) % 8 + 1) r.val q.val)
    (hs : n / 8 % 4 ≠ 0 → ∀ (z : Fin 1) (q : Fin 1024), s.sum (ix2 z q) = rowsP4 (gS4 X W) ((n - 1) / 32) (((n - 1) % 32 + 1) / 8) q.val)
    (hq : n / 8 % 4 ≠ 0 → ∀ (z : Fin 1) (q : Fin 1024), s.sq (ix2 z q) = rowsP4 (gQ4 X W) ((n - 1) / 32) (((n - 1) % 32 + 1) / 8) q.val) :
    (∀ r q : Fin 1024, (step4 n x0 x1 s).acc (ix2 r q) = accP4 X W (n / 8 % 4) (n / 32) (n % 8 + 1) r.val q.val)
    ∧ (∀ (z : Fin 1) (q : Fin 1024), (step4 n x0 x1 s).sum (ix2 z q) = rowsP4 (gS4 X W) (n / 32) ((n % 32 + 1) / 8) q.val)
    ∧ (∀ (z : Fin 1) (q : Fin 1024), (step4 n x0 x1 s).sq (ix2 z q) = rowsP4 (gQ4 X W) (n / 32) ((n % 32 + 1) / 8) q.val) := by
  have hA : ∀ r q : Fin 1024, k4_pay2 (F := Ideal) x0 (if n % 8 = 0 then k4_pay1 (F := Ideal) else s.acc) x1 (ix2 r q)
      = accP4 X W (n / 8 % 4) (n / 32) (n % 8 + 1) r.val q.val := fun r q => acc_step4 X W n x0 x1 s.acc hx0 hx1 ha r q
  refine ⟨fun r q => ?_, fun z q => ?_, fun z q => ?_⟩
  · rw [step4_acc_eq]; exact hA r q
  · rw [step4_sum_eq]; exact sum_step4 X W n _ s.sum hA hs z q
  · rw [step4_sq_eq]; exact sq_step4 X W n _ s.sq hA hq z q

/-! ## The state after every point -/

section State
variable (V : (c : Dev nD) → (b : Ref sig .tc) → Buf (Elt Ideal) ((c : Thread nD τ).loc b))

/-- After point `n = 32 j + 8 i + k`: the accumulator is the contraction over the first `k + 1` column blocks, the two rows
    the column sums over the row blocks completed for this `j`. -/
theorem st4_forms (c : Dev nD) : ∀ (n : ℕ) (hn : n < cfg4.N),
    (∀ r q : Fin 1024, (st4 V c n hn).acc (ix2 r q) = accP4 (lhs4 V c) (rhs4 V c) (n / 8 % 4) (n / 32) (n % 8 + 1) r.val q.val)
    ∧ (∀ (z : Fin 1) (q : Fin 1024), (st4 V c n hn).sum (ix2 z q) = rowsP4 (gS4 (lhs4 V c) (rhs4 V c)) (n / 32) ((n % 32 + 1) / 8) q.val)
    ∧ (∀ (z : Fin 1) (q : Fin 1024), (st4 V c n hn).sq (ix2 z q) = rowsP4 (gQ4 (lhs4 V c) (rhs4 V c)) (n / 32) ((n % 32 + 1) / 8) q.val)
  | 0, hn =>
    step_forms4 (lhs4 V c) (rhs4 V c) 0 (iblk4 V c 0 ⟨0, hn⟩) (iblk4 V c 1 ⟨0, hn⟩) (St4.mk (k4_pay1 (F := Ideal)) (k4_pay3 (F := Ideal)) (k4_pay4 (F := Ideal)))
      (fun r p => iblk4_0_apply V c ⟨0, hn⟩ r p) (fun q p => iblk4_1_apply V c ⟨0, hn⟩ q p)
      (fun h => absurd rfl h) (fun h => absurd rfl h) (fun h => absurd rfl h)
  | n + 1, hn => by
    obtain ⟨ia, is, iq⟩ := st4_forms c n (Nat.lt_of_succ_lt hn)
    rw [st4_succ]
    exact step_forms4 (lhs4 V c) (rhs4 V c) (n + 1) (iblk4 V c 0 ⟨n + 1, hn⟩) (iblk4 V c 1 ⟨n + 1, hn⟩) (st4 V c n (Nat.lt_of_succ_lt hn))
      (fun r p => iblk4_0_apply V c ⟨n + 1, hn⟩ r p) (fun q p => iblk4_1_apply V c ⟨n + 1, hn⟩ q p)
      (fun _ => ia) (fun _ => is) (fun _ => iq)

end State

/-! ## The three output arrays -/

section Arrays
variable (V : (c : Dev nD) → (b : Ref sig .tc) → Buf (Elt Ideal) ((c : Thread nD τ).loc b))

/-- The product of the left array with the transpose of the right one, as a whole array. -/
abbrev H4 (c : Dev nD) : S4096x4096.Idx → EReal := prod (lhs4 V c) (rhs4 V c)

/-- After a last reduction step the accumulator is the product's block `(i, j)`. -/
theorem acc_block4 (c : Dev nD) (t : Fin cfg4.N) (h3 : t.val % 8 = 7) (y : S1024x1024.Idx) (i : S4096x4096.Idx)
    (h0 : (i 0).val = 1024 * (t.val / 8 % 4) + (y 0).val) (h1 : (i 1).val = 1024 * (t.val / 32) + (y 1).val) :
    (st4 V c t.val t.isLt).acc y = H4 V c i := by
  obtain ⟨r, q, rfl⟩ : ∃ (r q : Fin 1024), y = ix2 r q := ⟨y 0, y 1, eq_ix2 y⟩
  obtain ⟨a, b, rfl⟩ : ∃ (a : Fin 4096) (b : Fin 4096), i = ix2 a b := ⟨i 0, i 1, eq_ix2 i⟩
  have h0' : a.val = 1024 * (t.val / 8 % 4) + r.val := h0
  have h1' : b.val = 1024 * (t.val / 32) + q.val := h1
  rw [(st4_forms V c t.val t.isLt).1 r q, show t.val % 8 + 1 = 8 by omega, accP4_full]
  show _ = prod (lhs4 V c) (rhs4 V c) (ix2 a b)
  rw [prod_eq_dotN, h0', h1']

/-- After the last point of a column block the running sums are the whole column sums of the product. -/
theorem sum_last4 (c : Dev nD) (t : Fin cfg4.N) (h15 : t.val % 32 = 31) (z : Fin 1) (q : Fin 1024) (b : Fin 4096)
    (hb : b.val = 1024 * (t.val / 32) + q.val) :
    (st4 V c t.val t.isLt).sum (ix2 z q) = ∑ a : Fin 4096, H4 V c (ix2 a b) := by
  rw [(st4_forms V c t.val t.isLt).2.1 z q, colsum_blocks (H4 V c) 4 1024 (by norm_num) b, show (t.val % 32 + 1) / 8 = 4 by omega]
  unfold rowsP4
  refine Finset.sum_congr rfl fun i' hi' => Finset.sum_congr rfl fun r hr => ?_
  have hi4 : i' < 4 := Finset.mem_range.mp hi'
  have hr4 : r < 1024 := Finset.mem_range.mp hr
  rw [rd_prod (lhs4 V c) (rhs4 V c) (by omega) b.isLt, hb]

theorem sq_last4 (c : Dev nD) (t : Fin cfg4.N) (h15 : t.val % 32 = 31) (z : Fin 1) (q : Fin 1024) (b : Fin 4096)
    (hb : b.val = 1024 * (t.val / 32) + q.val) :
    (st4 V c t.val t.isLt).sq (ix2 z q) = ∑ a : Fin 4096, H4 V c (ix2 a b) * H4 V c (ix2 a b) := by
  rw [(st4_forms V c t.val t.isLt).2.2 z q, colsumsq_blocks (H4 V c) 4 1024 (by norm_num) b, show (t.val % 32 + 1) / 8 = 4 by omega]
  unfold rowsP4
  refine Finset.sum_congr rfl fun i' hi' => Finset.sum_congr rfl fun r hr => ?_
  have hi4 : i' < 4 := Finset.mem_range.mp hi'
  have hr4 : r < 1024 := Finset.mem_range.mp hr
  rw [rd_prod (lhs4 V c) (rhs4 V c) (by omega) b.isLt, hb]

/-- The mean's block after the last point of column block `j`. -/
theorem mean_block4 (c : Dev nD) (t : Fin cfg4.N) (h15 : t.val % 32 = 31) (y : S1x1024.Idx) (i : S1x4096.Idx)
    (h1 : (i 1).val = 1024 * (t.val / 32) + (y 1).val) :
    k4_pay7 (F := Ideal) (st4 V c t.val t.isLt).sum y = colMean 4096 (H4 V c) i := by
  obtain ⟨z, q, rfl⟩ : ∃ (z : Fin 1) (q : Fin 1024), y = ix2 z q := ⟨y 0, y 1, eq_ix2 y⟩
  obtain ⟨z', b, rfl⟩ : ∃ (z' : Fin 1) (b : Fin 4096), i = ix2 z' b := ⟨i 0, i 1, eq_ix2 i⟩
  rw [k4_pay7_apply, sum_last4 V c t h15 z q b h1, Cert.LibBatchVar.ofBits_inv_4096, colMean_apply]

/-- The variance's block after the last point of column block `j`. -/
theorem var_block4 (c : Dev nD) (t : Fin cfg4.N) (h15 : t.val % 32 = 31) (y : S1x1024.Idx) (i : S1x4096.Idx)
    (h1 : (i 1).val = 1024 * (t.val / 32) + (y 1).val) :
    k4_pay8 (F := Ideal) (st4 V c t.val t.isLt).sum (st4 V c t.val t.isLt).sq y = colVar 4096 (H4 V c) i := by
  obtain ⟨z, q, rfl⟩ : ∃ (z : Fin 1) (q : Fin 1024), y = ix2 z q := ⟨y 0, y 1, eq_ix2 y⟩
  obtain ⟨z', b, rfl⟩ : ∃ (z' : Fin 1) (b : Fin 4096), i = ix2 z' b := ⟨i 0, i 1, eq_ix2 i⟩
  rw [k4_pay8_apply, sum_last4 V c t h15 z q b h1, sq_last4 V c t h15 z q b h1, Cert.LibBatchVar.ofBits_inv_4096,
    Ideal.ofBits_zero_f32, colVar_apply]

/-! ### What the flushing points write back -/

theorem flushed4_2 (c : Dev nD) (t : Fin cfg4.N) (hf : (cfg4.win 2).flush t = true) :
    (dat4 V c).flushed 2 t = ((cfg4.win 2).blk t).view.read (Elt Ideal) (H4 V c) := by
  have h3 : t.val % 8 = 7 := (flush4_2 t).mp hf
  obtain ⟨-, -, -, -, e0, e1, -⟩ := idx4 t
  show (cfg4.win 2).cut (grid4.coords t) ((dat4 V c).after 2 t) = _
  rw [after4_2]
  funext y
  rw [View.read_apply]
  exact acc_block4 V c t h3 y _
    (by show win4_2.index t (0 : Fin 2) * 1024 + 1 * (y 0).val = _; rw [e0]; omega)
    (by show win4_2.index t (1 : Fin 2) * 1024 + 1 * (y 1).val = _; rw [e1]; omega)

theorem flushed4_3 (c : Dev nD) (t : Fin cfg4.N) (hf : (cfg4.win 3).flush t = true) :
    (dat4 V c).flushed 3 t = ((cfg4.win 3).blk t).view.read (Elt Ideal) (colMean 4096 (H4 V c)) := by
  have h15 : t.val % 32 = 31 := (flush4_3 t).mp hf
  obtain ⟨-, -, -, -, -, -, e0, e1, -⟩ := idx4 t
  show (cfg4.win 3).cut (grid4.coords t) ((dat4 V c).after 3 t) = _
  rw [after4_3]
  funext y
  rw [View.read_apply]
  exact mean_block4 V c t h15 y _
    (by show win4_3.index t (1 : Fin 2) * 1024 + 1 * (y 1).val = _; rw [e1]; omega)

theorem flushed4_4 (c : Dev nD) (t : Fin cfg4.N) (hf : (cfg4.win 4).flush t = true) :
    (dat4 V c).flushed 4 t = ((cfg4.win 4).blk t).view.read (Elt Ideal) (colVar 4096 (H4 V c)) := by
  have h15 : t.val % 32 = 31 := (flush4_4 t).mp hf
  obtain ⟨-, -, -, -, -, -, -, -, e0, e1⟩ := idx4 t
  show (cfg4.win 4).cut (grid4.coords t) ((dat4 V c).after 4 t) = _
  rw [after4_4]
  funext y
  rw [View.read_apply]
  exact var_block4 V c t h15 y _
    (by show win4_4.index t (1 : Fin 2) * 1024 + 1 * (y 1).val = _; rw [e1]; omega)

/-! ### The flushing points' blocks cover the arrays -/

theorem mem_blk4_2 (t : Fin cfg4.N) (i : S4096x4096.Idx) :
    i ∈ ((cfg4.win 2).blk t).view.set
      ↔ ∀ a : Fin 2, win4_2.index t a * S1024x1024.size a ≤ (i a).val ∧ (i a).val < win4_2.index t a * S1024x1024.size a + S1024x1024.size a := by
  show i ∈ ((View.whole main_v6_0).slice (win4_2.rect t)).set ↔ _
  rw [View.set_slice_whole, Rect.mem_set_unit]
  exact Iff.rfl

theorem mem_blk4_3 (t : Fin cfg4.N) (i : S1x4096.Idx) :
    i ∈ ((cfg4.win 3).blk t).view.set
      ↔ ∀ a : Fin 2, win4_3.index t a * S1x1024.size a ≤ (i a).val ∧ (i a).val < win4_3.index t a * S1x1024.size a + S1x1024.size a := by
  show i ∈ ((View.whole main_v6_1).slice (win4_3.rect t)).set ↔ _
  rw [View.set_slice_whole, Rect.mem_set_unit]
  exact Iff.rfl

theorem mem_blk4_4 (t : Fin cfg4.N) (i : S1x4096.Idx) :
    i ∈ ((cfg4.win 4).blk t).view.set
      ↔ ∀ a : Fin 2, win4_4.index t a * S1x1024.size a ≤ (i a).val ∧ (i a).val < win4_4.index t a * S1x1024.size a + S1x1024.size a := by
  show i ∈ ((View.whole main_v6_2).slice (win4_4.rect t)).set ↔ _
  rw [View.set_slice_whole, Rect.mem_set_unit]
  exact Iff.rfl

/-- Entry `(a, b)` of the product is written back at the last reduction step of the point with `i = a / 1024`, `j = b / 1024`. -/
theorem cover4_2 (i : S4096x4096.Idx) : ∃ t : Fin cfg4.N, (cfg4.win 2).flush t = true ∧ i ∈ ((cfg4.win 2).blk t).view.set := by
  have hi0 : (i 0).val < 4096 := (i 0).isLt
  have hi1 : (i 1).val < 4096 := (i 1).isLt
  have hN := N4_eq
  have hlt : 32 * ((i 1).val / 1024) + 8 * ((i 0).val / 1024) + 7 < cfg4.N := by omega
  obtain ⟨-, -, -, -, e0, e1, -⟩ := idx4 ⟨32 * ((i 1).val / 1024) + 8 * ((i 0).val / 1024) + 7, hlt⟩
  refine ⟨⟨32 * ((i 1).val / 1024) + 8 * ((i 0).val / 1024) + 7, hlt⟩, (flush4_2 _).mpr (by show (32 * ((i 1).val / 1024) + 8 * ((i 0).val / 1024) + 7) % 8 = 7; omega), ?_⟩
  rw [mem_blk4_2]
  intro a
  match a with
  | ⟨0, _⟩ =>
    show win4_2.index _ (0 : Fin 2) * 1024 ≤ (i 0).val ∧ (i 0).val < win4_2.index _ (0 : Fin 2) * 1024 + 1024
    rw [e0]; dsimp only; omega
  | ⟨1, _⟩ =>
    show win4_2.index _ (1 : Fin 2) * 1024 ≤ (i 1).val ∧ (i 1).val < win4_2.index _ (1 : Fin 2) * 1024 + 1024
    rw [e1]; dsimp only; omega

theorem cover4_3 (i : S1x4096.Idx) : ∃ t : Fin cfg4.N, (cfg4.win 3).flush t = true ∧ i ∈ ((cfg4.win 3).blk t).view.set := by
  have hi0 : (i 0).val < 1 := (i 0).isLt
  have hi1 : (i 1).val < 4096 := (i 1).isLt
  have hN := N4_eq
  have hlt : 32 * ((i 1).val / 1024) + 31 < cfg4.N := by omega
  obtain ⟨-, -, -, -, -, -, e0, e1, -⟩ := idx4 ⟨32 * ((i 1).val / 1024) + 31, hlt⟩
  refine ⟨⟨32 * ((i 1).val / 1024) + 31, hlt⟩, (flush4_3 _).mpr (by show (32 * ((i 1).val / 1024) + 31) % 32 = 31; omega), ?_⟩
  rw [mem_blk4_3]
  intro a
  match a with
  | ⟨0, _⟩ =>
    show win4_3.index _ (0 : Fin 2) * 1 ≤ (i 0).val ∧ (i 0).val < win4_3.index _ (0 : Fin 2) * 1 + 1
    rw [e0]; omega
  | ⟨1, _⟩ =>
    show win4_3.index _ (1 : Fin 2) * 1024 ≤ (i 1).val ∧ (i 1).val < win4_3.index _ (1 : Fin 2) * 1024 + 1024
    rw [e1]; dsimp only; omega

theorem cover4_4 (i : S1x4096.Idx) : ∃ t : Fin cfg4.N, (cfg4.win 4).flush t = true ∧ i ∈ ((cfg4.win 4).blk t).view.set := by
  have hi0 : (i 0).val < 1 := (i 0).isLt
  have hi1 : (i 1).val < 4096 := (i 1).isLt
  have hN := N4_eq
  have hlt : 32 * ((i 1).val / 1024) + 31 < cfg4.N := by omega
  obtain ⟨-, -, -, -, -, -, -, -, e0, e1⟩ := idx4 ⟨32 * ((i 1).val / 1024) + 31, hlt⟩
  refine ⟨⟨32 * ((i 1).val / 1024) + 31, hlt⟩, (flush4_4 _).mpr (by show (32 * ((i 1).val / 1024) + 31) % 32 = 31; omega), ?_⟩
  rw [mem_blk4_4]
  intro a
  match a with
  | ⟨0, _⟩ =>
    show win4_4.index _ (0 : Fin 2) * 1 ≤ (i 0).val ∧ (i 0).val < win4_4.index _ (0 : Fin 2) * 1 + 1
    rw [e0]; omega
  | ⟨1, _⟩ =>
    show win4_4.index _ (1 : Fin 2) * 1024 ≤ (i 1).val ∧ (i 1).val < win4_4.index _ (1 : Fin 2) * 1024 + 1024
    rw [e1]; dsimp only; omega

/-! ### The arrays after the run -/

/-- The product array ends holding the product of the left array with the transpose of the right one. -/
theorem arr4_2 (c : Dev nD) : (dat4 V c).arrAt 2 cfg4.N = H4 V c :=
  (dat4 V c).arrAt_eq_of_cover 2 (H4 V c) (flushed4_2 V c) cover4_2

/-- The mean array ends holding the column means of the product. -/
theorem arr4_3 (c : Dev nD) : (dat4 V c).arrAt 3 cfg4.N = colMean 4096 (H4 V c) :=
  (dat4 V c).arrAt_eq_of_cover 3 (colMean 4096 (H4 V c)) (flushed4_3 V c) cover4_3

/-- The variance array ends holding the clamped column variances of the product. -/
theorem arr4_4 (c : Dev nD) : (dat4 V c).arrAt 4 cfg4.N = colVar 4096 (H4 V c) :=
  (dat4 V c).arrAt_eq_of_cover 4 (colVar 4096 (H4 V c)) (flushed4_4 V c) cover4_4

end Arrays

end Cert.KernelIdeal.Hand

end
-- ==== Proof.KI.Value5.lean ====
import proofs.«157460_j63591285784858_2_alg».proof.Proof.KI.Region5
import proofs.«157460_j63591285784858_2_alg».proof.Proof.KI.NormSpec
import proofs.«157460_j63591285784858_2_alg».proof.Proof.LibSignSelect
import Idealize.ShloMosaic.Lib.Pipeline.Value
import Idealize.ShloMosaic.Lib.ValueLayout

/-! # Region 5 at the exact values: the result array is the normalized, activated product array

Point `t` of the 4×4 grid stages the 1024×1024 tile `(r, k)` of the 4096×4096 product array and the 1×1024 pieces `k` of
the four rows (means, variances, scale, shift), and writes back tile `(r, k)` of the result.  The body's result at
entry `(p, q)` of the tile is `sign (g q · (h p q − mean q) · rsqrt (var q + ε) + shift q)`, so what point `t` writes
back is tile `t` of that map of the whole arrays; the tiles cover the array (entry `(r, k)` lies in tile
`(r / 1024, k / 1024)`), so the array ends as that map of the arrays the region finds. -/

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The offsets of the body's rectangles are all zero. -/
theorem zeroOffsets5 : (![0, 0] : Fin 2 → Nat) = fun _ => 0 := funext fun a => by fin_cases a <;> rfl

/-- The body's payload at entry `(p, q)` of the tile, from the loaded tile and the four loaded row pieces. -/
theorem bodyPay5_apply (v0 : Vec Ideal S1024x1024 .f32) (v2 v7 v9 v17 : Vec Ideal S1x1024 .f32) (p q : Fin 1024) :
    k5_pay1 v0 v2 v7 v9 v17 (ix2 p q)
      = Ideal.sign (v7 (ix2 (0 : Fin 1) q) * (v0 (ix2 p q) - v9 (ix2 (0 : Fin 1) q)) * Ideal.rsqrt (v2 (ix2 (0 : Fin 1) q) + Ideal.ofBits .f32 0x3727C5AC#32) + v17 (ix2 (0 : Fin 1) q)) := by
  unfold k5_pay1
  refine (Cert.LibSignSelect.signSelect_truncf_apply _ (ix2 p q) _).trans (congrArg Ideal.sign ?_)
  simp only [shapeCast_self]
  rw [addf_apply, mulf_apply, mulf_apply, subf_apply, broadcastTo_1b_ab_apply, broadcastTo_1b_ab_apply,
    broadcastTo_1b_ab_apply, broadcastTo_1b_ab_apply]
  rfl

/-- The block indices, decided over the grid: the product's tile moves with the result's; each row piece is at row
    block 0 and at the result's column block. -/
theorem blockIndex5 : ∀ t : Fin cfg5.N, win5_0.index t (0 : Fin 2) = win5_5.index t (0 : Fin 2)
    ∧ win5_0.index t (1 : Fin 2) = win5_5.index t (1 : Fin 2)
    ∧ win5_1.index t (0 : Fin 2) = 0 ∧ win5_1.index t (1 : Fin 2) = win5_5.index t (1 : Fin 2)
    ∧ win5_2.index t (0 : Fin 2) = 0 ∧ win5_2.index t (1 : Fin 2) = win5_5.index t (1 : Fin 2)
    ∧ win5_3.index t (0 : Fin 2) = 0 ∧ win5_3.index t (1 : Fin 2) = win5_5.index t (1 : Fin 2)
    ∧ win5_4.index t (0 : Fin 2) = 0 ∧ win5_4.index t (1 : Fin 2) = win5_5.index t (1 : Fin 2) :=
  (by decide +kernel : ∀ t : Fin grid5.N, _)

/-- Every tile of the result is some point's. -/
theorem blockOnto5 : ∀ (q0 : Fin 4) (q1 : Fin 4), ∃ t : Fin cfg5.N, win5_5.index t = ![q0.val, q1.val] :=
  (by decide +kernel : ∀ (q0 : Fin 4) (q1 : Fin 4), ∃ t : Fin grid5.N, win5_5.index t = ![q0.val, q1.val])

/-- What point `t` writes back is tile `t` of the map of the arrays as the region finds them. -/
theorem flushed5_eq (c : Dev nD) (t : Fin cfg5.N) :
    (dat5 V c).flushed 5 t = ((cfg5.win 5).blk t).view.read (Elt Ideal) (normAct 4096 4096 (V c main_v6_0) (V c main_v6_1) (V c main_v6_2) (V c main_v7) (V c main_v8)) := by
  show (cfg5.win 5).cut (grid5.coords t) ((dat5 V c).after 5 t) = _
  rw [after5_5]
  unfold out5_5
  rw [View.canon_unit_zero zeroOffsets5]
  simp only [View.ld_unit_zero (S := S1024x1024) zeroOffsets5, View.ld_unit_zero (S := S1x1024) zeroOffsets5]
  obtain ⟨e00, e01, e10, e11, e20, e21, e30, e31, e40, e41⟩ := blockIndex5 t
  funext j
  obtain ⟨p, q, rfl⟩ : ∃ (p : Fin 1024) (q : Fin 1024), j = ix2 p q := ⟨j 0, j 1, eq_ix2 j⟩
  have h0 : ((cfg5.win 0).blk t).view.emb (ix2 p q) = ((cfg5.win 5).blk t).view.emb (ix2 p q) := by
    funext a; apply Fin.ext
    match a with
    | ⟨0, _⟩ => show win5_0.index t (0 : Fin 2) * 1024 + 1 * p.val = win5_5.index t (0 : Fin 2) * 1024 + 1 * p.val; omega
    | ⟨1, _⟩ => show win5_0.index t (1 : Fin 2) * 1024 + 1 * q.val = win5_5.index t (1 : Fin 2) * 1024 + 1 * q.val; omega
  have h1 : ((cfg5.win 1).blk t).view.emb (ix2 (0 : Fin 1) q) = ix2 (0 : Fin 1) ((((cfg5.win 5).blk t).view.emb (ix2 p q)) 1) := by
    funext a; apply Fin.ext
    match a with
    | ⟨0, _⟩ => show win5_1.index t (0 : Fin 2) * 1 + 1 * 0 = 0; omega
    | ⟨1, _⟩ => show win5_1.index t (1 : Fin 2) * 1024 + 1 * q.val = win5_5.index t (1 : Fin 2) * 1024 + 1 * q.val; omega
  have h2 : ((cfg5.win 2).blk t).view.emb (ix2 (0 : Fin 1) q) = ix2 (0 : Fin 1) ((((cfg5.win 5).blk t).view.emb (ix2 p q)) 1) := by
    funext a; apply Fin.ext
    match a with
    | ⟨0, _⟩ => show win5_2.index t (0 : Fin 2) * 1 + 1 * 0 = 0; omega
    | ⟨1, _⟩ => show win5_2.index t (1 : Fin 2) * 1024 + 1 * q.val = win5_5.index t (1 : Fin 2) * 1024 + 1 * q.val; omega
  have h3 : ((cfg5.win 3).blk t).view.emb (ix2 (0 : Fin 1) q) = ix2 (0 : Fin 1) ((((cfg5.win 5).blk t).view.emb (ix2 p q)) 1) := by
    funext a; apply Fin.ext
    match a with
    | ⟨0, _⟩ => show win5_3.index t (0 : Fin 2) * 1 + 1 * 0 = 0; omega
    | ⟨1, _⟩ => show win5_3.index t (1 : Fin 2) * 1024 + 1 * q.val = win5_5.index t (1 : Fin 2) * 1024 + 1 * q.val; omega
  have h4 : ((cfg5.win 4).blk t).view.emb (ix2 (0 : Fin 1) q) = ix2 (0 : Fin 1) ((((cfg5.win 5).blk t).view.emb (ix2 p q)) 1) := by
    funext a; apply Fin.ext
    match a with
    | ⟨0, _⟩ => show win5_4.index t (0 : Fin 2) * 1 + 1 * 0 = 0; omega
    | ⟨1, _⟩ => show win5_4.index t (1 : Fin 2) * 1024 + 1 * q.val = win5_5.index t (1 : Fin 2) * 1024 + 1 * q.val; omega
  refine (bodyPay5_apply _ _ _ _ _ p q).trans ?_
  exact normAct_of_tile 4096 4096 (V c main_v6_0) (V c main_v6_1) (V c main_v6_2) (V c main_v7) (V c main_v8) _ _ _ _ _ _ h0 h1 h2 h3 h4

/-- An index of the array is in point `t`'s tile iff each coordinate is in the tile's range on its axis. -/
theorem memBlock5 (t : Fin cfg5.N) (i : S4096x4096.Idx) :
    i ∈ ((cfg5.win 5).blk t).view.set ↔ ∀ a : Fin 2, win5_5.index t a * S1024x1024.size a ≤ (i a).val ∧ (i a).val < win5_5.index t a * S1024x1024.size a + S1024x1024.size a := by
  show i ∈ ((View.whole main_v9).slice (win5_5.rect t)).set ↔ _
  rw [View.set_slice_whole, Rect.mem_set_unit]
  exact Iff.rfl

/-- Every index of the result is in some point's tile: entry `(r, k)` is in tile `(r / 1024, k / 1024)`. -/
theorem covered5 (i : S4096x4096.Idx) : ∃ t : Fin cfg5.N, (cfg5.win 5).flush t = true ∧ i ∈ ((cfg5.win 5).blk t).view.set := by
  have hi0 : (i 0).val < 4096 := (i 0).isLt
  have hi1 : (i 1).val < 4096 := (i 1).isLt
  obtain ⟨t, ht⟩ := blockOnto5 ⟨(i 0).val / 1024, by omega⟩ ⟨(i 1).val / 1024, by omega⟩
  have q0 : win5_5.index t (0 : Fin 2) = (i 0).val / 1024 := congrFun ht 0
  have q1 : win5_5.index t (1 : Fin 2) = (i 1).val / 1024 := congrFun ht 1
  refine ⟨t, flush5_5 t, ?_⟩
  rw [memBlock5]
  intro a
  match a with
  | ⟨0, _⟩ => show win5_5.index t (0 : Fin 2) * 1024 ≤ (i 0).val ∧ (i 0).val < win5_5.index t (0 : Fin 2) * 1024 + 1024; omega
  | ⟨1, _⟩ => show win5_5.index t (1 : Fin 2) * 1024 ≤ (i 1).val ∧ (i 1).val < win5_5.index t (1 : Fin 2) * 1024 + 1024; omega

/-- The result array after the region: the normalize-and-sign map of the five arrays as the region finds them. -/
theorem final5 (c : Dev nD) : (dat5 V c).arrAt 5 cfg5.N
    = normAct 4096 4096 (V c (Pipeline.arrRef spec5 0)) (V c (Pipeline.arrRef spec5 1)) (V c (Pipeline.arrRef spec5 2)) (V c (Pipeline.arrRef spec5 3)) (V c (Pipeline.arrRef spec5 4)) :=
  (dat5 V c).arrAt_eq_of_cover 5 (normAct 4096 4096 (V c main_v6_0) (V c main_v6_1) (V c main_v6_2) (V c main_v7) (V c main_v8)) (fun t _ => flushed5_eq V c t) covered5

end Cert.KernelIdeal.Hand

end
-- ==== Proof.KI.KernelValue1.lean ====
import proofs.«157460_j63591285784858_2_alg».proof.Proof.KI.MainFold
import proofs.«157460_j63591285784858_2_alg».proof.Proof.KI.Value3
import proofs.«157460_j63591285784858_2_alg».proof.Proof.KI.R4Value
import proofs.«157460_j63591285784858_2_alg».proof.Proof.KI.Value5
import proofs.«157460_j63591285784858_2_alg».proof.Proof.KI.KernelValueLib
import proofs.«157460_j63591285784858_2_alg».proof.Proof.LayerBridge
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.MatStats Cert.LayerBridge
open Idealize.ShloMosaic.StableHlo (after_cons after_nil reshape_result reshape_result_ne)

variable (m : (ℓ : Loc nD τ sig) → Buf (Elt Ideal) ℓ) (ρ : Dev nD → PrngReg)

/-! Layer 1: the sign region writes the signs of the weights; the product region writes the product of the layer's
    input with their transpose, its column means and its clamped column variances; the host stretch recasts the scale
    and the shift as rows; the normalization region writes the normalized, activated product. None of these items writes
    an argument array, nor an array an earlier item left for a later one. -/

/-- The weights, as the sign region finds them, are the launch contents. -/
theorem k1_wa (c : Dev nD) : V4 m ρ c main_arg4 = (m ((c : Thread nD τ).loc main_arg4)) :=
  ((W4_of_ne m ρ c main_arg4 (by decide)).trans ((W3_keep m ρ c main_arg4 (by decide)).trans ((W2_of_ne m ρ c main_arg4 (by decide)).trans (W1_of_ne m ρ c main_arg4 (by decide)))))

/-- The layer's input, as the product region finds it. -/
theorem k1_x (c : Dev nD) : V5 m ρ c main_v4 = (W4 m ρ c (Proc.devRef .tc main_v4)) :=
  (W5_of_ne m ρ c main_v4 (by decide))

/-- The signs of the weights, as the product region finds them. -/
theorem k1_w (c : Dev nD) : V5 m ρ c main_v5 = signArr (m ((c : Thread nD τ).loc main_arg4)) :=
  (W5_main_v5 m ρ c).trans ((final3 (V4 m ρ) c).trans (congrArg signArr (k1_wa m ρ c)))

theorem k1_P (c : Dev nD) : prod (V5 m ρ c main_v4) (V5 m ρ c main_v5) = (prod (W4 m ρ c (Proc.devRef .tc main_v4)) (signArr (m ((c : Thread nD τ).loc main_arg4)))) :=
  congrArg₂ prod (k1_x m ρ c) (k1_w m ρ c)

/-- The product, its column means and its column variances, as the normalization region finds them. -/
theorem k1_H (c : Dev nD) : V7 m ρ c main_v6_0 = (prod (W4 m ρ c (Proc.devRef .tc main_v4)) (signArr (m ((c : Thread nD τ).loc main_arg4)))) :=
  (W7_keep m ρ c main_v6_0 (by decide)).trans ((W6_main_v6_0 m ρ c).trans ((arr4_2 (V5 m ρ) c).trans (k1_P m ρ c)))

theorem k1_M (c : Dev nD) : V7 m ρ c main_v6_1 = colMean 4096 (prod (W4 m ρ c (Proc.devRef .tc main_v4)) (signArr (m ((c : Thread nD τ).loc main_arg4)))) :=
  (W7_keep m ρ c main_v6_1 (by decide)).trans ((W6_main_v6_1 m ρ c).trans ((arr4_3 (V5 m ρ) c).trans (congrArg (colMean 4096) (k1_P m ρ c))))

theorem k1_Vr (c : Dev nD) : V7 m ρ c main_v6_2 = colVar 4096 (prod (W4 m ρ c (Proc.devRef .tc main_v4)) (signArr (m ((c : Thread nD τ).loc main_arg4)))) :=
  (W7_keep m ρ c main_v6_2 (by decide)).trans ((W6_main_v6_2 m ρ c).trans ((arr4_4 (V5 m ρ) c).trans (congrArg (colVar 4096) (k1_P m ρ c))))

/-- The scale and the shift, as the host stretch finds them, are the launch contents. -/
theorem k1_g (c : Dev nD) : W6 m ρ c (Proc.devRef .tc main_arg5) = (m ((c : Thread nD τ).loc main_arg5)) :=
  ((W6_of_ne m ρ c main_arg5 (by decide)).trans ((W5_of_ne m ρ c main_arg5 (by decide)).trans ((W4_of_ne m ρ c main_arg5 (by decide)).trans ((W3_keep m ρ c main_arg5 (by decide)).trans ((W2_of_ne m ρ c main_arg5 (by decide)).trans (W1_of_ne m ρ c main_arg5 (by decide)))))))

theorem k1_b (c : Dev nD) : W6 m ρ c (Proc.devRef .tc main_arg6) = (m ((c : Thread nD τ).loc main_arg6)) :=
  ((W6_of_ne m ρ c main_arg6 (by decide)).trans ((W5_of_ne m ρ c main_arg6 (by decide)).trans ((W4_of_ne m ρ c main_arg6 (by decide)).trans ((W3_keep m ρ c main_arg6 (by decide)).trans ((W2_of_ne m ρ c main_arg6 (by decide)).trans (W1_of_ne m ρ c main_arg6 (by decide)))))))

/-- The scale and the shift recast as rows, as the normalization region finds them. -/
theorem k1_G (c : Dev nD) : V7 m ρ c main_v7 = asRow (m ((c : Thread nD τ).loc main_arg5)) := by
  show StableHlo.after hostOps5 (W6 m ρ c) (Proc.devRef .tc main_v7) = _
  refine Eq.trans ?_ (cast_row (m ((c : Thread nD τ).loc main_arg5)) shapeCasts_S4096_S1x4096)
  rw [← k1_g m ρ c]
  simp only [hostOps5]
  after_results
  rfl

theorem k1_B (c : Dev nD) : V7 m ρ c main_v8 = asRow (m ((c : Thread nD τ).loc main_arg6)) := by
  show StableHlo.after hostOps5 (W6 m ρ c) (Proc.devRef .tc main_v8) = _
  refine Eq.trans ?_ (cast_row (m ((c : Thread nD τ).loc main_arg6)) shapeCasts_S4096_S1x4096)
  rw [← k1_b m ρ c]
  simp only [hostOps5]
  after_results
  rfl

/-- Layer 1's activation array, after its normalization region, is the layer's function of its input and of the
    launch contents of its three parameter arrays. -/
theorem kernel_layer1 (c : Dev nD) :
    W8 m ρ c (Proc.devRef .tc main_v9)
      = kLayerMid (W4 m ρ c (Proc.devRef .tc main_v4)) (m ((c : Thread nD τ).loc main_arg4)) (m ((c : Thread nD τ).loc main_arg5)) (m ((c : Thread nD τ).loc main_arg6)) := by
  rw [W8_main_v9, final5 (V7 m ρ) c]
  show normAct 4096 4096 (V7 m ρ c main_v6_0) (V7 m ρ c main_v6_1) (V7 m ρ c main_v6_2) (V7 m ρ c main_v7) (V7 m ρ c main_v8) = _
  rw [k1_H, k1_M, k1_Vr, k1_G, k1_B]
  rfl

end Cert.KernelIdeal.Hand

end
-- ==== Proof.KI.Value6.lean ====
import proofs.«157460_j63591285784858_2_alg».proof.Proof.KI.Region6
import proofs.«157460_j63591285784858_2_alg».proof.Proof.LibSignSelect
import Idealize.ShloMosaic.Lib.Pipeline.Value

/-! # Region 6 at the exact values: the result array is the sign of the weight array, entry by entry

Point `t` of the grid stages rows `256·t … 256·t + 255` of the 4096×4096 weight array, and writes back the
same rows of the result.  The body's result at an entry of the block is the sign of the input block's entry,
so what point `t` writes back is block `t` of the entrywise sign of the weights; the 16 row blocks tile the
array (row `r` lies in block `r / 256`), so the array ends as the entrywise sign of the weights. -/

noncomputable section

namespace Cert.KernelIdeal.Hand

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The offsets of the body's one rectangle are all zero. -/
theorem zeroOffsets6 : (![0, 0] : Fin 2 → Nat) = fun _ => 0 := funext fun a => by fin_cases a <;> rfl

/-- The entrywise sign of a 4096×4096 array (the result's format change is the identity at the exact values). -/
def signOf6 (A : S4096x4096.Idx → Elt Ideal .f32) : S4096x4096.Idx → Elt Ideal .bf16 := fun i => Ideal.sign (A i)

theorem signOf6_apply (A : S4096x4096.Idx → Elt Ideal .f32) (i : S4096x4096.Idx) : signOf6 A i = Ideal.sign (A i) := rfl

/-- The body's payload at an entry: the sign of the loaded block's entry. -/
theorem bodyPay6_apply (x : Vec Ideal S256x4096 .f32) (j : S256x4096.Idx) : k6_pay1 x j = Ideal.sign (x j) := by
  unfold k6_pay1
  exact Cert.LibSignSelect.signSelect_truncf_apply x j _

/-- The block indices, decided over the grid: both windows are at row block `t`, column block 0. -/
theorem blockIndex6 : ∀ t : Fin cfg6.N, win6_0.index t (0 : Fin 2) = t.val
    ∧ win6_0.index t (1 : Fin 2) = 0
    ∧ win6_1.index t (0 : Fin 2) = t.val
    ∧ win6_1.index t (1 : Fin 2) = 0 :=
  (by decide +kernel : ∀ t : Fin grid6.N, _)

/-- What point `t` writes back is block `t` of the entrywise sign of the weights as the region finds them. -/
theorem flushed6_eq (c : Dev nD) (t : Fin cfg6.N) :
    (dat6 V c).flushed 1 t = ((cfg6.win 1).blk t).view.read (Elt Ideal) (signOf6 (V c main_arg7)) := by
  show (cfg6.win 1).cut (grid6.coords t) ((dat6 V c).after 1 t) = _
  rw [after6_1]
  unfold out6_1
  rw [View.canon_unit_zero zeroOffsets6]
  simp only [View.ld_unit_zero (S := S256x4096) zeroOffsets6]
  obtain ⟨e0, e1, e2, e3⟩ := blockIndex6 t
  funext j
  refine (bodyPay6_apply _ j).trans ?_
  show Ideal.sign (V c main_arg7 (((cfg6.win 0).blk t).view.emb j)) = Ideal.sign (V c main_arg7 (((cfg6.win 1).blk t).view.emb j))
  have h0 : ((cfg6.win 0).blk t).view.emb j = ((cfg6.win 1).blk t).view.emb j := by
    funext a; apply Fin.ext
    match a with
    | ⟨0, _⟩ => show win6_0.index t (0 : Fin 2) * 256 + 1 * (j 0).val = win6_1.index t (0 : Fin 2) * 256 + 1 * (j 0).val; omega
    | ⟨1, _⟩ => show win6_0.index t (1 : Fin 2) * 4096 + 1 * (j 1).val = win6_1.index t (1 : Fin 2) * 4096 + 1 * (j 1).val; omega
  rw [h0]

/-- An index of the array is in point `t`'s block iff each coordinate is in the block's range on its axis. -/
theorem memBlock6 (t : Fin cfg6.N) (i : S4096x4096.Idx) :
    i ∈ ((cfg6.win 1).blk t).view.set ↔ ∀ a : Fin 2, win6_1.index t a * S256x4096.size a ≤ (i a).val ∧ (i a).val < win6_1.index t a * S256x4096.size a + S256x4096.size a := by
  show i ∈ ((View.whole main_v10).slice (win6_1.rect t)).set ↔ _
  rw [View.set_slice_whole, Rect.mem_set_unit]
  exact Iff.rfl

/-- Every index of the result is in some point's block: row `r` is in block `r / 256`. -/
theorem covered6 (i : S4096x4096.Idx) : ∃ t : Fin cfg6.N, (cfg6.win 1).flush t = true ∧ i ∈ ((cfg6.win 1).blk t).view.set := by
  have hi0 : (i 0).val < 4096 := (i 0).isLt
  have hi1 : (i 1).val < 4096 := (i 1).isLt
  have hN : grid6.N = 16 := N_6
  have hlt : (i 0).val / 256 < grid6.N := by omega
  obtain ⟨e0, e1, e2, e3⟩ := blockIndex6 ⟨(i 0).val / 256, hlt⟩
  have e2' : win6_1.index ⟨(i 0).val / 256, hlt⟩ (0 : Fin 2) = (i 0).val / 256 := e2
  refine ⟨⟨(i 0).val / 256, hlt⟩, flush6_1 _, ?_⟩
  rw [memBlock6]
  intro a
  match a with
  | ⟨0, _⟩ => show win6_1.index ⟨(i 0).val / 256, hlt⟩ (0 : Fin 2) * 256 ≤ (i 0).val ∧ (i 0).val < win6_1.index ⟨(i 0).val / 256, hlt⟩ (0 : Fin 2) * 256 + 256; omega
  | ⟨1, _⟩ => show win6_1.index ⟨(i 0).val / 256, hlt⟩ (1 : Fin 2) * 4096 ≤ (i 1).val ∧ (i 1).val < win6_1.index ⟨(i 0).val / 256, hlt⟩ (1 : Fin 2) * 4096 + 4096; omega

/-- The result array after the region: the entrywise sign of the weight array as the region finds it. -/
theorem final6 (c : Dev nD) : (dat6 V c).arrAt 1 cfg6.N = signOf6 (V c (Pipeline.arrRef spec6 0)) :=
  (dat6 V c).arrAt_eq_of_cover 1 (signOf6 (V c main_arg7)) (fun t _ => flushed6_eq V c t) covered6

end Cert.KernelIdeal.Hand

end
-- ==== Proof.KI.R7Value.lean ====
/-
  The value of matrix-product region 7 at the ideal float values.

  The region walks a grid of points `t = 32 j + 8 i + k` (`j` the column block of the product, `i` its row block, `k`
  the reduction step). At a point the two input windows stage rows `1024 i …`, columns `512 k …` of the left array and
  rows `1024 j …`, columns `512 k …` of the right one. The carried state is an accumulator, a row of running column
  sums and a row of running column sums of squares. In closed form, after point `t`:
    • the accumulator at `(r, q)` is the contraction of row `1024 i + r` of the left array with row `1024 j + q` of the
      right one over the first `512 (k + 1)` columns — after the last step `k = 7`, the whole product entry;
    • the running sums at `(0, q)` are the sums of column `1024 j + q` of the product (of its squares) over the row
      blocks completed so far for this `j`: `i` of them, and `i + 1` after a last step.
  Both by induction on the point; sums on the extended reals commute and associate with no finiteness, so nothing is
  assumed of the arrays. The partial sums are stated with the arrays read at natural-number coordinates (`rd`), which
  keeps the index arithmetic free of bounds proofs. Then the three output arrays after the run: the product, its
  column means and its clamped column variances, each written back block by block at the points that flush.
-/
import proofs.«157460_j63591285784858_2_alg».proof.Proof.KI.R7Dat
import proofs.«157460_j63591285784858_2_alg».proof.Proof.KI.R1Spec
import proofs.«157460_j63591285784858_2_alg».proof.Proof.KI.RnPay
import proofs.«157460_j63591285784858_2_alg».proof.Proof.LibBatchVar
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.MatStats
open scoped BigOperators

/-! ## The index maps and the input blocks -/

/-- The printed index maps, decided over the grid: with `t = 32 j + 8 i + k`, the block indices of the five windows. -/
theorem idx7 : ∀ t : Fin cfg7.N,
    win7_0.index t (0 : Fin 2) = t.val / 8 % 4 ∧ win7_0.index t (1 : Fin 2) = t.val % 8
    ∧ win7_1.index t (0 : Fin 2) = t.val / 32 ∧ win7_1.index t (1 : Fin 2) = t.val % 8
    ∧ win7_2.index t (0 : Fin 2) = t.val / 8 % 4 ∧ win7_2.index t (1 : Fin 2) = t.val / 32
    ∧ win7_3.index t (0 : Fin 2) = 0 ∧ win7_3.index t (1 : Fin 2) = t.val / 32
    ∧ win7_4.index t (0 : Fin 2) = 0 ∧ win7_4.index t (1 : Fin 2) = t.val / 32 :=
  (by decide +kernel : ∀ t : Fin grid7.N, _)

theorem N7_eq : cfg7.N = 128 := N_7

section Blocks
variable (V : (c : Dev nD) → (b : Ref sig .tc) → Buf (Elt Ideal) ((c : Thread nD τ).loc b))

/-- The left and the right array, as the region finds them. -/
abbrev lhs7 (c : Dev nD) : S4096x4096.Idx → EReal := V c main_v9
abbrev rhs7 (c : Dev nD) : S4096x4096.Idx → EReal := V c main_v10

theorem iblk7_0_apply (c : Dev nD) (t : Fin cfg7.N) (r : Fin 1024) (p : Fin 512) :
    (iblk7 V c 0 t : Vec Ideal S1024x512 .bf16) (ix2 r p)
      = rd (lhs7 V c) (1024 * (t.val / 8 % 4) + r.val) (512 * (t.val % 8) + p.val) := by
  obtain ⟨e0, e1, -⟩ := idx7 t
  have hN : t.val < 128 := by have := t.isLt; have := N7_eq; omega
  rw [rd_of_lt _ (by have := r.isLt; omega) (by have := p.isLt; omega)]
  unfold iblk7
  rw [View.read_apply]
  show V c main_v9 _ = V c main_v9 _
  congr 1
  funext a
  apply Fin.ext
  match a with
  | ⟨0, _⟩ => show win7_0.index t (0 : Fin 2) * 1024 + 1 * r.val = 1024 * (t.val / 8 % 4) + r.val; rw [e0]; omega
  | ⟨1, _⟩ => show win7_0.index t (1 : Fin 2) * 512 + 1 * p.val = 512 * (t.val % 8) + p.val; rw [e1]; omega

theorem iblk7_1_apply (c : Dev nD) (t : Fin cfg7.N) (q : Fin 1024) (p : Fin 512) :
    (iblk7 V c 1 t : Vec Ideal S1024x512 .bf16) (ix2 q p)
      = rd (rhs7 V c) (1024 * (t.val / 32) + q.val) (512 * (t.val % 8) + p.val) := by
  obtain ⟨-, -, e0, e1, -⟩ := idx7 t
  have hN : t.val < 128 := by have := t.isLt; have := N7_eq; omega
  rw [rd_of_lt _ (by have := q.isLt; omega) (by have := p.isLt; omega)]
  unfold iblk7
  rw [View.read_apply]
  show V c main_v10 _ = V c main_v10 _
  congr 1
  funext a
  apply Fin.ext
  match a with
  | ⟨0, _⟩ => show win7_1.index t (0 : Fin 2) * 1024 + 1 * q.val = 1024 * (t.val / 32) + q.val; rw [e0]; omega
  | ⟨1, _⟩ => show win7_1.index t (1 : Fin 2) * 512 + 1 * p.val = 512 * (t.val % 8) + p.val; rw [e1]; omega

end Blocks

/-! ## The closed forms -/

/-- The contraction of row `1024 i + r` of `X` with row `1024 j + q` of `W` over the first `K` blocks of 512 columns. -/
def accP7 (X : S4096x4096.Idx → EReal) (W : S4096x4096.Idx → EReal) (i j K r q : ℕ) : EReal :=
  ∑ k' ∈ Finset.range K, ∑ p ∈ Finset.range 512, rd X (1024 * i + r) (512 * k' + p) * rd W (1024 * j + q) (512 * k' + p)

/-- After 8 blocks it is the contraction over all 4096 columns. -/
theorem accP7_full (X : S4096x4096.Idx → EReal) (W : S4096x4096.Idx → EReal) (i j r q : ℕ) :
    accP7 X W i j 8 r q = dotN X W 4096 (1024 * i + r) (1024 * j + q) := by
  unfold accP7 dotN
  exact (sum_range_blocks (fun p => rd X (1024 * i + r) p * rd W (1024 * j + q) p) 8 512).symm

theorem accP7_zero (X : S4096x4096.Idx → EReal) (W : S4096x4096.Idx → EReal) (i j r q : ℕ) : accP7 X W i j 0 r q = 0 := by
  unfold accP7; rw [Finset.range_zero, Finset.sum_empty]

theorem accP7_succ (X : S4096x4096.Idx → EReal) (W : S4096x4096.Idx → EReal) (i j K r q : ℕ) :
    accP7 X W i j (K + 1) r q
      = accP7 X W i j K r q + ∑ p ∈ Finset.range 512, rd X (1024 * i + r) (512 * K + p) * rd W (1024 * j + q) (512 * K + p) := by
  unfold accP7; exact Finset.sum_range_succ _ K

/-- The sum of `g` at column `1024 j + q` over the first `I` blocks of 1024 rows. -/
def rowsP7 (g : ℕ → ℕ → EReal) (j I q : ℕ) : EReal :=
  ∑ i' ∈ Finset.range I, ∑ r ∈ Finset.range 1024, g (1024 * i' + r) (1024 * j + q)

theorem rowsP7_zero (g : ℕ → ℕ → EReal) (j q : ℕ) : rowsP7 g j 0 q = 0 := by
  unfold rowsP7; rw [Finset.range_zero, Finset.sum_empty]

theorem rowsP7_succ (g : ℕ → ℕ → EReal) (j I q : ℕ) :
    rowsP7 g j (I + 1) q = rowsP7 g j I q + ∑ r ∈ Finset.range 1024, g (1024 * I + r) (1024 * j + q) := by
  unfold rowsP7; exact Finset.sum_range_succ _ I

/-- The product entry and its square, at natural-number coordinates. -/
abbrev gS7 (X : S4096x4096.Idx → EReal) (W : S4096x4096.Idx → EReal) (a b : ℕ) : EReal := dotN X W 4096 a b
abbrev gQ7 (X : S4096x4096.Idx → EReal) (W : S4096x4096.Idx → EReal) (a b : ℕ) : EReal := dotN X W 4096 a b * dotN X W 4096 a b

/-! ## One grid point -/

section Step
variable {F : FTy → Type} [FloatOps F]

theorem step7_acc_eq (n : ℕ) (x0 : Vec F S1024x512 .bf16) (x1 : Vec F S1024x512 .bf16) (s : St7 F) :
    (step7 n x0 x1 s).acc = k7_pay2 x0 (if n % 8 = 0 then k7_pay1 else s.acc) x1 := by
  unfold step7
  dsimp only
  split <;> rfl

theorem step7_sum_eq (n : ℕ) (x0 : Vec F S1024x512 .bf16) (x1 : Vec F S1024x512 .bf16) (s : St7 F) :
    (step7 n x0 x1 s).sum
      = if n % 8 = 7 then k7_pay5 (k7_pay2 x0 (if n % 8 = 0 then k7_pay1 else s.acc) x1) (if n / 8 % 4 = 0 then k7_pay3 else s.sum)
        else (if n / 8 % 4 = 0 then k7_pay3 else s.sum) := by
  unfold step7
  dsimp only
  split <;> rfl

theorem step7_sq_eq (n : ℕ) (x0 : Vec F S1024x512 .bf16) (x1 : Vec F S1024x512 .bf16) (s : St7 F) :
    (step7 n x0 x1 s).sq
      = if n % 8 = 7 then k7_pay6 (k7_pay2 x0 (if n % 8 = 0 then k7_pay1 else s.acc) x1) (if n / 8 % 4 = 0 then k7_pay4 else s.sq)
        else (if n / 8 % 4 = 0 then k7_pay4 else s.sq) := by
  unfold step7
  dsimp only
  split <;> rfl

end Step

/-- The accumulator after point `n`, from the two blocks the point stages and the accumulator before it. -/
theorem acc_step7 (X : S4096x4096.Idx → EReal) (W : S4096x4096.Idx → EReal) (n : ℕ) (x0 : FVec Ideal S1024x512 .bf16) (x1 : FVec Ideal S1024x512 .bf16)
    (a : FVec Ideal S1024x1024 .f32)
    (hx0 : ∀ (r : Fin 1024) (p : Fin 512), x0 (ix2 r p) = rd X (1024 * (n / 8 % 4) + r.val) (512 * (n % 8) + p.val))
    (hx1 : ∀ (q : Fin 1024) (p : Fin 512), x1 (ix2 q p) = rd W (1024 * (n / 32) + q.val) (512 * (n % 8) + p.val))
    (ha : n % 8 ≠ 0 → ∀ r q : Fin 1024, a (ix2 r q) = accP7 X W ((n - 1) / 8 % 4) ((n - 1) / 32) ((n - 1) % 8 + 1) r.val q.val)
    (r q : Fin 1024) :
    k7_pay2 (F := Ideal) x0 (if n % 8 = 0 then k7_pay1 (F := Ideal) else a) x1 (ix2 r q)
      = accP7 X W (n / 8 % 4) (n / 32) (n % 8 + 1) r.val q.val := by
  rw [k7_pay2_apply]
  have hblk : ∑ p : Fin 512, x0 (ix2 r p) * x1 (ix2 q p)
      = ∑ p ∈ Finset.range 512, rd X (1024 * (n / 8 % 4) + r.val) (512 * (n % 8) + p) * rd W (1024 * (n / 32) + q.val) (512 * (n % 8) + p) := by
    rw [← sum_fin_eq_range (fun p => rd X (1024 * (n / 8 % 4) + r.val) (512 * (n % 8) + p) * rd W (1024 * (n / 32) + q.val) (512 * (n % 8) + p))]
    exact Finset.sum_congr rfl fun p _ => by rw [hx0, hx1]
  rw [hblk, accP7_succ]
  by_cases h0 : n % 8 = 0
  · rw [if_pos h0, k7_pay1_apply, h0, accP7_zero]
  · rw [if_neg h0, ha h0 r q, show (n - 1) / 8 % 4 = n / 8 % 4 by omega, show (n - 1) / 32 = n / 32 by omega,
      show (n - 1) % 8 + 1 = n % 8 by omega]

/-- The running column sums after point `n`. -/
theorem sum_step7 (X : S4096x4096.Idx → EReal) (W : S4096x4096.Idx → EReal) (n : ℕ) (acc : FVec Ideal S1024x1024 .f32) (s : FVec Ideal S1x1024 .f32)
    (hacc : ∀ r q : Fin 1024, acc (ix2 r q) = accP7 X W (n / 8 % 4) (n / 32) (n % 8 + 1) r.val q.val)
    (hs : n / 8 % 4 ≠ 0 → ∀ (z : Fin 1) (q : Fin 1024), s (ix2 z q) = rowsP7 (gS7 X W) ((n - 1) / 32) (((n - 1) % 32 + 1) / 8) q.val)
    (z : Fin 1) (q : Fin 1024) :
    (if n % 8 = 7 then k7_pay5 (F := Ideal) acc (if n / 8 % 4 = 0 then k7_pay3 (F := Ideal) else s) else (if n / 8 % 4 = 0 then k7_pay3 (F := Ideal) else s)) (ix2 z q)
      = rowsP7 (gS7 X W) (n / 32) ((n % 32 + 1) / 8) q.val := by
  have h0 : (if n / 8 % 4 = 0 then k7_pay3 (F := Ideal) else s) (ix2 z q) = rowsP7 (gS7 X W) (n / 32) (n / 8 % 4) q.val := by
    by_cases hi : n / 8 % 4 = 0
    · rw [if_pos hi, k7_pay3_apply, hi, rowsP7_zero]
    · rw [if_neg hi, hs hi z q, show (n - 1) / 32 = n / 32 by omega, show ((n - 1) % 32 + 1) / 8 = n / 8 % 4 by omega]
  by_cases h3 : n % 8 = 7
  · rw [if_pos h3, k7_pay5_apply, h0]
    have hcol : ∑ r : Fin 1024, acc (ix2 r q) = ∑ r ∈ Finset.range 1024, gS7 X W (1024 * (n / 8 % 4) + r) (1024 * (n / 32) + q.val) := by
      rw [← sum_fin_eq_range (fun r => gS7 X W (1024 * (n / 8 % 4) + r) (1024 * (n / 32) + q.val))]
      exact Finset.sum_congr rfl fun r _ => by rw [hacc, h3]; exact accP7_full X W _ _ _ _
    rw [hcol, show (n % 32 + 1) / 8 = n / 8 % 4 + 1 by omega, rowsP7_succ]
  · rw [if_neg h3, h0, show (n % 32 + 1) / 8 = n / 8 % 4 by omega]

/-- The running column sums of squares after point `n`. -/
theorem sq_step7 (X : S4096x4096.Idx → EReal) (W : S4096x4096.Idx → EReal) (n : ℕ) (acc : FVec Ideal S1024x1024 .f32) (s : FVec Ideal S1x1024 .f32)
    (hacc : ∀ r q : Fin 1024, acc (ix2 r q) = accP7 X W (n / 8 % 4) (n / 32) (n % 8 + 1) r.val q.val)
    (hs : n / 8 % 4 ≠ 0 → ∀ (z : Fin 1) (q : Fin 1024), s (ix2 z q) = rowsP7 (gQ7 X W) ((n - 1) / 32) (((n - 1) % 32 + 1) / 8) q.val)
    (z : Fin 1) (q : Fin 1024) :
    (if n % 8 = 7 then k7_pay6 (F := Ideal) acc (if n / 8 % 4 = 0 then k7_pay4 (F := Ideal) else s) else (if n / 8 % 4 = 0 then k7_pay4 (F := Ideal) else s)) (ix2 z q)
      = rowsP7 (gQ7 X W) (n / 32) ((n % 32 + 1) / 8) q.val := by
  have h0 : (if n / 8 % 4 = 0 then k7_pay4 (F := Ideal) else s) (ix2 z q) = rowsP7 (gQ7 X W) (n / 32) (n / 8 % 4) q.val := by
    by_cases hi : n / 8 % 4 = 0
    · rw [if_pos hi, k7_pay4_apply, hi, rowsP7_zero]
    · rw [if_neg hi, hs hi z q, show (n - 1) / 32 = n / 32 by omega, show ((n - 1) % 32 + 1) / 8 = n / 8 % 4 by omega]
  by_cases h3 : n % 8 = 7
  · rw [if_pos h3, k7_pay6_apply, h0]
    have hcol : ∑ r : Fin 1024, acc (ix2 r q) * acc (ix2 r q)
        = ∑ r ∈ Finset.range 1024, gQ7 X W (1024 * (n / 8 % 4) + r) (1024 * (n / 32) + q.val) := by
      rw [← sum_fin_eq_range (fun r => gQ7 X W (1024 * (n / 8 % 4) + r) (1024 * (n / 32) + q.val))]
      exact Finset.sum_congr rfl fun r _ => by rw [hacc, h3, accP7_full X W _ _ _ _]
    rw [hcol, show (n % 32 + 1) / 8 = n / 8 % 4 + 1 by omega, rowsP7_succ]
  · rw [if_neg h3, h0, show (n % 32 + 1) / 8 = n / 8 % 4 by omega]

/-- One point: the three closed forms after it, from the blocks it stages and the closed forms before it. -/
theorem step_forms7 (X : S4096x4096.Idx → EReal) (W : S4096x4096.Idx → EReal) (n : ℕ) (x0 : Vec Ideal S1024x512 .bf16) (x1 : Vec Ideal S1024x512 .bf16)
    (s : St7 Ideal)
    (hx0 : ∀ (r : Fin 1024) (p : Fin 512), x0 (ix2 r p) = rd X (1024 * (n / 8 % 4) + r.val) (512 * (n % 8) + p.val))
    (hx1 : ∀ (q : Fin 1024) (p : Fin 512), x1 (ix2 q p) = rd W (1024 * (n / 32) + q.val) (512 * (n % 8) + p.val))
    (ha : n % 8 ≠ 0 → ∀ r q : Fin 1024, s.acc (ix2 r q) = accP7 X W ((n - 1) / 8 % 4) ((n - 1) / 32) ((n - 1) % 8 + 1) r.val q.val)
    (hs : n / 8 % 4 ≠ 0 → ∀ (z : Fin 1) (q : Fin 1024), s.sum (ix2 z q) = rowsP7 (gS7 X W) ((n - 1) / 32) (((n - 1) % 32 + 1) / 8) q.val)
    (hq : n / 8 % 4 ≠ 0 → ∀ (z : Fin 1) (q : Fin 1024), s.sq (ix2 z q) = rowsP7 (gQ7 X W) ((n - 1) / 32) (((n - 1) % 32 + 1) / 8) q.val) :
    (∀ r q : Fin 1024, (step7 n x0 x1 s).acc (ix2 r q) = accP7 X W (n / 8 % 4) (n / 32) (n % 8 + 1) r.val q.val)
    ∧ (∀ (z : Fin 1) (q : Fin 1024), (step7 n x0 x1 s).sum (ix2 z q) = rowsP7 (gS7 X W) (n / 32) ((n % 32 + 1) / 8) q.val)
    ∧ (∀ (z : Fin 1) (q : Fin 1024), (step7 n x0 x1 s).sq (ix2 z q) = rowsP7 (gQ7 X W) (n / 32) ((n % 32 + 1) / 8) q.val) := by
  have hA : ∀ r q : Fin 1024, k7_pay2 (F := Ideal) x0 (if n % 8 = 0 then k7_pay1 (F := Ideal) else s.acc) x1 (ix2 r q)
      = accP7 X W (n / 8 % 4) (n / 32) (n % 8 + 1) r.val q.val := fun r q => acc_step7 X W n x0 x1 s.acc hx0 hx1 ha r q
  refine ⟨fun r q => ?_, fun z q => ?_, fun z q => ?_⟩
  · rw [step7_acc_eq]; exact hA r q
  · rw [step7_sum_eq]; exact sum_step7 X W n _ s.sum hA hs z q
  · rw [step7_sq_eq]; exact sq_step7 X W n _ s.sq hA hq z q

/-! ## The state after every point -/

section State
variable (V : (c : Dev nD) → (b : Ref sig .tc) → Buf (Elt Ideal) ((c : Thread nD τ).loc b))

/-- After point `n = 32 j + 8 i + k`: the accumulator is the contraction over the first `k + 1` column blocks, the two rows
    the column sums over the row blocks completed for this `j`. -/
theorem st7_forms (c : Dev nD) : ∀ (n : ℕ) (hn : n < cfg7.N),
    (∀ r q : Fin 1024, (st7 V c n hn).acc (ix2 r q) = accP7 (lhs7 V c) (rhs7 V c) (n / 8 % 4) (n / 32) (n % 8 + 1) r.val q.val)
    ∧ (∀ (z : Fin 1) (q : Fin 1024), (st7 V c n hn).sum (ix2 z q) = rowsP7 (gS7 (lhs7 V c) (rhs7 V c)) (n / 32) ((n % 32 + 1) / 8) q.val)
    ∧ (∀ (z : Fin 1) (q : Fin 1024), (st7 V c n hn).sq (ix2 z q) = rowsP7 (gQ7 (lhs7 V c) (rhs7 V c)) (n / 32) ((n % 32 + 1) / 8) q.val)
  | 0, hn =>
    step_forms7 (lhs7 V c) (rhs7 V c) 0 (iblk7 V c 0 ⟨0, hn⟩) (iblk7 V c 1 ⟨0, hn⟩) (St7.mk (k7_pay1 (F := Ideal)) (k7_pay3 (F := Ideal)) (k7_pay4 (F := Ideal)))
      (fun r p => iblk7_0_apply V c ⟨0, hn⟩ r p) (fun q p => iblk7_1_apply V c ⟨0, hn⟩ q p)
      (fun h => absurd rfl h) (fun h => absurd rfl h) (fun h => absurd rfl h)
  | n + 1, hn => by
    obtain ⟨ia, is, iq⟩ := st7_forms c n (Nat.lt_of_succ_lt hn)
    rw [st7_succ]
    exact step_forms7 (lhs7 V c) (rhs7 V c) (n + 1) (iblk7 V c 0 ⟨n + 1, hn⟩) (iblk7 V c 1 ⟨n + 1, hn⟩) (st7 V c n (Nat.lt_of_succ_lt hn))
      (fun r p => iblk7_0_apply V c ⟨n + 1, hn⟩ r p) (fun q p => iblk7_1_apply V c ⟨n + 1, hn⟩ q p)
      (fun _ => ia) (fun _ => is) (fun _ => iq)

end State

/-! ## The three output arrays -/

section Arrays
variable (V : (c : Dev nD) → (b : Ref sig .tc) → Buf (Elt Ideal) ((c : Thread nD τ).loc b))

/-- The product of the left array with the transpose of the right one, as a whole array. -/
abbrev H7 (c : Dev nD) : S4096x4096.Idx → EReal := prod (lhs7 V c) (rhs7 V c)

/-- After a last reduction step the accumulator is the product's block `(i, j)`. -/
theorem acc_block7 (c : Dev nD) (t : Fin cfg7.N) (h3 : t.val % 8 = 7) (y : S1024x1024.Idx) (i : S4096x4096.Idx)
    (h0 : (i 0).val = 1024 * (t.val / 8 % 4) + (y 0).val) (h1 : (i 1).val = 1024 * (t.val / 32) + (y 1).val) :
    (st7 V c t.val t.isLt).acc y = H7 V c i := by
  obtain ⟨r, q, rfl⟩ : ∃ (r q : Fin 1024), y = ix2 r q := ⟨y 0, y 1, eq_ix2 y⟩
  obtain ⟨a, b, rfl⟩ : ∃ (a : Fin 4096) (b : Fin 4096), i = ix2 a b := ⟨i 0, i 1, eq_ix2 i⟩
  have h0' : a.val = 1024 * (t.val / 8 % 4) + r.val := h0
  have h1' : b.val = 1024 * (t.val / 32) + q.val := h1
  rw [(st7_forms V c t.val t.isLt).1 r q, show t.val % 8 + 1 = 8 by omega, accP7_full]
  show _ = prod (lhs7 V c) (rhs7 V c) (ix2 a b)
  rw [prod_eq_dotN, h0', h1']

/-- After the last point of a column block the running sums are the whole column sums of the product. -/
theorem sum_last7 (c : Dev nD) (t : Fin cfg7.N) (h15 : t.val % 32 = 31) (z : Fin 1) (q : Fin 1024) (b : Fin 4096)
    (hb : b.val = 1024 * (t.val / 32) + q.val) :
    (st7 V c t.val t.isLt).sum (ix2 z q) = ∑ a : Fin 4096, H7 V c (ix2 a b) := by
  rw [(st7_forms V c t.val t.isLt).2.1 z q, colsum_blocks (H7 V c) 4 1024 (by norm_num) b, show (t.val % 32 + 1) / 8 = 4 by omega]
  unfold rowsP7
  refine Finset.sum_congr rfl fun i' hi' => Finset.sum_congr rfl fun r hr => ?_
  have hi4 : i' < 4 := Finset.mem_range.mp hi'
  have hr4 : r < 1024 := Finset.mem_range.mp hr
  rw [rd_prod (lhs7 V c) (rhs7 V c) (by omega) b.isLt, hb]

theorem sq_last7 (c : Dev nD) (t : Fin cfg7.N) (h15 : t.val % 32 = 31) (z : Fin 1) (q : Fin 1024) (b : Fin 4096)
    (hb : b.val = 1024 * (t.val / 32) + q.val) :
    (st7 V c t.val t.isLt).sq (ix2 z q) = ∑ a : Fin 4096, H7 V c (ix2 a b) * H7 V c (ix2 a b) := by
  rw [(st7_forms V c t.val t.isLt).2.2 z q, colsumsq_blocks (H7 V c) 4 1024 (by norm_num) b, show (t.val % 32 + 1) / 8 = 4 by omega]
  unfold rowsP7
  refine Finset.sum_congr rfl fun i' hi' => Finset.sum_congr rfl fun r hr => ?_
  have hi4 : i' < 4 := Finset.mem_range.mp hi'
  have hr4 : r < 1024 := Finset.mem_range.mp hr
  rw [rd_prod (lhs7 V c) (rhs7 V c) (by omega) b.isLt, hb]

/-- The mean's block after the last point of column block `j`. -/
theorem mean_block7 (c : Dev nD) (t : Fin cfg7.N) (h15 : t.val % 32 = 31) (y : S1x1024.Idx) (i : S1x4096.Idx)
    (h1 : (i 1).val = 1024 * (t.val / 32) + (y 1).val) :
    k7_pay7 (F := Ideal) (st7 V c t.val t.isLt).sum y = colMean 4096 (H7 V c) i := by
  obtain ⟨z, q, rfl⟩ : ∃ (z : Fin 1) (q : Fin 1024), y = ix2 z q := ⟨y 0, y 1, eq_ix2 y⟩
  obtain ⟨z', b, rfl⟩ : ∃ (z' : Fin 1) (b : Fin 4096), i = ix2 z' b := ⟨i 0, i 1, eq_ix2 i⟩
  rw [k7_pay7_apply, sum_last7 V c t h15 z q b h1, Cert.LibBatchVar.ofBits_inv_4096, colMean_apply]

/-- The variance's block after the last point of column block `j`. -/
theorem var_block7 (c : Dev nD) (t : Fin cfg7.N) (h15 : t.val % 32 = 31) (y : S1x1024.Idx) (i : S1x4096.Idx)
    (h1 : (i 1).val = 1024 * (t.val / 32) + (y 1).val) :
    k7_pay8 (F := Ideal) (st7 V c t.val t.isLt).sum (st7 V c t.val t.isLt).sq y = colVar 4096 (H7 V c) i := by
  obtain ⟨z, q, rfl⟩ : ∃ (z : Fin 1) (q : Fin 1024), y = ix2 z q := ⟨y 0, y 1, eq_ix2 y⟩
  obtain ⟨z', b, rfl⟩ : ∃ (z' : Fin 1) (b : Fin 4096), i = ix2 z' b := ⟨i 0, i 1, eq_ix2 i⟩
  rw [k7_pay8_apply, sum_last7 V c t h15 z q b h1, sq_last7 V c t h15 z q b h1, Cert.LibBatchVar.ofBits_inv_4096,
    Ideal.ofBits_zero_f32, colVar_apply]

/-! ### What the flushing points write back -/

theorem flushed7_2 (c : Dev nD) (t : Fin cfg7.N) (hf : (cfg7.win 2).flush t = true) :
    (dat7 V c).flushed 2 t = ((cfg7.win 2).blk t).view.read (Elt Ideal) (H7 V c) := by
  have h3 : t.val % 8 = 7 := (flush7_2 t).mp hf
  obtain ⟨-, -, -, -, e0, e1, -⟩ := idx7 t
  show (cfg7.win 2).cut (grid7.coords t) ((dat7 V c).after 2 t) = _
  rw [after7_2]
  funext y
  rw [View.read_apply]
  exact acc_block7 V c t h3 y _
    (by show win7_2.index t (0 : Fin 2) * 1024 + 1 * (y 0).val = _; rw [e0]; omega)
    (by show win7_2.index t (1 : Fin 2) * 1024 + 1 * (y 1).val = _; rw [e1]; omega)

theorem flushed7_3 (c : Dev nD) (t : Fin cfg7.N) (hf : (cfg7.win 3).flush t = true) :
    (dat7 V c).flushed 3 t = ((cfg7.win 3).blk t).view.read (Elt Ideal) (colMean 4096 (H7 V c)) := by
  have h15 : t.val % 32 = 31 := (flush7_3 t).mp hf
  obtain ⟨-, -, -, -, -, -, e0, e1, -⟩ := idx7 t
  show (cfg7.win 3).cut (grid7.coords t) ((dat7 V c).after 3 t) = _
  rw [after7_3]
  funext y
  rw [View.read_apply]
  exact mean_block7 V c t h15 y _
    (by show win7_3.index t (1 : Fin 2) * 1024 + 1 * (y 1).val = _; rw [e1]; omega)

theorem flushed7_4 (c : Dev nD) (t : Fin cfg7.N) (hf : (cfg7.win 4).flush t = true) :
    (dat7 V c).flushed 4 t = ((cfg7.win 4).blk t).view.read (Elt Ideal) (colVar 4096 (H7 V c)) := by
  have h15 : t.val % 32 = 31 := (flush7_4 t).mp hf
  obtain ⟨-, -, -, -, -, -, -, -, e0, e1⟩ := idx7 t
  show (cfg7.win 4).cut (grid7.coords t) ((dat7 V c).after 4 t) = _
  rw [after7_4]
  funext y
  rw [View.read_apply]
  exact var_block7 V c t h15 y _
    (by show win7_4.index t (1 : Fin 2) * 1024 + 1 * (y 1).val = _; rw [e1]; omega)

/-! ### The flushing points' blocks cover the arrays -/

theorem mem_blk7_2 (t : Fin cfg7.N) (i : S4096x4096.Idx) :
    i ∈ ((cfg7.win 2).blk t).view.set
      ↔ ∀ a : Fin 2, win7_2.index t a * S1024x1024.size a ≤ (i a).val ∧ (i a).val < win7_2.index t a * S1024x1024.size a + S1024x1024.size a := by
  show i ∈ ((View.whole main_v11_0).slice (win7_2.rect t)).set ↔ _
  rw [View.set_slice_whole, Rect.mem_set_unit]
  exact Iff.rfl

theorem mem_blk7_3 (t : Fin cfg7.N) (i : S1x4096.Idx) :
    i ∈ ((cfg7.win 3).blk t).view.set
      ↔ ∀ a : Fin 2, win7_3.index t a * S1x1024.size a ≤ (i a).val ∧ (i a).val < win7_3.index t a * S1x1024.size a + S1x1024.size a := by
  show i ∈ ((View.whole main_v11_1).slice (win7_3.rect t)).set ↔ _
  rw [View.set_slice_whole, Rect.mem_set_unit]
  exact Iff.rfl

theorem mem_blk7_4 (t : Fin cfg7.N) (i : S1x4096.Idx) :
    i ∈ ((cfg7.win 4).blk t).view.set
      ↔ ∀ a : Fin 2, win7_4.index t a * S1x1024.size a ≤ (i a).val ∧ (i a).val < win7_4.index t a * S1x1024.size a + S1x1024.size a := by
  show i ∈ ((View.whole main_v11_2).slice (win7_4.rect t)).set ↔ _
  rw [View.set_slice_whole, Rect.mem_set_unit]
  exact Iff.rfl

/-- Entry `(a, b)` of the product is written back at the last reduction step of the point with `i = a / 1024`, `j = b / 1024`. -/
theorem cover7_2 (i : S4096x4096.Idx) : ∃ t : Fin cfg7.N, (cfg7.win 2).flush t = true ∧ i ∈ ((cfg7.win 2).blk t).view.set := by
  have hi0 : (i 0).val < 4096 := (i 0).isLt
  have hi1 : (i 1).val < 4096 := (i 1).isLt
  have hN := N7_eq
  have hlt : 32 * ((i 1).val / 1024) + 8 * ((i 0).val / 1024) + 7 < cfg7.N := by omega
  obtain ⟨-, -, -, -, e0, e1, -⟩ := idx7 ⟨32 * ((i 1).val / 1024) + 8 * ((i 0).val / 1024) + 7, hlt⟩
  refine ⟨⟨32 * ((i 1).val / 1024) + 8 * ((i 0).val / 1024) + 7, hlt⟩, (flush7_2 _).mpr (by show (32 * ((i 1).val / 1024) + 8 * ((i 0).val / 1024) + 7) % 8 = 7; omega), ?_⟩
  rw [mem_blk7_2]
  intro a
  match a with
  | ⟨0, _⟩ =>
    show win7_2.index _ (0 : Fin 2) * 1024 ≤ (i 0).val ∧ (i 0).val < win7_2.index _ (0 : Fin 2) * 1024 + 1024
    rw [e0]; dsimp only; omega
  | ⟨1, _⟩ =>
    show win7_2.index _ (1 : Fin 2) * 1024 ≤ (i 1).val ∧ (i 1).val < win7_2.index _ (1 : Fin 2) * 1024 + 1024
    rw [e1]; dsimp only; omega

theorem cover7_3 (i : S1x4096.Idx) : ∃ t : Fin cfg7.N, (cfg7.win 3).flush t = true ∧ i ∈ ((cfg7.win 3).blk t).view.set := by
  have hi0 : (i 0).val < 1 := (i 0).isLt
  have hi1 : (i 1).val < 4096 := (i 1).isLt
  have hN := N7_eq
  have hlt : 32 * ((i 1).val / 1024) + 31 < cfg7.N := by omega
  obtain ⟨-, -, -, -, -, -, e0, e1, -⟩ := idx7 ⟨32 * ((i 1).val / 1024) + 31, hlt⟩
  refine ⟨⟨32 * ((i 1).val / 1024) + 31, hlt⟩, (flush7_3 _).mpr (by show (32 * ((i 1).val / 1024) + 31) % 32 = 31; omega), ?_⟩
  rw [mem_blk7_3]
  intro a
  match a with
  | ⟨0, _⟩ =>
    show win7_3.index _ (0 : Fin 2) * 1 ≤ (i 0).val ∧ (i 0).val < win7_3.index _ (0 : Fin 2) * 1 + 1
    rw [e0]; omega
  | ⟨1, _⟩ =>
    show win7_3.index _ (1 : Fin 2) * 1024 ≤ (i 1).val ∧ (i 1).val < win7_3.index _ (1 : Fin 2) * 1024 + 1024
    rw [e1]; dsimp only; omega

theorem cover7_4 (i : S1x4096.Idx) : ∃ t : Fin cfg7.N, (cfg7.win 4).flush t = true ∧ i ∈ ((cfg7.win 4).blk t).view.set := by
  have hi0 : (i 0).val < 1 := (i 0).isLt
  have hi1 : (i 1).val < 4096 := (i 1).isLt
  have hN := N7_eq
  have hlt : 32 * ((i 1).val / 1024) + 31 < cfg7.N := by omega
  obtain ⟨-, -, -, -, -, -, -, -, e0, e1⟩ := idx7 ⟨32 * ((i 1).val / 1024) + 31, hlt⟩
  refine ⟨⟨32 * ((i 1).val / 1024) + 31, hlt⟩, (flush7_4 _).mpr (by show (32 * ((i 1).val / 1024) + 31) % 32 = 31; omega), ?_⟩
  rw [mem_blk7_4]
  intro a
  match a with
  | ⟨0, _⟩ =>
    show win7_4.index _ (0 : Fin 2) * 1 ≤ (i 0).val ∧ (i 0).val < win7_4.index _ (0 : Fin 2) * 1 + 1
    rw [e0]; omega
  | ⟨1, _⟩ =>
    show win7_4.index _ (1 : Fin 2) * 1024 ≤ (i 1).val ∧ (i 1).val < win7_4.index _ (1 : Fin 2) * 1024 + 1024
    rw [e1]; dsimp only; omega

/-! ### The arrays after the run -/

/-- The product array ends holding the product of the left array with the transpose of the right one. -/
theorem arr7_2 (c : Dev nD) : (dat7 V c).arrAt 2 cfg7.N = H7 V c :=
  (dat7 V c).arrAt_eq_of_cover 2 (H7 V c) (flushed7_2 V c) cover7_2

/-- The mean array ends holding the column means of the product. -/
theorem arr7_3 (c : Dev nD) : (dat7 V c).arrAt 3 cfg7.N = colMean 4096 (H7 V c) :=
  (dat7 V c).arrAt_eq_of_cover 3 (colMean 4096 (H7 V c)) (flushed7_3 V c) cover7_3

/-- The variance array ends holding the clamped column variances of the product. -/
theorem arr7_4 (c : Dev nD) : (dat7 V c).arrAt 4 cfg7.N = colVar 4096 (H7 V c) :=
  (dat7 V c).arrAt_eq_of_cover 4 (colVar 4096 (H7 V c)) (flushed7_4 V c) cover7_4

end Arrays

end Cert.KernelIdeal.Hand

end
-- ==== Proof.KI.Value8.lean ====
import proofs.«157460_j63591285784858_2_alg».proof.Proof.KI.Region8
import proofs.«157460_j63591285784858_2_alg».proof.Proof.KI.NormSpec
import proofs.«157460_j63591285784858_2_alg».proof.Proof.LibSignSelect
import Idealize.ShloMosaic.Lib.Pipeline.Value
import Idealize.ShloMosaic.Lib.ValueLayout

/-! # Region 8 at the exact values: the result array is the normalized, activated product array

Point `t` of the 4×4 grid stages the 1024×1024 tile `(r, k)` of the 4096×4096 product array and the 1×1024 pieces `k` of
the four rows (means, variances, scale, shift), and writes back tile `(r, k)` of the result.  The body's result at
entry `(p, q)` of the tile is `sign (g q · (h p q − mean q) · rsqrt (var q + ε) + shift q)`, so what point `t` writes
back is tile `t` of that map of the whole arrays; the tiles cover the array (entry `(r, k)` lies in tile
`(r / 1024, k / 1024)`), so the array ends as that map of the arrays the region finds. -/

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The offsets of the body's rectangles are all zero. -/
theorem zeroOffsets8 : (![0, 0] : Fin 2 → Nat) = fun _ => 0 := funext fun a => by fin_cases a <;> rfl

/-- The body's payload at entry `(p, q)` of the tile, from the loaded tile and the four loaded row pieces. -/
theorem bodyPay8_apply (v0 : Vec Ideal S1024x1024 .f32) (v2 v7 v9 v17 : Vec Ideal S1x1024 .f32) (p q : Fin 1024) :
    k8_pay1 v0 v2 v7 v9 v17 (ix2 p q)
      = Ideal.sign (v7 (ix2 (0 : Fin 1) q) * (v0 (ix2 p q) - v9 (ix2 (0 : Fin 1) q)) * Ideal.rsqrt (v2 (ix2 (0 : Fin 1) q) + Ideal.ofBits .f32 0x3727C5AC#32) + v17 (ix2 (0 : Fin 1) q)) := by
  unfold k8_pay1
  refine (Cert.LibSignSelect.signSelect_truncf_apply _ (ix2 p q) _).trans (congrArg Ideal.sign ?_)
  simp only [shapeCast_self]
  rw [addf_apply, mulf_apply, mulf_apply, subf_apply, broadcastTo_1b_ab_apply, broadcastTo_1b_ab_apply,
    broadcastTo_1b_ab_apply, broadcastTo_1b_ab_apply]
  rfl

/-- The block indices, decided over the grid: the product's tile moves with the result's; each row piece is at row
    block 0 and at the result's column block. -/
theorem blockIndex8 : ∀ t : Fin cfg8.N, win8_0.index t (0 : Fin 2) = win8_5.index t (0 : Fin 2)
    ∧ win8_0.index t (1 : Fin 2) = win8_5.index t (1 : Fin 2)
    ∧ win8_1.index t (0 : Fin 2) = 0 ∧ win8_1.index t (1 : Fin 2) = win8_5.index t (1 : Fin 2)
    ∧ win8_2.index t (0 : Fin 2) = 0 ∧ win8_2.index t (1 : Fin 2) = win8_5.index t (1 : Fin 2)
    ∧ win8_3.index t (0 : Fin 2) = 0 ∧ win8_3.index t (1 : Fin 2) = win8_5.index t (1 : Fin 2)
    ∧ win8_4.index t (0 : Fin 2) = 0 ∧ win8_4.index t (1 : Fin 2) = win8_5.index t (1 : Fin 2) :=
  (by decide +kernel : ∀ t : Fin grid8.N, _)

/-- Every tile of the result is some point's. -/
theorem blockOnto8 : ∀ (q0 : Fin 4) (q1 : Fin 4), ∃ t : Fin cfg8.N, win8_5.index t = ![q0.val, q1.val] :=
  (by decide +kernel : ∀ (q0 : Fin 4) (q1 : Fin 4), ∃ t : Fin grid8.N, win8_5.index t = ![q0.val, q1.val])

/-- What point `t` writes back is tile `t` of the map of the arrays as the region finds them. -/
theorem flushed8_eq (c : Dev nD) (t : Fin cfg8.N) :
    (dat8 V c).flushed 5 t = ((cfg8.win 5).blk t).view.read (Elt Ideal) (normAct 4096 4096 (V c main_v11_0) (V c main_v11_1) (V c main_v11_2) (V c main_v12) (V c main_v13)) := by
  show (cfg8.win 5).cut (grid8.coords t) ((dat8 V c).after 5 t) = _
  rw [after8_5]
  unfold out8_5
  rw [View.canon_unit_zero zeroOffsets8]
  simp only [View.ld_unit_zero (S := S1024x1024) zeroOffsets8, View.ld_unit_zero (S := S1x1024) zeroOffsets8]
  obtain ⟨e00, e01, e10, e11, e20, e21, e30, e31, e40, e41⟩ := blockIndex8 t
  funext j
  obtain ⟨p, q, rfl⟩ : ∃ (p : Fin 1024) (q : Fin 1024), j = ix2 p q := ⟨j 0, j 1, eq_ix2 j⟩
  have h0 : ((cfg8.win 0).blk t).view.emb (ix2 p q) = ((cfg8.win 5).blk t).view.emb (ix2 p q) := by
    funext a; apply Fin.ext
    match a with
    | ⟨0, _⟩ => show win8_0.index t (0 : Fin 2) * 1024 + 1 * p.val = win8_5.index t (0 : Fin 2) * 1024 + 1 * p.val; omega
    | ⟨1, _⟩ => show win8_0.index t (1 : Fin 2) * 1024 + 1 * q.val = win8_5.index t (1 : Fin 2) * 1024 + 1 * q.val; omega
  have h1 : ((cfg8.win 1).blk t).view.emb (ix2 (0 : Fin 1) q) = ix2 (0 : Fin 1) ((((cfg8.win 5).blk t).view.emb (ix2 p q)) 1) := by
    funext a; apply Fin.ext
    match a with
    | ⟨0, _⟩ => show win8_1.index t (0 : Fin 2) * 1 + 1 * 0 = 0; omega
    | ⟨1, _⟩ => show win8_1.index t (1 : Fin 2) * 1024 + 1 * q.val = win8_5.index t (1 : Fin 2) * 1024 + 1 * q.val; omega
  have h2 : ((cfg8.win 2).blk t).view.emb (ix2 (0 : Fin 1) q) = ix2 (0 : Fin 1) ((((cfg8.win 5).blk t).view.emb (ix2 p q)) 1) := by
    funext a; apply Fin.ext
    match a with
    | ⟨0, _⟩ => show win8_2.index t (0 : Fin 2) * 1 + 1 * 0 = 0; omega
    | ⟨1, _⟩ => show win8_2.index t (1 : Fin 2) * 1024 + 1 * q.val = win8_5.index t (1 : Fin 2) * 1024 + 1 * q.val; omega
  have h3 : ((cfg8.win 3).blk t).view.emb (ix2 (0 : Fin 1) q) = ix2 (0 : Fin 1) ((((cfg8.win 5).blk t).view.emb (ix2 p q)) 1) := by
    funext a; apply Fin.ext
    match a with
    | ⟨0, _⟩ => show win8_3.index t (0 : Fin 2) * 1 + 1 * 0 = 0; omega
    | ⟨1, _⟩ => show win8_3.index t (1 : Fin 2) * 1024 + 1 * q.val = win8_5.index t (1 : Fin 2) * 1024 + 1 * q.val; omega
  have h4 : ((cfg8.win 4).blk t).view.emb (ix2 (0 : Fin 1) q) = ix2 (0 : Fin 1) ((((cfg8.win 5).blk t).view.emb (ix2 p q)) 1) := by
    funext a; apply Fin.ext
    match a with
    | ⟨0, _⟩ => show win8_4.index t (0 : Fin 2) * 1 + 1 * 0 = 0; omega
    | ⟨1, _⟩ => show win8_4.index t (1 : Fin 2) * 1024 + 1 * q.val = win8_5.index t (1 : Fin 2) * 1024 + 1 * q.val; omega
  refine (bodyPay8_apply _ _ _ _ _ p q).trans ?_
  exact normAct_of_tile 4096 4096 (V c main_v11_0) (V c main_v11_1) (V c main_v11_2) (V c main_v12) (V c main_v13) _ _ _ _ _ _ h0 h1 h2 h3 h4

/-- An index of the array is in point `t`'s tile iff each coordinate is in the tile's range on its axis. -/
theorem memBlock8 (t : Fin cfg8.N) (i : S4096x4096.Idx) :
    i ∈ ((cfg8.win 5).blk t).view.set ↔ ∀ a : Fin 2, win8_5.index t a * S1024x1024.size a ≤ (i a).val ∧ (i a).val < win8_5.index t a * S1024x1024.size a + S1024x1024.size a := by
  show i ∈ ((View.whole main_v14).slice (win8_5.rect t)).set ↔ _
  rw [View.set_slice_whole, Rect.mem_set_unit]
  exact Iff.rfl

/-- Every index of the result is in some point's tile: entry `(r, k)` is in tile `(r / 1024, k / 1024)`. -/
theorem covered8 (i : S4096x4096.Idx) : ∃ t : Fin cfg8.N, (cfg8.win 5).flush t = true ∧ i ∈ ((cfg8.win 5).blk t).view.set := by
  have hi0 : (i 0).val < 4096 := (i 0).isLt
  have hi1 : (i 1).val < 4096 := (i 1).isLt
  obtain ⟨t, ht⟩ := blockOnto8 ⟨(i 0).val / 1024, by omega⟩ ⟨(i 1).val / 1024, by omega⟩
  have q0 : win8_5.index t (0 : Fin 2) = (i 0).val / 1024 := congrFun ht 0
  have q1 : win8_5.index t (1 : Fin 2) = (i 1).val / 1024 := congrFun ht 1
  refine ⟨t, flush8_5 t, ?_⟩
  rw [memBlock8]
  intro a
  match a with
  | ⟨0, _⟩ => show win8_5.index t (0 : Fin 2) * 1024 ≤ (i 0).val ∧ (i 0).val < win8_5.index t (0 : Fin 2) * 1024 + 1024; omega
  | ⟨1, _⟩ => show win8_5.index t (1 : Fin 2) * 1024 ≤ (i 1).val ∧ (i 1).val < win8_5.index t (1 : Fin 2) * 1024 + 1024; omega

/-- The result array after the region: the normalize-and-sign map of the five arrays as the region finds them. -/
theorem final8 (c : Dev nD) : (dat8 V c).arrAt 5 cfg8.N
    = normAct 4096 4096 (V c (Pipeline.arrRef spec8 0)) (V c (Pipeline.arrRef spec8 1)) (V c (Pipeline.arrRef spec8 2)) (V c (Pipeline.arrRef spec8 3)) (V c (Pipeline.arrRef spec8 4)) :=
  (dat8 V c).arrAt_eq_of_cover 5 (normAct 4096 4096 (V c main_v11_0) (V c main_v11_1) (V c main_v11_2) (V c main_v12) (V c main_v13)) (fun t _ => flushed8_eq V c t) covered8

end Cert.KernelIdeal.Hand

end
-- ==== Proof.KI.KernelValue2.lean ====
import proofs.«157460_j63591285784858_2_alg».proof.Proof.KI.MainFold
import proofs.«157460_j63591285784858_2_alg».proof.Proof.KI.Value6
import proofs.«157460_j63591285784858_2_alg».proof.Proof.KI.R7Value
import proofs.«157460_j63591285784858_2_alg».proof.Proof.KI.Value8
import proofs.«157460_j63591285784858_2_alg».proof.Proof.LayerBridge
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.MatStats Cert.LayerBridge
open Idealize.ShloMosaic.StableHlo (after_cons after_nil reshape_result reshape_result_ne)

/-- A vector recast as one row is the vector read along the row: entry `(0, q)` of the row is entry `q` of the vector. -/
theorem k2_cast_row {a : ℕ} (g : (⟨1, ![a]⟩ : Shape).Idx → EReal) (h : (⟨1, ![a]⟩ : Shape).ShapeCasts ⟨2, ![1, a]⟩) :
    shapeCast ⟨2, ![1, a]⟩ g h = asRow g := by
  funext j
  rw [eq_ix2 j]
  exact shapeCast_a_1a_apply g h _ _

variable (m : (ℓ : Loc nD τ sig) → Buf (Elt Ideal) ℓ) (ρ : Dev nD → PrngReg)

/-! Layer 2: the sign region writes the signs of the weights; the product region writes the product of the layer's
    input with their transpose, its column means and its clamped column variances; the host stretch recasts the scale
    and the shift as rows; the normalization region writes the normalized, activated product. None of these items writes
    an argument array, nor an array an earlier item left for a later one. -/

/-- The weights, as the sign region finds them, are the launch contents. -/
theorem k2_wa (c : Dev nD) : V8 m ρ c main_arg7 = (m ((c : Thread nD τ).loc main_arg7)) :=
  ((W8_of_ne m ρ c main_arg7 (by decide)).trans ((W7_keep m ρ c main_arg7 (by decide)).trans ((W6_of_ne m ρ c main_arg7 (by decide)).trans ((W5_of_ne m ρ c main_arg7 (by decide)).trans ((W4_of_ne m ρ c main_arg7 (by decide)).trans ((W3_keep m ρ c main_arg7 (by decide)).trans ((W2_of_ne m ρ c main_arg7 (by decide)).trans (W1_of_ne m ρ c main_arg7 (by decide)))))))))

/-- The layer's input, as the product region finds it. -/
theorem k2_x (c : Dev nD) : V9 m ρ c main_v9 = (W8 m ρ c (Proc.devRef .tc main_v9)) :=
  (W9_of_ne m ρ c main_v9 (by decide))

/-- The signs of the weights, as the product region finds them. -/
theorem k2_w (c : Dev nD) : V9 m ρ c main_v10 = signArr (m ((c : Thread nD τ).loc main_arg7)) :=
  (W9_main_v10 m ρ c).trans ((final6 (V8 m ρ) c).trans (congrArg signArr (k2_wa m ρ c)))

theorem k2_P (c : Dev nD) : prod (V9 m ρ c main_v9) (V9 m ρ c main_v10) = (prod (W8 m ρ c (Proc.devRef .tc main_v9)) (signArr (m ((c : Thread nD τ).loc main_arg7)))) :=
  congrArg₂ prod (k2_x m ρ c) (k2_w m ρ c)

/-- The product, its column means and its column variances, as the normalization region finds them. -/
theorem k2_H (c : Dev nD) : V11 m ρ c main_v11_0 = (prod (W8 m ρ c (Proc.devRef .tc main_v9)) (signArr (m ((c : Thread nD τ).loc main_arg7)))) :=
  (W11_keep m ρ c main_v11_0 (by decide)).trans ((W10_main_v11_0 m ρ c).trans ((arr7_2 (V9 m ρ) c).trans (k2_P m ρ c)))

theorem k2_M (c : Dev nD) : V11 m ρ c main_v11_1 = colMean 4096 (prod (W8 m ρ c (Proc.devRef .tc main_v9)) (signArr (m ((c : Thread nD τ).loc main_arg7)))) :=
  (W11_keep m ρ c main_v11_1 (by decide)).trans ((W10_main_v11_1 m ρ c).trans ((arr7_3 (V9 m ρ) c).trans (congrArg (colMean 4096) (k2_P m ρ c))))

theorem k2_Vr (c : Dev nD) : V11 m ρ c main_v11_2 = colVar 4096 (prod (W8 m ρ c (Proc.devRef .tc main_v9)) (signArr (m ((c : Thread nD τ).loc main_arg7)))) :=
  (W11_keep m ρ c main_v11_2 (by decide)).trans ((W10_main_v11_2 m ρ c).trans ((arr7_4 (V9 m ρ) c).trans (congrArg (colVar 4096) (k2_P m ρ c))))

/-- The scale and the shift, as the host stretch finds them, are the launch contents. -/
theorem k2_g (c : Dev nD) : W10 m ρ c (Proc.devRef .tc main_arg8) = (m ((c : Thread nD τ).loc main_arg8)) :=
  ((W10_of_ne m ρ c main_arg8 (by decide)).trans ((W9_of_ne m ρ c main_arg8 (by decide)).trans ((W8_of_ne m ρ c main_arg8 (by decide)).trans ((W7_keep m ρ c main_arg8 (by decide)).trans ((W6_of_ne m ρ c main_arg8 (by decide)).trans ((W5_of_ne m ρ c main_arg8 (by decide)).trans ((W4_of_ne m ρ c main_arg8 (by decide)).trans ((W3_keep m ρ c main_arg8 (by decide)).trans ((W2_of_ne m ρ c main_arg8 (by decide)).trans (W1_of_ne m ρ c main_arg8 (by decide)))))))))))

theorem k2_b (c : Dev nD) : W10 m ρ c (Proc.devRef .tc main_arg9) = (m ((c : Thread nD τ).loc main_arg9)) :=
  ((W10_of_ne m ρ c main_arg9 (by decide)).trans ((W9_of_ne m ρ c main_arg9 (by decide)).trans ((W8_of_ne m ρ c main_arg9 (by decide)).trans ((W7_keep m ρ c main_arg9 (by decide)).trans ((W6_of_ne m ρ c main_arg9 (by decide)).trans ((W5_of_ne m ρ c main_arg9 (by decide)).trans ((W4_of_ne m ρ c main_arg9 (by decide)).trans ((W3_keep m ρ c main_arg9 (by decide)).trans ((W2_of_ne m ρ c main_arg9 (by decide)).trans (W1_of_ne m ρ c main_arg9 (by decide)))))))))))

/-- The scale and the shift recast as rows, as the normalization region finds them. -/
theorem k2_G (c : Dev nD) : V11 m ρ c main_v12 = asRow (m ((c : Thread nD τ).loc main_arg8)) := by
  show StableHlo.after hostOps8 (W10 m ρ c) (Proc.devRef .tc main_v12) = _
  refine Eq.trans ?_ (k2_cast_row (m ((c : Thread nD τ).loc main_arg8)) shapeCasts_S4096_S1x4096)
  rw [← k2_g m ρ c]
  simp only [hostOps8]
  after_results
  rfl

theorem k2_B (c : Dev nD) : V11 m ρ c main_v13 = asRow (m ((c : Thread nD τ).loc main_arg9)) := by
  show StableHlo.after hostOps8 (W10 m ρ c) (Proc.devRef .tc main_v13) = _
  refine Eq.trans ?_ (k2_cast_row (m ((c : Thread nD τ).loc main_arg9)) shapeCasts_S4096_S1x4096)
  rw [← k2_b m ρ c]
  simp only [hostOps8]
  after_results
  rfl

/-- Layer 2's activation array, after its normalization region, is the layer's function of its input and of the
    launch contents of its three parameter arrays. -/
theorem kernel_layer2 (c : Dev nD) :
    W12 m ρ c (Proc.devRef .tc main_v14)
      = kLayerMid (W8 m ρ c (Proc.devRef .tc main_v9)) (m ((c : Thread nD τ).loc main_arg7)) (m ((c : Thread nD τ).loc main_arg8)) (m ((c : Thread nD τ).loc main_arg9)) := by
  rw [W12_main_v14, final8 (V11 m ρ) c]
  show normAct 4096 4096 (V11 m ρ c main_v11_0) (V11 m ρ c main_v11_1) (V11 m ρ c main_v11_2) (V11 m ρ c main_v12) (V11 m ρ c main_v13) = _
  rw [k2_H, k2_M, k2_Vr, k2_G, k2_B]
  rfl

end Cert.KernelIdeal.Hand

end
-- ==== Proof.KI.Value9.lean ====
import proofs.«157460_j63591285784858_2_alg».proof.Proof.KI.Region9
import proofs.«157460_j63591285784858_2_alg».proof.Proof.LibSignSelect
import Idealize.ShloMosaic.Lib.Pipeline.Value

/-! # Region 9 at the exact values: the result array is the sign of the weight array, entry by entry

Point `t` of the grid stages rows `256·t … 256·t + 255` of the 1024×4096 weight array, and writes back the
same rows of the result.  The body's result at an entry of the block is the sign of the input block's entry,
so what point `t` writes back is block `t` of the entrywise sign of the weights; the 4 row blocks tile the
array (row `r` lies in block `r / 256`), so the array ends as the entrywise sign of the weights. -/

noncomputable section

namespace Cert.KernelIdeal.Hand

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The offsets of the body's one rectangle are all zero. -/
theorem zeroOffsets9 : (![0, 0] : Fin 2 → Nat) = fun _ => 0 := funext fun a => by fin_cases a <;> rfl

/-- The entrywise sign of a 1024×4096 array (the result's format change is the identity at the exact values). -/
def signOf9 (A : S1024x4096.Idx → Elt Ideal .f32) : S1024x4096.Idx → Elt Ideal .bf16 := fun i => Ideal.sign (A i)

theorem signOf9_apply (A : S1024x4096.Idx → Elt Ideal .f32) (i : S1024x4096.Idx) : signOf9 A i = Ideal.sign (A i) := rfl

/-- The body's payload at an entry: the sign of the loaded block's entry (the leading cast to the same shape is the
    identity). -/
theorem pay9_apply (x : Vec Ideal S256x4096 .f32) (j : S256x4096.Idx) : k9_pay1 x j = Ideal.sign (x j) := by
  unfold k9_pay1
  simp only [shapeCast_self]
  exact Cert.LibSignSelect.signSelect_truncf_apply x j _

/-- The block indices, decided over the grid: both windows are at row block `t`, column block 0. -/
theorem blockIndex9 : ∀ t : Fin cfg9.N, win9_0.index t (0 : Fin 2) = t.val
    ∧ win9_0.index t (1 : Fin 2) = 0
    ∧ win9_1.index t (0 : Fin 2) = t.val
    ∧ win9_1.index t (1 : Fin 2) = 0 :=
  (by decide +kernel : ∀ t : Fin grid9.N, _)

/-- What point `t` writes back is block `t` of the entrywise sign of the weights as the region finds them. -/
theorem flushed9_eq (c : Dev nD) (t : Fin cfg9.N) :
    (dat9 V c).flushed 1 t = ((cfg9.win 1).blk t).view.read (Elt Ideal) (signOf9 (V c main_v15)) := by
  show (cfg9.win 1).cut (grid9.coords t) ((dat9 V c).after 1 t) = _
  rw [after9_1]
  unfold out9_1
  rw [View.canon_unit_zero zeroOffsets9]
  simp only [View.ld_unit_zero (S := S256x4096) zeroOffsets9]
  obtain ⟨e0, e1, e2, e3⟩ := blockIndex9 t
  funext j
  refine (pay9_apply _ j).trans ?_
  show Ideal.sign (V c main_v15 (((cfg9.win 0).blk t).view.emb j)) = Ideal.sign (V c main_v15 (((cfg9.win 1).blk t).view.emb j))
  have h0 : ((cfg9.win 0).blk t).view.emb j = ((cfg9.win 1).blk t).view.emb j := by
    funext a; apply Fin.ext
    match a with
    | ⟨0, _⟩ => show win9_0.index t (0 : Fin 2) * 256 + 1 * (j 0).val = win9_1.index t (0 : Fin 2) * 256 + 1 * (j 0).val; omega
    | ⟨1, _⟩ => show win9_0.index t (1 : Fin 2) * 4096 + 1 * (j 1).val = win9_1.index t (1 : Fin 2) * 4096 + 1 * (j 1).val; omega
  rw [h0]

/-- An index of the array is in point `t`'s block iff each coordinate is in the block's range on its axis. -/
theorem memBlock9 (t : Fin cfg9.N) (i : S1024x4096.Idx) :
    i ∈ ((cfg9.win 1).blk t).view.set ↔ ∀ a : Fin 2, win9_1.index t a * S256x4096.size a ≤ (i a).val ∧ (i a).val < win9_1.index t a * S256x4096.size a + S256x4096.size a := by
  show i ∈ ((View.whole main_v18).slice (win9_1.rect t)).set ↔ _
  rw [View.set_slice_whole, Rect.mem_set_unit]
  exact Iff.rfl

/-- Every index of the result is in some point's block: row `r` is in block `r / 256`. -/
theorem covered9 (i : S1024x4096.Idx) : ∃ t : Fin cfg9.N, (cfg9.win 1).flush t = true ∧ i ∈ ((cfg9.win 1).blk t).view.set := by
  have hi0 : (i 0).val < 1024 := (i 0).isLt
  have hi1 : (i 1).val < 4096 := (i 1).isLt
  have hN : grid9.N = 4 := N_9
  have hlt : (i 0).val / 256 < grid9.N := by omega
  obtain ⟨e0, e1, e2, e3⟩ := blockIndex9 ⟨(i 0).val / 256, hlt⟩
  have e2' : win9_1.index ⟨(i 0).val / 256, hlt⟩ (0 : Fin 2) = (i 0).val / 256 := e2
  refine ⟨⟨(i 0).val / 256, hlt⟩, flush9_1 _, ?_⟩
  rw [memBlock9]
  intro a
  match a with
  | ⟨0, _⟩ => show win9_1.index ⟨(i 0).val / 256, hlt⟩ (0 : Fin 2) * 256 ≤ (i 0).val ∧ (i 0).val < win9_1.index ⟨(i 0).val / 256, hlt⟩ (0 : Fin 2) * 256 + 256; omega
  | ⟨1, _⟩ => show win9_1.index ⟨(i 0).val / 256, hlt⟩ (1 : Fin 2) * 4096 ≤ (i 1).val ∧ (i 1).val < win9_1.index ⟨(i 0).val / 256, hlt⟩ (1 : Fin 2) * 4096 + 4096; omega

/-- The result array after the region: the entrywise sign of the weight array as the region finds it. -/
theorem final9 (c : Dev nD) : (dat9 V c).arrAt 1 cfg9.N = signOf9 (V c (Pipeline.arrRef spec9 0)) :=
  (dat9 V c).arrAt_eq_of_cover 1 (signOf9 (V c main_v15)) (fun t _ => flushed9_eq V c t) covered9

end Cert.KernelIdeal.Hand

end
-- ==== Proof.KI.R10Value.lean ====
/-
  The value of matrix-product region 10 at the ideal float values.

  The region walks a grid of points `t = 32 j + 8 i + k` (`j` the column block of the product, `i` its row block, `k`
  the reduction step). At a point the two input windows stage rows `1024 i …`, columns `512 k …` of the left array and
  rows `1024 j …`, columns `512 k …` of the right one. The carried state is an accumulator, a row of running column
  sums and a row of running column sums of squares. In closed form, after point `t`:
    • the accumulator at `(r, q)` is the contraction of row `1024 i + r` of the left array with row `1024 j + q` of the
      right one over the first `512 (k + 1)` columns — after the last step `k = 7`, the whole product entry;
    • the running sums at `(0, q)` are the sums of column `1024 j + q` of the product (of its squares) over the row
      blocks completed so far for this `j`: `i` of them, and `i + 1` after a last step.
  Both by induction on the point; sums on the extended reals commute and associate with no finiteness, so nothing is
  assumed of the arrays. The partial sums are stated with the arrays read at natural-number coordinates (`rd`), which
  keeps the index arithmetic free of bounds proofs. Then the three output arrays after the run: the product, its
  column means and its clamped column variances, each written back block by block at the points that flush.
-/
import proofs.«157460_j63591285784858_2_alg».proof.Proof.KI.R10Dat
import proofs.«157460_j63591285784858_2_alg».proof.Proof.KI.R1Spec
import proofs.«157460_j63591285784858_2_alg».proof.Proof.KI.RnPay
import proofs.«157460_j63591285784858_2_alg».proof.Proof.LibBatchVar
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.MatStats
open scoped BigOperators

/-! ## The index maps and the input blocks -/

/-- The printed index maps, decided over the grid: with `t = 32 j + 8 i + k`, the block indices of the five windows. -/
theorem idx10 : ∀ t : Fin cfg10.N,
    win10_0.index t (0 : Fin 2) = t.val / 8 % 4 ∧ win10_0.index t (1 : Fin 2) = t.val % 8
    ∧ win10_1.index t (0 : Fin 2) = t.val / 32 ∧ win10_1.index t (1 : Fin 2) = t.val % 8
    ∧ win10_2.index t (0 : Fin 2) = t.val / 8 % 4 ∧ win10_2.index t (1 : Fin 2) = t.val / 32
    ∧ win10_3.index t (0 : Fin 2) = 0 ∧ win10_3.index t (1 : Fin 2) = t.val / 32
    ∧ win10_4.index t (0 : Fin 2) = 0 ∧ win10_4.index t (1 : Fin 2) = t.val / 32 :=
  (by decide +kernel : ∀ t : Fin grid10.N, _)

theorem N10_eq : cfg10.N = 32 := N_10

section Blocks
variable (V : (c : Dev nD) → (b : Ref sig .tc) → Buf (Elt Ideal) ((c : Thread nD τ).loc b))

/-- The left and the right array, as the region finds them. -/
abbrev lhs10 (c : Dev nD) : S4096x4096.Idx → EReal := V c main_v14
abbrev rhs10 (c : Dev nD) : S1024x4096.Idx → EReal := V c main_v18

theorem iblk10_0_apply (c : Dev nD) (t : Fin cfg10.N) (r : Fin 1024) (p : Fin 512) :
    (iblk10 V c 0 t : Vec Ideal S1024x512 .bf16) (ix2 r p)
      = rd (lhs10 V c) (1024 * (t.val / 8 % 4) + r.val) (512 * (t.val % 8) + p.val) := by
  obtain ⟨e0, e1, -⟩ := idx10 t
  have hN : t.val < 32 := by have := t.isLt; have := N10_eq; omega
  rw [rd_of_lt _ (by have := r.isLt; omega) (by have := p.isLt; omega)]
  unfold iblk10
  rw [View.read_apply]
  show V c main_v14 _ = V c main_v14 _
  congr 1
  funext a
  apply Fin.ext
  match a with
  | ⟨0, _⟩ => show win10_0.index t (0 : Fin 2) * 1024 + 1 * r.val = 1024 * (t.val / 8 % 4) + r.val; rw [e0]; omega
  | ⟨1, _⟩ => show win10_0.index t (1 : Fin 2) * 512 + 1 * p.val = 512 * (t.val % 8) + p.val; rw [e1]; omega

theorem iblk10_1_apply (c : Dev nD) (t : Fin cfg10.N) (q : Fin 1024) (p : Fin 512) :
    (iblk10 V c 1 t : Vec Ideal S1024x512 .bf16) (ix2 q p)
      = rd (rhs10 V c) (1024 * (t.val / 32) + q.val) (512 * (t.val % 8) + p.val) := by
  obtain ⟨-, -, e0, e1, -⟩ := idx10 t
  have hN : t.val < 32 := by have := t.isLt; have := N10_eq; omega
  rw [rd_of_lt _ (by have := q.isLt; omega) (by have := p.isLt; omega)]
  unfold iblk10
  rw [View.read_apply]
  show V c main_v18 _ = V c main_v18 _
  congr 1
  funext a
  apply Fin.ext
  match a with
  | ⟨0, _⟩ => show win10_1.index t (0 : Fin 2) * 1024 + 1 * q.val = 1024 * (t.val / 32) + q.val; rw [e0]; omega
  | ⟨1, _⟩ => show win10_1.index t (1 : Fin 2) * 512 + 1 * p.val = 512 * (t.val % 8) + p.val; rw [e1]; omega

end Blocks

/-! ## The closed forms -/

/-- The contraction of row `1024 i + r` of `X` with row `1024 j + q` of `W` over the first `K` blocks of 512 columns. -/
def accP10 (X : S4096x4096.Idx → EReal) (W : S1024x4096.Idx → EReal) (i j K r q : ℕ) : EReal :=
  ∑ k' ∈ Finset.range K, ∑ p ∈ Finset.range 512, rd X (1024 * i + r) (512 * k' + p) * rd W (1024 * j + q) (512 * k' + p)

/-- After 8 blocks it is the contraction over all 4096 columns. -/
theorem accP10_full (X : S4096x4096.Idx → EReal) (W : S1024x4096.Idx → EReal) (i j r q : ℕ) :
    accP10 X W i j 8 r q = dotN X W 4096 (1024 * i + r) (1024 * j + q) := by
  unfold accP10 dotN
  exact (sum_range_blocks (fun p => rd X (1024 * i + r) p * rd W (1024 * j + q) p) 8 512).symm

theorem accP10_zero (X : S4096x4096.Idx → EReal) (W : S1024x4096.Idx → EReal) (i j r q : ℕ) : accP10 X W i j 0 r q = 0 := by
  unfold accP10; rw [Finset.range_zero, Finset.sum_empty]

theorem accP10_succ (X : S4096x4096.Idx → EReal) (W : S1024x4096.Idx → EReal) (i j K r q : ℕ) :
    accP10 X W i j (K + 1) r q
      = accP10 X W i j K r q + ∑ p ∈ Finset.range 512, rd X (1024 * i + r) (512 * K + p) * rd W (1024 * j + q) (512 * K + p) := by
  unfold accP10; exact Finset.sum_range_succ _ K

/-- The sum of `g` at column `1024 j + q` over the first `I` blocks of 1024 rows. -/
def rowsP10 (g : ℕ → ℕ → EReal) (j I q : ℕ) : EReal :=
  ∑ i' ∈ Finset.range I, ∑ r ∈ Finset.range 1024, g (1024 * i' + r) (1024 * j + q)

theorem rowsP10_zero (g : ℕ → ℕ → EReal) (j q : ℕ) : rowsP10 g j 0 q = 0 := by
  unfold rowsP10; rw [Finset.range_zero, Finset.sum_empty]

theorem rowsP10_succ (g : ℕ → ℕ → EReal) (j I q : ℕ) :
    rowsP10 g j (I + 1) q = rowsP10 g j I q + ∑ r ∈ Finset.range 1024, g (1024 * I + r) (1024 * j + q) := by
  unfold rowsP10; exact Finset.sum_range_succ _ I

/-- The product entry and its square, at natural-number coordinates. -/
abbrev gS10 (X : S4096x4096.Idx → EReal) (W : S1024x4096.Idx → EReal) (a b : ℕ) : EReal := dotN X W 4096 a b
abbrev gQ10 (X : S4096x4096.Idx → EReal) (W : S1024x4096.Idx → EReal) (a b : ℕ) : EReal := dotN X W 4096 a b * dotN X W 4096 a b

/-! ## One grid point -/

section Step
variable {F : FTy → Type} [FloatOps F]

theorem step10_acc_eq (n : ℕ) (x0 : Vec F S1024x512 .bf16) (x1 : Vec F S1024x512 .bf16) (s : St10 F) :
    (step10 n x0 x1 s).acc = k10_pay2 x0 (if n % 8 = 0 then k10_pay1 else s.acc) x1 := by
  unfold step10
  dsimp only
  split <;> rfl

theorem step10_sum_eq (n : ℕ) (x0 : Vec F S1024x512 .bf16) (x1 : Vec F S1024x512 .bf16) (s : St10 F) :
    (step10 n x0 x1 s).sum
      = if n % 8 = 7 then k10_pay5 (k10_pay2 x0 (if n % 8 = 0 then k10_pay1 else s.acc) x1) (if n / 8 % 4 = 0 then k10_pay3 else s.sum)
        else (if n / 8 % 4 = 0 then k10_pay3 else s.sum) := by
  unfold step10
  dsimp only
  split <;> rfl

theorem step10_sq_eq (n : ℕ) (x0 : Vec F S1024x512 .bf16) (x1 : Vec F S1024x512 .bf16) (s : St10 F) :
    (step10 n x0 x1 s).sq
      = if n % 8 = 7 then k10_pay6 (k10_pay2 x0 (if n % 8 = 0 then k10_pay1 else s.acc) x1) (if n / 8 % 4 = 0 then k10_pay4 else s.sq)
        else (if n / 8 % 4 = 0 then k10_pay4 else s.sq) := by
  unfold step10
  dsimp only
  split <;> rfl

end Step

/-- The accumulator after point `n`, from the two blocks the point stages and the accumulator before it. -/
theorem acc_step10 (X : S4096x4096.Idx → EReal) (W : S1024x4096.Idx → EReal) (n : ℕ) (x0 : FVec Ideal S1024x512 .bf16) (x1 : FVec Ideal S1024x512 .bf16)
    (a : FVec Ideal S1024x1024 .f32)
    (hx0 : ∀ (r : Fin 1024) (p : Fin 512), x0 (ix2 r p) = rd X (1024 * (n / 8 % 4) + r.val) (512 * (n % 8) + p.val))
    (hx1 : ∀ (q : Fin 1024) (p : Fin 512), x1 (ix2 q p) = rd W (1024 * (n / 32) + q.val) (512 * (n % 8) + p.val))
    (ha : n % 8 ≠ 0 → ∀ r q : Fin 1024, a (ix2 r q) = accP10 X W ((n - 1) / 8 % 4) ((n - 1) / 32) ((n - 1) % 8 + 1) r.val q.val)
    (r q : Fin 1024) :
    k10_pay2 (F := Ideal) x0 (if n % 8 = 0 then k10_pay1 (F := Ideal) else a) x1 (ix2 r q)
      = accP10 X W (n / 8 % 4) (n / 32) (n % 8 + 1) r.val q.val := by
  rw [k10_pay2_apply]
  have hblk : ∑ p : Fin 512, x0 (ix2 r p) * x1 (ix2 q p)
      = ∑ p ∈ Finset.range 512, rd X (1024 * (n / 8 % 4) + r.val) (512 * (n % 8) + p) * rd W (1024 * (n / 32) + q.val) (512 * (n % 8) + p) := by
    rw [← sum_fin_eq_range (fun p => rd X (1024 * (n / 8 % 4) + r.val) (512 * (n % 8) + p) * rd W (1024 * (n / 32) + q.val) (512 * (n % 8) + p))]
    exact Finset.sum_congr rfl fun p _ => by rw [hx0, hx1]
  rw [hblk, accP10_succ]
  by_cases h0 : n % 8 = 0
  · rw [if_pos h0, k10_pay1_apply, h0, accP10_zero]
  · rw [if_neg h0, ha h0 r q, show (n - 1) / 8 % 4 = n / 8 % 4 by omega, show (n - 1) / 32 = n / 32 by omega,
      show (n - 1) % 8 + 1 = n % 8 by omega]

/-- The running column sums after point `n`. -/
theorem sum_step10 (X : S4096x4096.Idx → EReal) (W : S1024x4096.Idx → EReal) (n : ℕ) (acc : FVec Ideal S1024x1024 .f32) (s : FVec Ideal S1x1024 .f32)
    (hacc : ∀ r q : Fin 1024, acc (ix2 r q) = accP10 X W (n / 8 % 4) (n / 32) (n % 8 + 1) r.val q.val)
    (hs : n / 8 % 4 ≠ 0 → ∀ (z : Fin 1) (q : Fin 1024), s (ix2 z q) = rowsP10 (gS10 X W) ((n - 1) / 32) (((n - 1) % 32 + 1) / 8) q.val)
    (z : Fin 1) (q : Fin 1024) :
    (if n % 8 = 7 then k10_pay5 (F := Ideal) acc (if n / 8 % 4 = 0 then k10_pay3 (F := Ideal) else s) else (if n / 8 % 4 = 0 then k10_pay3 (F := Ideal) else s)) (ix2 z q)
      = rowsP10 (gS10 X W) (n / 32) ((n % 32 + 1) / 8) q.val := by
  have h0 : (if n / 8 % 4 = 0 then k10_pay3 (F := Ideal) else s) (ix2 z q) = rowsP10 (gS10 X W) (n / 32) (n / 8 % 4) q.val := by
    by_cases hi : n / 8 % 4 = 0
    · rw [if_pos hi, k10_pay3_apply, hi, rowsP10_zero]
    · rw [if_neg hi, hs hi z q, show (n - 1) / 32 = n / 32 by omega, show ((n - 1) % 32 + 1) / 8 = n / 8 % 4 by omega]
  by_cases h3 : n % 8 = 7
  · rw [if_pos h3, k10_pay5_apply, h0]
    have hcol : ∑ r : Fin 1024, acc (ix2 r q) = ∑ r ∈ Finset.range 1024, gS10 X W (1024 * (n / 8 % 4) + r) (1024 * (n / 32) + q.val) := by
      rw [← sum_fin_eq_range (fun r => gS10 X W (1024 * (n / 8 % 4) + r) (1024 * (n / 32) + q.val))]
      exact Finset.sum_congr rfl fun r _ => by rw [hacc, h3]; exact accP10_full X W _ _ _ _
    rw [hcol, show (n % 32 + 1) / 8 = n / 8 % 4 + 1 by omega, rowsP10_succ]
  · rw [if_neg h3, h0, show (n % 32 + 1) / 8 = n / 8 % 4 by omega]

/-- The running column sums of squares after point `n`. -/
theorem sq_step10 (X : S4096x4096.Idx → EReal) (W : S1024x4096.Idx → EReal) (n : ℕ) (acc : FVec Ideal S1024x1024 .f32) (s : FVec Ideal S1x1024 .f32)
    (hacc : ∀ r q : Fin 1024, acc (ix2 r q) = accP10 X W (n / 8 % 4) (n / 32) (n % 8 + 1) r.val q.val)
    (hs : n / 8 % 4 ≠ 0 → ∀ (z : Fin 1) (q : Fin 1024), s (ix2 z q) = rowsP10 (gQ10 X W) ((n - 1) / 32) (((n - 1) % 32 + 1) / 8) q.val)
    (z : Fin 1) (q : Fin 1024) :
    (if n % 8 = 7 then k10_pay6 (F := Ideal) acc (if n / 8 % 4 = 0 then k10_pay4 (F := Ideal) else s) else (if n / 8 % 4 = 0 then k10_pay4 (F := Ideal) else s)) (ix2 z q)
      = rowsP10 (gQ10 X W) (n / 32) ((n % 32 + 1) / 8) q.val := by
  have h0 : (if n / 8 % 4 = 0 then k10_pay4 (F := Ideal) else s) (ix2 z q) = rowsP10 (gQ10 X W) (n / 32) (n / 8 % 4) q.val := by
    by_cases hi : n / 8 % 4 = 0
    · rw [if_pos hi, k10_pay4_apply, hi, rowsP10_zero]
    · rw [if_neg hi, hs hi z q, show (n - 1) / 32 = n / 32 by omega, show ((n - 1) % 32 + 1) / 8 = n / 8 % 4 by omega]
  by_cases h3 : n % 8 = 7
  · rw [if_pos h3, k10_pay6_apply, h0]
    have hcol : ∑ r : Fin 1024, acc (ix2 r q) * acc (ix2 r q)
        = ∑ r ∈ Finset.range 1024, gQ10 X W (1024 * (n / 8 % 4) + r) (1024 * (n / 32) + q.val) := by
      rw [← sum_fin_eq_range (fun r => gQ10 X W (1024 * (n / 8 % 4) + r) (1024 * (n / 32) + q.val))]
      exact Finset.sum_congr rfl fun r _ => by rw [hacc, h3, accP10_full X W _ _ _ _]
    rw [hcol, show (n % 32 + 1) / 8 = n / 8 % 4 + 1 by omega, rowsP10_succ]
  · rw [if_neg h3, h0, show (n % 32 + 1) / 8 = n / 8 % 4 by omega]

/-- One point: the three closed forms after it, from the blocks it stages and the closed forms before it. -/
theorem step_forms10 (X : S4096x4096.Idx → EReal) (W : S1024x4096.Idx → EReal) (n : ℕ) (x0 : Vec Ideal S1024x512 .bf16) (x1 : Vec Ideal S1024x512 .bf16)
    (s : St10 Ideal)
    (hx0 : ∀ (r : Fin 1024) (p : Fin 512), x0 (ix2 r p) = rd X (1024 * (n / 8 % 4) + r.val) (512 * (n % 8) + p.val))
    (hx1 : ∀ (q : Fin 1024) (p : Fin 512), x1 (ix2 q p) = rd W (1024 * (n / 32) + q.val) (512 * (n % 8) + p.val))
    (ha : n % 8 ≠ 0 → ∀ r q : Fin 1024, s.acc (ix2 r q) = accP10 X W ((n - 1) / 8 % 4) ((n - 1) / 32) ((n - 1) % 8 + 1) r.val q.val)
    (hs : n / 8 % 4 ≠ 0 → ∀ (z : Fin 1) (q : Fin 1024), s.sum (ix2 z q) = rowsP10 (gS10 X W) ((n - 1) / 32) (((n - 1) % 32 + 1) / 8) q.val)
    (hq : n / 8 % 4 ≠ 0 → ∀ (z : Fin 1) (q : Fin 1024), s.sq (ix2 z q) = rowsP10 (gQ10 X W) ((n - 1) / 32) (((n - 1) % 32 + 1) / 8) q.val) :
    (∀ r q : Fin 1024, (step10 n x0 x1 s).acc (ix2 r q) = accP10 X W (n / 8 % 4) (n / 32) (n % 8 + 1) r.val q.val)
    ∧ (∀ (z : Fin 1) (q : Fin 1024), (step10 n x0 x1 s).sum (ix2 z q) = rowsP10 (gS10 X W) (n / 32) ((n % 32 + 1) / 8) q.val)
    ∧ (∀ (z : Fin 1) (q : Fin 1024), (step10 n x0 x1 s).sq (ix2 z q) = rowsP10 (gQ10 X W) (n / 32) ((n % 32 + 1) / 8) q.val) := by
  have hA : ∀ r q : Fin 1024, k10_pay2 (F := Ideal) x0 (if n % 8 = 0 then k10_pay1 (F := Ideal) else s.acc) x1 (ix2 r q)
      = accP10 X W (n / 8 % 4) (n / 32) (n % 8 + 1) r.val q.val := fun r q => acc_step10 X W n x0 x1 s.acc hx0 hx1 ha r q
  refine ⟨fun r q => ?_, fun z q => ?_, fun z q => ?_⟩
  · rw [step10_acc_eq]; exact hA r q
  · rw [step10_sum_eq]; exact sum_step10 X W n _ s.sum hA hs z q
  · rw [step10_sq_eq]; exact sq_step10 X W n _ s.sq hA hq z q

/-! ## The state after every point -/

section State
variable (V : (c : Dev nD) → (b : Ref sig .tc) → Buf (Elt Ideal) ((c : Thread nD τ).loc b))

/-- After point `n = 32 j + 8 i + k`: the accumulator is the contraction over the first `k + 1` column blocks, the two rows
    the column sums over the row blocks completed for this `j`. -/
theorem st10_forms (c : Dev nD) : ∀ (n : ℕ) (hn : n < cfg10.N),
    (∀ r q : Fin 1024, (st10 V c n hn).acc (ix2 r q) = accP10 (lhs10 V c) (rhs10 V c) (n / 8 % 4) (n / 32) (n % 8 + 1) r.val q.val)
    ∧ (∀ (z : Fin 1) (q : Fin 1024), (st10 V c n hn).sum (ix2 z q) = rowsP10 (gS10 (lhs10 V c) (rhs10 V c)) (n / 32) ((n % 32 + 1) / 8) q.val)
    ∧ (∀ (z : Fin 1) (q : Fin 1024), (st10 V c n hn).sq (ix2 z q) = rowsP10 (gQ10 (lhs10 V c) (rhs10 V c)) (n / 32) ((n % 32 + 1) / 8) q.val)
  | 0, hn =>
    step_forms10 (lhs10 V c) (rhs10 V c) 0 (iblk10 V c 0 ⟨0, hn⟩) (iblk10 V c 1 ⟨0, hn⟩) (St10.mk (k10_pay1 (F := Ideal)) (k10_pay3 (F := Ideal)) (k10_pay4 (F := Ideal)))
      (fun r p => iblk10_0_apply V c ⟨0, hn⟩ r p) (fun q p => iblk10_1_apply V c ⟨0, hn⟩ q p)
      (fun h => absurd rfl h) (fun h => absurd rfl h) (fun h => absurd rfl h)
  | n + 1, hn => by
    obtain ⟨ia, is, iq⟩ := st10_forms c n (Nat.lt_of_succ_lt hn)
    rw [st10_succ]
    exact step_forms10 (lhs10 V c) (rhs10 V c) (n + 1) (iblk10 V c 0 ⟨n + 1, hn⟩) (iblk10 V c 1 ⟨n + 1, hn⟩) (st10 V c n (Nat.lt_of_succ_lt hn))
      (fun r p => iblk10_0_apply V c ⟨n + 1, hn⟩ r p) (fun q p => iblk10_1_apply V c ⟨n + 1, hn⟩ q p)
      (fun _ => ia) (fun _ => is) (fun _ => iq)

end State

/-! ## The three output arrays -/

section Arrays
variable (V : (c : Dev nD) → (b : Ref sig .tc) → Buf (Elt Ideal) ((c : Thread nD τ).loc b))

/-- The product of the left array with the transpose of the right one, as a whole array. -/
abbrev H10 (c : Dev nD) : S4096x1024.Idx → EReal := prod (lhs10 V c) (rhs10 V c)

/-- After a last reduction step the accumulator is the product's block `(i, j)`. -/
theorem acc_block10 (c : Dev nD) (t : Fin cfg10.N) (h3 : t.val % 8 = 7) (y : S1024x1024.Idx) (i : S4096x1024.Idx)
    (h0 : (i 0).val = 1024 * (t.val / 8 % 4) + (y 0).val) (h1 : (i 1).val = 1024 * (t.val / 32) + (y 1).val) :
    (st10 V c t.val t.isLt).acc y = H10 V c i := by
  obtain ⟨r, q, rfl⟩ : ∃ (r q : Fin 1024), y = ix2 r q := ⟨y 0, y 1, eq_ix2 y⟩
  obtain ⟨a, b, rfl⟩ : ∃ (a : Fin 4096) (b : Fin 1024), i = ix2 a b := ⟨i 0, i 1, eq_ix2 i⟩
  have h0' : a.val = 1024 * (t.val / 8 % 4) + r.val := h0
  have h1' : b.val = 1024 * (t.val / 32) + q.val := h1
  rw [(st10_forms V c t.val t.isLt).1 r q, show t.val % 8 + 1 = 8 by omega, accP10_full]
  show _ = prod (lhs10 V c) (rhs10 V c) (ix2 a b)
  rw [prod_eq_dotN, h0', h1']

/-- After the last point of a column block the running sums are the whole column sums of the product. -/
theorem sum_last10 (c : Dev nD) (t : Fin cfg10.N) (h15 : t.val % 32 = 31) (z : Fin 1) (q : Fin 1024) (b : Fin 1024)
    (hb : b.val = 1024 * (t.val / 32) + q.val) :
    (st10 V c t.val t.isLt).sum (ix2 z q) = ∑ a : Fin 4096, H10 V c (ix2 a b) := by
  rw [(st10_forms V c t.val t.isLt).2.1 z q, colsum_blocks (H10 V c) 4 1024 (by norm_num) b, show (t.val % 32 + 1) / 8 = 4 by omega]
  unfold rowsP10
  refine Finset.sum_congr rfl fun i' hi' => Finset.sum_congr rfl fun r hr => ?_
  have hi4 : i' < 4 := Finset.mem_range.mp hi'
  have hr4 : r < 1024 := Finset.mem_range.mp hr
  rw [rd_prod (lhs10 V c) (rhs10 V c) (by omega) b.isLt, hb]

theorem sq_last10 (c : Dev nD) (t : Fin cfg10.N) (h15 : t.val % 32 = 31) (z : Fin 1) (q : Fin 1024) (b : Fin 1024)
    (hb : b.val = 1024 * (t.val / 32) + q.val) :
    (st10 V c t.val t.isLt).sq (ix2 z q) = ∑ a : Fin 4096, H10 V c (ix2 a b) * H10 V c (ix2 a b) := by
  rw [(st10_forms V c t.val t.isLt).2.2 z q, colsumsq_blocks (H10 V c) 4 1024 (by norm_num) b, show (t.val % 32 + 1) / 8 = 4 by omega]
  unfold rowsP10
  refine Finset.sum_congr rfl fun i' hi' => Finset.sum_congr rfl fun r hr => ?_
  have hi4 : i' < 4 := Finset.mem_range.mp hi'
  have hr4 : r < 1024 := Finset.mem_range.mp hr
  rw [rd_prod (lhs10 V c) (rhs10 V c) (by omega) b.isLt, hb]

/-- The mean's block after the last point of column block `j`. -/
theorem mean_block10 (c : Dev nD) (t : Fin cfg10.N) (h15 : t.val % 32 = 31) (y : S1x1024.Idx) (i : S1x1024.Idx)
    (h1 : (i 1).val = 1024 * (t.val / 32) + (y 1).val) :
    k10_pay7 (F := Ideal) (st10 V c t.val t.isLt).sum y = colMean 4096 (H10 V c) i := by
  obtain ⟨z, q, rfl⟩ : ∃ (z : Fin 1) (q : Fin 1024), y = ix2 z q := ⟨y 0, y 1, eq_ix2 y⟩
  obtain ⟨z', b, rfl⟩ : ∃ (z' : Fin 1) (b : Fin 1024), i = ix2 z' b := ⟨i 0, i 1, eq_ix2 i⟩
  rw [k10_pay7_apply, sum_last10 V c t h15 z q b h1, Cert.LibBatchVar.ofBits_inv_4096, colMean_apply]

/-- The variance's block after the last point of column block `j`. -/
theorem var_block10 (c : Dev nD) (t : Fin cfg10.N) (h15 : t.val % 32 = 31) (y : S1x1024.Idx) (i : S1x1024.Idx)
    (h1 : (i 1).val = 1024 * (t.val / 32) + (y 1).val) :
    k10_pay8 (F := Ideal) (st10 V c t.val t.isLt).sum (st10 V c t.val t.isLt).sq y = colVar 4096 (H10 V c) i := by
  obtain ⟨z, q, rfl⟩ : ∃ (z : Fin 1) (q : Fin 1024), y = ix2 z q := ⟨y 0, y 1, eq_ix2 y⟩
  obtain ⟨z', b, rfl⟩ : ∃ (z' : Fin 1) (b : Fin 1024), i = ix2 z' b := ⟨i 0, i 1, eq_ix2 i⟩
  rw [k10_pay8_apply, sum_last10 V c t h15 z q b h1, sq_last10 V c t h15 z q b h1, Cert.LibBatchVar.ofBits_inv_4096,
    Ideal.ofBits_zero_f32, colVar_apply]

/-! ### What the flushing points write back -/

theorem flushed10_2 (c : Dev nD) (t : Fin cfg10.N) (hf : (cfg10.win 2).flush t = true) :
    (dat10 V c).flushed 2 t = ((cfg10.win 2).blk t).view.read (Elt Ideal) (H10 V c) := by
  have h3 : t.val % 8 = 7 := (flush10_2 t).mp hf
  obtain ⟨-, -, -, -, e0, e1, -⟩ := idx10 t
  show (cfg10.win 2).cut (grid10.coords t) ((dat10 V c).after 2 t) = _
  rw [after10_2]
  funext y
  rw [View.read_apply]
  exact acc_block10 V c t h3 y _
    (by show win10_2.index t (0 : Fin 2) * 1024 + 1 * (y 0).val = _; rw [e0]; omega)
    (by show win10_2.index t (1 : Fin 2) * 1024 + 1 * (y 1).val = _; rw [e1]; omega)

theorem flushed10_3 (c : Dev nD) (t : Fin cfg10.N) (hf : (cfg10.win 3).flush t = true) :
    (dat10 V c).flushed 3 t = ((cfg10.win 3).blk t).view.read (Elt Ideal) (colMean 4096 (H10 V c)) := by
  have h15 : t.val % 32 = 31 := (flush10_3 t).mp hf
  obtain ⟨-, -, -, -, -, -, e0, e1, -⟩ := idx10 t
  show (cfg10.win 3).cut (grid10.coords t) ((dat10 V c).after 3 t) = _
  rw [after10_3]
  funext y
  rw [View.read_apply]
  exact mean_block10 V c t h15 y _
    (by show win10_3.index t (1 : Fin 2) * 1024 + 1 * (y 1).val = _; rw [e1]; omega)

theorem flushed10_4 (c : Dev nD) (t : Fin cfg10.N) (hf : (cfg10.win 4).flush t = true) :
    (dat10 V c).flushed 4 t = ((cfg10.win 4).blk t).view.read (Elt Ideal) (colVar 4096 (H10 V c)) := by
  have h15 : t.val % 32 = 31 := (flush10_4 t).mp hf
  obtain ⟨-, -, -, -, -, -, -, -, e0, e1⟩ := idx10 t
  show (cfg10.win 4).cut (grid10.coords t) ((dat10 V c).after 4 t) = _
  rw [after10_4]
  funext y
  rw [View.read_apply]
  exact var_block10 V c t h15 y _
    (by show win10_4.index t (1 : Fin 2) * 1024 + 1 * (y 1).val = _; rw [e1]; omega)

/-! ### The flushing points' blocks cover the arrays -/

theorem mem_blk10_2 (t : Fin cfg10.N) (i : S4096x1024.Idx) :
    i ∈ ((cfg10.win 2).blk t).view.set
      ↔ ∀ a : Fin 2, win10_2.index t a * S1024x1024.size a ≤ (i a).val ∧ (i a).val < win10_2.index t a * S1024x1024.size a + S1024x1024.size a := by
  show i ∈ ((View.whole main_v19_0).slice (win10_2.rect t)).set ↔ _
  rw [View.set_slice_whole, Rect.mem_set_unit]
  exact Iff.rfl

theorem mem_blk10_3 (t : Fin cfg10.N) (i : S1x1024.Idx) :
    i ∈ ((cfg10.win 3).blk t).view.set
      ↔ ∀ a : Fin 2, win10_3.index t a * S1x1024.size a ≤ (i a).val ∧ (i a).val < win10_3.index t a * S1x1024.size a + S1x1024.size a := by
  show i ∈ ((View.whole main_v19_1).slice (win10_3.rect t)).set ↔ _
  rw [View.set_slice_whole, Rect.mem_set_unit]
  exact Iff.rfl

theorem mem_blk10_4 (t : Fin cfg10.N) (i : S1x1024.Idx) :
    i ∈ ((cfg10.win 4).blk t).view.set
      ↔ ∀ a : Fin 2, win10_4.index t a * S1x1024.size a ≤ (i a).val ∧ (i a).val < win10_4.index t a * S1x1024.size a + S1x1024.size a := by
  show i ∈ ((View.whole main_v19_2).slice (win10_4.rect t)).set ↔ _
  rw [View.set_slice_whole, Rect.mem_set_unit]
  exact Iff.rfl

/-- Entry `(a, b)` of the product is written back at the last reduction step of the point with `i = a / 1024`, `j = b / 1024`. -/
theorem cover10_2 (i : S4096x1024.Idx) : ∃ t : Fin cfg10.N, (cfg10.win 2).flush t = true ∧ i ∈ ((cfg10.win 2).blk t).view.set := by
  have hi0 : (i 0).val < 4096 := (i 0).isLt
  have hi1 : (i 1).val < 1024 := (i 1).isLt
  have hN := N10_eq
  have hlt : 32 * ((i 1).val / 1024) + 8 * ((i 0).val / 1024) + 7 < cfg10.N := by omega
  obtain ⟨-, -, -, -, e0, e1, -⟩ := idx10 ⟨32 * ((i 1).val / 1024) + 8 * ((i 0).val / 1024) + 7, hlt⟩
  refine ⟨⟨32 * ((i 1).val / 1024) + 8 * ((i 0).val / 1024) + 7, hlt⟩, (flush10_2 _).mpr (by show (32 * ((i 1).val / 1024) + 8 * ((i 0).val / 1024) + 7) % 8 = 7; omega), ?_⟩
  rw [mem_blk10_2]
  intro a
  match a with
  | ⟨0, _⟩ =>
    show win10_2.index _ (0 : Fin 2) * 1024 ≤ (i 0).val ∧ (i 0).val < win10_2.index _ (0 : Fin 2) * 1024 + 1024
    rw [e0]; dsimp only; omega
  | ⟨1, _⟩ =>
    show win10_2.index _ (1 : Fin 2) * 1024 ≤ (i 1).val ∧ (i 1).val < win10_2.index _ (1 : Fin 2) * 1024 + 1024
    rw [e1]; dsimp only; omega

theorem cover10_3 (i : S1x1024.Idx) : ∃ t : Fin cfg10.N, (cfg10.win 3).flush t = true ∧ i ∈ ((cfg10.win 3).blk t).view.set := by
  have hi0 : (i 0).val < 1 := (i 0).isLt
  have hi1 : (i 1).val < 1024 := (i 1).isLt
  have hN := N10_eq
  have hlt : 32 * ((i 1).val / 1024) + 31 < cfg10.N := by omega
  obtain ⟨-, -, -, -, -, -, e0, e1, -⟩ := idx10 ⟨32 * ((i 1).val / 1024) + 31, hlt⟩
  refine ⟨⟨32 * ((i 1).val / 1024) + 31, hlt⟩, (flush10_3 _).mpr (by show (32 * ((i 1).val / 1024) + 31) % 32 = 31; omega), ?_⟩
  rw [mem_blk10_3]
  intro a
  match a with
  | ⟨0, _⟩ =>
    show win10_3.index _ (0 : Fin 2) * 1 ≤ (i 0).val ∧ (i 0).val < win10_3.index _ (0 : Fin 2) * 1 + 1
    rw [e0]; omega
  | ⟨1, _⟩ =>
    show win10_3.index _ (1 : Fin 2) * 1024 ≤ (i 1).val ∧ (i 1).val < win10_3.index _ (1 : Fin 2) * 1024 + 1024
    rw [e1]; dsimp only; omega

theorem cover10_4 (i : S1x1024.Idx) : ∃ t : Fin cfg10.N, (cfg10.win 4).flush t = true ∧ i ∈ ((cfg10.win 4).blk t).view.set := by
  have hi0 : (i 0).val < 1 := (i 0).isLt
  have hi1 : (i 1).val < 1024 := (i 1).isLt
  have hN := N10_eq
  have hlt : 32 * ((i 1).val / 1024) + 31 < cfg10.N := by omega
  obtain ⟨-, -, -, -, -, -, -, -, e0, e1⟩ := idx10 ⟨32 * ((i 1).val / 1024) + 31, hlt⟩
  refine ⟨⟨32 * ((i 1).val / 1024) + 31, hlt⟩, (flush10_4 _).mpr (by show (32 * ((i 1).val / 1024) + 31) % 32 = 31; omega), ?_⟩
  rw [mem_blk10_4]
  intro a
  match a with
  | ⟨0, _⟩ =>
    show win10_4.index _ (0 : Fin 2) * 1 ≤ (i 0).val ∧ (i 0).val < win10_4.index _ (0 : Fin 2) * 1 + 1
    rw [e0]; omega
  | ⟨1, _⟩ =>
    show win10_4.index _ (1 : Fin 2) * 1024 ≤ (i 1).val ∧ (i 1).val < win10_4.index _ (1 : Fin 2) * 1024 + 1024
    rw [e1]; dsimp only; omega

/-! ### The arrays after the run -/

/-- The product array ends holding the product of the left array with the transpose of the right one. -/
theorem arr10_2 (c : Dev nD) : (dat10 V c).arrAt 2 cfg10.N = H10 V c :=
  (dat10 V c).arrAt_eq_of_cover 2 (H10 V c) (flushed10_2 V c) cover10_2

/-- The mean array ends holding the column means of the product. -/
theorem arr10_3 (c : Dev nD) : (dat10 V c).arrAt 3 cfg10.N = colMean 4096 (H10 V c) :=
  (dat10 V c).arrAt_eq_of_cover 3 (colMean 4096 (H10 V c)) (flushed10_3 V c) cover10_3

/-- The variance array ends holding the clamped column variances of the product. -/
theorem arr10_4 (c : Dev nD) : (dat10 V c).arrAt 4 cfg10.N = colVar 4096 (H10 V c) :=
  (dat10 V c).arrAt_eq_of_cover 4 (colVar 4096 (H10 V c)) (flushed10_4 V c) cover10_4

end Arrays

end Cert.KernelIdeal.Hand

end
-- ==== Proof.KI.Value11.lean ====
import proofs.«157460_j63591285784858_2_alg».proof.Proof.KI.Region11
import proofs.«157460_j63591285784858_2_alg».proof.Proof.KI.NormSpec
import Idealize.ShloMosaic.Lib.Pipeline.Value
import Idealize.ShloMosaic.Lib.ValueLayout

/-! # Region 11 at the exact values: the result array is the normalized product array

Point `t` of the 4×1 grid stages the 1024×1024 tile `(r, k)` of the 4096×1024 product array and the 1×1024 pieces `k` of
the four rows (means, variances, scale, shift), and writes back tile `(r, k)` of the result.  The body's result at
entry `(p, q)` of the tile is `g q · (h p q − mean q) · rsqrt (var q + ε) + shift q`, so what point `t` writes
back is tile `t` of that map of the whole arrays; the tiles cover the array (entry `(r, k)` lies in tile
`(r / 1024, k / 1024)`), so the array ends as that map of the arrays the region finds. -/

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The offsets of the body's rectangles are all zero. -/
theorem zeroOffsets11 : (![0, 0] : Fin 2 → Nat) = fun _ => 0 := funext fun a => by fin_cases a <;> rfl

/-- The body's payload at entry `(p, q)` of the tile, from the loaded tile and the four loaded row pieces. -/
theorem pay11_apply (v0 : Vec Ideal S1024x1024 .f32) (v2 v7 v9 v17 : Vec Ideal S1x1024 .f32) (p q : Fin 1024) :
    k11_pay1 v0 v2 v7 v9 v17 (ix2 p q)
      = v7 (ix2 (0 : Fin 1) q) * (v0 (ix2 p q) - v9 (ix2 (0 : Fin 1) q)) * Ideal.rsqrt (v2 (ix2 (0 : Fin 1) q) + Ideal.ofBits .f32 0x3727C5AC#32) + v17 (ix2 (0 : Fin 1) q) := by
  unfold k11_pay1
  simp only [shapeCast_self]
  rw [addf_apply, mulf_apply, mulf_apply, subf_apply, broadcastTo_1b_ab_apply, broadcastTo_1b_ab_apply,
    broadcastTo_1b_ab_apply, broadcastTo_1b_ab_apply]
  rfl

/-- The block indices, decided over the grid: the product's tile moves with the result's; each row piece is at row
    block 0 and at the result's column block. -/
theorem blockIndex11 : ∀ t : Fin cfg11.N, win11_0.index t (0 : Fin 2) = win11_5.index t (0 : Fin 2)
    ∧ win11_0.index t (1 : Fin 2) = win11_5.index t (1 : Fin 2)
    ∧ win11_1.index t (0 : Fin 2) = 0 ∧ win11_1.index t (1 : Fin 2) = win11_5.index t (1 : Fin 2)
    ∧ win11_2.index t (0 : Fin 2) = 0 ∧ win11_2.index t (1 : Fin 2) = win11_5.index t (1 : Fin 2)
    ∧ win11_3.index t (0 : Fin 2) = 0 ∧ win11_3.index t (1 : Fin 2) = win11_5.index t (1 : Fin 2)
    ∧ win11_4.index t (0 : Fin 2) = 0 ∧ win11_4.index t (1 : Fin 2) = win11_5.index t (1 : Fin 2) :=
  (by decide +kernel : ∀ t : Fin grid11.N, _)

/-- Every tile of the result is some point's. -/
theorem blockOnto11 : ∀ (q0 : Fin 4) (q1 : Fin 1), ∃ t : Fin cfg11.N, win11_5.index t = ![q0.val, q1.val] :=
  (by decide +kernel : ∀ (q0 : Fin 4) (q1 : Fin 1), ∃ t : Fin grid11.N, win11_5.index t = ![q0.val, q1.val])

/-- What point `t` writes back is tile `t` of the map of the arrays as the region finds them. -/
theorem flushed11_eq (c : Dev nD) (t : Fin cfg11.N) :
    (dat11 V c).flushed 5 t = ((cfg11.win 5).blk t).view.read (Elt Ideal) (normAffine 4096 1024 (V c main_v19_0) (V c main_v19_1) (V c main_v19_2) (V c main_v20) (V c main_v21)) := by
  show (cfg11.win 5).cut (grid11.coords t) ((dat11 V c).after 5 t) = _
  rw [after11_5]
  unfold out11_5
  rw [View.canon_unit_zero zeroOffsets11]
  simp only [View.ld_unit_zero (S := S1024x1024) zeroOffsets11, View.ld_unit_zero (S := S1x1024) zeroOffsets11]
  obtain ⟨e00, e01, e10, e11, e20, e21, e30, e31, e40, e41⟩ := blockIndex11 t
  funext j
  obtain ⟨p, q, rfl⟩ : ∃ (p : Fin 1024) (q : Fin 1024), j = ix2 p q := ⟨j 0, j 1, eq_ix2 j⟩
  have h0 : ((cfg11.win 0).blk t).view.emb (ix2 p q) = ((cfg11.win 5).blk t).view.emb (ix2 p q) := by
    funext a; apply Fin.ext
    match a with
    | ⟨0, _⟩ => show win11_0.index t (0 : Fin 2) * 1024 + 1 * p.val = win11_5.index t (0 : Fin 2) * 1024 + 1 * p.val; omega
    | ⟨1, _⟩ => show win11_0.index t (1 : Fin 2) * 1024 + 1 * q.val = win11_5.index t (1 : Fin 2) * 1024 + 1 * q.val; omega
  have h1 : ((cfg11.win 1).blk t).view.emb (ix2 (0 : Fin 1) q) = ix2 (0 : Fin 1) ((((cfg11.win 5).blk t).view.emb (ix2 p q)) 1) := by
    funext a; apply Fin.ext
    match a with
    | ⟨0, _⟩ => show win11_1.index t (0 : Fin 2) * 1 + 1 * 0 = 0; omega
    | ⟨1, _⟩ => show win11_1.index t (1 : Fin 2) * 1024 + 1 * q.val = win11_5.index t (1 : Fin 2) * 1024 + 1 * q.val; omega
  have h2 : ((cfg11.win 2).blk t).view.emb (ix2 (0 : Fin 1) q) = ix2 (0 : Fin 1) ((((cfg11.win 5).blk t).view.emb (ix2 p q)) 1) := by
    funext a; apply Fin.ext
    match a with
    | ⟨0, _⟩ => show win11_2.index t (0 : Fin 2) * 1 + 1 * 0 = 0; omega
    | ⟨1, _⟩ => show win11_2.index t (1 : Fin 2) * 1024 + 1 * q.val = win11_5.index t (1 : Fin 2) * 1024 + 1 * q.val; omega
  have h3 : ((cfg11.win 3).blk t).view.emb (ix2 (0 : Fin 1) q) = ix2 (0 : Fin 1) ((((cfg11.win 5).blk t).view.emb (ix2 p q)) 1) := by
    funext a; apply Fin.ext
    match a with
    | ⟨0, _⟩ => show win11_3.index t (0 : Fin 2) * 1 + 1 * 0 = 0; omega
    | ⟨1, _⟩ => show win11_3.index t (1 : Fin 2) * 1024 + 1 * q.val = win11_5.index t (1 : Fin 2) * 1024 + 1 * q.val; omega
  have h4 : ((cfg11.win 4).blk t).view.emb (ix2 (0 : Fin 1) q) = ix2 (0 : Fin 1) ((((cfg11.win 5).blk t).view.emb (ix2 p q)) 1) := by
    funext a; apply Fin.ext
    match a with
    | ⟨0, _⟩ => show win11_4.index t (0 : Fin 2) * 1 + 1 * 0 = 0; omega
    | ⟨1, _⟩ => show win11_4.index t (1 : Fin 2) * 1024 + 1 * q.val = win11_5.index t (1 : Fin 2) * 1024 + 1 * q.val; omega
  refine (pay11_apply _ _ _ _ _ p q).trans ?_
  exact normAffine_of_tile 4096 1024 (V c main_v19_0) (V c main_v19_1) (V c main_v19_2) (V c main_v20) (V c main_v21) _ _ _ _ _ _ h0 h1 h2 h3 h4

/-- An index of the array is in point `t`'s tile iff each coordinate is in the tile's range on its axis. -/
theorem memBlock11 (t : Fin cfg11.N) (i : S4096x1024.Idx) :
    i ∈ ((cfg11.win 5).blk t).view.set ↔ ∀ a : Fin 2, win11_5.index t a * S1024x1024.size a ≤ (i a).val ∧ (i a).val < win11_5.index t a * S1024x1024.size a + S1024x1024.size a := by
  show i ∈ ((View.whole main_v22).slice (win11_5.rect t)).set ↔ _
  rw [View.set_slice_whole, Rect.mem_set_unit]
  exact Iff.rfl

/-- Every index of the result is in some point's tile: entry `(r, k)` is in tile `(r / 1024, k / 1024)`. -/
theorem covered11 (i : S4096x1024.Idx) : ∃ t : Fin cfg11.N, (cfg11.win 5).flush t = true ∧ i ∈ ((cfg11.win 5).blk t).view.set := by
  have hi0 : (i 0).val < 4096 := (i 0).isLt
  have hi1 : (i 1).val < 1024 := (i 1).isLt
  obtain ⟨t, ht⟩ := blockOnto11 ⟨(i 0).val / 1024, by omega⟩ ⟨(i 1).val / 1024, by omega⟩
  have q0 : win11_5.index t (0 : Fin 2) = (i 0).val / 1024 := congrFun ht 0
  have q1 : win11_5.index t (1 : Fin 2) = (i 1).val / 1024 := congrFun ht 1
  refine ⟨t, flush11_5 t, ?_⟩
  rw [memBlock11]
  intro a
  match a with
  | ⟨0, _⟩ => show win11_5.index t (0 : Fin 2) * 1024 ≤ (i 0).val ∧ (i 0).val < win11_5.index t (0 : Fin 2) * 1024 + 1024; omega
  | ⟨1, _⟩ => show win11_5.index t (1 : Fin 2) * 1024 ≤ (i 1).val ∧ (i 1).val < win11_5.index t (1 : Fin 2) * 1024 + 1024; omega

/-- The result array after the region: the normalize map of the five arrays as the region finds them. -/
theorem final11 (c : Dev nD) : (dat11 V c).arrAt 5 cfg11.N
    = normAffine 4096 1024 (V c (Pipeline.arrRef spec11 0)) (V c (Pipeline.arrRef spec11 1)) (V c (Pipeline.arrRef spec11 2)) (V c (Pipeline.arrRef spec11 3)) (V c (Pipeline.arrRef spec11 4)) :=
  (dat11 V c).arrAt_eq_of_cover 5 (normAffine 4096 1024 (V c main_v19_0) (V c main_v19_1) (V c main_v19_2) (V c main_v20) (V c main_v21)) (fun t _ => flushed11_eq V c t) covered11

end Cert.KernelIdeal.Hand

end
-- ==== Proof.KI.KernelValue3.lean ====
/-
  The last layer of the network, read off the program: the result array is the kernel's spelling of the last layer
  (`kLayer3`: the product with the transposed signs of the weights, then the column normalization with scale and
  shift) at the last hidden layer's output and the three parameter arrays as launched.

  The program does not compute that layer over 1000 columns. It pads the 1000 × 4096 weights with 24 rows, and the
  scale and the shift with 24 entries, to 1024; takes the signs of the padded weights; forms the 4096 × 1024 product
  and its column means and clamped column variances; normalizes, scales and shifts over 1024 columns; and cuts the
  result back to its first 1000 columns. Column `q < 1000` of the product is the contraction of the input's rows with
  row `q` of the padded weights, which is row `q` of the weights; that column's mean and variance involve that column
  only; and the scale and the shift are read at entry `q`, which the padding leaves alone. So the value the padding
  writes is never read, and the cut-back array is the unpadded layer.

  In order: a pad read inside its operand; the parameter arrays are as launched when the padding reads them; the
  padded arrays at the operands' entries; the buffers the last layer's three regions read are what the host
  stretches before them left; the column lemma; and the join through the three regions' values.
-/
import proofs.«157460_j63591285784858_2_alg».proof.Proof.KI.MainResult
import proofs.«157460_j63591285784858_2_alg».proof.Proof.LayerBridge
import proofs.«157460_j63591285784858_2_alg».proof.Proof.KI.NormSpec
import proofs.«157460_j63591285784858_2_alg».proof.Proof.KI.Value9
import proofs.«157460_j63591285784858_2_alg».proof.Proof.KI.R10Value
import proofs.«157460_j63591285784858_2_alg».proof.Proof.KI.Value11
import Idealize.ShloMosaic.Lib.KernelVsHost
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.MatStats Cert.LayerBridge
open scoped BigOperators

variable (m : (ℓ : Loc nD τ sig) → Buf (Elt Ideal) ℓ) (ρ : Dev nD → PrngReg)

/-! ## Padding read inside the operand -/

/-- A matrix padded below its rows reads, at a row of the operand, the operand. -/
theorem pad_rows_apply {α : Type} {n0 n1 k : ℕ} (hi : ℕ) (X : (⟨2, ![n0, n1]⟩ : Shape).Idx → α) {u : Shape} (v : u.Idx → α)
    (h : (⟨2, ![n0, n1]⟩ : Shape).Pads ![0, 0] ![hi, 0] ![0, 0] ⟨2, ![k, n1]⟩) (hu : 0 < u.numel)
    (q : Fin n0) (p : Fin n1) (q' : Fin k) (hq : q'.val = q.val) :
    pad ⟨2, ![k, n1]⟩ ![0, 0] ![hi, 0] ![0, 0] X v h hu (ix2 q' p) = X (ix2 q p) :=
  pad_apply_of_inside _ _ _ X v h hu _ (ix2 q p) (fun a => by
    match a with
    | ⟨0, _⟩ => show q'.val = 0 + q.val * (0 + 1); omega
    | ⟨1, _⟩ => show p.val = 0 + p.val * (0 + 1); omega)

/-- A vector padded after its end reads, at an entry of the operand, the operand. -/
theorem pad_vec_apply {α : Type} {n0 k : ℕ} (hi : ℕ) (X : (⟨1, ![n0]⟩ : Shape).Idx → α) {u : Shape} (v : u.Idx → α)
    (h : (⟨1, ![n0]⟩ : Shape).Pads ![0] ![hi] ![0] ⟨1, ![k]⟩) (hu : 0 < u.numel)
    (q : Fin n0) (q' : Fin k) (hq : q'.val = q.val) :
    pad ⟨1, ![k]⟩ ![0] ![hi] ![0] X v h hu (ix1 q') = X (ix1 q) :=
  pad_apply_of_inside _ _ _ X v h hu _ (ix1 q) (fun a => by
    match a with
    | ⟨0, _⟩ => show q'.val = 0 + q.val * (0 + 1); omega)

/-! ## The last layer's three parameter arrays are as launched when the padding reads them -/

theorem W12_main_arg10 (c : Dev nD) : W12 m ρ c (Proc.devRef .tc main_arg10) = m ((c : Thread nD τ).loc main_arg10) :=
  calc W12 m ρ c (Proc.devRef .tc main_arg10)
    _ = W11 m ρ c (Proc.devRef .tc main_arg10) := W12_of_ne m ρ c main_arg10 (by decide)
    _ = W10 m ρ c (Proc.devRef .tc main_arg10) := W11_keep m ρ c main_arg10 (by decide)
    _ = W9 m ρ c (Proc.devRef .tc main_arg10) := W10_of_ne m ρ c main_arg10 (by decide)
    _ = W8 m ρ c (Proc.devRef .tc main_arg10) := W9_of_ne m ρ c main_arg10 (by decide)
    _ = W7 m ρ c (Proc.devRef .tc main_arg10) := W8_of_ne m ρ c main_arg10 (by decide)
    _ = W6 m ρ c (Proc.devRef .tc main_arg10) := W7_keep m ρ c main_arg10 (by decide)
    _ = W5 m ρ c (Proc.devRef .tc main_arg10) := W6_of_ne m ρ c main_arg10 (by decide)
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := W3_keep m ρ c main_arg10 (by decide)
    _ = W1 m ρ c (Proc.devRef .tc main_arg10) := W2_of_ne m ρ c main_arg10 (by decide)
    _ = W0 m ρ c (Proc.devRef .tc main_arg10) := W1_of_ne m ρ c main_arg10 (by decide)
    _ = m ((c : Thread nD τ).loc main_arg10) := rfl

theorem W12_main_arg11 (c : Dev nD) : W12 m ρ c (Proc.devRef .tc main_arg11) = m ((c : Thread nD τ).loc main_arg11) :=
  calc W12 m ρ c (Proc.devRef .tc main_arg11)
    _ = W11 m ρ c (Proc.devRef .tc main_arg11) := W12_of_ne m ρ c main_arg11 (by decide)
    _ = W10 m ρ c (Proc.devRef .tc main_arg11) := W11_keep m ρ c main_arg11 (by decide)
    _ = W9 m ρ c (Proc.devRef .tc main_arg11) := W10_of_ne m ρ c main_arg11 (by decide)
    _ = W8 m ρ c (Proc.devRef .tc main_arg11) := W9_of_ne m ρ c main_arg11 (by decide)
    _ = W7 m ρ c (Proc.devRef .tc main_arg11) := W8_of_ne m ρ c main_arg11 (by decide)
    _ = W6 m ρ c (Proc.devRef .tc main_arg11) := W7_keep m ρ c main_arg11 (by decide)
    _ = W5 m ρ c (Proc.devRef .tc main_arg11) := W6_of_ne m ρ c main_arg11 (by decide)
    _ = W4 m ρ c (Proc.devRef .tc main_arg11) := W5_of_ne m ρ c main_arg11 (by decide)
    _ = W3 m ρ c (Proc.devRef .tc main_arg11) := W4_of_ne m ρ c main_arg11 (by decide)
    _ = W2 m ρ c (Proc.devRef .tc main_arg11) := W3_keep m ρ c main_arg11 (by decide)
    _ = W1 m ρ c (Proc.devRef .tc main_arg11) := W2_of_ne m ρ c main_arg11 (by decide)
    _ = W0 m ρ c (Proc.devRef .tc main_arg11) := W1_of_ne m ρ c main_arg11 (by decide)
    _ = m ((c : Thread nD τ).loc main_arg11) := rfl

theorem W12_main_arg12 (c : Dev nD) : W12 m ρ c (Proc.devRef .tc main_arg12) = m ((c : Thread nD τ).loc main_arg12) :=
  calc W12 m ρ c (Proc.devRef .tc main_arg12)
    _ = W11 m ρ c (Proc.devRef .tc main_arg12) := W12_of_ne m ρ c main_arg12 (by decide)
    _ = W10 m ρ c (Proc.devRef .tc main_arg12) := W11_keep m ρ c main_arg12 (by decide)
    _ = W9 m ρ c (Proc.devRef .tc main_arg12) := W10_of_ne m ρ c main_arg12 (by decide)
    _ = W8 m ρ c (Proc.devRef .tc main_arg12) := W9_of_ne m ρ c main_arg12 (by decide)
    _ = W7 m ρ c (Proc.devRef .tc main_arg12) := W8_of_ne m ρ c main_arg12 (by decide)
    _ = W6 m ρ c (Proc.devRef .tc main_arg12) := W7_keep m ρ c main_arg12 (by decide)
    _ = W5 m ρ c (Proc.devRef .tc main_arg12) := W6_of_ne m ρ c main_arg12 (by decide)
    _ = W4 m ρ c (Proc.devRef .tc main_arg12) := W5_of_ne m ρ c main_arg12 (by decide)
    _ = W3 m ρ c (Proc.devRef .tc main_arg12) := W4_of_ne m ρ c main_arg12 (by decide)
    _ = W2 m ρ c (Proc.devRef .tc main_arg12) := W3_keep m ρ c main_arg12 (by decide)
    _ = W1 m ρ c (Proc.devRef .tc main_arg12) := W2_of_ne m ρ c main_arg12 (by decide)
    _ = W0 m ρ c (Proc.devRef .tc main_arg12) := W1_of_ne m ρ c main_arg12 (by decide)
    _ = m ((c : Thread nD τ).loc main_arg12) := rfl

/-! ## The padded arrays at the entries of the operands -/

/-- Row `q < 1000` of the padded weight array is row `q` of the weights. -/
theorem W14_main_v15_apply (c : Dev nD) (q : Fin 1000) (p : Fin 4096) (q' : Fin 1024) (hq : q'.val = q.val) :
    W14 m ρ c (Proc.devRef .tc main_v15) (ix2 q' p) = W12 m ρ c (Proc.devRef .tc main_arg10) (ix2 q p) := by
  show StableHlo.after hostOps9_1 (StableHlo.after hostOps9 (W12 m ρ c)) (Proc.devRef .tc main_v15) (ix2 q' p) = _
  after_results
  show pad S1024x4096 ![0, 0] ![24, 0] ![0, 0] (W12 m ρ c (Proc.devRef .tc main_arg10)) _ pads_S1000x4096_S1024x4096_0240_000 h_S_ (ix2 q' p) = _
  exact pad_rows_apply 24 _ _ pads_S1000x4096_S1024x4096_0240_000 h_S_ q p q' hq

/-- Entry `q < 1000` of the padded scale vector is entry `q` of the scale. -/
theorem W16_main_v16_apply (c : Dev nD) (q : Fin 1000) (q' : Fin 1024) (hq : q'.val = q.val) :
    W16 m ρ c (Proc.devRef .tc main_v16) (ix1 q') = W12 m ρ c (Proc.devRef .tc main_arg11) (ix1 q) := by
  show StableHlo.after hostOps9_3 (StableHlo.after hostOps9_2 (StableHlo.after hostOps9_1 (StableHlo.after hostOps9 (W12 m ρ c))))
    (Proc.devRef .tc main_v16) (ix1 q') = _
  after_results
  show pad S1024 ![0] ![24] ![0] (W12 m ρ c (Proc.devRef .tc main_arg11)) _ pads_S1000_S1024_0240 h_S_ (ix1 q') = _
  exact pad_vec_apply 24 _ _ pads_S1000_S1024_0240 h_S_ q q' hq

/-- Entry `q < 1000` of the padded shift vector is entry `q` of the shift. -/
theorem W18_main_v17_apply (c : Dev nD) (q : Fin 1000) (q' : Fin 1024) (hq : q'.val = q.val) :
    W18 m ρ c (Proc.devRef .tc main_v17) (ix1 q') = W12 m ρ c (Proc.devRef .tc main_arg12) (ix1 q) := by
  show StableHlo.after hostOps9_5 (StableHlo.after hostOps9_4 (StableHlo.after hostOps9_3 (StableHlo.after hostOps9_2
    (StableHlo.after hostOps9_1 (StableHlo.after hostOps9 (W12 m ρ c)))))) (Proc.devRef .tc main_v17) (ix1 q') = _
  after_results
  show pad S1024 ![0] ![24] ![0] (W12 m ρ c (Proc.devRef .tc main_arg12)) _ pads_S1000_S1024_0240 h_S_ (ix1 q') = _
  exact pad_vec_apply 24 _ _ pads_S1000_S1024_0240 h_S_ q q' hq

/-! ## What the last layer's regions read is what the host stretches before them left -/

/-- The padded weights are as the padding left them when the sign region reads them. -/
theorem W18_main_v15 (c : Dev nD) : W18 m ρ c (Proc.devRef .tc main_v15) = W14 m ρ c (Proc.devRef .tc main_v15) :=
  calc W18 m ρ c (Proc.devRef .tc main_v15)
    _ = W17 m ρ c (Proc.devRef .tc main_v15) := W18_keep m ρ c main_v15 (by decide)
    _ = W16 m ρ c (Proc.devRef .tc main_v15) := W17_keep m ρ c main_v15 (by decide)
    _ = W15 m ρ c (Proc.devRef .tc main_v15) := W16_keep m ρ c main_v15 (by decide)
    _ = W14 m ρ c (Proc.devRef .tc main_v15) := W15_keep m ρ c main_v15 (by decide)

/-- The last hidden layer's output is as its region left it when the product region reads it. -/
theorem W19_main_v14 (c : Dev nD) : W19 m ρ c (Proc.devRef .tc main_v14) = W12 m ρ c (Proc.devRef .tc main_v14) :=
  calc W19 m ρ c (Proc.devRef .tc main_v14)
    _ = W18 m ρ c (Proc.devRef .tc main_v14) := W19_of_ne m ρ c main_v14 (by decide)
    _ = W17 m ρ c (Proc.devRef .tc main_v14) := W18_keep m ρ c main_v14 (by decide)
    _ = W16 m ρ c (Proc.devRef .tc main_v14) := W17_keep m ρ c main_v14 (by decide)
    _ = W15 m ρ c (Proc.devRef .tc main_v14) := W16_keep m ρ c main_v14 (by decide)
    _ = W14 m ρ c (Proc.devRef .tc main_v14) := W15_keep m ρ c main_v14 (by decide)
    _ = W13 m ρ c (Proc.devRef .tc main_v14) := W14_keep m ρ c main_v14 (by decide)
    _ = W12 m ρ c (Proc.devRef .tc main_v14) := W13_keep m ρ c main_v14 (by decide)

/-- The padded scale is as the padding left it when it is made a row. -/
theorem W20_main_v16 (c : Dev nD) : W20 m ρ c (Proc.devRef .tc main_v16) = W16 m ρ c (Proc.devRef .tc main_v16) :=
  calc W20 m ρ c (Proc.devRef .tc main_v16)
    _ = W19 m ρ c (Proc.devRef .tc main_v16) := W20_of_ne m ρ c main_v16 (by decide)
    _ = W18 m ρ c (Proc.devRef .tc main_v16) := W19_of_ne m ρ c main_v16 (by decide)
    _ = W17 m ρ c (Proc.devRef .tc main_v16) := W18_keep m ρ c main_v16 (by decide)
    _ = W16 m ρ c (Proc.devRef .tc main_v16) := W17_keep m ρ c main_v16 (by decide)

/-- The padded shift is as the padding left it when it is made a row. -/
theorem W20_main_v17 (c : Dev nD) : W20 m ρ c (Proc.devRef .tc main_v17) = W18 m ρ c (Proc.devRef .tc main_v17) :=
  calc W20 m ρ c (Proc.devRef .tc main_v17)
    _ = W19 m ρ c (Proc.devRef .tc main_v17) := W20_of_ne m ρ c main_v17 (by decide)
    _ = W18 m ρ c (Proc.devRef .tc main_v17) := W19_of_ne m ρ c main_v17 (by decide)

/-- Entry `q < 1000` of the scale row the normalizing region reads is entry `q` of the scale. -/
theorem W21_main_v20_apply (c : Dev nD) (q : Fin 1000) (q' : Fin 1024) (hq : q'.val = q.val) (z : Fin 1) :
    W21 m ρ c (Proc.devRef .tc main_v20) (ix2 z q') = W12 m ρ c (Proc.devRef .tc main_arg11) (ix1 q) := by
  have e : W21 m ρ c (Proc.devRef .tc main_v20)
      = shapeCast S1x1024 (W20 m ρ c (Proc.devRef .tc main_v16)) shapeCasts_S1024_S1x1024 := by
    show StableHlo.after hostOps11 (W20 m ρ c) (Proc.devRef .tc main_v20) = _
    after_results
    rfl
  rw [e]
  refine (shapeCast_a_1a_apply (W20 m ρ c (Proc.devRef .tc main_v16)) shapeCasts_S1024_S1x1024 z q').trans ?_
  rw [W20_main_v16]
  exact W16_main_v16_apply m ρ c q q' hq

/-- Entry `q < 1000` of the shift row the normalizing region reads is entry `q` of the shift. -/
theorem W21_main_v21_apply (c : Dev nD) (q : Fin 1000) (q' : Fin 1024) (hq : q'.val = q.val) (z : Fin 1) :
    W21 m ρ c (Proc.devRef .tc main_v21) (ix2 z q') = W12 m ρ c (Proc.devRef .tc main_arg12) (ix1 q) := by
  have e : W21 m ρ c (Proc.devRef .tc main_v21)
      = shapeCast S1x1024 (W20 m ρ c (Proc.devRef .tc main_v17)) shapeCasts_S1024_S1x1024 := by
    show StableHlo.after hostOps11 (W20 m ρ c) (Proc.devRef .tc main_v21) = _
    after_results
    rfl
  rw [e]
  refine (shapeCast_a_1a_apply (W20 m ρ c (Proc.devRef .tc main_v17)) shapeCasts_S1024_S1x1024 z q').trans ?_
  rw [W20_main_v17]
  exact W18_main_v17_apply m ρ c q q' hq

/-! ## The columns below the padding: the padded layer, cut back, is the layer -/

/-- Column means agree where the columns do. -/
theorem colMean_col {A B B' : ℕ} (N : ℝ) (H : (⟨2, ![A, B]⟩ : Shape).Idx → EReal) (H' : (⟨2, ![A, B']⟩ : Shape).Idx → EReal)
    (b : Fin B) (b' : Fin B') (h : ∀ a : Fin A, H (ix2 a b) = H' (ix2 a b')) (z z' : Fin 1) :
    colMean N H (ix2 z b) = colMean N H' (ix2 z' b') := by
  rw [colMean_apply, colMean_apply]
  exact congrArg (· * _) (Finset.sum_congr rfl fun a _ => h a)

/-- Column variances agree where the columns do. -/
theorem colVar_col {A B B' : ℕ} (N : ℝ) (H : (⟨2, ![A, B]⟩ : Shape).Idx → EReal) (H' : (⟨2, ![A, B']⟩ : Shape).Idx → EReal)
    (b : Fin B) (b' : Fin B') (h : ∀ a : Fin A, H (ix2 a b) = H' (ix2 a b')) (z z' : Fin 1) :
    colVar N H (ix2 z b) = colVar N H' (ix2 z' b') := by
  rw [colVar_apply, colVar_apply]
  have h1 : ∑ a : Fin A, H (ix2 a b) = ∑ a : Fin A, H' (ix2 a b') := Finset.sum_congr rfl fun a _ => h a
  have h2 : ∑ a : Fin A, H (ix2 a b) * H (ix2 a b) = ∑ a : Fin A, H' (ix2 a b') * H' (ix2 a b') :=
    Finset.sum_congr rfl fun a _ => by rw [h a]
  rw [h1, h2]

/-- A layer computed over weights, scale and shift padded from `n` to `k` columns' worth, then cut back to the first
    `n` columns, is the layer over the unpadded ones: column `q < n` of the product, of its mean and of its variance
    involve only row `q` of the weights, and the scale and shift are read at entry `q`. -/
theorem slice_normAffine_eq {K n k : ℕ} (hnk : n ≤ k)
    (X : (⟨2, ![4096, K]⟩ : Shape).Idx → EReal) (Wp : (⟨2, ![k, K]⟩ : Shape).Idx → EReal)
    (W : (⟨2, ![n, K]⟩ : Shape).Idx → EReal) (G B : (⟨2, ![1, k]⟩ : Shape).Idx → EReal)
    (g b : (⟨1, ![n]⟩ : Shape).Idx → EReal)
    (hW : ∀ (q : Fin n) (p : Fin K) (q' : Fin k), q'.val = q.val → Wp (ix2 q' p) = W (ix2 q p))
    (hG : ∀ (q : Fin n) (q' : Fin k), q'.val = q.val → G (ix2 (0 : Fin 1) q') = g (ix1 q))
    (hB : ∀ (q : Fin n) (q' : Fin k), q'.val = q.val → B (ix2 (0 : Fin 1) q') = b (ix1 q))
    (hs : (⟨2, ![4096, k]⟩ : Shape).Slices ![0, 0] ⟨2, ![4096, n]⟩) :
    extractStridedSlice ⟨2, ![4096, n]⟩ ![0, 0]
        (normAffine 4096 k (prod X (signArr Wp)) (colMean 4096 (prod X (signArr Wp))) (colVar 4096 (prod X (signArr Wp))) G B) hs
      = kLayerPre X W g b := by
  funext i
  obtain ⟨r, q, rfl⟩ : ∃ (r : Fin 4096) (q : Fin n), i = ix2 r q := ⟨i 0, i 1, eq_ix2 i⟩
  have hq' : q.val < k := lt_of_lt_of_le q.isLt hnk
  have hP : ∀ a : Fin 4096, prod X (signArr Wp) (ix2 a (⟨q.val, hq'⟩ : Fin k)) = prod X (signArr W) (ix2 a q) := fun a => by
    rw [prod_apply, prod_apply]
    exact Finset.sum_congr rfl fun p _ => by rw [signArr_apply, signArr_apply, hW q p ⟨q.val, hq'⟩ rfl]
  rw [slice2_axis1_apply 0 _ hs r q ⟨q.val, hq'⟩ (Nat.zero_add _).symm]
  unfold kLayerPre
  rw [kNorm_apply, asRow_apply, asRow_apply, normAffine_apply]
  show G (ix2 (0 : Fin 1) (⟨q.val, hq'⟩ : Fin k))
        * (prod X (signArr Wp) (ix2 r (⟨q.val, hq'⟩ : Fin k)) - colMean 4096 (prod X (signArr Wp)) (ix2 (0 : Fin 1) (⟨q.val, hq'⟩ : Fin k)))
        * Ideal.rsqrt (colVar 4096 (prod X (signArr Wp)) (ix2 (0 : Fin 1) (⟨q.val, hq'⟩ : Fin k)) + Ideal.ofBits .f32 0x3727C5AC#32)
      + B (ix2 (0 : Fin 1) (⟨q.val, hq'⟩ : Fin k)) = _
  rw [hG q _ rfl, hB q _ rfl, hP r,
    colMean_col 4096 (prod X (signArr Wp)) (prod X (signArr W)) (⟨q.val, hq'⟩ : Fin k) q hP 0 0,
    colVar_col 4096 (prod X (signArr Wp)) (prod X (signArr W)) (⟨q.val, hq'⟩ : Fin k) q hP 0 0]

/-! ## The last layer through the program -/

/-- The last hidden layer's output, as its region leaves it. -/
abbrev X3 (c : Dev nD) : S4096x4096.Idx → EReal := W12 m ρ c (Proc.devRef .tc main_v14)

/-- The last layer's weights padded to 1024 rows. -/
abbrev Wpad (c : Dev nD) : S1024x4096.Idx → EReal := W14 m ρ c (Proc.devRef .tc main_v15)

/-- The padded layer's product: the hidden output times the transposed signs of the padded weights. -/
abbrev P3 (c : Dev nD) : S4096x1024.Idx → EReal := prod (X3 m ρ c) (signArr (Wpad m ρ c))

/-- The sign region leaves the signs of the padded weights. -/
theorem V19_main_v18 (c : Dev nD) : V19 m ρ c main_v18 = signOf9 (W14 m ρ c (Proc.devRef .tc main_v15)) := by
  have h := (W19_main_v18 m ρ c).trans (final9 (V18 m ρ) c)
  rw [← W18_main_v15 m ρ c]
  exact h

/-- The product region's product is the padded layer's. -/
theorem H10_eq (c : Dev nD) : H10 (V19 m ρ) c = P3 m ρ c := by
  show prod (V19 m ρ c main_v14) (V19 m ρ c main_v18) = _
  rw [V19_main_v18]
  show prod (W19 m ρ c (Proc.devRef .tc main_v14)) _ = _
  rw [W19_main_v14]
  rfl

/-- The product array the normalizing region reads. -/
theorem V21_main_v19_0 (c : Dev nD) : V21 m ρ c main_v19_0 = P3 m ρ c :=
  (((W21_keep m ρ c main_v19_0 (by decide)).trans (W20_main_v19_0 m ρ c)).trans (arr10_2 (V19 m ρ) c)).trans (H10_eq m ρ c)

/-- The mean row the normalizing region reads. -/
theorem V21_main_v19_1 (c : Dev nD) : V21 m ρ c main_v19_1 = colMean 4096 (P3 m ρ c) :=
  (((W21_keep m ρ c main_v19_1 (by decide)).trans (W20_main_v19_1 m ρ c)).trans (arr10_3 (V19 m ρ) c)).trans
    (congrArg (colMean 4096) (H10_eq m ρ c))

/-- The variance row the normalizing region reads. -/
theorem V21_main_v19_2 (c : Dev nD) : V21 m ρ c main_v19_2 = colVar 4096 (P3 m ρ c) :=
  (((W21_keep m ρ c main_v19_2 (by decide)).trans (W20_main_v19_2 m ρ c)).trans (arr10_4 (V19 m ρ) c)).trans
    (congrArg (colVar 4096) (H10_eq m ρ c))

/-- THE LAST LAYER: the program's result array is the kernel's spelling of the last layer at the last hidden layer's
    output and the three parameter arrays as launched. -/
theorem kernel_layer3 (c : Dev nD) :
    W23 m ρ c (Proc.devRef .tc main_v23)
      = kLayer3 (W12 m ρ c (Proc.devRef .tc main_v14)) (m ((c : Thread nD τ).loc main_arg10))
          (m ((c : Thread nD τ).loc main_arg11)) (m ((c : Thread nD τ).loc main_arg12)) := by
  have h11 : (dat11 (V21 m ρ) c).arrAt 5 cfg11.N
      = normAffine 4096 1024 (V21 m ρ c main_v19_0) (V21 m ρ c main_v19_1) (V21 m ρ c main_v19_2)
          (V21 m ρ c main_v20) (V21 m ρ c main_v21) :=
    final11 (V21 m ρ) c
  rw [result_eq m ρ c, h11, V21_main_v19_0, V21_main_v19_1, V21_main_v19_2]
  exact slice_normAffine_eq (by norm_num) (X3 m ρ c) (Wpad m ρ c) (m ((c : Thread nD τ).loc main_arg10))
    (V21 m ρ c main_v20) (V21 m ρ c main_v21) (m ((c : Thread nD τ).loc main_arg11)) (m ((c : Thread nD τ).loc main_arg12))
    (fun q p q' hq => (W14_main_v15_apply m ρ c q p q' hq).trans (congrFun (W12_main_arg10 m ρ c) _))
    (fun q q' hq => (W21_main_v20_apply m ρ c q q' hq 0).trans (congrFun (W12_main_arg11 m ρ c) _))
    (fun q q' hq => (W21_main_v21_apply m ρ c q q' hq 0).trans (congrFun (W12_main_arg12 m ρ c) _))
    slices_S4096x1024_S4096x1000_0_0

end Cert.KernelIdeal.Hand

end
-- ==== Proof.KI.KernelValue.lean ====
import proofs.«157460_j63591285784858_2_alg».proof.Proof.KI.KernelValue0
import proofs.«157460_j63591285784858_2_alg».proof.Proof.KI.KernelValue1
import proofs.«157460_j63591285784858_2_alg».proof.Proof.KI.KernelValue2
import proofs.«157460_j63591285784858_2_alg».proof.Proof.KI.KernelValue3
import proofs.«157460_j63591285784858_2_alg».proof.Proof.LayerBridge
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.MatStats Cert.LayerBridge

variable (m : (ℓ : Loc nD τ sig) → Buf (Elt Ideal) ℓ) (ρ : Dev nD → PrngReg)

/-- The result array after the whole program: the four layers composed over the launch contents of the thirteen
    argument arrays, each layer's activation array being the next layer's input. -/
theorem kernel_value (c : Dev nD) :
    W23 m ρ c (Proc.devRef .tc main_v23)
      = kLayer3 (kLayerMid (kLayerMid (kLayer0 (m ((c : Thread nD τ).loc main_arg0)) (m ((c : Thread nD τ).loc main_arg1)) (m ((c : Thread nD τ).loc main_arg2)) (m ((c : Thread nD τ).loc main_arg3)))
            (m ((c : Thread nD τ).loc main_arg4)) (m ((c : Thread nD τ).loc main_arg5)) (m ((c : Thread nD τ).loc main_arg6)))
          (m ((c : Thread nD τ).loc main_arg7)) (m ((c : Thread nD τ).loc main_arg8)) (m ((c : Thread nD τ).loc main_arg9)))
        (m ((c : Thread nD τ).loc main_arg10)) (m ((c : Thread nD τ).loc main_arg11)) (m ((c : Thread nD τ).loc main_arg12)) := by
  rw [kernel_layer3 m ρ c, kernel_layer2 m ρ c, kernel_layer1 m ρ c, kernel_layer0 m ρ c]

end Cert.KernelIdeal.Hand

end
-- ==== Proof.lean ====
/-
  The claim: the word-level kernel program and its idealization run to the end with the argument arrays unchanged, so
  does the reference; the idealization's seven rewrites are the sign rule's; and at the exact instance the idealized
  kernel and the reference end with the same result array.

  The kernel is a four-layer binarized network. Each layer is three regions: the weights' signs (a pointwise region),
  the product of the activations with the transposed signs accumulated over blocks of the reduction axis in a scratch
  accumulator kept between grid points, with the columns' sums and sums of squares accumulated over the batch tiles in
  two scratch rows from which the column mean and the clamped variance E[h²] − E[h]² are written, and the column
  normalization g·(h − mean)·rsqrt(var + ε) + b followed by the sign (not in the last layer, whose 1000 columns are
  padded to 1024 with zeros and sliced back). The reference takes the variance as the mean squared deviation. Over the
  extended reals the two agree where the products are finite, which the finiteness of the inputs gives layer by layer:
  a sign is one of −1, 0, 1, and var + ε is positive, so every layer's output is finite again.

  The frames: each region's body is run once per control case; the program's 23 segments (12 regions, 11 stretches of
  host operations) are launched in order, every unscoped buffer's contents named at every boundary. The result buffer
  is read off the last boundary as the four layers in the kernel's spelling of the launch arguments; the reference's
  run names its result as the four layers in its own spelling; the two spellings are one function.
-/
import proofs.«157460_j63591285784858_2_alg».proof.Defs
import proofs.«157460_j63591285784858_2_alg».proof.Proof.ClaimOf
import proofs.«157460_j63591285784858_2_alg».proof.Proof.Algebraic
import proofs.«157460_j63591285784858_2_alg».proof.Proof.LayerBridge
import proofs.«157460_j63591285784858_2_alg».proof.Proof.KI.MainRun
import proofs.«157460_j63591285784858_2_alg».proof.Proof.K.MainRun
import proofs.«157460_j63591285784858_2_alg».proof.Proof.KI.R1Body
import proofs.«157460_j63591285784858_2_alg».proof.Proof.KI.R4Body
import proofs.«157460_j63591285784858_2_alg».proof.Proof.KI.R7Body
import proofs.«157460_j63591285784858_2_alg».proof.Proof.KI.R10Body
import proofs.«157460_j63591285784858_2_alg».proof.Proof.K.R1Body
import proofs.«157460_j63591285784858_2_alg».proof.Proof.K.R4Body
import proofs.«157460_j63591285784858_2_alg».proof.Proof.K.R7Body
import proofs.«157460_j63591285784858_2_alg».proof.Proof.K.R10Body
import proofs.«157460_j63591285784858_2_alg».proof.Proof.KI.KernelValue
import Idealize.ShloMosaic.Adequacy
import Idealize.ShloMosaic.Init

noncomputable section

namespace Cert.Proof

open Idealize.ShloMosaic Idealize.SL.Sem

/-- The word-level program runs and leaves its arguments unchanged. -/
theorem frame_Kernel : Cert.frame_Kernel (hKernel := Cert.Kernel.Gen.facts) (hPre_finite_inputs := Cert.Pre_finite_inputs.Gen.facts) :=
  fun m ρ _ => Cert.Kernel.Hand.frame (F := Bits) (fun V c => Cert.Kernel.Hand.body_obligation1 V c)
    (fun V c => Cert.Kernel.Hand.body_obligation4 V c) (fun V c => Cert.Kernel.Hand.body_obligation7 V c)
    (fun V c => Cert.Kernel.Hand.body_obligation10 V c) m ρ

/-- So does its idealization. -/
theorem frame_KernelIdeal : Cert.frame_KernelIdeal (hKernelIdeal := Cert.KernelIdeal.Gen.facts) (hPre_finite_inputs := Cert.Pre_finite_inputs.Gen.facts) :=
  fun m ρ _ => Cert.KernelIdeal.Hand.frame (F := Ideal) (fun V c => Cert.KernelIdeal.Hand.body_obligation1 V c)
    (fun V c => Cert.KernelIdeal.Hand.body_obligation4 V c) (fun V c => Cert.KernelIdeal.Hand.body_obligation7 V c)
    (fun V c => Cert.KernelIdeal.Hand.body_obligation10 V c) m ρ

/-- At the exact instance the idealized kernel's result is the reference's: both are the four layers of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  algebraic_of
    (fun x W0 g0 b0 W1 g1 b1 W2 g2 b2 W3 g3 b3 =>
      Cert.LayerBridge.kLayer3 (Cert.LayerBridge.kLayerMid (Cert.LayerBridge.kLayerMid (Cert.LayerBridge.kLayer0 x W0 g0 b0) W1 g1 b1) W2 g2 b2) W3 g3 b3)
    (fun m ρ => Cert.KernelIdeal.Hand.run_all (F := Ideal) (fun V c => Cert.KernelIdeal.Hand.body_obligation1 V c)
      (fun V c => Cert.KernelIdeal.Hand.body_obligation4 V c) (fun V c => Cert.KernelIdeal.Hand.body_obligation7 V c)
      (fun V c => Cert.KernelIdeal.Hand.body_obligation10 V c) m ρ)
    (fun m ρ c => Cert.KernelIdeal.Hand.kernel_value m ρ c)
    (fun x W0 g0 b0 W1 g1 b1 W2 g2 b2 W3 g3 b3 hx hg0 hb0 hg1 hb1 hg2 hb2 hg3 hb3 =>
      Cert.LayerBridge.net_eq x W0 g0 b0 W1 g1 b1 W2 g2 b2 W3 g3 b3 hx hg0 hb0 hg1 hb1 hg2 hb2 hg3 hb3)

theorem claim : Cert.Claim := claim_of frame_Kernel frame_KernelIdeal algebraic

end Cert.Proof

end
